-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v43_2)) (v1 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_2) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_v331) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x128x128 : Shape := ⟨4, ![4, 200, 128, 128]⟩
abbrev S_ : Shape := ⟨0, ![]⟩

class Facts : Prop where
  bcast_S_S4x200x128x128 : S_.BroadcastsInDim S4x200x128x128 (![] : Fin 0 → Fin S4x200x128x128.rank)
  reducesTo_S4x200x128x128_S_d0_1_2_3 : S4x200x128x128.ReducesTo [0, 1, 2, 3] S_
  h_S_ : 0 < S_.numel

variable [Facts]

def fn {F : FTy → Type} [FloatOps F] (main_arg0 : FVec F S4x200x128x128 .f32) : IVec S_ 1 :=
  let main_v0 : FVec F S4x200x128x128 .f32 := Host.absf main_arg0
  let main_cst : FVec F S_ .f32 := constant S_ .f32 0x7F800000#32
  let main_v1 : FVec F S4x200x128x128 .f32 := broadcastInDim S4x200x128x128 ![] bcast_S_S4x200x128x128 main_cst
  let main_v2 : IVec S4x200x128x128 1 := cmpf .olt main_v0 main_v1
  let main_c : IVec S_ 1 := constantI S_ 1 1#1
  let main_v3 : IVec S_ 1 := (fun x v => Host.reduce IntOp.andi x v reducesTo_S4x200x128x128_S_d0_1_2_3 h_S_) main_v2 main_c
  main_v3
-- ==== Kernel.lean ====
abbrev S4x200x128x128 : Shape := ⟨4, ![4, 200, 128, 128]⟩
abbrev S16 : Shape := ⟨1, ![16]⟩
abbrev S_ : Shape := ⟨0, ![]⟩
abbrev S16x16 : Shape := ⟨2, ![16, 16]⟩
abbrev S256 : Shape := ⟨1, ![256]⟩
abbrev S256x1 : Shape := ⟨2, ![256, 1]⟩
abbrev S256x2 : Shape := ⟨2, ![256, 2]⟩
abbrev S4x128x128x200 : Shape := ⟨4, ![4, 128, 128, 200]⟩
abbrev S4x16384x200 : Shape := ⟨3, ![4, 16384, 200]⟩
abbrev S1x16384x200 : Shape := ⟨3, ![1, 16384, 200]⟩
abbrev S16384x200 : Shape := ⟨2, ![16384, 200]⟩
abbrev S256x200 : Shape := ⟨2, ![256, 200]⟩
abbrev S1x256x200 : Shape := ⟨3, ![1, 256, 200]⟩
abbrev S4x256x200 : Shape := ⟨3, ![4, 256, 200]⟩
abbrev S1x256x2 : Shape := ⟨3, ![1, 256, 2]⟩
abbrev S4x256x2 : Shape := ⟨3, ![4, 256, 2]⟩
abbrev S1x4096x200 : Shape := ⟨3, ![1, 4096, 200]⟩
abbrev S4096x200 : Shape := ⟨2, ![4096, 200]⟩
abbrev S4096 : Shape := ⟨1, ![4096]⟩
abbrev S4096x1 : Shape := ⟨2, ![4096, 1]⟩
abbrev S1x256 : Shape := ⟨2, ![1, 256]⟩
abbrev S4096x256 : Shape := ⟨2, ![4096, 256]⟩
abbrev S2x256 : Shape := ⟨2, ![2, 256]⟩
abbrev S4096x2 : Shape := ⟨2, ![4096, 2]⟩
abbrev S4x16384x256 : Shape := ⟨3, ![4, 16384, 256]⟩
abbrev S1x4096x256 : Shape := ⟨3, ![1, 4096, 256]⟩

abbrev nBuf : Space → Nat
  | .hbm => 58
  | .vmem => 67
  | .smem => 0
  | _ => 0

abbrev bufTy : (tb : Table) → Fin (tcTables nBuf tb) → BufTy
  | .hbm, ⟨0, _⟩ => ⟨S4x200x128x128, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16x16, .i32⟩
  | .hbm, ⟨16, _⟩ => ⟨S16x16, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S256x1, .i32⟩
  | .hbm, ⟨21, _⟩ => ⟨S256x2, .i32⟩
  | .hbm, ⟨22, _⟩ => ⟨S256x2, .f32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S4x128x128x200, .f32⟩
  | .hbm, ⟨30, _⟩ => ⟨S4x16384x200, .f32⟩
  | .hbm, ⟨31, _⟩ => ⟨S4x16384x200, .bf16⟩
  | .hbm, ⟨32, _⟩ => ⟨S1x16384x200, .f32⟩
  | .hbm, ⟨33, _⟩ => ⟨S16384x200, .f32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S256x200, .f32⟩
  | .hbm, ⟨43, _⟩ => ⟨S1x256x200, .f32⟩
  | .hbm, ⟨44, _⟩ => ⟨S4x256x200, .f32⟩
  | .hbm, ⟨45, _⟩ => ⟨S1x256x2, .f32⟩
  | .hbm, ⟨46, _⟩ => ⟨S4x256x2, .f32⟩
  | .hbm, ⟨47, _⟩ => ⟨S4x256x200, .f32⟩
  | .hbm, ⟨48, _⟩ => ⟨S4x256x2, .f32⟩
  | .hbm, ⟨49, _⟩ => ⟨S4x256x200, .f32⟩
  | .hbm, ⟨50, _⟩ => ⟨S4x256x2, .f32⟩
  | .hbm, ⟨51, _⟩ => ⟨S4x256x200, .f32⟩
  | .hbm, ⟨52, _⟩ => ⟨S4x256x2, .f32⟩
  | .hbm, ⟨53, _⟩ => ⟨S4x256x200, .f32⟩
  | .hbm, ⟨54, _⟩ => ⟨S4x256x2, .f32⟩
  | .hbm, ⟨55, _⟩ => ⟨S4x256x200, .f32⟩
  | .hbm, ⟨56, _⟩ => ⟨S4x256x2, .f32⟩
  | .hbm, ⟨57, _⟩ => ⟨S4x16384x256, .f32⟩
  | .local _ .vmem, ⟨0, _⟩ => ⟨S1x4096x200, .bf16⟩
  | .local _ .vmem, ⟨1, _⟩ => ⟨S1x4096x200, .bf16⟩
  | .local _ .vmem, ⟨2, _⟩ => ⟨S1x256x200, .f32⟩
  | .local _ .vmem, ⟨3, _⟩ => ⟨S1x256x200, .f32⟩
  | .local _ .vmem, ⟨4, _⟩ => ⟨S1x256x2, .f32⟩
  | .local _ .vmem, ⟨5, _⟩ => ⟨S1x256x2, .f32⟩
  | .local _ .vmem, ⟨6, _⟩ => ⟨S1x256x200, .f32⟩
  | .local _ .vmem, ⟨7, _⟩ => ⟨S1x256x200, .f32⟩
  | .local _ .vmem, ⟨8, _⟩ => ⟨S1x256x2, .f32⟩
  | .local _ .vmem, ⟨9, _⟩ => ⟨S1x256x2, .f32⟩
  | .local _ .vmem, ⟨10, _⟩ => ⟨S256x200, .f32⟩
  | .local _ .vmem, ⟨11, _⟩ => ⟨S256x2, .f32⟩
  | .local _ .vmem, ⟨12, _⟩ => ⟨S256x1, .f32⟩
  | .local _ .vmem, ⟨13, _⟩ => ⟨S1x4096x200, .bf16⟩
  | .local _ .vmem, ⟨14, _⟩ => ⟨S1x4096x200, .bf16⟩
  | .local _ .vmem, ⟨15, _⟩ => ⟨S1x256x200, .f32⟩
  | .local _ .vmem, ⟨16, _⟩ => ⟨S1x256x200, .f32⟩
  | .local _ .vmem, ⟨17, _⟩ => ⟨S1x256x2, .f32⟩
  | .local _ .vmem, ⟨18, _⟩ => ⟨S1x256x2, .f32⟩
  | .local _ .vmem, ⟨19, _⟩ => ⟨S1x256x200, .f32⟩
  | .local _ .vmem, ⟨20, _⟩ => ⟨S1x256x200, .f32⟩
  | .local _ .vmem, ⟨21, _⟩ => ⟨S1x256x2, .f32⟩
  | .local _ .vmem, ⟨22, _⟩ => ⟨S1x256x2, .f32⟩
  | .local _ .vmem, ⟨23, _⟩ => ⟨S256x200, .f32⟩
  | .local _ .vmem, ⟨24, _⟩ => ⟨S256x2, .f32⟩
  | .local _ .vmem, ⟨25, _⟩ => ⟨S256x1, .f32⟩
  | .local _ .vmem, ⟨26, _⟩ => ⟨S1x4096x200, .bf16⟩
  | .local _ .vmem, ⟨27, _⟩ => ⟨S1x4096x200, .bf16⟩
  | .local _ .vmem, ⟨28, _⟩ => ⟨S1x256x200, .f32⟩
  | .local _ .vmem, ⟨29, _⟩ => ⟨S1x256x200, .f32⟩
  | .local _ .vmem, ⟨30, _⟩ => ⟨S1x256x2, .f32⟩
  | .local _ .vmem, ⟨31, _⟩ => ⟨S1x256x2, .f32⟩
  | .local _ .vmem, ⟨32, _⟩ => ⟨S1x256x200, .f32⟩
  | .local _ .vmem, ⟨33, _⟩ => ⟨S1x256x200, .f32⟩
  | .local _ .vmem, ⟨34, _⟩ => ⟨S1x256x2, .f32⟩
  | .local _ .vmem, ⟨35, _⟩ => ⟨S1x256x2, .f32⟩
  | .local _ .vmem, ⟨36, _⟩ => ⟨S256x200, .f32⟩
  | .local _ .vmem, ⟨37, _⟩ => ⟨S256x2, .f32⟩
  | .local _ .vmem, ⟨38, _⟩ => ⟨S256x1, .f32⟩
  | .local _ .vmem, ⟨39, _⟩ => ⟨S1x4096x200, .bf16⟩
  | .local _ .vmem, ⟨40, _⟩ => ⟨S1x4096x200, .bf16⟩
  | .local _ .vmem, ⟨41, _⟩ => ⟨S1x256x200, .f32⟩
  | .local _ .vmem, ⟨42, _⟩ => ⟨S1x256x200, .f32⟩
  | .local _ .vmem, ⟨43, _⟩ => ⟨S1x256x2, .f32⟩
  | .local _ .vmem, ⟨44, _⟩ => ⟨S1x256x2, .f32⟩
  | .local _ .vmem, ⟨45, _⟩ => ⟨S1x256x200, .f32⟩
  | .local _ .vmem, ⟨46, _⟩ => ⟨S1x256x200, .f32⟩
  | .local _ .vmem, ⟨47, _⟩ => ⟨S1x256x2, .f32⟩
  | .local _ .vmem, ⟨48, _⟩ => ⟨S1x256x2, .f32⟩
  | .local _ .vmem, ⟨49, _⟩ => ⟨S256x200, .f32⟩
  | .local _ .vmem, ⟨50, _⟩ => ⟨S256x2, .f32⟩
  | .local _ .vmem, ⟨51, _⟩ => ⟨S256x1, .f32⟩
  | .local _ .vmem, ⟨52, _⟩ => ⟨S1x4096x200, .bf16⟩
  | .local _ .vmem, ⟨53, _⟩ => ⟨S1x4096x200, .bf16⟩
  | .local _ .vmem, ⟨54, _⟩ => ⟨S1x256x200, .f32⟩
  | .local _ .vmem, ⟨55, _⟩ => ⟨S1x256x200, .f32⟩
  | .local _ .vmem, ⟨56, _⟩ => ⟨S1x256x2, .f32⟩
  | .local _ .vmem, ⟨57, _⟩ => ⟨S1x256x2, .f32⟩
  | .local _ .vmem, ⟨58, _⟩ => ⟨S1x256x200, .f32⟩
  | .local _ .vmem, ⟨59, _⟩ => ⟨S1x256x200, .f32⟩
  | .local _ .vmem, ⟨60, _⟩ => ⟨S1x256x2, .f32⟩
  | .local _ .vmem, ⟨61, _⟩ => ⟨S1x256x2, .f32⟩
  | .local _ .vmem, ⟨62, _⟩ => ⟨S1x4096x256, .f32⟩
  | .local _ .vmem, ⟨63, _⟩ => ⟨S1x4096x256, .f32⟩
  | .local _ .vmem, ⟨64, _⟩ => ⟨S256x200, .f32⟩
  | .local _ .vmem, ⟨65, _⟩ => ⟨S256x2, .f32⟩
  | .local _ .vmem, ⟨66, _⟩ => ⟨S256x1, .f32⟩
  | _, _ => ⟨S4x200x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_c_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev main_v40_0 : Ref sig .tc := ⟨.hbm, 49, rfl⟩
abbrev main_v40_1 : Ref sig .tc := ⟨.hbm, 50, rfl⟩
abbrev main_v41_0 : Ref sig .tc := ⟨.hbm, 51, rfl⟩
abbrev main_v41_1 : Ref sig .tc := ⟨.hbm, 52, rfl⟩
abbrev main_v42_0 : Ref sig .tc := ⟨.hbm, 53, rfl⟩
abbrev main_v42_1 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_scratch0 : Ref sig .tc := ⟨.vmem, 49, rfl⟩
abbrev cc3_scratch1 : Ref sig .tc := ⟨.vmem, 50, rfl⟩
abbrev cc3_scratch2 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg3_1 : Ref sig .tc := ⟨.vmem, 59, rfl⟩
abbrev cc4_stg4_0 : Ref sig .tc := ⟨.vmem, 60, rfl⟩
abbrev cc4_stg4_1 : Ref sig .tc := ⟨.vmem, 61, rfl⟩
abbrev cc4_stg5_0 : Ref sig .tc := ⟨.vmem, 62, rfl⟩
abbrev cc4_stg5_1 : Ref sig .tc := ⟨.vmem, 63, rfl⟩
abbrev cc4_scratch0 : Ref sig .tc := ⟨.vmem, 64, rfl⟩
abbrev cc4_scratch1 : Ref sig .tc := ⟨.vmem, 65, rfl⟩
abbrev cc4_scratch2 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v89 : BitVec 1 := Scalar.cmpi .eq arg1 c3_i32
  let v90 : BitVec 32 := Scalar.extui v89
  let c0_i32_34 : BitVec 32 := 0#32
  let v91 : BitVec 1 := Scalar.cmpi .ne v90 c0_i32_34
  v91

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v89 : BitVec 1 := Scalar.cmpi .eq arg1 c3_i32
  let v90 : BitVec 32 := Scalar.extui v89
  let c0_i32_34 : BitVec 32 := 0#32
  let v91 : BitVec 1 := Scalar.cmpi .ne v90 c0_i32_34
  v91

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x200 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v89 : BitVec 1 := Scalar.cmpi .eq arg1 c3_i32
  let v90 : BitVec 32 := Scalar.extui v89
  let c0_i32_34 : BitVec 32 := 0#32
  let v91 : BitVec 1 := Scalar.cmpi .ne v90 c0_i32_34
  v91

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x200 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v89 : BitVec 1 := Scalar.cmpi .eq arg1 c3_i32
  let v90 : BitVec 32 := Scalar.extui v89
  let c0_i32_34 : BitVec 32 := 0#32
  let v91 : BitVec 1 := Scalar.cmpi .ne v90 c0_i32_34
  v91

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4096x200 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x256x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v92 : BitVec 1 := Scalar.cmpi .eq arg1 c3_i32
  let v93 : BitVec 32 := Scalar.extui v92
  let c0_i32_37 : BitVec 32 := 0#32
  let v94 : BitVec 1 := Scalar.cmpi .ne v93 c0_i32_37
  v94

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x4096x200 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x200 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x256x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x256x200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x256x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x4096x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

class Facts₀ : Prop where
  bcast_S_S16 : S_.BroadcastsInDim S16 (![] : Fin 0 → Fin S16.rank)
  bcast_S16_S16x16_0 : S16.BroadcastsInDim S16x16 (![0] : Fin 1 → Fin S16x16.rank)
  bcast_S16_S16x16_1 : S16.BroadcastsInDim S16x16 (![1] : Fin 1 → Fin S16x16.rank)
  shapeCasts_S16x16_S256 : S16x16.ShapeCasts S256
  bcast_S256_S256x1_0 : S256.BroadcastsInDim S256x1 (![0] : Fin 1 → Fin S256x1.rank)
  concatenates_S256x1_S256x1_S256x2_d1 : Shape.Concatenates [S256x1, S256x1] S256x2 1
  bcast_S_S256 : S_.BroadcastsInDim S256 (![] : Fin 0 → Fin S256.rank)
  transposes_S4x200x128x128_S4x128x128x200_0_2_3_1 : S4x200x128x128.Transposes [0, 2, 3, 1] S4x128x128x200
  shapeCasts_S4x128x128x200_S4x16384x200 : S4x128x128x200.ShapeCasts S4x16384x200
  bitsLt_bf16_f32 : FTy.bits .bf16 < FTy.bits .f32
  slices_S4x16384x200_S1x16384x200_0_0_0 : S4x16384x200.Slices ![0, 0, 0] S1x16384x200
  shapeCasts_S1x16384x200_S16384x200 : S1x16384x200.ShapeCasts S16384x200
  bcast_S256x200_S1x256x200_1_2 : S256x200.BroadcastsInDim S1x256x200 (![1, 2] : Fin 2 → Fin S1x256x200.rank)
  bcast_S1x256x200_S4x256x200_0_1_2 : S1x256x200.BroadcastsInDim S4x256x200 (![0, 1, 2] : Fin 3 → Fin S4x256x200.rank)
  bcast_S256x2_S1x256x2_1_2 : S256x2.BroadcastsInDim S1x256x2 (![1, 2] : Fin 2 → Fin S1x256x2.rank)
  bcast_S1x256x2_S4x256x2_0_1_2 : S1x256x2.BroadcastsInDim S4x256x2 (![0, 1, 2] : Fin 3 → Fin S4x256x2.rank)
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096x200_S1x4096x200_0_0_0 : ∀ a, (![0, 0, 0] : Fin 3 → Nat) a + S1x4096x200.size a ≤ S1x4096x200.size a
  h_S1x4096x200 : 0 < S1x4096x200.numel
  shapeCasts_S1x4096x200_S4096x200 : S1x4096x200.ShapeCasts S4096x200
  inb_S1x256x200_S1x256x200_0_0_0 : ∀ a, (![0, 0, 0] : Fin 3 → Nat) a + S1x256x200.size a ≤ S1x256x200.size a
  h_S1x256x200 : 0 < S1x256x200.numel
  shapeCasts_S1x256x200_S256x200 : S1x256x200.ShapeCasts S256x200
  inb_S1x256x2_S1x256x2_0_0_0 : ∀ a, (![0, 0, 0] : Fin 3 → Nat) a + S1x256x2.size a ≤ S1x256x2.size a
  h_S1x256x2 : 0 < S1x256x2.numel
  shapeCasts_S1x256x2_S256x2 : S1x256x2.ShapeCasts S256x2
  reduces_S4096x200_S4096 : S4096x200.Reduces [1] S4096
  shapeCasts_S4096_S4096x1 : S4096.ShapeCasts S4096x1
  reduces_S256x200_S256 : S256x200.Reduces [1] S256
  shapeCasts_S256_S256x1 : S256.ShapeCasts S256x1
  transposes_S256x1_p1_0_S1x256 : S256x1.Transposes [1, 0] S1x256
  broadcasts_S4096x1_S4096x256 : S4096x1.Broadcasts S4096x256
  broadcasts_S1x256_S4096x256 : S1x256.Broadcasts S4096x256
  iota_S4096x1_d0_w32 : S4096x1.Iotas .tc 32 [0]
  transposes_S256x2_p1_0_S2x256 : S256x2.Transposes [1, 0] S2x256
  slices_S2x256_o0_0_S1x256 : S2x256.Slices ![0, 0] S1x256
  slices_S2x256_o1_0_S1x256 : S2x256.Slices ![1, 0] S1x256
  reduces_S4096x256_S4096 : S4096x256.Reduces [1] S4096
  concatenates_S4096x1_S4096x1_S4096x2_d1 : Shape.Concatenates [S4096x1, S4096x1] S4096x2 1
  broadcasts_S256x1_S256x200 : S256x1.Broadcasts S256x200
  shapeCasts_S256x200_S1x256x200 : S256x200.ShapeCasts S1x256x200
  broadcasts_S256x1_S256x2 : S256x1.Broadcasts S256x2
  shapeCasts_S256x2_S1x256x2 : S256x2.ShapeCasts S1x256x2
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  gather_S16384x200_S256x1_S256x200_1_0_n_n_0_1_1200_wf : GatherDims.WF S16384x200 S256x1 S256x200 [1] [0] [] [0] [] 1 ![1, 200]
  dot_S4096x200_S256x200_S4096x256_1_1_0_0_n_n_wf : DotDims.WF S4096x200 S256x200 S4096x256 [1] [1] [0] [0] [] []
  dot_S4096x256_S4096x200_S256x200_0_0_1_1_n_n_wf : DotDims.WF S4096x256 S4096x200 S256x200 [0] [0] [1] [1] [] []
  dot_S4096x256_S4096x2_S256x2_0_0_1_1_n_n_wf : DotDims.WF S4096x256 S4096x2 S256x2 [0] [0] [1] [1] [] []
  dot_S4096x256_S4096x1_S256x1_0_0_1_1_n_n_wf : DotDims.WF S4096x256 S4096x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x200.size a ≤ S4x16384x200.size a
  hwx0_0 : ∀ i : grid0.Coords, EltTy.bits .bf16 = 32 ∨ (Rect.block (s := S4x16384x200) S1x4096x200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x200.size a ≤ S4x256x200.size a
  hwx0_1 : ∀ i : grid0.Coords, EltTy.bits .f32 = 32 ∨ (Rect.block (s := S4x256x200) S1x256x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2.size a ≤ S4x256x2.size a
  hwx0_2 : ∀ i : grid0.Coords, EltTy.bits .f32 = 32 ∨ (Rect.block (s := S4x256x2) S1x256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x200.size a ≤ S4x256x200.size a
  hwx0_3 : ∀ i : grid0.Coords, EltTy.bits .f32 = 32 ∨ (Rect.block (s := S4x256x200) S1x256x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2.size a ≤ S4x256x2.size a
  hwx0_4 : ∀ i : grid0.Coords, EltTy.bits .f32 = 32 ∨ (Rect.block (s := S4x256x2) S1x256x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x200.size a ≤ S4x16384x200.size a
  hwx1_0 : ∀ i : grid1.Coords, EltTy.bits .bf16 = 32 ∨ (Rect.block (s := S4x16384x200) S1x4096x200.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x200.size a ≤ S4x256x200.size a
  hwx1_1 : ∀ i : grid1.Coords, EltTy.bits .f32 = 32 ∨ (Rect.block (s := S4x256x200) S1x256x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2.size a ≤ S4x256x2.size a
  hwx1_2 : ∀ i : grid1.Coords, EltTy.bits .f32 = 32 ∨ (Rect.block (s := S4x256x2) S1x256x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x200.size a ≤ S4x256x200.size a
  hwx1_3 : ∀ i : grid1.Coords, EltTy.bits .f32 = 32 ∨ (Rect.block (s := S4x256x200) S1x256x200.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2.size a ≤ S4x256x2.size a
  hwx1_4 : ∀ i : grid1.Coords, EltTy.bits .f32 = 32 ∨ (Rect.block (s := S4x256x2) S1x256x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x200.size a ≤ S4x16384x200.size a
  hwx2_0 : ∀ i : grid2.Coords, EltTy.bits .bf16 = 32 ∨ (Rect.block (s := S4x16384x200) S1x4096x200.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x200.size a ≤ S4x256x200.size a
  hwx2_1 : ∀ i : grid2.Coords, EltTy.bits .f32 = 32 ∨ (Rect.block (s := S4x256x200) S1x256x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x2.size a ≤ S4x256x2.size a
  hwx2_2 : ∀ i : grid2.Coords, EltTy.bits .f32 = 32 ∨ (Rect.block (s := S4x256x2) S1x256x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x200.size a ≤ S4x256x200.size a
  hwx2_3 : ∀ i : grid2.Coords, EltTy.bits .f32 = 32 ∨ (Rect.block (s := S4x256x200) S1x256x200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x2.size a ≤ S4x256x2.size a
  hwx2_4 : ∀ i : grid2.Coords, EltTy.bits .f32 = 32 ∨ (Rect.block (s := S4x256x2) S1x256x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096x200.size a ≤ S4x16384x200.size a
  hwx3_0 : ∀ i : grid3.Coords, EltTy.bits .bf16 = 32 ∨ (Rect.block (s := S4x16384x200) S1x4096x200.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x200.size a ≤ S4x256x200.size a
  hwx3_1 : ∀ i : grid3.Coords, EltTy.bits .f32 = 32 ∨ (Rect.block (s := S4x256x200) S1x256x200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x2.size a ≤ S4x256x2.size a
  hwx3_2 : ∀ i : grid3.Coords, EltTy.bits .f32 = 32 ∨ (Rect.block (s := S4x256x2) S1x256x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x200.size a ≤ S4x256x200.size a
  hwx3_3 : ∀ i : grid3.Coords, EltTy.bits .f32 = 32 ∨ (Rect.block (s := S4x256x200) S1x256x200.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x2.size a ≤ S4x256x2.size a
  hwx3_4 : ∀ i : grid3.Coords, EltTy.bits .f32 = 32 ∨ (Rect.block (s := S4x256x2) S1x256x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096x200.size a ≤ S4x16384x200.size a
  hwx4_0 : ∀ i : grid4.Coords, EltTy.bits .bf16 = 32 ∨ (Rect.block (s := S4x16384x200) S1x4096x200.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256x200.size a ≤ S4x256x200.size a
  hwx4_1 : ∀ i : grid4.Coords, EltTy.bits .f32 = 32 ∨ (Rect.block (s := S4x256x200) S1x256x200.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256x2.size a ≤ S4x256x2.size a
  hwx4_2 : ∀ i : grid4.Coords, EltTy.bits .f32 = 32 ∨ (Rect.block (s := S4x256x2) S1x256x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x256x200.size a ≤ S4x256x200.size a
  hwx4_3 : ∀ i : grid4.Coords, EltTy.bits .f32 = 32 ∨ (Rect.block (s := S4x256x200) S1x256x200.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x256x2.size a ≤ S4x256x2.size a
  hwx4_4 : ∀ i : grid4.Coords, EltTy.bits .f32 = 32 ∨ (Rect.block (s := S4x256x2) S1x256x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x4096x256.size a ≤ S4x16384x256.size a
  hwx4_5 : ∀ i : grid4.Coords, EltTy.bits .f32 = 32 ∨ (Rect.block (s := S4x16384x256) S1x4096x256.size (cc4_transform_5 i) (hinb4_5 i)).WholeWords (EltTy.packing .f32)

variable [Facts₀]

def gather_S16384x200_S256x1_S256x200_1_0_n_n_0_1_1200 : GatherDims S16384x200 S256x1 S256x200 where
  offsetDims := [1]
  collapsedSliceDims := [0]
  operandBatchingDims := []
  startIndicesBatchingDims := []
  startIndexMap := [0]
  indexVectorDim := 1
  sliceSizes := ![1, 200]
  wf := gather_S16384x200_S256x1_S256x200_1_0_n_n_0_1_1200_wf
def dot_S4096x200_S256x200_S4096x256_1_1_0_0_n_n : DotDims S4096x200 S256x200 S4096x256 where
  lhsContracting := [1]
  rhsContracting := [1]
  lhsNonContracting := [0]
  rhsNonContracting := [0]
  lhsBatch := []
  rhsBatch := []
  wf := dot_S4096x200_S256x200_S4096x256_1_1_0_0_n_n_wf
def dot_S4096x256_S4096x200_S256x200_0_0_1_1_n_n : DotDims S4096x256 S4096x200 S256x200 where
  lhsContracting := [0]
  rhsContracting := [0]
  lhsNonContracting := [1]
  rhsNonContracting := [1]
  lhsBatch := []
  rhsBatch := []
  wf := dot_S4096x256_S4096x200_S256x200_0_0_1_1_n_n_wf
def dot_S4096x256_S4096x2_S256x2_0_0_1_1_n_n : DotDims S4096x256 S4096x2 S256x2 where
  lhsContracting := [0]
  rhsContracting := [0]
  lhsNonContracting := [1]
  rhsNonContracting := [1]
  lhsBatch := []
  rhsBatch := []
  wf := dot_S4096x256_S4096x2_S256x2_0_0_1_1_n_n_wf
def dot_S4096x256_S4096x1_S256x1_0_0_1_1_n_n : DotDims S4096x256 S4096x1 S256x1 where
  lhsContracting := [0]
  rhsContracting := [0]
  lhsNonContracting := [1]
  rhsNonContracting := [1]
  lhsBatch := []
  rhsBatch := []
  wf := dot_S4096x256_S4096x1_S256x1_0_0_1_1_n_n_wf

abbrev win0_0 : Pipeline.Window sig grid0 :=
  Pipeline.Window.ofSpec (Memref.whole main_v25) S1x4096x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x256x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39_0) S1x256x200.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39_1) S1x256x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v25) S1x4096x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39_0) S1x256x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39_1) S1x256x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40_0) S1x256x200.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40_1) S1x256x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v25) S1x4096x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_0) S1x256x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40_1) S1x256x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41_0) S1x256x200.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_1) S1x256x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v25) S1x4096x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41_0) S1x256x200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41_1) S1x256x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S1x256x200.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v42_1) S1x256x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v25) S1x4096x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42_0) S1x256x200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42_1) S1x256x2.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43_0) S1x256x200.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v43_1) S1x256x2.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v43_2) S1x4096x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun i => !(k4_cond2 i == 1#1) | 4 => fun i => !(k4_cond2 i == 1#1) | 5 => fun _ => false | ⟨_ + 6, h⟩ => absurd h (Nat.not_lt.2 (Nat.le_add_left _ _))

class Facts : Prop extends Facts₀ where

variable [Facts]
-- ==== ReferenceIdeal.lean ====
abbrev S4x200x128x128 : Shape := ⟨4, ![4, 200, 128, 128]⟩
abbrev S16 : Shape := ⟨1, ![16]⟩
abbrev S_ : Shape := ⟨0, ![]⟩
abbrev S16x16 : Shape := ⟨2, ![16, 16]⟩
abbrev S256 : Shape := ⟨1, ![256]⟩
abbrev S256x1 : Shape := ⟨2, ![256, 1]⟩
abbrev S256x2 : Shape := ⟨2, ![256, 2]⟩
abbrev S128 : Shape := ⟨1, ![128]⟩
abbrev S128x128 : Shape := ⟨2, ![128, 128]⟩
abbrev S16384 : Shape := ⟨1, ![16384]⟩
abbrev S16384x1 : Shape := ⟨2, ![16384, 1]⟩
abbrev S16384x2 : Shape := ⟨2, ![16384, 2]⟩
abbrev S1x16384x2 : Shape := ⟨3, ![1, 16384, 2]⟩
abbrev S4x16384x2 : Shape := ⟨3, ![4, 16384, 2]⟩
abbrev S4x128x128x200 : Shape := ⟨4, ![4, 128, 128, 200]⟩
abbrev S4x16384x200 : Shape := ⟨3, ![4, 16384, 200]⟩
abbrev S1x16384x200 : Shape := ⟨3, ![1, 16384, 200]⟩
abbrev S16384x200 : Shape := ⟨2, ![16384, 200]⟩
abbrev S256x200 : Shape := ⟨2, ![256, 200]⟩
abbrev S1x256x200 : Shape := ⟨3, ![1, 256, 200]⟩
abbrev S4x256x200 : Shape := ⟨3, ![4, 256, 200]⟩
abbrev S1x256x2 : Shape := ⟨3, ![1, 256, 2]⟩
abbrev S4x256x2 : Shape := ⟨3, ![4, 256, 2]⟩
abbrev S4x16384 : Shape := ⟨2, ![4, 16384]⟩
abbrev S4x16384x1 : Shape := ⟨3, ![4, 16384, 1]⟩
abbrev S4x256 : Shape := ⟨2, ![4, 256]⟩
abbrev S4x1x256 : Shape := ⟨3, ![4, 1, 256]⟩
abbrev S4x16384x256 : Shape := ⟨3, ![4, 16384, 256]⟩
abbrev S4x256x1 : Shape := ⟨3, ![4, 256, 1]⟩

abbrev nBuf : Space → Nat
  | .hbm => 413
  | .vmem => 0
  | .smem => 0
  | _ => 0

abbrev hbmTy0_0 (i : Nat) : BufTy := match i % 128 with
  | 0 => ⟨S4x200x128x128, .f32⟩
  | 1 => ⟨S16, .i32⟩
  | 2 => ⟨S_, .i32⟩
  | 3 => ⟨S16, .i32⟩
  | 4 => ⟨S16, .i32⟩
  | 5 => ⟨S_, .i32⟩
  | 6 => ⟨S16, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S16x16, .i32⟩
  | 16 => ⟨S16x16, .i32⟩
  | 17 => ⟨S256, .i32⟩
  | 18 => ⟨S256, .i32⟩
  | 19 => ⟨S256x1, .i32⟩
  | 20 => ⟨S256x1, .i32⟩
  | 21 => ⟨S256x2, .i32⟩
  | 22 => ⟨S256x2, .f32⟩
  | 23 => ⟨S256, .i32⟩
  | 24 => ⟨S_, .i32⟩
  | 25 => ⟨S256, .i32⟩
  | 26 => ⟨S256, .i32⟩
  | 27 => ⟨S256, .i32⟩
  | 28 => ⟨S256, .i32⟩
  | 29 => ⟨S128, .i32⟩
  | 30 => ⟨S128, .i32⟩
  | 31 => ⟨S128x128, .i32⟩
  | 32 => ⟨S128x128, .i32⟩
  | 33 => ⟨S16384, .i32⟩
  | 34 => ⟨S16384, .i32⟩
  | 35 => ⟨S16384x1, .i32⟩
  | 36 => ⟨S16384x1, .i32⟩
  | 37 => ⟨S16384x2, .i32⟩
  | 38 => ⟨S16384x2, .f32⟩
  | 39 => ⟨S1x16384x2, .f32⟩
  | 40 => ⟨S4x16384x2, .f32⟩
  | 41 => ⟨S4x128x128x200, .f32⟩
  | 42 => ⟨S4x16384x200, .f32⟩
  | 43 => ⟨S1x16384x200, .f32⟩
  | 44 => ⟨S16384x200, .f32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S256x200, .f32⟩
  | 54 => ⟨S1x256x200, .f32⟩
  | 55 => ⟨S4x256x200, .f32⟩
  | 56 => ⟨S1x256x2, .f32⟩
  | 57 => ⟨S4x256x2, .f32⟩
  | 58 => ⟨S4x16384x200, .f32⟩
  | 59 => ⟨S_, .f32⟩
  | 60 => ⟨S4x16384, .f32⟩
  | 61 => ⟨S4x16384x1, .f32⟩
  | 62 => ⟨S4x256x200, .f32⟩
  | 63 => ⟨S_, .f32⟩
  | 64 => ⟨S4x256, .f32⟩
  | 65 => ⟨S4x1x256, .f32⟩
  | 66 => ⟨S4x16384x256, .f32⟩
  | 67 => ⟨S4x16384x256, .f32⟩
  | 68 => ⟨S4x16384x256, .f32⟩
  | 69 => ⟨S4x16384x256, .f32⟩
  | 70 => ⟨S_, .f32⟩
  | 71 => ⟨S4x16384x256, .f32⟩
  | 72 => ⟨S4x16384x256, .f32⟩
  | 73 => ⟨S4x16384x256, .f32⟩
  | 74 => ⟨S_, .f32⟩
  | 75 => ⟨S4x16384x256, .f32⟩
  | 76 => ⟨S4x16384x256, .f32⟩
  | 77 => ⟨S4x16384x256, .f32⟩
  | 78 => ⟨S4x16384x2, .f32⟩
  | 79 => ⟨S_, .f32⟩
  | 80 => ⟨S4x16384, .f32⟩
  | 81 => ⟨S4x16384x1, .f32⟩
  | 82 => ⟨S4x256x2, .f32⟩
  | 83 => ⟨S_, .f32⟩
  | 84 => ⟨S4x256, .f32⟩
  | 85 => ⟨S4x1x256, .f32⟩
  | 86 => ⟨S4x16384x256, .f32⟩
  | 87 => ⟨S4x16384x256, .f32⟩
  | 88 => ⟨S4x16384x256, .f32⟩
  | 89 => ⟨S4x16384x256, .f32⟩
  | 90 => ⟨S_, .f32⟩
  | 91 => ⟨S4x16384x256, .f32⟩
  | 92 => ⟨S4x16384x256, .f32⟩
  | 93 => ⟨S4x16384x256, .f32⟩
  | 94 => ⟨S_, .f32⟩
  | 95 => ⟨S4x16384x256, .f32⟩
  | 96 => ⟨S4x16384x256, .f32⟩
  | 97 => ⟨S4x16384x256, .f32⟩
  | 98 => ⟨S_, .f32⟩
  | 99 => ⟨S4x16384x256, .f32⟩
  | 100 => ⟨S4x16384x256, .f32⟩
  | 101 => ⟨S4x16384x256, .f32⟩
  | 102 => ⟨S4x16384x256, .f32⟩
  | 103 => ⟨S_, .f32⟩
  | 104 => ⟨S4x16384, .f32⟩
  | 105 => ⟨S_, .f32⟩
  | 106 => ⟨S4x16384, .f32⟩
  | 107 => ⟨S4x16384, .f32⟩
  | 108 => ⟨S4x16384x1, .f32⟩
  | 109 => ⟨S4x16384x256, .f32⟩
  | 110 => ⟨S4x16384x256, .f32⟩
  | 111 => ⟨S4x16384x256, .f32⟩
  | 112 => ⟨S_, .f32⟩
  | 113 => ⟨S4x16384, .f32⟩
  | 114 => ⟨S4x16384x1, .f32⟩
  | 115 => ⟨S4x16384x256, .f32⟩
  | 116 => ⟨S4x16384x256, .f32⟩
  | 117 => ⟨S_, .f32⟩
  | 118 => ⟨S4x256, .f32⟩
  | 119 => ⟨S4x256x1, .f32⟩
  | 120 => ⟨S_, .f32⟩
  | 121 => ⟨S4x256x1, .f32⟩
  | 122 => ⟨S4x256x1, .f32⟩
  | 123 => ⟨S4x256x200, .f32⟩
  | 124 => ⟨S4x256x200, .f32⟩
  | 125 => ⟨S4x256x200, .f32⟩
  | 126 => ⟨S4x256x2, .f32⟩
  | 127 => ⟨S4x256x2, .f32⟩
  | _ => ⟨S4x200x128x128, .f32⟩

abbrev hbmTy0_1 (i : Nat) : BufTy := match i % 128 with
  | 0 => ⟨S4x256x2, .f32⟩
  | 1 => ⟨S4x16384x200, .f32⟩
  | 2 => ⟨S_, .f32⟩
  | 3 => ⟨S4x16384, .f32⟩
  | 4 => ⟨S4x16384x1, .f32⟩
  | 5 => ⟨S4x256x200, .f32⟩
  | 6 => ⟨S_, .f32⟩
  | 7 => ⟨S4x256, .f32⟩
  | 8 => ⟨S4x1x256, .f32⟩
  | 9 => ⟨S4x16384x256, .f32⟩
  | 10 => ⟨S4x16384x256, .f32⟩
  | 11 => ⟨S4x16384x256, .f32⟩
  | 12 => ⟨S4x16384x256, .f32⟩
  | 13 => ⟨S_, .f32⟩
  | 14 => ⟨S4x16384x256, .f32⟩
  | 15 => ⟨S4x16384x256, .f32⟩
  | 16 => ⟨S4x16384x256, .f32⟩
  | 17 => ⟨S_, .f32⟩
  | 18 => ⟨S4x16384x256, .f32⟩
  | 19 => ⟨S4x16384x256, .f32⟩
  | 20 => ⟨S4x16384x256, .f32⟩
  | 21 => ⟨S4x16384x2, .f32⟩
  | 22 => ⟨S_, .f32⟩
  | 23 => ⟨S4x16384, .f32⟩
  | 24 => ⟨S4x16384x1, .f32⟩
  | 25 => ⟨S4x256x2, .f32⟩
  | 26 => ⟨S_, .f32⟩
  | 27 => ⟨S4x256, .f32⟩
  | 28 => ⟨S4x1x256, .f32⟩
  | 29 => ⟨S4x16384x256, .f32⟩
  | 30 => ⟨S4x16384x256, .f32⟩
  | 31 => ⟨S4x16384x256, .f32⟩
  | 32 => ⟨S4x16384x256, .f32⟩
  | 33 => ⟨S_, .f32⟩
  | 34 => ⟨S4x16384x256, .f32⟩
  | 35 => ⟨S4x16384x256, .f32⟩
  | 36 => ⟨S4x16384x256, .f32⟩
  | 37 => ⟨S_, .f32⟩
  | 38 => ⟨S4x16384x256, .f32⟩
  | 39 => ⟨S4x16384x256, .f32⟩
  | 40 => ⟨S4x16384x256, .f32⟩
  | 41 => ⟨S_, .f32⟩
  | 42 => ⟨S4x16384x256, .f32⟩
  | 43 => ⟨S4x16384x256, .f32⟩
  | 44 => ⟨S4x16384x256, .f32⟩
  | 45 => ⟨S4x16384x256, .f32⟩
  | 46 => ⟨S_, .f32⟩
  | 47 => ⟨S4x16384, .f32⟩
  | 48 => ⟨S_, .f32⟩
  | 49 => ⟨S4x16384, .f32⟩
  | 50 => ⟨S4x16384, .f32⟩
  | 51 => ⟨S4x16384x1, .f32⟩
  | 52 => ⟨S4x16384x256, .f32⟩
  | 53 => ⟨S4x16384x256, .f32⟩
  | 54 => ⟨S4x16384x256, .f32⟩
  | 55 => ⟨S_, .f32⟩
  | 56 => ⟨S4x16384, .f32⟩
  | 57 => ⟨S4x16384x1, .f32⟩
  | 58 => ⟨S4x16384x256, .f32⟩
  | 59 => ⟨S4x16384x256, .f32⟩
  | 60 => ⟨S_, .f32⟩
  | 61 => ⟨S4x256, .f32⟩
  | 62 => ⟨S4x256x1, .f32⟩
  | 63 => ⟨S_, .f32⟩
  | 64 => ⟨S4x256x1, .f32⟩
  | 65 => ⟨S4x256x1, .f32⟩
  | 66 => ⟨S4x256x200, .f32⟩
  | 67 => ⟨S4x256x200, .f32⟩
  | 68 => ⟨S4x256x200, .f32⟩
  | 69 => ⟨S4x256x2, .f32⟩
  | 70 => ⟨S4x256x2, .f32⟩
  | 71 => ⟨S4x256x2, .f32⟩
  | 72 => ⟨S4x16384x200, .f32⟩
  | 73 => ⟨S_, .f32⟩
  | 74 => ⟨S4x16384, .f32⟩
  | 75 => ⟨S4x16384x1, .f32⟩
  | 76 => ⟨S4x256x200, .f32⟩
  | 77 => ⟨S_, .f32⟩
  | 78 => ⟨S4x256, .f32⟩
  | 79 => ⟨S4x1x256, .f32⟩
  | 80 => ⟨S4x16384x256, .f32⟩
  | 81 => ⟨S4x16384x256, .f32⟩
  | 82 => ⟨S4x16384x256, .f32⟩
  | 83 => ⟨S4x16384x256, .f32⟩
  | 84 => ⟨S_, .f32⟩
  | 85 => ⟨S4x16384x256, .f32⟩
  | 86 => ⟨S4x16384x256, .f32⟩
  | 87 => ⟨S4x16384x256, .f32⟩
  | 88 => ⟨S_, .f32⟩
  | 89 => ⟨S4x16384x256, .f32⟩
  | 90 => ⟨S4x16384x256, .f32⟩
  | 91 => ⟨S4x16384x256, .f32⟩
  | 92 => ⟨S4x16384x2, .f32⟩
  | 93 => ⟨S_, .f32⟩
  | 94 => ⟨S4x16384, .f32⟩
  | 95 => ⟨S4x16384x1, .f32⟩
  | 96 => ⟨S4x256x2, .f32⟩
  | 97 => ⟨S_, .f32⟩
  | 98 => ⟨S4x256, .f32⟩
  | 99 => ⟨S4x1x256, .f32⟩
  | 100 => ⟨S4x16384x256, .f32⟩
  | 101 => ⟨S4x16384x256, .f32⟩
  | 102 => ⟨S4x16384x256, .f32⟩
  | 103 => ⟨S4x16384x256, .f32⟩
  | 104 => ⟨S_, .f32⟩
  | 105 => ⟨S4x16384x256, .f32⟩
  | 106 => ⟨S4x16384x256, .f32⟩
  | 107 => ⟨S4x16384x256, .f32⟩
  | 108 => ⟨S_, .f32⟩
  | 109 => ⟨S4x16384x256, .f32⟩
  | 110 => ⟨S4x16384x256, .f32⟩
  | 111 => ⟨S4x16384x256, .f32⟩
  | 112 => ⟨S_, .f32⟩
  | 113 => ⟨S4x16384x256, .f32⟩
  | 114 => ⟨S4x16384x256, .f32⟩
  | 115 => ⟨S4x16384x256, .f32⟩
  | 116 => ⟨S4x16384x256, .f32⟩
  | 117 => ⟨S_, .f32⟩
  | 118 => ⟨S4x16384, .f32⟩
  | 119 => ⟨S_, .f32⟩
  | 120 => ⟨S4x16384, .f32⟩
  | 121 => ⟨S4x16384, .f32⟩
  | 122 => ⟨S4x16384x1, .f32⟩
  | 123 => ⟨S4x16384x256, .f32⟩
  | 124 => ⟨S4x16384x256, .f32⟩
  | 125 => ⟨S4x16384x256, .f32⟩
  | 126 => ⟨S_, .f32⟩
  | 127 => ⟨S4x16384, .f32⟩
  | _ => ⟨S4x200x128x128, .f32⟩

abbrev hbmTy0_2 (i : Nat) : BufTy := match i % 128 with
  | 0 => ⟨S4x16384x1, .f32⟩
  | 1 => ⟨S4x16384x256, .f32⟩
  | 2 => ⟨S4x16384x256, .f32⟩
  | 3 => ⟨S_, .f32⟩
  | 4 => ⟨S4x256, .f32⟩
  | 5 => ⟨S4x256x1, .f32⟩
  | 6 => ⟨S_, .f32⟩
  | 7 => ⟨S4x256x1, .f32⟩
  | 8 => ⟨S4x256x1, .f32⟩
  | 9 => ⟨S4x256x200, .f32⟩
  | 10 => ⟨S4x256x200, .f32⟩
  | 11 => ⟨S4x256x200, .f32⟩
  | 12 => ⟨S4x256x2, .f32⟩
  | 13 => ⟨S4x256x2, .f32⟩
  | 14 => ⟨S4x256x2, .f32⟩
  | 15 => ⟨S4x16384x200, .f32⟩
  | 16 => ⟨S_, .f32⟩
  | 17 => ⟨S4x16384, .f32⟩
  | 18 => ⟨S4x16384x1, .f32⟩
  | 19 => ⟨S4x256x200, .f32⟩
  | 20 => ⟨S_, .f32⟩
  | 21 => ⟨S4x256, .f32⟩
  | 22 => ⟨S4x1x256, .f32⟩
  | 23 => ⟨S4x16384x256, .f32⟩
  | 24 => ⟨S4x16384x256, .f32⟩
  | 25 => ⟨S4x16384x256, .f32⟩
  | 26 => ⟨S4x16384x256, .f32⟩
  | 27 => ⟨S_, .f32⟩
  | 28 => ⟨S4x16384x256, .f32⟩
  | 29 => ⟨S4x16384x256, .f32⟩
  | 30 => ⟨S4x16384x256, .f32⟩
  | 31 => ⟨S_, .f32⟩
  | 32 => ⟨S4x16384x256, .f32⟩
  | 33 => ⟨S4x16384x256, .f32⟩
  | 34 => ⟨S4x16384x256, .f32⟩
  | 35 => ⟨S4x16384x2, .f32⟩
  | 36 => ⟨S_, .f32⟩
  | 37 => ⟨S4x16384, .f32⟩
  | 38 => ⟨S4x16384x1, .f32⟩
  | 39 => ⟨S4x256x2, .f32⟩
  | 40 => ⟨S_, .f32⟩
  | 41 => ⟨S4x256, .f32⟩
  | 42 => ⟨S4x1x256, .f32⟩
  | 43 => ⟨S4x16384x256, .f32⟩
  | 44 => ⟨S4x16384x256, .f32⟩
  | 45 => ⟨S4x16384x256, .f32⟩
  | 46 => ⟨S4x16384x256, .f32⟩
  | 47 => ⟨S_, .f32⟩
  | 48 => ⟨S4x16384x256, .f32⟩
  | 49 => ⟨S4x16384x256, .f32⟩
  | 50 => ⟨S4x16384x256, .f32⟩
  | 51 => ⟨S_, .f32⟩
  | 52 => ⟨S4x16384x256, .f32⟩
  | 53 => ⟨S4x16384x256, .f32⟩
  | 54 => ⟨S4x16384x256, .f32⟩
  | 55 => ⟨S_, .f32⟩
  | 56 => ⟨S4x16384x256, .f32⟩
  | 57 => ⟨S4x16384x256, .f32⟩
  | 58 => ⟨S4x16384x256, .f32⟩
  | 59 => ⟨S4x16384x256, .f32⟩
  | 60 => ⟨S_, .f32⟩
  | 61 => ⟨S4x16384, .f32⟩
  | 62 => ⟨S_, .f32⟩
  | 63 => ⟨S4x16384, .f32⟩
  | 64 => ⟨S4x16384, .f32⟩
  | 65 => ⟨S4x16384x1, .f32⟩
  | 66 => ⟨S4x16384x256, .f32⟩
  | 67 => ⟨S4x16384x256, .f32⟩
  | 68 => ⟨S4x16384x256, .f32⟩
  | 69 => ⟨S_, .f32⟩
  | 70 => ⟨S4x16384, .f32⟩
  | 71 => ⟨S4x16384x1, .f32⟩
  | 72 => ⟨S4x16384x256, .f32⟩
  | 73 => ⟨S4x16384x256, .f32⟩
  | 74 => ⟨S_, .f32⟩
  | 75 => ⟨S4x256, .f32⟩
  | 76 => ⟨S4x256x1, .f32⟩
  | 77 => ⟨S_, .f32⟩
  | 78 => ⟨S4x256x1, .f32⟩
  | 79 => ⟨S4x256x1, .f32⟩
  | 80 => ⟨S4x256x200, .f32⟩
  | 81 => ⟨S4x256x200, .f32⟩
  | 82 => ⟨S4x256x200, .f32⟩
  | 83 => ⟨S4x256x2, .f32⟩
  | 84 => ⟨S4x256x2, .f32⟩
  | 85 => ⟨S4x256x2, .f32⟩
  | 86 => ⟨S4x16384x200, .f32⟩
  | 87 => ⟨S_, .f32⟩
  | 88 => ⟨S4x16384, .f32⟩
  | 89 => ⟨S4x16384x1, .f32⟩
  | 90 => ⟨S4x256x200, .f32⟩
  | 91 => ⟨S_, .f32⟩
  | 92 => ⟨S4x256, .f32⟩
  | 93 => ⟨S4x1x256, .f32⟩
  | 94 => ⟨S4x16384x256, .f32⟩
  | 95 => ⟨S4x16384x256, .f32⟩
  | 96 => ⟨S4x16384x256, .f32⟩
  | 97 => ⟨S4x16384x256, .f32⟩
  | 98 => ⟨S_, .f32⟩
  | 99 => ⟨S4x16384x256, .f32⟩
  | 100 => ⟨S4x16384x256, .f32⟩
  | 101 => ⟨S4x16384x256, .f32⟩
  | 102 => ⟨S_, .f32⟩
  | 103 => ⟨S4x16384x256, .f32⟩
  | 104 => ⟨S4x16384x256, .f32⟩
  | 105 => ⟨S4x16384x256, .f32⟩
  | 106 => ⟨S4x16384x2, .f32⟩
  | 107 => ⟨S_, .f32⟩
  | 108 => ⟨S4x16384, .f32⟩
  | 109 => ⟨S4x16384x1, .f32⟩
  | 110 => ⟨S4x256x2, .f32⟩
  | 111 => ⟨S_, .f32⟩
  | 112 => ⟨S4x256, .f32⟩
  | 113 => ⟨S4x1x256, .f32⟩
  | 114 => ⟨S4x16384x256, .f32⟩
  | 115 => ⟨S4x16384x256, .f32⟩
  | 116 => ⟨S4x16384x256, .f32⟩
  | 117 => ⟨S4x16384x256, .f32⟩
  | 118 => ⟨S_, .f32⟩
  | 119 => ⟨S4x16384x256, .f32⟩
  | 120 => ⟨S4x16384x256, .f32⟩
  | 121 => ⟨S4x16384x256, .f32⟩
  | 122 => ⟨S_, .f32⟩
  | 123 => ⟨S4x16384x256, .f32⟩
  | 124 => ⟨S4x16384x256, .f32⟩
  | 125 => ⟨S4x16384x256, .f32⟩
  | 126 => ⟨S_, .f32⟩
  | 127 => ⟨S4x16384x256, .f32⟩
  | _ => ⟨S4x200x128x128, .f32⟩

abbrev hbmTy0_3 (i : Nat) : BufTy := match i % 128 with
  | 0 => ⟨S4x16384x256, .f32⟩
  | 1 => ⟨S4x16384x256, .f32⟩
  | 2 => ⟨S4x16384x256, .f32⟩
  | 3 => ⟨S_, .f32⟩
  | 4 => ⟨S4x16384, .f32⟩
  | 5 => ⟨S_, .f32⟩
  | 6 => ⟨S4x16384, .f32⟩
  | 7 => ⟨S4x16384, .f32⟩
  | 8 => ⟨S4x16384x1, .f32⟩
  | 9 => ⟨S4x16384x256, .f32⟩
  | 10 => ⟨S4x16384x256, .f32⟩
  | 11 => ⟨S4x16384x256, .f32⟩
  | 12 => ⟨S_, .f32⟩
  | 13 => ⟨S4x16384, .f32⟩
  | 14 => ⟨S4x16384x1, .f32⟩
  | 15 => ⟨S4x16384x256, .f32⟩
  | 16 => ⟨S4x16384x256, .f32⟩
  | 17 => ⟨S_, .f32⟩
  | 18 => ⟨S4x256, .f32⟩
  | 19 => ⟨S4x256x1, .f32⟩
  | 20 => ⟨S_, .f32⟩
  | 21 => ⟨S4x256x1, .f32⟩
  | 22 => ⟨S4x256x1, .f32⟩
  | 23 => ⟨S4x256x200, .f32⟩
  | 24 => ⟨S4x256x200, .f32⟩
  | 25 => ⟨S4x256x200, .f32⟩
  | 26 => ⟨S4x256x2, .f32⟩
  | 27 => ⟨S4x256x2, .f32⟩
  | 28 => ⟨S4x256x2, .f32⟩
  | _ => ⟨S4x200x128x128, .f32⟩

abbrev hbmTy (i : Nat) : BufTy := match i / 128 with
  | 0 => hbmTy0_0 i
  | 1 => hbmTy0_1 i
  | 2 => hbmTy0_2 i
  | 3 => hbmTy0_3 i
  | _ => ⟨S4x200x128x128, .f32⟩

abbrev bufTy : (tb : Table) → Fin (tcTables nBuf tb) → BufTy
  | .hbm, ⟨i, _⟩ => hbmTy i
  | _, _ => ⟨S4x200x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_4 : Ref sig .tc := ⟨.hbm, 45, rfl⟩
abbrev main_v39 : Ref sig .tc := ⟨.hbm, 46, rfl⟩
abbrev main_v40 : Ref sig .tc := ⟨.hbm, 47, rfl⟩
abbrev main_c_5 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_7 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_8 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_9 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_10 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_11 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_12 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_13 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_14 : Ref sig .tc := ⟨.hbm, 103, rfl⟩
abbrev main_v86 : Ref sig .tc := ⟨.hbm, 104, rfl⟩
abbrev main_cst_15 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_16 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_17 : Ref sig .tc := ⟨.hbm, 117, rfl⟩
abbrev main_v97 : Ref sig .tc := ⟨.hbm, 118, rfl⟩
abbrev main_v98 : Ref sig .tc := ⟨.hbm, 119, rfl⟩
abbrev main_cst_18 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_19 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_20 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_21 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_22 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_23 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_24 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_25 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_26 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_27 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_28 : Ref sig .tc := ⟨.hbm, 174, rfl⟩
abbrev main_v143 : Ref sig .tc := ⟨.hbm, 175, rfl⟩
abbrev main_cst_29 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_30 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_31 : Ref sig .tc := ⟨.hbm, 188, rfl⟩
abbrev main_v154 : Ref sig .tc := ⟨.hbm, 189, rfl⟩
abbrev main_v155 : Ref sig .tc := ⟨.hbm, 190, rfl⟩
abbrev main_cst_32 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_33 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_34 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_cst_35 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_36 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_37 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_cst_38 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_39 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_cst_40 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_cst_41 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_42 : Ref sig .tc := ⟨.hbm, 245, rfl⟩
abbrev main_v200 : Ref sig .tc := ⟨.hbm, 246, rfl⟩
abbrev main_cst_43 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_44 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_45 : Ref sig .tc := ⟨.hbm, 259, rfl⟩
abbrev main_v211 : Ref sig .tc := ⟨.hbm, 260, rfl⟩
abbrev main_v212 : Ref sig .tc := ⟨.hbm, 261, rfl⟩
abbrev main_cst_46 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_cst_47 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_48 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_cst_49 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_cst_50 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_51 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_cst_52 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_cst_53 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_54 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_cst_55 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_56 : Ref sig .tc := ⟨.hbm, 316, rfl⟩
abbrev main_v257 : Ref sig .tc := ⟨.hbm, 317, rfl⟩
abbrev main_cst_57 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_cst_58 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_cst_59 : Ref sig .tc := ⟨.hbm, 330, rfl⟩
abbrev main_v268 : Ref sig .tc := ⟨.hbm, 331, rfl⟩
abbrev main_v269 : Ref sig .tc := ⟨.hbm, 332, rfl⟩
abbrev main_cst_60 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_cst_61 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_cst_62 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_cst_63 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_cst_64 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_cst_65 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_cst_66 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_cst_67 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_cst_68 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_cst_69 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_cst_70 : Ref sig .tc := ⟨.hbm, 387, rfl⟩
abbrev main_v314 : Ref sig .tc := ⟨.hbm, 388, rfl⟩
abbrev main_cst_71 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_cst_72 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_cst_73 : Ref sig .tc := ⟨.hbm, 401, rfl⟩
abbrev main_v325 : Ref sig .tc := ⟨.hbm, 402, rfl⟩
abbrev main_v326 : Ref sig .tc := ⟨.hbm, 403, rfl⟩
abbrev main_cst_74 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x16_0 : S16.BroadcastsInDim S16x16 (![0] : Fin 1 → Fin S16x16.rank)
  bcast_S16_S16x16_1 : S16.BroadcastsInDim S16x16 (![1] : Fin 1 → Fin S16x16.rank)
  shapeCasts_S16x16_S256 : S16x16.ShapeCasts S256
  bcast_S256_S256x1_0 : S256.BroadcastsInDim S256x1 (![0] : Fin 1 → Fin S256x1.rank)
  concatenates_S256x1_S256x1_S256x2_d1 : Shape.Concatenates [S256x1, S256x1] S256x2 1
  bcast_S_S256 : S_.BroadcastsInDim S256 (![] : Fin 0 → Fin S256.rank)
  bcast_S128_S128x128_0 : S128.BroadcastsInDim S128x128 (![0] : Fin 1 → Fin S128x128.rank)
  bcast_S128_S128x128_1 : S128.BroadcastsInDim S128x128 (![1] : Fin 1 → Fin S128x128.rank)
  shapeCasts_S128x128_S16384 : S128x128.ShapeCasts S16384
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S16384x2_S1x16384x2_1_2 : S16384x2.BroadcastsInDim S1x16384x2 (![1, 2] : Fin 2 → Fin S1x16384x2.rank)
  bcast_S1x16384x2_S4x16384x2_0_1_2 : S1x16384x2.BroadcastsInDim S4x16384x2 (![0, 1, 2] : Fin 3 → Fin S4x16384x2.rank)
  transposes_S4x200x128x128_S4x128x128x200_0_2_3_1 : S4x200x128x128.Transposes [0, 2, 3, 1] S4x128x128x200
  shapeCasts_S4x128x128x200_S4x16384x200 : S4x128x128x200.ShapeCasts S4x16384x200
  slices_S4x16384x200_S1x16384x200_0_0_0 : S4x16384x200.Slices ![0, 0, 0] S1x16384x200
  shapeCasts_S1x16384x200_S16384x200 : S1x16384x200.ShapeCasts S16384x200
  bcast_S256x200_S1x256x200_1_2 : S256x200.BroadcastsInDim S1x256x200 (![1, 2] : Fin 2 → Fin S1x256x200.rank)
  bcast_S1x256x200_S4x256x200_0_1_2 : S1x256x200.BroadcastsInDim S4x256x200 (![0, 1, 2] : Fin 3 → Fin S4x256x200.rank)
  bcast_S256x2_S1x256x2_1_2 : S256x2.BroadcastsInDim S1x256x2 (![1, 2] : Fin 2 → Fin S1x256x2.rank)
  bcast_S1x256x2_S4x256x2_0_1_2 : S1x256x2.BroadcastsInDim S4x256x2 (![0, 1, 2] : Fin 3 → Fin S4x256x2.rank)
  reducesTo_S4x16384x200_S4x16384_d2 : S4x16384x200.ReducesTo [2] S4x16384
  h_S_ : 0 < S_.numel
  bcast_S4x16384_S4x16384x1_0_1 : S4x16384.BroadcastsInDim S4x16384x1 (![0, 1] : Fin 2 → Fin S4x16384x1.rank)
  reducesTo_S4x256x200_S4x256_d2 : S4x256x200.ReducesTo [2] S4x256
  bcast_S4x256_S4x1x256_0_2 : S4x256.BroadcastsInDim S4x1x256 (![0, 2] : Fin 2 → Fin S4x1x256.rank)
  bcast_S4x16384x1_S4x16384x256_0_1_2 : S4x16384x1.BroadcastsInDim S4x16384x256 (![0, 1, 2] : Fin 3 → Fin S4x16384x256.rank)
  bcast_S4x1x256_S4x16384x256_0_1_2 : S4x1x256.BroadcastsInDim S4x16384x256 (![0, 1, 2] : Fin 3 → Fin S4x16384x256.rank)
  bcast_S_S4x16384x256 : S_.BroadcastsInDim S4x16384x256 (![] : Fin 0 → Fin S4x16384x256.rank)
  reducesTo_S4x16384x2_S4x16384_d2 : S4x16384x2.ReducesTo [2] S4x16384
  reducesTo_S4x256x2_S4x256_d2 : S4x256x2.ReducesTo [2] S4x256
  reducesTo_S4x16384x256_S4x16384_d2 : S4x16384x256.ReducesTo [2] S4x16384
  bcast_S_S4x16384 : S_.BroadcastsInDim S4x16384 (![] : Fin 0 → Fin S4x16384.rank)
  reducesTo_S4x16384x256_S4x256_d1 : S4x16384x256.ReducesTo [1] S4x256
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x200_0_1_2 : S4x256x1.BroadcastsInDim S4x256x200 (![0, 1, 2] : Fin 3 → Fin S4x256x200.rank)
  bcast_S4x256x1_S4x256x2_0_1_2 : S4x256x1.BroadcastsInDim S4x256x2 (![0, 1, 2] : Fin 3 → Fin S4x256x2.rank)
  gather_S16384x200_S256x1_S256x200_1_0_n_n_0_1_1200_wf : GatherDims.WF S16384x200 S256x1 S256x200 [1] [0] [] [0] [] 1 ![1, 200]
  dot_S4x16384x200_S4x256x200_S4x16384x256_2_2_1_1_0_0_wf : DotDims.WF S4x16384x200 S4x256x200 S4x16384x256 [2] [2] [1] [1] [0] [0]
  dot_S4x16384x2_S4x256x2_S4x16384x256_2_2_1_1_0_0_wf : DotDims.WF S4x16384x2 S4x256x2 S4x16384x256 [2] [2] [1] [1] [0] [0]
  dot_S4x16384x256_S4x16384x200_S4x256x200_1_1_2_2_0_0_wf : DotDims.WF S4x16384x256 S4x16384x200 S4x256x200 [1] [1] [2] [2] [0] [0]
  dot_S4x16384x256_S4x16384x2_S4x256x2_1_1_2_2_0_0_wf : DotDims.WF S4x16384x256 S4x16384x2 S4x256x2 [1] [1] [2] [2] [0] [0]

variable [Facts₀]

def gather_S16384x200_S256x1_S256x200_1_0_n_n_0_1_1200 : GatherDims S16384x200 S256x1 S256x200 where
  offsetDims := [1]
  collapsedSliceDims := [0]
  operandBatchingDims := []
  startIndicesBatchingDims := []
  startIndexMap := [0]
  indexVectorDim := 1
  sliceSizes := ![1, 200]
  wf := gather_S16384x200_S256x1_S256x200_1_0_n_n_0_1_1200_wf
def dot_S4x16384x200_S4x256x200_S4x16384x256_2_2_1_1_0_0 : DotDims S4x16384x200 S4x256x200 S4x16384x256 where
  lhsContracting := [2]
  rhsContracting := [2]
  lhsNonContracting := [1]
  rhsNonContracting := [1]
  lhsBatch := [0]
  rhsBatch := [0]
  wf := dot_S4x16384x200_S4x256x200_S4x16384x256_2_2_1_1_0_0_wf
def dot_S4x16384x2_S4x256x2_S4x16384x256_2_2_1_1_0_0 : DotDims S4x16384x2 S4x256x2 S4x16384x256 where
  lhsContracting := [2]
  rhsContracting := [2]
  lhsNonContracting := [1]
  rhsNonContracting := [1]
  lhsBatch := [0]
  rhsBatch := [0]
  wf := dot_S4x16384x2_S4x256x2_S4x16384x256_2_2_1_1_0_0_wf
def dot_S4x16384x256_S4x16384x200_S4x256x200_1_1_2_2_0_0 : DotDims S4x16384x256 S4x16384x200 S4x256x200 where
  lhsContracting := [1]
  rhsContracting := [1]
  lhsNonContracting := [2]
  rhsNonContracting := [2]
  lhsBatch := [0]
  rhsBatch := [0]
  wf := dot_S4x16384x256_S4x16384x200_S4x256x200_1_1_2_2_0_0_wf
def dot_S4x16384x256_S4x16384x2_S4x256x2_1_1_2_2_0_0 : DotDims S4x16384x256 S4x16384x2 S4x256x2 where
  lhsContracting := [1]
  rhsContracting := [1]
  lhsNonContracting := [2]
  rhsNonContracting := [2]
  lhsBatch := [0]
  rhsBatch := [0]
  wf := dot_S4x16384x256_S4x16384x2_S4x256x2_1_1_2_2_0_0_wf

class Facts : Prop extends Facts₀ where

variable [Facts]
-- ==== Proof.RefFrame.lean ====
/-
  The reference program's frame. The reference is a straight line of host operations with no kernel
  launch: its run terminates, faults nowhere, and writes only the buffers its operations name, none
  of which is the argument array. The frame is that run with the two result conjuncts dropped.
-/
import proofs.«138879_j15556371546814_2_alg».proof.Defs
import proofs.«138879_j15556371546814_2_alg».proof.Proof.Gen.ReferenceIdeal.Run

noncomputable section

namespace Cert.Proof.Slic

open Idealize.ShloMosaic Idealize.ShloMosaic.TcCoe Idealize.SL.Sem

/-- Every weakly fair execution of the reference terminates without a fault and leaves the argument
    array as launched: the third conjunct of its run, per device. -/
theorem frame_reference
    [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2.2)
    (Cert.ReferenceIdeal.Value.run (F := Ideal) m ρ)

end Cert.Proof.Slic

end
-- ==== Proof.I0Kit.lean ====
/-
  Round one of the idealized kernel (the first pallas_call): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.KernelIdeal.Launch
import proofs.«138879_j15556371546814_2_alg».proof.Proof.Gen.KernelIdeal.Points
import proofs.«138879_j15556371546814_2_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.KernelIdeal.Slic

open Cert.KernelIdeal Cert.KernelIdeal.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond0_0 (i : grid0.Coords) : Prop :=
  (Scalar.cmpi .ne (Scalar.extui (Scalar.cmpi .eq (BitVec.ofNat 32 (i 1).val) 0#32)) 0#32) = 1#1

/-- The reset branch is taken exactly at the first tile of a batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The finalize branch is taken: the tile coordinate is three. -/
abbrev cond0_1 (i : grid0.Coords) : Prop := k0_cond2 i = 1#1

/-- The finalize branch is taken exactly at the last tile of a batch. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Before the last tile the spectral-center output is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile it is live. -/
theorem liveAt0_3 : ∀ t : Fin cfg0.N, cond0_1 (grid0.coords t) → cfg0.idle 3 (grid0.coords t) = false := by decide +kernel

/-- The same of the spatial-center output. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- Each window's current staging memref at point `t`, and that it is a whole buffer. -/
abbrev ms0_0 (t : Fin cfg0.N) : Memref sig .tc .vmem S1x4096x200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x200 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2 .f32 := win0_4.stage (cfg0.slots t 4)
abbrev hs0_4 (t : Fin cfg0.N) : (ms0_4 t).IsWhole := hstage0_4 ((cfg0.slots t 4).cast nbuf0_4)

/-- The three accumulators: whole scoped buffers of the kernel's own (K x C, K x 2, K x 1). -/
abbrev scM0_0 : Memref sig .tc .vmem S256x200 .f32 := Memref.whole cc0_scratch0
abbrev scM0_1 : Memref sig .tc .vmem S256x2 .f32 := Memref.whole cc0_scratch1
abbrev scM0_2 : Memref sig .tc .vmem S256x1 .f32 := Memref.whole cc0_scratch2

end Cert.KernelIdeal.Slic

end
-- ==== Proof.I0RunA.lean ====
/-
  Round one of the idealized kernel, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.I0Kit

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun0_A (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond0_0 i) (hc1 : ¬cond0_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM0_0 fullShare d) ∗ (∃ d, owns (c : Thread nD τ) scM0_1 fullShare d) ∗ (∃ d, owns (c : Thread nD τ) scM0_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, fun y3 y4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I0RunB.lean ====
/-
  Round one of the idealized kernel, the body at a MIDDLE tile of a batch (neither the first nor the
  last): neither branch is taken. This tile's partial sums are added to the three accumulators, which
  arrive holding what the tile before left; the two center outputs are not touched.
-/
import proofs.«138879_j15556371546814_2_alg».proof.Proof.I0RunA

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun0_B (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond0_0 i) (hc1 : ¬cond0_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM0_0 fullShare xs7 ∗ owns (c : Thread nD τ) scM0_1 fullShare xs8 ∗ owns (c : Thread nD τ) scM0_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, fun y3 y4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM0_0.IsWhole).eq_unread hf7
    obtain rfl := (Memref.isWhole_whole _ : scM0_1.IsWhole).eq_unread hf8
    obtain rfl := (Memref.isWhole_whole _ : scM0_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I0RunC.lean ====
/-
  Round one of the idealized kernel, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.I0RunB

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun0_C (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond0_0 i) (hc1 : cond0_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM0_0 fullShare xs7 ∗ owns (c : Thread nD τ) scM0_1 fullShare xs8 ∗ owns (c : Thread nD τ) scM0_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM0_0.IsWhole).eq_unread hf7
    obtain rfl := (Memref.isWhole_whole _ : scM0_1.IsWhole).eq_unread hf8
    obtain rfl := (Memref.isWhole_whole _ : scM0_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.KernelIdeal.Slic

end
-- ==== Proof.I0Dat.lean ====
/-
  Round one of the idealized kernel: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.I0RunC
import Idealize.ShloMosaic.Lib.Ring

set_option maxRecDepth 16384

noncomputable section

namespace Cert.KernelIdeal.Slic.R0

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS0_0 : View sig .tc .vmem S256x200 .f32 := scM0_0.view
abbrev VS0_1 : View sig .tc .vmem S256x2 .f32 := scM0_1.view
abbrev VS0_2 : View sig .tc .vmem S256x1 .f32 := scM0_2.view
/-- One staging buffer of each center output, through which its contents are stated (the choice does not matter). -/
abbrev VO0_3 : View sig .tc .vmem S1x256x200 .f32 := (Memref.whole cc0_stg3_0 : Memref sig .tc .vmem S1x256x200 .f32).view
abbrev VO0_4 : View sig .tc .vmem S1x256x2 .f32 := (Memref.whole cc0_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (WV W c (Pipeline.arrRef spec0 w))

/-! ## What each case leaves -/

/-- After a point: the two center outputs' staging buffers, then the three accumulators. -/
abbrev Outs0 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) ((hcond0_0 t).mpr h0) (fun h => by have := (hcond0_1 t).mp h; omega) (iblk0 W c 0 t) (iblk0 W c 1 t) (iblk0 W c 2 t)
/-- The middle-tile run at point `t`, over what the accumulators held. -/
def runB (c : Dev nD) (t : Fin cfg0.N) (h0 : ¬t.val % 4 = 0) (h1 : ¬t.val % 4 = 3) (p : Outs0 F) :=
  kernelRun0_B (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk0 W c 0 t) (iblk0 W c 1 t) (iblk0 W c 2 t) p.2.2.1 p.2.2.2.1 p.2.2.2.2
/-- The last-tile run at point `t`, over what the accumulators held. -/
def runC (c : Dev nD) (t : Fin cfg0.N) (h0 : ¬t.val % 4 = 0) (h1 : t.val % 4 = 3) (p : Outs0 F) :=
  kernelRun0_C (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 W c 0 t) (iblk0 W c 1 t) (iblk0 W c 2 t) p.2.2.1 p.2.2.2.1 p.2.2.2.2

/-- The first tile stores nothing into the outputs (placeholders nothing consults) and leaves each accumulator at
    its pieces read back. -/
def stepA (c : Dev nD) (t : Fin cfg0.N) (h0 : t.val % 4 = 0) : Outs0 F :=
  (VO0_3.read (Elt F) VO0_3.junk, VO0_4.read (Elt F) VO0_4.junk,
   VS0_0.read (Elt F) (VS0_0.writes (Elt F) VS0_0.junk (runA W c t h0).1),
   VS0_1.read (Elt F) (VS0_1.writes (Elt F) VS0_1.junk (runA W c t h0).2.1),
   VS0_2.read (Elt F) (VS0_2.writes (Elt F) VS0_2.junk (runA W c t h0).2.2.1))
/-- A middle tile likewise, over the previous contents. -/
def stepB (c : Dev nD) (t : Fin cfg0.N) (h0 : ¬t.val % 4 = 0) (h1 : ¬t.val % 4 = 3) (p : Outs0 F) : Outs0 F :=
  (VO0_3.read (Elt F) VO0_3.junk, VO0_4.read (Elt F) VO0_4.junk,
   VS0_0.read (Elt F) (VS0_0.writes (Elt F) VS0_0.junk (runB W c t h0 h1 p).1),
   VS0_1.read (Elt F) (VS0_1.writes (Elt F) VS0_1.junk (runB W c t h0 h1 p).2.1),
   VS0_2.read (Elt F) (VS0_2.writes (Elt F) VS0_2.junk (runB W c t h0 h1 p).2.2.1))
/-- The last tile also stores the two quotients. -/
def stepC (c : Dev nD) (t : Fin cfg0.N) (h0 : ¬t.val % 4 = 0) (h1 : t.val % 4 = 3) (p : Outs0 F) : Outs0 F :=
  (VO0_3.read (Elt F) (VO0_3.writes (Elt F) VO0_3.junk (runC W c t h0 h1 p).1),
   VO0_4.read (Elt F) (VO0_4.writes (Elt F) VO0_4.junk (runC W c t h0 h1 p).2.1),
   VS0_0.read (Elt F) (VS0_0.writes (Elt F) VS0_0.junk (runC W c t h0 h1 p).2.2.1),
   VS0_1.read (Elt F) (VS0_1.writes (Elt F) VS0_1.junk (runC W c t h0 h1 p).2.2.2.1),
   VS0_2.read (Elt F) (VS0_2.writes (Elt F) VS0_2.junk (runC W c t h0 h1 p).2.2.2.2.1))

/-! ## Every store is whole: each case's pieces cover their buffer -/

theorem coverA_7 (c : Dev nD) (t : Fin cfg0.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg0.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg0.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg0.N) (h0 : ¬t.val % 4 = 0) (h1 : ¬t.val % 4 = 3) (p : Outs0 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg0.N) (h0 : ¬t.val % 4 = 0) (h1 : ¬t.val % 4 = 3) (p : Outs0 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg0.N) (h0 : ¬t.val % 4 = 0) (h1 : ¬t.val % 4 = 3) (p : Outs0 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg0.N) (h0 : ¬t.val % 4 = 0) (h1 : t.val % 4 = 3) (p : Outs0 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg0.N) (h0 : ¬t.val % 4 = 0) (h1 : t.val % 4 = 3) (p : Outs0 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg0.N) (h0 : ¬t.val % 4 = 0) (h1 : t.val % 4 = 3) (p : Outs0 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg0.N) (h0 : ¬t.val % 4 = 0) (h1 : t.val % 4 = 3) (p : Outs0 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg0.N) (h0 : ¬t.val % 4 = 0) (h1 : t.val % 4 = 3) (p : Outs0 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt0 (c : Dev nD) : (n : ℕ) → n < cfg0.N → Outs0 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt0 c n (Nat.lt_of_succ_lt hn))
    else stepB W c ⟨n + 1, hn⟩ h0 h1 (outsAt0 c n (Nat.lt_of_succ_lt hn))

theorem outsAt0_A (c : Dev nD) (t : Fin cfg0.N) (h0 : t.val % 4 = 0) :
    outsAt0 W c t.val t.isLt = stepA W c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 W c t.val t.isLt = stepB W c t h0 h1 (outsAt0 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 W c t.val t.isLt = stepC W c t h0 h1 (outsAt0 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ (∃ d, owns (c : Thread nD τ) scM0_2 fullShare d)
      ∗ Pipeline.scopedRestBut (Ix := Unit) (Name := ℕ) (U := UR sig nD τ) (Lvl := ℕ) (Val := Elt F) spec0 c [cc0_scratch0, cc0_scratch1, cc0_scratch2])
  | n + 1, hn => iprop(owns (c : Thread nD τ) scM0_0 fullShare (outsAt0 W c n hn).2.2.1 ∗ owns (c : Thread nD τ) scM0_1 fullShare (outsAt0 W c n hn).2.2.2.1
      ∗ owns (c : Thread nD τ) scM0_2 fullShare (outsAt0 W c n hn).2.2.2.2
      ∗ Pipeline.scopedRestBut (Ix := Unit) (Name := ℕ) (U := UR sig nD τ) (Lvl := ℕ) (Val := Elt F) spec0 c [cc0_scratch0, cc0_scratch1, cc0_scratch2])

theorem PhiS_zero (c : Dev nD) (n : ℕ) (h : n ≤ cfg0.N) (hz : n = 0) :
    PhiS W c n h = iprop((∃ d, owns (c : Thread nD τ) scM0_0 fullShare d) ∗ (∃ d, owns (c : Thread nD τ) scM0_1 fullShare d) ∗ (∃ d, owns (c : Thread nD τ) scM0_2 fullShare d)
      ∗ Pipeline.scopedRestBut (Ix := Unit) (Name := ℕ) (U := UR sig nD τ) (Lvl := ℕ) (Val := Elt F) spec0 c [cc0_scratch0, cc0_scratch1, cc0_scratch2]) := by
  subst hz; rfl

theorem PhiS_succ (c : Dev nD) (n : ℕ) (hn : n < cfg0.N) :
    PhiS W c (n + 1) hn = iprop(owns (c : Thread nD τ) scM0_0 fullShare (outsAt0 W c n hn).2.2.1 ∗ owns (c : Thread nD τ) scM0_1 fullShare (outsAt0 W c n hn).2.2.2.1
      ∗ owns (c : Thread nD τ) scM0_2 fullShare (outsAt0 W c n hn).2.2.2.2
      ∗ Pipeline.scopedRestBut (Ix := Unit) (Name := ℕ) (U := UR sig nD τ) (Lvl := ℕ) (Val := Elt F) spec0 c [cc0_scratch0, cc0_scratch1, cc0_scratch2]) := rfl

theorem PhiS_pos (c : Dev nD) (n : ℕ) (h : n ≤ cfg0.N) (hz : n ≠ 0) :
    PhiS W c n h = iprop(owns (c : Thread nD τ) scM0_0 fullShare (outsAt0 W c (n - 1) (by omega)).2.2.1 ∗ owns (c : Thread nD τ) scM0_1 fullShare (outsAt0 W c (n - 1) (by omega)).2.2.2.1
      ∗ owns (c : Thread nD τ) scM0_2 fullShare (outsAt0 W c (n - 1) (by omega)).2.2.2.2
      ∗ Pipeline.scopedRestBut (Ix := Unit) (Name := ℕ) (U := UR sig nD τ) (Lvl := ℕ) (Val := Elt F) spec0 c [cc0_scratch0, cc0_scratch1, cc0_scratch2]) := by
  cases n with
  | zero => exact absurd rfl hz
  | succ n => rfl

/-! ## The proof data -/

/-- The proof data of round one on core `c`: the arrays as the region finds them; after the body at point `t`
    each input's buffer at its block and the outputs' at the accumulation's components; the invariant above;
    nothing owed; full shares. -/
def dat0 (c : Dev nD) : Dat τ (Elt F) Unit ℕ (UR sig nD τ) ℕ cfg0 c where
  A w := WV W c (Pipeline.arrRef spec0 w)
  after w t := match w with
    | ⟨0, _⟩ => iblk0 W c 0 t
    | ⟨1, _⟩ => iblk0 W c 1 t
    | ⟨2, _⟩ => iblk0 W c 2 t
    | ⟨3, _⟩ => (outsAt0 W c t.val t.isLt).1
    | ⟨4, _⟩ => (outsAt0 W c t.val t.isLt).2.1
  Φ t := PhiS W c t.val (Nat.le_of_lt_succ t.isLt)
  q _ := fullShare
  owed _ := 0

theorem A_eq (c : Dev nD) (w : Fin cfg0.W) : (dat0 W c).A w = WV W c (Pipeline.arrRef spec0 w) := by
  dsimp only [dat0]

theorem PhiS_castSucc (c : Dev nD) (t : Fin cfg0.N) :
    (dat0 W c).Φ t.castSucc = PhiS W c t.val (Nat.le_of_lt t.isLt) := by
  dsimp only [dat0]; simp only [Fin.coe_castSucc]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = (outsAt0 W c t.val t.isLt).1 := by dsimp only [dat0]
theorem after0_4 (c : Dev nD) (t : Fin cfg0.N) : (dat0 W c).after 4 t = (outsAt0 W c t.val t.isLt).2.1 := by dsimp only [dat0]

/-- Each input's current staging buffer holds its block at every point, fetched there or not. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq]; try rfl) t d).trans
    (by unfold Dat.fetched Dat.blockOf iblk0; rw [A_eq]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq]; try rfl) t d).trans
    (by unfold Dat.fetched Dat.blockOf iblk0; rw [A_eq]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq]; try rfl) t d).trans
    (by unfold Dat.fetched Dat.blockOf iblk0; rw [A_eq]; try rfl)

/-! ## The body obligation, at a generic point -/

/-- What the body is called with at point `t`: the invariant, the core's dues, each window's current buffer. -/
def bodyPre (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d)))

/-- and what it returns. -/
def bodyPost (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t
    ∗ (dat0 W c).leavesExact 3 t ∗ (dat0 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2]
  rw [show (dat0 W c).owesAt () t.succ = (dat0 W c).owesAt () t.castSucc from rfl]
  rw [show (dat0 W c).Φ t.succ = PhiS W c (t.val + 1) t.isLt from rfl, PhiS_succ]
  have hN : t.val < 16 := lt_of_lt_of_eq t.isLt (show cfg0.N = 16 from N_0)
  rw [show (dat0 W c).leavesExact 0 t = owns (c : Thread nD τ) (ms0_0 t) fullShare ((dat0 W c).after 0 t) from by
    unfold Dat.leavesExact; rw [liveAt0_0 t], after0_0]
  rw [show (dat0 W c).leavesExact 1 t = owns (c : Thread nD τ) (ms0_1 t) fullShare ((dat0 W c).after 1 t) from by
    unfold Dat.leavesExact; rw [liveAt0_1 t], after0_1]
  rw [show (dat0 W c).leavesExact 2 t = owns (c : Thread nD τ) (ms0_2 t) fullShare ((dat0 W c).after 2 t) from by
    unfold Dat.leavesExact; rw [liveAt0_2 t], after0_2]
  by_cases h0 : t.val % 4 = 0
  · have h1 : ¬t.val % 4 = 3 := by omega
    have hn1 : ¬cond0_1 (grid0.coords t) := fun h => h1 ((hcond0_1 t).mp h)
    rw [Dat.leavesExact_idle (dat0 W c) 3 t (idleAt0_3 t hn1) (noFlush0_3 t hn1),
      Dat.leavesExact_idle (dat0 W c) 4 t (idleAt0_4 t hn1) (noFlush0_4 t hn1)]
    rw [outsAt0_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond0_1 (grid0.coords t) := (hcond0_1 t).mpr h1
      rw [show (dat0 W c).leavesExact 3 t = owns (c : Thread nD τ) (ms0_3 t) fullShare ((dat0 W c).after 3 t) from by
        unfold Dat.leavesExact; rw [liveAt0_3 t hy1], after0_3]
      rw [show (dat0 W c).leavesExact 4 t = owns (c : Thread nD τ) (ms0_4 t) fullShare ((dat0 W c).after 4 t) from by
        unfold Dat.leavesExact; rw [liveAt0_4 t hy1], after0_4]
      rw [outsAt0_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt0 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond0_1 (grid0.coords t) := fun h => h1 ((hcond0_1 t).mp h)
      rw [Dat.leavesExact_idle (dat0 W c) 3 t (idleAt0_3 t hn1) (noFlush0_3 t hn1),
        Dat.leavesExact_idle (dat0 W c) 4 t (idleAt0_4 t hn1) (noFlush0_4 t hn1)]
      rw [outsAt0_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt0 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat0 (F := F) W c) (defs₀ (F := F)) Variants.none () Set.univ := fun t => by
  rw [bigSep_W0, bigSep_W0]
  exact sound_body W c t

end Cert.KernelIdeal.Slic.R0

end
-- ==== Proof.I1Kit.lean ====
/-
  Round two of the idealized kernel (pallas_call number 2): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.KernelIdeal.Launch
import proofs.«138879_j15556371546814_2_alg».proof.Proof.Gen.KernelIdeal.Points
import proofs.«138879_j15556371546814_2_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.KernelIdeal.Slic

open Cert.KernelIdeal Cert.KernelIdeal.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond1_0 (i : grid1.Coords) : Prop :=
  (Scalar.cmpi .ne (Scalar.extui (Scalar.cmpi .eq (BitVec.ofNat 32 (i 1).val) 0#32)) 0#32) = 1#1

/-- The reset branch is taken exactly at the first tile of a batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The finalize branch is taken: the tile coordinate is three. -/
abbrev cond1_1 (i : grid1.Coords) : Prop := k1_cond2 i = 1#1

/-- The finalize branch is taken exactly at the last tile of a batch. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the outputs are written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Before the last tile the spectral-center output is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last tile it is live. -/
theorem liveAt1_3 : ∀ t : Fin cfg1.N, cond1_1 (grid1.coords t) → cfg1.idle 3 (grid1.coords t) = false := by decide +kernel

/-- The same of the spatial-center output. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- Each window's current staging memref at point `t`, and that it is a whole buffer. -/
abbrev ms1_0 (t : Fin cfg1.N) : Memref sig .tc .vmem S1x4096x200 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x200 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x2 .f32 := win1_4.stage (cfg1.slots t 4)
abbrev hs1_4 (t : Fin cfg1.N) : (ms1_4 t).IsWhole := hstage1_4 ((cfg1.slots t 4).cast nbuf1_4)

/-- The three accumulators: whole scoped buffers of the kernel's own (K x C, K x 2, K x 1). -/
abbrev scM1_0 : Memref sig .tc .vmem S256x200 .f32 := Memref.whole cc1_scratch0
abbrev scM1_1 : Memref sig .tc .vmem S256x2 .f32 := Memref.whole cc1_scratch1
abbrev scM1_2 : Memref sig .tc .vmem S256x1 .f32 := Memref.whole cc1_scratch2

end Cert.KernelIdeal.Slic

end
-- ==== Proof.I1RunA.lean ====
/-
  Round two of the idealized kernel, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.I1Kit

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun1_A (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond1_0 i) (hc1 : ¬cond1_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM1_0 fullShare d) ∗ (∃ d, owns (c : Thread nD τ) scM1_1 fullShare d) ∗ (∃ d, owns (c : Thread nD τ) scM1_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, fun y3 y4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I1RunB.lean ====
/-
  Round two of the idealized kernel, the body at a MIDDLE tile of a batch (neither the first nor the
  last): neither branch is taken. This tile's partial sums are added to the three accumulators, which
  arrive holding what the tile before left; the two center outputs are not touched.
-/
import proofs.«138879_j15556371546814_2_alg».proof.Proof.I1RunA

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun1_B (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond1_0 i) (hc1 : ¬cond1_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM1_0 fullShare xs7 ∗ owns (c : Thread nD τ) scM1_1 fullShare xs8 ∗ owns (c : Thread nD τ) scM1_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, fun y3 y4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM1_0.IsWhole).eq_unread hf7
    obtain rfl := (Memref.isWhole_whole _ : scM1_1.IsWhole).eq_unread hf8
    obtain rfl := (Memref.isWhole_whole _ : scM1_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I1RunC.lean ====
/-
  Round two of the idealized kernel, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.I1RunB

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun1_C (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond1_0 i) (hc1 : cond1_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM1_0 fullShare xs7 ∗ owns (c : Thread nD τ) scM1_1 fullShare xs8 ∗ owns (c : Thread nD τ) scM1_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM1_0.IsWhole).eq_unread hf7
    obtain rfl := (Memref.isWhole_whole _ : scM1_1.IsWhole).eq_unread hf8
    obtain rfl := (Memref.isWhole_whole _ : scM1_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.KernelIdeal.Slic

end
-- ==== Proof.I1Dat.lean ====
/-
  Round two of the idealized kernel: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.I1RunC
import Idealize.ShloMosaic.Lib.Ring

set_option maxRecDepth 16384

noncomputable section

namespace Cert.KernelIdeal.Slic.R1

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS1_0 : View sig .tc .vmem S256x200 .f32 := scM1_0.view
abbrev VS1_1 : View sig .tc .vmem S256x2 .f32 := scM1_1.view
abbrev VS1_2 : View sig .tc .vmem S256x1 .f32 := scM1_2.view
/-- One staging buffer of each center output, through which its contents are stated (the choice does not matter). -/
abbrev VO1_3 : View sig .tc .vmem S1x256x200 .f32 := (Memref.whole cc1_stg3_0 : Memref sig .tc .vmem S1x256x200 .f32).view
abbrev VO1_4 : View sig .tc .vmem S1x256x2 .f32 := (Memref.whole cc1_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (WV W c (Pipeline.arrRef spec1 w))

/-! ## What each case leaves -/

/-- After a point: the two center outputs' staging buffers, then the three accumulators. -/
abbrev Outs1 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) ((hcond1_0 t).mpr h0) (fun h => by have := (hcond1_1 t).mp h; omega) (iblk1 W c 0 t) (iblk1 W c 1 t) (iblk1 W c 2 t)
/-- The middle-tile run at point `t`, over what the accumulators held. -/
def runB (c : Dev nD) (t : Fin cfg1.N) (h0 : ¬t.val % 4 = 0) (h1 : ¬t.val % 4 = 3) (p : Outs1 F) :=
  kernelRun1_B (F := F) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 W c 0 t) (iblk1 W c 1 t) (iblk1 W c 2 t) p.2.2.1 p.2.2.2.1 p.2.2.2.2
/-- The last-tile run at point `t`, over what the accumulators held. -/
def runC (c : Dev nD) (t : Fin cfg1.N) (h0 : ¬t.val % 4 = 0) (h1 : t.val % 4 = 3) (p : Outs1 F) :=
  kernelRun1_C (F := F) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 W c 0 t) (iblk1 W c 1 t) (iblk1 W c 2 t) p.2.2.1 p.2.2.2.1 p.2.2.2.2

/-- The first tile stores nothing into the outputs (placeholders nothing consults) and leaves each accumulator at
    its pieces read back. -/
def stepA (c : Dev nD) (t : Fin cfg1.N) (h0 : t.val % 4 = 0) : Outs1 F :=
  (VO1_3.read (Elt F) VO1_3.junk, VO1_4.read (Elt F) VO1_4.junk,
   VS1_0.read (Elt F) (VS1_0.writes (Elt F) VS1_0.junk (runA W c t h0).1),
   VS1_1.read (Elt F) (VS1_1.writes (Elt F) VS1_1.junk (runA W c t h0).2.1),
   VS1_2.read (Elt F) (VS1_2.writes (Elt F) VS1_2.junk (runA W c t h0).2.2.1))
/-- A middle tile likewise, over the previous contents. -/
def stepB (c : Dev nD) (t : Fin cfg1.N) (h0 : ¬t.val % 4 = 0) (h1 : ¬t.val % 4 = 3) (p : Outs1 F) : Outs1 F :=
  (VO1_3.read (Elt F) VO1_3.junk, VO1_4.read (Elt F) VO1_4.junk,
   VS1_0.read (Elt F) (VS1_0.writes (Elt F) VS1_0.junk (runB W c t h0 h1 p).1),
   VS1_1.read (Elt F) (VS1_1.writes (Elt F) VS1_1.junk (runB W c t h0 h1 p).2.1),
   VS1_2.read (Elt F) (VS1_2.writes (Elt F) VS1_2.junk (runB W c t h0 h1 p).2.2.1))
/-- The last tile also stores the two quotients. -/
def stepC (c : Dev nD) (t : Fin cfg1.N) (h0 : ¬t.val % 4 = 0) (h1 : t.val % 4 = 3) (p : Outs1 F) : Outs1 F :=
  (VO1_3.read (Elt F) (VO1_3.writes (Elt F) VO1_3.junk (runC W c t h0 h1 p).1),
   VO1_4.read (Elt F) (VO1_4.writes (Elt F) VO1_4.junk (runC W c t h0 h1 p).2.1),
   VS1_0.read (Elt F) (VS1_0.writes (Elt F) VS1_0.junk (runC W c t h0 h1 p).2.2.1),
   VS1_1.read (Elt F) (VS1_1.writes (Elt F) VS1_1.junk (runC W c t h0 h1 p).2.2.2.1),
   VS1_2.read (Elt F) (VS1_2.writes (Elt F) VS1_2.junk (runC W c t h0 h1 p).2.2.2.2.1))

/-! ## Every store is whole: each case's pieces cover their buffer -/

theorem coverA_7 (c : Dev nD) (t : Fin cfg1.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg1.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg1.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg1.N) (h0 : ¬t.val % 4 = 0) (h1 : ¬t.val % 4 = 3) (p : Outs1 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg1.N) (h0 : ¬t.val % 4 = 0) (h1 : ¬t.val % 4 = 3) (p : Outs1 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg1.N) (h0 : ¬t.val % 4 = 0) (h1 : ¬t.val % 4 = 3) (p : Outs1 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg1.N) (h0 : ¬t.val % 4 = 0) (h1 : t.val % 4 = 3) (p : Outs1 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg1.N) (h0 : ¬t.val % 4 = 0) (h1 : t.val % 4 = 3) (p : Outs1 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg1.N) (h0 : ¬t.val % 4 = 0) (h1 : t.val % 4 = 3) (p : Outs1 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg1.N) (h0 : ¬t.val % 4 = 0) (h1 : t.val % 4 = 3) (p : Outs1 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg1.N) (h0 : ¬t.val % 4 = 0) (h1 : t.val % 4 = 3) (p : Outs1 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt1 (c : Dev nD) : (n : ℕ) → n < cfg1.N → Outs1 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt1 c n (Nat.lt_of_succ_lt hn))
    else stepB W c ⟨n + 1, hn⟩ h0 h1 (outsAt1 c n (Nat.lt_of_succ_lt hn))

theorem outsAt1_A (c : Dev nD) (t : Fin cfg1.N) (h0 : t.val % 4 = 0) :
    outsAt1 W c t.val t.isLt = stepA W c t h0 := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 W c t.val t.isLt = stepB W c t h0 h1 (outsAt1 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 W c t.val t.isLt = stepC W c t h0 h1 (outsAt1 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg1.N → sProp 𝕄
  | 0, _ => iprop((∃ d, owns (c : Thread nD τ) scM1_0 fullShare d) ∗ (∃ d, owns (c : Thread nD τ) scM1_1 fullShare d) ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2])
  | n + 1, hn => iprop(owns (c : Thread nD τ) scM1_0 fullShare (outsAt1 W c n hn).2.2.1 ∗ owns (c : Thread nD τ) scM1_1 fullShare (outsAt1 W c n hn).2.2.2.1
      ∗ owns (c : Thread nD τ) scM1_2 fullShare (outsAt1 W c n hn).2.2.2.2
      ∗ Pipeline.scopedRestBut (Ix := Unit) (Name := ℕ) (U := UR sig nD τ) (Lvl := ℕ) (Val := Elt F) spec1 c [cc1_scratch0, cc1_scratch1, cc1_scratch2])

theorem PhiS_zero (c : Dev nD) (n : ℕ) (h : n ≤ cfg1.N) (hz : n = 0) :
    PhiS W c n h = iprop((∃ d, owns (c : Thread nD τ) scM1_0 fullShare d) ∗ (∃ d, owns (c : Thread nD τ) scM1_1 fullShare d) ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2]) := by
  subst hz; rfl

theorem PhiS_succ (c : Dev nD) (n : ℕ) (hn : n < cfg1.N) :
    PhiS W c (n + 1) hn = iprop(owns (c : Thread nD τ) scM1_0 fullShare (outsAt1 W c n hn).2.2.1 ∗ owns (c : Thread nD τ) scM1_1 fullShare (outsAt1 W c n hn).2.2.2.1
      ∗ owns (c : Thread nD τ) scM1_2 fullShare (outsAt1 W c n hn).2.2.2.2
      ∗ Pipeline.scopedRestBut (Ix := Unit) (Name := ℕ) (U := UR sig nD τ) (Lvl := ℕ) (Val := Elt F) spec1 c [cc1_scratch0, cc1_scratch1, cc1_scratch2]) := rfl

theorem PhiS_pos (c : Dev nD) (n : ℕ) (h : n ≤ cfg1.N) (hz : n ≠ 0) :
    PhiS W c n h = iprop(owns (c : Thread nD τ) scM1_0 fullShare (outsAt1 W c (n - 1) (by omega)).2.2.1 ∗ owns (c : Thread nD τ) scM1_1 fullShare (outsAt1 W c (n - 1) (by omega)).2.2.2.1
      ∗ owns (c : Thread nD τ) scM1_2 fullShare (outsAt1 W c (n - 1) (by omega)).2.2.2.2
      ∗ Pipeline.scopedRestBut (Ix := Unit) (Name := ℕ) (U := UR sig nD τ) (Lvl := ℕ) (Val := Elt F) spec1 c [cc1_scratch0, cc1_scratch1, cc1_scratch2]) := by
  cases n with
  | zero => exact absurd rfl hz
  | succ n => rfl

/-! ## The proof data -/

/-- The proof data of round two on core `c`: the arrays as the region finds them; after the body at point `t`
    each input's buffer at its block and the outputs' at the accumulation's components; the invariant above;
    nothing owed; full shares. -/
def dat1 (c : Dev nD) : Dat τ (Elt F) Unit ℕ (UR sig nD τ) ℕ cfg1 c where
  A w := WV W c (Pipeline.arrRef spec1 w)
  after w t := match w with
    | ⟨0, _⟩ => iblk1 W c 0 t
    | ⟨1, _⟩ => iblk1 W c 1 t
    | ⟨2, _⟩ => iblk1 W c 2 t
    | ⟨3, _⟩ => (outsAt1 W c t.val t.isLt).1
    | ⟨4, _⟩ => (outsAt1 W c t.val t.isLt).2.1
  Φ t := PhiS W c t.val (Nat.le_of_lt_succ t.isLt)
  q _ := fullShare
  owed _ := 0

theorem A_eq (c : Dev nD) (w : Fin cfg1.W) : (dat1 W c).A w = WV W c (Pipeline.arrRef spec1 w) := by
  dsimp only [dat1]

theorem PhiS_castSucc (c : Dev nD) (t : Fin cfg1.N) :
    (dat1 W c).Φ t.castSucc = PhiS W c t.val (Nat.le_of_lt t.isLt) := by
  dsimp only [dat1]; simp only [Fin.coe_castSucc]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = (outsAt1 W c t.val t.isLt).1 := by dsimp only [dat1]
theorem after1_4 (c : Dev nD) (t : Fin cfg1.N) : (dat1 W c).after 4 t = (outsAt1 W c t.val t.isLt).2.1 := by dsimp only [dat1]

/-- Each input's current staging buffer holds its block at every point, fetched there or not. -/
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq]; try rfl) t d).trans
    (by unfold Dat.fetched Dat.blockOf iblk1; rw [A_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq]; try rfl) t d).trans
    (by unfold Dat.fetched Dat.blockOf iblk1; rw [A_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq]; try rfl) t d).trans
    (by unfold Dat.fetched Dat.blockOf iblk1; rw [A_eq]; try rfl)

/-! ## The body obligation, at a generic point -/

/-- What the body is called with at point `t`: the invariant, the core's dues, each window's current buffer. -/
def bodyPre (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d)))

/-- and what it returns. -/
def bodyPost (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t
    ∗ (dat1 W c).leavesExact 3 t ∗ (dat1 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2]
  rw [show (dat1 W c).owesAt () t.succ = (dat1 W c).owesAt () t.castSucc from rfl]
  rw [show (dat1 W c).Φ t.succ = PhiS W c (t.val + 1) t.isLt from rfl, PhiS_succ]
  have hN : t.val < 16 := lt_of_lt_of_eq t.isLt (show cfg1.N = 16 from N_1)
  rw [show (dat1 W c).leavesExact 0 t = owns (c : Thread nD τ) (ms1_0 t) fullShare ((dat1 W c).after 0 t) from by
    unfold Dat.leavesExact; rw [liveAt1_0 t], after1_0]
  rw [show (dat1 W c).leavesExact 1 t = owns (c : Thread nD τ) (ms1_1 t) fullShare ((dat1 W c).after 1 t) from by
    unfold Dat.leavesExact; rw [liveAt1_1 t], after1_1]
  rw [show (dat1 W c).leavesExact 2 t = owns (c : Thread nD τ) (ms1_2 t) fullShare ((dat1 W c).after 2 t) from by
    unfold Dat.leavesExact; rw [liveAt1_2 t], after1_2]
  by_cases h0 : t.val % 4 = 0
  · have h1 : ¬t.val % 4 = 3 := by omega
    have hn1 : ¬cond1_1 (grid1.coords t) := fun h => h1 ((hcond1_1 t).mp h)
    rw [Dat.leavesExact_idle (dat1 W c) 3 t (idleAt1_3 t hn1) (noFlush1_3 t hn1),
      Dat.leavesExact_idle (dat1 W c) 4 t (idleAt1_4 t hn1) (noFlush1_4 t hn1)]
    rw [outsAt1_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond1_1 (grid1.coords t) := (hcond1_1 t).mpr h1
      rw [show (dat1 W c).leavesExact 3 t = owns (c : Thread nD τ) (ms1_3 t) fullShare ((dat1 W c).after 3 t) from by
        unfold Dat.leavesExact; rw [liveAt1_3 t hy1], after1_3]
      rw [show (dat1 W c).leavesExact 4 t = owns (c : Thread nD τ) (ms1_4 t) fullShare ((dat1 W c).after 4 t) from by
        unfold Dat.leavesExact; rw [liveAt1_4 t hy1], after1_4]
      rw [outsAt1_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt1 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond1_1 (grid1.coords t) := fun h => h1 ((hcond1_1 t).mp h)
      rw [Dat.leavesExact_idle (dat1 W c) 3 t (idleAt1_3 t hn1) (noFlush1_3 t hn1),
        Dat.leavesExact_idle (dat1 W c) 4 t (idleAt1_4 t hn1) (noFlush1_4 t hn1)]
      rw [outsAt1_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt1 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat1 (F := F) W c) (defs₀ (F := F)) Variants.none () Set.univ := fun t => by
  rw [bigSep_W1, bigSep_W1]
  exact sound_body W c t

end Cert.KernelIdeal.Slic.R1

end
-- ==== Proof.I2Kit.lean ====
/-
  Round three of the idealized kernel (pallas_call number 3): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.KernelIdeal.Launch
import proofs.«138879_j15556371546814_2_alg».proof.Proof.Gen.KernelIdeal.Points
import proofs.«138879_j15556371546814_2_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.KernelIdeal.Slic

open Cert.KernelIdeal Cert.KernelIdeal.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond2_0 (i : grid2.Coords) : Prop :=
  (Scalar.cmpi .ne (Scalar.extui (Scalar.cmpi .eq (BitVec.ofNat 32 (i 1).val) 0#32)) 0#32) = 1#1

/-- The reset branch is taken exactly at the first tile of a batch. -/
theorem hcond2_0 : ∀ t : Fin cfg2.N, cond2_0 (grid2.coords t) ↔ t.val % 4 = 0 :=
  (by decide +kernel : ∀ t : Fin grid2.N, cond2_0 (grid2.coords t) ↔ t.val % 4 = 0)

/-- The finalize branch is taken: the tile coordinate is three. -/
abbrev cond2_1 (i : grid2.Coords) : Prop := k2_cond2 i = 1#1

/-- The finalize branch is taken exactly at the last tile of a batch. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, and where the outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-- Before the last tile the spectral-center output is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

/-- The same of the spatial-center output. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- Each window's current staging memref at point `t`, and that it is a whole buffer. -/
abbrev ms2_0 (t : Fin cfg2.N) : Memref sig .tc .vmem S1x4096x200 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x200 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x2 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x200 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x2 .f32 := win2_4.stage (cfg2.slots t 4)
abbrev hs2_4 (t : Fin cfg2.N) : (ms2_4 t).IsWhole := hstage2_4 ((cfg2.slots t 4).cast nbuf2_4)

/-- The three accumulators: whole scoped buffers of the kernel's own (K x C, K x 2, K x 1). -/
abbrev scM2_0 : Memref sig .tc .vmem S256x200 .f32 := Memref.whole cc2_scratch0
abbrev scM2_1 : Memref sig .tc .vmem S256x2 .f32 := Memref.whole cc2_scratch1
abbrev scM2_2 : Memref sig .tc .vmem S256x1 .f32 := Memref.whole cc2_scratch2

end Cert.KernelIdeal.Slic

end
-- ==== Proof.I2RunA.lean ====
/-
  Round three of the idealized kernel, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.I2Kit

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun2_A (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond2_0 i) (hc1 : ¬cond2_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM2_0 fullShare d) ∗ (∃ d, owns (c : Thread nD τ) scM2_1 fullShare d) ∗ (∃ d, owns (c : Thread nD τ) scM2_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, fun y3 y4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I2RunB.lean ====
/-
  Round three of the idealized kernel, the body at a MIDDLE tile of a batch (neither the first nor the
  last): neither branch is taken. This tile's partial sums are added to the three accumulators, which
  arrive holding what the tile before left; the two center outputs are not touched.
-/
import proofs.«138879_j15556371546814_2_alg».proof.Proof.I2RunA

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun2_B (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond2_0 i) (hc1 : ¬cond2_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM2_0 fullShare xs7 ∗ owns (c : Thread nD τ) scM2_1 fullShare xs8 ∗ owns (c : Thread nD τ) scM2_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, fun y3 y4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM2_0.IsWhole).eq_unread hf7
    obtain rfl := (Memref.isWhole_whole _ : scM2_1.IsWhole).eq_unread hf8
    obtain rfl := (Memref.isWhole_whole _ : scM2_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I2RunC.lean ====
/-
  Round three of the idealized kernel, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.I2RunB

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun2_C (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond2_0 i) (hc1 : cond2_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM2_0 fullShare xs7 ∗ owns (c : Thread nD τ) scM2_1 fullShare xs8 ∗ owns (c : Thread nD τ) scM2_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM2_0.IsWhole).eq_unread hf7
    obtain rfl := (Memref.isWhole_whole _ : scM2_1.IsWhole).eq_unread hf8
    obtain rfl := (Memref.isWhole_whole _ : scM2_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.KernelIdeal.Slic

end
-- ==== Proof.I2Dat.lean ====
/-
  Round three of the idealized kernel: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.I2RunC
import Idealize.ShloMosaic.Lib.Ring

set_option maxRecDepth 16384

noncomputable section

namespace Cert.KernelIdeal.Slic.R2

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS2_0 : View sig .tc .vmem S256x200 .f32 := scM2_0.view
abbrev VS2_1 : View sig .tc .vmem S256x2 .f32 := scM2_1.view
abbrev VS2_2 : View sig .tc .vmem S256x1 .f32 := scM2_2.view
/-- One staging buffer of each center output, through which its contents are stated (the choice does not matter). -/
abbrev VO2_3 : View sig .tc .vmem S1x256x200 .f32 := (Memref.whole cc2_stg3_0 : Memref sig .tc .vmem S1x256x200 .f32).view
abbrev VO2_4 : View sig .tc .vmem S1x256x2 .f32 := (Memref.whole cc2_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (WV W c (Pipeline.arrRef spec2 w))

/-! ## What each case leaves -/

/-- After a point: the two center outputs' staging buffers, then the three accumulators. -/
abbrev Outs2 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) ((hcond2_0 t).mpr h0) (fun h => by have := (hcond2_1 t).mp h; omega) (iblk2 W c 0 t) (iblk2 W c 1 t) (iblk2 W c 2 t)
/-- The middle-tile run at point `t`, over what the accumulators held. -/
def runB (c : Dev nD) (t : Fin cfg2.N) (h0 : ¬t.val % 4 = 0) (h1 : ¬t.val % 4 = 3) (p : Outs2 F) :=
  kernelRun2_B (F := F) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (fun h => h1 ((hcond2_1 t).mp h)) (iblk2 W c 0 t) (iblk2 W c 1 t) (iblk2 W c 2 t) p.2.2.1 p.2.2.2.1 p.2.2.2.2
/-- The last-tile run at point `t`, over what the accumulators held. -/
def runC (c : Dev nD) (t : Fin cfg2.N) (h0 : ¬t.val % 4 = 0) (h1 : t.val % 4 = 3) (p : Outs2 F) :=
  kernelRun2_C (F := F) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) ((hcond2_1 t).mpr h1) (iblk2 W c 0 t) (iblk2 W c 1 t) (iblk2 W c 2 t) p.2.2.1 p.2.2.2.1 p.2.2.2.2

/-- The first tile stores nothing into the outputs (placeholders nothing consults) and leaves each accumulator at
    its pieces read back. -/
def stepA (c : Dev nD) (t : Fin cfg2.N) (h0 : t.val % 4 = 0) : Outs2 F :=
  (VO2_3.read (Elt F) VO2_3.junk, VO2_4.read (Elt F) VO2_4.junk,
   VS2_0.read (Elt F) (VS2_0.writes (Elt F) VS2_0.junk (runA W c t h0).1),
   VS2_1.read (Elt F) (VS2_1.writes (Elt F) VS2_1.junk (runA W c t h0).2.1),
   VS2_2.read (Elt F) (VS2_2.writes (Elt F) VS2_2.junk (runA W c t h0).2.2.1))
/-- A middle tile likewise, over the previous contents. -/
def stepB (c : Dev nD) (t : Fin cfg2.N) (h0 : ¬t.val % 4 = 0) (h1 : ¬t.val % 4 = 3) (p : Outs2 F) : Outs2 F :=
  (VO2_3.read (Elt F) VO2_3.junk, VO2_4.read (Elt F) VO2_4.junk,
   VS2_0.read (Elt F) (VS2_0.writes (Elt F) VS2_0.junk (runB W c t h0 h1 p).1),
   VS2_1.read (Elt F) (VS2_1.writes (Elt F) VS2_1.junk (runB W c t h0 h1 p).2.1),
   VS2_2.read (Elt F) (VS2_2.writes (Elt F) VS2_2.junk (runB W c t h0 h1 p).2.2.1))
/-- The last tile also stores the two quotients. -/
def stepC (c : Dev nD) (t : Fin cfg2.N) (h0 : ¬t.val % 4 = 0) (h1 : t.val % 4 = 3) (p : Outs2 F) : Outs2 F :=
  (VO2_3.read (Elt F) (VO2_3.writes (Elt F) VO2_3.junk (runC W c t h0 h1 p).1),
   VO2_4.read (Elt F) (VO2_4.writes (Elt F) VO2_4.junk (runC W c t h0 h1 p).2.1),
   VS2_0.read (Elt F) (VS2_0.writes (Elt F) VS2_0.junk (runC W c t h0 h1 p).2.2.1),
   VS2_1.read (Elt F) (VS2_1.writes (Elt F) VS2_1.junk (runC W c t h0 h1 p).2.2.2.1),
   VS2_2.read (Elt F) (VS2_2.writes (Elt F) VS2_2.junk (runC W c t h0 h1 p).2.2.2.2.1))

/-! ## Every store is whole: each case's pieces cover their buffer -/

theorem coverA_7 (c : Dev nD) (t : Fin cfg2.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg2.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg2.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg2.N) (h0 : ¬t.val % 4 = 0) (h1 : ¬t.val % 4 = 3) (p : Outs2 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg2.N) (h0 : ¬t.val % 4 = 0) (h1 : ¬t.val % 4 = 3) (p : Outs2 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg2.N) (h0 : ¬t.val % 4 = 0) (h1 : ¬t.val % 4 = 3) (p : Outs2 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg2.N) (h0 : ¬t.val % 4 = 0) (h1 : t.val % 4 = 3) (p : Outs2 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg2.N) (h0 : ¬t.val % 4 = 0) (h1 : t.val % 4 = 3) (p : Outs2 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg2.N) (h0 : ¬t.val % 4 = 0) (h1 : t.val % 4 = 3) (p : Outs2 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg2.N) (h0 : ¬t.val % 4 = 0) (h1 : t.val % 4 = 3) (p : Outs2 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg2.N) (h0 : ¬t.val % 4 = 0) (h1 : t.val % 4 = 3) (p : Outs2 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt2 (c : Dev nD) : (n : ℕ) → n < cfg2.N → Outs2 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt2 c n (Nat.lt_of_succ_lt hn))
    else stepB W c ⟨n + 1, hn⟩ h0 h1 (outsAt2 c n (Nat.lt_of_succ_lt hn))

theorem outsAt2_A (c : Dev nD) (t : Fin cfg2.N) (h0 : t.val % 4 = 0) :
    outsAt2 W c t.val t.isLt = stepA W c t h0 := by
  obtain ⟨n, hn⟩ := t
  cases n with
  | zero => rfl
  | succ n => exact dif_pos h0

theorem outsAt2_B (c : Dev nD) (t : Fin cfg2.N) (h0 : ¬t.val % 4 = 0) (h1 : ¬t.val % 4 = 3) :
    outsAt2 W c t.val t.isLt = stepB W c t h0 h1 (outsAt2 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 4 = 0) (h1 : t.val % 4 = 3) :
    outsAt2 W c t.val t.isLt = stepC W c t h0 h1 (outsAt2 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg2.N → sProp 𝕄
  | 0, _ => iprop((∃ d, owns (c : Thread nD τ) scM2_0 fullShare d) ∗ (∃ d, owns (c : Thread nD τ) scM2_1 fullShare d) ∗ (∃ d, owns (c : Thread nD τ) scM2_2 fullShare d)
      ∗ Pipeline.scopedRestBut (Ix := Unit) (Name := ℕ) (U := UR sig nD τ) (Lvl := ℕ) (Val := Elt F) spec2 c [cc2_scratch0, cc2_scratch1, cc2_scratch2])
  | n + 1, hn => iprop(owns (c : Thread nD τ) scM2_0 fullShare (outsAt2 W c n hn).2.2.1 ∗ owns (c : Thread nD τ) scM2_1 fullShare (outsAt2 W c n hn).2.2.2.1
      ∗ owns (c : Thread nD τ) scM2_2 fullShare (outsAt2 W c n hn).2.2.2.2
      ∗ Pipeline.scopedRestBut (Ix := Unit) (Name := ℕ) (U := UR sig nD τ) (Lvl := ℕ) (Val := Elt F) spec2 c [cc2_scratch0, cc2_scratch1, cc2_scratch2])

theorem PhiS_zero (c : Dev nD) (n : ℕ) (h : n ≤ cfg2.N) (hz : n = 0) :
    PhiS W c n h = iprop((∃ d, owns (c : Thread nD τ) scM2_0 fullShare d) ∗ (∃ d, owns (c : Thread nD τ) scM2_1 fullShare d) ∗ (∃ d, owns (c : Thread nD τ) scM2_2 fullShare d)
      ∗ Pipeline.scopedRestBut (Ix := Unit) (Name := ℕ) (U := UR sig nD τ) (Lvl := ℕ) (Val := Elt F) spec2 c [cc2_scratch0, cc2_scratch1, cc2_scratch2]) := by
  subst hz; rfl

theorem PhiS_succ (c : Dev nD) (n : ℕ) (hn : n < cfg2.N) :
    PhiS W c (n + 1) hn = iprop(owns (c : Thread nD τ) scM2_0 fullShare (outsAt2 W c n hn).2.2.1 ∗ owns (c : Thread nD τ) scM2_1 fullShare (outsAt2 W c n hn).2.2.2.1
      ∗ owns (c : Thread nD τ) scM2_2 fullShare (outsAt2 W c n hn).2.2.2.2
      ∗ Pipeline.scopedRestBut (Ix := Unit) (Name := ℕ) (U := UR sig nD τ) (Lvl := ℕ) (Val := Elt F) spec2 c [cc2_scratch0, cc2_scratch1, cc2_scratch2]) := rfl

theorem PhiS_pos (c : Dev nD) (n : ℕ) (h : n ≤ cfg2.N) (hz : n ≠ 0) :
    PhiS W c n h = iprop(owns (c : Thread nD τ) scM2_0 fullShare (outsAt2 W c (n - 1) (by omega)).2.2.1 ∗ owns (c : Thread nD τ) scM2_1 fullShare (outsAt2 W c (n - 1) (by omega)).2.2.2.1
      ∗ owns (c : Thread nD τ) scM2_2 fullShare (outsAt2 W c (n - 1) (by omega)).2.2.2.2
      ∗ Pipeline.scopedRestBut (Ix := Unit) (Name := ℕ) (U := UR sig nD τ) (Lvl := ℕ) (Val := Elt F) spec2 c [cc2_scratch0, cc2_scratch1, cc2_scratch2]) := by
  cases n with
  | zero => exact absurd rfl hz
  | succ n => rfl

/-! ## The proof data -/

/-- The proof data of round three on core `c`: the arrays as the region finds them; after the body at point `t`
    each input's buffer at its block and the outputs' at the accumulation's components; the invariant above;
    nothing owed; full shares. -/
def dat2 (c : Dev nD) : Dat τ (Elt F) Unit ℕ (UR sig nD τ) ℕ cfg2 c where
  A w := WV W c (Pipeline.arrRef spec2 w)
  after w t := match w with
    | ⟨0, _⟩ => iblk2 W c 0 t
    | ⟨1, _⟩ => iblk2 W c 1 t
    | ⟨2, _⟩ => iblk2 W c 2 t
    | ⟨3, _⟩ => (outsAt2 W c t.val t.isLt).1
    | ⟨4, _⟩ => (outsAt2 W c t.val t.isLt).2.1
  Φ t := PhiS W c t.val (Nat.le_of_lt_succ t.isLt)
  q _ := fullShare
  owed _ := 0

theorem A_eq (c : Dev nD) (w : Fin cfg2.W) : (dat2 W c).A w = WV W c (Pipeline.arrRef spec2 w) := by
  dsimp only [dat2]

theorem PhiS_castSucc (c : Dev nD) (t : Fin cfg2.N) :
    (dat2 W c).Φ t.castSucc = PhiS W c t.val (Nat.le_of_lt t.isLt) := by
  dsimp only [dat2]; simp only [Fin.coe_castSucc]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = (outsAt2 W c t.val t.isLt).1 := by dsimp only [dat2]
theorem after2_4 (c : Dev nD) (t : Fin cfg2.N) : (dat2 W c).after 4 t = (outsAt2 W c t.val t.isLt).2.1 := by dsimp only [dat2]

/-- Each input's current staging buffer holds its block at every point, fetched there or not. -/
theorem before2_0 (c : Dev nD) (t : Fin cfg2.N) (d) : (dat2 W c).before 0 t d = iblk2 W c 0 t :=
  ((dat2 W c).before_in_eq_fetched 0 rfl (fun _ => rfl) (fun _ _ _ => rfl) (fun t => by rw [after2_0]; unfold Dat.blockOf iblk2; rw [A_eq]; try rfl) t d).trans
    (by unfold Dat.fetched Dat.blockOf iblk2; rw [A_eq]; try rfl)
theorem before2_1 (c : Dev nD) (t : Fin cfg2.N) (d) : (dat2 W c).before 1 t d = iblk2 W c 1 t :=
  ((dat2 W c).before_in_eq_fetched 1 rfl (fun _ => rfl) (fun _ _ _ => rfl) (fun t => by rw [after2_1]; unfold Dat.blockOf iblk2; rw [A_eq]; try rfl) t d).trans
    (by unfold Dat.fetched Dat.blockOf iblk2; rw [A_eq]; try rfl)
theorem before2_2 (c : Dev nD) (t : Fin cfg2.N) (d) : (dat2 W c).before 2 t d = iblk2 W c 2 t :=
  ((dat2 W c).before_in_eq_fetched 2 rfl (fun _ => rfl) (fun _ _ _ => rfl) (fun t => by rw [after2_2]; unfold Dat.blockOf iblk2; rw [A_eq]; try rfl) t d).trans
    (by unfold Dat.fetched Dat.blockOf iblk2; rw [A_eq]; try rfl)

/-! ## The body obligation, at a generic point -/

/-- What the body is called with at point `t`: the invariant, the core's dues, each window's current buffer. -/
def bodyPre (c : Dev nD) (t : Fin cfg2.N) : sProp 𝕄 :=
  iprop((dat2 W c).Φ t.castSucc ∗ (dat2 W c).owesAt () t.castSucc
    ∗ (∃ d, owns (c : Thread nD τ) (ms2_0 t) fullShare ((dat2 W c).before 0 t d))
    ∗ (∃ d, owns (c : Thread nD τ) (ms2_1 t) fullShare ((dat2 W c).before 1 t d))
    ∗ (∃ d, owns (c : Thread nD τ) (ms2_2 t) fullShare ((dat2 W c).before 2 t d))
    ∗ (∃ d, owns (c : Thread nD τ) (ms2_3 t) fullShare ((dat2 W c).before 3 t d))
    ∗ (∃ d, owns (c : Thread nD τ) (ms2_4 t) fullShare ((dat2 W c).before 4 t d)))

/-- and what it returns. -/
def bodyPost (c : Dev nD) (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t
    ∗ (dat2 W c).leavesExact 3 t ∗ (dat2 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0, before2_1, before2_2]
  rw [show (dat2 W c).owesAt () t.succ = (dat2 W c).owesAt () t.castSucc from rfl]
  rw [show (dat2 W c).Φ t.succ = PhiS W c (t.val + 1) t.isLt from rfl, PhiS_succ]
  have hN : t.val < 16 := lt_of_lt_of_eq t.isLt (show cfg2.N = 16 from N_2)
  rw [show (dat2 W c).leavesExact 0 t = owns (c : Thread nD τ) (ms2_0 t) fullShare ((dat2 W c).after 0 t) from by
    unfold Dat.leavesExact; rw [liveAt2_0 t], after2_0]
  rw [show (dat2 W c).leavesExact 1 t = owns (c : Thread nD τ) (ms2_1 t) fullShare ((dat2 W c).after 1 t) from by
    unfold Dat.leavesExact; rw [liveAt2_1 t], after2_1]
  rw [show (dat2 W c).leavesExact 2 t = owns (c : Thread nD τ) (ms2_2 t) fullShare ((dat2 W c).after 2 t) from by
    unfold Dat.leavesExact; rw [liveAt2_2 t], after2_2]
  by_cases h0 : t.val % 4 = 0
  · have h1 : ¬t.val % 4 = 3 := by omega
    have hn1 : ¬cond2_1 (grid2.coords t) := fun h => h1 ((hcond2_1 t).mp h)
    rw [Dat.leavesExact_idle (dat2 W c) 3 t (idleAt2_3 t hn1) (noFlush2_3 t hn1),
      Dat.leavesExact_idle (dat2 W c) 4 t (idleAt2_4 t hn1) (noFlush2_4 t hn1)]
    rw [outsAt2_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond2_1 (grid2.coords t) := (hcond2_1 t).mpr h1
      rw [show (dat2 W c).leavesExact 3 t = owns (c : Thread nD τ) (ms2_3 t) fullShare ((dat2 W c).after 3 t) from by
        unfold Dat.leavesExact; rw [liveAt2_3 t hy1], after2_3]
      rw [show (dat2 W c).leavesExact 4 t = owns (c : Thread nD τ) (ms2_4 t) fullShare ((dat2 W c).after 4 t) from by
        unfold Dat.leavesExact; rw [liveAt2_4 t hy1], after2_4]
      rw [outsAt2_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt2 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond2_1 (grid2.coords t) := fun h => h1 ((hcond2_1 t).mp h)
      rw [Dat.leavesExact_idle (dat2 W c) 3 t (idleAt2_3 t hn1) (noFlush2_3 t hn1),
        Dat.leavesExact_idle (dat2 W c) 4 t (idleAt2_4 t hn1) (noFlush2_4 t hn1)]
      rw [outsAt2_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt2 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat2 (F := F) W c) (defs₀ (F := F)) Variants.none () Set.univ := fun t => by
  rw [bigSep_W2, bigSep_W2]
  exact sound_body W c t

end Cert.KernelIdeal.Slic.R2

end
-- ==== Proof.I3Kit.lean ====
/-
  Round four of the idealized kernel (pallas_call number 4): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.KernelIdeal.Launch
import proofs.«138879_j15556371546814_2_alg».proof.Proof.Gen.KernelIdeal.Points
import proofs.«138879_j15556371546814_2_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.KernelIdeal.Slic

open Cert.KernelIdeal Cert.KernelIdeal.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond3_0 (i : grid3.Coords) : Prop :=
  (Scalar.cmpi .ne (Scalar.extui (Scalar.cmpi .eq (BitVec.ofNat 32 (i 1).val) 0#32)) 0#32) = 1#1

/-- The reset branch is taken exactly at the first tile of a batch. -/
theorem hcond3_0 : ∀ t : Fin cfg3.N, cond3_0 (grid3.coords t) ↔ t.val % 4 = 0 :=
  (by decide +kernel : ∀ t : Fin grid3.N, cond3_0 (grid3.coords t) ↔ t.val % 4 = 0)

/-- The finalize branch is taken: the tile coordinate is three. -/
abbrev cond3_1 (i : grid3.Coords) : Prop := k3_cond2 i = 1#1

/-- The finalize branch is taken exactly at the last tile of a batch. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle, and where the outputs are written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- Before the last tile the spectral-center output is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last tile it is live. -/
theorem liveAt3_3 : ∀ t : Fin cfg3.N, cond3_1 (grid3.coords t) → cfg3.idle 3 (grid3.coords t) = false := by decide +kernel

/-- The same of the spatial-center output. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The memrefs the body is called with -/

/-- Each window's current staging memref at point `t`, and that it is a whole buffer. -/
abbrev ms3_0 (t : Fin cfg3.N) : Memref sig .tc .vmem S1x4096x200 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x200 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x2 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256x200 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256x2 .f32 := win3_4.stage (cfg3.slots t 4)
abbrev hs3_4 (t : Fin cfg3.N) : (ms3_4 t).IsWhole := hstage3_4 ((cfg3.slots t 4).cast nbuf3_4)

/-- The three accumulators: whole scoped buffers of the kernel's own (K x C, K x 2, K x 1). -/
abbrev scM3_0 : Memref sig .tc .vmem S256x200 .f32 := Memref.whole cc3_scratch0
abbrev scM3_1 : Memref sig .tc .vmem S256x2 .f32 := Memref.whole cc3_scratch1
abbrev scM3_2 : Memref sig .tc .vmem S256x1 .f32 := Memref.whole cc3_scratch2

end Cert.KernelIdeal.Slic

end
-- ==== Proof.I3RunA.lean ====
/-
  Round four of the idealized kernel, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.I3Kit

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun3_A (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond3_0 i) (hc1 : ¬cond3_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM3_0 fullShare d) ∗ (∃ d, owns (c : Thread nD τ) scM3_1 fullShare d) ∗ (∃ d, owns (c : Thread nD τ) scM3_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, fun y3 y4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I3RunB.lean ====
/-
  Round four of the idealized kernel, the body at a MIDDLE tile of a batch (neither the first nor the
  last): neither branch is taken. This tile's partial sums are added to the three accumulators, which
  arrive holding what the tile before left; the two center outputs are not touched.
-/
import proofs.«138879_j15556371546814_2_alg».proof.Proof.I3RunA

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun3_B (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond3_0 i) (hc1 : ¬cond3_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM3_0 fullShare xs7 ∗ owns (c : Thread nD τ) scM3_1 fullShare xs8 ∗ owns (c : Thread nD τ) scM3_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, fun y3 y4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM3_0.IsWhole).eq_unread hf7
    obtain rfl := (Memref.isWhole_whole _ : scM3_1.IsWhole).eq_unread hf8
    obtain rfl := (Memref.isWhole_whole _ : scM3_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.KernelIdeal.Slic

end
-- ==== Proof.I3RunC.lean ====
/-
  Round four of the idealized kernel, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.I3RunB

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun3_C (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond3_0 i) (hc1 : cond3_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM3_0 fullShare xs7 ∗ owns (c : Thread nD τ) scM3_1 fullShare xs8 ∗ owns (c : Thread nD τ) scM3_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, ?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM3_0.IsWhole).eq_unread hf7
    obtain rfl := (Memref.isWhole_whole _ : scM3_1.IsWhole).eq_unread hf8
    obtain rfl := (Memref.isWhole_whole _ : scM3_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.KernelIdeal.Slic

end
-- ==== Proof.I3Dat.lean ====
/-
  Round four of the idealized kernel: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.I3RunC
import Idealize.ShloMosaic.Lib.Ring

set_option maxRecDepth 16384

noncomputable section

namespace Cert.KernelIdeal.Slic.R3

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS3_0 : View sig .tc .vmem S256x200 .f32 := scM3_0.view
abbrev VS3_1 : View sig .tc .vmem S256x2 .f32 := scM3_1.view
abbrev VS3_2 : View sig .tc .vmem S256x1 .f32 := scM3_2.view
/-- One staging buffer of each center output, through which its contents are stated (the choice does not matter). -/
abbrev VO3_3 : View sig .tc .vmem S1x256x200 .f32 := (Memref.whole cc3_stg3_0 : Memref sig .tc .vmem S1x256x200 .f32).view
abbrev VO3_4 : View sig .tc .vmem S1x256x2 .f32 := (Memref.whole cc3_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (WV W c (Pipeline.arrRef spec3 w))

/-! ## What each case leaves -/

/-- After a point: the two center outputs' staging buffers, then the three accumulators. -/
abbrev Outs3 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) ((hcond3_0 t).mpr h0) (fun h => by have := (hcond3_1 t).mp h; omega) (iblk3 W c 0 t) (iblk3 W c 1 t) (iblk3 W c 2 t)
/-- The middle-tile run at point `t`, over what the accumulators held. -/
def runB (c : Dev nD) (t : Fin cfg3.N) (h0 : ¬t.val % 4 = 0) (h1 : ¬t.val % 4 = 3) (p : Outs3 F) :=
  kernelRun3_B (F := F) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (fun h => h1 ((hcond3_1 t).mp h)) (iblk3 W c 0 t) (iblk3 W c 1 t) (iblk3 W c 2 t) p.2.2.1 p.2.2.2.1 p.2.2.2.2
/-- The last-tile run at point `t`, over what the accumulators held. -/
def runC (c : Dev nD) (t : Fin cfg3.N) (h0 : ¬t.val % 4 = 0) (h1 : t.val % 4 = 3) (p : Outs3 F) :=
  kernelRun3_C (F := F) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 W c 0 t) (iblk3 W c 1 t) (iblk3 W c 2 t) p.2.2.1 p.2.2.2.1 p.2.2.2.2

/-- The first tile stores nothing into the outputs (placeholders nothing consults) and leaves each accumulator at
    its pieces read back. -/
def stepA (c : Dev nD) (t : Fin cfg3.N) (h0 : t.val % 4 = 0) : Outs3 F :=
  (VO3_3.read (Elt F) VO3_3.junk, VO3_4.read (Elt F) VO3_4.junk,
   VS3_0.read (Elt F) (VS3_0.writes (Elt F) VS3_0.junk (runA W c t h0).1),
   VS3_1.read (Elt F) (VS3_1.writes (Elt F) VS3_1.junk (runA W c t h0).2.1),
   VS3_2.read (Elt F) (VS3_2.writes (Elt F) VS3_2.junk (runA W c t h0).2.2.1))
/-- A middle tile likewise, over the previous contents. -/
def stepB (c : Dev nD) (t : Fin cfg3.N) (h0 : ¬t.val % 4 = 0) (h1 : ¬t.val % 4 = 3) (p : Outs3 F) : Outs3 F :=
  (VO3_3.read (Elt F) VO3_3.junk, VO3_4.read (Elt F) VO3_4.junk,
   VS3_0.read (Elt F) (VS3_0.writes (Elt F) VS3_0.junk (runB W c t h0 h1 p).1),
   VS3_1.read (Elt F) (VS3_1.writes (Elt F) VS3_1.junk (runB W c t h0 h1 p).2.1),
   VS3_2.read (Elt F) (VS3_2.writes (Elt F) VS3_2.junk (runB W c t h0 h1 p).2.2.1))
/-- The last tile also stores the two quotients. -/
def stepC (c : Dev nD) (t : Fin cfg3.N) (h0 : ¬t.val % 4 = 0) (h1 : t.val % 4 = 3) (p : Outs3 F) : Outs3 F :=
  (VO3_3.read (Elt F) (VO3_3.writes (Elt F) VO3_3.junk (runC W c t h0 h1 p).1),
   VO3_4.read (Elt F) (VO3_4.writes (Elt F) VO3_4.junk (runC W c t h0 h1 p).2.1),
   VS3_0.read (Elt F) (VS3_0.writes (Elt F) VS3_0.junk (runC W c t h0 h1 p).2.2.1),
   VS3_1.read (Elt F) (VS3_1.writes (Elt F) VS3_1.junk (runC W c t h0 h1 p).2.2.2.1),
   VS3_2.read (Elt F) (VS3_2.writes (Elt F) VS3_2.junk (runC W c t h0 h1 p).2.2.2.2.1))

/-! ## Every store is whole: each case's pieces cover their buffer -/

theorem coverA_7 (c : Dev nD) (t : Fin cfg3.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg3.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg3.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg3.N) (h0 : ¬t.val % 4 = 0) (h1 : ¬t.val % 4 = 3) (p : Outs3 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg3.N) (h0 : ¬t.val % 4 = 0) (h1 : ¬t.val % 4 = 3) (p : Outs3 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg3.N) (h0 : ¬t.val % 4 = 0) (h1 : ¬t.val % 4 = 3) (p : Outs3 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg3.N) (h0 : ¬t.val % 4 = 0) (h1 : t.val % 4 = 3) (p : Outs3 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg3.N) (h0 : ¬t.val % 4 = 0) (h1 : t.val % 4 = 3) (p : Outs3 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg3.N) (h0 : ¬t.val % 4 = 0) (h1 : t.val % 4 = 3) (p : Outs3 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg3.N) (h0 : ¬t.val % 4 = 0) (h1 : t.val % 4 = 3) (p : Outs3 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg3.N) (h0 : ¬t.val % 4 = 0) (h1 : t.val % 4 = 3) (p : Outs3 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt3 (c : Dev nD) : (n : ℕ) → n < cfg3.N → Outs3 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt3 c n (Nat.lt_of_succ_lt hn))
    else stepB W c ⟨n + 1, hn⟩ h0 h1 (outsAt3 c n (Nat.lt_of_succ_lt hn))

theorem outsAt3_A (c : Dev nD) (t : Fin cfg3.N) (h0 : t.val % 4 = 0) :
    outsAt3 W c t.val t.isLt = stepA W c t h0 := by
  obtain ⟨n, hn⟩ := t
  cases n with
  | zero => rfl
  | succ n => exact dif_pos h0

theorem outsAt3_B (c : Dev nD) (t : Fin cfg3.N) (h0 : ¬t.val % 4 = 0) (h1 : ¬t.val % 4 = 3) :
    outsAt3 W c t.val t.isLt = stepB W c t h0 h1 (outsAt3 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 4 = 0) (h1 : t.val % 4 = 3) :
    outsAt3 W c t.val t.isLt = stepC W c t h0 h1 (outsAt3 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg3.N → sProp 𝕄
  | 0, _ => iprop((∃ d, owns (c : Thread nD τ) scM3_0 fullShare d) ∗ (∃ d, owns (c : Thread nD τ) scM3_1 fullShare d) ∗ (∃ d, owns (c : Thread nD τ) scM3_2 fullShare d)
      ∗ Pipeline.scopedRestBut (Ix := Unit) (Name := ℕ) (U := UR sig nD τ) (Lvl := ℕ) (Val := Elt F) spec3 c [cc3_scratch0, cc3_scratch1, cc3_scratch2])
  | n + 1, hn => iprop(owns (c : Thread nD τ) scM3_0 fullShare (outsAt3 W c n hn).2.2.1 ∗ owns (c : Thread nD τ) scM3_1 fullShare (outsAt3 W c n hn).2.2.2.1
      ∗ owns (c : Thread nD τ) scM3_2 fullShare (outsAt3 W c n hn).2.2.2.2
      ∗ Pipeline.scopedRestBut (Ix := Unit) (Name := ℕ) (U := UR sig nD τ) (Lvl := ℕ) (Val := Elt F) spec3 c [cc3_scratch0, cc3_scratch1, cc3_scratch2])

theorem PhiS_zero (c : Dev nD) (n : ℕ) (h : n ≤ cfg3.N) (hz : n = 0) :
    PhiS W c n h = iprop((∃ d, owns (c : Thread nD τ) scM3_0 fullShare d) ∗ (∃ d, owns (c : Thread nD τ) scM3_1 fullShare d) ∗ (∃ d, owns (c : Thread nD τ) scM3_2 fullShare d)
      ∗ Pipeline.scopedRestBut (Ix := Unit) (Name := ℕ) (U := UR sig nD τ) (Lvl := ℕ) (Val := Elt F) spec3 c [cc3_scratch0, cc3_scratch1, cc3_scratch2]) := by
  subst hz; rfl

theorem PhiS_succ (c : Dev nD) (n : ℕ) (hn : n < cfg3.N) :
    PhiS W c (n + 1) hn = iprop(owns (c : Thread nD τ) scM3_0 fullShare (outsAt3 W c n hn).2.2.1 ∗ owns (c : Thread nD τ) scM3_1 fullShare (outsAt3 W c n hn).2.2.2.1
      ∗ owns (c : Thread nD τ) scM3_2 fullShare (outsAt3 W c n hn).2.2.2.2
      ∗ Pipeline.scopedRestBut (Ix := Unit) (Name := ℕ) (U := UR sig nD τ) (Lvl := ℕ) (Val := Elt F) spec3 c [cc3_scratch0, cc3_scratch1, cc3_scratch2]) := rfl

theorem PhiS_pos (c : Dev nD) (n : ℕ) (h : n ≤ cfg3.N) (hz : n ≠ 0) :
    PhiS W c n h = iprop(owns (c : Thread nD τ) scM3_0 fullShare (outsAt3 W c (n - 1) (by omega)).2.2.1 ∗ owns (c : Thread nD τ) scM3_1 fullShare (outsAt3 W c (n - 1) (by omega)).2.2.2.1
      ∗ owns (c : Thread nD τ) scM3_2 fullShare (outsAt3 W c (n - 1) (by omega)).2.2.2.2
      ∗ Pipeline.scopedRestBut (Ix := Unit) (Name := ℕ) (U := UR sig nD τ) (Lvl := ℕ) (Val := Elt F) spec3 c [cc3_scratch0, cc3_scratch1, cc3_scratch2]) := by
  cases n with
  | zero => exact absurd rfl hz
  | succ n => rfl

/-! ## The proof data -/

/-- The proof data of round four on core `c`: the arrays as the region finds them; after the body at point `t`
    each input's buffer at its block and the outputs' at the accumulation's components; the invariant above;
    nothing owed; full shares. -/
def dat3 (c : Dev nD) : Dat τ (Elt F) Unit ℕ (UR sig nD τ) ℕ cfg3 c where
  A w := WV W c (Pipeline.arrRef spec3 w)
  after w t := match w with
    | ⟨0, _⟩ => iblk3 W c 0 t
    | ⟨1, _⟩ => iblk3 W c 1 t
    | ⟨2, _⟩ => iblk3 W c 2 t
    | ⟨3, _⟩ => (outsAt3 W c t.val t.isLt).1
    | ⟨4, _⟩ => (outsAt3 W c t.val t.isLt).2.1
  Φ t := PhiS W c t.val (Nat.le_of_lt_succ t.isLt)
  q _ := fullShare
  owed _ := 0

theorem A_eq (c : Dev nD) (w : Fin cfg3.W) : (dat3 W c).A w = WV W c (Pipeline.arrRef spec3 w) := by
  dsimp only [dat3]

theorem PhiS_castSucc (c : Dev nD) (t : Fin cfg3.N) :
    (dat3 W c).Φ t.castSucc = PhiS W c t.val (Nat.le_of_lt t.isLt) := by
  dsimp only [dat3]; simp only [Fin.coe_castSucc]

theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = iblk3 W c 2 t := by dsimp only [dat3]
theorem after3_3 (c : Dev nD) (t : Fin cfg3.N) : (dat3 W c).after 3 t = (outsAt3 W c t.val t.isLt).1 := by dsimp only [dat3]
theorem after3_4 (c : Dev nD) (t : Fin cfg3.N) : (dat3 W c).after 4 t = (outsAt3 W c t.val t.isLt).2.1 := by dsimp only [dat3]

/-- Each input's current staging buffer holds its block at every point, fetched there or not. -/
theorem before3_0 (c : Dev nD) (t : Fin cfg3.N) (d) : (dat3 W c).before 0 t d = iblk3 W c 0 t :=
  ((dat3 W c).before_in_eq_fetched 0 rfl (fun _ => rfl) (fun _ _ _ => rfl) (fun t => by rw [after3_0]; unfold Dat.blockOf iblk3; rw [A_eq]; try rfl) t d).trans
    (by unfold Dat.fetched Dat.blockOf iblk3; rw [A_eq]; try rfl)
theorem before3_1 (c : Dev nD) (t : Fin cfg3.N) (d) : (dat3 W c).before 1 t d = iblk3 W c 1 t :=
  ((dat3 W c).before_in_eq_fetched 1 rfl (fun _ => rfl) (fun _ _ _ => rfl) (fun t => by rw [after3_1]; unfold Dat.blockOf iblk3; rw [A_eq]; try rfl) t d).trans
    (by unfold Dat.fetched Dat.blockOf iblk3; rw [A_eq]; try rfl)
theorem before3_2 (c : Dev nD) (t : Fin cfg3.N) (d) : (dat3 W c).before 2 t d = iblk3 W c 2 t :=
  ((dat3 W c).before_in_eq_fetched 2 rfl (fun _ => rfl) (fun _ _ _ => rfl) (fun t => by rw [after3_2]; unfold Dat.blockOf iblk3; rw [A_eq]; try rfl) t d).trans
    (by unfold Dat.fetched Dat.blockOf iblk3; rw [A_eq]; try rfl)

/-! ## The body obligation, at a generic point -/

/-- What the body is called with at point `t`: the invariant, the core's dues, each window's current buffer. -/
def bodyPre (c : Dev nD) (t : Fin cfg3.N) : sProp 𝕄 :=
  iprop((dat3 W c).Φ t.castSucc ∗ (dat3 W c).owesAt () t.castSucc
    ∗ (∃ d, owns (c : Thread nD τ) (ms3_0 t) fullShare ((dat3 W c).before 0 t d))
    ∗ (∃ d, owns (c : Thread nD τ) (ms3_1 t) fullShare ((dat3 W c).before 1 t d))
    ∗ (∃ d, owns (c : Thread nD τ) (ms3_2 t) fullShare ((dat3 W c).before 2 t d))
    ∗ (∃ d, owns (c : Thread nD τ) (ms3_3 t) fullShare ((dat3 W c).before 3 t d))
    ∗ (∃ d, owns (c : Thread nD τ) (ms3_4 t) fullShare ((dat3 W c).before 4 t d)))

/-- and what it returns. -/
def bodyPost (c : Dev nD) (t : Fin cfg3.N) : sProp 𝕄 :=
  iprop((dat3 W c).Φ t.succ ∗ (dat3 W c).owesAt () t.succ
    ∗ (dat3 W c).leavesExact 0 t ∗ (dat3 W c).leavesExact 1 t ∗ (dat3 W c).leavesExact 2 t
    ∗ (dat3 W c).leavesExact 3 t ∗ (dat3 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before3_0, before3_1, before3_2]
  rw [show (dat3 W c).owesAt () t.succ = (dat3 W c).owesAt () t.castSucc from rfl]
  rw [show (dat3 W c).Φ t.succ = PhiS W c (t.val + 1) t.isLt from rfl, PhiS_succ]
  have hN : t.val < 16 := lt_of_lt_of_eq t.isLt (show cfg3.N = 16 from N_3)
  rw [show (dat3 W c).leavesExact 0 t = owns (c : Thread nD τ) (ms3_0 t) fullShare ((dat3 W c).after 0 t) from by
    unfold Dat.leavesExact; rw [liveAt3_0 t], after3_0]
  rw [show (dat3 W c).leavesExact 1 t = owns (c : Thread nD τ) (ms3_1 t) fullShare ((dat3 W c).after 1 t) from by
    unfold Dat.leavesExact; rw [liveAt3_1 t], after3_1]
  rw [show (dat3 W c).leavesExact 2 t = owns (c : Thread nD τ) (ms3_2 t) fullShare ((dat3 W c).after 2 t) from by
    unfold Dat.leavesExact; rw [liveAt3_2 t], after3_2]
  by_cases h0 : t.val % 4 = 0
  · have h1 : ¬t.val % 4 = 3 := by omega
    have hn1 : ¬cond3_1 (grid3.coords t) := fun h => h1 ((hcond3_1 t).mp h)
    rw [Dat.leavesExact_idle (dat3 W c) 3 t (idleAt3_3 t hn1) (noFlush3_3 t hn1),
      Dat.leavesExact_idle (dat3 W c) 4 t (idleAt3_4 t hn1) (noFlush3_4 t hn1)]
    rw [outsAt3_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond3_1 (grid3.coords t) := (hcond3_1 t).mpr h1
      rw [show (dat3 W c).leavesExact 3 t = owns (c : Thread nD τ) (ms3_3 t) fullShare ((dat3 W c).after 3 t) from by
        unfold Dat.leavesExact; rw [liveAt3_3 t hy1], after3_3]
      rw [show (dat3 W c).leavesExact 4 t = owns (c : Thread nD τ) (ms3_4 t) fullShare ((dat3 W c).after 4 t) from by
        unfold Dat.leavesExact; rw [liveAt3_4 t hy1], after3_4]
      rw [outsAt3_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt3 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond3_1 (grid3.coords t) := fun h => h1 ((hcond3_1 t).mp h)
      rw [Dat.leavesExact_idle (dat3 W c) 3 t (idleAt3_3 t hn1) (noFlush3_3 t hn1),
        Dat.leavesExact_idle (dat3 W c) 4 t (idleAt3_4 t hn1) (noFlush3_4 t hn1)]
      rw [outsAt3_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt3 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat3 (F := F) W c) (defs₀ (F := F)) Variants.none () Set.univ := fun t => by
  rw [bigSep_W3, bigSep_W3]
  exact sound_body W c t

end Cert.KernelIdeal.Slic.R3

end
-- ==== Proof.I4Kit.lean ====
/-
  Round five of the idealized kernel (the fifth pallas_call): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle. This round has a sixth window, the assignment output: the body stores it whole at every
  point, so it is never idle and is written back at every point.
-/
import proofs.«138879_j15556371546814_2_alg».proof.Proof.Gen.KernelIdeal.Launch
import proofs.«138879_j15556371546814_2_alg».proof.Proof.Gen.KernelIdeal.Points
import proofs.«138879_j15556371546814_2_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.KernelIdeal.Slic

open Cert.KernelIdeal Cert.KernelIdeal.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond4_0 (i : grid4.Coords) : Prop :=
  (Scalar.cmpi .ne (Scalar.extui (Scalar.cmpi .eq (BitVec.ofNat 32 (i 1).val) 0#32)) 0#32) = 1#1

/-- The reset branch is taken exactly at the first tile of a batch. -/
theorem hcond4_0 : ∀ t : Fin cfg4.N, cond4_0 (grid4.coords t) ↔ t.val % 4 = 0 :=
  (by decide +kernel : ∀ t : Fin grid4.N, cond4_0 (grid4.coords t) ↔ t.val % 4 = 0)

/-- The finalize branch is taken: the tile coordinate is three. -/
abbrev cond4_1 (i : grid4.Coords) : Prop := k4_cond2 i = 1#1

/-- The finalize branch is taken exactly at the last tile of a batch. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle, and where the outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Before the last tile the spectral-center output is idle and is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last tile it is live. -/
theorem liveAt4_3 : ∀ t : Fin cfg4.N, cond4_1 (grid4.coords t) → cfg4.idle 3 (grid4.coords t) = false := by decide +kernel

/-- The same of the spatial-center output. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-- The assignment output is live at every point. -/
theorem liveAt4_5 : ∀ t : Fin cfg4.N, cfg4.idle 5 (grid4.coords t) = false := by decide +kernel

/-! ## The memrefs the body is called with -/

/-- Each window's current staging memref at point `t`, and that it is a whole buffer. -/
abbrev ms4_0 (t : Fin cfg4.N) : Memref sig .tc .vmem S1x4096x200 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256x200 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256x200 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x4096x256 .f32 := win4_5.stage (cfg4.slots t 5)
abbrev hs4_5 (t : Fin cfg4.N) : (ms4_5 t).IsWhole := hstage4_5 ((cfg4.slots t 5).cast nbuf4_5)

/-- The three accumulators: whole scoped buffers of the kernel's own (K x C, K x 2, K x 1). -/
abbrev scM4_0 : Memref sig .tc .vmem S256x200 .f32 := Memref.whole cc4_scratch0
abbrev scM4_1 : Memref sig .tc .vmem S256x2 .f32 := Memref.whole cc4_scratch1
abbrev scM4_2 : Memref sig .tc .vmem S256x1 .f32 := Memref.whole cc4_scratch2

end Cert.KernelIdeal.Slic

end
-- ==== Proof.I4RunA.lean ====
/-
  Round five of the idealized kernel, the body at the FIRST tile of a batch: the three accumulators are
  reset to zero, this tile's assignment is stored whole into the assignment output and its partial sums
  are added; the finalize branch is not taken, so the two center outputs are not touched. From the three
  inputs at their blocks, the two center outputs at whatever they hold, the assignment output and the
  accumulators at anything, the body runs to its return with the inputs and the center outputs as found
  and the assignment output and each accumulator overwritten by the pieces the run finds (they do not
  depend on what those buffers held).
-/
import proofs.«138879_j15556371546814_2_alg».proof.Proof.I4Kit

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator and the assignment output end with are the witness. -/
noncomputable def kernelRun4_A (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : cond4_0 i) (hc1 : ¬cond4_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32))
       (L9 : List (View.Piece (Elt F) S256x1 .f32)), { LQ : List (View.Piece (Elt F) S1x4096x256 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) arg7 fullShare d)
            ∗ (∃ d, owns (c : Thread nD τ) scM4_0 fullShare d) ∗ (∃ d, owns (c : Thread nD τ) scM4_1 fullShare d) ∗ (∃ d, owns (c : Thread nD τ) scM4_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, fun y3 y4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H7]
    · iexists _; iexact H7
    isplitl [H8]
    · iexists _; iexact H8
    iexists _; iexact H9

end Cert.KernelIdeal.Slic

end
-- ==== Proof.I4RunB.lean ====
/-
  Round five of the idealized kernel, the body at a MIDDLE tile of a batch (neither the first nor the
  last): neither branch is taken. This tile's assignment is stored whole into the assignment output and
  its partial sums are added to the three accumulators, which arrive holding what the tile before left;
  the two center outputs are not touched.
-/
import proofs.«138879_j15556371546814_2_alg».proof.Proof.I4RunA

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator and the assignment output end with, as found, are
    functions of the three input blocks and of what the accumulators held. -/
noncomputable def kernelRun4_B (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : ¬cond4_0 i) (hc1 : ¬cond4_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32))
       (L9 : List (View.Piece (Elt F) S256x1 .f32)), { LQ : List (View.Piece (Elt F) S1x4096x256 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) arg7 fullShare d)
            ∗ owns (c : Thread nD τ) scM4_0 fullShare xs7 ∗ owns (c : Thread nD τ) scM4_1 fullShare xs8 ∗ owns (c : Thread nD τ) scM4_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, fun y3 y4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM4_0.IsWhole).eq_unread hf7
    obtain rfl := (Memref.isWhole_whole _ : scM4_1.IsWhole).eq_unread hf8
    obtain rfl := (Memref.isWhole_whole _ : scM4_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H7]
    · iexists _; iexact H7
    isplitl [H8]
    · iexists _; iexact H8
    iexists _; iexact H9

end Cert.KernelIdeal.Slic

end
-- ==== Proof.I4RunC.lean ====
/-
  Round five of the idealized kernel, the body at the LAST tile of a batch: the reset is not taken, this
  tile's assignment is stored whole into the assignment output, its partial sums are added to the
  accumulators, and the finalize branch divides the spectral and the spatial accumulator by the
  accumulated mass plus 1e-6 and stores the two quotients, whole, into the two center outputs.
-/
import proofs.«138879_j15556371546814_2_alg».proof.Proof.I4RunB

set_option maxRecDepth 16384

noncomputable section

namespace Cert.KernelIdeal.Slic

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs, the assignment output and the three accumulators
    end with, as found, are functions of the three input blocks and of what the accumulators held. -/
noncomputable def kernelRun4_C (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : ¬cond4_0 i) (hc1 : cond4_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32))
       (L9 : List (View.Piece (Elt F) S256x1 .f32)), { LQ : List (View.Piece (Elt F) S1x4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d)
            ∗ owns (c : Thread nD τ) scM4_0 fullShare xs7 ∗ owns (c : Thread nD τ) scM4_1 fullShare xs8 ∗ owns (c : Thread nD τ) scM4_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, ?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM4_0.IsWhole).eq_unread hf7
    obtain rfl := (Memref.isWhole_whole _ : scM4_1.IsWhole).eq_unread hf8
    obtain rfl := (Memref.isWhole_whole _ : scM4_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H5]
    · iexists _; iexact H5
    isplitl [H7]
    · iexists _; iexact H7
    isplitl [H8]
    · iexists _; iexact H8
    iexists _; iexact H9

end Cert.KernelIdeal.Slic

end
-- ==== Proof.I4Dat.lean ====
/-
  Round five of the idealized kernel: what the body's six written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. At every tile the assignment output receives, whole, the tile's
  assignment, which the body computes from the three input blocks and the tile index. So the contents
  after point t are defined by recursion on t, the case chosen by t mod 4, each case's contents being what
  that case's run of the body found. The three inputs' staging buffers hold their blocks at every point,
  fetched there or not (the two center inputs are fetched once per batch and their index does not move
  within it). The two center outputs are idle before the last tile: the body hands their buffers back as
  it found them. The assignment output is live at every point.

  Everything is stated over a valuation W of the unscoped buffers as the region finds them.
-/
import proofs.«138879_j15556371546814_2_alg».proof.Proof.I4RunC
import Idealize.ShloMosaic.Lib.Ring

set_option maxRecDepth 16384

noncomputable section

namespace Cert.KernelIdeal.Slic.R4

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS4_0 : View sig .tc .vmem S256x200 .f32 := scM4_0.view
abbrev VS4_1 : View sig .tc .vmem S256x2 .f32 := scM4_1.view
abbrev VS4_2 : View sig .tc .vmem S256x1 .f32 := scM4_2.view
/-- One staging buffer of each center output, through which its contents are stated (the choice does not matter). -/
abbrev VO4_3 : View sig .tc .vmem S1x256x200 .f32 := (Memref.whole cc4_stg3_0 : Memref sig .tc .vmem S1x256x200 .f32).view
abbrev VO4_4 : View sig .tc .vmem S1x256x2 .f32 := (Memref.whole cc4_stg4_0 : Memref sig .tc .vmem S1x256x2 .f32).view
/-- One staging buffer of the assignment output, likewise. -/
abbrev VO4_5 : View sig .tc .vmem S1x4096x256 .f32 := (Memref.whole cc4_stg5_0 : Memref sig .tc .vmem S1x4096x256 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (WV W c (Pipeline.arrRef spec4 w))

/-! ## What each case leaves -/

/-- After a point: the two center outputs' staging buffers, then the three accumulators, then the assignment
    output's staging buffer. -/
abbrev Outs4 (F : FTy → Type) [FloatOps F] : Type :=
  Vec F S1x256x200 .f32 × Vec F S1x256x2 .f32 × Vec F S256x200 .f32 × Vec F S256x2 .f32 × Vec F S256x1 .f32 × Vec F S1x4096x256 .f32

/-- The first-tile run at point `t`. -/
def runA (c : Dev nD) (t : Fin cfg4.N) (h0 : t.val % 4 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (fun h => by have := (hcond4_1 t).mp h; omega) (iblk4 W c 0 t) (iblk4 W c 1 t) (iblk4 W c 2 t)
/-- The middle-tile run at point `t`, over what the accumulators held. -/
def runB (c : Dev nD) (t : Fin cfg4.N) (h0 : ¬t.val % 4 = 0) (h1 : ¬t.val % 4 = 3) (p : Outs4 F) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (fun h => h1 ((hcond4_1 t).mp h)) (iblk4 W c 0 t) (iblk4 W c 1 t) (iblk4 W c 2 t) p.2.2.1 p.2.2.2.1 p.2.2.2.2.1
/-- The last-tile run at point `t`, over what the accumulators held. -/
def runC (c : Dev nD) (t : Fin cfg4.N) (h0 : ¬t.val % 4 = 0) (h1 : t.val % 4 = 3) (p : Outs4 F) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) ((hcond4_1 t).mpr h1) (iblk4 W c 0 t) (iblk4 W c 1 t) (iblk4 W c 2 t) p.2.2.1 p.2.2.2.1 p.2.2.2.2.1

/-- The first tile stores nothing into the center outputs (placeholders nothing consults) and leaves each
    accumulator, and the assignment output, at its pieces read back. -/
def stepA (c : Dev nD) (t : Fin cfg4.N) (h0 : t.val % 4 = 0) : Outs4 F :=
  (VO4_3.read (Elt F) VO4_3.junk, VO4_4.read (Elt F) VO4_4.junk,
   VS4_0.read (Elt F) (VS4_0.writes (Elt F) VS4_0.junk (runA W c t h0).1),
   VS4_1.read (Elt F) (VS4_1.writes (Elt F) VS4_1.junk (runA W c t h0).2.1),
   VS4_2.read (Elt F) (VS4_2.writes (Elt F) VS4_2.junk (runA W c t h0).2.2.1),
   VO4_5.read (Elt F) (VO4_5.writes (Elt F) VO4_5.junk (runA W c t h0).2.2.2.1))
/-- A middle tile likewise, over the previous contents. -/
def stepB (c : Dev nD) (t : Fin cfg4.N) (h0 : ¬t.val % 4 = 0) (h1 : ¬t.val % 4 = 3) (p : Outs4 F) : Outs4 F :=
  (VO4_3.read (Elt F) VO4_3.junk, VO4_4.read (Elt F) VO4_4.junk,
   VS4_0.read (Elt F) (VS4_0.writes (Elt F) VS4_0.junk (runB W c t h0 h1 p).1),
   VS4_1.read (Elt F) (VS4_1.writes (Elt F) VS4_1.junk (runB W c t h0 h1 p).2.1),
   VS4_2.read (Elt F) (VS4_2.writes (Elt F) VS4_2.junk (runB W c t h0 h1 p).2.2.1),
   VO4_5.read (Elt F) (VO4_5.writes (Elt F) VO4_5.junk (runB W c t h0 h1 p).2.2.2.1))
/-- The last tile also stores the two quotients. -/
def stepC (c : Dev nD) (t : Fin cfg4.N) (h0 : ¬t.val % 4 = 0) (h1 : t.val % 4 = 3) (p : Outs4 F) : Outs4 F :=
  (VO4_3.read (Elt F) (VO4_3.writes (Elt F) VO4_3.junk (runC W c t h0 h1 p).1),
   VO4_4.read (Elt F) (VO4_4.writes (Elt F) VO4_4.junk (runC W c t h0 h1 p).2.1),
   VS4_0.read (Elt F) (VS4_0.writes (Elt F) VS4_0.junk (runC W c t h0 h1 p).2.2.1),
   VS4_1.read (Elt F) (VS4_1.writes (Elt F) VS4_1.junk (runC W c t h0 h1 p).2.2.2.1),
   VS4_2.read (Elt F) (VS4_2.writes (Elt F) VS4_2.junk (runC W c t h0 h1 p).2.2.2.2.1),
   VO4_5.read (Elt F) (VO4_5.writes (Elt F) VO4_5.junk (runC W c t h0 h1 p).2.2.2.2.2.1))

/-! ## Every store is whole: each case's pieces cover their buffer -/

theorem coverA_7 (c : Dev nD) (t : Fin cfg4.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg4.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg4.N) (h0 : t.val % 4 = 0) (y : S256x1.Idx) : ∃ pc ∈ (runA W c t h0).2.2.1, y ∈ pc.1.set :=
  View.cover_of_tiledL (runA W c t h0).2.2.1 S256x1.size (by sl_kernel_rfl) y
theorem coverA_Q (c : Dev nD) (t : Fin cfg4.N) (h0 : t.val % 4 = 0) (y : S1x4096x256.Idx) : ∃ pc ∈ (runA W c t h0).2.2.2.1, y ∈ pc.1.set :=
  View.cover_of_tiledL (runA W c t h0).2.2.2.1 S1x4096x256.size (by sl_kernel_rfl) y
theorem coverB_7 (c : Dev nD) (t : Fin cfg4.N) (h0 : ¬t.val % 4 = 0) (h1 : ¬t.val % 4 = 3) (p : Outs4 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg4.N) (h0 : ¬t.val % 4 = 0) (h1 : ¬t.val % 4 = 3) (p : Outs4 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg4.N) (h0 : ¬t.val % 4 = 0) (h1 : ¬t.val % 4 = 3) (p : Outs4 F) (y : S256x1.Idx) : ∃ pc ∈ (runB W c t h0 h1 p).2.2.1, y ∈ pc.1.set :=
  View.cover_of_tiledL (runB W c t h0 h1 p).2.2.1 S256x1.size (by sl_kernel_rfl) y
theorem coverB_Q (c : Dev nD) (t : Fin cfg4.N) (h0 : ¬t.val % 4 = 0) (h1 : ¬t.val % 4 = 3) (p : Outs4 F) (y : S1x4096x256.Idx) : ∃ pc ∈ (runB W c t h0 h1 p).2.2.2.1, y ∈ pc.1.set :=
  View.cover_of_tiledL (runB W c t h0 h1 p).2.2.2.1 S1x4096x256.size (by sl_kernel_rfl) y
theorem coverC_5 (c : Dev nD) (t : Fin cfg4.N) (h0 : ¬t.val % 4 = 0) (h1 : t.val % 4 = 3) (p : Outs4 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg4.N) (h0 : ¬t.val % 4 = 0) (h1 : t.val % 4 = 3) (p : Outs4 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg4.N) (h0 : ¬t.val % 4 = 0) (h1 : t.val % 4 = 3) (p : Outs4 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg4.N) (h0 : ¬t.val % 4 = 0) (h1 : t.val % 4 = 3) (p : Outs4 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg4.N) (h0 : ¬t.val % 4 = 0) (h1 : t.val % 4 = 3) (p : Outs4 F) (y : S256x1.Idx) : ∃ pc ∈ (runC W c t h0 h1 p).2.2.2.2.1, y ∈ pc.1.set :=
  View.cover_of_tiledL (runC W c t h0 h1 p).2.2.2.2.1 S256x1.size (by sl_kernel_rfl) y
theorem coverC_Q (c : Dev nD) (t : Fin cfg4.N) (h0 : ¬t.val % 4 = 0) (h1 : t.val % 4 = 3) (p : Outs4 F) (y : S1x4096x256.Idx) : ∃ pc ∈ (runC W c t h0 h1 p).2.2.2.2.2.1, y ∈ pc.1.set :=
  View.cover_of_tiledL (runC W c t h0 h1 p).2.2.2.2.2.1 S1x4096x256.size (by sl_kernel_rfl) y

/-! ## The accumulation, point by point -/

/-- What the six written buffers hold after the body at position `n`: the case `n mod 4` selects, run at the
    point's memrefs and input blocks, a later tile over what position `n - 1` left in the accumulators. -/
def outsAt4 (c : Dev nD) : (n : ℕ) → n < cfg4.N → Outs4 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt4 c n (Nat.lt_of_succ_lt hn))
    else stepB W c ⟨n + 1, hn⟩ h0 h1 (outsAt4 c n (Nat.lt_of_succ_lt hn))

theorem outsAt4_A (c : Dev nD) (t : Fin cfg4.N) (h0 : t.val % 4 = 0) :
    outsAt4 W c t.val t.isLt = stepA W c t h0 := by
  obtain ⟨n, hn⟩ := t
  cases n with
  | zero => rfl
  | succ n => exact dif_pos h0

theorem outsAt4_B (c : Dev nD) (t : Fin cfg4.N) (h0 : ¬t.val % 4 = 0) (h1 : ¬t.val % 4 = 3) :
    outsAt4 W c t.val t.isLt = stepB W c t h0 h1 (outsAt4 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt4_C (c : Dev nD) (t : Fin cfg4.N) (h0 : ¬t.val % 4 = 0) (h1 : t.val % 4 = 3) :
    outsAt4 W c t.val t.isLt = stepC W c t h0 h1 (outsAt4 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg4.N → sProp 𝕄
  | 0, _ => iprop((∃ d, owns (c : Thread nD τ) scM4_0 fullShare d) ∗ (∃ d, owns (c : Thread nD τ) scM4_1 fullShare d) ∗ (∃ d, owns (c : Thread nD τ) scM4_2 fullShare d)
      ∗ Pipeline.scopedRestBut (Ix := Unit) (Name := ℕ) (U := UR sig nD τ) (Lvl := ℕ) (Val := Elt F) spec4 c [cc4_scratch0, cc4_scratch1, cc4_scratch2])
  | n + 1, hn => iprop(owns (c : Thread nD τ) scM4_0 fullShare (outsAt4 W c n hn).2.2.1 ∗ owns (c : Thread nD τ) scM4_1 fullShare (outsAt4 W c n hn).2.2.2.1
      ∗ owns (c : Thread nD τ) scM4_2 fullShare (outsAt4 W c n hn).2.2.2.2.1
      ∗ Pipeline.scopedRestBut (Ix := Unit) (Name := ℕ) (U := UR sig nD τ) (Lvl := ℕ) (Val := Elt F) spec4 c [cc4_scratch0, cc4_scratch1, cc4_scratch2])

theorem PhiS_zero (c : Dev nD) (n : ℕ) (h : n ≤ cfg4.N) (hz : n = 0) :
    PhiS W c n h = iprop((∃ d, owns (c : Thread nD τ) scM4_0 fullShare d) ∗ (∃ d, owns (c : Thread nD τ) scM4_1 fullShare d) ∗ (∃ d, owns (c : Thread nD τ) scM4_2 fullShare d)
      ∗ Pipeline.scopedRestBut (Ix := Unit) (Name := ℕ) (U := UR sig nD τ) (Lvl := ℕ) (Val := Elt F) spec4 c [cc4_scratch0, cc4_scratch1, cc4_scratch2]) := by
  subst hz; rfl

theorem PhiS_succ (c : Dev nD) (n : ℕ) (hn : n < cfg4.N) :
    PhiS W c (n + 1) hn = iprop(owns (c : Thread nD τ) scM4_0 fullShare (outsAt4 W c n hn).2.2.1 ∗ owns (c : Thread nD τ) scM4_1 fullShare (outsAt4 W c n hn).2.2.2.1
      ∗ owns (c : Thread nD τ) scM4_2 fullShare (outsAt4 W c n hn).2.2.2.2.1
      ∗ Pipeline.scopedRestBut (Ix := Unit) (Name := ℕ) (U := UR sig nD τ) (Lvl := ℕ) (Val := Elt F) spec4 c [cc4_scratch0, cc4_scratch1, cc4_scratch2]) := rfl

theorem PhiS_pos (c : Dev nD) (n : ℕ) (h : n ≤ cfg4.N) (hz : n ≠ 0) :
    PhiS W c n h = iprop(owns (c : Thread nD τ) scM4_0 fullShare (outsAt4 W c (n - 1) (by omega)).2.2.1 ∗ owns (c : Thread nD τ) scM4_1 fullShare (outsAt4 W c (n - 1) (by omega)).2.2.2.1
      ∗ owns (c : Thread nD τ) scM4_2 fullShare (outsAt4 W c (n - 1) (by omega)).2.2.2.2.1
      ∗ Pipeline.scopedRestBut (Ix := Unit) (Name := ℕ) (U := UR sig nD τ) (Lvl := ℕ) (Val := Elt F) spec4 c [cc4_scratch0, cc4_scratch1, cc4_scratch2]) := by
  cases n with
  | zero => exact absurd rfl hz
  | succ n => rfl

/-! ## The proof data -/

/-- The proof data of round five on core `c`: the arrays as the region finds them; after the body at point `t`
    each input's buffer at its block and the outputs' at the accumulation's components; the invariant above;
    nothing owed; full shares. -/
def dat4 (c : Dev nD) : Dat τ (Elt F) Unit ℕ (UR sig nD τ) ℕ cfg4 c where
  A w := WV W c (Pipeline.arrRef spec4 w)
  after w t := match w with
    | ⟨0, _⟩ => iblk4 W c 0 t
    | ⟨1, _⟩ => iblk4 W c 1 t
    | ⟨2, _⟩ => iblk4 W c 2 t
    | ⟨3, _⟩ => (outsAt4 W c t.val t.isLt).1
    | ⟨4, _⟩ => (outsAt4 W c t.val t.isLt).2.1
    | ⟨5, _⟩ => (outsAt4 W c t.val t.isLt).2.2.2.2.2
  Φ t := PhiS W c t.val (Nat.le_of_lt_succ t.isLt)
  q _ := fullShare
  owed _ := 0

theorem A_eq (c : Dev nD) (w : Fin cfg4.W) : (dat4 W c).A w = WV W c (Pipeline.arrRef spec4 w) := by
  dsimp only [dat4]

theorem PhiS_castSucc (c : Dev nD) (t : Fin cfg4.N) :
    (dat4 W c).Φ t.castSucc = PhiS W c t.val (Nat.le_of_lt t.isLt) := by
  dsimp only [dat4]; simp only [Fin.coe_castSucc]

theorem after4_0 (c : Dev nD) (t : Fin cfg4.N) : (dat4 W c).after 0 t = iblk4 W c 0 t := by dsimp only [dat4]
theorem after4_1 (c : Dev nD) (t : Fin cfg4.N) : (dat4 W c).after 1 t = iblk4 W c 1 t := by dsimp only [dat4]
theorem after4_2 (c : Dev nD) (t : Fin cfg4.N) : (dat4 W c).after 2 t = iblk4 W c 2 t := by dsimp only [dat4]
theorem after4_3 (c : Dev nD) (t : Fin cfg4.N) : (dat4 W c).after 3 t = (outsAt4 W c t.val t.isLt).1 := by dsimp only [dat4]
theorem after4_4 (c : Dev nD) (t : Fin cfg4.N) : (dat4 W c).after 4 t = (outsAt4 W c t.val t.isLt).2.1 := by dsimp only [dat4]
theorem after4_5 (c : Dev nD) (t : Fin cfg4.N) : (dat4 W c).after 5 t = (outsAt4 W c t.val t.isLt).2.2.2.2.2 := by dsimp only [dat4]

/-- Each input's current staging buffer holds its block at every point, fetched there or not. -/
theorem before4_0 (c : Dev nD) (t : Fin cfg4.N) (d) : (dat4 W c).before 0 t d = iblk4 W c 0 t :=
  ((dat4 W c).before_in_eq_fetched 0 rfl (fun _ => rfl) (fun _ _ _ => rfl) (fun t => by rw [after4_0]; unfold Dat.blockOf iblk4; rw [A_eq]; try rfl) t d).trans
    (by unfold Dat.fetched Dat.blockOf iblk4; rw [A_eq]; try rfl)
theorem before4_1 (c : Dev nD) (t : Fin cfg4.N) (d) : (dat4 W c).before 1 t d = iblk4 W c 1 t :=
  ((dat4 W c).before_in_eq_fetched 1 rfl (fun _ => rfl) (fun _ _ _ => rfl) (fun t => by rw [after4_1]; unfold Dat.blockOf iblk4; rw [A_eq]; try rfl) t d).trans
    (by unfold Dat.fetched Dat.blockOf iblk4; rw [A_eq]; try rfl)
theorem before4_2 (c : Dev nD) (t : Fin cfg4.N) (d) : (dat4 W c).before 2 t d = iblk4 W c 2 t :=
  ((dat4 W c).before_in_eq_fetched 2 rfl (fun _ => rfl) (fun _ _ _ => rfl) (fun t => by rw [after4_2]; unfold Dat.blockOf iblk4; rw [A_eq]; try rfl) t d).trans
    (by unfold Dat.fetched Dat.blockOf iblk4; rw [A_eq]; try rfl)

/-! ## The body obligation, at a generic point -/

/-- What the body is called with at point `t`: the invariant, the core's dues, each window's current buffer. -/
def bodyPre (c : Dev nD) (t : Fin cfg4.N) : sProp 𝕄 :=
  iprop((dat4 W c).Φ t.castSucc ∗ (dat4 W c).owesAt () t.castSucc
    ∗ (∃ d, owns (c : Thread nD τ) (ms4_0 t) fullShare ((dat4 W c).before 0 t d))
    ∗ (∃ d, owns (c : Thread nD τ) (ms4_1 t) fullShare ((dat4 W c).before 1 t d))
    ∗ (∃ d, owns (c : Thread nD τ) (ms4_2 t) fullShare ((dat4 W c).before 2 t d))
    ∗ (∃ d, owns (c : Thread nD τ) (ms4_3 t) fullShare ((dat4 W c).before 3 t d))
    ∗ (∃ d, owns (c : Thread nD τ) (ms4_4 t) fullShare ((dat4 W c).before 4 t d))
    ∗ (∃ d, owns (c : Thread nD τ) (ms4_5 t) fullShare ((dat4 W c).before 5 t d)))

/-- and what it returns. -/
def bodyPost (c : Dev nD) (t : Fin cfg4.N) : sProp 𝕄 :=
  iprop((dat4 W c).Φ t.succ ∗ (dat4 W c).owesAt () t.succ
    ∗ (dat4 W c).leavesExact 0 t ∗ (dat4 W c).leavesExact 1 t ∗ (dat4 W c).leavesExact 2 t
    ∗ (dat4 W c).leavesExact 3 t ∗ (dat4 W c).leavesExact 4 t ∗ (dat4 W c).leavesExact 5 t)

set_option maxHeartbeats 4800000 in
/-- The body at any point. The inputs' buffers hold their blocks; `t mod 4` says which case the point is in; the
    invariant hands the body the accumulators at what the point before left (at anything before the very first
    point) and takes them back at this point's contents, each store being whole; before the last tile the two
    center outputs go back as found, at the last tile at the quotients; the assignment output goes in at
    anything and comes back at this point's assignment, stored whole; the core owes nothing throughout. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before4_0, before4_1, before4_2]
  rw [show (dat4 W c).owesAt () t.succ = (dat4 W c).owesAt () t.castSucc from rfl]
  rw [show (dat4 W c).Φ t.succ = PhiS W c (t.val + 1) t.isLt from rfl, PhiS_succ]
  have hN : t.val < 16 := lt_of_lt_of_eq t.isLt (show cfg4.N = 16 from N_4)
  rw [show (dat4 W c).leavesExact 0 t = owns (c : Thread nD τ) (ms4_0 t) fullShare ((dat4 W c).after 0 t) from by
    unfold Dat.leavesExact; rw [liveAt4_0 t], after4_0]
  rw [show (dat4 W c).leavesExact 1 t = owns (c : Thread nD τ) (ms4_1 t) fullShare ((dat4 W c).after 1 t) from by
    unfold Dat.leavesExact; rw [liveAt4_1 t], after4_1]
  rw [show (dat4 W c).leavesExact 2 t = owns (c : Thread nD τ) (ms4_2 t) fullShare ((dat4 W c).after 2 t) from by
    unfold Dat.leavesExact; rw [liveAt4_2 t], after4_2]
  rw [show (dat4 W c).leavesExact 5 t = owns (c : Thread nD τ) (ms4_5 t) fullShare ((dat4 W c).after 5 t) from by
    unfold Dat.leavesExact; rw [liveAt4_5 t], after4_5]
  by_cases h0 : t.val % 4 = 0
  · have h1 : ¬t.val % 4 = 3 := by omega
    have hn1 : ¬cond4_1 (grid4.coords t) := fun h => h1 ((hcond4_1 t).mp h)
    rw [Dat.leavesExact_idle (dat4 W c) 3 t (idleAt4_3 t hn1) (noFlush4_3 t hn1),
      Dat.leavesExact_idle (dat4 W c) 4 t (idleAt4_4 t hn1) (noFlush4_4 t hn1)]
    rw [outsAt4_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runA W c t h0).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexact H7
      isplitl [H8]; · iexact H8
      isplitl [H9]; · iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverA_Q W c t h0)
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runA W c t h0).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexists _; iexact H7
      isplitl [H8]; · iexists _; iexact H8
      isplitl [H9]; · iexists _; iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverA_Q W c t h0)
  · have hz : t.val ≠ 0 := fun e => h0 (by rw [e])
    by_cases h1 : t.val % 4 = 3
    · have hy1 : cond4_1 (grid4.coords t) := (hcond4_1 t).mpr h1
      rw [show (dat4 W c).leavesExact 3 t = owns (c : Thread nD τ) (ms4_3 t) fullShare ((dat4 W c).after 3 t) from by
        unfold Dat.leavesExact; rw [liveAt4_3 t hy1], after4_3]
      rw [show (dat4 W c).leavesExact 4 t = owns (c : Thread nD τ) (ms4_4 t) fullShare ((dat4 W c).after 4 t) from by
        unfold Dat.leavesExact; rw [liveAt4_4 t hy1], after4_4]
      rw [outsAt4_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runC W c t h0 h1 (outsAt4 W c (t.val - 1) (Nat.lt_of_le_of_lt (Nat.sub_le _ _) t.isLt))).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H7]; · iexact H7
      isplitl [H8]; · iexact H8
      isplitl [H9]; · iexact H9
      iintro ⟨H0, H1, H2, ⟨%e3, H3⟩, ⟨%e4, H4⟩, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      isplitl [H4]
      · unfold owns; iexists _; isplitr
        swap; · iexact H4
        ipureintro; exact View.read_writes_of_cover _ _ _ _ _ (coverC_6 W c t h0 h1 _)
      unfold owns; iexists _; isplitr
      swap; · iexact H5
      ipureintro; exact View.read_writes_of_cover _ _ _ _ _ (coverC_Q W c t h0 h1 _)
    · have hn1 : ¬cond4_1 (grid4.coords t) := fun h => h1 ((hcond4_1 t).mp h)
      rw [Dat.leavesExact_idle (dat4 W c) 3 t (idleAt4_3 t hn1) (noFlush4_3 t hn1),
        Dat.leavesExact_idle (dat4 W c) 4 t (idleAt4_4 t hn1) (noFlush4_4 t hn1)]
      rw [outsAt4_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runB W c t h0 h1 (outsAt4 W c (t.val - 1) (Nat.lt_of_le_of_lt (Nat.sub_le _ _) t.isLt))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexact H7
      isplitl [H8]; · iexact H8
      isplitl [H9]; · iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverB_Q W c t h0 h1 _)

/-- The library's body obligation, at every point. -/
theorem body_obligation (c : Dev nD) : BodyObligation (dat4 (F := F) W c) (defs₀ (F := F)) Variants.none () Set.univ := fun t => by
  rw [bigSep_W4, bigSep_W4]
  exact sound_body W c t

end Cert.KernelIdeal.Slic.R4

end
-- ==== Proof.IRun.lean ====
/-
  The five rounds composed. @main is one stretch of host operations (the pixel block in channel-last layout, the
  seed centers gathered from the first image, the seed coordinates) followed by the five pallas_calls. The contents
  of every unscoped buffer at each boundary are a fold: after the host stretch, then after each round its arrays at
  what the pipeline leaves (the inputs as entered, each output's write-backs folded) and every other buffer as
  entered. Each round is a segment whose invariant takes the three accumulators out of the scoped buffers and
  gives them back; the run of the segments terminates, faults nowhere, and ends with every unscoped buffer at the
  last boundary's contents. Read at the argument this is the frame; read at the two results it names them.
-/
import proofs.«138879_j15556371546814_2_alg».proof.Proof.I0Dat
import proofs.«138879_j15556371546814_2_alg».proof.Proof.I1Dat
import proofs.«138879_j15556371546814_2_alg».proof.Proof.I2Dat
import proofs.«138879_j15556371546814_2_alg».proof.Proof.I3Dat
import proofs.«138879_j15556371546814_2_alg».proof.Proof.I4Dat
import proofs.«138879_j15556371546814_2_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Slic.Run

open Cert.KernelIdeal Cert.KernelIdeal.Gen Cert.KernelIdeal.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch, -/
abbrev W0 : Dev nD → Valuation τ sig (Elt F) := fun c b => m (c, b)
/-- and after the host operations that prepare the pixel block, the seed centers and the seed coordinates. -/
def Wh : Dev nD → Valuation τ sig (Elt F) := fun c => StableHlo.after hostOps0 (W0 m c)
abbrev VWh : (c : Dev nD) → (b : Ref sig .tc) → Buf (Elt F) ((c : Thread nD τ).loc b) := fun c b => Wh m c b

/-- At round one's exit: its arrays at what the pipeline leaves (the inputs as entered, each output's write-backs
    folded), every other buffer as entered. -/
def W1 (c : Dev nD) : Valuation τ sig (Elt F) :=
  Pipeline.withArrays spec0 c (Wh m c) fun w => (R0.dat0 (Wh m) c).arrAt w cfg0.N
theorem W1_arr (c : Dev nD) (w : Fin cfg0.W) :
    W1 m c (Proc.devRef .tc (Pipeline.arrRef spec0 w)) = (R0.dat0 (Wh m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = Wh m c (Proc.devRef .tc b) := by
  unfold W1; exact Pipeline.withArrays_of_ne spec0 c _ _ b hb
abbrev VW1 : (c : Dev nD) → (b : Ref sig .tc) → Buf (Elt F) ((c : Thread nD τ).loc b) := fun c b => W1 m c b
theorem hF0 (c : Dev nD) (w : Fin cfg0.W) : (R0.dat0 (Wh m) c).arrAt w cfg0.N = VW1 m c (Pipeline.arrRef spec0 w) :=
  (W1_arr m c w).symm
theorem hrest0 (c : Dev nD) : ∀ b, b ∉ Finset.univ.image (Pipeline.arrRef spec0) → VW1 m c b = VWh m c b :=
  fun b hb => W1_of_ne m c b fun w e => hb (Finset.mem_image.mpr ⟨w, Finset.mem_univ _, e⟩)

/-- At round two's exit: its arrays at what the pipeline leaves (the inputs as entered, each output's write-backs
    folded), every other buffer as entered. -/
def W2 (c : Dev nD) : Valuation τ sig (Elt F) :=
  Pipeline.withArrays spec1 c (W1 m c) fun w => (R1.dat1 (W1 m) c).arrAt w cfg1.N
theorem W2_arr (c : Dev nD) (w : Fin cfg1.W) :
    W2 m c (Proc.devRef .tc (Pipeline.arrRef spec1 w)) = (R1.dat1 (W1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VW2 : (c : Dev nD) → (b : Ref sig .tc) → Buf (Elt F) ((c : Thread nD τ).loc b) := fun c b => W2 m c b
theorem hF1 (c : Dev nD) (w : Fin cfg1.W) : (R1.dat1 (W1 m) c).arrAt w cfg1.N = VW2 m c (Pipeline.arrRef spec1 w) :=
  (W2_arr m c w).symm
theorem hrest1 (c : Dev nD) : ∀ b, b ∉ Finset.univ.image (Pipeline.arrRef spec1) → VW2 m c b = VW1 m c b :=
  fun b hb => W2_of_ne m c b fun w e => hb (Finset.mem_image.mpr ⟨w, Finset.mem_univ _, e⟩)

/-- At round three's exit: its arrays at what the pipeline leaves (the inputs as entered, each output's write-backs
    folded), every other buffer as entered. -/
def W3 (c : Dev nD) : Valuation τ sig (Elt F) :=
  Pipeline.withArrays spec2 c (W2 m c) fun w => (R2.dat2 (W2 m) c).arrAt w cfg2.N
theorem W3_arr (c : Dev nD) (w : Fin cfg2.W) :
    W3 m c (Proc.devRef .tc (Pipeline.arrRef spec2 w)) = (R2.dat2 (W2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev VW3 : (c : Dev nD) → (b : Ref sig .tc) → Buf (Elt F) ((c : Thread nD τ).loc b) := fun c b => W3 m c b
theorem hF2 (c : Dev nD) (w : Fin cfg2.W) : (R2.dat2 (W2 m) c).arrAt w cfg2.N = VW3 m c (Pipeline.arrRef spec2 w) :=
  (W3_arr m c w).symm
theorem hrest2 (c : Dev nD) : ∀ b, b ∉ Finset.univ.image (Pipeline.arrRef spec2) → VW3 m c b = VW2 m c b :=
  fun b hb => W3_of_ne m c b fun w e => hb (Finset.mem_image.mpr ⟨w, Finset.mem_univ _, e⟩)

/-- At round four's exit: its arrays at what the pipeline leaves (the inputs as entered, each output's write-backs
    folded), every other buffer as entered. -/
def W4 (c : Dev nD) : Valuation τ sig (Elt F) :=
  Pipeline.withArrays spec3 c (W3 m c) fun w => (R3.dat3 (W3 m) c).arrAt w cfg3.N
theorem W4_arr (c : Dev nD) (w : Fin cfg3.W) :
    W4 m c (Proc.devRef .tc (Pipeline.arrRef spec3 w)) = (R3.dat3 (W3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev VW4 : (c : Dev nD) → (b : Ref sig .tc) → Buf (Elt F) ((c : Thread nD τ).loc b) := fun c b => W4 m c b
theorem hF3 (c : Dev nD) (w : Fin cfg3.W) : (R3.dat3 (W3 m) c).arrAt w cfg3.N = VW4 m c (Pipeline.arrRef spec3 w) :=
  (W4_arr m c w).symm
theorem hrest3 (c : Dev nD) : ∀ b, b ∉ Finset.univ.image (Pipeline.arrRef spec3) → VW4 m c b = VW3 m c b :=
  fun b hb => W4_of_ne m c b fun w e => hb (Finset.mem_image.mpr ⟨w, Finset.mem_univ _, e⟩)

/-- At round five's exit: its arrays at what the pipeline leaves (the inputs as entered, each output's write-backs
    folded), every other buffer as entered. -/
def W5 (c : Dev nD) : Valuation τ sig (Elt F) :=
  Pipeline.withArrays spec4 c (W4 m c) fun w => (R4.dat4 (W4 m) c).arrAt w cfg4.N
theorem W5_arr (c : Dev nD) (w : Fin cfg4.W) :
    W5 m c (Proc.devRef .tc (Pipeline.arrRef spec4 w)) = (R4.dat4 (W4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev VW5 : (c : Dev nD) → (b : Ref sig .tc) → Buf (Elt F) ((c : Thread nD τ).loc b) := fun c b => W5 m c b
theorem hF4 (c : Dev nD) (w : Fin cfg4.W) : (R4.dat4 (W4 m) c).arrAt w cfg4.N = VW5 m c (Pipeline.arrRef spec4 w) :=
  (W5_arr m c w).symm
theorem hrest4 (c : Dev nD) : ∀ b, b ∉ Finset.univ.image (Pipeline.arrRef spec4) → VW5 m c b = VW4 m c b :=
  fun b hb => W5_of_ne m c b fun w e => hb (Finset.mem_image.mpr ⟨w, Finset.mem_univ _, e⟩)

/-! ## The argument array ends as launched: no host operation writes it and no round stages it -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = Wh m c (Proc.devRef .tc main_arg0) := W1_of_ne m c main_arg0 (by decide)
    _ = m ((c : Thread nD τ).loc main_arg0) := by unfold Wh; exact Gen.V1_of m c main_arg0 (by decide)

/-! ## The proof data family and the thread state -/

/-- Every round's proof data, each at its region's entry contents: a literal match on the round. -/
def pdats : (p : Fin 5) → (c : Dev nD) → Dat τ (Elt F) Unit ℕ (UR sig nD τ) ℕ (Pipeline.pin (pcfgs (F := F)) adm p) c
  | ⟨0, _⟩ => fun c => R0.dat0 (Wh m) c
  | ⟨1, _⟩ => fun c => R1.dat1 (W1 m) c
  | ⟨2, _⟩ => fun c => R2.dat2 (W2 m) c
  | ⟨3, _⟩ => fun c => R3.dat3 (W3 m) c
  | ⟨4, _⟩ => fun c => R4.dat4 (W4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- The host stretch as a segment over the unscoped references, from the launch contents. -/
def hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents. -/
abbrev Tₙ (c : Dev nD) : sProp 𝕄 := iprop(StableHlo.held (c : Thread nD τ) (Pipeline.ucRefs τ sig) (W5 m c) ∗ ∃ r, prngReg c r)

/-! ## The rounds as segments -/

/-! ### Round one: the accumulators between the scoped buffers and the invariant -/

/-- The kernel of round one has no semaphore of its own. -/
abbrev osem0 : Fin 0 → SemLoc sig := fun j => j.elim0
theorem ownSemFacts0 : Pipeline.OwnSemFacts spec0 osem0 := by decide

/-- Every scoped buffer no window stages, the three accumulators among them at anything: the invariant before the first point. -/
theorem phi_in0 (W : Dev nD → Valuation τ sig (Elt F)) (c : Dev nD) :
    (Pipeline.scopedRest (Ix := Unit) (Name := ℕ) (U := UR sig nD τ) (Lvl := ℕ) (Val := Elt F) spec0 c : sProp 𝕄) ⊢ (R0.dat0 W c).Φ 0 := by
  rw [show (R0.dat0 W c).Φ 0 = R0.PhiS W c 0 (Nat.zero_le _) from rfl, R0.PhiS_zero W c 0 _ rfl, scopedRest0_split]
  simp only [scM0_0, scM0_1, scM0_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out0 (W : Dev nD → Valuation τ sig (Elt F)) (c : Dev nD) (t : Fin (cfg0.N + 1)) (ht : t.val ≠ 0) :
    (R0.dat0 W c).Φ t ⊢ (Pipeline.scopedRest (Ix := Unit) (Name := ℕ) (U := UR sig nD τ) (Lvl := ℕ) (Val := Elt F) spec0 c : sProp 𝕄) := by
  rw [show (R0.dat0 W c).Φ t = R0.PhiS W c t.val (Nat.le_of_lt_succ t.isLt) from rfl, R0.PhiS_pos W c _ _ ht, scopedRest0_split]
  simp only [scM0_0, scM0_1, scM0_2, owns_whole]
  iintro ⟨H7, H8, H9, Hr⟩
  isplitl [H7 H8 H9]
  · isplitl [H7]; · iexists _; iexact H7
    isplitl [H8]; · iexists _; iexact H8
    iexists _; iexact H9
  iexact Hr

/-! ### Round two: the accumulators between the scoped buffers and the invariant -/

/-- The kernel of round two has no semaphore of its own. -/
abbrev osem1 : Fin 0 → SemLoc sig := fun j => j.elim0
theorem ownSemFacts1 : Pipeline.OwnSemFacts spec1 osem1 := by decide

/-- Every scoped buffer no window stages, the three accumulators among them at anything: the invariant before the first point. -/
theorem phi_in1 (W : Dev nD → Valuation τ sig (Elt F)) (c : Dev nD) :
    (Pipeline.scopedRest (Ix := Unit) (Name := ℕ) (U := UR sig nD τ) (Lvl := ℕ) (Val := Elt F) spec1 c : sProp 𝕄) ⊢ (R1.dat1 W c).Φ 0 := by
  rw [show (R1.dat1 W c).Φ 0 = R1.PhiS W c 0 (Nat.zero_le _) from rfl, R1.PhiS_zero W c 0 _ rfl, scopedRest1_split]
  simp only [scM1_0, scM1_1, scM1_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out1 (W : Dev nD → Valuation τ sig (Elt F)) (c : Dev nD) (t : Fin (cfg1.N + 1)) (ht : t.val ≠ 0) :
    (R1.dat1 W c).Φ t ⊢ (Pipeline.scopedRest (Ix := Unit) (Name := ℕ) (U := UR sig nD τ) (Lvl := ℕ) (Val := Elt F) spec1 c : sProp 𝕄) := by
  rw [show (R1.dat1 W c).Φ t = R1.PhiS W c t.val (Nat.le_of_lt_succ t.isLt) from rfl, R1.PhiS_pos W c _ _ ht, scopedRest1_split]
  simp only [scM1_0, scM1_1, scM1_2, owns_whole]
  iintro ⟨H7, H8, H9, Hr⟩
  isplitl [H7 H8 H9]
  · isplitl [H7]; · iexists _; iexact H7
    isplitl [H8]; · iexists _; iexact H8
    iexists _; iexact H9
  iexact Hr

/-! ### Round three: the accumulators between the scoped buffers and the invariant -/

/-- The kernel of round three has no semaphore of its own. -/
abbrev osem2 : Fin 0 → SemLoc sig := fun j => j.elim0
theorem ownSemFacts2 : Pipeline.OwnSemFacts spec2 osem2 := by decide

/-- Every scoped buffer no window stages, the three accumulators among them at anything: the invariant before the first point. -/
theorem phi_in2 (W : Dev nD → Valuation τ sig (Elt F)) (c : Dev nD) :
    (Pipeline.scopedRest (Ix := Unit) (Name := ℕ) (U := UR sig nD τ) (Lvl := ℕ) (Val := Elt F) spec2 c : sProp 𝕄) ⊢ (R2.dat2 W c).Φ 0 := by
  rw [show (R2.dat2 W c).Φ 0 = R2.PhiS W c 0 (Nat.zero_le _) from rfl, R2.PhiS_zero W c 0 _ rfl, scopedRest2_split]
  simp only [scM2_0, scM2_1, scM2_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out2 (W : Dev nD → Valuation τ sig (Elt F)) (c : Dev nD) (t : Fin (cfg2.N + 1)) (ht : t.val ≠ 0) :
    (R2.dat2 W c).Φ t ⊢ (Pipeline.scopedRest (Ix := Unit) (Name := ℕ) (U := UR sig nD τ) (Lvl := ℕ) (Val := Elt F) spec2 c : sProp 𝕄) := by
  rw [show (R2.dat2 W c).Φ t = R2.PhiS W c t.val (Nat.le_of_lt_succ t.isLt) from rfl, R2.PhiS_pos W c _ _ ht, scopedRest2_split]
  simp only [scM2_0, scM2_1, scM2_2, owns_whole]
  iintro ⟨H7, H8, H9, Hr⟩
  isplitl [H7 H8 H9]
  · isplitl [H7]; · iexists _; iexact H7
    isplitl [H8]; · iexists _; iexact H8
    iexists _; iexact H9
  iexact Hr

/-! ### Round four: the accumulators between the scoped buffers and the invariant -/

/-- The kernel of round four has no semaphore of its own. -/
abbrev osem3 : Fin 0 → SemLoc sig := fun j => j.elim0
theorem ownSemFacts3 : Pipeline.OwnSemFacts spec3 osem3 := by decide

/-- Every scoped buffer no window stages, the three accumulators among them at anything: the invariant before the first point. -/
theorem phi_in3 (W : Dev nD → Valuation τ sig (Elt F)) (c : Dev nD) :
    (Pipeline.scopedRest (Ix := Unit) (Name := ℕ) (U := UR sig nD τ) (Lvl := ℕ) (Val := Elt F) spec3 c : sProp 𝕄) ⊢ (R3.dat3 W c).Φ 0 := by
  rw [show (R3.dat3 W c).Φ 0 = R3.PhiS W c 0 (Nat.zero_le _) from rfl, R3.PhiS_zero W c 0 _ rfl, scopedRest3_split]
  simp only [scM3_0, scM3_1, scM3_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out3 (W : Dev nD → Valuation τ sig (Elt F)) (c : Dev nD) (t : Fin (cfg3.N + 1)) (ht : t.val ≠ 0) :
    (R3.dat3 W c).Φ t ⊢ (Pipeline.scopedRest (Ix := Unit) (Name := ℕ) (U := UR sig nD τ) (Lvl := ℕ) (Val := Elt F) spec3 c : sProp 𝕄) := by
  rw [show (R3.dat3 W c).Φ t = R3.PhiS W c t.val (Nat.le_of_lt_succ t.isLt) from rfl, R3.PhiS_pos W c _ _ ht, scopedRest3_split]
  simp only [scM3_0, scM3_1, scM3_2, owns_whole]
  iintro ⟨H7, H8, H9, Hr⟩
  isplitl [H7 H8 H9]
  · isplitl [H7]; · iexists _; iexact H7
    isplitl [H8]; · iexists _; iexact H8
    iexists _; iexact H9
  iexact Hr

/-! ### Round five: the accumulators between the scoped buffers and the invariant -/

/-- The kernel of round five has no semaphore of its own. -/
abbrev osem4 : Fin 0 → SemLoc sig := fun j => j.elim0
theorem ownSemFacts4 : Pipeline.OwnSemFacts spec4 osem4 := by decide

/-- Every scoped buffer no window stages, the three accumulators among them at anything: the invariant before the first point. -/
theorem phi_in4 (W : Dev nD → Valuation τ sig (Elt F)) (c : Dev nD) :
    (Pipeline.scopedRest (Ix := Unit) (Name := ℕ) (U := UR sig nD τ) (Lvl := ℕ) (Val := Elt F) spec4 c : sProp 𝕄) ⊢ (R4.dat4 W c).Φ 0 := by
  rw [show (R4.dat4 W c).Φ 0 = R4.PhiS W c 0 (Nat.zero_le _) from rfl, R4.PhiS_zero W c 0 _ rfl, scopedRest4_split]
  simp only [scM4_0, scM4_1, scM4_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out4 (W : Dev nD → Valuation τ sig (Elt F)) (c : Dev nD) (t : Fin (cfg4.N + 1)) (ht : t.val ≠ 0) :
    (R4.dat4 W c).Φ t ⊢ (Pipeline.scopedRest (Ix := Unit) (Name := ℕ) (U := UR sig nD τ) (Lvl := ℕ) (Val := Elt F) spec4 c : sProp 𝕄) := by
  rw [show (R4.dat4 W c).Φ t = R4.PhiS W c t.val (Nat.le_of_lt_succ t.isLt) from rfl, R4.PhiS_pos W c _ _ ht, scopedRest4_split]
  simp only [scM4_0, scM4_1, scM4_2, owns_whole]
  iintro ⟨H7, H8, H9, Hr⟩
  isplitl [H7 H8 H9]
  · isplitl [H7]; · iexists _; iexact H7
    isplitl [H8]; · iexists _; iexact H8
    iexists _; iexact H9
  iexact Hr

set_option backward.isDefEq.respectTransparency.types false in
set_option maxHeartbeats 2000000 in
/-- Round one as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg0 : Pipeline.RegionSeg (pcfgs (F := F)) adm (pdats m) () defs₀ 𝒱₀ L lv 0 where
  win := launch0.win.to₀
  block_pos := launch0.block_pos
  stage_whole := launch0.stage_whole
  K := Fin 0
  osem := osem0
  ho := ownSemFacts0
  hbody c := (R0.body_obligation (Wh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (W1 m c) ∗ R c)
  X c := iprop(emp)
  Y c := iprop(emp)
  Z c := iprop((∃ r, prngReg c r) ∗ Pipeline.unscopedRest (Ix := Unit) (Name := ℕ) (U := UR sig nD τ) (Lvl := ℕ) spec0 c (VWh m c))
  hentry c := by
    have hsplit := Pipeline.arrays_of_unscopedBufs (p := 0) (pcfgs (F := F)) adm (pdats m) launch0.win launch0.arr_whole c
      ((pdats m 0 c).share_full fun _ => rfl) (VWh m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec0 c) ⊢ (R0.dat0 (Wh m) c).Φ 0
    iintro ⟨-, -, Hr⟩
    iapply (phi_in0 (Wh m) c)
    iexact Hr
  hout c := by
    show (R0.dat0 (Wh m) c).Φ (Fin.last cfg0.N) ⊢ iprop(_ ∗ _ ∗ Pipeline.scopedRest (Ix := Unit) (Name := ℕ) (U := UR sig nD τ) (Lvl := ℕ) (Val := Elt F) spec0 c)
    iintro H
    ihave Hr := (phi_out0 (Wh m) c (Fin.last cfg0.N) (by rw [Fin.val_last]; have : cfg0.N = 16 := N_0; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VWh m c) (VW1 m c) ((pdats m 0 c).arrAt · cfg0.N) (hF0 m c) (hrest0 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round two as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg1 : Pipeline.RegionSeg (pcfgs (F := F)) adm (pdats m) () defs₀ 𝒱₀ L lv 1 where
  win := launch1.win.to₀
  block_pos := launch1.block_pos
  stage_whole := launch1.stage_whole
  K := Fin 0
  osem := osem1
  ho := ownSemFacts1
  hbody c := (R1.body_obligation (W1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop((∃ r, prngReg c r) ∗ Pipeline.unscopedRest (Ix := Unit) (Name := ℕ) (U := UR sig nD τ) (Lvl := ℕ) spec1 c (VW1 m c))
  hentry c := by
    have hsplit := Pipeline.arrays_of_unscopedBufs (p := 1) (pcfgs (F := F)) adm (pdats m) launch1.win launch1.arr_whole c
      ((pdats m 1 c).share_full fun _ => rfl) (VW1 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec1 c) ⊢ (R1.dat1 (W1 m) c).Φ 0
    iintro ⟨-, -, Hr⟩
    iapply (phi_in1 (W1 m) c)
    iexact Hr
  hout c := by
    show (R1.dat1 (W1 m) c).Φ (Fin.last cfg1.N) ⊢ iprop(_ ∗ _ ∗ Pipeline.scopedRest (Ix := Unit) (Name := ℕ) (U := UR sig nD τ) (Lvl := ℕ) (Val := Elt F) spec1 c)
    iintro H
    ihave Hr := (phi_out1 (W1 m) c (Fin.last cfg1.N) (by rw [Fin.val_last]; have : cfg1.N = 16 := N_1; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VW1 m c) (VW2 m c) ((pdats m 1 c).arrAt · cfg1.N) (hF1 m c) (hrest1 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round three as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg2 : Pipeline.RegionSeg (pcfgs (F := F)) adm (pdats m) () defs₀ 𝒱₀ L lv 2 where
  win := launch2.win.to₀
  block_pos := launch2.block_pos
  stage_whole := launch2.stage_whole
  K := Fin 0
  osem := osem2
  ho := ownSemFacts2
  hbody c := (R2.body_obligation (W2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(emp)
  Y c := iprop(emp)
  Z c := iprop((∃ r, prngReg c r) ∗ Pipeline.unscopedRest (Ix := Unit) (Name := ℕ) (U := UR sig nD τ) (Lvl := ℕ) spec2 c (VW2 m c))
  hentry c := by
    have hsplit := Pipeline.arrays_of_unscopedBufs (p := 2) (pcfgs (F := F)) adm (pdats m) launch2.win launch2.arr_whole c
      ((pdats m 2 c).share_full fun _ => rfl) (VW2 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec2 c) ⊢ (R2.dat2 (W2 m) c).Φ 0
    iintro ⟨-, -, Hr⟩
    iapply (phi_in2 (W2 m) c)
    iexact Hr
  hout c := by
    show (R2.dat2 (W2 m) c).Φ (Fin.last cfg2.N) ⊢ iprop(_ ∗ _ ∗ Pipeline.scopedRest (Ix := Unit) (Name := ℕ) (U := UR sig nD τ) (Lvl := ℕ) (Val := Elt F) spec2 c)
    iintro H
    ihave Hr := (phi_out2 (W2 m) c (Fin.last cfg2.N) (by rw [Fin.val_last]; have : cfg2.N = 16 := N_2; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VW2 m c) (VW3 m c) ((pdats m 2 c).arrAt · cfg2.N) (hF2 m c) (hrest2 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round four as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg3 : Pipeline.RegionSeg (pcfgs (F := F)) adm (pdats m) () defs₀ 𝒱₀ L lv 3 where
  win := launch3.win.to₀
  block_pos := launch3.block_pos
  stage_whole := launch3.stage_whole
  K := Fin 0
  osem := osem3
  ho := ownSemFacts3
  hbody c := (R3.body_obligation (W3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop((∃ r, prngReg c r) ∗ Pipeline.unscopedRest (Ix := Unit) (Name := ℕ) (U := UR sig nD τ) (Lvl := ℕ) spec3 c (VW3 m c))
  hentry c := by
    have hsplit := Pipeline.arrays_of_unscopedBufs (p := 3) (pcfgs (F := F)) adm (pdats m) launch3.win launch3.arr_whole c
      ((pdats m 3 c).share_full fun _ => rfl) (VW3 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec3 c) ⊢ (R3.dat3 (W3 m) c).Φ 0
    iintro ⟨-, -, Hr⟩
    iapply (phi_in3 (W3 m) c)
    iexact Hr
  hout c := by
    show (R3.dat3 (W3 m) c).Φ (Fin.last cfg3.N) ⊢ iprop(_ ∗ _ ∗ Pipeline.scopedRest (Ix := Unit) (Name := ℕ) (U := UR sig nD τ) (Lvl := ℕ) (Val := Elt F) spec3 c)
    iintro H
    ihave Hr := (phi_out3 (W3 m) c (Fin.last cfg3.N) (by rw [Fin.val_last]; have : cfg3.N = 16 := N_3; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VW3 m c) (VW4 m c) ((pdats m 3 c).arrAt · cfg3.N) (hF3 m c) (hrest3 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round five as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg4 : Pipeline.RegionSeg (pcfgs (F := F)) adm (pdats m) () defs₀ 𝒱₀ L lv 4 where
  win := launch4.win.to₀
  block_pos := launch4.block_pos
  stage_whole := launch4.stage_whole
  K := Fin 0
  osem := osem4
  ho := ownSemFacts4
  hbody c := (R4.body_obligation (W4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(emp)
  Y c := iprop(emp)
  Z c := iprop((∃ r, prngReg c r) ∗ Pipeline.unscopedRest (Ix := Unit) (Name := ℕ) (U := UR sig nD τ) (Lvl := ℕ) spec4 c (VW4 m c))
  hentry c := by
    have hsplit := Pipeline.arrays_of_unscopedBufs (p := 4) (pcfgs (F := F)) adm (pdats m) launch4.win launch4.arr_whole c
      ((pdats m 4 c).share_full fun _ => rfl) (VW4 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec4 c) ⊢ (R4.dat4 (W4 m) c).Φ 0
    iintro ⟨-, -, Hr⟩
    iapply (phi_in4 (W4 m) c)
    iexact Hr
  hout c := by
    show (R4.dat4 (W4 m) c).Φ (Fin.last cfg4.N) ⊢ iprop(_ ∗ _ ∗ Pipeline.scopedRest (Ix := Unit) (Name := ℕ) (U := UR sig nD τ) (Lvl := ℕ) (Val := Elt F) spec4 c)
    iintro H
    ihave Hr := (phi_out4 (W4 m) c (Fin.last cfg4.N) (by rw [Fin.val_last]; have : cfg4.N = 16 := N_4; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VW4 m c) (VW5 m c) ((pdats m 4 c).arrAt · cfg4.N) (hF4 m c) (hrest4 m c)
    rw [Pipeline.unscopedBufs_held] at hjoin
    iintro ⟨Ha, HO, -, ⟨Hp, Hrest⟩⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's six segments in order: the host stretch, then the five rounds. -/
abbrev segs : List (Pipeline.Seg (pcfgs (F := F)) adm (pdats m) () defs₀ 𝒱₀ L lv) :=
  [ .host (hseg0 m),
    .region (reg0 m),
    .region (reg1 m),
    .region (reg2 m),
    .region (reg3 m),
    .region (reg4 m) ]
/-- @main is the run of the segments. -/
theorem main_run (c : Dev nD) : main (F := F) c = Pipeline.Seg.run (segs m) := (main_chain c).trans (by chain_rfl)

set_option backward.isDefEq.respectTransparency.types false in
set_option maxHeartbeats 2000000 in
/-- At the compiled mesh, for any float values, from any memory with zero counters: every weakly fair execution of
    @main on the TensorCores terminates, nothing faulting, and every final state holds every unscoped buffer at the
    last boundary's contents: each round's arrays at what its pipeline leaves, everything else as the host stretch
    left it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m c)) (run_all m ρ)

/-- The same run read at the two result arrays and the argument: the assignments Q of round five and the spectral
    centers round five leaves, each at the last boundary's contents, and the argument as launched. -/
theorem run_results : θ_run defs (onTc (τ := τ) (main (F := F))) ⟨m, fun _ => 0, ρ⟩ (fun r => ∀ c : Dev nD,
      r.2.mem ((c.tc : Thread nD τ).loc main_v43_2) = W5 m c (Proc.devRef .tc main_v43_2)
      ∧ r.2.mem ((c.tc : Thread nD τ).loc main_v43_0) = W5 m c (Proc.devRef .tc main_v43_0)
      ∧ r.2.mem ((c.tc : Thread nD τ).loc main_arg0) = m ((c.tc : Thread nD τ).loc main_arg0)) :=
  (θ_run defs _ _).mono (fun _ h c => ⟨h c _ (mem_uc main_v43_2 (by decide)), h c _ (mem_uc main_v43_0 (by decide)),
    (h c _ (mem_uc main_arg0 (by decide))).trans (W5_main_arg0 m c)⟩) (run_all m ρ)

end Cert.KernelIdeal.Slic.Run

end
-- ==== Proof.K0Kit.lean ====
/-
  Round one of the kernel as printed (the first pallas_call): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.Kernel.Launch
import proofs.«138879_j15556371546814_2_alg».proof.Proof.Gen.Kernel.Points
import proofs.«138879_j15556371546814_2_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.Kernel.Slic

open Cert.Kernel Cert.Kernel.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond0_0 (i : grid0.Coords) : Prop :=
  (Scalar.cmpi .ne (Scalar.extui (Scalar.cmpi .eq (BitVec.ofNat 32 (i 1).val) 0#32)) 0#32) = 1#1

/-- The reset branch is taken exactly at the first tile of a batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The finalize branch is taken: the tile coordinate is three. -/
abbrev cond0_1 (i : grid0.Coords) : Prop := k0_cond2 i = 1#1

/-- The finalize branch is taken exactly at the last tile of a batch. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Before the last tile the spectral-center output is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile it is live. -/
theorem liveAt0_3 : ∀ t : Fin cfg0.N, cond0_1 (grid0.coords t) → cfg0.idle 3 (grid0.coords t) = false := by decide +kernel

/-- The same of the spatial-center output. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- Each window's current staging memref at point `t`, and that it is a whole buffer. -/
abbrev ms0_0 (t : Fin cfg0.N) : Memref sig .tc .vmem S1x4096x200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x200 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2 .f32 := win0_4.stage (cfg0.slots t 4)
abbrev hs0_4 (t : Fin cfg0.N) : (ms0_4 t).IsWhole := hstage0_4 ((cfg0.slots t 4).cast nbuf0_4)

/-- The three accumulators: whole scoped buffers of the kernel's own (K x C, K x 2, K x 1). -/
abbrev scM0_0 : Memref sig .tc .vmem S256x200 .f32 := Memref.whole cc0_scratch0
abbrev scM0_1 : Memref sig .tc .vmem S256x2 .f32 := Memref.whole cc0_scratch1
abbrev scM0_2 : Memref sig .tc .vmem S256x1 .f32 := Memref.whole cc0_scratch2

end Cert.Kernel.Slic

end
-- ==== Proof.K0RunA.lean ====
/-
  Round one of the kernel as printed, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.K0Kit

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun0_A (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond0_0 i) (hc1 : ¬cond0_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM0_0 fullShare d) ∗ (∃ d, owns (c : Thread nD τ) scM0_1 fullShare d) ∗ (∃ d, owns (c : Thread nD τ) scM0_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, fun y3 y4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K0RunB.lean ====
/-
  Round one of the kernel as printed, the body at a MIDDLE tile of a batch (neither the first nor the
  last): neither branch is taken. This tile's partial sums are added to the three accumulators, which
  arrive holding what the tile before left; the two center outputs are not touched.
-/
import proofs.«138879_j15556371546814_2_alg».proof.Proof.K0RunA

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun0_B (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond0_0 i) (hc1 : ¬cond0_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM0_0 fullShare xs7 ∗ owns (c : Thread nD τ) scM0_1 fullShare xs8 ∗ owns (c : Thread nD τ) scM0_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, fun y3 y4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM0_0.IsWhole).eq_unread hf7
    obtain rfl := (Memref.isWhole_whole _ : scM0_1.IsWhole).eq_unread hf8
    obtain rfl := (Memref.isWhole_whole _ : scM0_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K0RunC.lean ====
/-
  Round one of the kernel as printed, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.K0RunB

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun0_C (c : Dev nD) (i : grid0.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond0_0 i) (hc1 : cond0_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM0_0 fullShare xs7 ∗ owns (c : Thread nD τ) scM0_1 fullShare xs8 ∗ owns (c : Thread nD τ) scM0_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM0_0.view.loc (c : Thread nD τ) ↦[scM0_0.view.set]{fullShare} scM0_0.view.writes (Elt F) f L7)
                ∗ (∃ f, scM0_1.view.loc (c : Thread nD τ) ↦[scM0_1.view.set]{fullShare} scM0_1.view.writes (Elt F) f L8)
                ∗ (∃ f, scM0_2.view.loc (c : Thread nD τ) ↦[scM0_2.view.set]{fullShare} scM0_2.view.writes (Elt F) f L9)) -∗ K ⟨⟩))
          ⊢ wp frame (wpE (defs₀ (F := F)) Variants.none c none) E (cc0_kernel i arg2 harg2 arg3 harg3 arg4 harg4 arg5 harg5 arg6 harg6 scM0_0 (Memref.isWhole_whole _) scM0_1 (Memref.isWhole_whole _) scM0_2 (Memref.isWhole_whole _)) K } := by
  refine ⟨?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM0_0.IsWhole).eq_unread hf7
    obtain rfl := (Memref.isWhole_whole _ : scM0_1.IsWhole).eq_unread hf8
    obtain rfl := (Memref.isWhole_whole _ : scM0_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.Kernel.Slic

end
-- ==== Proof.K0Dat.lean ====
/-
  Round one of the kernel as printed: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.K0RunC
import Idealize.ShloMosaic.Lib.Ring

set_option maxRecDepth 16384

noncomputable section

namespace Cert.Kernel.Slic.R0

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS0_0 : View sig .tc .vmem S256x200 .f32 := scM0_0.view
abbrev VS0_1 : View sig .tc .vmem S256x2 .f32 := scM0_1.view
abbrev VS0_2 : View sig .tc .vmem S256x1 .f32 := scM0_2.view
/-- One staging buffer of each center output, through which its contents are stated (the choice does not matter). -/
abbrev VO0_3 : View sig .tc .vmem S1x256x200 .f32 := (Memref.whole cc0_stg3_0 : Memref sig .tc .vmem S1x256x200 .f32).view
abbrev VO0_4 : View sig .tc .vmem S1x256x2 .f32 := (Memref.whole cc0_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (WV W c (Pipeline.arrRef spec0 w))

/-! ## What each case leaves -/

/-- After a point: the two center outputs' staging buffers, then the three accumulators. -/
abbrev Outs0 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) ((hcond0_0 t).mpr h0) (fun h => by have := (hcond0_1 t).mp h; omega) (iblk0 W c 0 t) (iblk0 W c 1 t) (iblk0 W c 2 t)
/-- The middle-tile run at point `t`, over what the accumulators held. -/
def runB (c : Dev nD) (t : Fin cfg0.N) (h0 : ¬t.val % 4 = 0) (h1 : ¬t.val % 4 = 3) (p : Outs0 F) :=
  kernelRun0_B (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk0 W c 0 t) (iblk0 W c 1 t) (iblk0 W c 2 t) p.2.2.1 p.2.2.2.1 p.2.2.2.2
/-- The last-tile run at point `t`, over what the accumulators held. -/
def runC (c : Dev nD) (t : Fin cfg0.N) (h0 : ¬t.val % 4 = 0) (h1 : t.val % 4 = 3) (p : Outs0 F) :=
  kernelRun0_C (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 W c 0 t) (iblk0 W c 1 t) (iblk0 W c 2 t) p.2.2.1 p.2.2.2.1 p.2.2.2.2

/-- The first tile stores nothing into the outputs (placeholders nothing consults) and leaves each accumulator at
    its pieces read back. -/
def stepA (c : Dev nD) (t : Fin cfg0.N) (h0 : t.val % 4 = 0) : Outs0 F :=
  (VO0_3.read (Elt F) VO0_3.junk, VO0_4.read (Elt F) VO0_4.junk,
   VS0_0.read (Elt F) (VS0_0.writes (Elt F) VS0_0.junk (runA W c t h0).1),
   VS0_1.read (Elt F) (VS0_1.writes (Elt F) VS0_1.junk (runA W c t h0).2.1),
   VS0_2.read (Elt F) (VS0_2.writes (Elt F) VS0_2.junk (runA W c t h0).2.2.1))
/-- A middle tile likewise, over the previous contents. -/
def stepB (c : Dev nD) (t : Fin cfg0.N) (h0 : ¬t.val % 4 = 0) (h1 : ¬t.val % 4 = 3) (p : Outs0 F) : Outs0 F :=
  (VO0_3.read (Elt F) VO0_3.junk, VO0_4.read (Elt F) VO0_4.junk,
   VS0_0.read (Elt F) (VS0_0.writes (Elt F) VS0_0.junk (runB W c t h0 h1 p).1),
   VS0_1.read (Elt F) (VS0_1.writes (Elt F) VS0_1.junk (runB W c t h0 h1 p).2.1),
   VS0_2.read (Elt F) (VS0_2.writes (Elt F) VS0_2.junk (runB W c t h0 h1 p).2.2.1))
/-- The last tile also stores the two quotients. -/
def stepC (c : Dev nD) (t : Fin cfg0.N) (h0 : ¬t.val % 4 = 0) (h1 : t.val % 4 = 3) (p : Outs0 F) : Outs0 F :=
  (VO0_3.read (Elt F) (VO0_3.writes (Elt F) VO0_3.junk (runC W c t h0 h1 p).1),
   VO0_4.read (Elt F) (VO0_4.writes (Elt F) VO0_4.junk (runC W c t h0 h1 p).2.1),
   VS0_0.read (Elt F) (VS0_0.writes (Elt F) VS0_0.junk (runC W c t h0 h1 p).2.2.1),
   VS0_1.read (Elt F) (VS0_1.writes (Elt F) VS0_1.junk (runC W c t h0 h1 p).2.2.2.1),
   VS0_2.read (Elt F) (VS0_2.writes (Elt F) VS0_2.junk (runC W c t h0 h1 p).2.2.2.2.1))

/-! ## Every store is whole: each case's pieces cover their buffer -/

theorem coverA_7 (c : Dev nD) (t : Fin cfg0.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg0.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg0.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg0.N) (h0 : ¬t.val % 4 = 0) (h1 : ¬t.val % 4 = 3) (p : Outs0 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg0.N) (h0 : ¬t.val % 4 = 0) (h1 : ¬t.val % 4 = 3) (p : Outs0 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg0.N) (h0 : ¬t.val % 4 = 0) (h1 : ¬t.val % 4 = 3) (p : Outs0 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg0.N) (h0 : ¬t.val % 4 = 0) (h1 : t.val % 4 = 3) (p : Outs0 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg0.N) (h0 : ¬t.val % 4 = 0) (h1 : t.val % 4 = 3) (p : Outs0 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg0.N) (h0 : ¬t.val % 4 = 0) (h1 : t.val % 4 = 3) (p : Outs0 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg0.N) (h0 : ¬t.val % 4 = 0) (h1 : t.val % 4 = 3) (p : Outs0 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg0.N) (h0 : ¬t.val % 4 = 0) (h1 : t.val % 4 = 3) (p : Outs0 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt0 (c : Dev nD) : (n : ℕ) → n < cfg0.N → Outs0 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt0 c n (Nat.lt_of_succ_lt hn))
    else stepB W c ⟨n + 1, hn⟩ h0 h1 (outsAt0 c n (Nat.lt_of_succ_lt hn))

theorem outsAt0_A (c : Dev nD) (t : Fin cfg0.N) (h0 : t.val % 4 = 0) :
    outsAt0 W c t.val t.isLt = stepA W c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 W c t.val t.isLt = stepB W c t h0 h1 (outsAt0 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 W c t.val t.isLt = stepC W c t h0 h1 (outsAt0 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ (∃ d, owns (c : Thread nD τ) scM0_2 fullShare d)
      ∗ Pipeline.scopedRestBut (Ix := Unit) (Name := ℕ) (U := UR sig nD τ) (Lvl := ℕ) (Val := Elt F) spec0 c [cc0_scratch0, cc0_scratch1, cc0_scratch2])
  | n + 1, hn => iprop(owns (c : Thread nD τ) scM0_0 fullShare (outsAt0 W c n hn).2.2.1 ∗ owns (c : Thread nD τ) scM0_1 fullShare (outsAt0 W c n hn).2.2.2.1
      ∗ owns (c : Thread nD τ) scM0_2 fullShare (outsAt0 W c n hn).2.2.2.2
      ∗ Pipeline.scopedRestBut (Ix := Unit) (Name := ℕ) (U := UR sig nD τ) (Lvl := ℕ) (Val := Elt F) spec0 c [cc0_scratch0, cc0_scratch1, cc0_scratch2])

theorem PhiS_zero (c : Dev nD) (n : ℕ) (h : n ≤ cfg0.N) (hz : n = 0) :
    PhiS W c n h = iprop((∃ d, owns (c : Thread nD τ) scM0_0 fullShare d) ∗ (∃ d, owns (c : Thread nD τ) scM0_1 fullShare d) ∗ (∃ d, owns (c : Thread nD τ) scM0_2 fullShare d)
      ∗ Pipeline.scopedRestBut (Ix := Unit) (Name := ℕ) (U := UR sig nD τ) (Lvl := ℕ) (Val := Elt F) spec0 c [cc0_scratch0, cc0_scratch1, cc0_scratch2]) := by
  subst hz; rfl

theorem PhiS_succ (c : Dev nD) (n : ℕ) (hn : n < cfg0.N) :
    PhiS W c (n + 1) hn = iprop(owns (c : Thread nD τ) scM0_0 fullShare (outsAt0 W c n hn).2.2.1 ∗ owns (c : Thread nD τ) scM0_1 fullShare (outsAt0 W c n hn).2.2.2.1
      ∗ owns (c : Thread nD τ) scM0_2 fullShare (outsAt0 W c n hn).2.2.2.2
      ∗ Pipeline.scopedRestBut (Ix := Unit) (Name := ℕ) (U := UR sig nD τ) (Lvl := ℕ) (Val := Elt F) spec0 c [cc0_scratch0, cc0_scratch1, cc0_scratch2]) := rfl

theorem PhiS_pos (c : Dev nD) (n : ℕ) (h : n ≤ cfg0.N) (hz : n ≠ 0) :
    PhiS W c n h = iprop(owns (c : Thread nD τ) scM0_0 fullShare (outsAt0 W c (n - 1) (by omega)).2.2.1 ∗ owns (c : Thread nD τ) scM0_1 fullShare (outsAt0 W c (n - 1) (by omega)).2.2.2.1
      ∗ owns (c : Thread nD τ) scM0_2 fullShare (outsAt0 W c (n - 1) (by omega)).2.2.2.2
      ∗ Pipeline.scopedRestBut (Ix := Unit) (Name := ℕ) (U := UR sig nD τ) (Lvl := ℕ) (Val := Elt F) spec0 c [cc0_scratch0, cc0_scratch1, cc0_scratch2]) := by
  cases n with
  | zero => exact absurd rfl hz
  | succ n => rfl

/-! ## The proof data -/

/-- The proof data of round one on core `c`: the arrays as the region finds them; after the body at point `t`
    each input's buffer at its block and the outputs' at the accumulation's components; the invariant above;
    nothing owed; full shares. -/
def dat0 (c : Dev nD) : Dat τ (Elt F) Unit ℕ (UR sig nD τ) ℕ cfg0 c where
  A w := WV W c (Pipeline.arrRef spec0 w)
  after w t := match w with
    | ⟨0, _⟩ => iblk0 W c 0 t
    | ⟨1, _⟩ => iblk0 W c 1 t
    | ⟨2, _⟩ => iblk0 W c 2 t
    | ⟨3, _⟩ => (outsAt0 W c t.val t.isLt).1
    | ⟨4, _⟩ => (outsAt0 W c t.val t.isLt).2.1
  Φ t := PhiS W c t.val (Nat.le_of_lt_succ t.isLt)
  q _ := fullShare
  owed _ := 0

theorem A_eq (c : Dev nD) (w : Fin cfg0.W) : (dat0 W c).A w = WV W c (Pipeline.arrRef spec0 w) := by
  dsimp only [dat0]

theorem PhiS_castSucc (c : Dev nD) (t : Fin cfg0.N) :
    (dat0 W c).Φ t.castSucc = PhiS W c t.val (Nat.le_of_lt t.isLt) := by
  dsimp only [dat0]; simp only [Fin.coe_castSucc]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = (outsAt0 W c t.val t.isLt).1 := by dsimp only [dat0]
theorem after0_4 (c : Dev nD) (t : Fin cfg0.N) : (dat0 W c).after 4 t = (outsAt0 W c t.val t.isLt).2.1 := by dsimp only [dat0]

/-- Each input's current staging buffer holds its block at every point, fetched there or not. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq]; try rfl) t d).trans
    (by unfold Dat.fetched Dat.blockOf iblk0; rw [A_eq]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq]; try rfl) t d).trans
    (by unfold Dat.fetched Dat.blockOf iblk0; rw [A_eq]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq]; try rfl) t d).trans
    (by unfold Dat.fetched Dat.blockOf iblk0; rw [A_eq]; try rfl)

/-! ## The body obligation, at a generic point -/

/-- What the body is called with at point `t`: the invariant, the core's dues, each window's current buffer. -/
def bodyPre (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d)))

/-- and what it returns. -/
def bodyPost (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t
    ∗ (dat0 W c).leavesExact 3 t ∗ (dat0 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2]
  rw [show (dat0 W c).owesAt () t.succ = (dat0 W c).owesAt () t.castSucc from rfl]
  rw [show (dat0 W c).Φ t.succ = PhiS W c (t.val + 1) t.isLt from rfl, PhiS_succ]
  have hN : t.val < 16 := lt_of_lt_of_eq t.isLt (show cfg0.N = 16 from N_0)
  rw [show (dat0 W c).leavesExact 0 t = owns (c : Thread nD τ) (ms0_0 t) fullShare ((dat0 W c).after 0 t) from by
    unfold Dat.leavesExact; rw [liveAt0_0 t], after0_0]
  rw [show (dat0 W c).leavesExact 1 t = owns (c : Thread nD τ) (ms0_1 t) fullShare ((dat0 W c).after 1 t) from by
    unfold Dat.leavesExact; rw [liveAt0_1 t], after0_1]
  rw [show (dat0 W c).leavesExact 2 t = owns (c : Thread nD τ) (ms0_2 t) fullShare ((dat0 W c).after 2 t) from by
    unfold Dat.leavesExact; rw [liveAt0_2 t], after0_2]
  by_cases h0 : t.val % 4 = 0
  · have h1 : ¬t.val % 4 = 3 := by omega
    have hn1 : ¬cond0_1 (grid0.coords t) := fun h => h1 ((hcond0_1 t).mp h)
    rw [Dat.leavesExact_idle (dat0 W c) 3 t (idleAt0_3 t hn1) (noFlush0_3 t hn1),
      Dat.leavesExact_idle (dat0 W c) 4 t (idleAt0_4 t hn1) (noFlush0_4 t hn1)]
    rw [outsAt0_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond0_1 (grid0.coords t) := (hcond0_1 t).mpr h1
      rw [show (dat0 W c).leavesExact 3 t = owns (c : Thread nD τ) (ms0_3 t) fullShare ((dat0 W c).after 3 t) from by
        unfold Dat.leavesExact; rw [liveAt0_3 t hy1], after0_3]
      rw [show (dat0 W c).leavesExact 4 t = owns (c : Thread nD τ) (ms0_4 t) fullShare ((dat0 W c).after 4 t) from by
        unfold Dat.leavesExact; rw [liveAt0_4 t hy1], after0_4]
      rw [outsAt0_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt0 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond0_1 (grid0.coords t) := fun h => h1 ((hcond0_1 t).mp h)
      rw [Dat.leavesExact_idle (dat0 W c) 3 t (idleAt0_3 t hn1) (noFlush0_3 t hn1),
        Dat.leavesExact_idle (dat0 W c) 4 t (idleAt0_4 t hn1) (noFlush0_4 t hn1)]
      rw [outsAt0_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt0 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat0 (F := F) W c) (defs₀ (F := F)) Variants.none () Set.univ := fun t => by
  rw [bigSep_W0, bigSep_W0]
  exact sound_body W c t

end Cert.Kernel.Slic.R0

end
-- ==== Proof.K1Kit.lean ====
/-
  Round two of the kernel as printed (pallas_call number 2): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.Kernel.Launch
import proofs.«138879_j15556371546814_2_alg».proof.Proof.Gen.Kernel.Points
import proofs.«138879_j15556371546814_2_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.Kernel.Slic

open Cert.Kernel Cert.Kernel.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond1_0 (i : grid1.Coords) : Prop :=
  (Scalar.cmpi .ne (Scalar.extui (Scalar.cmpi .eq (BitVec.ofNat 32 (i 1).val) 0#32)) 0#32) = 1#1

/-- The reset branch is taken exactly at the first tile of a batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The finalize branch is taken: the tile coordinate is three. -/
abbrev cond1_1 (i : grid1.Coords) : Prop := k1_cond2 i = 1#1

/-- The finalize branch is taken exactly at the last tile of a batch. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the outputs are written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Before the last tile the spectral-center output is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last tile it is live. -/
theorem liveAt1_3 : ∀ t : Fin cfg1.N, cond1_1 (grid1.coords t) → cfg1.idle 3 (grid1.coords t) = false := by decide +kernel

/-- The same of the spatial-center output. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- Each window's current staging memref at point `t`, and that it is a whole buffer. -/
abbrev ms1_0 (t : Fin cfg1.N) : Memref sig .tc .vmem S1x4096x200 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x200 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x2 .f32 := win1_4.stage (cfg1.slots t 4)
abbrev hs1_4 (t : Fin cfg1.N) : (ms1_4 t).IsWhole := hstage1_4 ((cfg1.slots t 4).cast nbuf1_4)

/-- The three accumulators: whole scoped buffers of the kernel's own (K x C, K x 2, K x 1). -/
abbrev scM1_0 : Memref sig .tc .vmem S256x200 .f32 := Memref.whole cc1_scratch0
abbrev scM1_1 : Memref sig .tc .vmem S256x2 .f32 := Memref.whole cc1_scratch1
abbrev scM1_2 : Memref sig .tc .vmem S256x1 .f32 := Memref.whole cc1_scratch2

end Cert.Kernel.Slic

end
-- ==== Proof.K1RunA.lean ====
/-
  Round two of the kernel as printed, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.K1Kit

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun1_A (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond1_0 i) (hc1 : ¬cond1_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM1_0 fullShare d) ∗ (∃ d, owns (c : Thread nD τ) scM1_1 fullShare d) ∗ (∃ d, owns (c : Thread nD τ) scM1_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, fun y3 y4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K1RunB.lean ====
/-
  Round two of the kernel as printed, the body at a MIDDLE tile of a batch (neither the first nor the
  last): neither branch is taken. This tile's partial sums are added to the three accumulators, which
  arrive holding what the tile before left; the two center outputs are not touched.
-/
import proofs.«138879_j15556371546814_2_alg».proof.Proof.K1RunA

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun1_B (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond1_0 i) (hc1 : ¬cond1_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM1_0 fullShare xs7 ∗ owns (c : Thread nD τ) scM1_1 fullShare xs8 ∗ owns (c : Thread nD τ) scM1_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, fun y3 y4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM1_0.IsWhole).eq_unread hf7
    obtain rfl := (Memref.isWhole_whole _ : scM1_1.IsWhole).eq_unread hf8
    obtain rfl := (Memref.isWhole_whole _ : scM1_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K1RunC.lean ====
/-
  Round two of the kernel as printed, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.K1RunB

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun1_C (c : Dev nD) (i : grid1.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond1_0 i) (hc1 : cond1_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM1_0 fullShare xs7 ∗ owns (c : Thread nD τ) scM1_1 fullShare xs8 ∗ owns (c : Thread nD τ) scM1_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM1_0.view.loc (c : Thread nD τ) ↦[scM1_0.view.set]{fullShare} scM1_0.view.writes (Elt F) f L7)
                ∗ (∃ f, scM1_1.view.loc (c : Thread nD τ) ↦[scM1_1.view.set]{fullShare} scM1_1.view.writes (Elt F) f L8)
                ∗ (∃ f, scM1_2.view.loc (c : Thread nD τ) ↦[scM1_2.view.set]{fullShare} scM1_2.view.writes (Elt F) f L9)) -∗ K ⟨⟩))
          ⊢ wp frame (wpE (defs₀ (F := F)) Variants.none c none) E (cc1_kernel i arg2 harg2 arg3 harg3 arg4 harg4 arg5 harg5 arg6 harg6 scM1_0 (Memref.isWhole_whole _) scM1_1 (Memref.isWhole_whole _) scM1_2 (Memref.isWhole_whole _)) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM1_0.IsWhole).eq_unread hf7
    obtain rfl := (Memref.isWhole_whole _ : scM1_1.IsWhole).eq_unread hf8
    obtain rfl := (Memref.isWhole_whole _ : scM1_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.Kernel.Slic

end
-- ==== Proof.K1Dat.lean ====
/-
  Round two of the kernel as printed: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.K1RunC
import Idealize.ShloMosaic.Lib.Ring

set_option maxRecDepth 16384

noncomputable section

namespace Cert.Kernel.Slic.R1

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS1_0 : View sig .tc .vmem S256x200 .f32 := scM1_0.view
abbrev VS1_1 : View sig .tc .vmem S256x2 .f32 := scM1_1.view
abbrev VS1_2 : View sig .tc .vmem S256x1 .f32 := scM1_2.view
/-- One staging buffer of each center output, through which its contents are stated (the choice does not matter). -/
abbrev VO1_3 : View sig .tc .vmem S1x256x200 .f32 := (Memref.whole cc1_stg3_0 : Memref sig .tc .vmem S1x256x200 .f32).view
abbrev VO1_4 : View sig .tc .vmem S1x256x2 .f32 := (Memref.whole cc1_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (WV W c (Pipeline.arrRef spec1 w))

/-! ## What each case leaves -/

/-- After a point: the two center outputs' staging buffers, then the three accumulators. -/
abbrev Outs1 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) ((hcond1_0 t).mpr h0) (fun h => by have := (hcond1_1 t).mp h; omega) (iblk1 W c 0 t) (iblk1 W c 1 t) (iblk1 W c 2 t)
/-- The middle-tile run at point `t`, over what the accumulators held. -/
def runB (c : Dev nD) (t : Fin cfg1.N) (h0 : ¬t.val % 4 = 0) (h1 : ¬t.val % 4 = 3) (p : Outs1 F) :=
  kernelRun1_B (F := F) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (iblk1 W c 0 t) (iblk1 W c 1 t) (iblk1 W c 2 t) p.2.2.1 p.2.2.2.1 p.2.2.2.2
/-- The last-tile run at point `t`, over what the accumulators held. -/
def runC (c : Dev nD) (t : Fin cfg1.N) (h0 : ¬t.val % 4 = 0) (h1 : t.val % 4 = 3) (p : Outs1 F) :=
  kernelRun1_C (F := F) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 W c 0 t) (iblk1 W c 1 t) (iblk1 W c 2 t) p.2.2.1 p.2.2.2.1 p.2.2.2.2

/-- The first tile stores nothing into the outputs (placeholders nothing consults) and leaves each accumulator at
    its pieces read back. -/
def stepA (c : Dev nD) (t : Fin cfg1.N) (h0 : t.val % 4 = 0) : Outs1 F :=
  (VO1_3.read (Elt F) VO1_3.junk, VO1_4.read (Elt F) VO1_4.junk,
   VS1_0.read (Elt F) (VS1_0.writes (Elt F) VS1_0.junk (runA W c t h0).1),
   VS1_1.read (Elt F) (VS1_1.writes (Elt F) VS1_1.junk (runA W c t h0).2.1),
   VS1_2.read (Elt F) (VS1_2.writes (Elt F) VS1_2.junk (runA W c t h0).2.2.1))
/-- A middle tile likewise, over the previous contents. -/
def stepB (c : Dev nD) (t : Fin cfg1.N) (h0 : ¬t.val % 4 = 0) (h1 : ¬t.val % 4 = 3) (p : Outs1 F) : Outs1 F :=
  (VO1_3.read (Elt F) VO1_3.junk, VO1_4.read (Elt F) VO1_4.junk,
   VS1_0.read (Elt F) (VS1_0.writes (Elt F) VS1_0.junk (runB W c t h0 h1 p).1),
   VS1_1.read (Elt F) (VS1_1.writes (Elt F) VS1_1.junk (runB W c t h0 h1 p).2.1),
   VS1_2.read (Elt F) (VS1_2.writes (Elt F) VS1_2.junk (runB W c t h0 h1 p).2.2.1))
/-- The last tile also stores the two quotients. -/
def stepC (c : Dev nD) (t : Fin cfg1.N) (h0 : ¬t.val % 4 = 0) (h1 : t.val % 4 = 3) (p : Outs1 F) : Outs1 F :=
  (VO1_3.read (Elt F) (VO1_3.writes (Elt F) VO1_3.junk (runC W c t h0 h1 p).1),
   VO1_4.read (Elt F) (VO1_4.writes (Elt F) VO1_4.junk (runC W c t h0 h1 p).2.1),
   VS1_0.read (Elt F) (VS1_0.writes (Elt F) VS1_0.junk (runC W c t h0 h1 p).2.2.1),
   VS1_1.read (Elt F) (VS1_1.writes (Elt F) VS1_1.junk (runC W c t h0 h1 p).2.2.2.1),
   VS1_2.read (Elt F) (VS1_2.writes (Elt F) VS1_2.junk (runC W c t h0 h1 p).2.2.2.2.1))

/-! ## Every store is whole: each case's pieces cover their buffer -/

theorem coverA_7 (c : Dev nD) (t : Fin cfg1.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg1.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg1.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg1.N) (h0 : ¬t.val % 4 = 0) (h1 : ¬t.val % 4 = 3) (p : Outs1 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg1.N) (h0 : ¬t.val % 4 = 0) (h1 : ¬t.val % 4 = 3) (p : Outs1 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg1.N) (h0 : ¬t.val % 4 = 0) (h1 : ¬t.val % 4 = 3) (p : Outs1 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg1.N) (h0 : ¬t.val % 4 = 0) (h1 : t.val % 4 = 3) (p : Outs1 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg1.N) (h0 : ¬t.val % 4 = 0) (h1 : t.val % 4 = 3) (p : Outs1 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg1.N) (h0 : ¬t.val % 4 = 0) (h1 : t.val % 4 = 3) (p : Outs1 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg1.N) (h0 : ¬t.val % 4 = 0) (h1 : t.val % 4 = 3) (p : Outs1 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg1.N) (h0 : ¬t.val % 4 = 0) (h1 : t.val % 4 = 3) (p : Outs1 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt1 (c : Dev nD) : (n : ℕ) → n < cfg1.N → Outs1 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt1 c n (Nat.lt_of_succ_lt hn))
    else stepB W c ⟨n + 1, hn⟩ h0 h1 (outsAt1 c n (Nat.lt_of_succ_lt hn))

theorem outsAt1_A (c : Dev nD) (t : Fin cfg1.N) (h0 : t.val % 4 = 0) :
    outsAt1 W c t.val t.isLt = stepA W c t h0 := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 W c t.val t.isLt = stepB W c t h0 h1 (outsAt1 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 W c t.val t.isLt = stepC W c t h0 h1 (outsAt1 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg1.N → sProp 𝕄
  | 0, _ => iprop((∃ d, owns (c : Thread nD τ) scM1_0 fullShare d) ∗ (∃ d, owns (c : Thread nD τ) scM1_1 fullShare d) ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2])
  | n + 1, hn => iprop(owns (c : Thread nD τ) scM1_0 fullShare (outsAt1 W c n hn).2.2.1 ∗ owns (c : Thread nD τ) scM1_1 fullShare (outsAt1 W c n hn).2.2.2.1
      ∗ owns (c : Thread nD τ) scM1_2 fullShare (outsAt1 W c n hn).2.2.2.2
      ∗ Pipeline.scopedRestBut (Ix := Unit) (Name := ℕ) (U := UR sig nD τ) (Lvl := ℕ) (Val := Elt F) spec1 c [cc1_scratch0, cc1_scratch1, cc1_scratch2])

theorem PhiS_zero (c : Dev nD) (n : ℕ) (h : n ≤ cfg1.N) (hz : n = 0) :
    PhiS W c n h = iprop((∃ d, owns (c : Thread nD τ) scM1_0 fullShare d) ∗ (∃ d, owns (c : Thread nD τ) scM1_1 fullShare d) ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2]) := by
  subst hz; rfl

theorem PhiS_succ (c : Dev nD) (n : ℕ) (hn : n < cfg1.N) :
    PhiS W c (n + 1) hn = iprop(owns (c : Thread nD τ) scM1_0 fullShare (outsAt1 W c n hn).2.2.1 ∗ owns (c : Thread nD τ) scM1_1 fullShare (outsAt1 W c n hn).2.2.2.1
      ∗ owns (c : Thread nD τ) scM1_2 fullShare (outsAt1 W c n hn).2.2.2.2
      ∗ Pipeline.scopedRestBut (Ix := Unit) (Name := ℕ) (U := UR sig nD τ) (Lvl := ℕ) (Val := Elt F) spec1 c [cc1_scratch0, cc1_scratch1, cc1_scratch2]) := rfl

theorem PhiS_pos (c : Dev nD) (n : ℕ) (h : n ≤ cfg1.N) (hz : n ≠ 0) :
    PhiS W c n h = iprop(owns (c : Thread nD τ) scM1_0 fullShare (outsAt1 W c (n - 1) (by omega)).2.2.1 ∗ owns (c : Thread nD τ) scM1_1 fullShare (outsAt1 W c (n - 1) (by omega)).2.2.2.1
      ∗ owns (c : Thread nD τ) scM1_2 fullShare (outsAt1 W c (n - 1) (by omega)).2.2.2.2
      ∗ Pipeline.scopedRestBut (Ix := Unit) (Name := ℕ) (U := UR sig nD τ) (Lvl := ℕ) (Val := Elt F) spec1 c [cc1_scratch0, cc1_scratch1, cc1_scratch2]) := by
  cases n with
  | zero => exact absurd rfl hz
  | succ n => rfl

/-! ## The proof data -/

/-- The proof data of round two on core `c`: the arrays as the region finds them; after the body at point `t`
    each input's buffer at its block and the outputs' at the accumulation's components; the invariant above;
    nothing owed; full shares. -/
def dat1 (c : Dev nD) : Dat τ (Elt F) Unit ℕ (UR sig nD τ) ℕ cfg1 c where
  A w := WV W c (Pipeline.arrRef spec1 w)
  after w t := match w with
    | ⟨0, _⟩ => iblk1 W c 0 t
    | ⟨1, _⟩ => iblk1 W c 1 t
    | ⟨2, _⟩ => iblk1 W c 2 t
    | ⟨3, _⟩ => (outsAt1 W c t.val t.isLt).1
    | ⟨4, _⟩ => (outsAt1 W c t.val t.isLt).2.1
  Φ t := PhiS W c t.val (Nat.le_of_lt_succ t.isLt)
  q _ := fullShare
  owed _ := 0

theorem A_eq (c : Dev nD) (w : Fin cfg1.W) : (dat1 W c).A w = WV W c (Pipeline.arrRef spec1 w) := by
  dsimp only [dat1]

theorem PhiS_castSucc (c : Dev nD) (t : Fin cfg1.N) :
    (dat1 W c).Φ t.castSucc = PhiS W c t.val (Nat.le_of_lt t.isLt) := by
  dsimp only [dat1]; simp only [Fin.coe_castSucc]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = (outsAt1 W c t.val t.isLt).1 := by dsimp only [dat1]
theorem after1_4 (c : Dev nD) (t : Fin cfg1.N) : (dat1 W c).after 4 t = (outsAt1 W c t.val t.isLt).2.1 := by dsimp only [dat1]

/-- Each input's current staging buffer holds its block at every point, fetched there or not. -/
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq]; try rfl) t d).trans
    (by unfold Dat.fetched Dat.blockOf iblk1; rw [A_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq]; try rfl) t d).trans
    (by unfold Dat.fetched Dat.blockOf iblk1; rw [A_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq]; try rfl) t d).trans
    (by unfold Dat.fetched Dat.blockOf iblk1; rw [A_eq]; try rfl)

/-! ## The body obligation, at a generic point -/

/-- What the body is called with at point `t`: the invariant, the core's dues, each window's current buffer. -/
def bodyPre (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d)))

/-- and what it returns. -/
def bodyPost (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t
    ∗ (dat1 W c).leavesExact 3 t ∗ (dat1 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2]
  rw [show (dat1 W c).owesAt () t.succ = (dat1 W c).owesAt () t.castSucc from rfl]
  rw [show (dat1 W c).Φ t.succ = PhiS W c (t.val + 1) t.isLt from rfl, PhiS_succ]
  have hN : t.val < 16 := lt_of_lt_of_eq t.isLt (show cfg1.N = 16 from N_1)
  rw [show (dat1 W c).leavesExact 0 t = owns (c : Thread nD τ) (ms1_0 t) fullShare ((dat1 W c).after 0 t) from by
    unfold Dat.leavesExact; rw [liveAt1_0 t], after1_0]
  rw [show (dat1 W c).leavesExact 1 t = owns (c : Thread nD τ) (ms1_1 t) fullShare ((dat1 W c).after 1 t) from by
    unfold Dat.leavesExact; rw [liveAt1_1 t], after1_1]
  rw [show (dat1 W c).leavesExact 2 t = owns (c : Thread nD τ) (ms1_2 t) fullShare ((dat1 W c).after 2 t) from by
    unfold Dat.leavesExact; rw [liveAt1_2 t], after1_2]
  by_cases h0 : t.val % 4 = 0
  · have h1 : ¬t.val % 4 = 3 := by omega
    have hn1 : ¬cond1_1 (grid1.coords t) := fun h => h1 ((hcond1_1 t).mp h)
    rw [Dat.leavesExact_idle (dat1 W c) 3 t (idleAt1_3 t hn1) (noFlush1_3 t hn1),
      Dat.leavesExact_idle (dat1 W c) 4 t (idleAt1_4 t hn1) (noFlush1_4 t hn1)]
    rw [outsAt1_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond1_1 (grid1.coords t) := (hcond1_1 t).mpr h1
      rw [show (dat1 W c).leavesExact 3 t = owns (c : Thread nD τ) (ms1_3 t) fullShare ((dat1 W c).after 3 t) from by
        unfold Dat.leavesExact; rw [liveAt1_3 t hy1], after1_3]
      rw [show (dat1 W c).leavesExact 4 t = owns (c : Thread nD τ) (ms1_4 t) fullShare ((dat1 W c).after 4 t) from by
        unfold Dat.leavesExact; rw [liveAt1_4 t hy1], after1_4]
      rw [outsAt1_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt1 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond1_1 (grid1.coords t) := fun h => h1 ((hcond1_1 t).mp h)
      rw [Dat.leavesExact_idle (dat1 W c) 3 t (idleAt1_3 t hn1) (noFlush1_3 t hn1),
        Dat.leavesExact_idle (dat1 W c) 4 t (idleAt1_4 t hn1) (noFlush1_4 t hn1)]
      rw [outsAt1_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt1 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat1 (F := F) W c) (defs₀ (F := F)) Variants.none () Set.univ := fun t => by
  rw [bigSep_W1, bigSep_W1]
  exact sound_body W c t

end Cert.Kernel.Slic.R1

end
-- ==== Proof.K2Kit.lean ====
/-
  Round three of the kernel as printed (pallas_call number 3): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.Kernel.Launch
import proofs.«138879_j15556371546814_2_alg».proof.Proof.Gen.Kernel.Points
import proofs.«138879_j15556371546814_2_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.Kernel.Slic

open Cert.Kernel Cert.Kernel.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond2_0 (i : grid2.Coords) : Prop :=
  (Scalar.cmpi .ne (Scalar.extui (Scalar.cmpi .eq (BitVec.ofNat 32 (i 1).val) 0#32)) 0#32) = 1#1

/-- The reset branch is taken exactly at the first tile of a batch. -/
theorem hcond2_0 : ∀ t : Fin cfg2.N, cond2_0 (grid2.coords t) ↔ t.val % 4 = 0 :=
  (by decide +kernel : ∀ t : Fin grid2.N, cond2_0 (grid2.coords t) ↔ t.val % 4 = 0)

/-- The finalize branch is taken: the tile coordinate is three. -/
abbrev cond2_1 (i : grid2.Coords) : Prop := k2_cond2 i = 1#1

/-- The finalize branch is taken exactly at the last tile of a batch. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, and where the outputs are written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-- Before the last tile the spectral-center output is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

/-- The same of the spatial-center output. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- Each window's current staging memref at point `t`, and that it is a whole buffer. -/
abbrev ms2_0 (t : Fin cfg2.N) : Memref sig .tc .vmem S1x4096x200 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x200 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x2 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x200 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x2 .f32 := win2_4.stage (cfg2.slots t 4)
abbrev hs2_4 (t : Fin cfg2.N) : (ms2_4 t).IsWhole := hstage2_4 ((cfg2.slots t 4).cast nbuf2_4)

/-- The three accumulators: whole scoped buffers of the kernel's own (K x C, K x 2, K x 1). -/
abbrev scM2_0 : Memref sig .tc .vmem S256x200 .f32 := Memref.whole cc2_scratch0
abbrev scM2_1 : Memref sig .tc .vmem S256x2 .f32 := Memref.whole cc2_scratch1
abbrev scM2_2 : Memref sig .tc .vmem S256x1 .f32 := Memref.whole cc2_scratch2

end Cert.Kernel.Slic

end
-- ==== Proof.K2RunA.lean ====
/-
  Round three of the kernel as printed, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.K2Kit

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun2_A (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond2_0 i) (hc1 : ¬cond2_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM2_0 fullShare d) ∗ (∃ d, owns (c : Thread nD τ) scM2_1 fullShare d) ∗ (∃ d, owns (c : Thread nD τ) scM2_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, fun y3 y4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K2RunB.lean ====
/-
  Round three of the kernel as printed, the body at a MIDDLE tile of a batch (neither the first nor the
  last): neither branch is taken. This tile's partial sums are added to the three accumulators, which
  arrive holding what the tile before left; the two center outputs are not touched.
-/
import proofs.«138879_j15556371546814_2_alg».proof.Proof.K2RunA

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun2_B (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond2_0 i) (hc1 : ¬cond2_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM2_0 fullShare xs7 ∗ owns (c : Thread nD τ) scM2_1 fullShare xs8 ∗ owns (c : Thread nD τ) scM2_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, fun y3 y4 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM2_0.IsWhole).eq_unread hf7
    obtain rfl := (Memref.isWhole_whole _ : scM2_1.IsWhole).eq_unread hf8
    obtain rfl := (Memref.isWhole_whole _ : scM2_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K2RunC.lean ====
/-
  Round three of the kernel as printed, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.K2RunB

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun2_C (c : Dev nD) (i : grid2.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond2_0 i) (hc1 : cond2_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM2_0 fullShare xs7 ∗ owns (c : Thread nD τ) scM2_1 fullShare xs8 ∗ owns (c : Thread nD τ) scM2_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM2_0.view.loc (c : Thread nD τ) ↦[scM2_0.view.set]{fullShare} scM2_0.view.writes (Elt F) f L7)
                ∗ (∃ f, scM2_1.view.loc (c : Thread nD τ) ↦[scM2_1.view.set]{fullShare} scM2_1.view.writes (Elt F) f L8)
                ∗ (∃ f, scM2_2.view.loc (c : Thread nD τ) ↦[scM2_2.view.set]{fullShare} scM2_2.view.writes (Elt F) f L9)) -∗ K ⟨⟩))
          ⊢ wp frame (wpE (defs₀ (F := F)) Variants.none c none) E (cc2_kernel i arg2 harg2 arg3 harg3 arg4 harg4 arg5 harg5 arg6 harg6 scM2_0 (Memref.isWhole_whole _) scM2_1 (Memref.isWhole_whole _) scM2_2 (Memref.isWhole_whole _)) K } := by
  refine ⟨?_, ?_, ?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM2_0.IsWhole).eq_unread hf7
    obtain rfl := (Memref.isWhole_whole _ : scM2_1.IsWhole).eq_unread hf8
    obtain rfl := (Memref.isWhole_whole _ : scM2_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.Kernel.Slic

end
-- ==== Proof.K2Dat.lean ====
/-
  Round three of the kernel as printed: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.K2RunC
import Idealize.ShloMosaic.Lib.Ring

set_option maxRecDepth 16384

noncomputable section

namespace Cert.Kernel.Slic.R2

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS2_0 : View sig .tc .vmem S256x200 .f32 := scM2_0.view
abbrev VS2_1 : View sig .tc .vmem S256x2 .f32 := scM2_1.view
abbrev VS2_2 : View sig .tc .vmem S256x1 .f32 := scM2_2.view
/-- One staging buffer of each center output, through which its contents are stated (the choice does not matter). -/
abbrev VO2_3 : View sig .tc .vmem S1x256x200 .f32 := (Memref.whole cc2_stg3_0 : Memref sig .tc .vmem S1x256x200 .f32).view
abbrev VO2_4 : View sig .tc .vmem S1x256x2 .f32 := (Memref.whole cc2_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (WV W c (Pipeline.arrRef spec2 w))

/-! ## What each case leaves -/

/-- After a point: the two center outputs' staging buffers, then the three accumulators. -/
abbrev Outs2 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) ((hcond2_0 t).mpr h0) (fun h => by have := (hcond2_1 t).mp h; omega) (iblk2 W c 0 t) (iblk2 W c 1 t) (iblk2 W c 2 t)
/-- The middle-tile run at point `t`, over what the accumulators held. -/
def runB (c : Dev nD) (t : Fin cfg2.N) (h0 : ¬t.val % 4 = 0) (h1 : ¬t.val % 4 = 3) (p : Outs2 F) :=
  kernelRun2_B (F := F) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (fun h => h1 ((hcond2_1 t).mp h)) (iblk2 W c 0 t) (iblk2 W c 1 t) (iblk2 W c 2 t) p.2.2.1 p.2.2.2.1 p.2.2.2.2
/-- The last-tile run at point `t`, over what the accumulators held. -/
def runC (c : Dev nD) (t : Fin cfg2.N) (h0 : ¬t.val % 4 = 0) (h1 : t.val % 4 = 3) (p : Outs2 F) :=
  kernelRun2_C (F := F) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) ((hcond2_1 t).mpr h1) (iblk2 W c 0 t) (iblk2 W c 1 t) (iblk2 W c 2 t) p.2.2.1 p.2.2.2.1 p.2.2.2.2

/-- The first tile stores nothing into the outputs (placeholders nothing consults) and leaves each accumulator at
    its pieces read back. -/
def stepA (c : Dev nD) (t : Fin cfg2.N) (h0 : t.val % 4 = 0) : Outs2 F :=
  (VO2_3.read (Elt F) VO2_3.junk, VO2_4.read (Elt F) VO2_4.junk,
   VS2_0.read (Elt F) (VS2_0.writes (Elt F) VS2_0.junk (runA W c t h0).1),
   VS2_1.read (Elt F) (VS2_1.writes (Elt F) VS2_1.junk (runA W c t h0).2.1),
   VS2_2.read (Elt F) (VS2_2.writes (Elt F) VS2_2.junk (runA W c t h0).2.2.1))
/-- A middle tile likewise, over the previous contents. -/
def stepB (c : Dev nD) (t : Fin cfg2.N) (h0 : ¬t.val % 4 = 0) (h1 : ¬t.val % 4 = 3) (p : Outs2 F) : Outs2 F :=
  (VO2_3.read (Elt F) VO2_3.junk, VO2_4.read (Elt F) VO2_4.junk,
   VS2_0.read (Elt F) (VS2_0.writes (Elt F) VS2_0.junk (runB W c t h0 h1 p).1),
   VS2_1.read (Elt F) (VS2_1.writes (Elt F) VS2_1.junk (runB W c t h0 h1 p).2.1),
   VS2_2.read (Elt F) (VS2_2.writes (Elt F) VS2_2.junk (runB W c t h0 h1 p).2.2.1))
/-- The last tile also stores the two quotients. -/
def stepC (c : Dev nD) (t : Fin cfg2.N) (h0 : ¬t.val % 4 = 0) (h1 : t.val % 4 = 3) (p : Outs2 F) : Outs2 F :=
  (VO2_3.read (Elt F) (VO2_3.writes (Elt F) VO2_3.junk (runC W c t h0 h1 p).1),
   VO2_4.read (Elt F) (VO2_4.writes (Elt F) VO2_4.junk (runC W c t h0 h1 p).2.1),
   VS2_0.read (Elt F) (VS2_0.writes (Elt F) VS2_0.junk (runC W c t h0 h1 p).2.2.1),
   VS2_1.read (Elt F) (VS2_1.writes (Elt F) VS2_1.junk (runC W c t h0 h1 p).2.2.2.1),
   VS2_2.read (Elt F) (VS2_2.writes (Elt F) VS2_2.junk (runC W c t h0 h1 p).2.2.2.2.1))

/-! ## Every store is whole: each case's pieces cover their buffer -/

theorem coverA_7 (c : Dev nD) (t : Fin cfg2.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg2.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg2.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg2.N) (h0 : ¬t.val % 4 = 0) (h1 : ¬t.val % 4 = 3) (p : Outs2 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg2.N) (h0 : ¬t.val % 4 = 0) (h1 : ¬t.val % 4 = 3) (p : Outs2 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg2.N) (h0 : ¬t.val % 4 = 0) (h1 : ¬t.val % 4 = 3) (p : Outs2 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg2.N) (h0 : ¬t.val % 4 = 0) (h1 : t.val % 4 = 3) (p : Outs2 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg2.N) (h0 : ¬t.val % 4 = 0) (h1 : t.val % 4 = 3) (p : Outs2 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg2.N) (h0 : ¬t.val % 4 = 0) (h1 : t.val % 4 = 3) (p : Outs2 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg2.N) (h0 : ¬t.val % 4 = 0) (h1 : t.val % 4 = 3) (p : Outs2 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg2.N) (h0 : ¬t.val % 4 = 0) (h1 : t.val % 4 = 3) (p : Outs2 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt2 (c : Dev nD) : (n : ℕ) → n < cfg2.N → Outs2 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt2 c n (Nat.lt_of_succ_lt hn))
    else stepB W c ⟨n + 1, hn⟩ h0 h1 (outsAt2 c n (Nat.lt_of_succ_lt hn))

theorem outsAt2_A (c : Dev nD) (t : Fin cfg2.N) (h0 : t.val % 4 = 0) :
    outsAt2 W c t.val t.isLt = stepA W c t h0 := by
  obtain ⟨n, hn⟩ := t
  cases n with
  | zero => rfl
  | succ n => exact dif_pos h0

theorem outsAt2_B (c : Dev nD) (t : Fin cfg2.N) (h0 : ¬t.val % 4 = 0) (h1 : ¬t.val % 4 = 3) :
    outsAt2 W c t.val t.isLt = stepB W c t h0 h1 (outsAt2 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 4 = 0) (h1 : t.val % 4 = 3) :
    outsAt2 W c t.val t.isLt = stepC W c t h0 h1 (outsAt2 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg2.N → sProp 𝕄
  | 0, _ => iprop((∃ d, owns (c : Thread nD τ) scM2_0 fullShare d) ∗ (∃ d, owns (c : Thread nD τ) scM2_1 fullShare d) ∗ (∃ d, owns (c : Thread nD τ) scM2_2 fullShare d)
      ∗ Pipeline.scopedRestBut (Ix := Unit) (Name := ℕ) (U := UR sig nD τ) (Lvl := ℕ) (Val := Elt F) spec2 c [cc2_scratch0, cc2_scratch1, cc2_scratch2])
  | n + 1, hn => iprop(owns (c : Thread nD τ) scM2_0 fullShare (outsAt2 W c n hn).2.2.1 ∗ owns (c : Thread nD τ) scM2_1 fullShare (outsAt2 W c n hn).2.2.2.1
      ∗ owns (c : Thread nD τ) scM2_2 fullShare (outsAt2 W c n hn).2.2.2.2
      ∗ Pipeline.scopedRestBut (Ix := Unit) (Name := ℕ) (U := UR sig nD τ) (Lvl := ℕ) (Val := Elt F) spec2 c [cc2_scratch0, cc2_scratch1, cc2_scratch2])

theorem PhiS_zero (c : Dev nD) (n : ℕ) (h : n ≤ cfg2.N) (hz : n = 0) :
    PhiS W c n h = iprop((∃ d, owns (c : Thread nD τ) scM2_0 fullShare d) ∗ (∃ d, owns (c : Thread nD τ) scM2_1 fullShare d) ∗ (∃ d, owns (c : Thread nD τ) scM2_2 fullShare d)
      ∗ Pipeline.scopedRestBut (Ix := Unit) (Name := ℕ) (U := UR sig nD τ) (Lvl := ℕ) (Val := Elt F) spec2 c [cc2_scratch0, cc2_scratch1, cc2_scratch2]) := by
  subst hz; rfl

theorem PhiS_succ (c : Dev nD) (n : ℕ) (hn : n < cfg2.N) :
    PhiS W c (n + 1) hn = iprop(owns (c : Thread nD τ) scM2_0 fullShare (outsAt2 W c n hn).2.2.1 ∗ owns (c : Thread nD τ) scM2_1 fullShare (outsAt2 W c n hn).2.2.2.1
      ∗ owns (c : Thread nD τ) scM2_2 fullShare (outsAt2 W c n hn).2.2.2.2
      ∗ Pipeline.scopedRestBut (Ix := Unit) (Name := ℕ) (U := UR sig nD τ) (Lvl := ℕ) (Val := Elt F) spec2 c [cc2_scratch0, cc2_scratch1, cc2_scratch2]) := rfl

theorem PhiS_pos (c : Dev nD) (n : ℕ) (h : n ≤ cfg2.N) (hz : n ≠ 0) :
    PhiS W c n h = iprop(owns (c : Thread nD τ) scM2_0 fullShare (outsAt2 W c (n - 1) (by omega)).2.2.1 ∗ owns (c : Thread nD τ) scM2_1 fullShare (outsAt2 W c (n - 1) (by omega)).2.2.2.1
      ∗ owns (c : Thread nD τ) scM2_2 fullShare (outsAt2 W c (n - 1) (by omega)).2.2.2.2
      ∗ Pipeline.scopedRestBut (Ix := Unit) (Name := ℕ) (U := UR sig nD τ) (Lvl := ℕ) (Val := Elt F) spec2 c [cc2_scratch0, cc2_scratch1, cc2_scratch2]) := by
  cases n with
  | zero => exact absurd rfl hz
  | succ n => rfl

/-! ## The proof data -/

/-- The proof data of round three on core `c`: the arrays as the region finds them; after the body at point `t`
    each input's buffer at its block and the outputs' at the accumulation's components; the invariant above;
    nothing owed; full shares. -/
def dat2 (c : Dev nD) : Dat τ (Elt F) Unit ℕ (UR sig nD τ) ℕ cfg2 c where
  A w := WV W c (Pipeline.arrRef spec2 w)
  after w t := match w with
    | ⟨0, _⟩ => iblk2 W c 0 t
    | ⟨1, _⟩ => iblk2 W c 1 t
    | ⟨2, _⟩ => iblk2 W c 2 t
    | ⟨3, _⟩ => (outsAt2 W c t.val t.isLt).1
    | ⟨4, _⟩ => (outsAt2 W c t.val t.isLt).2.1
  Φ t := PhiS W c t.val (Nat.le_of_lt_succ t.isLt)
  q _ := fullShare
  owed _ := 0

theorem A_eq (c : Dev nD) (w : Fin cfg2.W) : (dat2 W c).A w = WV W c (Pipeline.arrRef spec2 w) := by
  dsimp only [dat2]

theorem PhiS_castSucc (c : Dev nD) (t : Fin cfg2.N) :
    (dat2 W c).Φ t.castSucc = PhiS W c t.val (Nat.le_of_lt t.isLt) := by
  dsimp only [dat2]; simp only [Fin.coe_castSucc]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = (outsAt2 W c t.val t.isLt).1 := by dsimp only [dat2]
theorem after2_4 (c : Dev nD) (t : Fin cfg2.N) : (dat2 W c).after 4 t = (outsAt2 W c t.val t.isLt).2.1 := by dsimp only [dat2]

/-- Each input's current staging buffer holds its block at every point, fetched there or not. -/
theorem before2_0 (c : Dev nD) (t : Fin cfg2.N) (d) : (dat2 W c).before 0 t d = iblk2 W c 0 t :=
  ((dat2 W c).before_in_eq_fetched 0 rfl (fun _ => rfl) (fun _ _ _ => rfl) (fun t => by rw [after2_0]; unfold Dat.blockOf iblk2; rw [A_eq]; try rfl) t d).trans
    (by unfold Dat.fetched Dat.blockOf iblk2; rw [A_eq]; try rfl)
theorem before2_1 (c : Dev nD) (t : Fin cfg2.N) (d) : (dat2 W c).before 1 t d = iblk2 W c 1 t :=
  ((dat2 W c).before_in_eq_fetched 1 rfl (fun _ => rfl) (fun _ _ _ => rfl) (fun t => by rw [after2_1]; unfold Dat.blockOf iblk2; rw [A_eq]; try rfl) t d).trans
    (by unfold Dat.fetched Dat.blockOf iblk2; rw [A_eq]; try rfl)
theorem before2_2 (c : Dev nD) (t : Fin cfg2.N) (d) : (dat2 W c).before 2 t d = iblk2 W c 2 t :=
  ((dat2 W c).before_in_eq_fetched 2 rfl (fun _ => rfl) (fun _ _ _ => rfl) (fun t => by rw [after2_2]; unfold Dat.blockOf iblk2; rw [A_eq]; try rfl) t d).trans
    (by unfold Dat.fetched Dat.blockOf iblk2; rw [A_eq]; try rfl)

/-! ## The body obligation, at a generic point -/

/-- What the body is called with at point `t`: the invariant, the core's dues, each window's current buffer. -/
def bodyPre (c : Dev nD) (t : Fin cfg2.N) : sProp 𝕄 :=
  iprop((dat2 W c).Φ t.castSucc ∗ (dat2 W c).owesAt () t.castSucc
    ∗ (∃ d, owns (c : Thread nD τ) (ms2_0 t) fullShare ((dat2 W c).before 0 t d))
    ∗ (∃ d, owns (c : Thread nD τ) (ms2_1 t) fullShare ((dat2 W c).before 1 t d))
    ∗ (∃ d, owns (c : Thread nD τ) (ms2_2 t) fullShare ((dat2 W c).before 2 t d))
    ∗ (∃ d, owns (c : Thread nD τ) (ms2_3 t) fullShare ((dat2 W c).before 3 t d))
    ∗ (∃ d, owns (c : Thread nD τ) (ms2_4 t) fullShare ((dat2 W c).before 4 t d)))

/-- and what it returns. -/
def bodyPost (c : Dev nD) (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t
    ∗ (dat2 W c).leavesExact 3 t ∗ (dat2 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0, before2_1, before2_2]
  rw [show (dat2 W c).owesAt () t.succ = (dat2 W c).owesAt () t.castSucc from rfl]
  rw [show (dat2 W c).Φ t.succ = PhiS W c (t.val + 1) t.isLt from rfl, PhiS_succ]
  have hN : t.val < 16 := lt_of_lt_of_eq t.isLt (show cfg2.N = 16 from N_2)
  rw [show (dat2 W c).leavesExact 0 t = owns (c : Thread nD τ) (ms2_0 t) fullShare ((dat2 W c).after 0 t) from by
    unfold Dat.leavesExact; rw [liveAt2_0 t], after2_0]
  rw [show (dat2 W c).leavesExact 1 t = owns (c : Thread nD τ) (ms2_1 t) fullShare ((dat2 W c).after 1 t) from by
    unfold Dat.leavesExact; rw [liveAt2_1 t], after2_1]
  rw [show (dat2 W c).leavesExact 2 t = owns (c : Thread nD τ) (ms2_2 t) fullShare ((dat2 W c).after 2 t) from by
    unfold Dat.leavesExact; rw [liveAt2_2 t], after2_2]
  by_cases h0 : t.val % 4 = 0
  · have h1 : ¬t.val % 4 = 3 := by omega
    have hn1 : ¬cond2_1 (grid2.coords t) := fun h => h1 ((hcond2_1 t).mp h)
    rw [Dat.leavesExact_idle (dat2 W c) 3 t (idleAt2_3 t hn1) (noFlush2_3 t hn1),
      Dat.leavesExact_idle (dat2 W c) 4 t (idleAt2_4 t hn1) (noFlush2_4 t hn1)]
    rw [outsAt2_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond2_1 (grid2.coords t) := (hcond2_1 t).mpr h1
      rw [show (dat2 W c).leavesExact 3 t = owns (c : Thread nD τ) (ms2_3 t) fullShare ((dat2 W c).after 3 t) from by
        unfold Dat.leavesExact; rw [liveAt2_3 t hy1], after2_3]
      rw [show (dat2 W c).leavesExact 4 t = owns (c : Thread nD τ) (ms2_4 t) fullShare ((dat2 W c).after 4 t) from by
        unfold Dat.leavesExact; rw [liveAt2_4 t hy1], after2_4]
      rw [outsAt2_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt2 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond2_1 (grid2.coords t) := fun h => h1 ((hcond2_1 t).mp h)
      rw [Dat.leavesExact_idle (dat2 W c) 3 t (idleAt2_3 t hn1) (noFlush2_3 t hn1),
        Dat.leavesExact_idle (dat2 W c) 4 t (idleAt2_4 t hn1) (noFlush2_4 t hn1)]
      rw [outsAt2_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt2 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat2 (F := F) W c) (defs₀ (F := F)) Variants.none () Set.univ := fun t => by
  rw [bigSep_W2, bigSep_W2]
  exact sound_body W c t

end Cert.Kernel.Slic.R2

end
-- ==== Proof.K3Kit.lean ====
/-
  Round four of the kernel as printed (pallas_call number 4): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle.
-/
import proofs.«138879_j15556371546814_2_alg».proof.Proof.Gen.Kernel.Launch
import proofs.«138879_j15556371546814_2_alg».proof.Proof.Gen.Kernel.Points
import proofs.«138879_j15556371546814_2_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.Kernel.Slic

open Cert.Kernel Cert.Kernel.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond3_0 (i : grid3.Coords) : Prop :=
  (Scalar.cmpi .ne (Scalar.extui (Scalar.cmpi .eq (BitVec.ofNat 32 (i 1).val) 0#32)) 0#32) = 1#1

/-- The reset branch is taken exactly at the first tile of a batch. -/
theorem hcond3_0 : ∀ t : Fin cfg3.N, cond3_0 (grid3.coords t) ↔ t.val % 4 = 0 :=
  (by decide +kernel : ∀ t : Fin grid3.N, cond3_0 (grid3.coords t) ↔ t.val % 4 = 0)

/-- The finalize branch is taken: the tile coordinate is three. -/
abbrev cond3_1 (i : grid3.Coords) : Prop := k3_cond2 i = 1#1

/-- The finalize branch is taken exactly at the last tile of a batch. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle, and where the outputs are written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- Before the last tile the spectral-center output is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last tile it is live. -/
theorem liveAt3_3 : ∀ t : Fin cfg3.N, cond3_1 (grid3.coords t) → cfg3.idle 3 (grid3.coords t) = false := by decide +kernel

/-- The same of the spatial-center output. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The memrefs the body is called with -/

/-- Each window's current staging memref at point `t`, and that it is a whole buffer. -/
abbrev ms3_0 (t : Fin cfg3.N) : Memref sig .tc .vmem S1x4096x200 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x200 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x2 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256x200 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256x2 .f32 := win3_4.stage (cfg3.slots t 4)
abbrev hs3_4 (t : Fin cfg3.N) : (ms3_4 t).IsWhole := hstage3_4 ((cfg3.slots t 4).cast nbuf3_4)

/-- The three accumulators: whole scoped buffers of the kernel's own (K x C, K x 2, K x 1). -/
abbrev scM3_0 : Memref sig .tc .vmem S256x200 .f32 := Memref.whole cc3_scratch0
abbrev scM3_1 : Memref sig .tc .vmem S256x2 .f32 := Memref.whole cc3_scratch1
abbrev scM3_2 : Memref sig .tc .vmem S256x1 .f32 := Memref.whole cc3_scratch2

end Cert.Kernel.Slic

end
-- ==== Proof.K3RunA.lean ====
/-
  Round four of the kernel as printed, the body at the FIRST tile of a batch: the three accumulators are
  reset to zero and this tile's partial sums are added; the finalize branch is not taken, so the two
  center outputs are not touched. From the three inputs at their blocks, the two outputs at whatever
  they hold and the accumulators at anything, the body runs to its return with the inputs and the
  outputs as found and each accumulator overwritten by the pieces the run finds (they do not depend
  on what the accumulators held).
-/
import proofs.«138879_j15556371546814_2_alg».proof.Proof.K3Kit

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator ends with are the witness. -/
noncomputable def kernelRun3_A (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : cond3_0 i) (hc1 : ¬cond3_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) scM3_0 fullShare d) ∗ (∃ d, owns (c : Thread nD τ) scM3_1 fullShare d) ∗ (∃ d, owns (c : Thread nD τ) scM3_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, fun y3 y4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K3RunB.lean ====
/-
  Round four of the kernel as printed, the body at a MIDDLE tile of a batch (neither the first nor the
  last): neither branch is taken. This tile's partial sums are added to the three accumulators, which
  arrive holding what the tile before left; the two center outputs are not touched.
-/
import proofs.«138879_j15556371546814_2_alg».proof.Proof.K3RunA

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator ends with, as found, are functions of the three
    input blocks and of what the accumulators held. -/
noncomputable def kernelRun3_B (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond3_0 i) (hc1 : ¬cond3_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32)), { L9 : List (View.Piece (Elt F) S256x1 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) scM3_0 fullShare xs7 ∗ owns (c : Thread nD τ) scM3_1 fullShare xs8 ∗ owns (c : Thread nD τ) scM3_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, fun y3 y4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM3_0.IsWhole).eq_unread hf7
    obtain rfl := (Memref.isWhole_whole _ : scM3_1.IsWhole).eq_unread hf8
    obtain rfl := (Memref.isWhole_whole _ : scM3_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    isplitl [H8]
    · iexists _; iexact H8
    iexists _; iexact H9

end Cert.Kernel.Slic

end
-- ==== Proof.K3RunC.lean ====
/-
  Round four of the kernel as printed, the body at the LAST tile of a batch: the reset is not taken, this
  tile's partial sums are added to the accumulators, and the finalize branch divides the spectral and
  the spatial accumulator by the accumulated mass plus 1e-6 and stores the two quotients, whole, into
  the two center outputs.
-/
import proofs.«138879_j15556371546814_2_alg».proof.Proof.K3RunB

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs and the three accumulators end with, as found,
    are functions of the three input blocks and of what the accumulators held. -/
noncomputable def kernelRun3_C (c : Dev nD) (i : grid3.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (hc0 : ¬cond3_0 i) (hc1 : cond3_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32)), { L9 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) scM3_0 fullShare xs7 ∗ owns (c : Thread nD τ) scM3_1 fullShare xs8 ∗ owns (c : Thread nD τ) scM3_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, scM3_0.view.loc (c : Thread nD τ) ↦[scM3_0.view.set]{fullShare} scM3_0.view.writes (Elt F) f L7)
                ∗ (∃ f, scM3_1.view.loc (c : Thread nD τ) ↦[scM3_1.view.set]{fullShare} scM3_1.view.writes (Elt F) f L8)
                ∗ (∃ f, scM3_2.view.loc (c : Thread nD τ) ↦[scM3_2.view.set]{fullShare} scM3_2.view.writes (Elt F) f L9)) -∗ K ⟨⟩))
          ⊢ wp frame (wpE (defs₀ (F := F)) Variants.none c none) E (cc3_kernel i arg2 harg2 arg3 harg3 arg4 harg4 arg5 harg5 arg6 harg6 scM3_0 (Memref.isWhole_whole _) scM3_1 (Memref.isWhole_whole _) scM3_2 (Memref.isWhole_whole _)) K } := by
  refine ⟨?_, ?_, ?_, ?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM3_0.IsWhole).eq_unread hf7
    obtain rfl := (Memref.isWhole_whole _ : scM3_1.IsWhole).eq_unread hf8
    obtain rfl := (Memref.isWhole_whole _ : scM3_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H7]
    · iexists _; iexact H7
    isplitl [H8]
    · iexists _; iexact H8
    iexists _; iexact H9

end Cert.Kernel.Slic

end
-- ==== Proof.K3Dat.lean ====
/-
  Round four of the kernel as printed: what the body's five written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. So the contents after point t are defined by recursion on t, the
  case chosen by t mod 4, each case's contents being what that case's run of the body found. The three
  inputs' staging buffers hold their blocks at every point, fetched there or not (the two center inputs
  are fetched once per batch and their index does not move within it). The two outputs are idle before
  the last tile: the body hands their buffers back as it found them.

  Everything is stated over a valuation W of the unscoped buffers as the region finds them.
-/
import proofs.«138879_j15556371546814_2_alg».proof.Proof.K3RunC
import Idealize.ShloMosaic.Lib.Ring

set_option maxRecDepth 16384

noncomputable section

namespace Cert.Kernel.Slic.R3

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS3_0 : View sig .tc .vmem S256x200 .f32 := scM3_0.view
abbrev VS3_1 : View sig .tc .vmem S256x2 .f32 := scM3_1.view
abbrev VS3_2 : View sig .tc .vmem S256x1 .f32 := scM3_2.view
/-- One staging buffer of each center output, through which its contents are stated (the choice does not matter). -/
abbrev VO3_3 : View sig .tc .vmem S1x256x200 .f32 := (Memref.whole cc3_stg3_0 : Memref sig .tc .vmem S1x256x200 .f32).view
abbrev VO3_4 : View sig .tc .vmem S1x256x2 .f32 := (Memref.whole cc3_stg4_0 : Memref sig .tc .vmem S1x256x2 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (WV W c (Pipeline.arrRef spec3 w))

/-! ## What each case leaves -/

/-- After a point: the two center outputs' staging buffers, then the three accumulators. -/
abbrev Outs3 (F : FTy → Type) [FloatOps F] : Type :=
  Vec F S1x256x200 .f32 × Vec F S1x256x2 .f32 × Vec F S256x200 .f32 × Vec F S256x2 .f32 × Vec F S256x1 .f32

/-- The first-tile run at point `t`. -/
def runA (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) ((hcond3_0 t).mpr h0) (fun h => by have := (hcond3_1 t).mp h; omega) (iblk3 W c 0 t) (iblk3 W c 1 t) (iblk3 W c 2 t)
/-- The middle-tile run at point `t`, over what the accumulators held. -/
def runB (c : Dev nD) (t : Fin cfg3.N) (h0 : ¬t.val % 4 = 0) (h1 : ¬t.val % 4 = 3) (p : Outs3 F) :=
  kernelRun3_B (F := F) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (fun h => h1 ((hcond3_1 t).mp h)) (iblk3 W c 0 t) (iblk3 W c 1 t) (iblk3 W c 2 t) p.2.2.1 p.2.2.2.1 p.2.2.2.2
/-- The last-tile run at point `t`, over what the accumulators held. -/
def runC (c : Dev nD) (t : Fin cfg3.N) (h0 : ¬t.val % 4 = 0) (h1 : t.val % 4 = 3) (p : Outs3 F) :=
  kernelRun3_C (F := F) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 W c 0 t) (iblk3 W c 1 t) (iblk3 W c 2 t) p.2.2.1 p.2.2.2.1 p.2.2.2.2

/-- The first tile stores nothing into the outputs (placeholders nothing consults) and leaves each accumulator at
    its pieces read back. -/
def stepA (c : Dev nD) (t : Fin cfg3.N) (h0 : t.val % 4 = 0) : Outs3 F :=
  (VO3_3.read (Elt F) VO3_3.junk, VO3_4.read (Elt F) VO3_4.junk,
   VS3_0.read (Elt F) (VS3_0.writes (Elt F) VS3_0.junk (runA W c t h0).1),
   VS3_1.read (Elt F) (VS3_1.writes (Elt F) VS3_1.junk (runA W c t h0).2.1),
   VS3_2.read (Elt F) (VS3_2.writes (Elt F) VS3_2.junk (runA W c t h0).2.2.1))
/-- A middle tile likewise, over the previous contents. -/
def stepB (c : Dev nD) (t : Fin cfg3.N) (h0 : ¬t.val % 4 = 0) (h1 : ¬t.val % 4 = 3) (p : Outs3 F) : Outs3 F :=
  (VO3_3.read (Elt F) VO3_3.junk, VO3_4.read (Elt F) VO3_4.junk,
   VS3_0.read (Elt F) (VS3_0.writes (Elt F) VS3_0.junk (runB W c t h0 h1 p).1),
   VS3_1.read (Elt F) (VS3_1.writes (Elt F) VS3_1.junk (runB W c t h0 h1 p).2.1),
   VS3_2.read (Elt F) (VS3_2.writes (Elt F) VS3_2.junk (runB W c t h0 h1 p).2.2.1))
/-- The last tile also stores the two quotients. -/
def stepC (c : Dev nD) (t : Fin cfg3.N) (h0 : ¬t.val % 4 = 0) (h1 : t.val % 4 = 3) (p : Outs3 F) : Outs3 F :=
  (VO3_3.read (Elt F) (VO3_3.writes (Elt F) VO3_3.junk (runC W c t h0 h1 p).1),
   VO3_4.read (Elt F) (VO3_4.writes (Elt F) VO3_4.junk (runC W c t h0 h1 p).2.1),
   VS3_0.read (Elt F) (VS3_0.writes (Elt F) VS3_0.junk (runC W c t h0 h1 p).2.2.1),
   VS3_1.read (Elt F) (VS3_1.writes (Elt F) VS3_1.junk (runC W c t h0 h1 p).2.2.2.1),
   VS3_2.read (Elt F) (VS3_2.writes (Elt F) VS3_2.junk (runC W c t h0 h1 p).2.2.2.2.1))

/-! ## Every store is whole: each case's pieces cover their buffer -/

theorem coverA_7 (c : Dev nD) (t : Fin cfg3.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg3.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg3.N) (h0 : t.val % 4 = 0) (y : S256x1.Idx) : ∃ pc ∈ (runA W c t h0).2.2.1, y ∈ pc.1.set :=
  View.cover_of_tiledL (runA W c t h0).2.2.1 S256x1.size (by sl_kernel_rfl) y
theorem coverB_7 (c : Dev nD) (t : Fin cfg3.N) (h0 : ¬t.val % 4 = 0) (h1 : ¬t.val % 4 = 3) (p : Outs3 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg3.N) (h0 : ¬t.val % 4 = 0) (h1 : ¬t.val % 4 = 3) (p : Outs3 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg3.N) (h0 : ¬t.val % 4 = 0) (h1 : ¬t.val % 4 = 3) (p : Outs3 F) (y : S256x1.Idx) : ∃ pc ∈ (runB W c t h0 h1 p).2.2.1, y ∈ pc.1.set :=
  View.cover_of_tiledL (runB W c t h0 h1 p).2.2.1 S256x1.size (by sl_kernel_rfl) y
theorem coverC_5 (c : Dev nD) (t : Fin cfg3.N) (h0 : ¬t.val % 4 = 0) (h1 : t.val % 4 = 3) (p : Outs3 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg3.N) (h0 : ¬t.val % 4 = 0) (h1 : t.val % 4 = 3) (p : Outs3 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg3.N) (h0 : ¬t.val % 4 = 0) (h1 : t.val % 4 = 3) (p : Outs3 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg3.N) (h0 : ¬t.val % 4 = 0) (h1 : t.val % 4 = 3) (p : Outs3 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg3.N) (h0 : ¬t.val % 4 = 0) (h1 : t.val % 4 = 3) (p : Outs3 F) (y : S256x1.Idx) : ∃ pc ∈ (runC W c t h0 h1 p).2.2.2.2.1, y ∈ pc.1.set :=
  View.cover_of_tiledL (runC W c t h0 h1 p).2.2.2.2.1 S256x1.size (by sl_kernel_rfl) y

/-! ## The accumulation, point by point -/

/-- What the five written buffers hold after the body at position `n`: the case `n mod 4` selects, run at the
    point's memrefs and input blocks, a later tile over what position `n - 1` left in the accumulators. -/
def outsAt3 (c : Dev nD) : (n : ℕ) → n < cfg3.N → Outs3 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt3 c n (Nat.lt_of_succ_lt hn))
    else stepB W c ⟨n + 1, hn⟩ h0 h1 (outsAt3 c n (Nat.lt_of_succ_lt hn))

theorem outsAt3_A (c : Dev nD) (t : Fin cfg3.N) (h0 : t.val % 4 = 0) :
    outsAt3 W c t.val t.isLt = stepA W c t h0 := by
  obtain ⟨n, hn⟩ := t
  cases n with
  | zero => rfl
  | succ n => exact dif_pos h0

theorem outsAt3_B (c : Dev nD) (t : Fin cfg3.N) (h0 : ¬t.val % 4 = 0) (h1 : ¬t.val % 4 = 3) :
    outsAt3 W c t.val t.isLt = stepB W c t h0 h1 (outsAt3 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 4 = 0) (h1 : t.val % 4 = 3) :
    outsAt3 W c t.val t.isLt = stepC W c t h0 h1 (outsAt3 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg3.N → sProp 𝕄
  | 0, _ => iprop((∃ d, owns (c : Thread nD τ) scM3_0 fullShare d) ∗ (∃ d, owns (c : Thread nD τ) scM3_1 fullShare d) ∗ (∃ d, owns (c : Thread nD τ) scM3_2 fullShare d)
      ∗ Pipeline.scopedRestBut (Ix := Unit) (Name := ℕ) (U := UR sig nD τ) (Lvl := ℕ) (Val := Elt F) spec3 c [cc3_scratch0, cc3_scratch1, cc3_scratch2])
  | n + 1, hn => iprop(owns (c : Thread nD τ) scM3_0 fullShare (outsAt3 W c n hn).2.2.1 ∗ owns (c : Thread nD τ) scM3_1 fullShare (outsAt3 W c n hn).2.2.2.1
      ∗ owns (c : Thread nD τ) scM3_2 fullShare (outsAt3 W c n hn).2.2.2.2
      ∗ Pipeline.scopedRestBut (Ix := Unit) (Name := ℕ) (U := UR sig nD τ) (Lvl := ℕ) (Val := Elt F) spec3 c [cc3_scratch0, cc3_scratch1, cc3_scratch2])

theorem PhiS_zero (c : Dev nD) (n : ℕ) (h : n ≤ cfg3.N) (hz : n = 0) :
    PhiS W c n h = iprop((∃ d, owns (c : Thread nD τ) scM3_0 fullShare d) ∗ (∃ d, owns (c : Thread nD τ) scM3_1 fullShare d) ∗ (∃ d, owns (c : Thread nD τ) scM3_2 fullShare d)
      ∗ Pipeline.scopedRestBut (Ix := Unit) (Name := ℕ) (U := UR sig nD τ) (Lvl := ℕ) (Val := Elt F) spec3 c [cc3_scratch0, cc3_scratch1, cc3_scratch2]) := by
  subst hz; rfl

theorem PhiS_succ (c : Dev nD) (n : ℕ) (hn : n < cfg3.N) :
    PhiS W c (n + 1) hn = iprop(owns (c : Thread nD τ) scM3_0 fullShare (outsAt3 W c n hn).2.2.1 ∗ owns (c : Thread nD τ) scM3_1 fullShare (outsAt3 W c n hn).2.2.2.1
      ∗ owns (c : Thread nD τ) scM3_2 fullShare (outsAt3 W c n hn).2.2.2.2
      ∗ Pipeline.scopedRestBut (Ix := Unit) (Name := ℕ) (U := UR sig nD τ) (Lvl := ℕ) (Val := Elt F) spec3 c [cc3_scratch0, cc3_scratch1, cc3_scratch2]) := rfl

theorem PhiS_pos (c : Dev nD) (n : ℕ) (h : n ≤ cfg3.N) (hz : n ≠ 0) :
    PhiS W c n h = iprop(owns (c : Thread nD τ) scM3_0 fullShare (outsAt3 W c (n - 1) (by omega)).2.2.1 ∗ owns (c : Thread nD τ) scM3_1 fullShare (outsAt3 W c (n - 1) (by omega)).2.2.2.1
      ∗ owns (c : Thread nD τ) scM3_2 fullShare (outsAt3 W c (n - 1) (by omega)).2.2.2.2
      ∗ Pipeline.scopedRestBut (Ix := Unit) (Name := ℕ) (U := UR sig nD τ) (Lvl := ℕ) (Val := Elt F) spec3 c [cc3_scratch0, cc3_scratch1, cc3_scratch2]) := by
  cases n with
  | zero => exact absurd rfl hz
  | succ n => rfl

/-! ## The proof data -/

/-- The proof data of round four on core `c`: the arrays as the region finds them; after the body at point `t`
    each input's buffer at its block and the outputs' at the accumulation's components; the invariant above;
    nothing owed; full shares. -/
def dat3 (c : Dev nD) : Dat τ (Elt F) Unit ℕ (UR sig nD τ) ℕ cfg3 c where
  A w := WV W c (Pipeline.arrRef spec3 w)
  after w t := match w with
    | ⟨0, _⟩ => iblk3 W c 0 t
    | ⟨1, _⟩ => iblk3 W c 1 t
    | ⟨2, _⟩ => iblk3 W c 2 t
    | ⟨3, _⟩ => (outsAt3 W c t.val t.isLt).1
    | ⟨4, _⟩ => (outsAt3 W c t.val t.isLt).2.1
  Φ t := PhiS W c t.val (Nat.le_of_lt_succ t.isLt)
  q _ := fullShare
  owed _ := 0

theorem A_eq (c : Dev nD) (w : Fin cfg3.W) : (dat3 W c).A w = WV W c (Pipeline.arrRef spec3 w) := by
  dsimp only [dat3]

theorem PhiS_castSucc (c : Dev nD) (t : Fin cfg3.N) :
    (dat3 W c).Φ t.castSucc = PhiS W c t.val (Nat.le_of_lt t.isLt) := by
  dsimp only [dat3]; simp only [Fin.coe_castSucc]

theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = iblk3 W c 2 t := by dsimp only [dat3]
theorem after3_3 (c : Dev nD) (t : Fin cfg3.N) : (dat3 W c).after 3 t = (outsAt3 W c t.val t.isLt).1 := by dsimp only [dat3]
theorem after3_4 (c : Dev nD) (t : Fin cfg3.N) : (dat3 W c).after 4 t = (outsAt3 W c t.val t.isLt).2.1 := by dsimp only [dat3]

/-- Each input's current staging buffer holds its block at every point, fetched there or not. -/
theorem before3_0 (c : Dev nD) (t : Fin cfg3.N) (d) : (dat3 W c).before 0 t d = iblk3 W c 0 t :=
  ((dat3 W c).before_in_eq_fetched 0 rfl (fun _ => rfl) (fun _ _ _ => rfl) (fun t => by rw [after3_0]; unfold Dat.blockOf iblk3; rw [A_eq]; try rfl) t d).trans
    (by unfold Dat.fetched Dat.blockOf iblk3; rw [A_eq]; try rfl)
theorem before3_1 (c : Dev nD) (t : Fin cfg3.N) (d) : (dat3 W c).before 1 t d = iblk3 W c 1 t :=
  ((dat3 W c).before_in_eq_fetched 1 rfl (fun _ => rfl) (fun _ _ _ => rfl) (fun t => by rw [after3_1]; unfold Dat.blockOf iblk3; rw [A_eq]; try rfl) t d).trans
    (by unfold Dat.fetched Dat.blockOf iblk3; rw [A_eq]; try rfl)
theorem before3_2 (c : Dev nD) (t : Fin cfg3.N) (d) : (dat3 W c).before 2 t d = iblk3 W c 2 t :=
  ((dat3 W c).before_in_eq_fetched 2 rfl (fun _ => rfl) (fun _ _ _ => rfl) (fun t => by rw [after3_2]; unfold Dat.blockOf iblk3; rw [A_eq]; try rfl) t d).trans
    (by unfold Dat.fetched Dat.blockOf iblk3; rw [A_eq]; try rfl)

/-! ## The body obligation, at a generic point -/

/-- What the body is called with at point `t`: the invariant, the core's dues, each window's current buffer. -/
def bodyPre (c : Dev nD) (t : Fin cfg3.N) : sProp 𝕄 :=
  iprop((dat3 W c).Φ t.castSucc ∗ (dat3 W c).owesAt () t.castSucc
    ∗ (∃ d, owns (c : Thread nD τ) (ms3_0 t) fullShare ((dat3 W c).before 0 t d))
    ∗ (∃ d, owns (c : Thread nD τ) (ms3_1 t) fullShare ((dat3 W c).before 1 t d))
    ∗ (∃ d, owns (c : Thread nD τ) (ms3_2 t) fullShare ((dat3 W c).before 2 t d))
    ∗ (∃ d, owns (c : Thread nD τ) (ms3_3 t) fullShare ((dat3 W c).before 3 t d))
    ∗ (∃ d, owns (c : Thread nD τ) (ms3_4 t) fullShare ((dat3 W c).before 4 t d)))

/-- and what it returns. -/
def bodyPost (c : Dev nD) (t : Fin cfg3.N) : sProp 𝕄 :=
  iprop((dat3 W c).Φ t.succ ∗ (dat3 W c).owesAt () t.succ
    ∗ (dat3 W c).leavesExact 0 t ∗ (dat3 W c).leavesExact 1 t ∗ (dat3 W c).leavesExact 2 t
    ∗ (dat3 W c).leavesExact 3 t ∗ (dat3 W c).leavesExact 4 t)

set_option maxHeartbeats 4800000 in
/-- The body at any point. The inputs' buffers hold their blocks; `t mod 4` says which case the point is in; the
    invariant hands the body the accumulators at what the point before left (at anything before the very first
    point) and takes them back at this point's contents, each store being whole; before the last tile the two
    outputs go back as found, at the last tile at the quotients; the core owes nothing throughout. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before3_0, before3_1, before3_2]
  rw [show (dat3 W c).owesAt () t.succ = (dat3 W c).owesAt () t.castSucc from rfl]
  rw [show (dat3 W c).Φ t.succ = PhiS W c (t.val + 1) t.isLt from rfl, PhiS_succ]
  have hN : t.val < 16 := lt_of_lt_of_eq t.isLt (show cfg3.N = 16 from N_3)
  rw [show (dat3 W c).leavesExact 0 t = owns (c : Thread nD τ) (ms3_0 t) fullShare ((dat3 W c).after 0 t) from by
    unfold Dat.leavesExact; rw [liveAt3_0 t], after3_0]
  rw [show (dat3 W c).leavesExact 1 t = owns (c : Thread nD τ) (ms3_1 t) fullShare ((dat3 W c).after 1 t) from by
    unfold Dat.leavesExact; rw [liveAt3_1 t], after3_1]
  rw [show (dat3 W c).leavesExact 2 t = owns (c : Thread nD τ) (ms3_2 t) fullShare ((dat3 W c).after 2 t) from by
    unfold Dat.leavesExact; rw [liveAt3_2 t], after3_2]
  by_cases h0 : t.val % 4 = 0
  · have h1 : ¬t.val % 4 = 3 := by omega
    have hn1 : ¬cond3_1 (grid3.coords t) := fun h => h1 ((hcond3_1 t).mp h)
    rw [Dat.leavesExact_idle (dat3 W c) 3 t (idleAt3_3 t hn1) (noFlush3_3 t hn1),
      Dat.leavesExact_idle (dat3 W c) 4 t (idleAt3_4 t hn1) (noFlush3_4 t hn1)]
    rw [outsAt3_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runA W c t h0).2.2.2 _ _ Set.univ _)
      isplitl [H0]; · iexact H0
      isplitl [H1]; · iexact H1
      isplitl [H2]; · iexact H2
      isplitl [H3]; · iexact H3
      isplitl [H4]; · iexact H4
      isplitl [H7]; · iexists _; iexact H7
      isplitl [H8]; · iexists _; iexact H8
      isplitl [H9]; · iexists _; iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun e => h0 (by rw [e])
    by_cases h1 : t.val % 4 = 3
    · have hy1 : cond3_1 (grid3.coords t) := (hcond3_1 t).mpr h1
      rw [show (dat3 W c).leavesExact 3 t = owns (c : Thread nD τ) (ms3_3 t) fullShare ((dat3 W c).after 3 t) from by
        unfold Dat.leavesExact; rw [liveAt3_3 t hy1], after3_3]
      rw [show (dat3 W c).leavesExact 4 t = owns (c : Thread nD τ) (ms3_4 t) fullShare ((dat3 W c).after 4 t) from by
        unfold Dat.leavesExact; rw [liveAt3_4 t hy1], after3_4]
      rw [outsAt3_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runC W c t h0 h1 (outsAt3 W c (t.val - 1) (Nat.lt_of_le_of_lt (Nat.sub_le _ _) t.isLt))).2.2.2.2.2 Set.univ _)
      isplitl [H0]; · iexact H0
      isplitl [H1]; · iexact H1
      isplitl [H2]; · iexact H2
      isplitl [H3]; · iexists _; iexact H3
      isplitl [H4]; · iexists _; iexact H4
      isplitl [H7]; · iexact H7
      isplitl [H8]; · iexact H8
      isplitl [H9]; · iexact H9
      iintro ⟨H0, H1, H2, ⟨%e3, H3⟩, ⟨%e4, H4⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      unfold owns; iexists _; isplitr
      swap; · iexact H4
      ipureintro; exact View.read_writes_of_cover _ _ _ _ _ (coverC_6 W c t h0 h1 _)
    · have hn1 : ¬cond3_1 (grid3.coords t) := fun h => h1 ((hcond3_1 t).mp h)
      rw [Dat.leavesExact_idle (dat3 W c) 3 t (idleAt3_3 t hn1) (noFlush3_3 t hn1),
        Dat.leavesExact_idle (dat3 W c) 4 t (idleAt3_4 t hn1) (noFlush3_4 t hn1)]
      rw [outsAt3_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩⟩
      iapply ((runB W c t h0 h1 (outsAt3 W c (t.val - 1) (Nat.lt_of_le_of_lt (Nat.sub_le _ _) t.isLt))).2.2.2 _ _ Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dat3 (F := F) W c) (defs₀ (F := F)) Variants.none () Set.univ := fun t => by
  rw [bigSep_W3, bigSep_W3]
  exact sound_body W c t

end Cert.Kernel.Slic.R3

end
-- ==== Proof.K4Kit.lean ====
/-
  Round five of the kernel as printed (the fifth pallas_call): the facts about its 4 x 4 grid that the
  body's proof is written over. A point t = 4 b + n is tile n of batch b. The body resets its three
  accumulators when n = 0 and divides them by the accumulated mass into the two center outputs when
  n = 3; at the other tiles it only accumulates. The two center outputs are therefore idle, and not
  written back, at every point with n < 3, and live and written back at n = 3; the three inputs are
  never idle. This round has a sixth window, the assignment output: the body stores it whole at every
  point, so it is never idle and is written back at every point.
-/
import proofs.«138879_j15556371546814_2_alg».proof.Proof.Gen.Kernel.Launch
import proofs.«138879_j15556371546814_2_alg».proof.Proof.Gen.Kernel.Points
import proofs.«138879_j15556371546814_2_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.FrameBody

noncomputable section

namespace Cert.Kernel.Slic

open Cert.Kernel Cert.Kernel.Gen
open Idealize.ShloMosaic Idealize.ShloMosaic.TcCoe
open Idealize.SL Idealize.SL.Sem

variable {F : FTy → Type} [FloatOps F]

/-! ## The two branch conditions, in closed form over the grid -/

/-- The reset branch is taken: the tile coordinate is zero. -/
abbrev cond4_0 (i : grid4.Coords) : Prop :=
  (Scalar.cmpi .ne (Scalar.extui (Scalar.cmpi .eq (BitVec.ofNat 32 (i 1).val) 0#32)) 0#32) = 1#1

/-- The reset branch is taken exactly at the first tile of a batch. -/
theorem hcond4_0 : ∀ t : Fin cfg4.N, cond4_0 (grid4.coords t) ↔ t.val % 4 = 0 :=
  (by decide +kernel : ∀ t : Fin grid4.N, cond4_0 (grid4.coords t) ↔ t.val % 4 = 0)

/-- The finalize branch is taken: the tile coordinate is three. -/
abbrev cond4_1 (i : grid4.Coords) : Prop := k4_cond2 i = 1#1

/-- The finalize branch is taken exactly at the last tile of a batch. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle, and where the outputs are written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- Before the last tile the spectral-center output is idle and is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last tile it is live. -/
theorem liveAt4_3 : ∀ t : Fin cfg4.N, cond4_1 (grid4.coords t) → cfg4.idle 3 (grid4.coords t) = false := by decide +kernel

/-- The same of the spatial-center output. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-- The assignment output is live at every point. -/
theorem liveAt4_5 : ∀ t : Fin cfg4.N, cfg4.idle 5 (grid4.coords t) = false := by decide +kernel

/-! ## The memrefs the body is called with -/

/-- Each window's current staging memref at point `t`, and that it is a whole buffer. -/
abbrev ms4_0 (t : Fin cfg4.N) : Memref sig .tc .vmem S1x4096x200 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256x200 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256x200 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x4096x256 .f32 := win4_5.stage (cfg4.slots t 5)
abbrev hs4_5 (t : Fin cfg4.N) : (ms4_5 t).IsWhole := hstage4_5 ((cfg4.slots t 5).cast nbuf4_5)

/-- The three accumulators: whole scoped buffers of the kernel's own (K x C, K x 2, K x 1). -/
abbrev scM4_0 : Memref sig .tc .vmem S256x200 .f32 := Memref.whole cc4_scratch0
abbrev scM4_1 : Memref sig .tc .vmem S256x2 .f32 := Memref.whole cc4_scratch1
abbrev scM4_2 : Memref sig .tc .vmem S256x1 .f32 := Memref.whole cc4_scratch2

end Cert.Kernel.Slic

end
-- ==== Proof.K4RunA.lean ====
/-
  Round five of the kernel as printed, the body at the FIRST tile of a batch: the three accumulators are
  reset to zero, this tile's assignment is stored whole into the assignment output and its partial sums
  are added; the finalize branch is not taken, so the two center outputs are not touched. From the three
  inputs at their blocks, the two center outputs at whatever they hold, the assignment output and the
  accumulators at anything, the body runs to its return with the inputs and the center outputs as found
  and the assignment output and each accumulator overwritten by the pieces the run finds (they do not
  depend on what those buffers held).
-/
import proofs.«138879_j15556371546814_2_alg».proof.Proof.K4Kit

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first-tile run: the pieces each accumulator and the assignment output end with are the witness. -/
noncomputable def kernelRun4_A (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : cond4_0 i) (hc1 : ¬cond4_1 i)
    (x0 : Vec F S1x4096x200 .bf16) (x1 : Vec F S1x256x200 .f32) (x2 : Vec F S1x256x2 .f32) :
    Σ' (L7 : List (View.Piece (Elt F) S256x200 .f32)) (L8 : List (View.Piece (Elt F) S256x2 .f32))
       (L9 : List (View.Piece (Elt F) S256x1 .f32)), { LQ : List (View.Piece (Elt F) S1x4096x256 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) arg7 fullShare d)
            ∗ (∃ d, owns (c : Thread nD τ) scM4_0 fullShare d) ∗ (∃ d, owns (c : Thread nD τ) scM4_1 fullShare d) ∗ (∃ d, owns (c : Thread nD τ) scM4_2 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, fun y3 y4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H7]
    · iexists _; iexact H7
    isplitl [H8]
    · iexists _; iexact H8
    iexists _; iexact H9

end Cert.Kernel.Slic

end
-- ==== Proof.K4RunB.lean ====
/-
  Round five of the kernel as printed, the body at a MIDDLE tile of a batch (neither the first nor the
  last): neither branch is taken. This tile's assignment is stored whole into the assignment output and
  its partial sums are added to the three accumulators, which arrive holding what the tile before left;
  the two center outputs are not touched.
-/
import proofs.«138879_j15556371546814_2_alg».proof.Proof.K4RunA

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The middle-tile run: the pieces each accumulator and the assignment output end with, as found, are
    functions of the three input blocks and of what the accumulators held. -/
noncomputable def kernelRun4_B (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : ¬cond4_0 i) (hc1 : ¬cond4_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L7 : List (View.Piece (Elt F) S256x200 .f32)) (L8 : List (View.Piece (Elt F) S256x2 .f32))
       (L9 : List (View.Piece (Elt F) S256x1 .f32)), { LQ : List (View.Piece (Elt F) S1x4096x256 .f32) //
      ∀ (y3 : Vec F S1x256x200 .f32) (y4 : Vec F S1x256x2 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ (∃ d, owns (c : Thread nD τ) arg7 fullShare d)
            ∗ owns (c : Thread nD τ) scM4_0 fullShare xs7 ∗ owns (c : Thread nD τ) scM4_1 fullShare xs8 ∗ owns (c : Thread nD τ) scM4_2 fullShare xs9
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, fun y3 y4 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := (Memref.isWhole_whole _ : scM4_0.IsWhole).eq_unread hf7
    obtain rfl := (Memref.isWhole_whole _ : scM4_1.IsWhole).eq_unread hf8
    obtain rfl := (Memref.isWhole_whole _ : scM4_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H7]
    · iexists _; iexact H7
    isplitl [H8]
    · iexists _; iexact H8
    iexists _; iexact H9

end Cert.Kernel.Slic

end
-- ==== Proof.K4RunC.lean ====
/-
  Round five of the kernel as printed, the body at the LAST tile of a batch: the reset is not taken, this
  tile's assignment is stored whole into the assignment output, its partial sums are added to the
  accumulators, and the finalize branch divides the spectral and the spatial accumulator by the
  accumulated mass plus 1e-6 and stores the two quotients, whole, into the two center outputs.
-/
import proofs.«138879_j15556371546814_2_alg».proof.Proof.K4RunB

set_option maxRecDepth 16384

noncomputable section

namespace Cert.Kernel.Slic

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last-tile run: the pieces the two center outputs, the assignment output and the three accumulators
    end with, as found, are functions of the three input blocks and of what the accumulators held. -/
noncomputable def kernelRun4_C (c : Dev nD) (i : grid4.Coords)
    (arg2 : Memref sig .tc .vmem S1x4096x200 .bf16) (harg2 : arg2.IsWhole)
    (arg3 : Memref sig .tc .vmem S1x256x200 .f32) (harg3 : arg3.IsWhole)
    (arg4 : Memref sig .tc .vmem S1x256x2 .f32) (harg4 : arg4.IsWhole)
    (arg5 : Memref sig .tc .vmem S1x256x200 .f32) (harg5 : arg5.IsWhole)
    (arg6 : Memref sig .tc .vmem S1x256x2 .f32) (harg6 : arg6.IsWhole)
    (arg7 : Memref sig .tc .vmem S1x4096x256 .f32) (harg7 : arg7.IsWhole)
    (hc0 : ¬cond4_0 i) (hc1 : cond4_1 i)
    (x0 : Vec F S1x4096x200 .bf16) (x1 : Vec F S1x256x200 .f32) (x2 : Vec F S1x256x2 .f32)
    (xs7 : Vec F S256x200 .f32) (xs8 : Vec F S256x2 .f32) (xs9 : Vec F S256x1 .f32) :
    Σ' (L5 : List (View.Piece (Elt F) S1x256x200 .f32)) (L6 : List (View.Piece (Elt F) S1x256x2 .f32))
       (L7 : List (View.Piece (Elt F) S256x200 .f32)) (L8 : List (View.Piece (Elt F) S256x2 .f32))
       (L9 : List (View.Piece (Elt F) S256x1 .f32)), { LQ : List (View.Piece (Elt F) S1x4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d)
            ∗ owns (c : Thread nD τ) scM4_0 fullShare xs7 ∗ owns (c : Thread nD τ) scM4_1 fullShare xs8 ∗ owns (c : Thread nD τ) scM4_2 fullShare xs9
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LQ)
                ∗ (∃ f, scM4_0.view.loc (c : Thread nD τ) ↦[scM4_0.view.set]{fullShare} scM4_0.view.writes (Elt F) f L7)
                ∗ (∃ f, scM4_1.view.loc (c : Thread nD τ) ↦[scM4_1.view.set]{fullShare} scM4_1.view.writes (Elt F) f L8)
                ∗ (∃ f, scM4_2.view.loc (c : Thread nD τ) ↦[scM4_2.view.set]{fullShare} scM4_2.view.writes (Elt F) f L9)) -∗ K ⟨⟩))
          ⊢ wp frame (wpE (defs₀ (F := F)) Variants.none c none) E (cc4_kernel i arg2 harg2 arg3 harg3 arg4 harg4 arg5 harg5 arg6 harg6 arg7 harg7 scM4_0 (Memref.isWhole_whole _) scM4_1 (Memref.isWhole_whole _) scM4_2 (Memref.isWhole_whole _)) K } := by
  refine ⟨?_, ?_, ?_, ?_, ?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := (Memref.isWhole_whole _ : scM4_0.IsWhole).eq_unread hf7
    obtain rfl := (Memref.isWhole_whole _ : scM4_1.IsWhole).eq_unread hf8
    obtain rfl := (Memref.isWhole_whole _ : scM4_2.IsWhole).eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H5]
    · iexists _; iexact H5
    isplitl [H7]
    · iexists _; iexact H7
    isplitl [H8]
    · iexists _; iexact H8
    iexists _; iexact H9

end Cert.Kernel.Slic

end
-- ==== Proof.K4Dat.lean ====
/-
  Round five of the kernel as printed: what the body's six written buffers hold after every grid point,
  the invariant carried between points, and the body obligation.

  A point t = 4 b + n is tile n of batch b. After the first tile of a batch the three accumulators hold
  that tile's partial sums (spectral numerator K x C, spatial numerator K x 2, mass K x 1); after each
  later tile, the previous contents plus the tile's; at the last tile the two center outputs receive the
  numerators divided by mass + 1e-6. At every tile the assignment output receives, whole, the tile's
  assignment, which the body computes from the three input blocks and the tile index. So the contents
  after point t are defined by recursion on t, the case chosen by t mod 4, each case's contents being what
  that case's run of the body found. The three inputs' staging buffers hold their blocks at every point,
  fetched there or not (the two center inputs are fetched once per batch and their index does not move
  within it). The two center outputs are idle before the last tile: the body hands their buffers back as
  it found them. The assignment output is live at every point.

  Everything is stated over a valuation W of the unscoped buffers as the region finds them.
-/
import proofs.«138879_j15556371546814_2_alg».proof.Proof.K4RunC
import Idealize.ShloMosaic.Lib.Ring

set_option maxRecDepth 16384

noncomputable section

namespace Cert.Kernel.Slic.R4

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## Views and blocks -/

/-- The three accumulators as views: what each holds is stated through them. -/
abbrev VS4_0 : View sig .tc .vmem S256x200 .f32 := scM4_0.view
abbrev VS4_1 : View sig .tc .vmem S256x2 .f32 := scM4_1.view
abbrev VS4_2 : View sig .tc .vmem S256x1 .f32 := scM4_2.view
/-- One staging buffer of each center output, through which its contents are stated (the choice does not matter). -/
abbrev VO4_3 : View sig .tc .vmem S1x256x200 .f32 := (Memref.whole cc4_stg3_0 : Memref sig .tc .vmem S1x256x200 .f32).view
abbrev VO4_4 : View sig .tc .vmem S1x256x2 .f32 := (Memref.whole cc4_stg4_0 : Memref sig .tc .vmem S1x256x2 .f32).view
/-- One staging buffer of the assignment output, likewise. -/
abbrev VO4_5 : View sig .tc .vmem S1x4096x256 .f32 := (Memref.whole cc4_stg5_0 : Memref sig .tc .vmem S1x4096x256 .f32).view

/-- The region-entry contents of an unscoped buffer. -/
abbrev WV (c : Dev nD) (b : Ref sig .tc) : Buf (Elt F) ((c : Thread nD τ).loc b) := W c (Proc.devRef .tc b)

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (WV W c (Pipeline.arrRef spec4 w))

/-! ## What each case leaves -/

/-- After a point: the two center outputs' staging buffers, then the three accumulators, then the assignment
    output's staging buffer. -/
abbrev Outs4 (F : FTy → Type) [FloatOps F] : Type :=
  Vec F S1x256x200 .f32 × Vec F S1x256x2 .f32 × Vec F S256x200 .f32 × Vec F S256x2 .f32 × Vec F S256x1 .f32 × Vec F S1x4096x256 .f32

/-- The first-tile run at point `t`. -/
def runA (c : Dev nD) (t : Fin cfg4.N) (h0 : t.val % 4 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (fun h => by have := (hcond4_1 t).mp h; omega) (iblk4 W c 0 t) (iblk4 W c 1 t) (iblk4 W c 2 t)
/-- The middle-tile run at point `t`, over what the accumulators held. -/
def runB (c : Dev nD) (t : Fin cfg4.N) (h0 : ¬t.val % 4 = 0) (h1 : ¬t.val % 4 = 3) (p : Outs4 F) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (fun h => h1 ((hcond4_1 t).mp h)) (iblk4 W c 0 t) (iblk4 W c 1 t) (iblk4 W c 2 t) p.2.2.1 p.2.2.2.1 p.2.2.2.2.1
/-- The last-tile run at point `t`, over what the accumulators held. -/
def runC (c : Dev nD) (t : Fin cfg4.N) (h0 : ¬t.val % 4 = 0) (h1 : t.val % 4 = 3) (p : Outs4 F) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) ((hcond4_1 t).mpr h1) (iblk4 W c 0 t) (iblk4 W c 1 t) (iblk4 W c 2 t) p.2.2.1 p.2.2.2.1 p.2.2.2.2.1

/-- The first tile stores nothing into the center outputs (placeholders nothing consults) and leaves each
    accumulator, and the assignment output, at its pieces read back. -/
def stepA (c : Dev nD) (t : Fin cfg4.N) (h0 : t.val % 4 = 0) : Outs4 F :=
  (VO4_3.read (Elt F) VO4_3.junk, VO4_4.read (Elt F) VO4_4.junk,
   VS4_0.read (Elt F) (VS4_0.writes (Elt F) VS4_0.junk (runA W c t h0).1),
   VS4_1.read (Elt F) (VS4_1.writes (Elt F) VS4_1.junk (runA W c t h0).2.1),
   VS4_2.read (Elt F) (VS4_2.writes (Elt F) VS4_2.junk (runA W c t h0).2.2.1),
   VO4_5.read (Elt F) (VO4_5.writes (Elt F) VO4_5.junk (runA W c t h0).2.2.2.1))
/-- A middle tile likewise, over the previous contents. -/
def stepB (c : Dev nD) (t : Fin cfg4.N) (h0 : ¬t.val % 4 = 0) (h1 : ¬t.val % 4 = 3) (p : Outs4 F) : Outs4 F :=
  (VO4_3.read (Elt F) VO4_3.junk, VO4_4.read (Elt F) VO4_4.junk,
   VS4_0.read (Elt F) (VS4_0.writes (Elt F) VS4_0.junk (runB W c t h0 h1 p).1),
   VS4_1.read (Elt F) (VS4_1.writes (Elt F) VS4_1.junk (runB W c t h0 h1 p).2.1),
   VS4_2.read (Elt F) (VS4_2.writes (Elt F) VS4_2.junk (runB W c t h0 h1 p).2.2.1),
   VO4_5.read (Elt F) (VO4_5.writes (Elt F) VO4_5.junk (runB W c t h0 h1 p).2.2.2.1))
/-- The last tile also stores the two quotients. -/
def stepC (c : Dev nD) (t : Fin cfg4.N) (h0 : ¬t.val % 4 = 0) (h1 : t.val % 4 = 3) (p : Outs4 F) : Outs4 F :=
  (VO4_3.read (Elt F) (VO4_3.writes (Elt F) VO4_3.junk (runC W c t h0 h1 p).1),
   VO4_4.read (Elt F) (VO4_4.writes (Elt F) VO4_4.junk (runC W c t h0 h1 p).2.1),
   VS4_0.read (Elt F) (VS4_0.writes (Elt F) VS4_0.junk (runC W c t h0 h1 p).2.2.1),
   VS4_1.read (Elt F) (VS4_1.writes (Elt F) VS4_1.junk (runC W c t h0 h1 p).2.2.2.1),
   VS4_2.read (Elt F) (VS4_2.writes (Elt F) VS4_2.junk (runC W c t h0 h1 p).2.2.2.2.1),
   VO4_5.read (Elt F) (VO4_5.writes (Elt F) VO4_5.junk (runC W c t h0 h1 p).2.2.2.2.2.1))

/-! ## Every store is whole: each case's pieces cover their buffer -/

theorem coverA_7 (c : Dev nD) (t : Fin cfg4.N) (h0 : t.val % 4 = 0) (y : S256x200.Idx) : ∃ pc ∈ (runA W c t h0).1, y ∈ pc.1.set :=
  View.cover_of_tiledL (runA W c t h0).1 S256x200.size (by sl_kernel_rfl) y
theorem coverA_8 (c : Dev nD) (t : Fin cfg4.N) (h0 : t.val % 4 = 0) (y : S256x2.Idx) : ∃ pc ∈ (runA W c t h0).2.1, y ∈ pc.1.set :=
  View.cover_of_tiledL (runA W c t h0).2.1 S256x2.size (by sl_kernel_rfl) y
theorem coverA_9 (c : Dev nD) (t : Fin cfg4.N) (h0 : t.val % 4 = 0) (y : S256x1.Idx) : ∃ pc ∈ (runA W c t h0).2.2.1, y ∈ pc.1.set :=
  View.cover_of_tiledL (runA W c t h0).2.2.1 S256x1.size (by sl_kernel_rfl) y
theorem coverA_Q (c : Dev nD) (t : Fin cfg4.N) (h0 : t.val % 4 = 0) (y : S1x4096x256.Idx) : ∃ pc ∈ (runA W c t h0).2.2.2.1, y ∈ pc.1.set :=
  View.cover_of_tiledL (runA W c t h0).2.2.2.1 S1x4096x256.size (by sl_kernel_rfl) y
theorem coverB_7 (c : Dev nD) (t : Fin cfg4.N) (h0 : ¬t.val % 4 = 0) (h1 : ¬t.val % 4 = 3) (p : Outs4 F) (y : S256x200.Idx) : ∃ pc ∈ (runB W c t h0 h1 p).1, y ∈ pc.1.set :=
  View.cover_of_tiledL (runB W c t h0 h1 p).1 S256x200.size (by sl_kernel_rfl) y
theorem coverB_8 (c : Dev nD) (t : Fin cfg4.N) (h0 : ¬t.val % 4 = 0) (h1 : ¬t.val % 4 = 3) (p : Outs4 F) (y : S256x2.Idx) : ∃ pc ∈ (runB W c t h0 h1 p).2.1, y ∈ pc.1.set :=
  View.cover_of_tiledL (runB W c t h0 h1 p).2.1 S256x2.size (by sl_kernel_rfl) y
theorem coverB_9 (c : Dev nD) (t : Fin cfg4.N) (h0 : ¬t.val % 4 = 0) (h1 : ¬t.val % 4 = 3) (p : Outs4 F) (y : S256x1.Idx) : ∃ pc ∈ (runB W c t h0 h1 p).2.2.1, y ∈ pc.1.set :=
  View.cover_of_tiledL (runB W c t h0 h1 p).2.2.1 S256x1.size (by sl_kernel_rfl) y
theorem coverB_Q (c : Dev nD) (t : Fin cfg4.N) (h0 : ¬t.val % 4 = 0) (h1 : ¬t.val % 4 = 3) (p : Outs4 F) (y : S1x4096x256.Idx) : ∃ pc ∈ (runB W c t h0 h1 p).2.2.2.1, y ∈ pc.1.set :=
  View.cover_of_tiledL (runB W c t h0 h1 p).2.2.2.1 S1x4096x256.size (by sl_kernel_rfl) y
theorem coverC_5 (c : Dev nD) (t : Fin cfg4.N) (h0 : ¬t.val % 4 = 0) (h1 : t.val % 4 = 3) (p : Outs4 F) (y : S1x256x200.Idx) : ∃ pc ∈ (runC W c t h0 h1 p).1, y ∈ pc.1.set :=
  View.cover_of_tiledL (runC W c t h0 h1 p).1 S1x256x200.size (by sl_kernel_rfl) y
theorem coverC_6 (c : Dev nD) (t : Fin cfg4.N) (h0 : ¬t.val % 4 = 0) (h1 : t.val % 4 = 3) (p : Outs4 F) (y : S1x256x2.Idx) : ∃ pc ∈ (runC W c t h0 h1 p).2.1, y ∈ pc.1.set :=
  View.cover_of_tiledL (runC W c t h0 h1 p).2.1 S1x256x2.size (by sl_kernel_rfl) y
theorem coverC_7 (c : Dev nD) (t : Fin cfg4.N) (h0 : ¬t.val % 4 = 0) (h1 : t.val % 4 = 3) (p : Outs4 F) (y : S256x200.Idx) : ∃ pc ∈ (runC W c t h0 h1 p).2.2.1, y ∈ pc.1.set :=
  View.cover_of_tiledL (runC W c t h0 h1 p).2.2.1 S256x200.size (by sl_kernel_rfl) y
theorem coverC_8 (c : Dev nD) (t : Fin cfg4.N) (h0 : ¬t.val % 4 = 0) (h1 : t.val % 4 = 3) (p : Outs4 F) (y : S256x2.Idx) : ∃ pc ∈ (runC W c t h0 h1 p).2.2.2.1, y ∈ pc.1.set :=
  View.cover_of_tiledL (runC W c t h0 h1 p).2.2.2.1 S256x2.size (by sl_kernel_rfl) y
theorem coverC_9 (c : Dev nD) (t : Fin cfg4.N) (h0 : ¬t.val % 4 = 0) (h1 : t.val % 4 = 3) (p : Outs4 F) (y : S256x1.Idx) : ∃ pc ∈ (runC W c t h0 h1 p).2.2.2.2.1, y ∈ pc.1.set :=
  View.cover_of_tiledL (runC W c t h0 h1 p).2.2.2.2.1 S256x1.size (by sl_kernel_rfl) y
theorem coverC_Q (c : Dev nD) (t : Fin cfg4.N) (h0 : ¬t.val % 4 = 0) (h1 : t.val % 4 = 3) (p : Outs4 F) (y : S1x4096x256.Idx) : ∃ pc ∈ (runC W c t h0 h1 p).2.2.2.2.2.1, y ∈ pc.1.set :=
  View.cover_of_tiledL (runC W c t h0 h1 p).2.2.2.2.2.1 S1x4096x256.size (by sl_kernel_rfl) y

/-! ## The accumulation, point by point -/

/-- What the six written buffers hold after the body at position `n`: the case `n mod 4` selects, run at the
    point's memrefs and input blocks, a later tile over what position `n - 1` left in the accumulators. -/
def outsAt4 (c : Dev nD) : (n : ℕ) → n < cfg4.N → Outs4 F
  | 0, hn => stepA W c ⟨0, hn⟩ (Nat.zero_mod _)
  | n + 1, hn =>
    if h0 : (n + 1) % 4 = 0 then stepA W c ⟨n + 1, hn⟩ h0
    else if h1 : (n + 1) % 4 = 3 then stepC W c ⟨n + 1, hn⟩ h0 h1 (outsAt4 c n (Nat.lt_of_succ_lt hn))
    else stepB W c ⟨n + 1, hn⟩ h0 h1 (outsAt4 c n (Nat.lt_of_succ_lt hn))

theorem outsAt4_A (c : Dev nD) (t : Fin cfg4.N) (h0 : t.val % 4 = 0) :
    outsAt4 W c t.val t.isLt = stepA W c t h0 := by
  obtain ⟨n, hn⟩ := t
  cases n with
  | zero => rfl
  | succ n => exact dif_pos h0

theorem outsAt4_B (c : Dev nD) (t : Fin cfg4.N) (h0 : ¬t.val % 4 = 0) (h1 : ¬t.val % 4 = 3) :
    outsAt4 W c t.val t.isLt = stepB W c t h0 h1 (outsAt4 W c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt4_C (c : Dev nD) (t : Fin cfg4.N) (h0 : ¬t.val % 4 = 0) (h1 : t.val % 4 = 3) :
    outsAt4 W c t.val t.isLt = stepC W c t h0 h1 (outsAt4 W c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the three accumulators hold anything; after point `n` they hold what it left. The other
    scoped buffers ride along unopened. -/
def PhiS (c : Dev nD) : (n : ℕ) → n ≤ cfg4.N → sProp 𝕄
  | 0, _ => iprop((∃ d, owns (c : Thread nD τ) scM4_0 fullShare d) ∗ (∃ d, owns (c : Thread nD τ) scM4_1 fullShare d) ∗ (∃ d, owns (c : Thread nD τ) scM4_2 fullShare d)
      ∗ Pipeline.scopedRestBut (Ix := Unit) (Name := ℕ) (U := UR sig nD τ) (Lvl := ℕ) (Val := Elt F) spec4 c [cc4_scratch0, cc4_scratch1, cc4_scratch2])
  | n + 1, hn => iprop(owns (c : Thread nD τ) scM4_0 fullShare (outsAt4 W c n hn).2.2.1 ∗ owns (c : Thread nD τ) scM4_1 fullShare (outsAt4 W c n hn).2.2.2.1
      ∗ owns (c : Thread nD τ) scM4_2 fullShare (outsAt4 W c n hn).2.2.2.2.1
      ∗ Pipeline.scopedRestBut (Ix := Unit) (Name := ℕ) (U := UR sig nD τ) (Lvl := ℕ) (Val := Elt F) spec4 c [cc4_scratch0, cc4_scratch1, cc4_scratch2])

theorem PhiS_zero (c : Dev nD) (n : ℕ) (h : n ≤ cfg4.N) (hz : n = 0) :
    PhiS W c n h = iprop((∃ d, owns (c : Thread nD τ) scM4_0 fullShare d) ∗ (∃ d, owns (c : Thread nD τ) scM4_1 fullShare d) ∗ (∃ d, owns (c : Thread nD τ) scM4_2 fullShare d)
      ∗ Pipeline.scopedRestBut (Ix := Unit) (Name := ℕ) (U := UR sig nD τ) (Lvl := ℕ) (Val := Elt F) spec4 c [cc4_scratch0, cc4_scratch1, cc4_scratch2]) := by
  subst hz; rfl

theorem PhiS_succ (c : Dev nD) (n : ℕ) (hn : n < cfg4.N) :
    PhiS W c (n + 1) hn = iprop(owns (c : Thread nD τ) scM4_0 fullShare (outsAt4 W c n hn).2.2.1 ∗ owns (c : Thread nD τ) scM4_1 fullShare (outsAt4 W c n hn).2.2.2.1
      ∗ owns (c : Thread nD τ) scM4_2 fullShare (outsAt4 W c n hn).2.2.2.2.1
      ∗ Pipeline.scopedRestBut (Ix := Unit) (Name := ℕ) (U := UR sig nD τ) (Lvl := ℕ) (Val := Elt F) spec4 c [cc4_scratch0, cc4_scratch1, cc4_scratch2]) := rfl

theorem PhiS_pos (c : Dev nD) (n : ℕ) (h : n ≤ cfg4.N) (hz : n ≠ 0) :
    PhiS W c n h = iprop(owns (c : Thread nD τ) scM4_0 fullShare (outsAt4 W c (n - 1) (by omega)).2.2.1 ∗ owns (c : Thread nD τ) scM4_1 fullShare (outsAt4 W c (n - 1) (by omega)).2.2.2.1
      ∗ owns (c : Thread nD τ) scM4_2 fullShare (outsAt4 W c (n - 1) (by omega)).2.2.2.2.1
      ∗ Pipeline.scopedRestBut (Ix := Unit) (Name := ℕ) (U := UR sig nD τ) (Lvl := ℕ) (Val := Elt F) spec4 c [cc4_scratch0, cc4_scratch1, cc4_scratch2]) := by
  cases n with
  | zero => exact absurd rfl hz
  | succ n => rfl

/-! ## The proof data -/

/-- The proof data of round five on core `c`: the arrays as the region finds them; after the body at point `t`
    each input's buffer at its block and the outputs' at the accumulation's components; the invariant above;
    nothing owed; full shares. -/
def dat4 (c : Dev nD) : Dat τ (Elt F) Unit ℕ (UR sig nD τ) ℕ cfg4 c where
  A w := WV W c (Pipeline.arrRef spec4 w)
  after w t := match w with
    | ⟨0, _⟩ => iblk4 W c 0 t
    | ⟨1, _⟩ => iblk4 W c 1 t
    | ⟨2, _⟩ => iblk4 W c 2 t
    | ⟨3, _⟩ => (outsAt4 W c t.val t.isLt).1
    | ⟨4, _⟩ => (outsAt4 W c t.val t.isLt).2.1
    | ⟨5, _⟩ => (outsAt4 W c t.val t.isLt).2.2.2.2.2
  Φ t := PhiS W c t.val (Nat.le_of_lt_succ t.isLt)
  q _ := fullShare
  owed _ := 0

theorem A_eq (c : Dev nD) (w : Fin cfg4.W) : (dat4 W c).A w = WV W c (Pipeline.arrRef spec4 w) := by
  dsimp only [dat4]

theorem PhiS_castSucc (c : Dev nD) (t : Fin cfg4.N) :
    (dat4 W c).Φ t.castSucc = PhiS W c t.val (Nat.le_of_lt t.isLt) := by
  dsimp only [dat4]; simp only [Fin.coe_castSucc]

theorem after4_0 (c : Dev nD) (t : Fin cfg4.N) : (dat4 W c).after 0 t = iblk4 W c 0 t := by dsimp only [dat4]
theorem after4_1 (c : Dev nD) (t : Fin cfg4.N) : (dat4 W c).after 1 t = iblk4 W c 1 t := by dsimp only [dat4]
theorem after4_2 (c : Dev nD) (t : Fin cfg4.N) : (dat4 W c).after 2 t = iblk4 W c 2 t := by dsimp only [dat4]
theorem after4_3 (c : Dev nD) (t : Fin cfg4.N) : (dat4 W c).after 3 t = (outsAt4 W c t.val t.isLt).1 := by dsimp only [dat4]
theorem after4_4 (c : Dev nD) (t : Fin cfg4.N) : (dat4 W c).after 4 t = (outsAt4 W c t.val t.isLt).2.1 := by dsimp only [dat4]
theorem after4_5 (c : Dev nD) (t : Fin cfg4.N) : (dat4 W c).after 5 t = (outsAt4 W c t.val t.isLt).2.2.2.2.2 := by dsimp only [dat4]

/-- Each input's current staging buffer holds its block at every point, fetched there or not. -/
theorem before4_0 (c : Dev nD) (t : Fin cfg4.N) (d) : (dat4 W c).before 0 t d = iblk4 W c 0 t :=
  ((dat4 W c).before_in_eq_fetched 0 rfl (fun _ => rfl) (fun _ _ _ => rfl) (fun t => by rw [after4_0]; unfold Dat.blockOf iblk4; rw [A_eq]; try rfl) t d).trans
    (by unfold Dat.fetched Dat.blockOf iblk4; rw [A_eq]; try rfl)
theorem before4_1 (c : Dev nD) (t : Fin cfg4.N) (d) : (dat4 W c).before 1 t d = iblk4 W c 1 t :=
  ((dat4 W c).before_in_eq_fetched 1 rfl (fun _ => rfl) (fun _ _ _ => rfl) (fun t => by rw [after4_1]; unfold Dat.blockOf iblk4; rw [A_eq]; try rfl) t d).trans
    (by unfold Dat.fetched Dat.blockOf iblk4; rw [A_eq]; try rfl)
theorem before4_2 (c : Dev nD) (t : Fin cfg4.N) (d) : (dat4 W c).before 2 t d = iblk4 W c 2 t :=
  ((dat4 W c).before_in_eq_fetched 2 rfl (fun _ => rfl) (fun _ _ _ => rfl) (fun t => by rw [after4_2]; unfold Dat.blockOf iblk4; rw [A_eq]; try rfl) t d).trans
    (by unfold Dat.fetched Dat.blockOf iblk4; rw [A_eq]; try rfl)

/-! ## The body obligation, at a generic point -/

/-- What the body is called with at point `t`: the invariant, the core's dues, each window's current buffer. -/
def bodyPre (c : Dev nD) (t : Fin cfg4.N) : sProp 𝕄 :=
  iprop((dat4 W c).Φ t.castSucc ∗ (dat4 W c).owesAt () t.castSucc
    ∗ (∃ d, owns (c : Thread nD τ) (ms4_0 t) fullShare ((dat4 W c).before 0 t d))
    ∗ (∃ d, owns (c : Thread nD τ) (ms4_1 t) fullShare ((dat4 W c).before 1 t d))
    ∗ (∃ d, owns (c : Thread nD τ) (ms4_2 t) fullShare ((dat4 W c).before 2 t d))
    ∗ (∃ d, owns (c : Thread nD τ) (ms4_3 t) fullShare ((dat4 W c).before 3 t d))
    ∗ (∃ d, owns (c : Thread nD τ) (ms4_4 t) fullShare ((dat4 W c).before 4 t d))
    ∗ (∃ d, owns (c : Thread nD τ) (ms4_5 t) fullShare ((dat4 W c).before 5 t d)))

/-- and what it returns. -/
def bodyPost (c : Dev nD) (t : Fin cfg4.N) : sProp 𝕄 :=
  iprop((dat4 W c).Φ t.succ ∗ (dat4 W c).owesAt () t.succ
    ∗ (dat4 W c).leavesExact 0 t ∗ (dat4 W c).leavesExact 1 t ∗ (dat4 W c).leavesExact 2 t
    ∗ (dat4 W c).leavesExact 3 t ∗ (dat4 W c).leavesExact 4 t ∗ (dat4 W c).leavesExact 5 t)

set_option maxHeartbeats 4800000 in
/-- The body at any point. The inputs' buffers hold their blocks; `t mod 4` says which case the point is in; the
    invariant hands the body the accumulators at what the point before left (at anything before the very first
    point) and takes them back at this point's contents, each store being whole; before the last tile the two
    center outputs go back as found, at the last tile at the quotients; the assignment output goes in at
    anything and comes back at this point's assignment, stored whole; the core owes nothing throughout. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before4_0, before4_1, before4_2]
  rw [show (dat4 W c).owesAt () t.succ = (dat4 W c).owesAt () t.castSucc from rfl]
  rw [show (dat4 W c).Φ t.succ = PhiS W c (t.val + 1) t.isLt from rfl, PhiS_succ]
  have hN : t.val < 16 := lt_of_lt_of_eq t.isLt (show cfg4.N = 16 from N_4)
  rw [show (dat4 W c).leavesExact 0 t = owns (c : Thread nD τ) (ms4_0 t) fullShare ((dat4 W c).after 0 t) from by
    unfold Dat.leavesExact; rw [liveAt4_0 t], after4_0]
  rw [show (dat4 W c).leavesExact 1 t = owns (c : Thread nD τ) (ms4_1 t) fullShare ((dat4 W c).after 1 t) from by
    unfold Dat.leavesExact; rw [liveAt4_1 t], after4_1]
  rw [show (dat4 W c).leavesExact 2 t = owns (c : Thread nD τ) (ms4_2 t) fullShare ((dat4 W c).after 2 t) from by
    unfold Dat.leavesExact; rw [liveAt4_2 t], after4_2]
  rw [show (dat4 W c).leavesExact 5 t = owns (c : Thread nD τ) (ms4_5 t) fullShare ((dat4 W c).after 5 t) from by
    unfold Dat.leavesExact; rw [liveAt4_5 t], after4_5]
  by_cases h0 : t.val % 4 = 0
  · have h1 : ¬t.val % 4 = 3 := by omega
    have hn1 : ¬cond4_1 (grid4.coords t) := fun h => h1 ((hcond4_1 t).mp h)
    rw [Dat.leavesExact_idle (dat4 W c) 3 t (idleAt4_3 t hn1) (noFlush4_3 t hn1),
      Dat.leavesExact_idle (dat4 W c) 4 t (idleAt4_4 t hn1) (noFlush4_4 t hn1)]
    rw [outsAt4_A W c t h0]
    unfold stepA; (try dsimp only)
    by_cases hz : t.val = 0
    · rw [PhiS_castSucc W c t, PhiS_zero W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runA W c t h0).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexact H7
      isplitl [H8]; · iexact H8
      isplitl [H9]; · iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverA_Q W c t h0)
    · rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runA W c t h0).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexists _; iexact H7
      isplitl [H8]; · iexists _; iexact H8
      isplitl [H9]; · iexists _; iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverA_7 W c t h0)
        isplitl [H8]
        · unfold owns; iexists _; isplitr
          swap; · iexact H8
          ipureintro; exact View.read_writes_of_cover _ _ _ _ _ (coverA_8 W c t h0)
        isplitl [H9]
        · unfold owns; iexists _; isplitr
          swap; · iexact H9
          ipureintro; exact View.read_writes_of_cover _ _ _ _ _ (coverA_9 W c t h0)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverA_Q W c t h0)
  · have hz : t.val ≠ 0 := fun e => h0 (by rw [e])
    by_cases h1 : t.val % 4 = 3
    · have hy1 : cond4_1 (grid4.coords t) := (hcond4_1 t).mpr h1
      rw [show (dat4 W c).leavesExact 3 t = owns (c : Thread nD τ) (ms4_3 t) fullShare ((dat4 W c).after 3 t) from by
        unfold Dat.leavesExact; rw [liveAt4_3 t hy1], after4_3]
      rw [show (dat4 W c).leavesExact 4 t = owns (c : Thread nD τ) (ms4_4 t) fullShare ((dat4 W c).after 4 t) from by
        unfold Dat.leavesExact; rw [liveAt4_4 t hy1], after4_4]
      rw [outsAt4_C W c t h0 h1]
      unfold stepC; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runC W c t h0 h1 (outsAt4 W c (t.val - 1) (Nat.lt_of_le_of_lt (Nat.sub_le _ _) t.isLt))).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H7]; · iexact H7
      isplitl [H8]; · iexact H8
      isplitl [H9]; · iexact H9
      iintro ⟨H0, H1, H2, ⟨%e3, H3⟩, ⟨%e4, H4⟩, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverC_7 W c t h0 h1 _)
        isplitl [H8]
        · unfold owns; iexists _; isplitr
          swap; · iexact H8
          ipureintro; exact View.read_writes_of_cover _ _ _ _ _ (coverC_8 W c t h0 h1 _)
        isplitl [H9]
        · unfold owns; iexists _; isplitr
          swap; · iexact H9
          ipureintro; exact View.read_writes_of_cover _ _ _ _ _ (coverC_9 W c t h0 h1 _)
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_5 W c t h0 h1 _)
      isplitl [H4]
      · unfold owns; iexists _; isplitr
        swap; · iexact H4
        ipureintro; exact View.read_writes_of_cover _ _ _ _ _ (coverC_6 W c t h0 h1 _)
      unfold owns; iexists _; isplitr
      swap; · iexact H5
      ipureintro; exact View.read_writes_of_cover _ _ _ _ _ (coverC_Q W c t h0 h1 _)
    · have hn1 : ¬cond4_1 (grid4.coords t) := fun h => h1 ((hcond4_1 t).mp h)
      rw [Dat.leavesExact_idle (dat4 W c) 3 t (idleAt4_3 t hn1) (noFlush4_3 t hn1),
        Dat.leavesExact_idle (dat4 W c) 4 t (idleAt4_4 t hn1) (noFlush4_4 t hn1)]
      rw [outsAt4_B W c t h0 h1]
      unfold stepB; (try dsimp only)
      rw [PhiS_castSucc W c t, PhiS_pos W c _ _ hz]
      iintro ⟨⟨H7, H8, H9, Hr⟩, Ho, ⟨%d0, H0⟩, ⟨%d1, H1⟩, ⟨%d2, H2⟩, ⟨%d3, H3⟩, ⟨%d4, H4⟩, ⟨%d5, H5⟩⟩
      iapply ((runB W c t h0 h1 (outsAt4 W c (t.val - 1) (Nat.lt_of_le_of_lt (Nat.sub_le _ _) t.isLt))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexact H7
      isplitl [H8]; · iexact H8
      isplitl [H9]; · iexact H9
      iintro ⟨H0, H1, H2, H3, H4, ⟨%e5, H5⟩, ⟨%e7, H7⟩, ⟨%e8, H8⟩, ⟨%e9, H9⟩⟩
      isplitl [H7 H8 H9 Hr]
      · isplitl [H7]
        · unfold owns; iexists _; isplitr
          swap; · iexact H7
          ipureintro; exact View.read_writes_of_cover _ _ _ _ _ (coverB_7 W c t h0 h1 _)
        isplitl [H8]
        · unfold owns; iexists _; isplitr
          swap; · iexact H8
          ipureintro; exact View.read_writes_of_cover _ _ _ _ _ (coverB_8 W c t h0 h1 _)
        isplitl [H9]
        · unfold owns; iexists _; isplitr
          swap; · iexact H9
          ipureintro; exact View.read_writes_of_cover _ _ _ _ _ (coverB_9 W c t h0 h1 _)
        iexact Hr
      isplitl [Ho]; · iexact Ho
      isplitl [H0]; · iexact H0
      isplitl [H1]; · iexact H1
      isplitl [H2]; · iexact H2
      isplitl [H3]; · iexists d3; iexact H3
      isplitl [H4]; · iexists d4; iexact H4
      unfold owns; iexists _; isplitr
      swap; · iexact H5
      ipureintro; exact View.read_writes_of_cover _ _ _ _ _ (coverB_Q W c t h0 h1 _)

/-- The library's body obligation, at every point. -/
theorem body_obligation (c : Dev nD) : BodyObligation (dat4 (F := F) W c) (defs₀ (F := F)) Variants.none () Set.univ := fun t => by
  rw [bigSep_W4, bigSep_W4]
  exact sound_body W c t

end Cert.Kernel.Slic.R4

end
-- ==== Proof.KRun.lean ====
/-
  The five rounds composed. @main is one stretch of host operations (the pixel block in channel-last layout, the
  seed centers gathered from the first image, the seed coordinates) followed by the five pallas_calls. The contents
  of every unscoped buffer at each boundary are a fold: after the host stretch, then after each round its arrays at
  what the pipeline leaves (the inputs as entered, each output's write-backs folded) and every other buffer as
  entered. Each round is a segment whose invariant takes the three accumulators out of the scoped buffers and
  gives them back; the run of the segments terminates, faults nowhere, and ends with every unscoped buffer at the
  last boundary's contents. Read at the argument this is the frame; read at the two results it names them.
-/
import proofs.«138879_j15556371546814_2_alg».proof.Proof.K0Dat
import proofs.«138879_j15556371546814_2_alg».proof.Proof.K1Dat
import proofs.«138879_j15556371546814_2_alg».proof.Proof.K2Dat
import proofs.«138879_j15556371546814_2_alg».proof.Proof.K3Dat
import proofs.«138879_j15556371546814_2_alg».proof.Proof.K4Dat
import proofs.«138879_j15556371546814_2_alg».proof.Proof.Gen.Kernel.Regions
import Idealize.ShloMosaic.Lib.Pipeline.FrameSuffix
import Idealize.ShloMosaic.Lib.Pipeline.RegionsLoop

set_option maxRecDepth 16384

noncomputable section

namespace Cert.Kernel.Slic.Run

open Cert.Kernel Cert.Kernel.Gen Cert.Kernel.Slic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch, -/
abbrev W0 : Dev nD → Valuation τ sig (Elt F) := fun c b => m (c, b)
/-- and after the host operations that prepare the pixel block, the seed centers and the seed coordinates. -/
def Wh : Dev nD → Valuation τ sig (Elt F) := fun c => StableHlo.after hostOps0 (W0 m c)
abbrev VWh : (c : Dev nD) → (b : Ref sig .tc) → Buf (Elt F) ((c : Thread nD τ).loc b) := fun c b => Wh m c b

/-- At round one's exit: its arrays at what the pipeline leaves (the inputs as entered, each output's write-backs
    folded), every other buffer as entered. -/
def W1 (c : Dev nD) : Valuation τ sig (Elt F) :=
  Pipeline.withArrays spec0 c (Wh m c) fun w => (R0.dat0 (Wh m) c).arrAt w cfg0.N
theorem W1_arr (c : Dev nD) (w : Fin cfg0.W) :
    W1 m c (Proc.devRef .tc (Pipeline.arrRef spec0 w)) = (R0.dat0 (Wh m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = Wh m c (Proc.devRef .tc b) := by
  unfold W1; exact Pipeline.withArrays_of_ne spec0 c _ _ b hb
abbrev VW1 : (c : Dev nD) → (b : Ref sig .tc) → Buf (Elt F) ((c : Thread nD τ).loc b) := fun c b => W1 m c b
theorem hF0 (c : Dev nD) (w : Fin cfg0.W) : (R0.dat0 (Wh m) c).arrAt w cfg0.N = VW1 m c (Pipeline.arrRef spec0 w) :=
  (W1_arr m c w).symm
theorem hrest0 (c : Dev nD) : ∀ b, b ∉ Finset.univ.image (Pipeline.arrRef spec0) → VW1 m c b = VWh m c b :=
  fun b hb => W1_of_ne m c b fun w e => hb (Finset.mem_image.mpr ⟨w, Finset.mem_univ _, e⟩)

/-- At round two's exit: its arrays at what the pipeline leaves (the inputs as entered, each output's write-backs
    folded), every other buffer as entered. -/
def W2 (c : Dev nD) : Valuation τ sig (Elt F) :=
  Pipeline.withArrays spec1 c (W1 m c) fun w => (R1.dat1 (W1 m) c).arrAt w cfg1.N
theorem W2_arr (c : Dev nD) (w : Fin cfg1.W) :
    W2 m c (Proc.devRef .tc (Pipeline.arrRef spec1 w)) = (R1.dat1 (W1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VW2 : (c : Dev nD) → (b : Ref sig .tc) → Buf (Elt F) ((c : Thread nD τ).loc b) := fun c b => W2 m c b
theorem hF1 (c : Dev nD) (w : Fin cfg1.W) : (R1.dat1 (W1 m) c).arrAt w cfg1.N = VW2 m c (Pipeline.arrRef spec1 w) :=
  (W2_arr m c w).symm
theorem hrest1 (c : Dev nD) : ∀ b, b ∉ Finset.univ.image (Pipeline.arrRef spec1) → VW2 m c b = VW1 m c b :=
  fun b hb => W2_of_ne m c b fun w e => hb (Finset.mem_image.mpr ⟨w, Finset.mem_univ _, e⟩)

/-- At round three's exit: its arrays at what the pipeline leaves (the inputs as entered, each output's write-backs
    folded), every other buffer as entered. -/
def W3 (c : Dev nD) : Valuation τ sig (Elt F) :=
  Pipeline.withArrays spec2 c (W2 m c) fun w => (R2.dat2 (W2 m) c).arrAt w cfg2.N
theorem W3_arr (c : Dev nD) (w : Fin cfg2.W) :
    W3 m c (Proc.devRef .tc (Pipeline.arrRef spec2 w)) = (R2.dat2 (W2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev VW3 : (c : Dev nD) → (b : Ref sig .tc) → Buf (Elt F) ((c : Thread nD τ).loc b) := fun c b => W3 m c b
theorem hF2 (c : Dev nD) (w : Fin cfg2.W) : (R2.dat2 (W2 m) c).arrAt w cfg2.N = VW3 m c (Pipeline.arrRef spec2 w) :=
  (W3_arr m c w).symm
theorem hrest2 (c : Dev nD) : ∀ b, b ∉ Finset.univ.image (Pipeline.arrRef spec2) → VW3 m c b = VW2 m c b :=
  fun b hb => W3_of_ne m c b fun w e => hb (Finset.mem_image.mpr ⟨w, Finset.mem_univ _, e⟩)

/-- At round four's exit: its arrays at what the pipeline leaves (the inputs as entered, each output's write-backs
    folded), every other buffer as entered. -/
def W4 (c : Dev nD) : Valuation τ sig (Elt F) :=
  Pipeline.withArrays spec3 c (W3 m c) fun w => (R3.dat3 (W3 m) c).arrAt w cfg3.N
theorem W4_arr (c : Dev nD) (w : Fin cfg3.W) :
    W4 m c (Proc.devRef .tc (Pipeline.arrRef spec3 w)) = (R3.dat3 (W3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev VW4 : (c : Dev nD) → (b : Ref sig .tc) → Buf (Elt F) ((c : Thread nD τ).loc b) := fun c b => W4 m c b
theorem hF3 (c : Dev nD) (w : Fin cfg3.W) : (R3.dat3 (W3 m) c).arrAt w cfg3.N = VW4 m c (Pipeline.arrRef spec3 w) :=
  (W4_arr m c w).symm
theorem hrest3 (c : Dev nD) : ∀ b, b ∉ Finset.univ.image (Pipeline.arrRef spec3) → VW4 m c b = VW3 m c b :=
  fun b hb => W4_of_ne m c b fun w e => hb (Finset.mem_image.mpr ⟨w, Finset.mem_univ _, e⟩)

/-- At round five's exit: its arrays at what the pipeline leaves (the inputs as entered, each output's write-backs
    folded), every other buffer as entered. -/
def W5 (c : Dev nD) : Valuation τ sig (Elt F) :=
  Pipeline.withArrays spec4 c (W4 m c) fun w => (R4.dat4 (W4 m) c).arrAt w cfg4.N
theorem W5_arr (c : Dev nD) (w : Fin cfg4.W) :
    W5 m c (Proc.devRef .tc (Pipeline.arrRef spec4 w)) = (R4.dat4 (W4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev VW5 : (c : Dev nD) → (b : Ref sig .tc) → Buf (Elt F) ((c : Thread nD τ).loc b) := fun c b => W5 m c b
theorem hF4 (c : Dev nD) (w : Fin cfg4.W) : (R4.dat4 (W4 m) c).arrAt w cfg4.N = VW5 m c (Pipeline.arrRef spec4 w) :=
  (W5_arr m c w).symm
theorem hrest4 (c : Dev nD) : ∀ b, b ∉ Finset.univ.image (Pipeline.arrRef spec4) → VW5 m c b = VW4 m c b :=
  fun b hb => W5_of_ne m c b fun w e => hb (Finset.mem_image.mpr ⟨w, Finset.mem_univ _, e⟩)

/-! ## The argument array ends as launched: no host operation writes it and no round stages it -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = Wh m c (Proc.devRef .tc main_arg0) := W1_of_ne m c main_arg0 (by decide)
    _ = m ((c : Thread nD τ).loc main_arg0) := by unfold Wh; exact Gen.V1_of m c main_arg0 (by decide)

/-! ## The proof data family and the thread state -/

/-- Every round's proof data, each at its region's entry contents: a literal match on the round. -/
def pdats : (p : Fin 5) → (c : Dev nD) → Dat τ (Elt F) Unit ℕ (UR sig nD τ) ℕ (Pipeline.pin (pcfgs (F := F)) adm p) c
  | ⟨0, _⟩ => fun c => R0.dat0 (Wh m) c
  | ⟨1, _⟩ => fun c => R1.dat1 (W1 m) c
  | ⟨2, _⟩ => fun c => R2.dat2 (W2 m) c
  | ⟨3, _⟩ => fun c => R3.dat3 (W3 m) c
  | ⟨4, _⟩ => fun c => R4.dat4 (W4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- The host stretch as a segment over the unscoped references, from the launch contents. -/
def hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents. -/
abbrev Tₙ (c : Dev nD) : sProp 𝕄 := iprop(StableHlo.held (c : Thread nD τ) (Pipeline.ucRefs τ sig) (W5 m c) ∗ ∃ r, prngReg c r)

/-! ## The rounds as segments -/

/-! ### Round one: the accumulators between the scoped buffers and the invariant -/

/-- The kernel of round one has no semaphore of its own. -/
abbrev osem0 : Fin 0 → SemLoc sig := fun j => j.elim0
theorem ownSemFacts0 : Pipeline.OwnSemFacts spec0 osem0 := by decide

/-- Every scoped buffer no window stages, the three accumulators among them at anything: the invariant before the first point. -/
theorem phi_in0 (W : Dev nD → Valuation τ sig (Elt F)) (c : Dev nD) :
    (Pipeline.scopedRest (Ix := Unit) (Name := ℕ) (U := UR sig nD τ) (Lvl := ℕ) (Val := Elt F) spec0 c : sProp 𝕄) ⊢ (R0.dat0 W c).Φ 0 := by
  rw [show (R0.dat0 W c).Φ 0 = R0.PhiS W c 0 (Nat.zero_le _) from rfl, R0.PhiS_zero W c 0 _ rfl, scopedRest0_split]
  simp only [scM0_0, scM0_1, scM0_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out0 (W : Dev nD → Valuation τ sig (Elt F)) (c : Dev nD) (t : Fin (cfg0.N + 1)) (ht : t.val ≠ 0) :
    (R0.dat0 W c).Φ t ⊢ (Pipeline.scopedRest (Ix := Unit) (Name := ℕ) (U := UR sig nD τ) (Lvl := ℕ) (Val := Elt F) spec0 c : sProp 𝕄) := by
  rw [show (R0.dat0 W c).Φ t = R0.PhiS W c t.val (Nat.le_of_lt_succ t.isLt) from rfl, R0.PhiS_pos W c _ _ ht, scopedRest0_split]
  simp only [scM0_0, scM0_1, scM0_2, owns_whole]
  iintro ⟨H7, H8, H9, Hr⟩
  isplitl [H7 H8 H9]
  · isplitl [H7]; · iexists _; iexact H7
    isplitl [H8]; · iexists _; iexact H8
    iexists _; iexact H9
  iexact Hr

/-! ### Round two: the accumulators between the scoped buffers and the invariant -/

/-- The kernel of round two has no semaphore of its own. -/
abbrev osem1 : Fin 0 → SemLoc sig := fun j => j.elim0
theorem ownSemFacts1 : Pipeline.OwnSemFacts spec1 osem1 := by decide

/-- Every scoped buffer no window stages, the three accumulators among them at anything: the invariant before the first point. -/
theorem phi_in1 (W : Dev nD → Valuation τ sig (Elt F)) (c : Dev nD) :
    (Pipeline.scopedRest (Ix := Unit) (Name := ℕ) (U := UR sig nD τ) (Lvl := ℕ) (Val := Elt F) spec1 c : sProp 𝕄) ⊢ (R1.dat1 W c).Φ 0 := by
  rw [show (R1.dat1 W c).Φ 0 = R1.PhiS W c 0 (Nat.zero_le _) from rfl, R1.PhiS_zero W c 0 _ rfl, scopedRest1_split]
  simp only [scM1_0, scM1_1, scM1_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out1 (W : Dev nD → Valuation τ sig (Elt F)) (c : Dev nD) (t : Fin (cfg1.N + 1)) (ht : t.val ≠ 0) :
    (R1.dat1 W c).Φ t ⊢ (Pipeline.scopedRest (Ix := Unit) (Name := ℕ) (U := UR sig nD τ) (Lvl := ℕ) (Val := Elt F) spec1 c : sProp 𝕄) := by
  rw [show (R1.dat1 W c).Φ t = R1.PhiS W c t.val (Nat.le_of_lt_succ t.isLt) from rfl, R1.PhiS_pos W c _ _ ht, scopedRest1_split]
  simp only [scM1_0, scM1_1, scM1_2, owns_whole]
  iintro ⟨H7, H8, H9, Hr⟩
  isplitl [H7 H8 H9]
  · isplitl [H7]; · iexists _; iexact H7
    isplitl [H8]; · iexists _; iexact H8
    iexists _; iexact H9
  iexact Hr

/-! ### Round three: the accumulators between the scoped buffers and the invariant -/

/-- The kernel of round three has no semaphore of its own. -/
abbrev osem2 : Fin 0 → SemLoc sig := fun j => j.elim0
theorem ownSemFacts2 : Pipeline.OwnSemFacts spec2 osem2 := by decide

/-- Every scoped buffer no window stages, the three accumulators among them at anything: the invariant before the first point. -/
theorem phi_in2 (W : Dev nD → Valuation τ sig (Elt F)) (c : Dev nD) :
    (Pipeline.scopedRest (Ix := Unit) (Name := ℕ) (U := UR sig nD τ) (Lvl := ℕ) (Val := Elt F) spec2 c : sProp 𝕄) ⊢ (R2.dat2 W c).Φ 0 := by
  rw [show (R2.dat2 W c).Φ 0 = R2.PhiS W c 0 (Nat.zero_le _) from rfl, R2.PhiS_zero W c 0 _ rfl, scopedRest2_split]
  simp only [scM2_0, scM2_1, scM2_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out2 (W : Dev nD → Valuation τ sig (Elt F)) (c : Dev nD) (t : Fin (cfg2.N + 1)) (ht : t.val ≠ 0) :
    (R2.dat2 W c).Φ t ⊢ (Pipeline.scopedRest (Ix := Unit) (Name := ℕ) (U := UR sig nD τ) (Lvl := ℕ) (Val := Elt F) spec2 c : sProp 𝕄) := by
  rw [show (R2.dat2 W c).Φ t = R2.PhiS W c t.val (Nat.le_of_lt_succ t.isLt) from rfl, R2.PhiS_pos W c _ _ ht, scopedRest2_split]
  simp only [scM2_0, scM2_1, scM2_2, owns_whole]
  iintro ⟨H7, H8, H9, Hr⟩
  isplitl [H7 H8 H9]
  · isplitl [H7]; · iexists _; iexact H7
    isplitl [H8]; · iexists _; iexact H8
    iexists _; iexact H9
  iexact Hr

/-! ### Round four: the accumulators between the scoped buffers and the invariant -/

/-- The kernel of round four has no semaphore of its own. -/
abbrev osem3 : Fin 0 → SemLoc sig := fun j => j.elim0
theorem ownSemFacts3 : Pipeline.OwnSemFacts spec3 osem3 := by decide

/-- Every scoped buffer no window stages, the three accumulators among them at anything: the invariant before the first point. -/
theorem phi_in3 (W : Dev nD → Valuation τ sig (Elt F)) (c : Dev nD) :
    (Pipeline.scopedRest (Ix := Unit) (Name := ℕ) (U := UR sig nD τ) (Lvl := ℕ) (Val := Elt F) spec3 c : sProp 𝕄) ⊢ (R3.dat3 W c).Φ 0 := by
  rw [show (R3.dat3 W c).Φ 0 = R3.PhiS W c 0 (Nat.zero_le _) from rfl, R3.PhiS_zero W c 0 _ rfl, scopedRest3_split]
  simp only [scM3_0, scM3_1, scM3_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out3 (W : Dev nD → Valuation τ sig (Elt F)) (c : Dev nD) (t : Fin (cfg3.N + 1)) (ht : t.val ≠ 0) :
    (R3.dat3 W c).Φ t ⊢ (Pipeline.scopedRest (Ix := Unit) (Name := ℕ) (U := UR sig nD τ) (Lvl := ℕ) (Val := Elt F) spec3 c : sProp 𝕄) := by
  rw [show (R3.dat3 W c).Φ t = R3.PhiS W c t.val (Nat.le_of_lt_succ t.isLt) from rfl, R3.PhiS_pos W c _ _ ht, scopedRest3_split]
  simp only [scM3_0, scM3_1, scM3_2, owns_whole]
  iintro ⟨H7, H8, H9, Hr⟩
  isplitl [H7 H8 H9]
  · isplitl [H7]; · iexists _; iexact H7
    isplitl [H8]; · iexists _; iexact H8
    iexists _; iexact H9
  iexact Hr

/-! ### Round five: the accumulators between the scoped buffers and the invariant -/

/-- The kernel of round five has no semaphore of its own. -/
abbrev osem4 : Fin 0 → SemLoc sig := fun j => j.elim0
theorem ownSemFacts4 : Pipeline.OwnSemFacts spec4 osem4 := by decide

/-- Every scoped buffer no window stages, the three accumulators among them at anything: the invariant before the first point. -/
theorem phi_in4 (W : Dev nD → Valuation τ sig (Elt F)) (c : Dev nD) :
    (Pipeline.scopedRest (Ix := Unit) (Name := ℕ) (U := UR sig nD τ) (Lvl := ℕ) (Val := Elt F) spec4 c : sProp 𝕄) ⊢ (R4.dat4 W c).Φ 0 := by
  rw [show (R4.dat4 W c).Φ 0 = R4.PhiS W c 0 (Nat.zero_le _) from rfl, R4.PhiS_zero W c 0 _ rfl, scopedRest4_split]
  simp only [scM4_0, scM4_1, scM4_2, owns_whole]
  iintro ⟨⟨H7, H8, H9⟩, Hr⟩
  isplitl [H7]; · iexact H7
  isplitl [H8]; · iexact H8
  isplitl [H9]; · iexact H9
  iexact Hr

/-- After any point the invariant gives those scoped buffers back: what the accumulators hold is forgotten. -/
theorem phi_out4 (W : Dev nD → Valuation τ sig (Elt F)) (c : Dev nD) (t : Fin (cfg4.N + 1)) (ht : t.val ≠ 0) :
    (R4.dat4 W c).Φ t ⊢ (Pipeline.scopedRest (Ix := Unit) (Name := ℕ) (U := UR sig nD τ) (Lvl := ℕ) (Val := Elt F) spec4 c : sProp 𝕄) := by
  rw [show (R4.dat4 W c).Φ t = R4.PhiS W c t.val (Nat.le_of_lt_succ t.isLt) from rfl, R4.PhiS_pos W c _ _ ht, scopedRest4_split]
  simp only [scM4_0, scM4_1, scM4_2, owns_whole]
  iintro ⟨H7, H8, H9, Hr⟩
  isplitl [H7 H8 H9]
  · isplitl [H7]; · iexists _; iexact H7
    isplitl [H8]; · iexists _; iexact H8
    iexists _; iexact H9
  iexact Hr

set_option backward.isDefEq.respectTransparency.types false in
set_option maxHeartbeats 2000000 in
/-- Round one as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg0 : Pipeline.RegionSeg (pcfgs (F := F)) adm (pdats m) () defs₀ 𝒱₀ L lv 0 where
  win := launch0.win.to₀
  block_pos := launch0.block_pos
  stage_whole := launch0.stage_whole
  K := Fin 0
  osem := osem0
  ho := ownSemFacts0
  hbody c := (R0.body_obligation (Wh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (W1 m c) ∗ R c)
  X c := iprop(emp)
  Y c := iprop(emp)
  Z c := iprop((∃ r, prngReg c r) ∗ Pipeline.unscopedRest (Ix := Unit) (Name := ℕ) (U := UR sig nD τ) (Lvl := ℕ) spec0 c (VWh m c))
  hentry c := by
    have hsplit := Pipeline.arrays_of_unscopedBufs (p := 0) (pcfgs (F := F)) adm (pdats m) launch0.win launch0.arr_whole c
      ((pdats m 0 c).share_full fun _ => rfl) (VWh m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec0 c) ⊢ (R0.dat0 (Wh m) c).Φ 0
    iintro ⟨-, -, Hr⟩
    iapply (phi_in0 (Wh m) c)
    iexact Hr
  hout c := by
    show (R0.dat0 (Wh m) c).Φ (Fin.last cfg0.N) ⊢ iprop(_ ∗ _ ∗ Pipeline.scopedRest (Ix := Unit) (Name := ℕ) (U := UR sig nD τ) (Lvl := ℕ) (Val := Elt F) spec0 c)
    iintro H
    ihave Hr := (phi_out0 (Wh m) c (Fin.last cfg0.N) (by rw [Fin.val_last]; have : cfg0.N = 16 := N_0; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VWh m c) (VW1 m c) ((pdats m 0 c).arrAt · cfg0.N) (hF0 m c) (hrest0 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round two as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg1 : Pipeline.RegionSeg (pcfgs (F := F)) adm (pdats m) () defs₀ 𝒱₀ L lv 1 where
  win := launch1.win.to₀
  block_pos := launch1.block_pos
  stage_whole := launch1.stage_whole
  K := Fin 0
  osem := osem1
  ho := ownSemFacts1
  hbody c := (R1.body_obligation (W1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop((∃ r, prngReg c r) ∗ Pipeline.unscopedRest (Ix := Unit) (Name := ℕ) (U := UR sig nD τ) (Lvl := ℕ) spec1 c (VW1 m c))
  hentry c := by
    have hsplit := Pipeline.arrays_of_unscopedBufs (p := 1) (pcfgs (F := F)) adm (pdats m) launch1.win launch1.arr_whole c
      ((pdats m 1 c).share_full fun _ => rfl) (VW1 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec1 c) ⊢ (R1.dat1 (W1 m) c).Φ 0
    iintro ⟨-, -, Hr⟩
    iapply (phi_in1 (W1 m) c)
    iexact Hr
  hout c := by
    show (R1.dat1 (W1 m) c).Φ (Fin.last cfg1.N) ⊢ iprop(_ ∗ _ ∗ Pipeline.scopedRest (Ix := Unit) (Name := ℕ) (U := UR sig nD τ) (Lvl := ℕ) (Val := Elt F) spec1 c)
    iintro H
    ihave Hr := (phi_out1 (W1 m) c (Fin.last cfg1.N) (by rw [Fin.val_last]; have : cfg1.N = 16 := N_1; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VW1 m c) (VW2 m c) ((pdats m 1 c).arrAt · cfg1.N) (hF1 m c) (hrest1 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round three as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg2 : Pipeline.RegionSeg (pcfgs (F := F)) adm (pdats m) () defs₀ 𝒱₀ L lv 2 where
  win := launch2.win.to₀
  block_pos := launch2.block_pos
  stage_whole := launch2.stage_whole
  K := Fin 0
  osem := osem2
  ho := ownSemFacts2
  hbody c := (R2.body_obligation (W2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(emp)
  Y c := iprop(emp)
  Z c := iprop((∃ r, prngReg c r) ∗ Pipeline.unscopedRest (Ix := Unit) (Name := ℕ) (U := UR sig nD τ) (Lvl := ℕ) spec2 c (VW2 m c))
  hentry c := by
    have hsplit := Pipeline.arrays_of_unscopedBufs (p := 2) (pcfgs (F := F)) adm (pdats m) launch2.win launch2.arr_whole c
      ((pdats m 2 c).share_full fun _ => rfl) (VW2 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec2 c) ⊢ (R2.dat2 (W2 m) c).Φ 0
    iintro ⟨-, -, Hr⟩
    iapply (phi_in2 (W2 m) c)
    iexact Hr
  hout c := by
    show (R2.dat2 (W2 m) c).Φ (Fin.last cfg2.N) ⊢ iprop(_ ∗ _ ∗ Pipeline.scopedRest (Ix := Unit) (Name := ℕ) (U := UR sig nD τ) (Lvl := ℕ) (Val := Elt F) spec2 c)
    iintro H
    ihave Hr := (phi_out2 (W2 m) c (Fin.last cfg2.N) (by rw [Fin.val_last]; have : cfg2.N = 16 := N_2; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VW2 m c) (VW3 m c) ((pdats m 2 c).arrAt · cfg2.N) (hF2 m c) (hrest2 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round four as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg3 : Pipeline.RegionSeg (pcfgs (F := F)) adm (pdats m) () defs₀ 𝒱₀ L lv 3 where
  win := launch3.win.to₀
  block_pos := launch3.block_pos
  stage_whole := launch3.stage_whole
  K := Fin 0
  osem := osem3
  ho := ownSemFacts3
  hbody c := (R3.body_obligation (W3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop((∃ r, prngReg c r) ∗ Pipeline.unscopedRest (Ix := Unit) (Name := ℕ) (U := UR sig nD τ) (Lvl := ℕ) spec3 c (VW3 m c))
  hentry c := by
    have hsplit := Pipeline.arrays_of_unscopedBufs (p := 3) (pcfgs (F := F)) adm (pdats m) launch3.win launch3.arr_whole c
      ((pdats m 3 c).share_full fun _ => rfl) (VW3 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec3 c) ⊢ (R3.dat3 (W3 m) c).Φ 0
    iintro ⟨-, -, Hr⟩
    iapply (phi_in3 (W3 m) c)
    iexact Hr
  hout c := by
    show (R3.dat3 (W3 m) c).Φ (Fin.last cfg3.N) ⊢ iprop(_ ∗ _ ∗ Pipeline.scopedRest (Ix := Unit) (Name := ℕ) (U := UR sig nD τ) (Lvl := ℕ) (Val := Elt F) spec3 c)
    iintro H
    ihave Hr := (phi_out3 (W3 m) c (Fin.last cfg3.N) (by rw [Fin.val_last]; have : cfg3.N = 16 := N_3; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VW3 m c) (VW4 m c) ((pdats m 3 c).arrAt · cfg3.N) (hF3 m c) (hrest3 m c)
    rw [Pipeline.unscopedBufs_held] at hjoin
    iintro ⟨Ha, HO, -, ⟨Hp, Hrest⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
set_option maxHeartbeats 2000000 in
/-- Round five as a segment. It is entered with every unscoped buffer at the boundary's contents; its windows' arrays
    go to the pipeline, the three accumulators come out of the scoped buffers into the invariant (at anything) and go
    back at the end, every other unscoped buffer bypasses the region; it is left with its arrays at what the
    pipeline leaves and every other buffer as entered. The kernel has no semaphore of its own and the core owes nothing. -/
def reg4 : Pipeline.RegionSeg (pcfgs (F := F)) adm (pdats m) () defs₀ 𝒱₀ L lv 4 where
  win := launch4.win.to₀
  block_pos := launch4.block_pos
  stage_whole := launch4.stage_whole
  K := Fin 0
  osem := osem4
  ho := ownSemFacts4
  hbody c := (R4.body_obligation (W4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(emp)
  Y c := iprop(emp)
  Z c := iprop((∃ r, prngReg c r) ∗ Pipeline.unscopedRest (Ix := Unit) (Name := ℕ) (U := UR sig nD τ) (Lvl := ℕ) spec4 c (VW4 m c))
  hentry c := by
    have hsplit := Pipeline.arrays_of_unscopedBufs (p := 4) (pcfgs (F := F)) adm (pdats m) launch4.win launch4.arr_whole c
      ((pdats m 4 c).share_full fun _ => rfl) (VW4 m c) fun _ => rfl
    rw [Pipeline.unscopedBufs_held] at hsplit
    iintro ⟨⟨Hub, Hp, HO⟩, Hos, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact Hrest
  hin c := by
    show iprop(_ ∗ _ ∗ Pipeline.scopedRest (Ix := Unit) (Name := ℕ) (U := UR sig nD τ) (Lvl := ℕ) (Val := Elt F) spec4 c) ⊢ (R4.dat4 (W4 m) c).Φ 0
    iintro ⟨-, -, Hr⟩
    iapply (phi_in4 (W4 m) c)
    iexact Hr
  hout c := by
    show (R4.dat4 (W4 m) c).Φ (Fin.last cfg4.N) ⊢ iprop(_ ∗ _ ∗ Pipeline.scopedRest (Ix := Unit) (Name := ℕ) (U := UR sig nD τ) (Lvl := ℕ) (Val := Elt F) spec4 c)
    iintro H
    ihave Hr := (phi_out4 (W4 m) c (Fin.last cfg4.N) (by rw [Fin.val_last]; have : cfg4.N = 16 := N_4; omega)) $$ H
    isplitr; · iempintro
    isplitr; · unfold Pipeline.ownSems0; rw [show (Finset.univ : Finset (Fin 0)) = ∅ from rfl, BI.bigSep_empty]; iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VW4 m c) (VW5 m c) ((pdats m 4 c).arrAt · cfg4.N) (hF4 m c) (hrest4 m c)
    rw [Pipeline.unscopedBufs_held] at hjoin
    iintro ⟨Ha, HO, -, ⟨Hp, Hrest⟩⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's six segments in order: the host stretch, then the five rounds. -/
abbrev segs : List (Pipeline.Seg (pcfgs (F := F)) adm (pdats m) () defs₀ 𝒱₀ L lv) :=
  [ .host (hseg0 m),
    .region (reg0 m),
    .region (reg1 m),
    .region (reg2 m),
    .region (reg3 m),
    .region (reg4 m) ]
/-- @main is the run of the segments. -/
theorem main_run (c : Dev nD) : main (F := F) c = Pipeline.Seg.run (segs m) := (main_chain c).trans (by chain_rfl)

set_option backward.isDefEq.respectTransparency.types false in
set_option maxHeartbeats 2000000 in
/-- At the compiled mesh, for any float values, from any memory with zero counters: every weakly fair execution of
    @main on the TensorCores terminates, nothing faulting, and every final state holds every unscoped buffer at the
    last boundary's contents: each round's arrays at what its pipeline leaves, everything else as the host stretch
    left it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m c)) (run_all m ρ)

/-- The same run read at the two result arrays and the argument: the assignments Q of round five and the spectral
    centers round five leaves, each at the last boundary's contents, and the argument as launched. -/
theorem run_results : θ_run defs (onTc (τ := τ) (main (F := F))) ⟨m, fun _ => 0, ρ⟩ (fun r => ∀ c : Dev nD,
      r.2.mem ((c.tc : Thread nD τ).loc main_v43_2) = W5 m c (Proc.devRef .tc main_v43_2)
      ∧ r.2.mem ((c.tc : Thread nD τ).loc main_v43_0) = W5 m c (Proc.devRef .tc main_v43_0)
      ∧ r.2.mem ((c.tc : Thread nD τ).loc main_arg0) = m ((c.tc : Thread nD τ).loc main_arg0)) :=
  (θ_run defs _ _).mono (fun _ h c => ⟨h c _ (mem_uc main_v43_2 (by decide)), h c _ (mem_uc main_v43_0 (by decide)),
    (h c _ (mem_uc main_arg0 (by decide))).trans (W5_main_arg0 m c)⟩) (run_all m ρ)

end Cert.Kernel.Slic.Run

end
-- ==== Proof.I0Pieces.lean ====
/-
  Round one of the idealized kernel: what each case of the body leaves, as the payloads' own terms.

  One tile updates the three accumulators by one function of the tile's pixel block x0, the two center blocks
  x1, x2 and the tile coordinate: the spectral numerator gains the weights' product with the pixels, the spatial
  numerator their product with the pixel coordinates, the mass their column sums. At the first tile of a batch
  the update starts from the zero splats; at the last tile the two center outputs are the numerators over the
  mass plus 1e-6. Every store is whole, so what a buffer holds after the body is the last store's payload.
-/
import proofs.«138879_j15556371546814_2_alg».proof.Proof.I0Dat
import Idealize.ShloMosaic.Lib.Pipeline.Value

set_option maxRecDepth 16384

noncomputable section

namespace Cert.KernelIdeal.Slic.R0

open Cert.KernelIdeal Cert.KernelIdeal.Gen Cert.KernelIdeal.Slic
open Idealize.ShloMosaic Idealize.ShloMosaic.TcCoe Idealize.ShloMosaic.Tactic
open Idealize.SL Idealize.SL.Sem

variable {F : FTy → Type} [FloatOps F]
variable (W : Dev nD → Valuation τ sig (Elt F))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole buffer holding the raw contents of `X` reads back `X`. -/
theorem read_unread_whole (b : Ref sig .tc) (X : b.ty.shape.Idx → Elt F b.ty.elt) :
    View.read (Elt F) (View.whole b) ((Memref.isWhole_whole b).unread X) = X :=
  (Memref.isWhole_whole b).read_unread X

/-- A load of a whole accumulator right after one whole store into it reads the stored payload. -/
theorem rc0 (w : S256x200.Idx → Elt F .f32) :
    (View.whole cc0_scratch0).readCov [(⟨Rect.unit ![0, 0] ![256, 200] inb_S256x200_S256x200_0_0, w⟩ : View.Piece (Elt F) S256x200 .f32)]
      (Rect.unit ![0, 0] ![256, 200] inb_S256x200_S256x200_0_0).toLoadRect = w :=
  View.readCov_unit_zero (View.whole cc0_scratch0) hz2 _ w
theorem rc1 (w : S256x2.Idx → Elt F .f32) :
    (View.whole cc0_scratch1).readCov [(⟨Rect.unit ![0, 0] ![256, 2] inb_S256x2_S256x2_0_0, w⟩ : View.Piece (Elt F) S256x2 .f32)]
      (Rect.unit ![0, 0] ![256, 2] inb_S256x2_S256x2_0_0).toLoadRect = w :=
  View.readCov_unit_zero (View.whole cc0_scratch1) hz2 _ w
theorem rc2 (w : S256x1.Idx → Elt F .f32) :
    (View.whole cc0_scratch2).readCov [(⟨Rect.unit ![0, 0] ![256, 1] inb_S256x1_S256x1_0_0, w⟩ : View.Piece (Elt F) S256x1 .f32)]
      (Rect.unit ![0, 0] ![256, 1] inb_S256x1_S256x1_0_0).toLoadRect = w :=
  View.readCov_unit_zero (View.whole cc0_scratch2) hz2 _ w

/-- The same, with the extent spelled as the shape's size (the printed program's spelling). -/
theorem rc0' (w : S256x200.Idx → Elt F .f32) :
    (View.whole cc0_scratch0).readCov [(⟨Rect.unit (s := S256x200) ![0, 0] S256x200.size inb_S256x200_S256x200_0_0, w⟩ : View.Piece (Elt F) S256x200 .f32)]
      (Rect.unit (s := S256x200) ![0, 0] S256x200.size inb_S256x200_S256x200_0_0).toLoadRect = w :=
  View.readCov_unit_zero (View.whole cc0_scratch0) hz2 _ w
theorem rc1' (w : S256x2.Idx → Elt F .f32) :
    (View.whole cc0_scratch1).readCov [(⟨Rect.unit (s := S256x2) ![0, 0] S256x2.size inb_S256x2_S256x2_0_0, w⟩ : View.Piece (Elt F) S256x2 .f32)]
      (Rect.unit (s := S256x2) ![0, 0] S256x2.size inb_S256x2_S256x2_0_0).toLoadRect = w :=
  View.readCov_unit_zero (View.whole cc0_scratch1) hz2 _ w
theorem rc2' (w : S256x1.Idx → Elt F .f32) :
    (View.whole cc0_scratch2).readCov [(⟨Rect.unit (s := S256x1) ![0, 0] S256x1.size inb_S256x1_S256x1_0_0, w⟩ : View.Piece (Elt F) S256x1 .f32)]
      (Rect.unit (s := S256x1) ![0, 0] S256x1.size inb_S256x1_S256x1_0_0).toLoadRect = w :=
  View.readCov_unit_zero (View.whole cc0_scratch2) hz2 _ w

/-- The three accumulators. -/
abbrev Acc (F : FTy → Type) [FloatOps F] : Type := Vec F S256x200 .f32 × Vec F S256x2 .f32 × Vec F S256x1 .f32

/-- One tile's update of the accumulators, from the tile's blocks and coordinate. -/
def upd (x0 : Vec F S1x4096x200 .bf16) (x1 : Vec F S1x256x200 .f32) (x2 : Vec F S1x256x2 .f32) (i : grid0.Coords) (a : Acc F) : Acc F :=
  (k0_pay16 (k0_pay9 x0) (k0_pay10 x2) (k0_pay11 x0 x1) (k0_pay12 i) k0_pay13 a.1,
   k0_pay1 (k0_pay17 (k0_pay10 x2) (k0_pay11 x0 x1) (k0_pay12 i) k0_pay13 a.2.1),
   k0_pay2 (k0_pay15 (k0_pay10 x2) (k0_pay11 x0 x1) (k0_pay12 i) k0_pay13) a.2.2)

/-- The zero splats the reset stores. -/
def acc0 : Acc F := (k0_pay6, k0_pay7, k0_pay8)

theorem accA_7 (c : Dev nD) (t : Fin cfg0.N) (h0 : t.val % 4 = 0) :
    (stepA W c t h0).2.2.1 = (upd (iblk0 W c 0 t) (iblk0 W c 1 t) (iblk0 W c 2 t) (grid0.coords t) acc0).1 := by
  unfold stepA; dsimp only
  rw [View.read_writes_eq_canon _ _ _ (coverA_7 W c t h0)]
  unfold runA kernelRun0_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k0_pay16 _ _ _ _ _) (View.readCov_unit_zero (View.whole cc0_scratch0) hz2 _ _)
theorem accA_8 (c : Dev nD) (t : Fin cfg0.N) (h0 : t.val % 4 = 0) :
    (stepA W c t h0).2.2.2.1 = (upd (iblk0 W c 0 t) (iblk0 W c 1 t) (iblk0 W c 2 t) (grid0.coords t) acc0).2.1 := by
  unfold stepA; dsimp only
  rw [View.read_writes_eq_canon _ _ _ (coverA_8 W c t h0)]
  unfold runA kernelRun0_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (fun z => k0_pay1 (k0_pay17 _ _ _ _ z)) (View.readCov_unit_zero (View.whole cc0_scratch1) hz2 _ _)
theorem accA_9 (c : Dev nD) (t : Fin cfg0.N) (h0 : t.val % 4 = 0) :
    (stepA W c t h0).2.2.2.2 = (upd (iblk0 W c 0 t) (iblk0 W c 1 t) (iblk0 W c 2 t) (grid0.coords t) acc0).2.2 := by
  unfold stepA; dsimp only
  rw [View.read_writes_eq_canon _ _ _ (coverA_9 W c t h0)]
  unfold runA kernelRun0_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k0_pay2 _) (View.readCov_unit_zero (View.whole cc0_scratch2) hz2 _ _)

theorem accB_7 (c : Dev nD) (t : Fin cfg0.N) (h0 : ¬t.val % 4 = 0) (h1 : ¬t.val % 4 = 3) (p : Outs0 F) :
    (stepB W c t h0 h1 p).2.2.1 = (upd (iblk0 W c 0 t) (iblk0 W c 1 t) (iblk0 W c 2 t) (grid0.coords t) p.2.2).1 := by
  unfold stepB; dsimp only
  rw [View.read_writes_eq_canon _ _ _ (coverB_7 W c t h0 h1 p)]
  unfold runB kernelRun0_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_8 (c : Dev nD) (t : Fin cfg0.N) (h0 : ¬t.val % 4 = 0) (h1 : ¬t.val % 4 = 3) (p : Outs0 F) :
    (stepB W c t h0 h1 p).2.2.2.1 = (upd (iblk0 W c 0 t) (iblk0 W c 1 t) (iblk0 W c 2 t) (grid0.coords t) p.2.2).2.1 := by
  unfold stepB; dsimp only
  rw [View.read_writes_eq_canon _ _ _ (coverB_8 W c t h0 h1 p)]
  unfold runB kernelRun0_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_9 (c : Dev nD) (t : Fin cfg0.N) (h0 : ¬t.val % 4 = 0) (h1 : ¬t.val % 4 = 3) (p : Outs0 F) :
    (stepB W c t h0 h1 p).2.2.2.2 = (upd (iblk0 W c 0 t) (iblk0 W c 1 t) (iblk0 W c 2 t) (grid0.coords t) p.2.2).2.2 := by
  unfold stepB; dsimp only
  rw [View.read_writes_eq_canon _ _ _ (coverB_9 W c t h0 h1 p)]
  unfold runB kernelRun0_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

theorem accC_7 (c : Dev nD) (t : Fin cfg0.N) (h0 : ¬t.val % 4 = 0) (h1 : t.val % 4 = 3) (p : Outs0 F) :
    (stepC W c t h0 h1 p).2.2.1 = (upd (iblk0 W c 0 t) (iblk0 W c 1 t) (iblk0 W c 2 t) (grid0.coords t) p.2.2).1 := by
  unfold stepC; dsimp only
  rw [View.read_writes_eq_canon _ _ _ (coverC_7 W c t h0 h1 p)]
  unfold runC kernelRun0_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_8 (c : Dev nD) (t : Fin cfg0.N) (h0 : ¬t.val % 4 = 0) (h1 : t.val % 4 = 3) (p : Outs0 F) :
    (stepC W c t h0 h1 p).2.2.2.1 = (upd (iblk0 W c 0 t) (iblk0 W c 1 t) (iblk0 W c 2 t) (grid0.coords t) p.2.2).2.1 := by
  unfold stepC; dsimp only
  rw [View.read_writes_eq_canon _ _ _ (coverC_8 W c t h0 h1 p)]
  unfold runC kernelRun0_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_9 (c : Dev nD) (t : Fin cfg0.N) (h0 : ¬t.val % 4 = 0) (h1 : t.val % 4 = 3) (p : Outs0 F) :
    (stepC W c t h0 h1 p).2.2.2.2 = (upd (iblk0 W c 0 t) (iblk0 W c 1 t) (iblk0 W c 2 t) (grid0.coords t) p.2.2).2.2 := by
  unfold stepC; dsimp only
  rw [View.read_writes_eq_canon _ _ _ (coverC_9 W c t h0 h1 p)]
  unfold runC kernelRun0_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

set_option maxHeartbeats 2000000 in
/-- At the last tile the spectral-center output is the updated spectral numerator over the updated mass plus 1e-6. -/
theorem outC_5 (c : Dev nD) (t : Fin cfg0.N) (h0 : ¬t.val % 4 = 0) (h1 : t.val % 4 = 3) (p : Outs0 F) :
    (stepC W c t h0 h1 p).1 = k0_pay4 (upd (iblk0 W c 0 t) (iblk0 W c 1 t) (iblk0 W c 2 t) (grid0.coords t) p.2.2).2.2 (upd (iblk0 W c 0 t) (iblk0 W c 1 t) (iblk0 W c 2 t) (grid0.coords t) p.2.2).1 := by
  unfold stepC; dsimp only
  rw [View.read_writes_eq_canon _ _ _ (coverC_5 W c t h0 h1 p)]
  unfold runC kernelRun0_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k0_pay4 (View.readCov_unit_zero (View.whole cc0_scratch2) hz2 _ _) (View.readCov_unit_zero (View.whole cc0_scratch0) hz2 _ _)
set_option maxHeartbeats 2000000 in
/-- and the spatial-center output the updated spatial numerator over the same. -/
theorem outC_6 (c : Dev nD) (t : Fin cfg0.N) (h0 : ¬t.val % 4 = 0) (h1 : t.val % 4 = 3) (p : Outs0 F) :
    (stepC W c t h0 h1 p).2.1 = k0_pay5 (upd (iblk0 W c 0 t) (iblk0 W c 1 t) (iblk0 W c 2 t) (grid0.coords t) p.2.2).2.2 (upd (iblk0 W c 0 t) (iblk0 W c 1 t) (iblk0 W c 2 t) (grid0.coords t) p.2.2).2.1 := by
  unfold stepC; dsimp only
  rw [View.read_writes_eq_canon _ _ _ (coverC_6 W c t h0 h1 p)]
  unfold runC kernelRun0_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k0_pay5 (View.readCov_unit_zero (View.whole cc0_scratch2) hz2 _ _) (View.readCov_unit_zero (View.whole cc0_scratch1) hz2 _ _)

end Cert.KernelIdeal.Slic.R0

end
-- ==== Proof.I0Batch.lean ====
/-
  Round one of the idealized kernel: the accumulation over a batch in closed form.

  After the first tile of a batch the accumulators are one update of the zero splats; after every later tile,
  one update of what the tile before left; at the last tile the two center outputs are the two numerators over
  the mass plus 1e-6, all three taken after that tile's update.
-/
import proofs.«138879_j15556371546814_2_alg».proof.Proof.I0Pieces

set_option maxRecDepth 16384

noncomputable section

namespace Cert.KernelIdeal.Slic.R0

open Cert.KernelIdeal Cert.KernelIdeal.Gen Cert.KernelIdeal.Slic
open Idealize.ShloMosaic Idealize.ShloMosaic.TcCoe
open Idealize.SL Idealize.SL.Sem

variable {F : FTy → Type} [FloatOps F]
variable (W : Dev nD → Valuation τ sig (Elt F))

/-- The accumulators after the body at position `n`. -/
def accAt (c : Dev nD) (n : ℕ) (hn : n < cfg0.N) : Acc F := (outsAt0 W c n hn).2.2

/-- One tile's update at point `t`: the update of its three input blocks and its coordinates. -/
def updAt (c : Dev nD) (t : Fin cfg0.N) (a : Acc F) : Acc F :=
  upd (iblk0 W c 0 t) (iblk0 W c 1 t) (iblk0 W c 2 t) (grid0.coords t) a

theorem accAt_congr (c : Dev nD) {n n' : ℕ} (h : n = n') (hn : n < cfg0.N) (hn' : n' < cfg0.N) :
    accAt W c n hn = accAt W c n' hn' := by subst h; rfl

/-- At the first tile of a batch the accumulators restart from zero. -/
theorem accAt_first (c : Dev nD) (t : Fin cfg0.N) (h0 : t.val % 4 = 0) :
    accAt W c t.val t.isLt = updAt W c t acc0 := by
  unfold accAt updAt; rw [outsAt0_A W c t h0]
  exact Prod.ext (accA_7 W c t h0) (Prod.ext (accA_8 W c t h0) (accA_9 W c t h0))

/-- At every later tile they are updated from what the tile before left. -/
theorem accAt_next (c : Dev nD) (t : Fin cfg0.N) (h0 : ¬t.val % 4 = 0) :
    accAt W c t.val t.isLt = updAt W c t (accAt W c (t.val - 1) (Nat.lt_of_le_of_lt (Nat.sub_le _ _) t.isLt)) := by
  unfold accAt updAt
  by_cases h1 : t.val % 4 = 3
  · rw [outsAt0_C W c t h0 h1]
    exact Prod.ext (accC_7 W c t h0 h1 _) (Prod.ext (accC_8 W c t h0 h1 _) (accC_9 W c t h0 h1 _))
  · rw [outsAt0_B W c t h0 h1]
    exact Prod.ext (accB_7 W c t h0 h1 _) (Prod.ext (accB_8 W c t h0 h1 _) (accB_9 W c t h0 h1 _))

/-- At the last tile the spectral-center output is the spectral numerator over the mass plus 1e-6, both after this
    tile's update. -/
theorem out3_last (c : Dev nD) (t : Fin cfg0.N) (h0 : ¬t.val % 4 = 0) (h1 : t.val % 4 = 3) :
    (outsAt0 W c t.val t.isLt).1
      = k0_pay4 (updAt W c t (accAt W c (t.val - 1) (Nat.lt_of_le_of_lt (Nat.sub_le _ _) t.isLt))).2.2
          (updAt W c t (accAt W c (t.val - 1) (Nat.lt_of_le_of_lt (Nat.sub_le _ _) t.isLt))).1 := by
  unfold accAt updAt; rw [outsAt0_C W c t h0 h1]; exact outC_5 W c t h0 h1 _

/-- and the spatial-center output the spatial numerator over the same. -/
theorem out4_last (c : Dev nD) (t : Fin cfg0.N) (h0 : ¬t.val % 4 = 0) (h1 : t.val % 4 = 3) :
    (outsAt0 W c t.val t.isLt).2.1
      = k0_pay5 (updAt W c t (accAt W c (t.val - 1) (Nat.lt_of_le_of_lt (Nat.sub_le _ _) t.isLt))).2.2
          (updAt W c t (accAt W c (t.val - 1) (Nat.lt_of_le_of_lt (Nat.sub_le _ _) t.isLt))).2.1 := by
  unfold accAt updAt; rw [outsAt0_C W c t h0 h1]; exact outC_6 W c t h0 h1 _

/-- Tile `j` of batch `b` as a grid point. -/
def pt (b j : Fin 4) : Fin cfg0.N := ⟨4 * b.val + j.val, by have : cfg0.N = 16 := N_0; omega⟩

/-- After the last tile of batch `b`: four updates from zero, one per tile, in order. -/
theorem accAt_batch (c : Dev nD) (b : Fin 4) :
    accAt W c (pt b 3).val (pt b 3).isLt
      = updAt W c (pt b 3) (updAt W c (pt b 2) (updAt W c (pt b 1) (updAt W c (pt b 0) acc0))) := by
  have e3 : accAt W c (pt b 3).val (pt b 3).isLt = updAt W c (pt b 3) (accAt W c (pt b 2).val (pt b 2).isLt) :=
    (accAt_next W c (pt b 3) (by show ¬(4 * b.val + (3 : Fin 4).val) % 4 = 0; simp)).trans
      (congrArg (updAt W c (pt b 3)) (accAt_congr W c (by show 4 * b.val + (3 : Fin 4).val - 1 = 4 * b.val + (2 : Fin 4).val; simp) _ _))
  have e2 : accAt W c (pt b 2).val (pt b 2).isLt = updAt W c (pt b 2) (accAt W c (pt b 1).val (pt b 1).isLt) :=
    (accAt_next W c (pt b 2) (by show ¬(4 * b.val + (2 : Fin 4).val) % 4 = 0; simp)).trans
      (congrArg (updAt W c (pt b 2)) (accAt_congr W c (by show 4 * b.val + (2 : Fin 4).val - 1 = 4 * b.val + (1 : Fin 4).val; simp) _ _))
  have e1 : accAt W c (pt b 1).val (pt b 1).isLt = updAt W c (pt b 1) (accAt W c (pt b 0).val (pt b 0).isLt) :=
    (accAt_next W c (pt b 1) (by show ¬(4 * b.val + (1 : Fin 4).val) % 4 = 0; simp)).trans
      (congrArg (updAt W c (pt b 1)) (accAt_congr W c (by show 4 * b.val + (1 : Fin 4).val - 1 = 4 * b.val + (0 : Fin 4).val; simp) _ _))
  have e0 : accAt W c (pt b 0).val (pt b 0).isLt = updAt W c (pt b 0) acc0 :=
    accAt_first W c (pt b 0) (by show (4 * b.val + (0 : Fin 4).val) % 4 = 0; simp)
  rw [e3, e2, e1, e0]

end Cert.KernelIdeal.Slic.R0

end
-- ==== Proof.I0Arr.lean ====
/-
  Round one of the idealized kernel: the arrays.

  Point t = 4 b + n stages tile n of batch b: rows n x 4096 .. n x 4096 + 4095 of the pixels of image b, and
  the 256 centers of image b with their coordinates. The two center outputs are written back at the last tile of
  each batch, one block of 256 rows per batch, so after the round batch b's rows of each output are what the last
  tile of batch b stored; the four blocks cover the array.
-/
import proofs.«138879_j15556371546814_2_alg».proof.Proof.I0Batch
import Idealize.ShloMosaic.Lib.ValueIdx

set_option maxRecDepth 16384

noncomputable section

namespace Cert.KernelIdeal.Slic.R0

open Cert.KernelIdeal Cert.KernelIdeal.Gen Cert.KernelIdeal.Slic
open Idealize.ShloMosaic Idealize.ShloMosaic.TcCoe Idealize.ShloMosaic.ValueIdx
open Idealize.SL Idealize.SL.Sem
open Idealize.ShloMosaic.Pipeline (Dat)

variable {F : FTy → Type} [FloatOps F]
variable (W : Dev nD → Valuation τ sig (Elt F))

/-- The printed index maps over the grid: every window's block index is (batch, tile or 0, 0) with batch = t / 4 and
    tile = t mod 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

theorem outsAt0_congr (c : Dev nD) {n n' : ℕ} (h : n = n') (hn : n < cfg0.N) (hn' : n' < cfg0.N) :
    outsAt0 W c n hn = outsAt0 W c n' hn' := by subst h; rfl

/-! ## The inputs' blocks -/

/-- A tile's pixel block is the pixel array at (batch, tile x 4096 + row, channel). -/
theorem iblk0_0_apply (c : Dev nD) (t : Fin cfg0.N) (r : Fin 4096) (ch : Fin 200) :
    iblk0 W c 0 t (ix3 (0 : Fin 1) r ch)
      = WV W c main_v25 (ix3 (⟨t.val / 4, by have := t.isLt; have : cfg0.N = 16 := N_0; omega⟩ : Fin 4)
          (⟨t.val % 4 * 4096 + r.val, by have := r.isLt; omega⟩ : Fin 16384) ch) := by
  unfold iblk0
  show WV W c main_v25 (((cfg0.win 0).blk t).view.emb (ix3 (0 : Fin 1) r ch)) = _
  congr 1
  funext a; apply Fin.ext
  obtain ⟨e0, e1, e2, -⟩ := idx_facts t
  match a with
  | ⟨0, _⟩ => show win0_0.index t (0 : Fin 3) * 1 + 1 * (0 : Fin 1).val = t.val / 4; rw [e0]; simp
  | ⟨1, _⟩ => show win0_0.index t (1 : Fin 3) * 4096 + 1 * r.val = t.val % 4 * 4096 + r.val; rw [e1]; omega
  | ⟨2, _⟩ => show win0_0.index t (2 : Fin 3) * 200 + 1 * ch.val = ch.val; rw [e2]; omega

/-- A point's block of the spectral centers is the batch's rows of the center array. -/
theorem iblk0_1_apply (c : Dev nD) (t : Fin cfg0.N) (k : Fin 256) (ch : Fin 200) :
    iblk0 W c 1 t (ix3 (0 : Fin 1) k ch)
      = WV W c main_v36 (ix3 (⟨t.val / 4, by have := t.isLt; have : cfg0.N = 16 := N_0; omega⟩ : Fin 4) k ch) := by
  unfold iblk0
  show WV W c main_v36 (((cfg0.win 1).blk t).view.emb (ix3 (0 : Fin 1) k ch)) = _
  congr 1
  funext a; apply Fin.ext
  obtain ⟨-, -, -, e0, e1, e2, -⟩ := idx_facts t
  match a with
  | ⟨0, _⟩ => show win0_1.index t (0 : Fin 3) * 1 + 1 * (0 : Fin 1).val = t.val / 4; rw [e0]; simp
  | ⟨1, _⟩ => show win0_1.index t (1 : Fin 3) * 256 + 1 * k.val = k.val; rw [e1]; omega
  | ⟨2, _⟩ => show win0_1.index t (2 : Fin 3) * 200 + 1 * ch.val = ch.val; rw [e2]; omega

/-- A point's block of the spatial centers is the batch's rows of the center array. -/
theorem iblk0_2_apply (c : Dev nD) (t : Fin cfg0.N) (k : Fin 256) (ch : Fin 2) :
    iblk0 W c 2 t (ix3 (0 : Fin 1) k ch)
      = WV W c main_v38 (ix3 (⟨t.val / 4, by have := t.isLt; have : cfg0.N = 16 := N_0; omega⟩ : Fin 4) k ch) := by
  unfold iblk0
  show WV W c main_v38 (((cfg0.win 2).blk t).view.emb (ix3 (0 : Fin 1) k ch)) = _
  congr 1
  funext a; apply Fin.ext
  obtain ⟨-, -, -, -, -, -, e0, e1, e2, -⟩ := idx_facts t
  match a with
  | ⟨0, _⟩ => show win0_2.index t (0 : Fin 3) * 1 + 1 * (0 : Fin 1).val = t.val / 4; rw [e0]; simp
  | ⟨1, _⟩ => show win0_2.index t (1 : Fin 3) * 256 + 1 * k.val = k.val; rw [e1]; omega
  | ⟨2, _⟩ => show win0_2.index t (2 : Fin 3) * 2 + 1 * ch.val = ch.val; rw [e2]; omega

/-! ## The spectral-center output: its array after the round -/

/-- What the spectral-center array holds after the round: batch `b`'s block is what the last tile of batch `b` stored. -/
def G3 (c : Dev nD) : Buf (Elt F) ((c : Thread nD τ).loc main_v39_0) := fun i =>
  (outsAt0 W c (pt (i 0) 3).val (pt (i 0) 3).isLt).1 (ix3 (0 : Fin 1) (i 1) (i 2))

/-- Where a last-tile point's block of the spectral-center array sits. -/
theorem emb3 (t : Fin cfg0.N) (j : S1x256x200.Idx) :
    ((cfg0.win 3).blk t).view.emb j
      = ix3 (⟨t.val / 4, by have := t.isLt; have : cfg0.N = 16 := N_0; omega⟩ : Fin 4) (j 1) (j 2) := by
  funext a; apply Fin.ext
  obtain ⟨-, -, -, -, -, -, -, -, -, e0, e1, e2, -⟩ := idx_facts t
  have hj0 : (j 0).val < 1 := (j 0).isLt
  match a with
  | ⟨0, _⟩ => show win0_3.index t (0 : Fin 3) * 1 + 1 * (j 0).val = t.val / 4; rw [e0]; omega
  | ⟨1, _⟩ => show win0_3.index t (1 : Fin 3) * 256 + 1 * (j 1).val = (j 1).val; rw [e1]; omega
  | ⟨2, _⟩ => show win0_3.index t (2 : Fin 3) * 200 + 1 * (j 2).val = (j 2).val; rw [e2]; omega

/-- What a last-tile point writes back is its block of that function. -/
theorem flushed3 (c : Dev nD) (t : Fin cfg0.N) (hf : (cfg0.win 3).flush t = true) :
    (dat0 W c).flushed 3 t = ((cfg0.win 3).blk t).view.read (Elt F) (G3 W c) := by
  have h3 : t.val % 4 = 3 := (flush0_3 t).mp hf
  show (cfg0.win 3).cut (grid0.coords t) ((dat0 W c).after 3 t) = _
  rw [after0_3]
  funext j
  show (outsAt0 W c t.val t.isLt).1 j = G3 W c (((cfg0.win 3).blk t).view.emb j)
  rw [emb3 t j]
  unfold G3
  have hb : t.val / 4 < 4 := by have := t.isLt; have : cfg0.N = 16 := N_0; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg0.N = 16 := N_0; omega⟩ : Fin 4) 3).val = t.val := by
    show 4 * (t.val / 4) + (3 : Fin 4).val = t.val
    have : ((3 : Fin 4) : ℕ) = 3 := rfl
    omega
  show _ = (outsAt0 W c (pt (⟨t.val / 4, hb⟩ : Fin 4) 3).val (pt (⟨t.val / 4, hb⟩ : Fin 4) 3).isLt).1 (ix3 (0 : Fin 1) (j 1) (j 2))
  rw [outsAt0_congr W c hn _ t.isLt]
  exact congrArg _ hj

/-- An index of the array is in a point's block iff each coordinate is in the block's range on its axis. -/
theorem mem_blk3 (t : Fin cfg0.N) (i : S4x256x200.Idx) :
    i ∈ ((cfg0.win 3).blk t).view.set ↔ ∀ a : Fin 3, win0_3.index t a * S1x256x200.size a ≤ (i a).val ∧ (i a).val < win0_3.index t a * S1x256x200.size a + S1x256x200.size a := by
  show i ∈ ((View.whole main_v39_0).slice (win0_3.rect t)).set ↔ _
  rw [View.set_slice_whole, Rect.mem_set_unit]
  exact Iff.rfl

/-- Every index of the array is in the block of its batch's last tile. -/
theorem cover3 (i : S4x256x200.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 200 := (i 2).isLt
  refine ⟨⟨4 * (i 0).val + 3, by have : cfg0.N = 16 := N_0; omega⟩, (flush0_3 _).mpr (by show (4 * (i 0).val + 3) % 4 = 3; omega), ?_⟩
  rw [mem_blk3]
  obtain ⟨-, -, -, -, -, -, -, -, -, e0, e1, e2, -⟩ := idx_facts ⟨4 * (i 0).val + 3, by have : cfg0.N = 16 := N_0; omega⟩
  intro a
  match a with
  | ⟨0, _⟩ => show win0_3.index _ (0 : Fin 3) * 1 ≤ (i 0).val ∧ (i 0).val < win0_3.index _ (0 : Fin 3) * 1 + 1; rw [e0]; show (4 * (i 0).val + 3) / 4 * 1 ≤ (i 0).val ∧ (i 0).val < (4 * (i 0).val + 3) / 4 * 1 + 1; omega
  | ⟨1, _⟩ => show win0_3.index _ (1 : Fin 3) * 256 ≤ (i 1).val ∧ (i 1).val < win0_3.index _ (1 : Fin 3) * 256 + 256; rw [e1]; omega
  | ⟨2, _⟩ => show win0_3.index _ (2 : Fin 3) * 200 ≤ (i 2).val ∧ (i 2).val < win0_3.index _ (2 : Fin 3) * 200 + 200; rw [e2]; omega

/-- The spectral-center array after the round. -/
theorem final3 (c : Dev nD) : (dat0 W c).arrAt 3 cfg0.N = G3 W c :=
  (dat0 W c).arrAt_eq_of_cover 3 (G3 W c) (fun t hf => flushed3 W c t hf) (cover3)

/-! ## The spatial-center output: its array after the round -/

/-- What the spatial-center array holds after the round: batch `b`'s block is what the last tile of batch `b` stored. -/
def G4 (c : Dev nD) : Buf (Elt F) ((c : Thread nD τ).loc main_v39_1) := fun i =>
  (outsAt0 W c (pt (i 0) 3).val (pt (i 0) 3).isLt).2.1 (ix3 (0 : Fin 1) (i 1) (i 2))

/-- Where a last-tile point's block of the spatial-center array sits. -/
theorem emb4 (t : Fin cfg0.N) (j : S1x256x2.Idx) :
    ((cfg0.win 4).blk t).view.emb j
      = ix3 (⟨t.val / 4, by have := t.isLt; have : cfg0.N = 16 := N_0; omega⟩ : Fin 4) (j 1) (j 2) := by
  funext a; apply Fin.ext
  obtain ⟨-, -, -, -, -, -, -, -, -, -, -, -, e0, e1, e2⟩ := idx_facts t
  have hj0 : (j 0).val < 1 := (j 0).isLt
  match a with
  | ⟨0, _⟩ => show win0_4.index t (0 : Fin 3) * 1 + 1 * (j 0).val = t.val / 4; rw [e0]; omega
  | ⟨1, _⟩ => show win0_4.index t (1 : Fin 3) * 256 + 1 * (j 1).val = (j 1).val; rw [e1]; omega
  | ⟨2, _⟩ => show win0_4.index t (2 : Fin 3) * 2 + 1 * (j 2).val = (j 2).val; rw [e2]; omega

/-- What a last-tile point writes back is its block of that function. -/
theorem flushed4 (c : Dev nD) (t : Fin cfg0.N) (hf : (cfg0.win 4).flush t = true) :
    (dat0 W c).flushed 4 t = ((cfg0.win 4).blk t).view.read (Elt F) (G4 W c) := by
  have h3 : t.val % 4 = 3 := (flush0_4 t).mp hf
  show (cfg0.win 4).cut (grid0.coords t) ((dat0 W c).after 4 t) = _
  rw [after0_4]
  funext j
  show (outsAt0 W c t.val t.isLt).2.1 j = G4 W c (((cfg0.win 4).blk t).view.emb j)
  rw [emb4 t j]
  unfold G4
  have hb : t.val / 4 < 4 := by have := t.isLt; have : cfg0.N = 16 := N_0; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg0.N = 16 := N_0; omega⟩ : Fin 4) 3).val = t.val := by
    show 4 * (t.val / 4) + (3 : Fin 4).val = t.val
    have : ((3 : Fin 4) : ℕ) = 3 := rfl
    omega
  show _ = (outsAt0 W c (pt (⟨t.val / 4, hb⟩ : Fin 4) 3).val (pt (⟨t.val / 4, hb⟩ : Fin 4) 3).isLt).2.1 (ix3 (0 : Fin 1) (j 1) (j 2))
  rw [outsAt0_congr W c hn _ t.isLt]
  exact congrArg _ hj

/-- An index of the array is in a point's block iff each coordinate is in the block's range on its axis. -/
theorem mem_blk4 (t : Fin cfg0.N) (i : S4x256x2.Idx) :
    i ∈ ((cfg0.win 4).blk t).view.set ↔ ∀ a : Fin 3, win0_4.index t a * S1x256x2.size a ≤ (i a).val ∧ (i a).val < win0_4.index t a * S1x256x2.size a + S1x256x2.size a := by
  show i ∈ ((View.whole main_v39_1).slice (win0_4.rect t)).set ↔ _
  rw [View.set_slice_whole, Rect.mem_set_unit]
  exact Iff.rfl

/-- Every index of the array is in the block of its batch's last tile. -/
theorem cover4 (i : S4x256x2.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 2 := (i 2).isLt
  refine ⟨⟨4 * (i 0).val + 3, by have : cfg0.N = 16 := N_0; omega⟩, (flush0_4 _).mpr (by show (4 * (i 0).val + 3) % 4 = 3; omega), ?_⟩
  rw [mem_blk4]
  obtain ⟨-, -, -, -, -, -, -, -, -, -, -, -, e0, e1, e2⟩ := idx_facts ⟨4 * (i 0).val + 3, by have : cfg0.N = 16 := N_0; omega⟩
  intro a
  match a with
  | ⟨0, _⟩ => show win0_4.index _ (0 : Fin 3) * 1 ≤ (i 0).val ∧ (i 0).val < win0_4.index _ (0 : Fin 3) * 1 + 1; rw [e0]; show (4 * (i 0).val + 3) / 4 * 1 ≤ (i 0).val ∧ (i 0).val < (4 * (i 0).val + 3) / 4 * 1 + 1; omega
  | ⟨1, _⟩ => show win0_4.index _ (1 : Fin 3) * 256 ≤ (i 1).val ∧ (i 1).val < win0_4.index _ (1 : Fin 3) * 256 + 256; rw [e1]; omega
  | ⟨2, _⟩ => show win0_4.index _ (2 : Fin 3) * 2 ≤ (i 2).val ∧ (i 2).val < win0_4.index _ (2 : Fin 3) * 2 + 2; rw [e2]; omega

/-- The spatial-center array after the round. -/
theorem final4 (c : Dev nD) : (dat0 W c).arrAt 4 cfg0.N = G4 W c :=
  (dat0 W c).arrAt_eq_of_cover 4 (G4 W c) (fun t hf => flushed4 W c t hf) (cover4)

end Cert.KernelIdeal.Slic.R0

end
-- ==== Proof.Spec.lean ====
/-
  One round of the soft clustering, index by index over the extended reals, in the two arrangements the two
  programs compute it in.

  Data: x b n c, the pixel spectra (4 batches, 16384 pixels, 200 channels); p n j, the pixel coordinates (row,
  column), the same for every batch; centers cs b k c (256 per batch) with coordinates cp b k j.

  Both arrangements: the score of pixel n for center k is minus (spectral distance + 1.25 x spatial distance),
  each distance the square root of a squared distance floored at eps12; the weights are the softmax of the scores
  over the centers, computed as exp (score - row maximum) over its row sum; the new centers are the weighted sums
  of the spectra, and of the coordinates, over the weighted mass plus eps6.

  The arrangements differ in four places. The spatial squared distance is (p0 - c0)^2 + (p1 - c1)^2 in the
  kernel and (|p|^2 + |c|^2) - 2 <p, c> in the reference. The kernel negates by subtracting from zero. The
  kernel's mass weighs every pixel by one. And the kernel sums over the pixels tile by tile, four tiles of 4096
  accumulated from zero, where the reference sums over all 16384 at once.

  The float words are kept as parameters (two, c125, e12, e6, one, zero); nothing here evaluates them.
-/
import Idealize.ShloMosaic.PureOps.Ideal
import Mathlib.Algebra.BigOperators.Fin

noncomputable section

namespace Cert.Proof.Slic.Spec

open Idealize.ShloMosaic

/-- The float words both programs use. -/
structure Words where
  two : EReal
  c125 : EReal
  e12 : EReal
  e6 : EReal
  one : EReal
  zero : EReal

abbrev XT := Fin 4 → Fin 16384 → Fin 200 → EReal
abbrev PT := Fin 16384 → Fin 2 → EReal
abbrev CS := Fin 4 → Fin 256 → Fin 200 → EReal
abbrev CP := Fin 4 → Fin 256 → Fin 2 → EReal
abbrev QT := Fin 4 → Fin 16384 → Fin 256 → EReal

variable (w : Words)

/-! ## What the two arrangements share -/

/-- The spectral distance: sqrt (max ((|x|^2 + |c|^2) - 2 <x, c>, eps12)). -/
def dspec (x : XT) (cs : CS) (b : Fin 4) (n : Fin 16384) (k : Fin 256) : EReal :=
  Ideal.sqrt (max (((∑ c, x b n c * x b n c) + (∑ c, cs b k c * cs b k c)) - w.two * (∑ c, x b n c * cs b k c)) w.e12)

/-- The row maximum of a score over the centers, from minus infinity. -/
def rowMax (z : QT) (b : Fin 4) (n : Fin 16384) : EReal := (Finset.univ : Finset (Fin 256)).fold max ⊥ (fun k => z b n k)

/-- The softmax weights of a score. -/
def weights (z : QT) : QT := fun b n k =>
  Ideal.div (Ideal.exp (z b n k - rowMax z b n)) (∑ k', Ideal.exp (z b n k' - rowMax z b n))

/-- A sum over the 16384 pixels taken tile by tile: four tiles of 4096, accumulated from zero. -/
def sumTiles (zero : EReal) (f : Fin 16384 → EReal) : EReal :=
  (((zero + ∑ r : Fin 4096, f ⟨0 * 4096 + r.val, by omega⟩) + ∑ r : Fin 4096, f ⟨1 * 4096 + r.val, by omega⟩)
    + ∑ r : Fin 4096, f ⟨2 * 4096 + r.val, by omega⟩) + ∑ r : Fin 4096, f ⟨3 * 4096 + r.val, by omega⟩

/-! ## The reference's arrangement -/

def dspatR (p : PT) (cp : CP) (b : Fin 4) (n : Fin 16384) (k : Fin 256) : EReal :=
  Ideal.sqrt (max (((∑ j, p n j * p n j) + (∑ j, cp b k j * cp b k j)) - w.two * (∑ j, p n j * cp b k j)) w.e12)

def scoreR (x : XT) (p : PT) (cs : CS) (cp : CP) : QT := fun b n k =>
  -(dspec w x cs b n k + w.c125 * dspatR w p cp b n k)

def qR (x : XT) (p : PT) (cs : CS) (cp : CP) : QT := weights (scoreR w x p cs cp)

def massR (q : QT) (b : Fin 4) (k : Fin 256) : EReal := (∑ n, q b n k) + w.e6

def csR (x : XT) (q : QT) : CS := fun b k c => Ideal.div (∑ n, q b n k * x b n c) (massR w q b k)
def cpR (p : PT) (q : QT) : CP := fun b k j => Ideal.div (∑ n, q b n k * p n j) (massR w q b k)

/-! ## The kernel's arrangement -/

def dspatK (p : PT) (cp : CP) (b : Fin 4) (n : Fin 16384) (k : Fin 256) : EReal :=
  Ideal.sqrt (max ((p n 0 - cp b k 0) * (p n 0 - cp b k 0) + (p n 1 - cp b k 1) * (p n 1 - cp b k 1)) w.e12)

def scoreK (x : XT) (p : PT) (cs : CS) (cp : CP) : QT := fun b n k =>
  w.zero - (dspec w x cs b n k + w.c125 * dspatK w p cp b n k)

def qK (x : XT) (p : PT) (cs : CS) (cp : CP) : QT := weights (scoreK w x p cs cp)

def massK (q : QT) (b : Fin 4) (k : Fin 256) : EReal := sumTiles w.zero (fun n => q b n k * w.one) + w.e6

def csK (x : XT) (q : QT) : CS := fun b k c => Ideal.div (sumTiles w.zero (fun n => q b n k * x b n c)) (massK w q b k)
def cpK (p : PT) (q : QT) : CP := fun b k j => Ideal.div (sumTiles w.zero (fun n => q b n k * p n j)) (massK w q b k)

/-! ## Five rounds -/

/-- The centers after `r` rounds of the reference's arrangement, from seed centers. -/
def iterR (x : XT) (p : PT) (cs0 : CS) (cp0 : CP) : ℕ → CS × CP
  | 0 => (cs0, cp0)
  | r + 1 => let s := iterR x p cs0 cp0 r; (csR w x (qR w x p s.1 s.2), cpR w p (qR w x p s.1 s.2))

/-- The same of the kernel's arrangement. -/
def iterK (x : XT) (p : PT) (cs0 : CS) (cp0 : CP) : ℕ → CS × CP
  | 0 => (cs0, cp0)
  | r + 1 => let s := iterK x p cs0 cp0 r; (csK w x (qK w x p s.1 s.2), cpK w p (qK w x p s.1 s.2))

end Cert.Proof.Slic.Spec

end
-- ==== Proof.LibSqDist.lean ====
/-
  Squared distance in the plane, expanded: over the extended reals, for REAL arguments,
  (y - a)² + (x - b)² = ((y² + x²) + (a² + b²)) - 2 (y a + x b), in the pairwise form and with the three
  pairs read as sums over an axis of extent two. Also the coercion facts used to get there: a finite sum, a
  product, a difference, a sum of two, of coercions of reals is the coercion of the real result. The
  law CAN FAIL at an infinity (at y = ⊤, a = 1, with x and b real, the left side is ⊤ and the right side is
  ⊤ - ⊤ = ⊥; at y = ⊤, a = b = 0 both sides are ⊤), which is why every statement here takes reals.
-/
import Mathlib.Data.EReal.Inv
import Mathlib.Algebra.BigOperators.Fin
import Mathlib.Tactic.Ring

namespace Cert.Proof.Slic

open scoped BigOperators

/-! ## Coercions of reals into the extended reals -/

/-- A sum, over a finite set, of coercions of reals is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum, over a whole finite index type, of coercions of reals is the coercion of the real sum. -/
theorem coe_sum {ι : Type*} [Fintype ι] (f : ι → ℝ) :
    (∑ i, ((f i : ℝ) : EReal)) = ((∑ i, f i : ℝ) : EReal) :=
  coe_finset_sum Finset.univ f

/-- A sum of products of coercions of reals is the coercion of the real sum of products (a contraction of
    two real families along one axis). -/
theorem coe_sum_mul {ι : Type*} [Fintype ι] (f g : ι → ℝ) :
    (∑ i, ((f i : ℝ) : EReal) * ((g i : ℝ) : EReal)) = ((∑ i, f i * g i : ℝ) : EReal) := by
  rw [← coe_sum]; exact Finset.sum_congr rfl (fun i _ => (EReal.coe_mul _ _).symm)

/-- The product of two coercions is the coercion of the product. -/
theorem coe_mul_coe (u v : ℝ) : (u : EReal) * (v : EReal) = ((u * v : ℝ) : EReal) := (EReal.coe_mul u v).symm

/-- The difference of two coercions is the coercion of the difference. -/
theorem coe_sub_coe (u v : ℝ) : (u : EReal) - (v : EReal) = ((u - v : ℝ) : EReal) := (EReal.coe_sub u v).symm

/-- The sum of two coercions is the coercion of the sum. -/
theorem coe_add_coe (u v : ℝ) : (u : EReal) + (v : EReal) = ((u + v : ℝ) : EReal) := (EReal.coe_add u v).symm

/-- The negative of a coercion is the coercion of the negative. -/
theorem neg_coe (u : ℝ) : -(u : EReal) = ((-u : ℝ) : EReal) := (EReal.coe_neg u).symm

/-- The extended real `2` is the coercion of the real `2`. -/
theorem two_eq_coe : (2 : EReal) = ((2 : ℝ) : EReal) := by norm_cast

/-! ## The squared distance, expanded -/

/-- Over the reals: `(y - a)² + (x - b)² = ((y² + x²) + (a² + b²)) - 2 (y a + x b)`. -/
theorem sqdist_real (y x a b : ℝ) :
    (y - a) * (y - a) + (x - b) * (x - b) = ((y * y + x * x) + (a * a + b * b)) - 2 * (y * a + x * b) := by
  ring

/-- Over the extended reals, for real `y x a b`: the sum of the two squared differences is the sum of the
    squared norms less twice the inner product, each side associated as written. -/
theorem sqdist_expand (y x a b : ℝ) :
    ((y : EReal) - (a : EReal)) * ((y : EReal) - (a : EReal)) + ((x : EReal) - (b : EReal)) * ((x : EReal) - (b : EReal))
      = (((y : EReal) * (y : EReal) + (x : EReal) * (x : EReal)) + ((a : EReal) * (a : EReal) + (b : EReal) * (b : EReal)))
        - (2 : EReal) * ((y : EReal) * (a : EReal) + (x : EReal) * (b : EReal)) := by
  rw [two_eq_coe]
  simp only [coe_sub_coe, coe_mul_coe, coe_add_coe]
  rw [sqdist_real]

/-- The same with the factor two given as the coercion of the real `2`. -/
theorem sqdist_expand_coe2 (y x a b : ℝ) :
    ((y : EReal) - (a : EReal)) * ((y : EReal) - (a : EReal)) + ((x : EReal) - (b : EReal)) * ((x : EReal) - (b : EReal))
      = (((y : EReal) * (y : EReal) + (x : EReal) * (x : EReal)) + ((a : EReal) * (a : EReal) + (b : EReal) * (b : EReal)))
        - ((2 : ℝ) : EReal) * ((y : EReal) * (a : EReal) + (x : EReal) * (b : EReal)) := by
  rw [← two_eq_coe]; exact sqdist_expand y x a b

/-- The same with the three pairs read as sums over an axis of extent two: for `p c : Fin 2 → ℝ`,
    `(p 0 - c 0)² + (p 1 - c 1)² = ((∑ j, p j · p j) + (∑ j, c j · c j)) - 2 · ∑ j, p j · c j` over the
    extended reals. -/
theorem sqdist_expand_fin2 (p c : Fin 2 → ℝ) :
    ((p 0 : EReal) - (c 0 : EReal)) * ((p 0 : EReal) - (c 0 : EReal))
        + ((p 1 : EReal) - (c 1 : EReal)) * ((p 1 : EReal) - (c 1 : EReal))
      = ((∑ j : Fin 2, (p j : EReal) * (p j : EReal)) + (∑ j : Fin 2, (c j : EReal) * (c j : EReal)))
        - (2 : EReal) * (∑ j : Fin 2, (p j : EReal) * (c j : EReal)) := by
  rw [Fin.sum_univ_two, Fin.sum_univ_two, Fin.sum_univ_two]
  exact sqdist_expand (p 0) (p 1) (c 0) (c 1)

/-- The expanded form is the coercion of a real, and that real is the sum of the two squared differences
    (so it is nonnegative): the value both readings of the planar distance take. -/
theorem sqdist_expand_fin2_coe (p c : Fin 2 → ℝ) :
    ((∑ j : Fin 2, (p j : EReal) * (p j : EReal)) + (∑ j : Fin 2, (c j : EReal) * (c j : EReal)))
        - (2 : EReal) * (∑ j : Fin 2, (p j : EReal) * (c j : EReal))
      = (((p 0 - c 0) * (p 0 - c 0) + (p 1 - c 1) * (p 1 - c 1) : ℝ) : EReal) := by
  rw [← sqdist_expand_fin2]
  simp only [coe_sub_coe, coe_mul_coe, coe_add_coe]

/-- The pairwise form is the coercion of the real sum of the two squared differences. -/
theorem sqdist_pair_coe (y x a b : ℝ) :
    ((y : EReal) - (a : EReal)) * ((y : EReal) - (a : EReal)) + ((x : EReal) - (b : EReal)) * ((x : EReal) - (b : EReal))
      = (((y - a) * (y - a) + (x - b) * (x - b) : ℝ) : EReal) := by
  simp only [coe_sub_coe, coe_mul_coe, coe_add_coe]

end Cert.Proof.Slic
-- ==== Proof.LibRealClosure.lean ====
/-
  Closure of the REAL extended reals (the coercions of real numbers) under the operations of one round of
  a soft clustering: sums, products, differences, maxima, the square root of a maximum with a nonnegative
  real, the exponential, and the quotient by a positive real. Each fact is stated twice: as a rewrite rule
  that names the real result (`op ↑a ↑b = ↑(a op b)`), and as closure of the predicates `IsReal` (a
  coercion of a real) and `IsPosReal` (a coercion of a positive real), which compose along a term: real
  centers and real data give real distances, a real score, a positive real exponential, a positive real
  row sum, a positive real weight, a positive real mass, and real new centers.
  The square root, the exponential and the quotient are the extended-real functions `Ideal.sqrt`,
  `Ideal.exp`, `Ideal.div` (the quotient is `x * y⁻¹` off zero); the quotient by EReal's own `/` is
  stated beside it.
-/
import Idealize.ShloMosaic.PureOps.Ideal
import proofs.«138879_j15556371546814_2_alg».proof.Proof.LibSqDist

noncomputable section

namespace Cert.Proof.Slic

open scoped BigOperators
open Idealize.ShloMosaic

/-! ## Rewrite rules: the operation of coercions is the coercion of the real operation -/

/-- The maximum of two coercions is the coercion of the maximum. -/
theorem max_coe_coe (a b : ℝ) : max (a : EReal) (b : EReal) = ((max a b : ℝ) : EReal) :=
  (EReal.coe_strictMono.monotone.map_max).symm

/-- The minimum of two coercions is the coercion of the minimum. -/
theorem min_coe_coe (a b : ℝ) : min (a : EReal) (b : EReal) = ((min a b : ℝ) : EReal) :=
  (EReal.coe_strictMono.monotone.map_min).symm

/-- The square root of the coercion of a nonnegative real is the coercion of its real square root. -/
theorem sqrt_coe_of_nonneg {r : ℝ} (h : 0 ≤ r) : Ideal.sqrt (r : EReal) = ((Real.sqrt r : ℝ) : EReal) := by
  rw [Ideal.sqrt_coe, if_neg (not_lt.mpr h)]

/-- The square root of the maximum of a real with a nonnegative real `e` is the coercion of
    `√(max a e)`: the clamp keeps the argument off the negatives. -/
theorem sqrt_max_coe (a : ℝ) {e : ℝ} (he : 0 ≤ e) :
    Ideal.sqrt (max (a : EReal) (e : EReal)) = ((Real.sqrt (max a e) : ℝ) : EReal) := by
  rw [max_coe_coe, sqrt_coe_of_nonneg (le_max_of_le_right he)]

/-- The exponential of a coercion is the coercion of the real exponential. -/
theorem exp_coe (r : ℝ) : Ideal.exp (r : EReal) = ((Real.exp r : ℝ) : EReal) := rfl

/-- The quotient of a coercion by the coercion of a nonzero real is the coercion of the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The same for EReal's own quotient `x / y = x * y⁻¹` (no side condition: `0⁻¹ = 0` on both sides). -/
theorem ediv_coe_coe (a b : ℝ) : (a : EReal) / (b : EReal) = ((a / b : ℝ) : EReal) := by
  rw [div_eq_mul_inv, div_eq_mul_inv, ← EReal.coe_inv, ← EReal.coe_mul]

/-! ## Real and positive real extended reals -/

/-- An extended real is REAL when it is the coercion of a real number. -/
def IsReal (z : EReal) : Prop := ∃ r : ℝ, z = (r : EReal)

/-- An extended real is POSITIVE REAL when it is the coercion of a positive real number. -/
def IsPosReal (z : EReal) : Prop := ∃ r : ℝ, 0 < r ∧ z = (r : EReal)

theorem isReal_coe (r : ℝ) : IsReal (r : EReal) := ⟨r, rfl⟩
theorem isPosReal_coe {r : ℝ} (h : 0 < r) : IsPosReal (r : EReal) := ⟨r, h, rfl⟩
theorem isReal_zero : IsReal (0 : EReal) := ⟨0, rfl⟩
theorem isReal_one : IsReal (1 : EReal) := ⟨1, rfl⟩
theorem isReal_two : IsReal (2 : EReal) := ⟨2, two_eq_coe⟩

/-- A positive real extended real is real. -/
theorem IsPosReal.isReal {z : EReal} (h : IsPosReal z) : IsReal z := let ⟨r, _, e⟩ := h; ⟨r, e⟩

/-- A real extended real is neither infinity; conversely an extended real that is neither infinity is real. -/
theorem IsReal.ne_top {z : EReal} (h : IsReal z) : z ≠ ⊤ := by obtain ⟨r, rfl⟩ := h; exact EReal.coe_ne_top r
theorem IsReal.ne_bot {z : EReal} (h : IsReal z) : z ≠ ⊥ := by obtain ⟨r, rfl⟩ := h; exact EReal.coe_ne_bot r
theorem isReal_of_ne {z : EReal} (ht : z ≠ ⊤) (hb : z ≠ ⊥) : IsReal z := ⟨z.toReal, (EReal.coe_toReal ht hb).symm⟩

/-- A positive real extended real is positive, hence not zero. -/
theorem IsPosReal.pos {z : EReal} (h : IsPosReal z) : 0 < z := by
  obtain ⟨r, hr, rfl⟩ := h; exact EReal.coe_pos.mpr hr
theorem IsPosReal.ne_zero {z : EReal} (h : IsPosReal z) : z ≠ 0 := h.pos.ne'

theorem IsReal.add {u v : EReal} (hu : IsReal u) (hv : IsReal v) : IsReal (u + v) := by
  obtain ⟨a, rfl⟩ := hu; obtain ⟨b, rfl⟩ := hv; exact ⟨a + b, coe_add_coe a b⟩

theorem IsReal.sub {u v : EReal} (hu : IsReal u) (hv : IsReal v) : IsReal (u - v) := by
  obtain ⟨a, rfl⟩ := hu; obtain ⟨b, rfl⟩ := hv; exact ⟨a - b, coe_sub_coe a b⟩

theorem IsReal.mul {u v : EReal} (hu : IsReal u) (hv : IsReal v) : IsReal (u * v) := by
  obtain ⟨a, rfl⟩ := hu; obtain ⟨b, rfl⟩ := hv; exact ⟨a * b, coe_mul_coe a b⟩

theorem IsReal.neg {u : EReal} (hu : IsReal u) : IsReal (-u) := by
  obtain ⟨a, rfl⟩ := hu; exact ⟨-a, neg_coe a⟩

theorem IsReal.max {u v : EReal} (hu : IsReal u) (hv : IsReal v) : IsReal (max u v) := by
  obtain ⟨a, rfl⟩ := hu; obtain ⟨b, rfl⟩ := hv; exact ⟨_, max_coe_coe a b⟩

/-- A sum over a finite set of real extended reals is real. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum over a whole finite index type of real extended reals is real. -/
theorem IsReal.sum_univ {ι : Type*} [Fintype ι] (f : ι → EReal) (h : ∀ i, IsReal (f i)) : IsReal (∑ i, f i) :=
  IsReal.sum Finset.univ f fun i _ => h i

/-- The square root of the maximum of a real extended real with a nonnegative real is real (and nonnegative:
    it is the coercion of a real square root). -/
theorem IsReal.sqrt_max {u : EReal} (hu : IsReal u) {e : ℝ} (he : 0 ≤ e) :
    IsReal (Ideal.sqrt (Max.max u (e : EReal))) := by
  obtain ⟨a, rfl⟩ := hu; exact ⟨_, sqrt_max_coe a he⟩

/-- The exponential of a real extended real is positive real. -/
theorem IsReal.exp {u : EReal} (hu : IsReal u) : IsPosReal (Ideal.exp u) := by
  obtain ⟨a, rfl⟩ := hu; exact ⟨Real.exp a, Real.exp_pos a, rfl⟩

/-- Positive reals are closed under sums of two, and absorb a real that is nonnegative on either side. -/
theorem IsPosReal.add {u v : EReal} (hu : IsPosReal u) (hv : IsPosReal v) : IsPosReal (u + v) := by
  obtain ⟨a, ha, rfl⟩ := hu; obtain ⟨b, hb, rfl⟩ := hv; exact ⟨a + b, add_pos ha hb, coe_add_coe a b⟩

theorem IsPosReal.mul {u v : EReal} (hu : IsPosReal u) (hv : IsPosReal v) : IsPosReal (u * v) := by
  obtain ⟨a, ha, rfl⟩ := hu; obtain ⟨b, hb, rfl⟩ := hv; exact ⟨a * b, mul_pos ha hb, coe_mul_coe a b⟩

/-- A sum over a NONEMPTY finite set of positive real extended reals is positive real. -/
theorem IsPosReal.sum {ι : Type*} (s : Finset ι) (hs : s.Nonempty) (f : ι → EReal) (h : ∀ i ∈ s, IsPosReal (f i)) :
    IsPosReal (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- A sum over a whole nonempty finite index type of positive real extended reals is positive real. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-- A real extended real divided by a positive real one is real. -/
theorem IsReal.div {u v : EReal} (hu : IsReal u) (hv : IsPosReal v) : IsReal (Ideal.div u v) := by
  obtain ⟨a, rfl⟩ := hu; obtain ⟨b, hb, rfl⟩ := hv; exact ⟨a / b, div_coe_coe a hb.ne'⟩

/-- A positive real extended real divided by a positive real one is positive real. -/
theorem IsPosReal.div {u v : EReal} (hu : IsPosReal u) (hv : IsPosReal v) : IsPosReal (Ideal.div u v) := by
  obtain ⟨a, ha, rfl⟩ := hu; obtain ⟨b, hb, rfl⟩ := hv; exact ⟨a / b, div_pos ha hb, div_coe_coe a hb.ne'⟩

/-- The same two facts for EReal's own quotient. -/
theorem IsReal.ediv {u v : EReal} (hu : IsReal u) (hv : IsReal v) : IsReal (u / v) := by
  obtain ⟨a, rfl⟩ := hu; obtain ⟨b, rfl⟩ := hv; exact ⟨a / b, ediv_coe_coe a b⟩

theorem IsPosReal.ediv {u v : EReal} (hu : IsPosReal u) (hv : IsPosReal v) : IsPosReal (u / v) := by
  obtain ⟨a, ha, rfl⟩ := hu; obtain ⟨b, hb, rfl⟩ := hv; exact ⟨a / b, div_pos ha hb, ediv_coe_coe a b⟩

/-! ## A running maximum from the bottom -/

/-- The maximum of the bottom element with an extended real is that extended real. -/
theorem max_bot_left (u : EReal) : Max.max (⊥ : EReal) u = u := max_eq_right bot_le

/-- A left fold of `max` over a list of real extended reals, started at a real one, is real. -/
theorem IsReal.foldl_max {ι : Type*} (f : ι → EReal) (l : List ι) (h : ∀ i ∈ l, IsReal (f i)) {init : EReal}
    (hi : IsReal init) : IsReal (l.foldl (fun acc i => Max.max acc (f i)) init) := by
  induction l generalizing init with
  | nil => exact hi
  | cons a l ih =>
    rw [List.foldl_cons]
    exact ih (fun i hi' => h i (List.mem_cons_of_mem a hi')) (hi.max (h a List.mem_cons_self))

/-- A left fold of `max` over a NONEMPTY list of real extended reals, started at the bottom, is real. -/
theorem IsReal.foldl_max_bot {ι : Type*} (f : ι → EReal) (a : ι) (l : List ι) (h : ∀ i ∈ a :: l, IsReal (f i)) :
    IsReal ((a :: l).foldl (fun acc i => Max.max acc (f i)) ⊥) := by
  rw [List.foldl_cons, max_bot_left]
  exact IsReal.foldl_max f l (fun i hi => h i (List.mem_cons_of_mem a hi)) (h a List.mem_cons_self)

/-- A fold of `max` over a finite set of real extended reals, started at a real one, is real. -/
theorem IsReal.fold_max {ι : Type*} (s : Finset ι) (f : ι → EReal) (h : ∀ i ∈ s, IsReal (f i)) {init : EReal}
    (hi : IsReal init) : IsReal (s.fold Max.max init f) := by
  classical
  induction s using Finset.induction_on with
  | empty => rw [Finset.fold_empty]; exact hi
  | insert a s ha ih =>
    rw [Finset.fold_insert ha]
    exact (h a (Finset.mem_insert_self a s)).max (ih fun i hi' => h i (Finset.mem_insert_of_mem hi'))

/-- A fold of `max` over a NONEMPTY finite set of real extended reals, started at the bottom, is real. -/
theorem IsReal.fold_max_bot {ι : Type*} (s : Finset ι) (hs : s.Nonempty) (f : ι → EReal) (h : ∀ i ∈ s, IsReal (f i)) :
    IsReal (s.fold Max.max ⊥ f) := by
  classical
  induction hs using Finset.Nonempty.cons_induction with
  | singleton a => rw [Finset.fold_singleton, max_comm, max_bot_left]; exact h a (Finset.mem_singleton_self a)
  | cons a s ha _ ih =>
    rw [Finset.fold_cons]
    exact (h a (Finset.mem_cons_self a s)).max (ih fun i hi => h i (Finset.mem_cons.mpr (Or.inr hi)))

/-! ## The normalized weights, over the reals -/

/-- A sum of real exponentials over a nonempty finite index type is positive. -/
theorem sum_exp_pos {ι : Type*} [Fintype ι] [Nonempty ι] (f : ι → ℝ) : 0 < ∑ i, Real.exp (f i) :=
  Finset.sum_pos (fun i _ => Real.exp_pos _) Finset.univ_nonempty

/-- If the shift `m` is attained (`f k₀ = m`), the shifted exponentials sum to at least one: the term at
    `k₀` is `exp 0 = 1` and the others are nonnegative. -/
theorem one_le_sum_exp_sub {ι : Type*} [Fintype ι] (f : ι → ℝ) (m : ℝ) (k₀ : ι) (h : f k₀ = m) :
    1 ≤ ∑ i, Real.exp (f i - m) := by
  have h1 : Real.exp (f k₀ - m) = 1 := by rw [h, sub_self, Real.exp_zero]
  rw [← h1]
  exact Finset.single_le_sum (f := fun i => Real.exp (f i - m)) (fun i _ => (Real.exp_pos _).le) (Finset.mem_univ k₀)

/-- A normalized weight `exp (f k - m) / ∑ i, exp (f i - m)` is positive and at most one. -/
theorem softmax_pos {ι : Type*} [Fintype ι] [Nonempty ι] (f : ι → ℝ) (m : ℝ) (k : ι) :
    0 < Real.exp (f k - m) / ∑ i, Real.exp (f i - m) :=
  div_pos (Real.exp_pos _) (sum_exp_pos fun i => f i - m)

theorem softmax_le_one {ι : Type*} [Fintype ι] [Nonempty ι] (f : ι → ℝ) (m : ℝ) (k : ι) :
    Real.exp (f k - m) / ∑ i, Real.exp (f i - m) ≤ 1 :=
  (div_le_one (sum_exp_pos fun i => f i - m)).mpr
    (Finset.single_le_sum (f := fun i => Real.exp (f i - m)) (fun i _ => (Real.exp_pos _).le) (Finset.mem_univ k))

end Cert.Proof.Slic

end
-- ==== Proof.Words.lean ====
/-
  The six float words of the soft clustering, evaluated: 2, 1.25, the two small positive floors, 1 and 0 as
  extended reals. The words 2, 1 and 0 are exact; of 1.25 only that it is a real number is used; of the floor
  under the squared distances only that it is a nonnegative real, and of the floor added to the mass only that it
  is a positive real.
-/
import proofs.«138879_j15556371546814_2_alg».proof.Proof.Spec
import proofs.«138879_j15556371546814_2_alg».proof.Proof.LibRealClosure

noncomputable section

namespace Cert.Proof.Slic.Spec

open Idealize.ShloMosaic
open Cert.Proof.Slic

/-- The words as the bit patterns the two programs carry: five single-precision patterns and one bfloat16. -/
def wordsI : Words :=
  ⟨Ideal.ofBits .f32 0x40000000#32, Ideal.ofBits .f32 0x3FA00000#32, Ideal.ofBits .f32 0x2B8CBCCC#32,
   Ideal.ofBits .f32 0x358637BD#32, Ideal.ofBits .bf16 0x3F80#16, Ideal.ofBits .f32 0x00000000#32⟩

/-- What one round needs of the words: two, one and zero are those numbers, the factor on the spatial distance
    is a real, the floor under the squared distances a nonnegative real, the floor added to the mass a positive
    real. -/
structure Words.Good (w : Words) : Prop where
  two : w.two = 2
  one : w.one = 1
  zero : w.zero = 0
  c125 : IsReal w.c125
  e12 : ∃ r : ℝ, 0 ≤ r ∧ w.e12 = (r : EReal)
  e6 : IsPosReal w.e6

/-- The pattern 0x40000000 is 2: exponent field 128, no fraction bits, so 2^23 * 2^(128 - 127 - 23). -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The bfloat16 pattern 0x3F80 is 1: exponent field 127, no fraction bits. -/
theorem ofBits_one_bf16' : Ideal.ofBits .bf16 0x3F80#16 = 1 := by
  rw [show (1 : EReal) = ((1 : ℝ) : EReal) by norm_cast]
  simp [Ideal.ofBits, Ideal.ieee, -EReal.coe_mul]; norm_num

/-- The all-zero pattern is 0. -/
theorem ofBits_zero_f32' : Ideal.ofBits .f32 0x00000000#32 = 0 := by simp [Ideal.ofBits, Ideal.ieee]

/-- The pattern 0x3FA00000 (1.25) is a normal number, hence a real. -/
theorem ofBits_c125_real : IsReal (Ideal.ofBits .f32 0x3FA00000#32) := by
  simp [Ideal.ofBits, Ideal.ieee, -EReal.coe_mul]
  exact ⟨_, rfl⟩

/-- The pattern 0x2B8CBCCC is a positive normal number: a positive integer times a power of two. -/
theorem ofBits_e12_pos : IsPosReal (Ideal.ofBits .f32 0x2B8CBCCC#32) := by
  simp [Ideal.ofBits, Ideal.ieee, -EReal.coe_mul]
  exact ⟨_, by positivity, rfl⟩

/-- The pattern 0x358637BD is a positive normal number. -/
theorem ofBits_e6_pos : IsPosReal (Ideal.ofBits .f32 0x358637BD#32) := by
  simp [Ideal.ofBits, Ideal.ieee, -EReal.coe_mul]
  exact ⟨_, by positivity, rfl⟩

/-- The words the programs carry are good. -/
theorem wordsI_good : wordsI.Good where
  two := ofBits_two_f32
  one := ofBits_one_bf16'
  zero := ofBits_zero_f32'
  c125 := ofBits_c125_real
  e12 := let ⟨r, hr, e⟩ := ofBits_e12_pos; ⟨r, hr.le, e⟩
  e6 := ofBits_e6_pos

end Cert.Proof.Slic.Spec

end
-- ==== Proof.KPayLib.lean ====
/-
  Small reading lemmas for rank-two blocks at the ideal values: a column broadcast along the rows, a row's
  sum and a row's maximum over the lanes, and the two matrix products of the body (both operands contracted
  on their last axis; both contracted on their first axis) into a zero accumulator, each as a plain sum over
  the contracted coordinate.
-/
import proofs.«138879_j15556371546814_2_alg».proof.Proof.Gen.KernelIdeal.Skeleton
import proofs.«138879_j15556371546814_2_alg».proof.Proof.Spec
import proofs.«138879_j15556371546814_2_alg».proof.Proof.Words
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Slic.KPay

open Idealize.ShloMosaic Idealize.ShloMosaic.ValueIdx
open scoped BigOperators

section Layout
variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A row's sum over the lanes: the reduction of `[n, m]` over its second axis, read at row `r`. -/
theorem rowSum_apply {n m : ℕ} {φ : FTy} (v : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ v acc h hφ hacc (ix1 r) = ∑ c : Fin m, v (ix2 r c) := by
  rw [Ideal.multiReduction_add_single]
  refine Finset.sum_congr rfl fun c _ => congrArg v ?_
  funext ax; apply Fin.ext
  match ax with
  | ⟨0, _⟩ => rfl
  | ⟨1, _⟩ => rfl

/-- The product of an `m × k` by an `n × k` block, both contracted on their last axis, into a zero
    accumulator: at `(a, b)` the sum over `c` of the products of the entries `(a, c)` and `(b, c)`. -/
theorem matmul_nt_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The product of a `k × m` by a `k × n` block, both contracted on their first axis, into a zero
    accumulator: at `(a, b)` the sum over `c` of the products of the entries `(c, a)` and `(c, b)`. -/
theorem matmul_tn_apply {k m n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims _ _ _) prec A B
        (constant (F := Ideal) ⟨2, ![m, n]⟩ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Proof.Slic.KPay

end
-- ==== Proof.KPay1.lean ====
/-
  The spectral distance of the body, read at an index. For a tile of pixels x (4096 rows of 200 channels)
  and the centers cs (256 rows of 200 channels), the body forms the squared norms of the rows of each by a
  lane sum, the cross terms by one matrix product into a zero accumulator, and takes
  sqrt (max ((|x_r|^2 + |cs_k|^2) - 2 <x_r, cs_k>, eps12)) at (r, k). The format changes are the identity at
  the ideal values.
-/
import proofs.«138879_j15556371546814_2_alg».proof.Proof.KPayLib

noncomputable section

namespace Cert.Proof.Slic.KPay

open Cert.KernelIdeal Cert.KernelIdeal.Gen
open Idealize.ShloMosaic Idealize.ShloMosaic.ValueIdx
open scoped BigOperators

/-- The spectral distance of the body at pixel row `r` and center `k`. -/
theorem pay11_apply (xb : Vec Ideal S1x4096x200 .bf16) (csb : Vec Ideal S1x256x200 .f32) (r : Fin 4096) (k : Fin 256) :
    k0_pay11 (F := Ideal) xb csb (ix2 r k)
      = Ideal.sqrt (max (((∑ c : Fin 200, xb (ix3 0 r c) * xb (ix3 0 r c))
            + (∑ c : Fin 200, csb (ix3 0 k c) * csb (ix3 0 k c)))
          - Spec.wordsI.two * (∑ c : Fin 200, xb (ix3 0 r c) * csb (ix3 0 k c))) Spec.wordsI.e12) := by
  unfold k0_pay11 k0_pay9
  refine congrArg Ideal.sqrt ?_
  refine congrArg₂ max ?_ rfl
  refine congrArg₂ (· - ·) (congrArg₂ (· + ·) ?_ ?_) (congrArg₂ (· * ·) rfl ?_)
  · -- the pixel row's squared norm
    refine (broadcastTo_a1_ab_apply _ _ r k).trans ?_
    refine (shapeCast_a_a1_apply _ _ r 0).trans ?_
    refine (rowSum_apply _ _ _ _ _ r).trans ?_
    refine Finset.sum_congr rfl fun c _ => ?_
    exact congrArg₂ (· * ·) (shapeCast_1ab_ab_apply xb _ r c) (shapeCast_1ab_ab_apply xb _ r c)
  · -- the center's squared norm
    refine (broadcastTo_1b_ab_apply _ _ r k).trans ?_
    refine (transpose_ix2_apply _ _ (0 : Fin 1) k).trans ?_
    refine (shapeCast_a_a1_apply _ _ k 0).trans ?_
    refine (rowSum_apply _ _ _ _ _ k).trans ?_
    refine Finset.sum_congr rfl fun c _ => ?_
    exact congrArg₂ (· * ·) (shapeCast_1ab_ab_apply csb _ k c) (shapeCast_1ab_ab_apply csb _ k c)
  · -- the cross term
    refine (matmul_nt_apply _ none _ _ r k).trans ?_
    refine Finset.sum_congr rfl fun c _ => ?_
    exact congrArg₂ (· * ·) (shapeCast_1ab_ab_apply xb _ r c) (shapeCast_1ab_ab_apply csb _ k c)

end Cert.Proof.Slic.KPay

end
-- ==== Proof.KPay3.lean ====
/-
  The weights of the body, read at an index. From the spectral distance d, the pixel coordinates py, px (one
  column each) and the spatial centers v8 (256 rows, the row coordinate in column 0 and the column coordinate in
  column 1), the body forms the score z r k = zero - (d r k + c125 * sqrt (max ((py r - v8 k 0)^2 + (px r - v8 k 1)^2,
  eps12))), takes each row's maximum M r over the 256 centers from the minus-infinity word, and returns
  exp (z r k - M r) over the row's sum of exp (z r k' - M r). The lane maximum from minus infinity is a fold of
  max from the bottom element; the narrowing at the end is the identity at the ideal values.
-/
import proofs.«138879_j15556371546814_2_alg».proof.Proof.KPayLib

noncomputable section

namespace Cert.Proof.Slic.KPay

open Cert.KernelIdeal Cert.KernelIdeal.Gen
open Idealize.ShloMosaic Idealize.ShloMosaic.ValueIdx
open scoped BigOperators

/-! ## A row's maximum over the lanes -/

/-- The single-precision pattern of minus infinity denotes the bottom element. -/
theorem ofBits_neg_inf_f32 : Ideal.ofBits .f32 0xFF800000#32 = (⊥ : EReal) := by
  simp [Ideal.ofBits, Ideal.ieee]

/-- A row's maximum over the lanes from the minus-infinity word: the reduction of `[n, m]` over its second
    axis, read at row `r`, is the fold of `max` from the bottom element over the row. -/
theorem rowMax_apply {n m : ℕ} (v : FVec Ideal ⟨2, ![n, m]⟩ .f32)
    (h : (⟨2, ![n, m]⟩ : Shape).Reduces [1] ⟨1, ![n]⟩) (hφ : FKind.Formats .f32)
    (hacc : (0xFF800000#32 : BitVec (FTy.bits .f32)) = FKind.maximumf.neutral .f32 hφ) (r : Fin n) :
    multiReduction .maximumf [1] ⟨1, ![n]⟩ v 0xFF800000#32 h hφ hacc (ix1 r)
      = (Finset.univ : Finset (Fin m)).fold max ⊥ (fun c => v (ix2 r c)) := by
  refine (Ideal.multiReduction_maximumf_single v _ h hφ hacc (ix1 r)).trans ?_
  refine congrArg₂ (fun (b : EReal) (f : Fin m → EReal) => (Finset.univ : Finset (Fin m)).fold max b f)
    ofBits_neg_inf_f32 (funext fun c => congrArg v ?_)
  funext ax; apply Fin.ext
  match ax with
  | ⟨0, _⟩ => rfl
  | ⟨1, _⟩ => rfl

/-! ## The softmax of a block of scores, as the body computes it -/

/-- Each row's maximum over the 256 centers, spread back along the row. -/
def rowMaxV (s : FVec Ideal S4096x256 .f32) : FVec Ideal S4096x256 .f32 :=
  broadcastTo S4096x256
    (shapeCast S4096x1
      (multiReduction .maximumf [1] S4096 s 0xFF800000#32 reduces_S4096x256_S4096 (.inl rfl) rfl)
      shapeCasts_S4096_S4096x1)
    broadcasts_S4096x1_S4096x256

/-- The exponentials of the scores less their row's maximum. -/
def expV (s : FVec Ideal S4096x256 .f32) : FVec Ideal S4096x256 .f32 := exp (subf s (rowMaxV s))

/-- Each row's sum over the 256 centers, spread back along the row. -/
def rowSumV (e : FVec Ideal S4096x256 .f32) : FVec Ideal S4096x256 .f32 :=
  broadcastTo S4096x256
    (shapeCast S4096x1
      (multiReduction .add [1] S4096 e 0x00000000#32 reduces_S4096x256_S4096 (.inl rfl) rfl)
      shapeCasts_S4096_S4096x1)
    broadcasts_S4096x1_S4096x256

/-- The softmax of the scores along each row, narrowed. -/
def softmaxV (s : FVec Ideal S4096x256 .f32) : FVec Ideal S4096x256 .bf16 :=
  truncf .bf16 (divf (expV s) (rowSumV (expV s))) bitsLt_bf16_f32

section Softmax
variable (s : FVec Ideal S4096x256 .f32) (z : Fin 4096 → Fin 256 → EReal) (hz : ∀ r k, s (ix2 r k) = z r k)
include hz

theorem rowMaxV_apply (r : Fin 4096) (k : Fin 256) :
    rowMaxV s (ix2 r k) = (Finset.univ : Finset (Fin 256)).fold max ⊥ (fun k' => z r k') := by
  unfold rowMaxV
  refine (broadcastTo_a1_ab_apply _ _ r k).trans ?_
  refine (shapeCast_a_a1_apply _ _ r 0).trans ?_
  refine (rowMax_apply s _ _ _ r).trans ?_
  exact congrArg (fun f : Fin 256 → EReal => (Finset.univ : Finset (Fin 256)).fold max ⊥ f) (funext fun c => hz r c)

theorem expV_apply (r : Fin 4096) (k : Fin 256) :
    expV s (ix2 r k) = Ideal.exp (z r k - (Finset.univ : Finset (Fin 256)).fold max ⊥ (fun k' => z r k')) := by
  unfold expV
  exact congrArg Ideal.exp (congrArg₂ (· - ·) (hz r k) (rowMaxV_apply s z hz r k))

omit hz in
theorem rowSumV_apply (e : FVec Ideal S4096x256 .f32) (r : Fin 4096) (k : Fin 256) :
    rowSumV e (ix2 r k) = ∑ k' : Fin 256, e (ix2 r k') := by
  unfold rowSumV
  refine (broadcastTo_a1_ab_apply _ _ r k).trans ?_
  refine (shapeCast_a_a1_apply _ _ r 0).trans ?_
  exact rowSum_apply _ _ _ _ _ r

/-- The softmax at `(r, k)`: the exponential of the score less the row's maximum, over the row's sum of them. -/
theorem softmaxV_apply (r : Fin 4096) (k : Fin 256) :
    softmaxV s (ix2 r k)
      = Ideal.div (Ideal.exp (z r k - (Finset.univ : Finset (Fin 256)).fold max ⊥ (fun k' => z r k')))
          (∑ k' : Fin 256, Ideal.exp (z r k' - (Finset.univ : Finset (Fin 256)).fold max ⊥ (fun k'' => z r k''))) := by
  unfold softmaxV
  refine congrArg₂ Ideal.div (expV_apply s z hz r k) ((rowSumV_apply _ r k).trans ?_)
  exact Finset.sum_congr rfl fun c _ => expV_apply s z hz r c

end Softmax

/-! ## The scores -/

/-- The score of pixel row `r` for center `k`. -/
def zK (v8 : FVec Ideal S256x2 .f32) (d : FVec Ideal S4096x256 .f32) (py px : FVec Ideal S4096x1 .f32)
    (r : Fin 4096) (k : Fin 256) : EReal :=
  Spec.wordsI.zero - (d (ix2 r k) + Spec.wordsI.c125 * Ideal.sqrt (max
    ((py (ix2 r (0 : Fin 1)) - v8 (ix2 k (0 : Fin 2))) * (py (ix2 r (0 : Fin 1)) - v8 (ix2 k (0 : Fin 2)))
      + (px (ix2 r (0 : Fin 1)) - v8 (ix2 k (1 : Fin 2))) * (px (ix2 r (0 : Fin 1)) - v8 (ix2 k (1 : Fin 2))))
    Spec.wordsI.e12))

/-- The block of scores, as the body computes it. -/
def scoreV (v8 : FVec Ideal S256x2 .f32) (v27 : FVec Ideal S4096x256 .f32) (v36 v37 : FVec Ideal S4096x1 .f32) :
    FVec Ideal S4096x256 .f32 :=
  have v38 : FVec Ideal S2x256 .f32 := transpose S2x256 [1, 0] v8 transposes_S256x2_p1_0_S2x256
  have v39 : FVec Ideal S1x256 .f32 := extractStridedSlice S1x256 ![0, 0] v38 slices_S2x256_o0_0_S1x256
  have v40 : FVec Ideal S1x256 .f32 := extractStridedSlice S1x256 ![1, 0] v38 slices_S2x256_o1_0_S1x256
  have v43 : FVec Ideal S4096x256 .f32 :=
    subf (broadcastTo S4096x256 v36 broadcasts_S4096x1_S4096x256) (broadcastTo S4096x256 v39 broadcasts_S1x256_S4096x256)
  have v46 : FVec Ideal S4096x256 .f32 :=
    subf (broadcastTo S4096x256 v37 broadcasts_S4096x1_S4096x256) (broadcastTo S4096x256 v40 broadcasts_S1x256_S4096x256)
  have v49 : FVec Ideal S4096x256 .f32 := addf (mulf v43 v43) (mulf v46 v46)
  have v51 : FVec Ideal S4096x256 .f32 := maximumf v49 (broadcast S4096x256 (Scalar.ofBits .f32 0x2B8CBCCC#32))
  have v54 : FVec Ideal S4096x256 .f32 := mulf (broadcast S4096x256 (Scalar.ofBits .f32 0x3FA00000#32)) (sqrt v51)
  subf (broadcast S4096x256 (Scalar.ofBits .f32 0x00000000#32)) (addf v27 v54)

/-- The weights payload is the softmax of the block of scores. -/
theorem pay14_eq (v8 : FVec Ideal S256x2 .f32) (d : FVec Ideal S4096x256 .f32) (py px : FVec Ideal S4096x1 .f32) :
    k0_pay14 (F := Ideal) v8 d py px = softmaxV (scoreV v8 d py px) := rfl

/-- A center's row coordinate, as the body reads it off the transposed centers. -/
theorem centerRow_apply0 (v8 : FVec Ideal S256x2 .f32) (k : Fin 256) :
    extractStridedSlice S1x256 ![0, 0] (transpose S2x256 [1, 0] v8 transposes_S256x2_p1_0_S2x256)
        slices_S2x256_o0_0_S1x256 (ix2 (0 : Fin 1) k) = v8 (ix2 k (0 : Fin 2)) :=
  (slice2_axis0_apply 0 _ _ (0 : Fin 1) k (0 : Fin 2) rfl).trans (transpose_ix2_apply v8 _ (0 : Fin 2) k)

/-- A center's column coordinate, as the body reads it off the transposed centers. -/
theorem centerRow_apply1 (v8 : FVec Ideal S256x2 .f32) (k : Fin 256) :
    extractStridedSlice S1x256 ![1, 0] (transpose S2x256 [1, 0] v8 transposes_S256x2_p1_0_S2x256)
        slices_S2x256_o1_0_S1x256 (ix2 (0 : Fin 1) k) = v8 (ix2 k (1 : Fin 2)) :=
  (slice2_axis0_apply 1 _ _ (0 : Fin 1) k (1 : Fin 2) rfl).trans (transpose_ix2_apply v8 _ (1 : Fin 2) k)

/-- A column of pixel coordinates less a row of center coordinates, both spread over the block. -/
theorem diff_apply (p : FVec Ideal S4096x1 .f32) (c : FVec Ideal S1x256 .f32) (r : Fin 4096) (k : Fin 256) :
    subf (broadcastTo S4096x256 p broadcasts_S4096x1_S4096x256) (broadcastTo S4096x256 c broadcasts_S1x256_S4096x256)
        (ix2 r k) = p (ix2 r (0 : Fin 1)) - c (ix2 (0 : Fin 1) k) :=
  congrArg₂ (· - ·) (broadcastTo_a1_ab_apply _ _ r k) (broadcastTo_1b_ab_apply _ _ r k)

/-- The block of scores at `(r, k)` is the score. -/
theorem scoreV_apply (v8 : FVec Ideal S256x2 .f32) (d : FVec Ideal S4096x256 .f32) (py px : FVec Ideal S4096x1 .f32)
    (r : Fin 4096) (k : Fin 256) : scoreV v8 d py px (ix2 r k) = zK v8 d py px r k := by
  unfold scoreV zK
  have hy := (diff_apply py _ r k).trans (congrArg (py (ix2 r (0 : Fin 1)) - ·) (centerRow_apply0 v8 k))
  have hx := (diff_apply px _ r k).trans (congrArg (px (ix2 r (0 : Fin 1)) - ·) (centerRow_apply1 v8 k))
  exact congrArg₂ (· - ·) rfl (congrArg₂ (· + ·) rfl (congrArg₂ (· * ·) rfl (congrArg Ideal.sqrt
    (congrArg₂ max (congrArg₂ (· + ·) (congrArg₂ (· * ·) hy hy) (congrArg₂ (· * ·) hx hx)) rfl))))

/-- The weights of the body at pixel row `r` and center `k`. -/
theorem pay14_apply (v8 : FVec Ideal S256x2 .f32) (d : FVec Ideal S4096x256 .f32) (py px : FVec Ideal S4096x1 .f32)
    (r : Fin 4096) (k : Fin 256) :
    k0_pay14 (F := Ideal) v8 d py px (ix2 r k)
      = Ideal.div
          (Ideal.exp (zK v8 d py px r k - (Finset.univ : Finset (Fin 256)).fold max ⊥ (fun k' => zK v8 d py px r k')))
          (∑ k' : Fin 256, Ideal.exp (zK v8 d py px r k'
            - (Finset.univ : Finset (Fin 256)).fold max ⊥ (fun k'' => zK v8 d py px r k''))) :=
  (congrFun (pay14_eq v8 d py px) (ix2 r k)).trans (softmaxV_apply _ _ (scoreV_apply v8 d py px) r k)

end Cert.Proof.Slic.KPay

end
-- ==== Proof.KPay5.lean ====
/-
  The body's last step, read at an index: the mass plus eps6, the two quotients that give the new centers and
  their coordinates (each accumulated sum over the mass plus eps6, the mass column broadcast along the row),
  the three accumulators' reset to the zero word, and the two read-modify-write payloads that only add or
  pass a value on.
-/
import proofs.«138879_j15556371546814_2_alg».proof.Proof.KPayLib

noncomputable section

namespace Cert.Proof.Slic.KPay

open Cert.KernelIdeal Cert.KernelIdeal.Gen
open Idealize.ShloMosaic Idealize.ShloMosaic.ValueIdx
open scoped BigOperators

/-- The coordinate accumulator is stored back as it is. -/
theorem pay1_eq (v80 : FVec Ideal S256x2 .f32) : k0_pay1 (F := Ideal) v80 = v80 := by
  unfold k0_pay1
  exact shapeCast_self _ _

/-- The mass accumulator takes the tile's mass: pointwise, what was there plus the tile's. -/
theorem pay2_apply (v73 : FVec Ideal S256x1 .f32) (v84 : Vec Ideal S256x1 .f32) (j : S256x1.Idx) :
    k0_pay2 (F := Ideal) v73 v84 j = v84 j + v73 j := by
  unfold k0_pay2
  exact congrFun (shapeCast_self (addf v84 v73) _) j

/-- The mass plus eps6, at every index. -/
theorem pay3_apply (v92 : Vec Ideal S256x1 .f32) (j : S256x1.Idx) :
    k0_pay3 (F := Ideal) v92 j = v92 j + Spec.wordsI.e6 := rfl

/-- The new centers: the accumulated weighted spectra over the mass plus eps6. -/
theorem pay4_apply (v92 : Vec Ideal S256x1 .f32) (v95 : Vec Ideal S256x200 .f32) (u : Fin 1) (k : Fin 256) (c : Fin 200) :
    k0_pay4 (F := Ideal) v92 v95 (ix3 u k c) = Ideal.div (v95 (ix2 k c)) (v92 (ix2 k 0) + Spec.wordsI.e6) := by
  unfold k0_pay4
  refine (shapeCast_ab_1ab_apply _ _ u k c).trans ?_
  exact congrArg (Ideal.div (v95 (ix2 k c))) ((broadcastTo_a1_ab_apply _ _ k c).trans (pay3_apply v92 _))

/-- The new center coordinates: the accumulated weighted coordinates over the mass plus eps6. -/
theorem pay5_apply (v92 : Vec Ideal S256x1 .f32) (v101 : Vec Ideal S256x2 .f32) (u : Fin 1) (k : Fin 256) (j : Fin 2) :
    k0_pay5 (F := Ideal) v92 v101 (ix3 u k j) = Ideal.div (v101 (ix2 k j)) (v92 (ix2 k 0) + Spec.wordsI.e6) := by
  unfold k0_pay5
  refine (shapeCast_ab_1ab_apply _ _ u k j).trans ?_
  exact congrArg (Ideal.div (v101 (ix2 k j))) ((broadcastTo_a1_ab_apply _ _ k j).trans (pay3_apply v92 _))

/-- The spectra accumulator's reset is the zero word everywhere. -/
theorem pay6_apply (j : S256x200.Idx) : k0_pay6 (F := Ideal) j = Spec.wordsI.zero := rfl

/-- The coordinate accumulator's reset is the zero word everywhere. -/
theorem pay7_apply (j : S256x2.Idx) : k0_pay7 (F := Ideal) j = Spec.wordsI.zero := rfl

/-- The mass accumulator's reset is the zero word everywhere. -/
theorem pay8_apply (j : S256x1.Idx) : k0_pay8 (F := Ideal) j = Spec.wordsI.zero := rfl

end Cert.Proof.Slic.KPay

end
-- ==== Proof.KPay4.lean ====
/-
  The three partial sums of a tile, read at an index. With q r k the tile's weight of pixel row r for center
  k (the weights payload at (r, k)), the body forms, each by one matrix product contracted over the tile's
  4096 rows into a zero accumulator: the mass, sum over r of q r k times the word one; the weighted spectra,
  sum over r of q r k times x r c, added to the accumulator; and the weighted coordinates, sum over r of
  q r k times the pixel's row coordinate (column 0) or column coordinate (column 1), added to the
  accumulator. The narrowing of the coordinates is the identity at the ideal values.
-/
import proofs.«138879_j15556371546814_2_alg».proof.Proof.KPay5

noncomputable section

namespace Cert.Proof.Slic.KPay

open Cert.KernelIdeal Cert.KernelIdeal.Gen
open Idealize.ShloMosaic Idealize.ShloMosaic.ValueIdx
open scoped BigOperators

section Columns
variable {α : Type}

/-- Two columns laid side by side: column 0 is the first. -/
theorem concat_cols_apply0 {n : ℕ} (x₁ x₂ : (⟨2, ![n, 1]⟩ : Shape).Idx → α)
    (h : Shape.Concatenates [(⟨2, ![n, 1]⟩ : Shape), (⟨2, ![n, 1]⟩ : Shape)] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) fun b =>
    match b with
    | ⟨0, _⟩ => rfl
    | ⟨1, _⟩ => rfl

/-- Two columns laid side by side: column 1 is the second. -/
theorem concat_cols_apply1 {n : ℕ} (x₁ x₂ : (⟨2, ![n, 1]⟩ : Shape).Idx → α)
    (h : Shape.Concatenates [(⟨2, ![n, 1]⟩ : Shape), (⟨2, ![n, 1]⟩ : Shape)] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1))
    (fun b hb =>
      match b, hb with
      | ⟨0, _⟩, _ => rfl
      | ⟨1, _⟩, hb => absurd rfl hb)
    rfl

end Columns

/-- The tile's mass for center `k`: the weights of the tile's rows, each times the word one. -/
theorem pay15_apply (v8 : FVec Ideal S256x2 .f32) (d : FVec Ideal S4096x256 .f32) (py px : FVec Ideal S4096x1 .f32)
    (k : Fin 256) (u : Fin 1) :
    k0_pay15 (F := Ideal) v8 d py px (ix2 k u) = ∑ r : Fin 4096, k0_pay14 (F := Ideal) v8 d py px (ix2 r k) * Spec.wordsI.one := by
  unfold k0_pay15
  exact matmul_tn_apply _ none _ _ k u

/-- The spectra accumulator after the tile: what was there plus the tile's weighted spectra. -/
theorem pay16_apply (v4 : FVec Ideal S4096x200 .bf16) (v8 : FVec Ideal S256x2 .f32) (d : FVec Ideal S4096x256 .f32)
    (py px : FVec Ideal S4096x1 .f32) (a : Vec Ideal S256x200 .f32) (k : Fin 256) (c : Fin 200) :
    k0_pay16 (F := Ideal) v4 v8 d py px a (ix2 k c)
      = a (ix2 k c) + ∑ r : Fin 4096, k0_pay14 (F := Ideal) v8 d py px (ix2 r k) * v4 (ix2 r c) := by
  unfold k0_pay16
  refine (congrFun (shapeCast_self _ _) (ix2 k c)).trans ?_
  exact congrArg (a (ix2 k c) + ·) (matmul_tn_apply _ none _ _ k c)

/-- The coordinate accumulator after the tile, column 0: what was there plus the tile's weighted row coordinates. -/
theorem pay17_apply0 (v8 : FVec Ideal S256x2 .f32) (d : FVec Ideal S4096x256 .f32) (py px : FVec Ideal S4096x1 .f32)
    (a : Vec Ideal S256x2 .f32) (k : Fin 256) :
    k0_pay17 (F := Ideal) v8 d py px a (ix2 k (0 : Fin 2))
      = a (ix2 k (0 : Fin 2)) + ∑ r : Fin 4096, k0_pay14 (F := Ideal) v8 d py px (ix2 r k) * py (ix2 r (0 : Fin 1)) := by
  unfold k0_pay17
  refine congrArg (a (ix2 k (0 : Fin 2)) + ·) ((matmul_tn_apply _ none _ _ k (0 : Fin 2)).trans ?_)
  refine Finset.sum_congr rfl fun r _ => congrArg (_ * ·) ?_
  exact concat_cols_apply0 py px concatenates_S4096x1_S4096x1_S4096x2_d1 r

/-- The coordinate accumulator after the tile, column 1: what was there plus the tile's weighted column coordinates. -/
theorem pay17_apply1 (v8 : FVec Ideal S256x2 .f32) (d : FVec Ideal S4096x256 .f32) (py px : FVec Ideal S4096x1 .f32)
    (a : Vec Ideal S256x2 .f32) (k : Fin 256) :
    k0_pay17 (F := Ideal) v8 d py px a (ix2 k (1 : Fin 2))
      = a (ix2 k (1 : Fin 2)) + ∑ r : Fin 4096, k0_pay14 (F := Ideal) v8 d py px (ix2 r k) * px (ix2 r (0 : Fin 1)) := by
  unfold k0_pay17
  refine congrArg (a (ix2 k (1 : Fin 2)) + ·) ((matmul_tn_apply _ none _ _ k (1 : Fin 2)).trans ?_)
  refine Finset.sum_congr rfl fun r _ => congrArg (_ * ·) ?_
  exact concat_cols_apply1 py px concatenates_S4096x1_S4096x1_S4096x2_d1 r

/-! ## The three accumulator updates of a tile, for any previous accumulator -/

/-- The mass accumulator after the tile: what was there plus the tile's mass. -/
theorem acc_mass (v8 : FVec Ideal S256x2 .f32) (d : FVec Ideal S4096x256 .f32) (py px : FVec Ideal S4096x1 .f32)
    (a : Vec Ideal S256x1 .f32) (k : Fin 256) (u : Fin 1) :
    k0_pay2 (F := Ideal) (k0_pay15 (F := Ideal) v8 d py px) a (ix2 k u)
      = a (ix2 k u) + ∑ r : Fin 4096, k0_pay14 (F := Ideal) v8 d py px (ix2 r k) * Spec.wordsI.one := by
  rw [pay2_apply, pay15_apply]

/-- The coordinate accumulator after the tile, at either column: what was there plus the tile's weighted pixel
    coordinates, the row coordinate in column 0 and the column coordinate in column 1. -/
theorem acc_coords (v8 : FVec Ideal S256x2 .f32) (d : FVec Ideal S4096x256 .f32) (py px : FVec Ideal S4096x1 .f32)
    (a : Vec Ideal S256x2 .f32) (k : Fin 256) (j : Fin 2) :
    k0_pay1 (F := Ideal) (k0_pay17 (F := Ideal) v8 d py px a) (ix2 k j)
      = a (ix2 k j) + ∑ r : Fin 4096, k0_pay14 (F := Ideal) v8 d py px (ix2 r k)
          * (if j = 0 then py (ix2 r (0 : Fin 1)) else px (ix2 r (0 : Fin 1))) := by
  rw [pay1_eq]
  match j with
  | ⟨0, _⟩ => exact pay17_apply0 v8 d py px a k
  | ⟨1, _⟩ => exact pay17_apply1 v8 d py px a k

end Cert.Proof.Slic.KPay

end
-- ==== Proof.KTile.lean ====
/-
  One tile of the body against the round's specification. A tile a (of four) of batch b holds rows
  a * 4096 + r of the pixel spectra, the batch's centers and their coordinates, and the coordinates of its
  pixels. Then the body's weights at (r, k) are the specification's weights of pixel a * 4096 + r for center
  k, and the tile's update adds to each accumulator the tile's share of the specification's sums: the weights
  times the spectra, times the pixel coordinates, and times the word one.
-/
import proofs.«138879_j15556371546814_2_alg».proof.Proof.KPay1
import proofs.«138879_j15556371546814_2_alg».proof.Proof.KPay3
import proofs.«138879_j15556371546814_2_alg».proof.Proof.KPay4
import proofs.«138879_j15556371546814_2_alg».proof.Proof.I0Pieces

noncomputable section

namespace Cert.Proof.Slic.KPay

open Cert.KernelIdeal Cert.KernelIdeal.Gen Cert.KernelIdeal.Slic
open Idealize.ShloMosaic Idealize.ShloMosaic.ValueIdx
open scoped BigOperators

/-- Row `r` of tile `a` among the 16384 pixels. -/
abbrev tileRow (a : Fin 4) (r : Fin 4096) : Fin 16384 := ⟨a.val * 4096 + r.val, by omega⟩

/-- The tile's blocks and coordinates are those of tile `a` of batch `b` of the arrays. -/
structure IsTile (x0 : Vec Ideal S1x4096x200 .bf16) (x1 : Vec Ideal S1x256x200 .f32) (x2 : Vec Ideal S1x256x2 .f32)
    (i : grid0.Coords) (X : Spec.XT) (P : Spec.PT) (CS : Spec.CS) (CP : Spec.CP) (b a : Fin 4) : Prop where
  hx : ∀ (r : Fin 4096) (c : Fin 200), x0 (ix3 0 r c) = X b ⟨a.val * 4096 + r.val, by omega⟩ c
  hcs : ∀ (k : Fin 256) (c : Fin 200), x1 (ix3 0 k c) = CS b k c
  hcp : ∀ (k : Fin 256) (j : Fin 2), x2 (ix3 0 k j) = CP b k j
  hpy : ∀ r : Fin 4096, k0_pay12 (F := Ideal) i (ix2 r 0) = P ⟨a.val * 4096 + r.val, by omega⟩ 0
  hpx : ∀ r : Fin 4096, k0_pay13 (F := Ideal) (ix2 r 0) = P ⟨a.val * 4096 + r.val, by omega⟩ 1

/-- The pixel block with its unit axis dropped. -/
theorem pay9_apply (x0 : Vec Ideal S1x4096x200 .bf16) (r : Fin 4096) (c : Fin 200) :
    k0_pay9 (F := Ideal) x0 (ix2 r c) = x0 (ix3 0 r c) := by
  unfold k0_pay9
  exact shapeCast_1ab_ab_apply x0 _ r c

/-- The center coordinates with their unit axis dropped. -/
theorem pay10_apply (x2 : Vec Ideal S1x256x2 .f32) (k : Fin 256) (j : Fin 2) :
    k0_pay10 (F := Ideal) x2 (ix2 k j) = x2 (ix3 0 k j) := by
  unfold k0_pay10
  exact shapeCast_1ab_ab_apply x2 _ k j

section Tile
variable {x0 : Vec Ideal S1x4096x200 .bf16} {x1 : Vec Ideal S1x256x200 .f32} {x2 : Vec Ideal S1x256x2 .f32}
  {i : grid0.Coords} {X : Spec.XT} {P : Spec.PT} {CS : Spec.CS} {CP : Spec.CP} {b a : Fin 4}

/-- The body's score on the tile is the specification's score. -/
theorem tile_score (h : IsTile x0 x1 x2 i X P CS CP b a) (r : Fin 4096) (k : Fin 256) :
    zK (k0_pay10 (F := Ideal) x2) (k0_pay11 (F := Ideal) x0 x1) (k0_pay12 (F := Ideal) i) (k0_pay13 (F := Ideal)) r k
      = Spec.scoreK Spec.wordsI X P CS CP b (tileRow a r) k := by
  unfold zK Spec.scoreK Spec.dspec Spec.dspatK
  rw [pay11_apply]
  simp only [h.hx, h.hcs, h.hcp, h.hpy, h.hpx, pay10_apply]

/-- The body's weights on the tile are the specification's weights. -/
theorem tile_q (h : IsTile x0 x1 x2 i X P CS CP b a) (r : Fin 4096) (k : Fin 256) :
    k0_pay14 (F := Ideal) (k0_pay10 (F := Ideal) x2) (k0_pay11 (F := Ideal) x0 x1) (k0_pay12 (F := Ideal) i)
        (k0_pay13 (F := Ideal)) (ix2 r k)
      = Spec.qK Spec.wordsI X P CS CP b (tileRow a r) k := by
  rw [pay14_apply]
  unfold Spec.qK Spec.weights Spec.rowMax
  simp only [tile_score h]

/-- The tile's update of the three accumulators, for any previous accumulators. -/
theorem tile_upd' (h : IsTile x0 x1 x2 i X P CS CP b a) (a1 : Vec Ideal S256x200 .f32) (a2 : Vec Ideal S256x2 .f32)
    (a3 : Vec Ideal S256x1 .f32) (k : Fin 256) :
    (∀ c : Fin 200,
        k0_pay16 (F := Ideal) (k0_pay9 (F := Ideal) x0) (k0_pay10 (F := Ideal) x2) (k0_pay11 (F := Ideal) x0 x1)
            (k0_pay12 (F := Ideal) i) (k0_pay13 (F := Ideal)) a1 (ix2 k c)
          = a1 (ix2 k c) + ∑ r : Fin 4096, Spec.qK Spec.wordsI X P CS CP b (tileRow a r) k * X b (tileRow a r) c)
    ∧ (∀ j : Fin 2,
        k0_pay1 (F := Ideal) (k0_pay17 (F := Ideal) (k0_pay10 (F := Ideal) x2) (k0_pay11 (F := Ideal) x0 x1)
            (k0_pay12 (F := Ideal) i) (k0_pay13 (F := Ideal)) a2) (ix2 k j)
          = a2 (ix2 k j) + ∑ r : Fin 4096, Spec.qK Spec.wordsI X P CS CP b (tileRow a r) k * P (tileRow a r) j)
    ∧ (k0_pay2 (F := Ideal) (k0_pay15 (F := Ideal) (k0_pay10 (F := Ideal) x2) (k0_pay11 (F := Ideal) x0 x1)
            (k0_pay12 (F := Ideal) i) (k0_pay13 (F := Ideal))) a3 (ix2 k 0)
          = a3 (ix2 k 0) + ∑ r : Fin 4096, Spec.qK Spec.wordsI X P CS CP b (tileRow a r) k * Spec.wordsI.one) := by
  refine ⟨fun c => ?_, fun j => ?_, ?_⟩
  · rw [pay16_apply]
    refine congrArg (a1 (ix2 k c) + ·) (Finset.sum_congr rfl fun r _ => ?_)
    rw [tile_q h r k, pay9_apply, h.hx]
  · rw [acc_coords]
    refine congrArg (a2 (ix2 k j) + ·) (Finset.sum_congr rfl fun r _ => ?_)
    rw [tile_q h r k]
    refine congrArg (fun t : EReal => Spec.qK Spec.wordsI X P CS CP b (tileRow a r) k * t) ?_
    match j with
    | ⟨0, _⟩ => exact (if_pos rfl).trans (h.hpy r)
    | ⟨1, _⟩ => exact (if_neg (fun e => absurd (congrArg Fin.val e) Nat.one_ne_zero)).trans (h.hpx r)
  · rw [acc_mass]
    refine congrArg (a3 (ix2 k 0) + ·) (Finset.sum_congr rfl fun r _ => ?_)
    rw [tile_q h r k]

/-- The tile's update of the three accumulators, as one function of the accumulators. -/
theorem tile_upd (h : IsTile x0 x1 x2 i X P CS CP b a) (acc : R0.Acc Ideal) (k : Fin 256) :
    (∀ c : Fin 200, (R0.upd x0 x1 x2 i acc).1 (ix2 k c)
        = acc.1 (ix2 k c) + ∑ r : Fin 4096, Spec.qK Spec.wordsI X P CS CP b (tileRow a r) k * X b (tileRow a r) c)
    ∧ (∀ j : Fin 2, (R0.upd x0 x1 x2 i acc).2.1 (ix2 k j)
        = acc.2.1 (ix2 k j) + ∑ r : Fin 4096, Spec.qK Spec.wordsI X P CS CP b (tileRow a r) k * P (tileRow a r) j)
    ∧ ((R0.upd x0 x1 x2 i acc).2.2 (ix2 k 0)
        = acc.2.2 (ix2 k 0) + ∑ r : Fin 4096, Spec.qK Spec.wordsI X P CS CP b (tileRow a r) k * Spec.wordsI.one) :=
  tile_upd' h acc.1 acc.2.1 acc.2.2 k

end Tile

end Cert.Proof.Slic.KPay

end
-- ==== Proof.KBatch.lean ====
/-
  A batch of the body against the round's specification. The four tiles of batch b, run in order from the
  zero splats, leave in the three accumulators the specification's sums over the 16384 pixels, taken tile by
  tile from the zero word: the weights times the spectra, times the pixel coordinates, and times the word one.
  The last step then writes the specification's new centers and new center coordinates: each sum over the
  mass plus eps6.
-/
import proofs.«138879_j15556371546814_2_alg».proof.Proof.KTile

noncomputable section

namespace Cert.Proof.Slic.KPay

open Cert.KernelIdeal Cert.KernelIdeal.Gen Cert.KernelIdeal.Slic
open Idealize.ShloMosaic Idealize.ShloMosaic.ValueIdx
open scoped BigOperators

section Batch
variable {X : Spec.XT} {P : Spec.PT} {CS : Spec.CS} {CP : Spec.CP} {b : Fin 4}
variable (x0 : Fin 4 → Vec Ideal S1x4096x200 .bf16) (x1 : Fin 4 → Vec Ideal S1x256x200 .f32)
  (x2 : Fin 4 → Vec Ideal S1x256x2 .f32) (i : Fin 4 → grid0.Coords)

/-- The accumulators after a batch's four tiles, in order, from the zero splats. -/
def accB : R0.Acc Ideal :=
  R0.upd (x0 3) (x1 3) (x2 3) (i 3) (R0.upd (x0 2) (x1 2) (x2 2) (i 2)
    (R0.upd (x0 1) (x1 1) (x2 1) (i 1) (R0.upd (x0 0) (x1 0) (x2 0) (i 0) R0.acc0)))

variable {x0 x1 x2 i}

/-- After the four tiles each accumulator holds the specification's sum over the 16384 pixels, taken tile by
    tile from the zero word. -/
theorem batch_acc (h : ∀ a : Fin 4, IsTile (x0 a) (x1 a) (x2 a) (i a) X P CS CP b a) :
    (∀ (k : Fin 256) (c : Fin 200), (accB x0 x1 x2 i).1 (ix2 k c)
        = Spec.sumTiles Spec.wordsI.zero (fun n => Spec.qK Spec.wordsI X P CS CP b n k * X b n c))
    ∧ (∀ (k : Fin 256) (j : Fin 2), (accB x0 x1 x2 i).2.1 (ix2 k j)
        = Spec.sumTiles Spec.wordsI.zero (fun n => Spec.qK Spec.wordsI X P CS CP b n k * P n j))
    ∧ (∀ k : Fin 256, (accB x0 x1 x2 i).2.2 (ix2 k 0)
        = Spec.sumTiles Spec.wordsI.zero (fun n => Spec.qK Spec.wordsI X P CS CP b n k * Spec.wordsI.one)) := by
  refine ⟨fun k c => ?_, fun k j => ?_, fun k => ?_⟩
  · unfold accB
    rw [(tile_upd (h 3) _ k).1 c, (tile_upd (h 2) _ k).1 c, (tile_upd (h 1) _ k).1 c, (tile_upd (h 0) _ k).1 c]
    rfl
  · unfold accB
    rw [(tile_upd (h 3) _ k).2.1 j, (tile_upd (h 2) _ k).2.1 j, (tile_upd (h 1) _ k).2.1 j, (tile_upd (h 0) _ k).2.1 j]
    rfl
  · unfold accB
    rw [(tile_upd (h 3) _ k).2.2, (tile_upd (h 2) _ k).2.2, (tile_upd (h 1) _ k).2.2, (tile_upd (h 0) _ k).2.2]
    rfl

/-- The new centers the body writes after the batch's last tile are the specification's. -/
theorem batch_cs (h : ∀ a : Fin 4, IsTile (x0 a) (x1 a) (x2 a) (i a) X P CS CP b a) (k : Fin 256) (c : Fin 200) :
    k0_pay4 (F := Ideal) (accB x0 x1 x2 i).2.2 (accB x0 x1 x2 i).1 (ix3 0 k c)
      = Spec.csK Spec.wordsI X (Spec.qK Spec.wordsI X P CS CP) b k c := by
  rw [pay4_apply, (batch_acc h).1 k c, (batch_acc h).2.2 k]
  rfl

/-- The new center coordinates the body writes after the batch's last tile are the specification's. -/
theorem batch_cp (h : ∀ a : Fin 4, IsTile (x0 a) (x1 a) (x2 a) (i a) X P CS CP b a) (k : Fin 256) (j : Fin 2) :
    k0_pay5 (F := Ideal) (accB x0 x1 x2 i).2.2 (accB x0 x1 x2 i).2.1 (ix3 0 k j)
      = Spec.cpK Spec.wordsI P (Spec.qK Spec.wordsI X P CS CP) b k j := by
  rw [pay5_apply, (batch_acc h).2.1 k j, (batch_acc h).2.2 k]
  rfl

end Batch

end Cert.Proof.Slic.KPay

end
-- ==== Proof.LibTiles.lean ====
/-
  Sums over a range cut into equal tiles.

  The numbers below A · T are the pairs (t, r) with t below A and r below T, through n = t · T + r. So a sum over all
  of them is the sum over the tiles t of the sums inside each tile. Stated for any extents, then at 65536 = 8 · 8192,
  alone and under an outer sum over four batches.
-/
import Mathlib.Algebra.BigOperators.Fin
import Mathlib.Logic.Equiv.Fin.Basic
import Mathlib.Tactic.Ring

open scoped BigOperators

namespace Cert.LibTiles

/-- Position r of tile t lies below A · T. -/
theorem tile_lt {A T : Nat} (t : Fin A) (r : Fin T) : t.val * T + r.val < A * T := by
  have ht := t.isLt
  have hr := r.isLt
  calc t.val * T + r.val < t.val * T + T := by omega
    _ = (t.val + 1) * T := by ring
    _ ≤ A * T := Nat.mul_le_mul_right T (by omega)

/-- A sum over the numbers below A · T is the sum over the A tiles of the T positions of each. -/
theorem sum_tiles {M : Type*} [AddCommMonoid M] (A T : Nat) (f : Fin (A * T) → M) :
    ∑ t : Fin A, ∑ r : Fin T, f ⟨t.val * T + r.val, tile_lt t r⟩ = ∑ n, f n := by
  calc ∑ t : Fin A, ∑ r : Fin T, f ⟨t.val * T + r.val, tile_lt t r⟩
      = ∑ p : Fin A × Fin T, f (finProdFinEquiv p) := by
        rw [Fintype.sum_prod_type]
        refine Finset.sum_congr rfl fun t _ => Finset.sum_congr rfl fun r _ => congrArg f (Fin.ext ?_)
        show t.val * T + r.val = r.val + T * t.val
        ring
    _ = ∑ n, f n := Equiv.sum_comp finProdFinEquiv f

/-- 65536 numbers are 8 tiles of 8192. -/
theorem sum_tiles_8_8192 {M : Type*} [AddCommMonoid M] (f : Fin 65536 → M) :
    ∑ t : Fin 8, ∑ r : Fin 8192, f ⟨t.val * 8192 + r.val, by omega⟩ = ∑ n, f n :=
  sum_tiles 8 8192 f

/-- The same under an outer sum over four batches. -/
theorem sum_batch_tiles_8_8192 {M : Type*} [AddCommMonoid M] (f : Fin 4 → Fin 65536 → M) :
    ∑ b : Fin 4, ∑ t : Fin 8, ∑ r : Fin 8192, f b ⟨t.val * 8192 + r.val, by omega⟩ = ∑ b : Fin 4, ∑ n, f b n :=
  Finset.sum_congr rfl fun b _ => sum_tiles_8_8192 (f b)

end Cert.LibTiles
-- ==== Proof.LibTilesSlic.lean ====
/-
  Sixteen thousand three hundred and eighty-four numbers as four tiles of 4096, and a running total over the
  tiles. The number n below 16384 is the pair (a, r), a below 4 and r below 4096, through n = a · 4096 + r, so a
  sum over all n is the sum over the four tiles of the sums inside each. A total that starts at zero and adds one
  tile's sum per step is, after j steps, the sum of the first j tiles; after the fourth step it is the whole sum.
-/
import proofs.«138879_j15556371546814_2_alg».proof.Proof.LibTiles

open scoped BigOperators

namespace Cert.Proof.Slic

/-- Position r of tile a lies below 16384. -/
theorem tile_lt_4_4096 (a : Fin 4) (r : Fin 4096) : a.val * 4096 + r.val < 16384 := by omega

/-- 16384 numbers are 4 tiles of 4096: the sum over the tiles of the sums inside each is the whole sum. -/
theorem sum_tiles_4_4096 {M : Type*} [AddCommMonoid M] (f : Fin 16384 → M) :
    ∑ a : Fin 4, ∑ r : Fin 4096, f ⟨a.val * 4096 + r.val, tile_lt_4_4096 a r⟩ = ∑ n, f n :=
  Cert.LibTiles.sum_tiles 4 4096 f

/-- The same under an outer sum over four batches. -/
theorem sum_batch_tiles_4_4096 {M : Type*} [AddCommMonoid M] (f : Fin 4 → Fin 16384 → M) :
    ∑ b : Fin 4, ∑ a : Fin 4, ∑ r : Fin 4096, f b ⟨a.val * 4096 + r.val, tile_lt_4_4096 a r⟩
      = ∑ b : Fin 4, ∑ n, f b n :=
  Finset.sum_congr rfl fun b _ => sum_tiles_4_4096 (f b)

/-- A running total: if `acc 0 = 0` and each step adds the next term, `acc (j + 1) = acc j + g j`, then after
    j steps the total is the sum of the first j terms. -/
theorem accum_eq_sum_range {M : Type*} [AddCommMonoid M] (g : ℕ → M) (acc : ℕ → M) (h0 : acc 0 = 0)
    (hs : ∀ j, acc (j + 1) = acc j + g j) (j : ℕ) : acc j = ∑ t ∈ Finset.range j, g t := by
  induction j with
  | zero => rw [h0, Finset.range_zero, Finset.sum_empty]
  | succ j ih => rw [hs, ih, Finset.sum_range_succ]

/-- The same when only the first J steps are known to add: for every j up to J the total after j steps is the
    sum of the first j terms. -/
theorem accum_eq_sum_range_le {M : Type*} [AddCommMonoid M] (J : ℕ) (g : ℕ → M) (acc : ℕ → M) (h0 : acc 0 = 0)
    (hs : ∀ j, j < J → acc (j + 1) = acc j + g j) (j : ℕ) (hj : j ≤ J) : acc j = ∑ t ∈ Finset.range j, g t := by
  induction j with
  | zero => rw [h0, Finset.range_zero, Finset.sum_empty]
  | succ j ih => rw [hs j (by omega), ih (by omega), Finset.sum_range_succ]

/-- Four steps from zero, written out: `0 + g 0 + g 1 + g 2 + g 3` is the sum of the four terms. -/
theorem accum4 {M : Type*} [AddCommMonoid M] (g : Fin 4 → M) :
    0 + g 0 + g 1 + g 2 + g 3 = ∑ t, g t := by
  rw [Fin.sum_univ_four, zero_add]

/-- The totals after one, two and three steps from zero, written out, are the sums of the first one, two and
    three of the four terms (the first j of four, through the inclusion of `Fin j` in `Fin 4`). -/
theorem accum1 {M : Type*} [AddCommMonoid M] (g : Fin 4 → M) :
    0 + g 0 = ∑ t : Fin 1, g (Fin.castLE (by omega) t) := by
  rw [zero_add, Fin.sum_univ_one]; rfl
theorem accum2 {M : Type*} [AddCommMonoid M] (g : Fin 4 → M) :
    0 + g 0 + g 1 = ∑ t : Fin 2, g (Fin.castLE (by omega) t) := by
  rw [zero_add, Fin.sum_univ_two]; rfl
theorem accum3 {M : Type*} [AddCommMonoid M] (g : Fin 4 → M) :
    0 + g 0 + g 1 + g 2 = ∑ t : Fin 3, g (Fin.castLE (by omega) t) := by
  rw [zero_add, Fin.sum_univ_three]; rfl

/-- Four tiles of 4096 accumulated one at a time from zero are the sum over all 16384: the kernel's running
    total after its last step is the reference's single sum. -/
theorem accum4_tiles {M : Type*} [AddCommMonoid M] (f : Fin 16384 → M) :
    0 + (∑ r : Fin 4096, f ⟨(0 : Fin 4).val * 4096 + r.val, tile_lt_4_4096 0 r⟩)
        + (∑ r : Fin 4096, f ⟨(1 : Fin 4).val * 4096 + r.val, tile_lt_4_4096 1 r⟩)
        + (∑ r : Fin 4096, f ⟨(2 : Fin 4).val * 4096 + r.val, tile_lt_4_4096 2 r⟩)
        + (∑ r : Fin 4096, f ⟨(3 : Fin 4).val * 4096 + r.val, tile_lt_4_4096 3 r⟩)
      = ∑ n, f n := by
  rw [← sum_tiles_4_4096 f]
  exact accum4 fun a => ∑ r : Fin 4096, f ⟨a.val * 4096 + r.val, tile_lt_4_4096 a r⟩

end Cert.Proof.Slic
-- ==== Proof.SpecLaw.lean ====
/-
  The two arrangements of one round of the soft clustering agree on real data, and so do five rounds.

  With the words two = 2, one = 1, zero = 0, the factor on the spatial distance real, the floor under the squared
  distances a nonnegative real and the floor added to the mass a positive real, and with real spectra, pixel
  coordinates and centers: the expanded squared distance in the plane is the sum of the two squared differences
  (a law of the reals; it can fail at an infinity, which is why realness is carried along); zero - d = -d;
  q * one = q; and four tiles of 4096 accumulated from zero are the sum over all 16384. So the two scores agree,
  hence the weights, the masses and the new centers. Every quantity along a round is real: the distances are
  square roots of a maximum with a nonnegative real, the row maximum is a fold of max from the bottom over 256
  scores, the shifted exponentials and their row sum are positive reals, so every weight is a positive real, the
  mass is a positive real, and the new centers are quotients of reals by positive reals. Hence the invariant
  "the centers are real" passes from round to round and the two arrangements agree after any number of rounds.
-/
import proofs.«138879_j15556371546814_2_alg».proof.Proof.Words
import proofs.«138879_j15556371546814_2_alg».proof.Proof.LibTilesSlic

noncomputable section

namespace Cert.Proof.Slic.Spec

open Idealize.ShloMosaic
open Cert.Proof.Slic

/-- Every spectrum entry is a real. -/
def RealX (x : XT) : Prop := ∀ b n c, IsReal (x b n c)
/-- Every pixel coordinate is a real. -/
def RealP (p : PT) : Prop := ∀ n j, IsReal (p n j)
/-- Every center spectrum entry is a real. -/
def RealCS (cs : CS) : Prop := ∀ b k c, IsReal (cs b k c)
/-- Every center coordinate is a real. -/
def RealCP (cp : CP) : Prop := ∀ b k j, IsReal (cp b k j)
/-- Every weight is a positive real. -/
def PosQ (q : QT) : Prop := ∀ b n k, IsPosReal (q b n k)

/-! ## The tile-by-tile sum -/

/-- Four tiles of 4096 accumulated from 0 are the sum over all 16384. -/
theorem sumTiles_zero (f : Fin 16384 → EReal) : sumTiles 0 f = ∑ n, f n := accum4_tiles f

/-! ## The distances -/

/-- On real coordinates, at two = 2, the two spatial distances agree: the sum of the two squared differences
    is the sum of the squared norms less twice the inner product. -/
theorem dspat_eq {w : Words} (hw : w.Good) {p : PT} {cp : CP} (hp : RealP p) (hcp : RealCP cp)
    (b : Fin 4) (n : Fin 16384) (k : Fin 256) : dspatK w p cp b n k = dspatR w p cp b n k := by
  choose pf hpf using hp n
  choose cf hcf using hcp b k
  unfold dspatK dspatR
  rw [hw.two]
  simp only [hpf, hcf]
  rw [sqdist_expand_fin2 pf cf]

/-- The spectral distance of real data is real. -/
theorem dspec_real {w : Words} (hw : w.Good) {x : XT} {cs : CS} (hx : RealX x) (hcs : RealCS cs)
    (b : Fin 4) (n : Fin 16384) (k : Fin 256) : IsReal (dspec w x cs b n k) := by
  obtain ⟨r, hr, he⟩ := hw.e12
  unfold dspec
  rw [he, hw.two]
  exact IsReal.sqrt_max
    (((IsReal.sum_univ _ fun c => (hx b n c).mul (hx b n c)).add
      (IsReal.sum_univ _ fun c => (hcs b k c).mul (hcs b k c))).sub
      (isReal_two.mul (IsReal.sum_univ _ fun c => (hx b n c).mul (hcs b k c)))) hr

/-- The spatial distance of real data is real. -/
theorem dspatR_real {w : Words} (hw : w.Good) {p : PT} {cp : CP} (hp : RealP p) (hcp : RealCP cp)
    (b : Fin 4) (n : Fin 16384) (k : Fin 256) : IsReal (dspatR w p cp b n k) := by
  obtain ⟨r, hr, he⟩ := hw.e12
  unfold dspatR
  rw [he, hw.two]
  exact IsReal.sqrt_max
    (((IsReal.sum_univ _ fun j => (hp n j).mul (hp n j)).add
      (IsReal.sum_univ _ fun j => (hcp b k j).mul (hcp b k j))).sub
      (isReal_two.mul (IsReal.sum_univ _ fun j => (hp n j).mul (hcp b k j)))) hr

/-! ## The scores and the weights -/

/-- The score of real data is real. -/
theorem scoreR_real {w : Words} (hw : w.Good) {x : XT} {p : PT} {cs : CS} {cp : CP} (hx : RealX x) (hp : RealP p)
    (hcs : RealCS cs) (hcp : RealCP cp) (b : Fin 4) (n : Fin 16384) (k : Fin 256) :
    IsReal (scoreR w x p cs cp b n k) :=
  ((dspec_real hw hx hcs b n k).add (hw.c125.mul (dspatR_real hw hp hcp b n k))).neg

/-- On real data the two scores agree: the spatial distances agree and 0 - d = -d. -/
theorem scoreK_eq {w : Words} (hw : w.Good) (x : XT) {p : PT} (cs : CS) {cp : CP} (hp : RealP p) (hcp : RealCP cp) :
    scoreK w x p cs cp = scoreR w x p cs cp := by
  funext b n k
  show w.zero - (dspec w x cs b n k + w.c125 * dspatK w p cp b n k)
    = -(dspec w x cs b n k + w.c125 * dspatR w p cp b n k)
  rw [hw.zero, zero_sub, dspat_eq hw hp hcp b n k]

/-- The softmax weights of a real score are positive reals: the row maximum is a real (a fold of max from the
    bottom over a nonempty row of reals), each shifted exponential a positive real, and so is their row sum. -/
theorem weights_pos {z : QT} (hz : ∀ b n k, IsReal (z b n k)) : PosQ (weights z) := by
  intro b n k
  have hm : IsReal (rowMax z b n) :=
    IsReal.fold_max_bot Finset.univ Finset.univ_nonempty (fun k => z b n k) fun k _ => hz b n k
  exact IsPosReal.div ((hz b n k).sub hm).exp (IsPosReal.sum_univ _ fun k' => ((hz b n k').sub hm).exp)

/-- The reference's weights of real data are positive reals. -/
theorem qR_pos {w : Words} (hw : w.Good) {x : XT} {p : PT} {cs : CS} {cp : CP} (hx : RealX x) (hp : RealP p)
    (hcs : RealCS cs) (hcp : RealCP cp) : PosQ (qR w x p cs cp) :=
  weights_pos (scoreR_real hw hx hp hcs hcp)

/-- On real data the two weights agree. -/
theorem qK_eq {w : Words} (hw : w.Good) (x : XT) {p : PT} (cs : CS) {cp : CP} (hp : RealP p) (hcp : RealCP cp) :
    qK w x p cs cp = qR w x p cs cp := by
  unfold qK qR
  rw [scoreK_eq hw x cs hp hcp]

/-! ## The mass and the new centers -/

/-- The two masses agree for any weights: the tile-by-tile sum from 0 is the whole sum and q * 1 = q. -/
theorem massK_eq {w : Words} (hw : w.Good) (q : QT) (b : Fin 4) (k : Fin 256) : massK w q b k = massR w q b k := by
  unfold massK massR
  rw [hw.zero, sumTiles_zero, hw.one]
  simp only [mul_one]

/-- The two new center spectra agree for any weights. -/
theorem csK_eq {w : Words} (hw : w.Good) (x : XT) (q : QT) : csK w x q = csR w x q := by
  funext b k c
  show Ideal.div (sumTiles w.zero (fun n => q b n k * x b n c)) (massK w q b k)
    = Ideal.div (∑ n, q b n k * x b n c) (massR w q b k)
  rw [massK_eq hw, hw.zero, sumTiles_zero]

/-- The two new center coordinates agree for any weights. -/
theorem cpK_eq {w : Words} (hw : w.Good) (p : PT) (q : QT) : cpK w p q = cpR w p q := by
  funext b k j
  show Ideal.div (sumTiles w.zero (fun n => q b n k * p n j)) (massK w q b k)
    = Ideal.div (∑ n, q b n k * p n j) (massR w q b k)
  rw [massK_eq hw, hw.zero, sumTiles_zero]

/-- The mass of positive real weights is a positive real. -/
theorem massR_pos {w : Words} (hw : w.Good) {q : QT} (hq : PosQ q) (b : Fin 4) (k : Fin 256) :
    IsPosReal (massR w q b k) :=
  (IsPosReal.sum_univ _ fun n => hq b n k).add hw.e6

/-- The new center spectra of real spectra under positive real weights are real. -/
theorem csR_real {w : Words} (hw : w.Good) {x : XT} (hx : RealX x) {q : QT} (hq : PosQ q) : RealCS (csR w x q) :=
  fun b k c => IsReal.div (IsReal.sum_univ _ fun n => (hq b n k).isReal.mul (hx b n c)) (massR_pos hw hq b k)

/-- The new center coordinates of real pixel coordinates under positive real weights are real. -/
theorem cpR_real {w : Words} (hw : w.Good) {p : PT} (hp : RealP p) {q : QT} (hq : PosQ q) : RealCP (cpR w p q) :=
  fun b k j => IsReal.div (IsReal.sum_univ _ fun n => (hq b n k).isReal.mul (hp n j)) (massR_pos hw hq b k)

/-! ## One round -/

/-- One round on real data: the two arrangements give the same weights and the same new centers, and the new
    centers are real again. -/
theorem round_eq {w : Words} (hw : w.Good) {x : XT} {p : PT} {cs : CS} {cp : CP} (hx : RealX x) (hp : RealP p)
    (hcs : RealCS cs) (hcp : RealCP cp) :
    qK w x p cs cp = qR w x p cs cp
      ∧ csK w x (qK w x p cs cp) = csR w x (qR w x p cs cp)
      ∧ cpK w p (qK w x p cs cp) = cpR w p (qR w x p cs cp)
      ∧ RealCS (csR w x (qR w x p cs cp))
      ∧ RealCP (cpR w p (qR w x p cs cp)) := by
  have hq : qK w x p cs cp = qR w x p cs cp := qK_eq hw x cs hp hcp
  have hpos : PosQ (qR w x p cs cp) := qR_pos hw hx hp hcs hcp
  refine ⟨hq, ?_, ?_, csR_real hw hx hpos, cpR_real hw hp hpos⟩
  · rw [hq]; exact csK_eq hw x _
  · rw [hq]; exact cpK_eq hw p _

/-! ## Any number of rounds -/

/-- One more round of the reference's arrangement, written out. -/
theorem iterR_succ (w : Words) (x : XT) (p : PT) (cs0 : CS) (cp0 : CP) (r : ℕ) :
    iterR w x p cs0 cp0 (r + 1)
      = (csR w x (qR w x p (iterR w x p cs0 cp0 r).1 (iterR w x p cs0 cp0 r).2),
         cpR w p (qR w x p (iterR w x p cs0 cp0 r).1 (iterR w x p cs0 cp0 r).2)) := by
  rw [iterR]

/-- One more round of the kernel's arrangement, written out. -/
theorem iterK_succ (w : Words) (x : XT) (p : PT) (cs0 : CS) (cp0 : CP) (r : ℕ) :
    iterK w x p cs0 cp0 (r + 1)
      = (csK w x (qK w x p (iterK w x p cs0 cp0 r).1 (iterK w x p cs0 cp0 r).2),
         cpK w p (qK w x p (iterK w x p cs0 cp0 r).1 (iterK w x p cs0 cp0 r).2)) := by
  rw [iterK]

/-- After any number of rounds from real seed centers the two arrangements hold the same centers, and they are
    real. -/
theorem iter_eq {w : Words} (hw : w.Good) {x : XT} {p : PT} {cs0 : CS} {cp0 : CP} (hx : RealX x) (hp : RealP p)
    (hcs : RealCS cs0) (hcp : RealCP cp0) (r : ℕ) :
    iterK w x p cs0 cp0 r = iterR w x p cs0 cp0 r
      ∧ RealCS (iterR w x p cs0 cp0 r).1 ∧ RealCP (iterR w x p cs0 cp0 r).2 := by
  induction r with
  | zero => exact ⟨rfl, hcs, hcp⟩
  | succ r ih =>
    obtain ⟨he, h1, h2⟩ := ih
    obtain ⟨_, hc, hd, h1', h2'⟩ := round_eq hw hx hp h1 h2
    rw [iterK_succ, iterR_succ, he, hc, hd]
    refine ⟨rfl, ?_, ?_⟩
    · dsimp only
      exact h1'
    · dsimp only
      exact h2'

/-- The weights of the fifth round (from the centers after four) agree. -/
theorem final_q_eq {w : Words} (hw : w.Good) {x : XT} {p : PT} {cs0 : CS} {cp0 : CP} (hx : RealX x) (hp : RealP p)
    (hcs : RealCS cs0) (hcp : RealCP cp0) :
    qK w x p (iterK w x p cs0 cp0 4).1 (iterK w x p cs0 cp0 4).2
      = qR w x p (iterR w x p cs0 cp0 4).1 (iterR w x p cs0 cp0 4).2 := by
  obtain ⟨he, _, h2⟩ := iter_eq hw hx hp hcs hcp 4
  rw [he]
  exact qK_eq hw x _ hp h2

/-- The center spectra after five rounds agree. -/
theorem final_cs_eq {w : Words} (hw : w.Good) {x : XT} {p : PT} {cs0 : CS} {cp0 : CP} (hx : RealX x) (hp : RealP p)
    (hcs : RealCS cs0) (hcp : RealCP cp0) :
    (iterK w x p cs0 cp0 5).1 = (iterR w x p cs0 cp0 5).1 :=
  congrArg Prod.fst (iter_eq hw hx hp hcs hcp 5).1

end Cert.Proof.Slic.Spec

end
-- ==== Proof.Pix.lean ====
/-
  The pixel coordinates as explicit reals. Pixel n of the 128 x 128 image sits in row n / 128 and column n % 128;
  both programs hold these two numbers as floats. The reference builds them from an iota over 128 repeated along
  rows and along columns, flattened to 16384 and laid side by side as two columns. The kernel builds them, tile by
  tile, from an iota over the 4096 positions of a tile: position r of tile t has row 32 t + r / 128 (a shift right
  by 7 added to t times 32) and column r % 128 (a mask with 127); since 4096 = 32 * 128 these are the row and the
  column of pixel 4096 t + r. The integer words involved stay far below 2^31, so the word arithmetic is the
  arithmetic of natural numbers and the signed reading of each word is the number itself.
-/
import proofs.«138879_j15556371546814_2_alg».proof.Proof.SpecLaw
import proofs.«138879_j15556371546814_2_alg».proof.Proof.Gen.KernelIdeal.Skeleton
import proofs.«138879_j15556371546814_2_alg».proof.Proof.Gen.ReferenceIdeal.Run
import Idealize.ShloMosaic.PureOps.Ideal
import Idealize.ShloMosaic.Lib.ValueIdx
import Idealize.ShloMosaic.Lib.IdealHost
import Idealize.ShloMosaic.Lib.Pipeline.Value
import Idealize.ShloMosaic.Lib.WordArith

set_option maxRecDepth 16384

noncomputable section

namespace Cert.Proof.Slic

open Idealize.ShloMosaic Idealize.ShloMosaic.ValueIdx

/-- The coordinates of pixel n: its row n / 128 and its column n % 128, as reals. -/
def pixSpec : Spec.PT := fun n j =>
  if j = 0 then (((n.val / 128 : ℕ) : ℝ) : EReal) else (((n.val % 128 : ℕ) : ℝ) : EReal)

theorem pixSpec_zero (n : Fin 16384) : pixSpec n 0 = (((n.val / 128 : ℕ) : ℝ) : EReal) := if_pos rfl
theorem pixSpec_one (n : Fin 16384) : pixSpec n 1 = (((n.val % 128 : ℕ) : ℝ) : EReal) := if_neg (by decide)

/-- The pixel coordinates are reals. -/
theorem pixSpec_real : Spec.RealP pixSpec := by
  intro n j
  unfold pixSpec
  split <;> exact ⟨_, rfl⟩

/-! ## Word arithmetic on small numbers -/

/-- A number below 4096 shifted right by 7 (arithmetically: its sign bit is clear) is the number divided by 128. -/
theorem shrsi7_ofNat (r : ℕ) (hr : r < 4096) :
    IntOp.shrsi .vector (BitVec.ofNat 32 r) 7#32 = BitVec.ofNat 32 (r / 128) := by
  unfold IntOp.shrsi
  rw [if_pos (by decide)]
  have hm : (BitVec.ofNat 32 r).msb = false := by
    rw [BitVec.msb_eq_false_iff_two_mul_lt, BitVec.toNat_ofNat]
    omega
  rw [BitVec.sshiftRight', BitVec.sshiftRight_eq_of_msb_false hm]
  apply BitVec.eq_of_toNat_eq
  rw [BitVec.toNat_ushiftRight, BitVec.toNat_ofNat, BitVec.toNat_ofNat, Nat.shiftRight_eq_div_pow]
  show r % 2 ^ 32 / 2 ^ 7 = r / 128 % 2 ^ 32
  omega

/-- A number below 4096 masked with 127 is the number modulo 128. -/
theorem andi127_ofNat (r : ℕ) (hr : r < 4096) :
    IntOp.andi (BitVec.ofNat 32 r) 127#32 = BitVec.ofNat 32 (r % 128) := by
  unfold IntOp.andi
  apply BitVec.eq_of_toNat_eq
  rw [BitVec.toNat_and, BitVec.toNat_ofNat, BitVec.toNat_ofNat]
  show r % 2 ^ 32 &&& 2 ^ 7 - 1 = r % 128 % 2 ^ 32
  rw [Nat.and_two_pow_sub_one_eq_mod]
  omega

/-- A number below 4 times 32, as words. -/
theorem muli32_ofNat (t : ℕ) (ht : t < 4) : Scalar.muli (BitVec.ofNat 32 t) 32#32 = BitVec.ofNat 32 (t * 32) := by
  unfold Scalar.muli IntOp.muli
  apply BitVec.eq_of_toNat_eq
  rw [BitVec.toNat_mul, BitVec.toNat_ofNat, BitVec.toNat_ofNat]
  show t % 2 ^ 32 * 32 % 2 ^ 32 = t * 32 % 2 ^ 32
  omega

/-- The sum of two words of natural numbers is the word of their sum. -/
theorem addi_ofNat (a b : ℕ) : IntOp.addi (BitVec.ofNat 32 a) (BitVec.ofNat 32 b) = BitVec.ofNat 32 (a + b) := by
  unfold IntOp.addi
  exact (BitVec.ofNat_add a b).symm

/-- The float of the word of a natural number below 2^31 is that number. -/
theorem sitofp_ofNat (N : ℕ) (hN : N < 2 ^ 31) :
    (FloatOps.sitofp (F := Ideal) .f32 (BitVec.ofNat 32 N) : EReal) = ((N : ℝ) : EReal) := by
  show ((((BitVec.ofNat 32 N).toInt : ℤ) : ℝ) : EReal) = _
  rw [WordArith.toInt_ofNat_small N hN, Int.cast_natCast]

/-! ## The kernel's tile coordinates -/

/-- Position r of tile t is a pixel. -/
theorem tile_pix_lt (i : Cert.KernelIdeal.grid0.Coords) (r : Fin 4096) : (i 1).val * 4096 + r.val < 16384 := by
  have h4 : (i 1).val < 4 := (i 1).isLt
  omega

/-- The kernel's row numbers of a tile are the rows of its pixels. -/
theorem k0_pay12_apply (i : Cert.KernelIdeal.grid0.Coords) (r : Fin 4096) :
    Cert.KernelIdeal.Gen.k0_pay12 (F := Ideal) i (ix2 r (0 : Fin 1))
      = pixSpec ⟨(i 1).val * 4096 + r.val, tile_pix_lt i r⟩ 0 := by
  have h4 : (i 1).val < 4 := (i 1).isLt
  show FloatOps.sitofp (F := Ideal) .f32 (IntOp.addi (Scalar.muli (BitVec.ofNat 32 (i 1).val) 32#32)
    (IntOp.shrsi .vector (iota .tc Cert.KernelIdeal.S4096x1 32 [0] Cert.KernelIdeal.Gen.iota_S4096x1_d0_w32 (ix2 r (0 : Fin 1))) 7#32)) = _
  rw [iota_single_apply]
  show FloatOps.sitofp (F := Ideal) .f32 (IntOp.addi (Scalar.muli (BitVec.ofNat 32 (i 1).val) 32#32)
    (IntOp.shrsi .vector (BitVec.ofNat 32 r.val) 7#32)) = _
  rw [shrsi7_ofNat r.val r.isLt, muli32_ofNat _ h4, addi_ofNat, sitofp_ofNat _ (by omega), pixSpec_zero]
  show (((((i 1).val * 32 + r.val / 128 : ℕ) : ℝ) : EReal)) = (((((i 1).val * 4096 + r.val) / 128 : ℕ) : ℝ) : EReal)
  have e : (i 1).val * 32 + r.val / 128 = ((i 1).val * 4096 + r.val) / 128 := by omega
  rw [e]

/-- The kernel's column numbers of a tile are the columns of its pixels. -/
theorem k0_pay13_apply (i : Cert.KernelIdeal.grid0.Coords) (r : Fin 4096) :
    Cert.KernelIdeal.Gen.k0_pay13 (F := Ideal) (ix2 r (0 : Fin 1))
      = pixSpec ⟨(i 1).val * 4096 + r.val, tile_pix_lt i r⟩ 1 := by
  have h4 : (i 1).val < 4 := (i 1).isLt
  show FloatOps.sitofp (F := Ideal) .f32 (IntOp.andi
    (iota .tc Cert.KernelIdeal.S4096x1 32 [0] Cert.KernelIdeal.Gen.iota_S4096x1_d0_w32 (ix2 r (0 : Fin 1))) 127#32) = _
  rw [iota_single_apply]
  show FloatOps.sitofp (F := Ideal) .f32 (IntOp.andi (BitVec.ofNat 32 r.val) 127#32) = _
  rw [andi127_ofNat r.val r.isLt, sitofp_ofNat _ (by omega), pixSpec_one]
  show ((((r.val % 128 : ℕ) : ℝ) : EReal)) = (((((i 1).val * 4096 + r.val) % 128 : ℕ) : ℝ) : EReal)
  have e : r.val % 128 = ((i 1).val * 4096 + r.val) % 128 := by omega
  rw [e]

/-! ## The reference's coordinate array -/

section Reference

open Cert.ReferenceIdeal Cert.ReferenceIdeal.Gen Idealize.SL.Sem Idealize.ShloMosaic.StableHlo

/-- The flattened row numbers: entry n of the 128 x 128 array of row numbers, flattened, is n / 128. -/
theorem ref_rows_apply (n : Fin 16384) :
    (broadcastInDim S16384x1 ![0] bcast_S16384_S16384x1_0
      (shapeCast S16384 (broadcastInDim S128x128 ![0] bcast_S128_S128x128_0 (iotaInDim S128 32 0)) shapeCasts_S128x128_S16384)
      : IVec S16384x1 32) (ix2 n (0 : Fin 1)) = BitVec.ofNat 32 (n.val / 128) := by
  have h1 : n.val / 128 < 128 := by have := n.isLt; omega
  have h2 : n.val % 128 < 128 := Nat.mod_lt _ (by decide)
  refine (broadcastInDim_apply _ _ _ _ (ix1 n) ?_).trans ?_
  · intro a; fin_cases a; rfl
  refine (shapeCast_apply _ _ _ (ix2 (⟨n.val / 128, h1⟩ : Fin 128) (⟨n.val % 128, h2⟩ : Fin 128)) ?_).trans ?_
  · rw [Shape.rowMajor_val_two, Shape.rowMajor_val_one]
    show n.val / 128 * 128 + n.val % 128 = n.val
    omega
  refine (broadcastInDim_apply _ _ _ _ (ix1 (⟨n.val / 128, h1⟩ : Fin 128)) ?_).trans ?_
  · intro a; fin_cases a; rfl
  rfl

/-- The flattened column numbers: entry n is n % 128. -/
theorem ref_cols_apply (n : Fin 16384) :
    (broadcastInDim S16384x1 ![0] bcast_S16384_S16384x1_0
      (shapeCast S16384 (broadcastInDim S128x128 ![1] bcast_S128_S128x128_1 (iotaInDim S128 32 0)) shapeCasts_S128x128_S16384)
      : IVec S16384x1 32) (ix2 n (0 : Fin 1)) = BitVec.ofNat 32 (n.val % 128) := by
  have h1 : n.val / 128 < 128 := by have := n.isLt; omega
  have h2 : n.val % 128 < 128 := Nat.mod_lt _ (by decide)
  refine (broadcastInDim_apply _ _ _ _ (ix1 n) ?_).trans ?_
  · intro a; fin_cases a; rfl
  refine (shapeCast_apply _ _ _ (ix2 (⟨n.val / 128, h1⟩ : Fin 128) (⟨n.val % 128, h2⟩ : Fin 128)) ?_).trans ?_
  · rw [Shape.rowMajor_val_two, Shape.rowMajor_val_one]
    show n.val / 128 * 128 + n.val % 128 = n.val
    omega
  refine (broadcastInDim_apply _ _ _ _ (ix1 (⟨n.val % 128, h2⟩ : Fin 128)) ?_).trans ?_
  · intro a; fin_cases a; rfl
  rfl

variable (V0 : Valuation Cert.ReferenceIdeal.τ Cert.ReferenceIdeal.sig (Elt Ideal))

/-- The reference's coordinate array holds the row of pixel n at column 0. -/
theorem ref_pix_row (b : Fin 4) (n : Fin 16384) :
    Cert.ReferenceIdeal.Value.res_main_v34 V0 (ix3 b n (0 : Fin 2)) = pixSpec n 0 := by
  unfold Cert.ReferenceIdeal.Value.res_main_v34
  refine (broadcastInDim_apply _ _ _ _ (ix3 (0 : Fin 1) n (0 : Fin 2)) ?_).trans ?_
  · intro a; fin_cases a <;> rfl
  refine (broadcastInDim_apply _ _ _ _ (ix2 n (0 : Fin 2)) ?_).trans ?_
  · intro a; fin_cases a <;> rfl
  refine (sitofp_apply _ _).trans ?_
  refine Eq.trans (b := FloatOps.sitofp (F := Ideal) .f32 (BitVec.ofNat 32 (n.val / 128)))
    (congrArg (FloatOps.sitofp (F := Ideal) .f32) ?_) ?_
  · refine (concatenate_pair_apply_left (t := S16384x2) (s₁ := S16384x1) (s₂ := S16384x1) _ _ _ _ _ rfl
      (ix2 n (0 : Fin 1)) ?_).trans (ref_rows_apply n)
    intro a; fin_cases a <;> rfl
  · rw [sitofp_ofNat _ (by have := n.isLt; omega), pixSpec_zero]

/-- The reference's coordinate array holds the column of pixel n at column 1. -/
theorem ref_pix_col (b : Fin 4) (n : Fin 16384) :
    Cert.ReferenceIdeal.Value.res_main_v34 V0 (ix3 b n (1 : Fin 2)) = pixSpec n 1 := by
  unfold Cert.ReferenceIdeal.Value.res_main_v34
  refine (broadcastInDim_apply _ _ _ _ (ix3 (0 : Fin 1) n (1 : Fin 2)) ?_).trans ?_
  · intro a; fin_cases a <;> rfl
  refine (broadcastInDim_apply _ _ _ _ (ix2 n (1 : Fin 2)) ?_).trans ?_
  · intro a; fin_cases a <;> rfl
  refine (sitofp_apply _ _).trans ?_
  refine Eq.trans (b := FloatOps.sitofp (F := Ideal) .f32 (BitVec.ofNat 32 (n.val % 128)))
    (congrArg (FloatOps.sitofp (F := Ideal) .f32) ?_) ?_
  · refine (concatenate_pair_apply_right (t := S16384x2) (s₁ := S16384x1) (s₂ := S16384x1) _ _ _ _ _ rfl rfl
      (ix2 n (0 : Fin 1)) ?_ ?_).trans (ref_cols_apply n)
    · intro a ha
      fin_cases a
      · rfl
      · exact absurd rfl ha
    · rfl
  · rw [sitofp_ofNat _ (by have := Nat.mod_lt n.val (show 0 < 128 by decide); omega), pixSpec_one]

/-- The reference's coordinate array is the pixel coordinates, for every batch. -/
theorem ref_pix (b : Fin 4) (n : Fin 16384) (j : Fin 2) :
    Cert.ReferenceIdeal.Value.res_main_v34 V0 (ix3 b n j) = pixSpec n j := by
  fin_cases j
  · exact ref_pix_row V0 b n
  · exact ref_pix_col V0 b n

end Reference

end Cert.Proof.Slic

end
-- ==== Proof.KRound0.lean ====
/-
  Round one of the kernel in the specification's terms. Point t = 4 b + a of the 4 x 4 grid stages tile a of
  batch b: its pixel block is rows 4096 a .. 4096 a + 4095 of the pixels of image b, its two center blocks are the
  centers of image b and their coordinates, and its row and column numbers are the coordinates of those pixels.
  So each tile is a tile of the specification's data, the four tiles of a batch accumulate the specification's
  tile-by-tile sums, and what the last tile of batch b writes back (batch b's rows of the two outputs) are the
  specification's new centers and new center coordinates.
-/
import proofs.«138879_j15556371546814_2_alg».proof.Proof.I0Arr
import proofs.«138879_j15556371546814_2_alg».proof.Proof.KBatch
import proofs.«138879_j15556371546814_2_alg».proof.Proof.Pix

set_option maxRecDepth 16384

noncomputable section

namespace Cert.Proof.Slic.KRound

open Cert.KernelIdeal Cert.KernelIdeal.Gen Cert.KernelIdeal.Slic
open Idealize.ShloMosaic Idealize.ShloMosaic.TcCoe Idealize.ShloMosaic.ValueIdx
open Idealize.SL Idealize.SL.Sem
open Cert.Proof.Slic

/-- Two rank-3 indices with the same coordinates are equal. -/
theorem ix3_congr {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

/-- The second grid coordinate of point t is t mod 4 (the tile). -/
theorem coords1_val : ∀ t : Fin grid0.N, (grid0.coords t 1).val = t.val % 4 := by decide +kernel

variable (W : Dev nD → Valuation τ sig (Elt Ideal)) (c : Dev nD)

/-- The pixel spectra the round reads. -/
def Xof : Spec.XT := fun b n ch => W c (Proc.devRef .tc main_v25) (ix3 b n ch)
/-- The centers the round reads. -/
def CSof0 : Spec.CS := fun b k ch => W c (Proc.devRef .tc main_v36) (ix3 b k ch)
/-- The center coordinates the round reads. -/
def CPof0 : Spec.CP := fun b k j => W c (Proc.devRef .tc main_v38) (ix3 b k j)

/-- Point 4 b + a stages tile a of batch b of the specification's data. -/
theorem isTile0 (b a : Fin 4) :
    KPay.IsTile (R0.iblk0 W c 0 (R0.pt b a)) (R0.iblk0 W c 1 (R0.pt b a)) (R0.iblk0 W c 2 (R0.pt b a))
      (grid0.coords (R0.pt b a)) (Xof W c) pixSpec (CSof0 W c) (CPof0 W c) b a where
  hx r ch :=
    (R0.iblk0_0_apply W c (R0.pt b a) r ch).trans (congrArg (R0.WV W c main_v25)
      (ix3_congr (by show (4 * b.val + a.val) / 4 = b.val; omega)
        (by show (4 * b.val + a.val) % 4 * 4096 + r.val = a.val * 4096 + r.val; omega) rfl))
  hcs k ch :=
    (R0.iblk0_1_apply W c (R0.pt b a) k ch).trans (congrArg (R0.WV W c main_v36)
      (ix3_congr (by show (4 * b.val + a.val) / 4 = b.val; omega) rfl rfl))
  hcp k j :=
    (R0.iblk0_2_apply W c (R0.pt b a) k j).trans (congrArg (R0.WV W c main_v38)
      (ix3_congr (by show (4 * b.val + a.val) / 4 = b.val; omega) rfl rfl))
  hpy r :=
    (k0_pay12_apply (grid0.coords (R0.pt b a)) r).trans (congrArg (fun n => pixSpec n 0) (Fin.ext (by
      show (grid0.coords (R0.pt b a) 1).val * 4096 + r.val = a.val * 4096 + r.val
      rw [coords1_val]
      show (4 * b.val + a.val) % 4 * 4096 + r.val = a.val * 4096 + r.val
      omega)))
  hpx r :=
    (k0_pay13_apply (grid0.coords (R0.pt b a)) r).trans (congrArg (fun n => pixSpec n 1) (Fin.ext (by
      show (grid0.coords (R0.pt b a) 1).val * 4096 + r.val = a.val * 4096 + r.val
      rw [coords1_val]
      show (4 * b.val + a.val) % 4 * 4096 + r.val = a.val * 4096 + r.val
      omega)))

theorem pt3_ne (b : Fin 4) : ¬(R0.pt b 3).val % 4 = 0 := by
  show ¬(4 * b.val + (3 : Fin 4).val) % 4 = 0
  have : ((3 : Fin 4) : ℕ) = 3 := rfl
  omega

theorem pt3_eq (b : Fin 4) : (R0.pt b 3).val % 4 = 3 := by
  show (4 * b.val + (3 : Fin 4).val) % 4 = 3
  have : ((3 : Fin 4) : ℕ) = 3 := rfl
  omega

/-- After round one the spectral-center output holds the specification's new centers. -/
theorem round0_cs (b : Fin 4) (k : Fin 256) (ch : Fin 200) :
    (R0.dat0 W c).arrAt 3 cfg0.N (ix3 b k ch)
      = Spec.csK Spec.wordsI (Xof W c) (Spec.qK Spec.wordsI (Xof W c) pixSpec (CSof0 W c) (CPof0 W c)) b k ch := by
  rw [R0.final3]
  show (R0.outsAt0 W c (R0.pt b 3).val (R0.pt b 3).isLt).1 (ix3 (0 : Fin 1) k ch) = _
  rw [R0.out3_last W c (R0.pt b 3) (pt3_ne b) (pt3_eq b), ← R0.accAt_next W c (R0.pt b 3) (pt3_ne b),
    R0.accAt_batch W c b]
  exact KPay.batch_cs (x0 := fun a => R0.iblk0 W c 0 (R0.pt b a)) (x1 := fun a => R0.iblk0 W c 1 (R0.pt b a))
    (x2 := fun a => R0.iblk0 W c 2 (R0.pt b a)) (i := fun a => grid0.coords (R0.pt b a)) (isTile0 W c b) k ch

/-- After round one the spatial-center output holds the specification's new center coordinates. -/
theorem round0_cp (b : Fin 4) (k : Fin 256) (j : Fin 2) :
    (R0.dat0 W c).arrAt 4 cfg0.N (ix3 b k j)
      = Spec.cpK Spec.wordsI pixSpec (Spec.qK Spec.wordsI (Xof W c) pixSpec (CSof0 W c) (CPof0 W c)) b k j := by
  rw [R0.final4]
  show (R0.outsAt0 W c (R0.pt b 3).val (R0.pt b 3).isLt).2.1 (ix3 (0 : Fin 1) k j) = _
  rw [R0.out4_last W c (R0.pt b 3) (pt3_ne b) (pt3_eq b), ← R0.accAt_next W c (R0.pt b 3) (pt3_ne b),
    R0.accAt_batch W c b]
  exact KPay.batch_cp (x0 := fun a => R0.iblk0 W c 0 (R0.pt b a)) (x1 := fun a => R0.iblk0 W c 1 (R0.pt b a))
    (x2 := fun a => R0.iblk0 W c 2 (R0.pt b a)) (i := fun a => grid0.coords (R0.pt b a)) (isTile0 W c b) k j

end Cert.Proof.Slic.KRound

end
-- ==== Proof.I1Pieces.lean ====
/-
  Round two of the idealized kernel: what each case of the body leaves, as the payloads' own terms.

  One tile updates the three accumulators by one function of the tile's pixel block x0, the two center blocks
  x1, x2 and the tile coordinate: the spectral numerator gains the weights' product with the pixels, the spatial
  numerator their product with the pixel coordinates, the mass their column sums. At the first tile of a batch
  the update starts from the zero splats; at the last tile the two center outputs are the numerators over the
  mass plus 1e-6. Every store is whole, so what a buffer holds after the body is the last store's payload.
-/
import proofs.«138879_j15556371546814_2_alg».proof.Proof.I1Dat
import Idealize.ShloMosaic.Lib.Pipeline.Value

set_option maxRecDepth 16384

noncomputable section

namespace Cert.KernelIdeal.Slic.R1

open Cert.KernelIdeal Cert.KernelIdeal.Gen Cert.KernelIdeal.Slic
open Idealize.ShloMosaic Idealize.ShloMosaic.TcCoe Idealize.ShloMosaic.Tactic
open Idealize.SL Idealize.SL.Sem

variable {F : FTy → Type} [FloatOps F]
variable (W : Dev nD → Valuation τ sig (Elt F))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole buffer holding the raw contents of `X` reads back `X`. -/
theorem read_unread_whole (b : Ref sig .tc) (X : b.ty.shape.Idx → Elt F b.ty.elt) :
    View.read (Elt F) (View.whole b) ((Memref.isWhole_whole b).unread X) = X :=
  (Memref.isWhole_whole b).read_unread X

/-- A load of a whole accumulator right after one whole store into it reads the stored payload. -/
theorem rc0 (w : S256x200.Idx → Elt F .f32) :
    (View.whole cc1_scratch0).readCov [(⟨Rect.unit ![0, 0] ![256, 200] inb_S256x200_S256x200_0_0, w⟩ : View.Piece (Elt F) S256x200 .f32)]
      (Rect.unit ![0, 0] ![256, 200] inb_S256x200_S256x200_0_0).toLoadRect = w :=
  View.readCov_unit_zero (View.whole cc1_scratch0) hz2 _ w
theorem rc1 (w : S256x2.Idx → Elt F .f32) :
    (View.whole cc1_scratch1).readCov [(⟨Rect.unit ![0, 0] ![256, 2] inb_S256x2_S256x2_0_0, w⟩ : View.Piece (Elt F) S256x2 .f32)]
      (Rect.unit ![0, 0] ![256, 2] inb_S256x2_S256x2_0_0).toLoadRect = w :=
  View.readCov_unit_zero (View.whole cc1_scratch1) hz2 _ w
theorem rc2 (w : S256x1.Idx → Elt F .f32) :
    (View.whole cc1_scratch2).readCov [(⟨Rect.unit ![0, 0] ![256, 1] inb_S256x1_S256x1_0_0, w⟩ : View.Piece (Elt F) S256x1 .f32)]
      (Rect.unit ![0, 0] ![256, 1] inb_S256x1_S256x1_0_0).toLoadRect = w :=
  View.readCov_unit_zero (View.whole cc1_scratch2) hz2 _ w

/-- The same, with the extent spelled as the shape's size (the printed program's spelling). -/
theorem rc0' (w : S256x200.Idx → Elt F .f32) :
    (View.whole cc1_scratch0).readCov [(⟨Rect.unit (s := S256x200) ![0, 0] S256x200.size inb_S256x200_S256x200_0_0, w⟩ : View.Piece (Elt F) S256x200 .f32)]
      (Rect.unit (s := S256x200) ![0, 0] S256x200.size inb_S256x200_S256x200_0_0).toLoadRect = w :=
  View.readCov_unit_zero (View.whole cc1_scratch0) hz2 _ w
theorem rc1' (w : S256x2.Idx → Elt F .f32) :
    (View.whole cc1_scratch1).readCov [(⟨Rect.unit (s := S256x2) ![0, 0] S256x2.size inb_S256x2_S256x2_0_0, w⟩ : View.Piece (Elt F) S256x2 .f32)]
      (Rect.unit (s := S256x2) ![0, 0] S256x2.size inb_S256x2_S256x2_0_0).toLoadRect = w :=
  View.readCov_unit_zero (View.whole cc1_scratch1) hz2 _ w
theorem rc2' (w : S256x1.Idx → Elt F .f32) :
    (View.whole cc1_scratch2).readCov [(⟨Rect.unit (s := S256x1) ![0, 0] S256x1.size inb_S256x1_S256x1_0_0, w⟩ : View.Piece (Elt F) S256x1 .f32)]
      (Rect.unit (s := S256x1) ![0, 0] S256x1.size inb_S256x1_S256x1_0_0).toLoadRect = w :=
  View.readCov_unit_zero (View.whole cc1_scratch2) hz2 _ w

/-- The three accumulators. -/
abbrev Acc (F : FTy → Type) [FloatOps F] : Type := Vec F S256x200 .f32 × Vec F S256x2 .f32 × Vec F S256x1 .f32

/-- One tile's update of the accumulators, from the tile's blocks and coordinate. -/
def upd (x0 : Vec F S1x4096x200 .bf16) (x1 : Vec F S1x256x200 .f32) (x2 : Vec F S1x256x2 .f32) (i : grid1.Coords) (a : Acc F) : Acc F :=
  (k1_pay16 (k1_pay9 x0) (k1_pay10 x2) (k1_pay11 x0 x1) (k1_pay12 i) k1_pay13 a.1,
   k1_pay1 (k1_pay17 (k1_pay10 x2) (k1_pay11 x0 x1) (k1_pay12 i) k1_pay13 a.2.1),
   k1_pay2 (k1_pay15 (k1_pay10 x2) (k1_pay11 x0 x1) (k1_pay12 i) k1_pay13) a.2.2)

/-- The zero splats the reset stores. -/
def acc0 : Acc F := (k1_pay6, k1_pay7, k1_pay8)

theorem accA_7 (c : Dev nD) (t : Fin cfg1.N) (h0 : t.val % 4 = 0) :
    (stepA W c t h0).2.2.1 = (upd (iblk1 W c 0 t) (iblk1 W c 1 t) (iblk1 W c 2 t) (grid1.coords t) acc0).1 := by
  unfold stepA; dsimp only
  rw [View.read_writes_eq_canon _ _ _ (coverA_7 W c t h0)]
  unfold runA kernelRun1_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k1_pay16 _ _ _ _ _) (View.readCov_unit_zero (View.whole cc1_scratch0) hz2 _ _)
theorem accA_8 (c : Dev nD) (t : Fin cfg1.N) (h0 : t.val % 4 = 0) :
    (stepA W c t h0).2.2.2.1 = (upd (iblk1 W c 0 t) (iblk1 W c 1 t) (iblk1 W c 2 t) (grid1.coords t) acc0).2.1 := by
  unfold stepA; dsimp only
  rw [View.read_writes_eq_canon _ _ _ (coverA_8 W c t h0)]
  unfold runA kernelRun1_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (fun z => k1_pay1 (k1_pay17 _ _ _ _ z)) (View.readCov_unit_zero (View.whole cc1_scratch1) hz2 _ _)
theorem accA_9 (c : Dev nD) (t : Fin cfg1.N) (h0 : t.val % 4 = 0) :
    (stepA W c t h0).2.2.2.2 = (upd (iblk1 W c 0 t) (iblk1 W c 1 t) (iblk1 W c 2 t) (grid1.coords t) acc0).2.2 := by
  unfold stepA; dsimp only
  rw [View.read_writes_eq_canon _ _ _ (coverA_9 W c t h0)]
  unfold runA kernelRun1_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k1_pay2 _) (View.readCov_unit_zero (View.whole cc1_scratch2) hz2 _ _)

theorem accB_7 (c : Dev nD) (t : Fin cfg1.N) (h0 : ¬t.val % 4 = 0) (h1 : ¬t.val % 4 = 3) (p : Outs1 F) :
    (stepB W c t h0 h1 p).2.2.1 = (upd (iblk1 W c 0 t) (iblk1 W c 1 t) (iblk1 W c 2 t) (grid1.coords t) p.2.2).1 := by
  unfold stepB; dsimp only
  rw [View.read_writes_eq_canon _ _ _ (coverB_7 W c t h0 h1 p)]
  unfold runB kernelRun1_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_8 (c : Dev nD) (t : Fin cfg1.N) (h0 : ¬t.val % 4 = 0) (h1 : ¬t.val % 4 = 3) (p : Outs1 F) :
    (stepB W c t h0 h1 p).2.2.2.1 = (upd (iblk1 W c 0 t) (iblk1 W c 1 t) (iblk1 W c 2 t) (grid1.coords t) p.2.2).2.1 := by
  unfold stepB; dsimp only
  rw [View.read_writes_eq_canon _ _ _ (coverB_8 W c t h0 h1 p)]
  unfold runB kernelRun1_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_9 (c : Dev nD) (t : Fin cfg1.N) (h0 : ¬t.val % 4 = 0) (h1 : ¬t.val % 4 = 3) (p : Outs1 F) :
    (stepB W c t h0 h1 p).2.2.2.2 = (upd (iblk1 W c 0 t) (iblk1 W c 1 t) (iblk1 W c 2 t) (grid1.coords t) p.2.2).2.2 := by
  unfold stepB; dsimp only
  rw [View.read_writes_eq_canon _ _ _ (coverB_9 W c t h0 h1 p)]
  unfold runB kernelRun1_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

theorem accC_7 (c : Dev nD) (t : Fin cfg1.N) (h0 : ¬t.val % 4 = 0) (h1 : t.val % 4 = 3) (p : Outs1 F) :
    (stepC W c t h0 h1 p).2.2.1 = (upd (iblk1 W c 0 t) (iblk1 W c 1 t) (iblk1 W c 2 t) (grid1.coords t) p.2.2).1 := by
  unfold stepC; dsimp only
  rw [View.read_writes_eq_canon _ _ _ (coverC_7 W c t h0 h1 p)]
  unfold runC kernelRun1_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_8 (c : Dev nD) (t : Fin cfg1.N) (h0 : ¬t.val % 4 = 0) (h1 : t.val % 4 = 3) (p : Outs1 F) :
    (stepC W c t h0 h1 p).2.2.2.1 = (upd (iblk1 W c 0 t) (iblk1 W c 1 t) (iblk1 W c 2 t) (grid1.coords t) p.2.2).2.1 := by
  unfold stepC; dsimp only
  rw [View.read_writes_eq_canon _ _ _ (coverC_8 W c t h0 h1 p)]
  unfold runC kernelRun1_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_9 (c : Dev nD) (t : Fin cfg1.N) (h0 : ¬t.val % 4 = 0) (h1 : t.val % 4 = 3) (p : Outs1 F) :
    (stepC W c t h0 h1 p).2.2.2.2 = (upd (iblk1 W c 0 t) (iblk1 W c 1 t) (iblk1 W c 2 t) (grid1.coords t) p.2.2).2.2 := by
  unfold stepC; dsimp only
  rw [View.read_writes_eq_canon _ _ _ (coverC_9 W c t h0 h1 p)]
  unfold runC kernelRun1_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

set_option maxHeartbeats 2000000 in
/-- At the last tile the spectral-center output is the updated spectral numerator over the updated mass plus 1e-6. -/
theorem outC_5 (c : Dev nD) (t : Fin cfg1.N) (h0 : ¬t.val % 4 = 0) (h1 : t.val % 4 = 3) (p : Outs1 F) :
    (stepC W c t h0 h1 p).1 = k1_pay4 (upd (iblk1 W c 0 t) (iblk1 W c 1 t) (iblk1 W c 2 t) (grid1.coords t) p.2.2).2.2 (upd (iblk1 W c 0 t) (iblk1 W c 1 t) (iblk1 W c 2 t) (grid1.coords t) p.2.2).1 := by
  unfold stepC; dsimp only
  rw [View.read_writes_eq_canon _ _ _ (coverC_5 W c t h0 h1 p)]
  unfold runC kernelRun1_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k1_pay4 (View.readCov_unit_zero (View.whole cc1_scratch2) hz2 _ _) (View.readCov_unit_zero (View.whole cc1_scratch0) hz2 _ _)
set_option maxHeartbeats 2000000 in
/-- and the spatial-center output the updated spatial numerator over the same. -/
theorem outC_6 (c : Dev nD) (t : Fin cfg1.N) (h0 : ¬t.val % 4 = 0) (h1 : t.val % 4 = 3) (p : Outs1 F) :
    (stepC W c t h0 h1 p).2.1 = k1_pay5 (upd (iblk1 W c 0 t) (iblk1 W c 1 t) (iblk1 W c 2 t) (grid1.coords t) p.2.2).2.2 (upd (iblk1 W c 0 t) (iblk1 W c 1 t) (iblk1 W c 2 t) (grid1.coords t) p.2.2).2.1 := by
  unfold stepC; dsimp only
  rw [View.read_writes_eq_canon _ _ _ (coverC_6 W c t h0 h1 p)]
  unfold runC kernelRun1_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k1_pay5 (View.readCov_unit_zero (View.whole cc1_scratch2) hz2 _ _) (View.readCov_unit_zero (View.whole cc1_scratch1) hz2 _ _)

end Cert.KernelIdeal.Slic.R1

end
-- ==== Proof.I1Batch.lean ====
/-
  Round two of the idealized kernel: the accumulation over a batch in closed form.

  After the first tile of a batch the accumulators are one update of the zero splats; after every later tile,
  one update of what the tile before left; at the last tile the two center outputs are the two numerators over
  the mass plus 1e-6, all three taken after that tile's update.
-/
import proofs.«138879_j15556371546814_2_alg».proof.Proof.I1Pieces

set_option maxRecDepth 16384

noncomputable section

namespace Cert.KernelIdeal.Slic.R1

open Cert.KernelIdeal Cert.KernelIdeal.Gen Cert.KernelIdeal.Slic
open Idealize.ShloMosaic Idealize.ShloMosaic.TcCoe
open Idealize.SL Idealize.SL.Sem

variable {F : FTy → Type} [FloatOps F]
variable (W : Dev nD → Valuation τ sig (Elt F))

/-- The accumulators after the body at position `n`. -/
def accAt (c : Dev nD) (n : ℕ) (hn : n < cfg1.N) : Acc F := (outsAt1 W c n hn).2.2

/-- One tile's update at point `t`: the update of its three input blocks and its coordinates. -/
def updAt (c : Dev nD) (t : Fin cfg1.N) (a : Acc F) : Acc F :=
  upd (iblk1 W c 0 t) (iblk1 W c 1 t) (iblk1 W c 2 t) (grid1.coords t) a

theorem accAt_congr (c : Dev nD) {n n' : ℕ} (h : n = n') (hn : n < cfg1.N) (hn' : n' < cfg1.N) :
    accAt W c n hn = accAt W c n' hn' := by subst h; rfl

/-- At the first tile of a batch the accumulators restart from zero. -/
theorem accAt_first (c : Dev nD) (t : Fin cfg1.N) (h0 : t.val % 4 = 0) :
    accAt W c t.val t.isLt = updAt W c t acc0 := by
  unfold accAt updAt; rw [outsAt1_A W c t h0]
  exact Prod.ext (accA_7 W c t h0) (Prod.ext (accA_8 W c t h0) (accA_9 W c t h0))

/-- At every later tile they are updated from what the tile before left. -/
theorem accAt_next (c : Dev nD) (t : Fin cfg1.N) (h0 : ¬t.val % 4 = 0) :
    accAt W c t.val t.isLt = updAt W c t (accAt W c (t.val - 1) (Nat.lt_of_le_of_lt (Nat.sub_le _ _) t.isLt)) := by
  unfold accAt updAt
  by_cases h1 : t.val % 4 = 3
  · rw [outsAt1_C W c t h0 h1]
    exact Prod.ext (accC_7 W c t h0 h1 _) (Prod.ext (accC_8 W c t h0 h1 _) (accC_9 W c t h0 h1 _))
  · rw [outsAt1_B W c t h0 h1]
    exact Prod.ext (accB_7 W c t h0 h1 _) (Prod.ext (accB_8 W c t h0 h1 _) (accB_9 W c t h0 h1 _))

/-- At the last tile the spectral-center output is the spectral numerator over the mass plus 1e-6, both after this
    tile's update. -/
theorem out3_last (c : Dev nD) (t : Fin cfg1.N) (h0 : ¬t.val % 4 = 0) (h1 : t.val % 4 = 3) :
    (outsAt1 W c t.val t.isLt).1
      = k1_pay4 (updAt W c t (accAt W c (t.val - 1) (Nat.lt_of_le_of_lt (Nat.sub_le _ _) t.isLt))).2.2
          (updAt W c t (accAt W c (t.val - 1) (Nat.lt_of_le_of_lt (Nat.sub_le _ _) t.isLt))).1 := by
  unfold accAt updAt; rw [outsAt1_C W c t h0 h1]; exact outC_5 W c t h0 h1 _

/-- and the spatial-center output the spatial numerator over the same. -/
theorem out4_last (c : Dev nD) (t : Fin cfg1.N) (h0 : ¬t.val % 4 = 0) (h1 : t.val % 4 = 3) :
    (outsAt1 W c t.val t.isLt).2.1
      = k1_pay5 (updAt W c t (accAt W c (t.val - 1) (Nat.lt_of_le_of_lt (Nat.sub_le _ _) t.isLt))).2.2
          (updAt W c t (accAt W c (t.val - 1) (Nat.lt_of_le_of_lt (Nat.sub_le _ _) t.isLt))).2.1 := by
  unfold accAt updAt; rw [outsAt1_C W c t h0 h1]; exact outC_6 W c t h0 h1 _

/-- Tile `j` of batch `b` as a grid point. -/
def pt (b j : Fin 4) : Fin cfg1.N := ⟨4 * b.val + j.val, by have : cfg1.N = 16 := N_1; omega⟩

/-- After the last tile of batch `b`: four updates from zero, one per tile, in order. -/
theorem accAt_batch (c : Dev nD) (b : Fin 4) :
    accAt W c (pt b 3).val (pt b 3).isLt
      = updAt W c (pt b 3) (updAt W c (pt b 2) (updAt W c (pt b 1) (updAt W c (pt b 0) acc0))) := by
  have e3 : accAt W c (pt b 3).val (pt b 3).isLt = updAt W c (pt b 3) (accAt W c (pt b 2).val (pt b 2).isLt) :=
    (accAt_next W c (pt b 3) (by show ¬(4 * b.val + (3 : Fin 4).val) % 4 = 0; simp)).trans
      (congrArg (updAt W c (pt b 3)) (accAt_congr W c (by show 4 * b.val + (3 : Fin 4).val - 1 = 4 * b.val + (2 : Fin 4).val; simp) _ _))
  have e2 : accAt W c (pt b 2).val (pt b 2).isLt = updAt W c (pt b 2) (accAt W c (pt b 1).val (pt b 1).isLt) :=
    (accAt_next W c (pt b 2) (by show ¬(4 * b.val + (2 : Fin 4).val) % 4 = 0; simp)).trans
      (congrArg (updAt W c (pt b 2)) (accAt_congr W c (by show 4 * b.val + (2 : Fin 4).val - 1 = 4 * b.val + (1 : Fin 4).val; simp) _ _))
  have e1 : accAt W c (pt b 1).val (pt b 1).isLt = updAt W c (pt b 1) (accAt W c (pt b 0).val (pt b 0).isLt) :=
    (accAt_next W c (pt b 1) (by show ¬(4 * b.val + (1 : Fin 4).val) % 4 = 0; simp)).trans
      (congrArg (updAt W c (pt b 1)) (accAt_congr W c (by show 4 * b.val + (1 : Fin 4).val - 1 = 4 * b.val + (0 : Fin 4).val; simp) _ _))
  have e0 : accAt W c (pt b 0).val (pt b 0).isLt = updAt W c (pt b 0) acc0 :=
    accAt_first W c (pt b 0) (by show (4 * b.val + (0 : Fin 4).val) % 4 = 0; simp)
  rw [e3, e2, e1, e0]

end Cert.KernelIdeal.Slic.R1

end
-- ==== Proof.I1Arr.lean ====
/-
  Round two of the idealized kernel: the arrays.

  Point t = 4 b + n stages tile n of batch b: rows n x 4096 .. n x 4096 + 4095 of the pixels of image b, and
  the 256 centers of image b with their coordinates. The two center outputs are written back at the last tile of
  each batch, one block of 256 rows per batch, so after the round batch b's rows of each output are what the last
  tile of batch b stored; the four blocks cover the array.
-/
import proofs.«138879_j15556371546814_2_alg».proof.Proof.I1Batch
import Idealize.ShloMosaic.Lib.ValueIdx

set_option maxRecDepth 16384

noncomputable section

namespace Cert.KernelIdeal.Slic.R1

open Cert.KernelIdeal Cert.KernelIdeal.Gen Cert.KernelIdeal.Slic
open Idealize.ShloMosaic Idealize.ShloMosaic.TcCoe Idealize.ShloMosaic.ValueIdx
open Idealize.SL Idealize.SL.Sem
open Idealize.ShloMosaic.Pipeline (Dat)

variable {F : FTy → Type} [FloatOps F]
variable (W : Dev nD → Valuation τ sig (Elt F))

/-- The printed index maps over the grid: every window's block index is (batch, tile or 0, 0) with batch = t / 4 and
    tile = t mod 4. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0 :=
  (by decide +kernel : ∀ t : Fin grid1.N, _)

theorem outsAt1_congr (c : Dev nD) {n n' : ℕ} (h : n = n') (hn : n < cfg1.N) (hn' : n' < cfg1.N) :
    outsAt1 W c n hn = outsAt1 W c n' hn' := by subst h; rfl

/-! ## The inputs' blocks -/

/-- A tile's pixel block is the pixel array at (batch, tile x 4096 + row, channel). -/
theorem iblk1_0_apply (c : Dev nD) (t : Fin cfg1.N) (r : Fin 4096) (ch : Fin 200) :
    iblk1 W c 0 t (ix3 (0 : Fin 1) r ch)
      = WV W c main_v25 (ix3 (⟨t.val / 4, by have := t.isLt; have : cfg1.N = 16 := N_1; omega⟩ : Fin 4)
          (⟨t.val % 4 * 4096 + r.val, by have := r.isLt; omega⟩ : Fin 16384) ch) := by
  unfold iblk1
  show WV W c main_v25 (((cfg1.win 0).blk t).view.emb (ix3 (0 : Fin 1) r ch)) = _
  congr 1
  funext a; apply Fin.ext
  obtain ⟨e0, e1, e2, -⟩ := idx_facts t
  match a with
  | ⟨0, _⟩ => show win1_0.index t (0 : Fin 3) * 1 + 1 * (0 : Fin 1).val = t.val / 4; rw [e0]; simp
  | ⟨1, _⟩ => show win1_0.index t (1 : Fin 3) * 4096 + 1 * r.val = t.val % 4 * 4096 + r.val; rw [e1]; omega
  | ⟨2, _⟩ => show win1_0.index t (2 : Fin 3) * 200 + 1 * ch.val = ch.val; rw [e2]; omega

/-- A point's block of the spectral centers is the batch's rows of the center array. -/
theorem iblk1_1_apply (c : Dev nD) (t : Fin cfg1.N) (k : Fin 256) (ch : Fin 200) :
    iblk1 W c 1 t (ix3 (0 : Fin 1) k ch)
      = WV W c main_v39_0 (ix3 (⟨t.val / 4, by have := t.isLt; have : cfg1.N = 16 := N_1; omega⟩ : Fin 4) k ch) := by
  unfold iblk1
  show WV W c main_v39_0 (((cfg1.win 1).blk t).view.emb (ix3 (0 : Fin 1) k ch)) = _
  congr 1
  funext a; apply Fin.ext
  obtain ⟨-, -, -, e0, e1, e2, -⟩ := idx_facts t
  match a with
  | ⟨0, _⟩ => show win1_1.index t (0 : Fin 3) * 1 + 1 * (0 : Fin 1).val = t.val / 4; rw [e0]; simp
  | ⟨1, _⟩ => show win1_1.index t (1 : Fin 3) * 256 + 1 * k.val = k.val; rw [e1]; omega
  | ⟨2, _⟩ => show win1_1.index t (2 : Fin 3) * 200 + 1 * ch.val = ch.val; rw [e2]; omega

/-- A point's block of the spatial centers is the batch's rows of the center array. -/
theorem iblk1_2_apply (c : Dev nD) (t : Fin cfg1.N) (k : Fin 256) (ch : Fin 2) :
    iblk1 W c 2 t (ix3 (0 : Fin 1) k ch)
      = WV W c main_v39_1 (ix3 (⟨t.val / 4, by have := t.isLt; have : cfg1.N = 16 := N_1; omega⟩ : Fin 4) k ch) := by
  unfold iblk1
  show WV W c main_v39_1 (((cfg1.win 2).blk t).view.emb (ix3 (0 : Fin 1) k ch)) = _
  congr 1
  funext a; apply Fin.ext
  obtain ⟨-, -, -, -, -, -, e0, e1, e2, -⟩ := idx_facts t
  match a with
  | ⟨0, _⟩ => show win1_2.index t (0 : Fin 3) * 1 + 1 * (0 : Fin 1).val = t.val / 4; rw [e0]; simp
  | ⟨1, _⟩ => show win1_2.index t (1 : Fin 3) * 256 + 1 * k.val = k.val; rw [e1]; omega
  | ⟨2, _⟩ => show win1_2.index t (2 : Fin 3) * 2 + 1 * ch.val = ch.val; rw [e2]; omega

/-! ## The spectral-center output: its array after the round -/

/-- What the spectral-center array holds after the round: batch `b`'s block is what the last tile of batch `b` stored. -/
def G3 (c : Dev nD) : Buf (Elt F) ((c : Thread nD τ).loc main_v40_0) := fun i =>
  (outsAt1 W c (pt (i 0) 3).val (pt (i 0) 3).isLt).1 (ix3 (0 : Fin 1) (i 1) (i 2))

/-- Where a last-tile point's block of the spectral-center array sits. -/
theorem emb3 (t : Fin cfg1.N) (j : S1x256x200.Idx) :
    ((cfg1.win 3).blk t).view.emb j
      = ix3 (⟨t.val / 4, by have := t.isLt; have : cfg1.N = 16 := N_1; omega⟩ : Fin 4) (j 1) (j 2) := by
  funext a; apply Fin.ext
  obtain ⟨-, -, -, -, -, -, -, -, -, e0, e1, e2, -⟩ := idx_facts t
  have hj0 : (j 0).val < 1 := (j 0).isLt
  match a with
  | ⟨0, _⟩ => show win1_3.index t (0 : Fin 3) * 1 + 1 * (j 0).val = t.val / 4; rw [e0]; omega
  | ⟨1, _⟩ => show win1_3.index t (1 : Fin 3) * 256 + 1 * (j 1).val = (j 1).val; rw [e1]; omega
  | ⟨2, _⟩ => show win1_3.index t (2 : Fin 3) * 200 + 1 * (j 2).val = (j 2).val; rw [e2]; omega

/-- What a last-tile point writes back is its block of that function. -/
theorem flushed3 (c : Dev nD) (t : Fin cfg1.N) (hf : (cfg1.win 3).flush t = true) :
    (dat1 W c).flushed 3 t = ((cfg1.win 3).blk t).view.read (Elt F) (G3 W c) := by
  have h3 : t.val % 4 = 3 := (flush1_3 t).mp hf
  show (cfg1.win 3).cut (grid1.coords t) ((dat1 W c).after 3 t) = _
  rw [after1_3]
  funext j
  show (outsAt1 W c t.val t.isLt).1 j = G3 W c (((cfg1.win 3).blk t).view.emb j)
  rw [emb3 t j]
  unfold G3
  have hb : t.val / 4 < 4 := by have := t.isLt; have : cfg1.N = 16 := N_1; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg1.N = 16 := N_1; omega⟩ : Fin 4) 3).val = t.val := by
    show 4 * (t.val / 4) + (3 : Fin 4).val = t.val
    have : ((3 : Fin 4) : ℕ) = 3 := rfl
    omega
  show _ = (outsAt1 W c (pt (⟨t.val / 4, hb⟩ : Fin 4) 3).val (pt (⟨t.val / 4, hb⟩ : Fin 4) 3).isLt).1 (ix3 (0 : Fin 1) (j 1) (j 2))
  rw [outsAt1_congr W c hn _ t.isLt]
  exact congrArg _ hj

/-- An index of the array is in a point's block iff each coordinate is in the block's range on its axis. -/
theorem mem_blk3 (t : Fin cfg1.N) (i : S4x256x200.Idx) :
    i ∈ ((cfg1.win 3).blk t).view.set ↔ ∀ a : Fin 3, win1_3.index t a * S1x256x200.size a ≤ (i a).val ∧ (i a).val < win1_3.index t a * S1x256x200.size a + S1x256x200.size a := by
  show i ∈ ((View.whole main_v40_0).slice (win1_3.rect t)).set ↔ _
  rw [View.set_slice_whole, Rect.mem_set_unit]
  exact Iff.rfl

/-- Every index of the array is in the block of its batch's last tile. -/
theorem cover3 (i : S4x256x200.Idx) :
    ∃ t : Fin cfg1.N, (cfg1.win 3).flush t = true ∧ i ∈ ((cfg1.win 3).blk t).view.set := by
  have hi0 : (i 0).val < 4 := (i 0).isLt
  have hi1 : (i 1).val < 256 := (i 1).isLt
  have hi2 : (i 2).val < 200 := (i 2).isLt
  refine ⟨⟨4 * (i 0).val + 3, by have : cfg1.N = 16 := N_1; omega⟩, (flush1_3 _).mpr (by show (4 * (i 0).val + 3) % 4 = 3; omega), ?_⟩
  rw [mem_blk3]
  obtain ⟨-, -, -, -, -, -, -, -, -, e0, e1, e2, -⟩ := idx_facts ⟨4 * (i 0).val + 3, by have : cfg1.N = 16 := N_1; omega⟩
  intro a
  match a with
  | ⟨0, _⟩ => show win1_3.index _ (0 : Fin 3) * 1 ≤ (i 0).val ∧ (i 0).val < win1_3.index _ (0 : Fin 3) * 1 + 1; rw [e0]; show (4 * (i 0).val + 3) / 4 * 1 ≤ (i 0).val ∧ (i 0).val < (4 * (i 0).val + 3) / 4 * 1 + 1; omega
  | ⟨1, _⟩ => show win1_3.index _ (1 : Fin 3) * 256 ≤ (i 1).val ∧ (i 1).val < win1_3.index _ (1 : Fin 3) * 256 + 256; rw [e1]; omega
  | ⟨2, _⟩ => show win1_3.index _ (2 : Fin 3) * 200 ≤ (i 2).val ∧ (i 2).val < win1_3.index _ (2 : Fin 3) * 200 + 200; rw [e2]; omega

/-- The spectral-center array after the round. -/
theorem final3 (c : Dev nD) : (dat1 W c).arrAt 3 cfg1.N = G3 W c :=
  (dat1 W c).arrAt_eq_of_cover 3 (G3 W c) (fun t hf => flushed3 W c t hf) (cover3)

/-! ## The spatial-center output: its array after the round -/

/-- What the spatial-center array holds after the round: batch `b`'s block is what the last tile of batch `b` stored. -/
def G4 (c : Dev nD) : Buf (Elt F) ((c : Thread nD τ).loc main_v40_1) := fun i =>
  (outsAt1 W c (pt (i 0) 3).val (pt (i 0) 3).isLt).2.1 (ix3 (0 : Fin 1) (i 1) (i 2))

/-- Where a last-tile point's block of the spatial-center array sits. -/
theorem emb4 (t : Fin cfg1.N) (j : S1x256x2.Idx) :
    ((cfg1.win 4).blk t).view.emb j
      = ix3 (⟨t.val / 4, by have := t.isLt; have : cfg1.N = 16 := N_1; omega⟩ : Fin 4) (j 1) (j 2) := by
  funext a; apply Fin.ext
  obtain ⟨-, -, -, -, -, -, -, -, -, -, -, -, e0, e1, e2⟩ := idx_facts t
  have hj0 : (j 0).val < 1 := (j 0).isLt
  match a with
  | ⟨0, _⟩ => show win1_4.index t (0 : Fin 3) * 1 + 1 * (j 0).val = t.val / 4; rw [e0]; omega
  | ⟨1, _⟩ => show win1_4.index t (1 : Fin 3) * 256 + 1 * (j 1).val = (j 1).val; rw [e1]; omega
  | ⟨2, _⟩ => show win1_4.index t (2 : Fin 3) * 2 + 1 * (j 2).val = (j 2).val; rw [e2]; omega

/-- What a last-tile point writes back is its block of that function. -/
theorem flushed4 (c : Dev nD) (t : Fin cfg1.N) (hf : (cfg1.win 4).flush t = true) :
    (dat1 W c).flushed 4 t = ((cfg1.win 4).blk t).view.read (Elt F) (G4 W c) := by
  have h3 : t.val % 4 = 3 := (flush1_4 t).mp hf
  show (cfg1.win 4).cut (grid1.coords t) ((dat1 W c).after 4 t) = _
  rw [after1_4]
  funext j
  show (outsAt1 W c t.val t.isLt).2.1 j = G4 W c (((cfg1.win 4).blk t).view.emb j)
  rw [emb4 t j]
  unfold G4
  have hb : t.val / 4 < 4 := by have := t.isLt; have : cfg1.N = 16 := N_1; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg1.N = 16 := N_1; omega⟩ : Fin 4) 3).val = t.val := by
    show 4 * (t.val / 4) + (3 : Fin 4).val = t.val
    have : ((3 : Fin 4) : ℕ) = 3 := rfl
    omega
  show _ = (outsAt1 W c (pt (⟨t.val / 4, hb⟩ : Fin 4) 3).val (pt (⟨t.val / 4, hb⟩ : Fin 4) 3).isLt).2.1 (ix3 (0 : Fin 1) (j 1) (j 2))
  rw [outsAt1_congr W c hn _ t.isLt]
  exact congrArg _ hj

/-- An index of the array is in a point's block iff each coordinate is in the block's range on its axis. -/
theorem mem_blk4 (t : Fin cfg1.N) (i : S4x256x2.Idx) :
    i ∈ ((cfg1.win 4).blk t).view.set ↔ ∀ a : Fin 3, win1_4.index t a * S1x256x2.size a ≤ (i a).val ∧ (i a).val < win1_4.index t a * S1x256x2.size a + S1x256x2.size a := by
  show i ∈ ((View.whole main_v40_1).slice (win1_4.rect t)).set ↔ _
  rw [View.set_slice_whole, Rect.mem_set_unit]
  exact Iff.rfl

/-- Every index of the array is in the block of its batch's last tile. -/
theorem cover4 (i : S4x256x2.Idx) :
    ∃ t : Fin cfg1.N, (cfg1.win 4).flush t = true ∧ i ∈ ((cfg1.win 4).blk t).view.set := by
  have hi0 : (i 0).val < 4 := (i 0).isLt
  have hi1 : (i 1).val < 256 := (i 1).isLt
  have hi2 : (i 2).val < 2 := (i 2).isLt
  refine ⟨⟨4 * (i 0).val + 3, by have : cfg1.N = 16 := N_1; omega⟩, (flush1_4 _).mpr (by show (4 * (i 0).val + 3) % 4 = 3; omega), ?_⟩
  rw [mem_blk4]
  obtain ⟨-, -, -, -, -, -, -, -, -, -, -, -, e0, e1, e2⟩ := idx_facts ⟨4 * (i 0).val + 3, by have : cfg1.N = 16 := N_1; omega⟩
  intro a
  match a with
  | ⟨0, _⟩ => show win1_4.index _ (0 : Fin 3) * 1 ≤ (i 0).val ∧ (i 0).val < win1_4.index _ (0 : Fin 3) * 1 + 1; rw [e0]; show (4 * (i 0).val + 3) / 4 * 1 ≤ (i 0).val ∧ (i 0).val < (4 * (i 0).val + 3) / 4 * 1 + 1; omega
  | ⟨1, _⟩ => show win1_4.index _ (1 : Fin 3) * 256 ≤ (i 1).val ∧ (i 1).val < win1_4.index _ (1 : Fin 3) * 256 + 256; rw [e1]; omega
  | ⟨2, _⟩ => show win1_4.index _ (2 : Fin 3) * 2 ≤ (i 2).val ∧ (i 2).val < win1_4.index _ (2 : Fin 3) * 2 + 2; rw [e2]; omega

/-- The spatial-center array after the round. -/
theorem final4 (c : Dev nD) : (dat1 W c).arrAt 4 cfg1.N = G4 W c :=
  (dat1 W c).arrAt_eq_of_cover 4 (G4 W c) (fun t hf => flushed4 W c t hf) (cover4)

end Cert.KernelIdeal.Slic.R1

end
-- ==== Proof.KSame.lean ====
/-
  Rounds two to four run the first round's body again: their pure values are, value by value, the first
  round's, the same text over the same literal grid.
-/
import proofs.«138879_j15556371546814_2_alg».proof.Proof.Gen.KernelIdeal.Skeleton

noncomputable section

namespace Cert.Proof.Slic.KPay

open Cert.KernelIdeal Cert.KernelIdeal.Gen
open Idealize.ShloMosaic

variable {F : FTy → Type} [FloatOps F]

/-! ## Round 2 -/

theorem k1_pay1_eq : k1_pay1 (F := F) = k0_pay1 (F := F) := rfl
theorem k1_pay2_eq : k1_pay2 (F := F) = k0_pay2 (F := F) := rfl
theorem k1_pay3_eq : k1_pay3 (F := F) = k0_pay3 (F := F) := rfl
theorem k1_pay4_eq : k1_pay4 (F := F) = k0_pay4 (F := F) := rfl
theorem k1_pay5_eq : k1_pay5 (F := F) = k0_pay5 (F := F) := rfl
theorem k1_pay6_eq : k1_pay6 (F := F) = k0_pay6 (F := F) := rfl
theorem k1_pay7_eq : k1_pay7 (F := F) = k0_pay7 (F := F) := rfl
theorem k1_pay8_eq : k1_pay8 (F := F) = k0_pay8 (F := F) := rfl
theorem k1_pay9_eq : k1_pay9 (F := F) = k0_pay9 (F := F) := rfl
theorem k1_pay10_eq : k1_pay10 (F := F) = k0_pay10 (F := F) := rfl
theorem k1_pay11_eq : k1_pay11 (F := F) = k0_pay11 (F := F) := rfl
theorem k1_pay12_eq (i : grid1.Coords) : k1_pay12 (F := F) i = k0_pay12 (F := F) i := rfl
theorem k1_pay13_eq : k1_pay13 (F := F) = k0_pay13 (F := F) := rfl
theorem k1_pay14_eq : k1_pay14 (F := F) = k0_pay14 (F := F) := rfl
theorem k1_pay15_eq : k1_pay15 (F := F) = k0_pay15 (F := F) := rfl
theorem k1_pay16_eq : k1_pay16 (F := F) = k0_pay16 (F := F) := rfl
theorem k1_pay17_eq : k1_pay17 (F := F) = k0_pay17 (F := F) := rfl

/-! ## Round 3 -/

theorem k2_pay1_eq : k2_pay1 (F := F) = k0_pay1 (F := F) := rfl
theorem k2_pay2_eq : k2_pay2 (F := F) = k0_pay2 (F := F) := rfl
theorem k2_pay3_eq : k2_pay3 (F := F) = k0_pay3 (F := F) := rfl
theorem k2_pay4_eq : k2_pay4 (F := F) = k0_pay4 (F := F) := rfl
theorem k2_pay5_eq : k2_pay5 (F := F) = k0_pay5 (F := F) := rfl
theorem k2_pay6_eq : k2_pay6 (F := F) = k0_pay6 (F := F) := rfl
theorem k2_pay7_eq : k2_pay7 (F := F) = k0_pay7 (F := F) := rfl
theorem k2_pay8_eq : k2_pay8 (F := F) = k0_pay8 (F := F) := rfl
theorem k2_pay9_eq : k2_pay9 (F := F) = k0_pay9 (F := F) := rfl
theorem k2_pay10_eq : k2_pay10 (F := F) = k0_pay10 (F := F) := rfl
theorem k2_pay11_eq : k2_pay11 (F := F) = k0_pay11 (F := F) := rfl
theorem k2_pay12_eq (i : grid2.Coords) : k2_pay12 (F := F) i = k0_pay12 (F := F) i := rfl
theorem k2_pay13_eq : k2_pay13 (F := F) = k0_pay13 (F := F) := rfl
theorem k2_pay14_eq : k2_pay14 (F := F) = k0_pay14 (F := F) := rfl
theorem k2_pay15_eq : k2_pay15 (F := F) = k0_pay15 (F := F) := rfl
theorem k2_pay16_eq : k2_pay16 (F := F) = k0_pay16 (F := F) := rfl
theorem k2_pay17_eq : k2_pay17 (F := F) = k0_pay17 (F := F) := rfl

/-! ## Round 4 -/

theorem k3_pay1_eq : k3_pay1 (F := F) = k0_pay1 (F := F) := rfl
theorem k3_pay2_eq : k3_pay2 (F := F) = k0_pay2 (F := F) := rfl
theorem k3_pay3_eq : k3_pay3 (F := F) = k0_pay3 (F := F) := rfl
theorem k3_pay4_eq : k3_pay4 (F := F) = k0_pay4 (F := F) := rfl
theorem k3_pay5_eq : k3_pay5 (F := F) = k0_pay5 (F := F) := rfl
theorem k3_pay6_eq : k3_pay6 (F := F) = k0_pay6 (F := F) := rfl
theorem k3_pay7_eq : k3_pay7 (F := F) = k0_pay7 (F := F) := rfl
theorem k3_pay8_eq : k3_pay8 (F := F) = k0_pay8 (F := F) := rfl
theorem k3_pay9_eq : k3_pay9 (F := F) = k0_pay9 (F := F) := rfl
theorem k3_pay10_eq : k3_pay10 (F := F) = k0_pay10 (F := F) := rfl
theorem k3_pay11_eq : k3_pay11 (F := F) = k0_pay11 (F := F) := rfl
theorem k3_pay12_eq (i : grid3.Coords) : k3_pay12 (F := F) i = k0_pay12 (F := F) i := rfl
theorem k3_pay13_eq : k3_pay13 (F := F) = k0_pay13 (F := F) := rfl
theorem k3_pay14_eq : k3_pay14 (F := F) = k0_pay14 (F := F) := rfl
theorem k3_pay15_eq : k3_pay15 (F := F) = k0_pay15 (F := F) := rfl
theorem k3_pay16_eq : k3_pay16 (F := F) = k0_pay16 (F := F) := rfl
theorem k3_pay17_eq : k3_pay17 (F := F) = k0_pay17 (F := F) := rfl

end Cert.Proof.Slic.KPay

end
-- ==== Proof.KRound1.lean ====
/-
  Round two of the kernel in the specification's terms. It runs the first round's body again over the same grid,
  reading the pixel block and the two center arrays the round before wrote: point t = 4 b + a stages tile a of
  batch b, the four tiles of a batch accumulate the specification's tile-by-tile sums, and what the last tile of
  batch b writes back are the specification's new centers and new center coordinates. The body's pure values are,
  value by value, the first round's, so the first round's tile and batch statements apply as they stand.
-/
import proofs.«138879_j15556371546814_2_alg».proof.Proof.I1Arr
import proofs.«138879_j15556371546814_2_alg».proof.Proof.KSame
import proofs.«138879_j15556371546814_2_alg».proof.Proof.KRound0

set_option maxRecDepth 16384

noncomputable section

namespace Cert.Proof.Slic.KRound

open Cert.KernelIdeal Cert.KernelIdeal.Gen Cert.KernelIdeal.Slic
open Idealize.ShloMosaic Idealize.ShloMosaic.TcCoe Idealize.ShloMosaic.ValueIdx
open Idealize.SL Idealize.SL.Sem
open Cert.Proof.Slic

/-- The second grid coordinate of point t is t mod 4 (the tile). -/
theorem coords1_val1 : ∀ t : Fin grid1.N, (grid1.coords t 1).val = t.val % 4 := by decide +kernel

/-- This round's update of the accumulators is the first round's. -/
theorem upd1_eq (x0 : Vec Ideal S1x4096x200 .bf16) (x1 : Vec Ideal S1x256x200 .f32) (x2 : Vec Ideal S1x256x2 .f32)
    (i : grid1.Coords) (a : R1.Acc Ideal) : R1.upd x0 x1 x2 i a = R0.upd x0 x1 x2 i a := rfl

/-- This round's zero splats are the first round's. -/
theorem acc01_eq : (R1.acc0 : R1.Acc Ideal) = R0.acc0 := rfl

variable (W : Dev nD → Valuation τ sig (Elt Ideal)) (c : Dev nD)

/-- The centers the round reads. -/
def CSof1 : Spec.CS := fun b k ch => W c (Proc.devRef .tc main_v39_0) (ix3 b k ch)
/-- The center coordinates the round reads. -/
def CPof1 : Spec.CP := fun b k j => W c (Proc.devRef .tc main_v39_1) (ix3 b k j)

/-- Point 4 b + a stages tile a of batch b of the specification's data. -/
theorem isTile1 (b a : Fin 4) :
    KPay.IsTile (R1.iblk1 W c 0 (R1.pt b a)) (R1.iblk1 W c 1 (R1.pt b a)) (R1.iblk1 W c 2 (R1.pt b a))
      (grid1.coords (R1.pt b a)) (Xof W c) pixSpec (CSof1 W c) (CPof1 W c) b a where
  hx r ch :=
    (R1.iblk1_0_apply W c (R1.pt b a) r ch).trans (congrArg (R1.WV W c main_v25)
      (ix3_congr (by show (4 * b.val + a.val) / 4 = b.val; omega)
        (by show (4 * b.val + a.val) % 4 * 4096 + r.val = a.val * 4096 + r.val; omega) rfl))
  hcs k ch :=
    (R1.iblk1_1_apply W c (R1.pt b a) k ch).trans (congrArg (R1.WV W c main_v39_0)
      (ix3_congr (by show (4 * b.val + a.val) / 4 = b.val; omega) rfl rfl))
  hcp k j :=
    (R1.iblk1_2_apply W c (R1.pt b a) k j).trans (congrArg (R1.WV W c main_v39_1)
      (ix3_congr (by show (4 * b.val + a.val) / 4 = b.val; omega) rfl rfl))
  hpy r :=
    (k0_pay12_apply (grid1.coords (R1.pt b a)) r).trans (congrArg (fun n => pixSpec n 0) (Fin.ext (by
      show (grid1.coords (R1.pt b a) 1).val * 4096 + r.val = a.val * 4096 + r.val
      rw [coords1_val1]
      show (4 * b.val + a.val) % 4 * 4096 + r.val = a.val * 4096 + r.val
      omega)))
  hpx r :=
    (k0_pay13_apply (grid1.coords (R1.pt b a)) r).trans (congrArg (fun n => pixSpec n 1) (Fin.ext (by
      show (grid1.coords (R1.pt b a) 1).val * 4096 + r.val = a.val * 4096 + r.val
      rw [coords1_val1]
      show (4 * b.val + a.val) % 4 * 4096 + r.val = a.val * 4096 + r.val
      omega)))

theorem pt3_ne1 (b : Fin 4) : ¬(R1.pt b 3).val % 4 = 0 := by
  show ¬(4 * b.val + (3 : Fin 4).val) % 4 = 0
  have : ((3 : Fin 4) : ℕ) = 3 := rfl
  omega

theorem pt3_eq1 (b : Fin 4) : (R1.pt b 3).val % 4 = 3 := by
  show (4 * b.val + (3 : Fin 4).val) % 4 = 3
  have : ((3 : Fin 4) : ℕ) = 3 := rfl
  omega

/-- After the round the spectral-center output holds the specification's new centers. -/
theorem round1_cs (b : Fin 4) (k : Fin 256) (ch : Fin 200) :
    (R1.dat1 W c).arrAt 3 cfg1.N (ix3 b k ch)
      = Spec.csK Spec.wordsI (Xof W c) (Spec.qK Spec.wordsI (Xof W c) pixSpec (CSof1 W c) (CPof1 W c)) b k ch := by
  rw [R1.final3]
  show (R1.outsAt1 W c (R1.pt b 3).val (R1.pt b 3).isLt).1 (ix3 (0 : Fin 1) k ch) = _
  rw [R1.out3_last W c (R1.pt b 3) (pt3_ne1 b) (pt3_eq1 b), ← R1.accAt_next W c (R1.pt b 3) (pt3_ne1 b),
    R1.accAt_batch W c b]
  unfold R1.updAt
  rw [upd1_eq, upd1_eq, upd1_eq, upd1_eq, acc01_eq, KPay.k1_pay4_eq]
  exact KPay.batch_cs (x0 := fun a => R1.iblk1 W c 0 (R1.pt b a)) (x1 := fun a => R1.iblk1 W c 1 (R1.pt b a))
    (x2 := fun a => R1.iblk1 W c 2 (R1.pt b a)) (i := fun a => grid1.coords (R1.pt b a)) (isTile1 W c b) k ch

/-- After the round the spatial-center output holds the specification's new center coordinates. -/
theorem round1_cp (b : Fin 4) (k : Fin 256) (j : Fin 2) :
    (R1.dat1 W c).arrAt 4 cfg1.N (ix3 b k j)
      = Spec.cpK Spec.wordsI pixSpec (Spec.qK Spec.wordsI (Xof W c) pixSpec (CSof1 W c) (CPof1 W c)) b k j := by
  rw [R1.final4]
  show (R1.outsAt1 W c (R1.pt b 3).val (R1.pt b 3).isLt).2.1 (ix3 (0 : Fin 1) k j) = _
  rw [R1.out4_last W c (R1.pt b 3) (pt3_ne1 b) (pt3_eq1 b), ← R1.accAt_next W c (R1.pt b 3) (pt3_ne1 b),
    R1.accAt_batch W c b]
  unfold R1.updAt
  rw [upd1_eq, upd1_eq, upd1_eq, upd1_eq, acc01_eq, KPay.k1_pay5_eq]
  exact KPay.batch_cp (x0 := fun a => R1.iblk1 W c 0 (R1.pt b a)) (x1 := fun a => R1.iblk1 W c 1 (R1.pt b a))
    (x2 := fun a => R1.iblk1 W c 2 (R1.pt b a)) (i := fun a => grid1.coords (R1.pt b a)) (isTile1 W c b) k j

end Cert.Proof.Slic.KRound

end
-- ==== Proof.I2Pieces.lean ====
/-
  Round three of the idealized kernel: what each case of the body leaves, as the payloads' own terms.

  One tile updates the three accumulators by one function of the tile's pixel block x0, the two center blocks
  x1, x2 and the tile coordinate: the spectral numerator gains the weights' product with the pixels, the spatial
  numerator their product with the pixel coordinates, the mass their column sums. At the first tile of a batch
  the update starts from the zero splats; at the last tile the two center outputs are the numerators over the
  mass plus 1e-6. Every store is whole, so what a buffer holds after the body is the last store's payload.
-/
import proofs.«138879_j15556371546814_2_alg».proof.Proof.I2Dat
import Idealize.ShloMosaic.Lib.Pipeline.Value

set_option maxRecDepth 16384

noncomputable section

namespace Cert.KernelIdeal.Slic.R2

open Cert.KernelIdeal Cert.KernelIdeal.Gen Cert.KernelIdeal.Slic
open Idealize.ShloMosaic Idealize.ShloMosaic.TcCoe Idealize.ShloMosaic.Tactic
open Idealize.SL Idealize.SL.Sem

variable {F : FTy → Type} [FloatOps F]
variable (W : Dev nD → Valuation τ sig (Elt F))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole buffer holding the raw contents of `X` reads back `X`. -/
theorem read_unread_whole (b : Ref sig .tc) (X : b.ty.shape.Idx → Elt F b.ty.elt) :
    View.read (Elt F) (View.whole b) ((Memref.isWhole_whole b).unread X) = X :=
  (Memref.isWhole_whole b).read_unread X

/-- A load of a whole accumulator right after one whole store into it reads the stored payload. -/
theorem rc0 (w : S256x200.Idx → Elt F .f32) :
    (View.whole cc2_scratch0).readCov [(⟨Rect.unit ![0, 0] ![256, 200] inb_S256x200_S256x200_0_0, w⟩ : View.Piece (Elt F) S256x200 .f32)]
      (Rect.unit ![0, 0] ![256, 200] inb_S256x200_S256x200_0_0).toLoadRect = w :=
  View.readCov_unit_zero (View.whole cc2_scratch0) hz2 _ w
theorem rc1 (w : S256x2.Idx → Elt F .f32) :
    (View.whole cc2_scratch1).readCov [(⟨Rect.unit ![0, 0] ![256, 2] inb_S256x2_S256x2_0_0, w⟩ : View.Piece (Elt F) S256x2 .f32)]
      (Rect.unit ![0, 0] ![256, 2] inb_S256x2_S256x2_0_0).toLoadRect = w :=
  View.readCov_unit_zero (View.whole cc2_scratch1) hz2 _ w
theorem rc2 (w : S256x1.Idx → Elt F .f32) :
    (View.whole cc2_scratch2).readCov [(⟨Rect.unit ![0, 0] ![256, 1] inb_S256x1_S256x1_0_0, w⟩ : View.Piece (Elt F) S256x1 .f32)]
      (Rect.unit ![0, 0] ![256, 1] inb_S256x1_S256x1_0_0).toLoadRect = w :=
  View.readCov_unit_zero (View.whole cc2_scratch2) hz2 _ w

/-- The same, with the extent spelled as the shape's size (the printed program's spelling). -/
theorem rc0' (w : S256x200.Idx → Elt F .f32) :
    (View.whole cc2_scratch0).readCov [(⟨Rect.unit (s := S256x200) ![0, 0] S256x200.size inb_S256x200_S256x200_0_0, w⟩ : View.Piece (Elt F) S256x200 .f32)]
      (Rect.unit (s := S256x200) ![0, 0] S256x200.size inb_S256x200_S256x200_0_0).toLoadRect = w :=
  View.readCov_unit_zero (View.whole cc2_scratch0) hz2 _ w
theorem rc1' (w : S256x2.Idx → Elt F .f32) :
    (View.whole cc2_scratch1).readCov [(⟨Rect.unit (s := S256x2) ![0, 0] S256x2.size inb_S256x2_S256x2_0_0, w⟩ : View.Piece (Elt F) S256x2 .f32)]
      (Rect.unit (s := S256x2) ![0, 0] S256x2.size inb_S256x2_S256x2_0_0).toLoadRect = w :=
  View.readCov_unit_zero (View.whole cc2_scratch1) hz2 _ w
theorem rc2' (w : S256x1.Idx → Elt F .f32) :
    (View.whole cc2_scratch2).readCov [(⟨Rect.unit (s := S256x1) ![0, 0] S256x1.size inb_S256x1_S256x1_0_0, w⟩ : View.Piece (Elt F) S256x1 .f32)]
      (Rect.unit (s := S256x1) ![0, 0] S256x1.size inb_S256x1_S256x1_0_0).toLoadRect = w :=
  View.readCov_unit_zero (View.whole cc2_scratch2) hz2 _ w

/-- The three accumulators. -/
abbrev Acc (F : FTy → Type) [FloatOps F] : Type := Vec F S256x200 .f32 × Vec F S256x2 .f32 × Vec F S256x1 .f32

/-- One tile's update of the accumulators, from the tile's blocks and coordinate. -/
def upd (x0 : Vec F S1x4096x200 .bf16) (x1 : Vec F S1x256x200 .f32) (x2 : Vec F S1x256x2 .f32) (i : grid2.Coords) (a : Acc F) : Acc F :=
  (k2_pay16 (k2_pay9 x0) (k2_pay10 x2) (k2_pay11 x0 x1) (k2_pay12 i) k2_pay13 a.1,
   k2_pay1 (k2_pay17 (k2_pay10 x2) (k2_pay11 x0 x1) (k2_pay12 i) k2_pay13 a.2.1),
   k2_pay2 (k2_pay15 (k2_pay10 x2) (k2_pay11 x0 x1) (k2_pay12 i) k2_pay13) a.2.2)

/-- The zero splats the reset stores. -/
def acc0 : Acc F := (k2_pay6, k2_pay7, k2_pay8)

theorem accA_7 (c : Dev nD) (t : Fin cfg2.N) (h0 : t.val % 4 = 0) :
    (stepA W c t h0).2.2.1 = (upd (iblk2 W c 0 t) (iblk2 W c 1 t) (iblk2 W c 2 t) (grid2.coords t) acc0).1 := by
  unfold stepA; dsimp only
  rw [View.read_writes_eq_canon _ _ _ (coverA_7 W c t h0)]
  unfold runA kernelRun2_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k2_pay16 _ _ _ _ _) (View.readCov_unit_zero (View.whole cc2_scratch0) hz2 _ _)
theorem accA_8 (c : Dev nD) (t : Fin cfg2.N) (h0 : t.val % 4 = 0) :
    (stepA W c t h0).2.2.2.1 = (upd (iblk2 W c 0 t) (iblk2 W c 1 t) (iblk2 W c 2 t) (grid2.coords t) acc0).2.1 := by
  unfold stepA; dsimp only
  rw [View.read_writes_eq_canon _ _ _ (coverA_8 W c t h0)]
  unfold runA kernelRun2_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (fun z => k2_pay1 (k2_pay17 _ _ _ _ z)) (View.readCov_unit_zero (View.whole cc2_scratch1) hz2 _ _)
theorem accA_9 (c : Dev nD) (t : Fin cfg2.N) (h0 : t.val % 4 = 0) :
    (stepA W c t h0).2.2.2.2 = (upd (iblk2 W c 0 t) (iblk2 W c 1 t) (iblk2 W c 2 t) (grid2.coords t) acc0).2.2 := by
  unfold stepA; dsimp only
  rw [View.read_writes_eq_canon _ _ _ (coverA_9 W c t h0)]
  unfold runA kernelRun2_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k2_pay2 _) (View.readCov_unit_zero (View.whole cc2_scratch2) hz2 _ _)

theorem accB_7 (c : Dev nD) (t : Fin cfg2.N) (h0 : ¬t.val % 4 = 0) (h1 : ¬t.val % 4 = 3) (p : Outs2 F) :
    (stepB W c t h0 h1 p).2.2.1 = (upd (iblk2 W c 0 t) (iblk2 W c 1 t) (iblk2 W c 2 t) (grid2.coords t) p.2.2).1 := by
  unfold stepB; dsimp only
  rw [View.read_writes_eq_canon _ _ _ (coverB_7 W c t h0 h1 p)]
  unfold runB kernelRun2_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_8 (c : Dev nD) (t : Fin cfg2.N) (h0 : ¬t.val % 4 = 0) (h1 : ¬t.val % 4 = 3) (p : Outs2 F) :
    (stepB W c t h0 h1 p).2.2.2.1 = (upd (iblk2 W c 0 t) (iblk2 W c 1 t) (iblk2 W c 2 t) (grid2.coords t) p.2.2).2.1 := by
  unfold stepB; dsimp only
  rw [View.read_writes_eq_canon _ _ _ (coverB_8 W c t h0 h1 p)]
  unfold runB kernelRun2_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_9 (c : Dev nD) (t : Fin cfg2.N) (h0 : ¬t.val % 4 = 0) (h1 : ¬t.val % 4 = 3) (p : Outs2 F) :
    (stepB W c t h0 h1 p).2.2.2.2 = (upd (iblk2 W c 0 t) (iblk2 W c 1 t) (iblk2 W c 2 t) (grid2.coords t) p.2.2).2.2 := by
  unfold stepB; dsimp only
  rw [View.read_writes_eq_canon _ _ _ (coverB_9 W c t h0 h1 p)]
  unfold runB kernelRun2_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

theorem accC_7 (c : Dev nD) (t : Fin cfg2.N) (h0 : ¬t.val % 4 = 0) (h1 : t.val % 4 = 3) (p : Outs2 F) :
    (stepC W c t h0 h1 p).2.2.1 = (upd (iblk2 W c 0 t) (iblk2 W c 1 t) (iblk2 W c 2 t) (grid2.coords t) p.2.2).1 := by
  unfold stepC; dsimp only
  rw [View.read_writes_eq_canon _ _ _ (coverC_7 W c t h0 h1 p)]
  unfold runC kernelRun2_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_8 (c : Dev nD) (t : Fin cfg2.N) (h0 : ¬t.val % 4 = 0) (h1 : t.val % 4 = 3) (p : Outs2 F) :
    (stepC W c t h0 h1 p).2.2.2.1 = (upd (iblk2 W c 0 t) (iblk2 W c 1 t) (iblk2 W c 2 t) (grid2.coords t) p.2.2).2.1 := by
  unfold stepC; dsimp only
  rw [View.read_writes_eq_canon _ _ _ (coverC_8 W c t h0 h1 p)]
  unfold runC kernelRun2_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_9 (c : Dev nD) (t : Fin cfg2.N) (h0 : ¬t.val % 4 = 0) (h1 : t.val % 4 = 3) (p : Outs2 F) :
    (stepC W c t h0 h1 p).2.2.2.2 = (upd (iblk2 W c 0 t) (iblk2 W c 1 t) (iblk2 W c 2 t) (grid2.coords t) p.2.2).2.2 := by
  unfold stepC; dsimp only
  rw [View.read_writes_eq_canon _ _ _ (coverC_9 W c t h0 h1 p)]
  unfold runC kernelRun2_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

set_option maxHeartbeats 2000000 in
/-- At the last tile the spectral-center output is the updated spectral numerator over the updated mass plus 1e-6. -/
theorem outC_5 (c : Dev nD) (t : Fin cfg2.N) (h0 : ¬t.val % 4 = 0) (h1 : t.val % 4 = 3) (p : Outs2 F) :
    (stepC W c t h0 h1 p).1 = k2_pay4 (upd (iblk2 W c 0 t) (iblk2 W c 1 t) (iblk2 W c 2 t) (grid2.coords t) p.2.2).2.2 (upd (iblk2 W c 0 t) (iblk2 W c 1 t) (iblk2 W c 2 t) (grid2.coords t) p.2.2).1 := by
  unfold stepC; dsimp only
  rw [View.read_writes_eq_canon _ _ _ (coverC_5 W c t h0 h1 p)]
  unfold runC kernelRun2_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k2_pay4 (View.readCov_unit_zero (View.whole cc2_scratch2) hz2 _ _) (View.readCov_unit_zero (View.whole cc2_scratch0) hz2 _ _)
set_option maxHeartbeats 2000000 in
/-- and the spatial-center output the updated spatial numerator over the same. -/
theorem outC_6 (c : Dev nD) (t : Fin cfg2.N) (h0 : ¬t.val % 4 = 0) (h1 : t.val % 4 = 3) (p : Outs2 F) :
    (stepC W c t h0 h1 p).2.1 = k2_pay5 (upd (iblk2 W c 0 t) (iblk2 W c 1 t) (iblk2 W c 2 t) (grid2.coords t) p.2.2).2.2 (upd (iblk2 W c 0 t) (iblk2 W c 1 t) (iblk2 W c 2 t) (grid2.coords t) p.2.2).2.1 := by
  unfold stepC; dsimp only
  rw [View.read_writes_eq_canon _ _ _ (coverC_6 W c t h0 h1 p)]
  unfold runC kernelRun2_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k2_pay5 (View.readCov_unit_zero (View.whole cc2_scratch2) hz2 _ _) (View.readCov_unit_zero (View.whole cc2_scratch1) hz2 _ _)

end Cert.KernelIdeal.Slic.R2

end
-- ==== Proof.I2Batch.lean ====
/-
  Round three of the idealized kernel: the accumulation over a batch in closed form.

  After the first tile of a batch the accumulators are one update of the zero splats; after every later tile,
  one update of what the tile before left; at the last tile the two center outputs are the two numerators over
  the mass plus 1e-6, all three taken after that tile's update.
-/
import proofs.«138879_j15556371546814_2_alg».proof.Proof.I2Pieces

set_option maxRecDepth 16384

noncomputable section

namespace Cert.KernelIdeal.Slic.R2

open Cert.KernelIdeal Cert.KernelIdeal.Gen Cert.KernelIdeal.Slic
open Idealize.ShloMosaic Idealize.ShloMosaic.TcCoe
open Idealize.SL Idealize.SL.Sem

variable {F : FTy → Type} [FloatOps F]
variable (W : Dev nD → Valuation τ sig (Elt F))

/-- The accumulators after the body at position `n`. -/
def accAt (c : Dev nD) (n : ℕ) (hn : n < cfg2.N) : Acc F := (outsAt2 W c n hn).2.2

/-- One tile's update at point `t`: the update of its three input blocks and its coordinates. -/
def updAt (c : Dev nD) (t : Fin cfg2.N) (a : Acc F) : Acc F :=
  upd (iblk2 W c 0 t) (iblk2 W c 1 t) (iblk2 W c 2 t) (grid2.coords t) a

theorem accAt_congr (c : Dev nD) {n n' : ℕ} (h : n = n') (hn : n < cfg2.N) (hn' : n' < cfg2.N) :
    accAt W c n hn = accAt W c n' hn' := by subst h; rfl

/-- At the first tile of a batch the accumulators restart from zero. -/
theorem accAt_first (c : Dev nD) (t : Fin cfg2.N) (h0 : t.val % 4 = 0) :
    accAt W c t.val t.isLt = updAt W c t acc0 := by
  unfold accAt updAt; rw [outsAt2_A W c t h0]
  exact Prod.ext (accA_7 W c t h0) (Prod.ext (accA_8 W c t h0) (accA_9 W c t h0))

/-- At every later tile they are updated from what the tile before left. -/
theorem accAt_next (c : Dev nD) (t : Fin cfg2.N) (h0 : ¬t.val % 4 = 0) :
    accAt W c t.val t.isLt = updAt W c t (accAt W c (t.val - 1) (Nat.lt_of_le_of_lt (Nat.sub_le _ _) t.isLt)) := by
  unfold accAt updAt
  by_cases h1 : t.val % 4 = 3
  · rw [outsAt2_C W c t h0 h1]
    exact Prod.ext (accC_7 W c t h0 h1 _) (Prod.ext (accC_8 W c t h0 h1 _) (accC_9 W c t h0 h1 _))
  · rw [outsAt2_B W c t h0 h1]
    exact Prod.ext (accB_7 W c t h0 h1 _) (Prod.ext (accB_8 W c t h0 h1 _) (accB_9 W c t h0 h1 _))

/-- At the last tile the spectral-center output is the spectral numerator over the mass plus 1e-6, both after this
    tile's update. -/
theorem out3_last (c : Dev nD) (t : Fin cfg2.N) (h0 : ¬t.val % 4 = 0) (h1 : t.val % 4 = 3) :
    (outsAt2 W c t.val t.isLt).1
      = k2_pay4 (updAt W c t (accAt W c (t.val - 1) (Nat.lt_of_le_of_lt (Nat.sub_le _ _) t.isLt))).2.2
          (updAt W c t (accAt W c (t.val - 1) (Nat.lt_of_le_of_lt (Nat.sub_le _ _) t.isLt))).1 := by
  unfold accAt updAt; rw [outsAt2_C W c t h0 h1]; exact outC_5 W c t h0 h1 _

/-- and the spatial-center output the spatial numerator over the same. -/
theorem out4_last (c : Dev nD) (t : Fin cfg2.N) (h0 : ¬t.val % 4 = 0) (h1 : t.val % 4 = 3) :
    (outsAt2 W c t.val t.isLt).2.1
      = k2_pay5 (updAt W c t (accAt W c (t.val - 1) (Nat.lt_of_le_of_lt (Nat.sub_le _ _) t.isLt))).2.2
          (updAt W c t (accAt W c (t.val - 1) (Nat.lt_of_le_of_lt (Nat.sub_le _ _) t.isLt))).2.1 := by
  unfold accAt updAt; rw [outsAt2_C W c t h0 h1]; exact outC_6 W c t h0 h1 _

/-- Tile `j` of batch `b` as a grid point. -/
def pt (b j : Fin 4) : Fin cfg2.N := ⟨4 * b.val + j.val, by have : cfg2.N = 16 := N_2; omega⟩

/-- After the last tile of batch `b`: four updates from zero, one per tile, in order. -/
theorem accAt_batch (c : Dev nD) (b : Fin 4) :
    accAt W c (pt b 3).val (pt b 3).isLt
      = updAt W c (pt b 3) (updAt W c (pt b 2) (updAt W c (pt b 1) (updAt W c (pt b 0) acc0))) := by
  have e3 : accAt W c (pt b 3).val (pt b 3).isLt = updAt W c (pt b 3) (accAt W c (pt b 2).val (pt b 2).isLt) :=
    (accAt_next W c (pt b 3) (by show ¬(4 * b.val + (3 : Fin 4).val) % 4 = 0; simp)).trans
      (congrArg (updAt W c (pt b 3)) (accAt_congr W c (by show 4 * b.val + (3 : Fin 4).val - 1 = 4 * b.val + (2 : Fin 4).val; simp) _ _))
  have e2 : accAt W c (pt b 2).val (pt b 2).isLt = updAt W c (pt b 2) (accAt W c (pt b 1).val (pt b 1).isLt) :=
    (accAt_next W c (pt b 2) (by show ¬(4 * b.val + (2 : Fin 4).val) % 4 = 0; simp)).trans
      (congrArg (updAt W c (pt b 2)) (accAt_congr W c (by show 4 * b.val + (2 : Fin 4).val - 1 = 4 * b.val + (1 : Fin 4).val; simp) _ _))
  have e1 : accAt W c (pt b 1).val (pt b 1).isLt = updAt W c (pt b 1) (accAt W c (pt b 0).val (pt b 0).isLt) :=
    (accAt_next W c (pt b 1) (by show ¬(4 * b.val + (1 : Fin 4).val) % 4 = 0; simp)).trans
      (congrArg (updAt W c (pt b 1)) (accAt_congr W c (by show 4 * b.val + (1 : Fin 4).val - 1 = 4 * b.val + (0 : Fin 4).val; simp) _ _))
  have e0 : accAt W c (pt b 0).val (pt b 0).isLt = updAt W c (pt b 0) acc0 :=
    accAt_first W c (pt b 0) (by show (4 * b.val + (0 : Fin 4).val) % 4 = 0; simp)
  rw [e3, e2, e1, e0]

end Cert.KernelIdeal.Slic.R2

end
-- ==== Proof.I2Arr.lean ====
/-
  Round three of the idealized kernel: the arrays.

  Point t = 4 b + n stages tile n of batch b: rows n x 4096 .. n x 4096 + 4095 of the pixels of image b, and
  the 256 centers of image b with their coordinates. The two center outputs are written back at the last tile of
  each batch, one block of 256 rows per batch, so after the round batch b's rows of each output are what the last
  tile of batch b stored; the four blocks cover the array.
-/
import proofs.«138879_j15556371546814_2_alg».proof.Proof.I2Batch
import Idealize.ShloMosaic.Lib.ValueIdx

set_option maxRecDepth 16384

noncomputable section

namespace Cert.KernelIdeal.Slic.R2

open Cert.KernelIdeal Cert.KernelIdeal.Gen Cert.KernelIdeal.Slic
open Idealize.ShloMosaic Idealize.ShloMosaic.TcCoe Idealize.ShloMosaic.ValueIdx
open Idealize.SL Idealize.SL.Sem
open Idealize.ShloMosaic.Pipeline (Dat)

variable {F : FTy → Type} [FloatOps F]
variable (W : Dev nD → Valuation τ sig (Elt F))

/-- The printed index maps over the grid: every window's block index is (batch, tile or 0, 0) with batch = t / 4 and
    tile = t mod 4. -/
theorem idx_facts : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = 0 ∧ win2_2.index t (2 : Fin 3) = 0
    ∧ win2_3.index t (0 : Fin 3) = t.val / 4 ∧ win2_3.index t (1 : Fin 3) = 0 ∧ win2_3.index t (2 : Fin 3) = 0
    ∧ win2_4.index t (0 : Fin 3) = t.val / 4 ∧ win2_4.index t (1 : Fin 3) = 0 ∧ win2_4.index t (2 : Fin 3) = 0 :=
  (by decide +kernel : ∀ t : Fin grid2.N, _)

theorem outsAt2_congr (c : Dev nD) {n n' : ℕ} (h : n = n') (hn : n < cfg2.N) (hn' : n' < cfg2.N) :
    outsAt2 W c n hn = outsAt2 W c n' hn' := by subst h; rfl

/-! ## The inputs' blocks -/

/-- A tile's pixel block is the pixel array at (batch, tile x 4096 + row, channel). -/
theorem iblk2_0_apply (c : Dev nD) (t : Fin cfg2.N) (r : Fin 4096) (ch : Fin 200) :
    iblk2 W c 0 t (ix3 (0 : Fin 1) r ch)
      = WV W c main_v25 (ix3 (⟨t.val / 4, by have := t.isLt; have : cfg2.N = 16 := N_2; omega⟩ : Fin 4)
          (⟨t.val % 4 * 4096 + r.val, by have := r.isLt; omega⟩ : Fin 16384) ch) := by
  unfold iblk2
  show WV W c main_v25 (((cfg2.win 0).blk t).view.emb (ix3 (0 : Fin 1) r ch)) = _
  congr 1
  funext a; apply Fin.ext
  obtain ⟨e0, e1, e2, -⟩ := idx_facts t
  match a with
  | ⟨0, _⟩ => show win2_0.index t (0 : Fin 3) * 1 + 1 * (0 : Fin 1).val = t.val / 4; rw [e0]; simp
  | ⟨1, _⟩ => show win2_0.index t (1 : Fin 3) * 4096 + 1 * r.val = t.val % 4 * 4096 + r.val; rw [e1]; omega
  | ⟨2, _⟩ => show win2_0.index t (2 : Fin 3) * 200 + 1 * ch.val = ch.val; rw [e2]; omega

/-- A point's block of the spectral centers is the batch's rows of the center array. -/
theorem iblk2_1_apply (c : Dev nD) (t : Fin cfg2.N) (k : Fin 256) (ch : Fin 200) :
    iblk2 W c 1 t (ix3 (0 : Fin 1) k ch)
      = WV W c main_v40_0 (ix3 (⟨t.val / 4, by have := t.isLt; have : cfg2.N = 16 := N_2; omega⟩ : Fin 4) k ch) := by
  unfold iblk2
  show WV W c main_v40_0 (((cfg2.win 1).blk t).view.emb (ix3 (0 : Fin 1) k ch)) = _
  congr 1
  funext a; apply Fin.ext
  obtain ⟨-, -, -, e0, e1, e2, -⟩ := idx_facts t
  match a with
  | ⟨0, _⟩ => show win2_1.index t (0 : Fin 3) * 1 + 1 * (0 : Fin 1).val = t.val / 4; rw [e0]; simp
  | ⟨1, _⟩ => show win2_1.index t (1 : Fin 3) * 256 + 1 * k.val = k.val; rw [e1]; omega
  | ⟨2, _⟩ => show win2_1.index t (2 : Fin 3) * 200 + 1 * ch.val = ch.val; rw [e2]; omega

/-- A point's block of the spatial centers is the batch's rows of the center array. -/
theorem iblk2_2_apply (c : Dev nD) (t : Fin cfg2.N) (k : Fin 256) (ch : Fin 2) :
    iblk2 W c 2 t (ix3 (0 : Fin 1) k ch)
      = WV W c main_v40_1 (ix3 (⟨t.val / 4, by have := t.isLt; have : cfg2.N = 16 := N_2; omega⟩ : Fin 4) k ch) := by
  unfold iblk2
  show WV W c main_v40_1 (((cfg2.win 2).blk t).view.emb (ix3 (0 : Fin 1) k ch)) = _
  congr 1
  funext a; apply Fin.ext
  obtain ⟨-, -, -, -, -, -, e0, e1, e2, -⟩ := idx_facts t
  match a with
  | ⟨0, _⟩ => show win2_2.index t (0 : Fin 3) * 1 + 1 * (0 : Fin 1).val = t.val / 4; rw [e0]; simp
  | ⟨1, _⟩ => show win2_2.index t (1 : Fin 3) * 256 + 1 * k.val = k.val; rw [e1]; omega
  | ⟨2, _⟩ => show win2_2.index t (2 : Fin 3) * 2 + 1 * ch.val = ch.val; rw [e2]; omega

/-! ## The spectral-center output: its array after the round -/

/-- What the spectral-center array holds after the round: batch `b`'s block is what the last tile of batch `b` stored. -/
def G3 (c : Dev nD) : Buf (Elt F) ((c : Thread nD τ).loc main_v41_0) := fun i =>
  (outsAt2 W c (pt (i 0) 3).val (pt (i 0) 3).isLt).1 (ix3 (0 : Fin 1) (i 1) (i 2))

/-- Where a last-tile point's block of the spectral-center array sits. -/
theorem emb3 (t : Fin cfg2.N) (j : S1x256x200.Idx) :
    ((cfg2.win 3).blk t).view.emb j
      = ix3 (⟨t.val / 4, by have := t.isLt; have : cfg2.N = 16 := N_2; omega⟩ : Fin 4) (j 1) (j 2) := by
  funext a; apply Fin.ext
  obtain ⟨-, -, -, -, -, -, -, -, -, e0, e1, e2, -⟩ := idx_facts t
  have hj0 : (j 0).val < 1 := (j 0).isLt
  match a with
  | ⟨0, _⟩ => show win2_3.index t (0 : Fin 3) * 1 + 1 * (j 0).val = t.val / 4; rw [e0]; omega
  | ⟨1, _⟩ => show win2_3.index t (1 : Fin 3) * 256 + 1 * (j 1).val = (j 1).val; rw [e1]; omega
  | ⟨2, _⟩ => show win2_3.index t (2 : Fin 3) * 200 + 1 * (j 2).val = (j 2).val; rw [e2]; omega

/-- What a last-tile point writes back is its block of that function. -/
theorem flushed3 (c : Dev nD) (t : Fin cfg2.N) (hf : (cfg2.win 3).flush t = true) :
    (dat2 W c).flushed 3 t = ((cfg2.win 3).blk t).view.read (Elt F) (G3 W c) := by
  have h3 : t.val % 4 = 3 := (flush2_3 t).mp hf
  show (cfg2.win 3).cut (grid2.coords t) ((dat2 W c).after 3 t) = _
  rw [after2_3]
  funext j
  show (outsAt2 W c t.val t.isLt).1 j = G3 W c (((cfg2.win 3).blk t).view.emb j)
  rw [emb3 t j]
  unfold G3
  have hb : t.val / 4 < 4 := by have := t.isLt; have : cfg2.N = 16 := N_2; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg2.N = 16 := N_2; omega⟩ : Fin 4) 3).val = t.val := by
    show 4 * (t.val / 4) + (3 : Fin 4).val = t.val
    have : ((3 : Fin 4) : ℕ) = 3 := rfl
    omega
  show _ = (outsAt2 W c (pt (⟨t.val / 4, hb⟩ : Fin 4) 3).val (pt (⟨t.val / 4, hb⟩ : Fin 4) 3).isLt).1 (ix3 (0 : Fin 1) (j 1) (j 2))
  rw [outsAt2_congr W c hn _ t.isLt]
  exact congrArg _ hj

/-- An index of the array is in a point's block iff each coordinate is in the block's range on its axis. -/
theorem mem_blk3 (t : Fin cfg2.N) (i : S4x256x200.Idx) :
    i ∈ ((cfg2.win 3).blk t).view.set ↔ ∀ a : Fin 3, win2_3.index t a * S1x256x200.size a ≤ (i a).val ∧ (i a).val < win2_3.index t a * S1x256x200.size a + S1x256x200.size a := by
  show i ∈ ((View.whole main_v41_0).slice (win2_3.rect t)).set ↔ _
  rw [View.set_slice_whole, Rect.mem_set_unit]
  exact Iff.rfl

/-- Every index of the array is in the block of its batch's last tile. -/
theorem cover3 (i : S4x256x200.Idx) :
    ∃ t : Fin cfg2.N, (cfg2.win 3).flush t = true ∧ i ∈ ((cfg2.win 3).blk t).view.set := by
  have hi0 : (i 0).val < 4 := (i 0).isLt
  have hi1 : (i 1).val < 256 := (i 1).isLt
  have hi2 : (i 2).val < 200 := (i 2).isLt
  refine ⟨⟨4 * (i 0).val + 3, by have : cfg2.N = 16 := N_2; omega⟩, (flush2_3 _).mpr (by show (4 * (i 0).val + 3) % 4 = 3; omega), ?_⟩
  rw [mem_blk3]
  obtain ⟨-, -, -, -, -, -, -, -, -, e0, e1, e2, -⟩ := idx_facts ⟨4 * (i 0).val + 3, by have : cfg2.N = 16 := N_2; omega⟩
  intro a
  match a with
  | ⟨0, _⟩ => show win2_3.index _ (0 : Fin 3) * 1 ≤ (i 0).val ∧ (i 0).val < win2_3.index _ (0 : Fin 3) * 1 + 1; rw [e0]; show (4 * (i 0).val + 3) / 4 * 1 ≤ (i 0).val ∧ (i 0).val < (4 * (i 0).val + 3) / 4 * 1 + 1; omega
  | ⟨1, _⟩ => show win2_3.index _ (1 : Fin 3) * 256 ≤ (i 1).val ∧ (i 1).val < win2_3.index _ (1 : Fin 3) * 256 + 256; rw [e1]; omega
  | ⟨2, _⟩ => show win2_3.index _ (2 : Fin 3) * 200 ≤ (i 2).val ∧ (i 2).val < win2_3.index _ (2 : Fin 3) * 200 + 200; rw [e2]; omega

/-- The spectral-center array after the round. -/
theorem final3 (c : Dev nD) : (dat2 W c).arrAt 3 cfg2.N = G3 W c :=
  (dat2 W c).arrAt_eq_of_cover 3 (G3 W c) (fun t hf => flushed3 W c t hf) (cover3)

/-! ## The spatial-center output: its array after the round -/

/-- What the spatial-center array holds after the round: batch `b`'s block is what the last tile of batch `b` stored. -/
def G4 (c : Dev nD) : Buf (Elt F) ((c : Thread nD τ).loc main_v41_1) := fun i =>
  (outsAt2 W c (pt (i 0) 3).val (pt (i 0) 3).isLt).2.1 (ix3 (0 : Fin 1) (i 1) (i 2))

/-- Where a last-tile point's block of the spatial-center array sits. -/
theorem emb4 (t : Fin cfg2.N) (j : S1x256x2.Idx) :
    ((cfg2.win 4).blk t).view.emb j
      = ix3 (⟨t.val / 4, by have := t.isLt; have : cfg2.N = 16 := N_2; omega⟩ : Fin 4) (j 1) (j 2) := by
  funext a; apply Fin.ext
  obtain ⟨-, -, -, -, -, -, -, -, -, -, -, -, e0, e1, e2⟩ := idx_facts t
  have hj0 : (j 0).val < 1 := (j 0).isLt
  match a with
  | ⟨0, _⟩ => show win2_4.index t (0 : Fin 3) * 1 + 1 * (j 0).val = t.val / 4; rw [e0]; omega
  | ⟨1, _⟩ => show win2_4.index t (1 : Fin 3) * 256 + 1 * (j 1).val = (j 1).val; rw [e1]; omega
  | ⟨2, _⟩ => show win2_4.index t (2 : Fin 3) * 2 + 1 * (j 2).val = (j 2).val; rw [e2]; omega

/-- What a last-tile point writes back is its block of that function. -/
theorem flushed4 (c : Dev nD) (t : Fin cfg2.N) (hf : (cfg2.win 4).flush t = true) :
    (dat2 W c).flushed 4 t = ((cfg2.win 4).blk t).view.read (Elt F) (G4 W c) := by
  have h3 : t.val % 4 = 3 := (flush2_4 t).mp hf
  show (cfg2.win 4).cut (grid2.coords t) ((dat2 W c).after 4 t) = _
  rw [after2_4]
  funext j
  show (outsAt2 W c t.val t.isLt).2.1 j = G4 W c (((cfg2.win 4).blk t).view.emb j)
  rw [emb4 t j]
  unfold G4
  have hb : t.val / 4 < 4 := by have := t.isLt; have : cfg2.N = 16 := N_2; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg2.N = 16 := N_2; omega⟩ : Fin 4) 3).val = t.val := by
    show 4 * (t.val / 4) + (3 : Fin 4).val = t.val
    have : ((3 : Fin 4) : ℕ) = 3 := rfl
    omega
  show _ = (outsAt2 W c (pt (⟨t.val / 4, hb⟩ : Fin 4) 3).val (pt (⟨t.val / 4, hb⟩ : Fin 4) 3).isLt).2.1 (ix3 (0 : Fin 1) (j 1) (j 2))
  rw [outsAt2_congr W c hn _ t.isLt]
  exact congrArg _ hj

/-- An index of the array is in a point's block iff each coordinate is in the block's range on its axis. -/
theorem mem_blk4 (t : Fin cfg2.N) (i : S4x256x2.Idx) :
    i ∈ ((cfg2.win 4).blk t).view.set ↔ ∀ a : Fin 3, win2_4.index t a * S1x256x2.size a ≤ (i a).val ∧ (i a).val < win2_4.index t a * S1x256x2.size a + S1x256x2.size a := by
  show i ∈ ((View.whole main_v41_1).slice (win2_4.rect t)).set ↔ _
  rw [View.set_slice_whole, Rect.mem_set_unit]
  exact Iff.rfl

/-- Every index of the array is in the block of its batch's last tile. -/
theorem cover4 (i : S4x256x2.Idx) :
    ∃ t : Fin cfg2.N, (cfg2.win 4).flush t = true ∧ i ∈ ((cfg2.win 4).blk t).view.set := by
  have hi0 : (i 0).val < 4 := (i 0).isLt
  have hi1 : (i 1).val < 256 := (i 1).isLt
  have hi2 : (i 2).val < 2 := (i 2).isLt
  refine ⟨⟨4 * (i 0).val + 3, by have : cfg2.N = 16 := N_2; omega⟩, (flush2_4 _).mpr (by show (4 * (i 0).val + 3) % 4 = 3; omega), ?_⟩
  rw [mem_blk4]
  obtain ⟨-, -, -, -, -, -, -, -, -, -, -, -, e0, e1, e2⟩ := idx_facts ⟨4 * (i 0).val + 3, by have : cfg2.N = 16 := N_2; omega⟩
  intro a
  match a with
  | ⟨0, _⟩ => show win2_4.index _ (0 : Fin 3) * 1 ≤ (i 0).val ∧ (i 0).val < win2_4.index _ (0 : Fin 3) * 1 + 1; rw [e0]; show (4 * (i 0).val + 3) / 4 * 1 ≤ (i 0).val ∧ (i 0).val < (4 * (i 0).val + 3) / 4 * 1 + 1; omega
  | ⟨1, _⟩ => show win2_4.index _ (1 : Fin 3) * 256 ≤ (i 1).val ∧ (i 1).val < win2_4.index _ (1 : Fin 3) * 256 + 256; rw [e1]; omega
  | ⟨2, _⟩ => show win2_4.index _ (2 : Fin 3) * 2 ≤ (i 2).val ∧ (i 2).val < win2_4.index _ (2 : Fin 3) * 2 + 2; rw [e2]; omega

/-- The spatial-center array after the round. -/
theorem final4 (c : Dev nD) : (dat2 W c).arrAt 4 cfg2.N = G4 W c :=
  (dat2 W c).arrAt_eq_of_cover 4 (G4 W c) (fun t hf => flushed4 W c t hf) (cover4)

end Cert.KernelIdeal.Slic.R2

end
-- ==== Proof.KRound2.lean ====
/-
  Round three of the kernel in the specification's terms. It runs the first round's body again over the same grid,
  reading the pixel block and the two center arrays the round before wrote: point t = 4 b + a stages tile a of
  batch b, the four tiles of a batch accumulate the specification's tile-by-tile sums, and what the last tile of
  batch b writes back are the specification's new centers and new center coordinates. The body's pure values are,
  value by value, the first round's, so the first round's tile and batch statements apply as they stand.
-/
import proofs.«138879_j15556371546814_2_alg».proof.Proof.I2Arr
import proofs.«138879_j15556371546814_2_alg».proof.Proof.KSame
import proofs.«138879_j15556371546814_2_alg».proof.Proof.KRound0

set_option maxRecDepth 16384

noncomputable section

namespace Cert.Proof.Slic.KRound

open Cert.KernelIdeal Cert.KernelIdeal.Gen Cert.KernelIdeal.Slic
open Idealize.ShloMosaic Idealize.ShloMosaic.TcCoe Idealize.ShloMosaic.ValueIdx
open Idealize.SL Idealize.SL.Sem
open Cert.Proof.Slic

/-- The second grid coordinate of point t is t mod 4 (the tile). -/
theorem coords1_val2 : ∀ t : Fin grid2.N, (grid2.coords t 1).val = t.val % 4 := by decide +kernel

/-- This round's update of the accumulators is the first round's. -/
theorem upd2_eq (x0 : Vec Ideal S1x4096x200 .bf16) (x1 : Vec Ideal S1x256x200 .f32) (x2 : Vec Ideal S1x256x2 .f32)
    (i : grid2.Coords) (a : R2.Acc Ideal) : R2.upd x0 x1 x2 i a = R0.upd x0 x1 x2 i a := rfl

/-- This round's zero splats are the first round's. -/
theorem acc02_eq : (R2.acc0 : R2.Acc Ideal) = R0.acc0 := rfl

variable (W : Dev nD → Valuation τ sig (Elt Ideal)) (c : Dev nD)

/-- The centers the round reads. -/
def CSof2 : Spec.CS := fun b k ch => W c (Proc.devRef .tc main_v40_0) (ix3 b k ch)
/-- The center coordinates the round reads. -/
def CPof2 : Spec.CP := fun b k j => W c (Proc.devRef .tc main_v40_1) (ix3 b k j)

/-- Point 4 b + a stages tile a of batch b of the specification's data. -/
theorem isTile2 (b a : Fin 4) :
    KPay.IsTile (R2.iblk2 W c 0 (R2.pt b a)) (R2.iblk2 W c 1 (R2.pt b a)) (R2.iblk2 W c 2 (R2.pt b a))
      (grid2.coords (R2.pt b a)) (Xof W c) pixSpec (CSof2 W c) (CPof2 W c) b a where
  hx r ch :=
    (R2.iblk2_0_apply W c (R2.pt b a) r ch).trans (congrArg (R2.WV W c main_v25)
      (ix3_congr (by show (4 * b.val + a.val) / 4 = b.val; omega)
        (by show (4 * b.val + a.val) % 4 * 4096 + r.val = a.val * 4096 + r.val; omega) rfl))
  hcs k ch :=
    (R2.iblk2_1_apply W c (R2.pt b a) k ch).trans (congrArg (R2.WV W c main_v40_0)
      (ix3_congr (by show (4 * b.val + a.val) / 4 = b.val; omega) rfl rfl))
  hcp k j :=
    (R2.iblk2_2_apply W c (R2.pt b a) k j).trans (congrArg (R2.WV W c main_v40_1)
      (ix3_congr (by show (4 * b.val + a.val) / 4 = b.val; omega) rfl rfl))
  hpy r :=
    (k0_pay12_apply (grid2.coords (R2.pt b a)) r).trans (congrArg (fun n => pixSpec n 0) (Fin.ext (by
      show (grid2.coords (R2.pt b a) 1).val * 4096 + r.val = a.val * 4096 + r.val
      rw [coords1_val2]
      show (4 * b.val + a.val) % 4 * 4096 + r.val = a.val * 4096 + r.val
      omega)))
  hpx r :=
    (k0_pay13_apply (grid2.coords (R2.pt b a)) r).trans (congrArg (fun n => pixSpec n 1) (Fin.ext (by
      show (grid2.coords (R2.pt b a) 1).val * 4096 + r.val = a.val * 4096 + r.val
      rw [coords1_val2]
      show (4 * b.val + a.val) % 4 * 4096 + r.val = a.val * 4096 + r.val
      omega)))

theorem pt3_ne2 (b : Fin 4) : ¬(R2.pt b 3).val % 4 = 0 := by
  show ¬(4 * b.val + (3 : Fin 4).val) % 4 = 0
  have : ((3 : Fin 4) : ℕ) = 3 := rfl
  omega

theorem pt3_eq2 (b : Fin 4) : (R2.pt b 3).val % 4 = 3 := by
  show (4 * b.val + (3 : Fin 4).val) % 4 = 3
  have : ((3 : Fin 4) : ℕ) = 3 := rfl
  omega

/-- After the round the spectral-center output holds the specification's new centers. -/
theorem round2_cs (b : Fin 4) (k : Fin 256) (ch : Fin 200) :
    (R2.dat2 W c).arrAt 3 cfg2.N (ix3 b k ch)
      = Spec.csK Spec.wordsI (Xof W c) (Spec.qK Spec.wordsI (Xof W c) pixSpec (CSof2 W c) (CPof2 W c)) b k ch := by
  rw [R2.final3]
  show (R2.outsAt2 W c (R2.pt b 3).val (R2.pt b 3).isLt).1 (ix3 (0 : Fin 1) k ch) = _
  rw [R2.out3_last W c (R2.pt b 3) (pt3_ne2 b) (pt3_eq2 b), ← R2.accAt_next W c (R2.pt b 3) (pt3_ne2 b),
    R2.accAt_batch W c b]
  unfold R2.updAt
  rw [upd2_eq, upd2_eq, upd2_eq, upd2_eq, acc02_eq, KPay.k2_pay4_eq]
  exact KPay.batch_cs (x0 := fun a => R2.iblk2 W c 0 (R2.pt b a)) (x1 := fun a => R2.iblk2 W c 1 (R2.pt b a))
    (x2 := fun a => R2.iblk2 W c 2 (R2.pt b a)) (i := fun a => grid2.coords (R2.pt b a)) (isTile2 W c b) k ch

/-- After the round the spatial-center output holds the specification's new center coordinates. -/
theorem round2_cp (b : Fin 4) (k : Fin 256) (j : Fin 2) :
    (R2.dat2 W c).arrAt 4 cfg2.N (ix3 b k j)
      = Spec.cpK Spec.wordsI pixSpec (Spec.qK Spec.wordsI (Xof W c) pixSpec (CSof2 W c) (CPof2 W c)) b k j := by
  rw [R2.final4]
  show (R2.outsAt2 W c (R2.pt b 3).val (R2.pt b 3).isLt).2.1 (ix3 (0 : Fin 1) k j) = _
  rw [R2.out4_last W c (R2.pt b 3) (pt3_ne2 b) (pt3_eq2 b), ← R2.accAt_next W c (R2.pt b 3) (pt3_ne2 b),
    R2.accAt_batch W c b]
  unfold R2.updAt
  rw [upd2_eq, upd2_eq, upd2_eq, upd2_eq, acc02_eq, KPay.k2_pay5_eq]
  exact KPay.batch_cp (x0 := fun a => R2.iblk2 W c 0 (R2.pt b a)) (x1 := fun a => R2.iblk2 W c 1 (R2.pt b a))
    (x2 := fun a => R2.iblk2 W c 2 (R2.pt b a)) (i := fun a => grid2.coords (R2.pt b a)) (isTile2 W c b) k j

end Cert.Proof.Slic.KRound

end
-- ==== Proof.I3Pieces.lean ====
/-
  Round four of the idealized kernel: what each case of the body leaves, as the payloads' own terms.

  One tile updates the three accumulators by one function of the tile's pixel block x0, the two center blocks
  x1, x2 and the tile coordinate: the spectral numerator gains the weights' product with the pixels, the spatial
  numerator their product with the pixel coordinates, the mass their column sums. At the first tile of a batch
  the update starts from the zero splats; at the last tile the two center outputs are the numerators over the
  mass plus 1e-6. Every store is whole, so what a buffer holds after the body is the last store's payload.
-/
import proofs.«138879_j15556371546814_2_alg».proof.Proof.I3Dat
import Idealize.ShloMosaic.Lib.Pipeline.Value

set_option maxRecDepth 16384

noncomputable section

namespace Cert.KernelIdeal.Slic.R3

open Cert.KernelIdeal Cert.KernelIdeal.Gen Cert.KernelIdeal.Slic
open Idealize.ShloMosaic Idealize.ShloMosaic.TcCoe Idealize.ShloMosaic.Tactic
open Idealize.SL Idealize.SL.Sem

variable {F : FTy → Type} [FloatOps F]
variable (W : Dev nD → Valuation τ sig (Elt F))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole buffer holding the raw contents of `X` reads back `X`. -/
theorem read_unread_whole (b : Ref sig .tc) (X : b.ty.shape.Idx → Elt F b.ty.elt) :
    View.read (Elt F) (View.whole b) ((Memref.isWhole_whole b).unread X) = X :=
  (Memref.isWhole_whole b).read_unread X

/-- A load of a whole accumulator right after one whole store into it reads the stored payload. -/
theorem rc0 (w : S256x200.Idx → Elt F .f32) :
    (View.whole cc3_scratch0).readCov [(⟨Rect.unit ![0, 0] ![256, 200] inb_S256x200_S256x200_0_0, w⟩ : View.Piece (Elt F) S256x200 .f32)]
      (Rect.unit ![0, 0] ![256, 200] inb_S256x200_S256x200_0_0).toLoadRect = w :=
  View.readCov_unit_zero (View.whole cc3_scratch0) hz2 _ w
theorem rc1 (w : S256x2.Idx → Elt F .f32) :
    (View.whole cc3_scratch1).readCov [(⟨Rect.unit ![0, 0] ![256, 2] inb_S256x2_S256x2_0_0, w⟩ : View.Piece (Elt F) S256x2 .f32)]
      (Rect.unit ![0, 0] ![256, 2] inb_S256x2_S256x2_0_0).toLoadRect = w :=
  View.readCov_unit_zero (View.whole cc3_scratch1) hz2 _ w
theorem rc2 (w : S256x1.Idx → Elt F .f32) :
    (View.whole cc3_scratch2).readCov [(⟨Rect.unit ![0, 0] ![256, 1] inb_S256x1_S256x1_0_0, w⟩ : View.Piece (Elt F) S256x1 .f32)]
      (Rect.unit ![0, 0] ![256, 1] inb_S256x1_S256x1_0_0).toLoadRect = w :=
  View.readCov_unit_zero (View.whole cc3_scratch2) hz2 _ w

/-- The same, with the extent spelled as the shape's size (the printed program's spelling). -/
theorem rc0' (w : S256x200.Idx → Elt F .f32) :
    (View.whole cc3_scratch0).readCov [(⟨Rect.unit (s := S256x200) ![0, 0] S256x200.size inb_S256x200_S256x200_0_0, w⟩ : View.Piece (Elt F) S256x200 .f32)]
      (Rect.unit (s := S256x200) ![0, 0] S256x200.size inb_S256x200_S256x200_0_0).toLoadRect = w :=
  View.readCov_unit_zero (View.whole cc3_scratch0) hz2 _ w
theorem rc1' (w : S256x2.Idx → Elt F .f32) :
    (View.whole cc3_scratch1).readCov [(⟨Rect.unit (s := S256x2) ![0, 0] S256x2.size inb_S256x2_S256x2_0_0, w⟩ : View.Piece (Elt F) S256x2 .f32)]
      (Rect.unit (s := S256x2) ![0, 0] S256x2.size inb_S256x2_S256x2_0_0).toLoadRect = w :=
  View.readCov_unit_zero (View.whole cc3_scratch1) hz2 _ w
theorem rc2' (w : S256x1.Idx → Elt F .f32) :
    (View.whole cc3_scratch2).readCov [(⟨Rect.unit (s := S256x1) ![0, 0] S256x1.size inb_S256x1_S256x1_0_0, w⟩ : View.Piece (Elt F) S256x1 .f32)]
      (Rect.unit (s := S256x1) ![0, 0] S256x1.size inb_S256x1_S256x1_0_0).toLoadRect = w :=
  View.readCov_unit_zero (View.whole cc3_scratch2) hz2 _ w

/-- The three accumulators. -/
abbrev Acc (F : FTy → Type) [FloatOps F] : Type := Vec F S256x200 .f32 × Vec F S256x2 .f32 × Vec F S256x1 .f32

/-- One tile's update of the accumulators, from the tile's blocks and coordinate. -/
def upd (x0 : Vec F S1x4096x200 .bf16) (x1 : Vec F S1x256x200 .f32) (x2 : Vec F S1x256x2 .f32) (i : grid3.Coords) (a : Acc F) : Acc F :=
  (k3_pay16 (k3_pay9 x0) (k3_pay10 x2) (k3_pay11 x0 x1) (k3_pay12 i) k3_pay13 a.1,
   k3_pay1 (k3_pay17 (k3_pay10 x2) (k3_pay11 x0 x1) (k3_pay12 i) k3_pay13 a.2.1),
   k3_pay2 (k3_pay15 (k3_pay10 x2) (k3_pay11 x0 x1) (k3_pay12 i) k3_pay13) a.2.2)

/-- The zero splats the reset stores. -/
def acc0 : Acc F := (k3_pay6, k3_pay7, k3_pay8)

theorem accA_7 (c : Dev nD) (t : Fin cfg3.N) (h0 : t.val % 4 = 0) :
    (stepA W c t h0).2.2.1 = (upd (iblk3 W c 0 t) (iblk3 W c 1 t) (iblk3 W c 2 t) (grid3.coords t) acc0).1 := by
  unfold stepA; dsimp only
  rw [View.read_writes_eq_canon _ _ _ (coverA_7 W c t h0)]
  unfold runA kernelRun3_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k3_pay16 _ _ _ _ _) (View.readCov_unit_zero (View.whole cc3_scratch0) hz2 _ _)
theorem accA_8 (c : Dev nD) (t : Fin cfg3.N) (h0 : t.val % 4 = 0) :
    (stepA W c t h0).2.2.2.1 = (upd (iblk3 W c 0 t) (iblk3 W c 1 t) (iblk3 W c 2 t) (grid3.coords t) acc0).2.1 := by
  unfold stepA; dsimp only
  rw [View.read_writes_eq_canon _ _ _ (coverA_8 W c t h0)]
  unfold runA kernelRun3_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (fun z => k3_pay1 (k3_pay17 _ _ _ _ z)) (View.readCov_unit_zero (View.whole cc3_scratch1) hz2 _ _)
theorem accA_9 (c : Dev nD) (t : Fin cfg3.N) (h0 : t.val % 4 = 0) :
    (stepA W c t h0).2.2.2.2 = (upd (iblk3 W c 0 t) (iblk3 W c 1 t) (iblk3 W c 2 t) (grid3.coords t) acc0).2.2 := by
  unfold stepA; dsimp only
  rw [View.read_writes_eq_canon _ _ _ (coverA_9 W c t h0)]
  unfold runA kernelRun3_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  first | rfl | exact congrArg (k3_pay2 _) (View.readCov_unit_zero (View.whole cc3_scratch2) hz2 _ _)

theorem accB_7 (c : Dev nD) (t : Fin cfg3.N) (h0 : ¬t.val % 4 = 0) (h1 : ¬t.val % 4 = 3) (p : Outs3 F) :
    (stepB W c t h0 h1 p).2.2.1 = (upd (iblk3 W c 0 t) (iblk3 W c 1 t) (iblk3 W c 2 t) (grid3.coords t) p.2.2).1 := by
  unfold stepB; dsimp only
  rw [View.read_writes_eq_canon _ _ _ (coverB_7 W c t h0 h1 p)]
  unfold runB kernelRun3_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_8 (c : Dev nD) (t : Fin cfg3.N) (h0 : ¬t.val % 4 = 0) (h1 : ¬t.val % 4 = 3) (p : Outs3 F) :
    (stepB W c t h0 h1 p).2.2.2.1 = (upd (iblk3 W c 0 t) (iblk3 W c 1 t) (iblk3 W c 2 t) (grid3.coords t) p.2.2).2.1 := by
  unfold stepB; dsimp only
  rw [View.read_writes_eq_canon _ _ _ (coverB_8 W c t h0 h1 p)]
  unfold runB kernelRun3_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accB_9 (c : Dev nD) (t : Fin cfg3.N) (h0 : ¬t.val % 4 = 0) (h1 : ¬t.val % 4 = 3) (p : Outs3 F) :
    (stepB W c t h0 h1 p).2.2.2.2 = (upd (iblk3 W c 0 t) (iblk3 W c 1 t) (iblk3 W c 2 t) (grid3.coords t) p.2.2).2.2 := by
  unfold stepB; dsimp only
  rw [View.read_writes_eq_canon _ _ _ (coverB_9 W c t h0 h1 p)]
  unfold runB kernelRun3_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

theorem accC_7 (c : Dev nD) (t : Fin cfg3.N) (h0 : ¬t.val % 4 = 0) (h1 : t.val % 4 = 3) (p : Outs3 F) :
    (stepC W c t h0 h1 p).2.2.1 = (upd (iblk3 W c 0 t) (iblk3 W c 1 t) (iblk3 W c 2 t) (grid3.coords t) p.2.2).1 := by
  unfold stepC; dsimp only
  rw [View.read_writes_eq_canon _ _ _ (coverC_7 W c t h0 h1 p)]
  unfold runC kernelRun3_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_8 (c : Dev nD) (t : Fin cfg3.N) (h0 : ¬t.val % 4 = 0) (h1 : t.val % 4 = 3) (p : Outs3 F) :
    (stepC W c t h0 h1 p).2.2.2.1 = (upd (iblk3 W c 0 t) (iblk3 W c 1 t) (iblk3 W c 2 t) (grid3.coords t) p.2.2).2.1 := by
  unfold stepC; dsimp only
  rw [View.read_writes_eq_canon _ _ _ (coverC_8 W c t h0 h1 p)]
  unfold runC kernelRun3_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl
theorem accC_9 (c : Dev nD) (t : Fin cfg3.N) (h0 : ¬t.val % 4 = 0) (h1 : t.val % 4 = 3) (p : Outs3 F) :
    (stepC W c t h0 h1 p).2.2.2.2 = (upd (iblk3 W c 0 t) (iblk3 W c 1 t) (iblk3 W c 2 t) (grid3.coords t) p.2.2).2.2 := by
  unfold stepC; dsimp only
  rw [View.read_writes_eq_canon _ _ _ (coverC_9 W c t h0 h1 p)]
  unfold runC kernelRun3_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  rfl

set_option maxHeartbeats 2000000 in
/-- At the last tile the spectral-center output is the updated spectral numerator over the updated mass plus 1e-6. -/
theorem outC_5 (c : Dev nD) (t : Fin cfg3.N) (h0 : ¬t.val % 4 = 0) (h1 : t.val % 4 = 3) (p : Outs3 F) :
    (stepC W c t h0 h1 p).1 = k3_pay4 (upd (iblk3 W c 0 t) (iblk3 W c 1 t) (iblk3 W c 2 t) (grid3.coords t) p.2.2).2.2 (upd (iblk3 W c 0 t) (iblk3 W c 1 t) (iblk3 W c 2 t) (grid3.coords t) p.2.2).1 := by
  unfold stepC; dsimp only
  rw [View.read_writes_eq_canon _ _ _ (coverC_5 W c t h0 h1 p)]
  unfold runC kernelRun3_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k3_pay4 (View.readCov_unit_zero (View.whole cc3_scratch2) hz2 _ _) (View.readCov_unit_zero (View.whole cc3_scratch0) hz2 _ _)
set_option maxHeartbeats 2000000 in
/-- and the spatial-center output the updated spatial numerator over the same. -/
theorem outC_6 (c : Dev nD) (t : Fin cfg3.N) (h0 : ¬t.val % 4 = 0) (h1 : t.val % 4 = 3) (p : Outs3 F) :
    (stepC W c t h0 h1 p).2.1 = k3_pay5 (upd (iblk3 W c 0 t) (iblk3 W c 1 t) (iblk3 W c 2 t) (grid3.coords t) p.2.2).2.2 (upd (iblk3 W c 0 t) (iblk3 W c 1 t) (iblk3 W c 2 t) (grid3.coords t) p.2.2).2.1 := by
  unfold stepC; dsimp only
  rw [View.read_writes_eq_canon _ _ _ (coverC_6 W c t h0 h1 p)]
  unfold runC kernelRun3_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3,
    View.ld_unit_zero (S := S256x200) hz2, View.ld_unit_zero (S := S256x2) hz2, View.ld_unit_zero (S := S256x1) hz2,
    rc0, rc1, rc2, rc0', rc1', rc2', read_unread_whole]
  unfold upd
  (try dsimp only)
  first
    | rfl
    | exact congrArg₂ k3_pay5 (View.readCov_unit_zero (View.whole cc3_scratch2) hz2 _ _) (View.readCov_unit_zero (View.whole cc3_scratch1) hz2 _ _)

end Cert.KernelIdeal.Slic.R3

end
-- ==== Proof.I3Batch.lean ====
/-
  Round four of the idealized kernel: the accumulation over a batch in closed form.

  After the first tile of a batch the accumulators are one update of the zero splats; after every later tile,
  one update of what the tile before left; at the last tile the two center outputs are the two numerators over
  the mass plus 1e-6, all three taken after that tile's update.
-/
import proofs.«138879_j15556371546814_2_alg».proof.Proof.I3Pieces

set_option maxRecDepth 16384

noncomputable section

namespace Cert.KernelIdeal.Slic.R3

open Cert.KernelIdeal Cert.KernelIdeal.Gen Cert.KernelIdeal.Slic
open Idealize.ShloMosaic Idealize.ShloMosaic.TcCoe
open Idealize.SL Idealize.SL.Sem

variable {F : FTy → Type} [FloatOps F]
variable (W : Dev nD → Valuation τ sig (Elt F))

/-- The accumulators after the body at position `n`. -/
def accAt (c : Dev nD) (n : ℕ) (hn : n < cfg3.N) : Acc F := (outsAt3 W c n hn).2.2

/-- One tile's update at point `t`: the update of its three input blocks and its coordinates. -/
def updAt (c : Dev nD) (t : Fin cfg3.N) (a : Acc F) : Acc F :=
  upd (iblk3 W c 0 t) (iblk3 W c 1 t) (iblk3 W c 2 t) (grid3.coords t) a

theorem accAt_congr (c : Dev nD) {n n' : ℕ} (h : n = n') (hn : n < cfg3.N) (hn' : n' < cfg3.N) :
    accAt W c n hn = accAt W c n' hn' := by subst h; rfl

/-- At the first tile of a batch the accumulators restart from zero. -/
theorem accAt_first (c : Dev nD) (t : Fin cfg3.N) (h0 : t.val % 4 = 0) :
    accAt W c t.val t.isLt = updAt W c t acc0 := by
  unfold accAt updAt; rw [outsAt3_A W c t h0]
  exact Prod.ext (accA_7 W c t h0) (Prod.ext (accA_8 W c t h0) (accA_9 W c t h0))

/-- At every later tile they are updated from what the tile before left. -/
theorem accAt_next (c : Dev nD) (t : Fin cfg3.N) (h0 : ¬t.val % 4 = 0) :
    accAt W c t.val t.isLt = updAt W c t (accAt W c (t.val - 1) (Nat.lt_of_le_of_lt (Nat.sub_le _ _) t.isLt)) := by
  unfold accAt updAt
  by_cases h1 : t.val % 4 = 3
  · rw [outsAt3_C W c t h0 h1]
    exact Prod.ext (accC_7 W c t h0 h1 _) (Prod.ext (accC_8 W c t h0 h1 _) (accC_9 W c t h0 h1 _))
  · rw [outsAt3_B W c t h0 h1]
    exact Prod.ext (accB_7 W c t h0 h1 _) (Prod.ext (accB_8 W c t h0 h1 _) (accB_9 W c t h0 h1 _))

/-- At the last tile the spectral-center output is the spectral numerator over the mass plus 1e-6, both after this
    tile's update. -/
theorem out3_last (c : Dev nD) (t : Fin cfg3.N) (h0 : ¬t.val % 4 = 0) (h1 : t.val % 4 = 3) :
    (outsAt3 W c t.val t.isLt).1
      = k3_pay4 (updAt W c t (accAt W c (t.val - 1) (Nat.lt_of_le_of_lt (Nat.sub_le _ _) t.isLt))).2.2
          (updAt W c t (accAt W c (t.val - 1) (Nat.lt_of_le_of_lt (Nat.sub_le _ _) t.isLt))).1 := by
  unfold accAt updAt; rw [outsAt3_C W c t h0 h1]; exact outC_5 W c t h0 h1 _

/-- and the spatial-center output the spatial numerator over the same. -/
theorem out4_last (c : Dev nD) (t : Fin cfg3.N) (h0 : ¬t.val % 4 = 0) (h1 : t.val % 4 = 3) :
    (outsAt3 W c t.val t.isLt).2.1
      = k3_pay5 (updAt W c t (accAt W c (t.val - 1) (Nat.lt_of_le_of_lt (Nat.sub_le _ _) t.isLt))).2.2
          (updAt W c t (accAt W c (t.val - 1) (Nat.lt_of_le_of_lt (Nat.sub_le _ _) t.isLt))).2.1 := by
  unfold accAt updAt; rw [outsAt3_C W c t h0 h1]; exact outC_6 W c t h0 h1 _

/-- Tile `j` of batch `b` as a grid point. -/
def pt (b j : Fin 4) : Fin cfg3.N := ⟨4 * b.val + j.val, by have : cfg3.N = 16 := N_3; omega⟩

/-- After the last tile of batch `b`: four updates from zero, one per tile, in order. -/
theorem accAt_batch (c : Dev nD) (b : Fin 4) :
    accAt W c (pt b 3).val (pt b 3).isLt
      = updAt W c (pt b 3) (updAt W c (pt b 2) (updAt W c (pt b 1) (updAt W c (pt b 0) acc0))) := by
  have e3 : accAt W c (pt b 3).val (pt b 3).isLt = updAt W c (pt b 3) (accAt W c (pt b 2).val (pt b 2).isLt) :=
    (accAt_next W c (pt b 3) (by show ¬(4 * b.val + (3 : Fin 4).val) % 4 = 0; simp)).trans
      (congrArg (updAt W c (pt b 3)) (accAt_congr W c (by show 4 * b.val + (3 : Fin 4).val - 1 = 4 * b.val + (2 : Fin 4).val; simp) _ _))
  have e2 : accAt W c (pt b 2).val (pt b 2).isLt = updAt W c (pt b 2) (accAt W c (pt b 1).val (pt b 1).isLt) :=
    (accAt_next W c (pt b 2) (by show ¬(4 * b.val + (2 : Fin 4).val) % 4 = 0; simp)).trans
      (congrArg (updAt W c (pt b 2)) (accAt_congr W c (by show 4 * b.val + (2 : Fin 4).val - 1 = 4 * b.val + (1 : Fin 4).val; simp) _ _))
  have e1 : accAt W c (pt b 1).val (pt b 1).isLt = updAt W c (pt b 1) (accAt W c (pt b 0).val (pt b 0).isLt) :=
    (accAt_next W c (pt b 1) (by show ¬(4 * b.val + (1 : Fin 4).val) % 4 = 0; simp)).trans
      (congrArg (updAt W c (pt b 1)) (accAt_congr W c (by show 4 * b.val + (1 : Fin 4).val - 1 = 4 * b.val + (0 : Fin 4).val; simp) _ _))
  have e0 : accAt W c (pt b 0).val (pt b 0).isLt = updAt W c (pt b 0) acc0 :=
    accAt_first W c (pt b 0) (by show (4 * b.val + (0 : Fin 4).val) % 4 = 0; simp)
  rw [e3, e2, e1, e0]

end Cert.KernelIdeal.Slic.R3

end
-- ==== Proof.I3Arr.lean ====
/-
  Round four of the idealized kernel: the arrays.

  Point t = 4 b + n stages tile n of batch b: rows n x 4096 .. n x 4096 + 4095 of the pixels of image b, and
  the 256 centers of image b with their coordinates. The two center outputs are written back at the last tile of
  each batch, one block of 256 rows per batch, so after the round batch b's rows of each output are what the last
  tile of batch b stored; the four blocks cover the array.
-/
import proofs.«138879_j15556371546814_2_alg».proof.Proof.I3Batch
import Idealize.ShloMosaic.Lib.ValueIdx

set_option maxRecDepth 16384

noncomputable section

namespace Cert.KernelIdeal.Slic.R3

open Cert.KernelIdeal Cert.KernelIdeal.Gen Cert.KernelIdeal.Slic
open Idealize.ShloMosaic Idealize.ShloMosaic.TcCoe Idealize.ShloMosaic.ValueIdx
open Idealize.SL Idealize.SL.Sem
open Idealize.ShloMosaic.Pipeline (Dat)

variable {F : FTy → Type} [FloatOps F]
variable (W : Dev nD → Valuation τ sig (Elt F))

/-- The printed index maps over the grid: every window's block index is (batch, tile or 0, 0) with batch = t / 4 and
    tile = t mod 4. -/
theorem idx_facts : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = 0 ∧ win3_3.index t (2 : Fin 3) = 0
    ∧ win3_4.index t (0 : Fin 3) = t.val / 4 ∧ win3_4.index t (1 : Fin 3) = 0 ∧ win3_4.index t (2 : Fin 3) = 0 :=
  (by decide +kernel : ∀ t : Fin grid3.N, _)

theorem outsAt3_congr (c : Dev nD) {n n' : ℕ} (h : n = n') (hn : n < cfg3.N) (hn' : n' < cfg3.N) :
    outsAt3 W c n hn = outsAt3 W c n' hn' := by subst h; rfl

/-! ## The inputs' blocks -/

/-- A tile's pixel block is the pixel array at (batch, tile x 4096 + row, channel). -/
theorem iblk3_0_apply (c : Dev nD) (t : Fin cfg3.N) (r : Fin 4096) (ch : Fin 200) :
    iblk3 W c 0 t (ix3 (0 : Fin 1) r ch)
      = WV W c main_v25 (ix3 (⟨t.val / 4, by have := t.isLt; have : cfg3.N = 16 := N_3; omega⟩ : Fin 4)
          (⟨t.val % 4 * 4096 + r.val, by have := r.isLt; omega⟩ : Fin 16384) ch) := by
  unfold iblk3
  show WV W c main_v25 (((cfg3.win 0).blk t).view.emb (ix3 (0 : Fin 1) r ch)) = _
  congr 1
  funext a; apply Fin.ext
  obtain ⟨e0, e1, e2, -⟩ := idx_facts t
  match a with
  | ⟨0, _⟩ => show win3_0.index t (0 : Fin 3) * 1 + 1 * (0 : Fin 1).val = t.val / 4; rw [e0]; simp
  | ⟨1, _⟩ => show win3_0.index t (1 : Fin 3) * 4096 + 1 * r.val = t.val % 4 * 4096 + r.val; rw [e1]; omega
  | ⟨2, _⟩ => show win3_0.index t (2 : Fin 3) * 200 + 1 * ch.val = ch.val; rw [e2]; omega

/-- A point's block of the spectral centers is the batch's rows of the center array. -/
theorem iblk3_1_apply (c : Dev nD) (t : Fin cfg3.N) (k : Fin 256) (ch : Fin 200) :
    iblk3 W c 1 t (ix3 (0 : Fin 1) k ch)
      = WV W c main_v41_0 (ix3 (⟨t.val / 4, by have := t.isLt; have : cfg3.N = 16 := N_3; omega⟩ : Fin 4) k ch) := by
  unfold iblk3
  show WV W c main_v41_0 (((cfg3.win 1).blk t).view.emb (ix3 (0 : Fin 1) k ch)) = _
  congr 1
  funext a; apply Fin.ext
  obtain ⟨-, -, -, e0, e1, e2, -⟩ := idx_facts t
  match a with
  | ⟨0, _⟩ => show win3_1.index t (0 : Fin 3) * 1 + 1 * (0 : Fin 1).val = t.val / 4; rw [e0]; simp
  | ⟨1, _⟩ => show win3_1.index t (1 : Fin 3) * 256 + 1 * k.val = k.val; rw [e1]; omega
  | ⟨2, _⟩ => show win3_1.index t (2 : Fin 3) * 200 + 1 * ch.val = ch.val; rw [e2]; omega

/-- A point's block of the spatial centers is the batch's rows of the center array. -/
theorem iblk3_2_apply (c : Dev nD) (t : Fin cfg3.N) (k : Fin 256) (ch : Fin 2) :
    iblk3 W c 2 t (ix3 (0 : Fin 1) k ch)
      = WV W c main_v41_1 (ix3 (⟨t.val / 4, by have := t.isLt; have : cfg3.N = 16 := N_3; omega⟩ : Fin 4) k ch) := by
  unfold iblk3
  show WV W c main_v41_1 (((cfg3.win 2).blk t).view.emb (ix3 (0 : Fin 1) k ch)) = _
  congr 1
  funext a; apply Fin.ext
  obtain ⟨-, -, -, -, -, -, e0, e1, e2, -⟩ := idx_facts t
  match a with
  | ⟨0, _⟩ => show win3_2.index t (0 : Fin 3) * 1 + 1 * (0 : Fin 1).val = t.val / 4; rw [e0]; simp
  | ⟨1, _⟩ => show win3_2.index t (1 : Fin 3) * 256 + 1 * k.val = k.val; rw [e1]; omega
  | ⟨2, _⟩ => show win3_2.index t (2 : Fin 3) * 2 + 1 * ch.val = ch.val; rw [e2]; omega

/-! ## The spectral-center output: its array after the round -/

/-- What the spectral-center array holds after the round: batch `b`'s block is what the last tile of batch `b` stored. -/
def G3 (c : Dev nD) : Buf (Elt F) ((c : Thread nD τ).loc main_v42_0) := fun i =>
  (outsAt3 W c (pt (i 0) 3).val (pt (i 0) 3).isLt).1 (ix3 (0 : Fin 1) (i 1) (i 2))

/-- Where a last-tile point's block of the spectral-center array sits. -/
theorem emb3 (t : Fin cfg3.N) (j : S1x256x200.Idx) :
    ((cfg3.win 3).blk t).view.emb j
      = ix3 (⟨t.val / 4, by have := t.isLt; have : cfg3.N = 16 := N_3; omega⟩ : Fin 4) (j 1) (j 2) := by
  funext a; apply Fin.ext
  obtain ⟨-, -, -, -, -, -, -, -, -, e0, e1, e2, -⟩ := idx_facts t
  have hj0 : (j 0).val < 1 := (j 0).isLt
  match a with
  | ⟨0, _⟩ => show win3_3.index t (0 : Fin 3) * 1 + 1 * (j 0).val = t.val / 4; rw [e0]; omega
  | ⟨1, _⟩ => show win3_3.index t (1 : Fin 3) * 256 + 1 * (j 1).val = (j 1).val; rw [e1]; omega
  | ⟨2, _⟩ => show win3_3.index t (2 : Fin 3) * 200 + 1 * (j 2).val = (j 2).val; rw [e2]; omega

/-- What a last-tile point writes back is its block of that function. -/
theorem flushed3 (c : Dev nD) (t : Fin cfg3.N) (hf : (cfg3.win 3).flush t = true) :
    (dat3 W c).flushed 3 t = ((cfg3.win 3).blk t).view.read (Elt F) (G3 W c) := by
  have h3 : t.val % 4 = 3 := (flush3_3 t).mp hf
  show (cfg3.win 3).cut (grid3.coords t) ((dat3 W c).after 3 t) = _
  rw [after3_3]
  funext j
  show (outsAt3 W c t.val t.isLt).1 j = G3 W c (((cfg3.win 3).blk t).view.emb j)
  rw [emb3 t j]
  unfold G3
  have hb : t.val / 4 < 4 := by have := t.isLt; have : cfg3.N = 16 := N_3; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg3.N = 16 := N_3; omega⟩ : Fin 4) 3).val = t.val := by
    show 4 * (t.val / 4) + (3 : Fin 4).val = t.val
    have : ((3 : Fin 4) : ℕ) = 3 := rfl
    omega
  show _ = (outsAt3 W c (pt (⟨t.val / 4, hb⟩ : Fin 4) 3).val (pt (⟨t.val / 4, hb⟩ : Fin 4) 3).isLt).1 (ix3 (0 : Fin 1) (j 1) (j 2))
  rw [outsAt3_congr W c hn _ t.isLt]
  exact congrArg _ hj

/-- An index of the array is in a point's block iff each coordinate is in the block's range on its axis. -/
theorem mem_blk3 (t : Fin cfg3.N) (i : S4x256x200.Idx) :
    i ∈ ((cfg3.win 3).blk t).view.set ↔ ∀ a : Fin 3, win3_3.index t a * S1x256x200.size a ≤ (i a).val ∧ (i a).val < win3_3.index t a * S1x256x200.size a + S1x256x200.size a := by
  show i ∈ ((View.whole main_v42_0).slice (win3_3.rect t)).set ↔ _
  rw [View.set_slice_whole, Rect.mem_set_unit]
  exact Iff.rfl

/-- Every index of the array is in the block of its batch's last tile. -/
theorem cover3 (i : S4x256x200.Idx) :
    ∃ t : Fin cfg3.N, (cfg3.win 3).flush t = true ∧ i ∈ ((cfg3.win 3).blk t).view.set := by
  have hi0 : (i 0).val < 4 := (i 0).isLt
  have hi1 : (i 1).val < 256 := (i 1).isLt
  have hi2 : (i 2).val < 200 := (i 2).isLt
  refine ⟨⟨4 * (i 0).val + 3, by have : cfg3.N = 16 := N_3; omega⟩, (flush3_3 _).mpr (by show (4 * (i 0).val + 3) % 4 = 3; omega), ?_⟩
  rw [mem_blk3]
  obtain ⟨-, -, -, -, -, -, -, -, -, e0, e1, e2, -⟩ := idx_facts ⟨4 * (i 0).val + 3, by have : cfg3.N = 16 := N_3; omega⟩
  intro a
  match a with
  | ⟨0, _⟩ => show win3_3.index _ (0 : Fin 3) * 1 ≤ (i 0).val ∧ (i 0).val < win3_3.index _ (0 : Fin 3) * 1 + 1; rw [e0]; show (4 * (i 0).val + 3) / 4 * 1 ≤ (i 0).val ∧ (i 0).val < (4 * (i 0).val + 3) / 4 * 1 + 1; omega
  | ⟨1, _⟩ => show win3_3.index _ (1 : Fin 3) * 256 ≤ (i 1).val ∧ (i 1).val < win3_3.index _ (1 : Fin 3) * 256 + 256; rw [e1]; omega
  | ⟨2, _⟩ => show win3_3.index _ (2 : Fin 3) * 200 ≤ (i 2).val ∧ (i 2).val < win3_3.index _ (2 : Fin 3) * 200 + 200; rw [e2]; omega

/-- The spectral-center array after the round. -/
theorem final3 (c : Dev nD) : (dat3 W c).arrAt 3 cfg3.N = G3 W c :=
  (dat3 W c).arrAt_eq_of_cover 3 (G3 W c) (fun t hf => flushed3 W c t hf) (cover3)

/-! ## The spatial-center output: its array after the round -/

/-- What the spatial-center array holds after the round: batch `b`'s block is what the last tile of batch `b` stored. -/
def G4 (c : Dev nD) : Buf (Elt F) ((c : Thread nD τ).loc main_v42_1) := fun i =>
  (outsAt3 W c (pt (i 0) 3).val (pt (i 0) 3).isLt).2.1 (ix3 (0 : Fin 1) (i 1) (i 2))

/-- Where a last-tile point's block of the spatial-center array sits. -/
theorem emb4 (t : Fin cfg3.N) (j : S1x256x2.Idx) :
    ((cfg3.win 4).blk t).view.emb j
      = ix3 (⟨t.val / 4, by have := t.isLt; have : cfg3.N = 16 := N_3; omega⟩ : Fin 4) (j 1) (j 2) := by
  funext a; apply Fin.ext
  obtain ⟨-, -, -, -, -, -, -, -, -, -, -, -, e0, e1, e2⟩ := idx_facts t
  have hj0 : (j 0).val < 1 := (j 0).isLt
  match a with
  | ⟨0, _⟩ => show win3_4.index t (0 : Fin 3) * 1 + 1 * (j 0).val = t.val / 4; rw [e0]; omega
  | ⟨1, _⟩ => show win3_4.index t (1 : Fin 3) * 256 + 1 * (j 1).val = (j 1).val; rw [e1]; omega
  | ⟨2, _⟩ => show win3_4.index t (2 : Fin 3) * 2 + 1 * (j 2).val = (j 2).val; rw [e2]; omega

/-- What a last-tile point writes back is its block of that function. -/
theorem flushed4 (c : Dev nD) (t : Fin cfg3.N) (hf : (cfg3.win 4).flush t = true) :
    (dat3 W c).flushed 4 t = ((cfg3.win 4).blk t).view.read (Elt F) (G4 W c) := by
  have h3 : t.val % 4 = 3 := (flush3_4 t).mp hf
  show (cfg3.win 4).cut (grid3.coords t) ((dat3 W c).after 4 t) = _
  rw [after3_4]
  funext j
  show (outsAt3 W c t.val t.isLt).2.1 j = G4 W c (((cfg3.win 4).blk t).view.emb j)
  rw [emb4 t j]
  unfold G4
  have hb : t.val / 4 < 4 := by have := t.isLt; have : cfg3.N = 16 := N_3; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg3.N = 16 := N_3; omega⟩ : Fin 4) 3).val = t.val := by
    show 4 * (t.val / 4) + (3 : Fin 4).val = t.val
    have : ((3 : Fin 4) : ℕ) = 3 := rfl
    omega
  show _ = (outsAt3 W c (pt (⟨t.val / 4, hb⟩ : Fin 4) 3).val (pt (⟨t.val / 4, hb⟩ : Fin 4) 3).isLt).2.1 (ix3 (0 : Fin 1) (j 1) (j 2))
  rw [outsAt3_congr W c hn _ t.isLt]
  exact congrArg _ hj

/-- An index of the array is in a point's block iff each coordinate is in the block's range on its axis. -/
theorem mem_blk4 (t : Fin cfg3.N) (i : S4x256x2.Idx) :
    i ∈ ((cfg3.win 4).blk t).view.set ↔ ∀ a : Fin 3, win3_4.index t a * S1x256x2.size a ≤ (i a).val ∧ (i a).val < win3_4.index t a * S1x256x2.size a + S1x256x2.size a := by
  show i ∈ ((View.whole main_v42_1).slice (win3_4.rect t)).set ↔ _
  rw [View.set_slice_whole, Rect.mem_set_unit]
  exact Iff.rfl

/-- Every index of the array is in the block of its batch's last tile. -/
theorem cover4 (i : S4x256x2.Idx) :
    ∃ t : Fin cfg3.N, (cfg3.win 4).flush t = true ∧ i ∈ ((cfg3.win 4).blk t).view.set := by
  have hi0 : (i 0).val < 4 := (i 0).isLt
  have hi1 : (i 1).val < 256 := (i 1).isLt
  have hi2 : (i 2).val < 2 := (i 2).isLt
  refine ⟨⟨4 * (i 0).val + 3, by have : cfg3.N = 16 := N_3; omega⟩, (flush3_4 _).mpr (by show (4 * (i 0).val + 3) % 4 = 3; omega), ?_⟩
  rw [mem_blk4]
  obtain ⟨-, -, -, -, -, -, -, -, -, -, -, -, e0, e1, e2⟩ := idx_facts ⟨4 * (i 0).val + 3, by have : cfg3.N = 16 := N_3; omega⟩
  intro a
  match a with
  | ⟨0, _⟩ => show win3_4.index _ (0 : Fin 3) * 1 ≤ (i 0).val ∧ (i 0).val < win3_4.index _ (0 : Fin 3) * 1 + 1; rw [e0]; show (4 * (i 0).val + 3) / 4 * 1 ≤ (i 0).val ∧ (i 0).val < (4 * (i 0).val + 3) / 4 * 1 + 1; omega
  | ⟨1, _⟩ => show win3_4.index _ (1 : Fin 3) * 256 ≤ (i 1).val ∧ (i 1).val < win3_4.index _ (1 : Fin 3) * 256 + 256; rw [e1]; omega
  | ⟨2, _⟩ => show win3_4.index _ (2 : Fin 3) * 2 ≤ (i 2).val ∧ (i 2).val < win3_4.index _ (2 : Fin 3) * 2 + 2; rw [e2]; omega

/-- The spatial-center array after the round. -/
theorem final4 (c : Dev nD) : (dat3 W c).arrAt 4 cfg3.N = G4 W c :=
  (dat3 W c).arrAt_eq_of_cover 4 (G4 W c) (fun t hf => flushed4 W c t hf) (cover4)

end Cert.KernelIdeal.Slic.R3

end
-- ==== Proof.KRound3.lean ====
/-
  Round four of the kernel in the specification's terms. It runs the first round's body again over the same grid,
  reading the pixel block and the two center arrays the round before wrote: point t = 4 b + a stages tile a of
  batch b, the four tiles of a batch accumulate the specification's tile-by-tile sums, and what the last tile of
  batch b writes back are the specification's new centers and new center coordinates. The body's pure values are,
  value by value, the first round's, so the first round's tile and batch statements apply as they stand.
-/
import proofs.«138879_j15556371546814_2_alg».proof.Proof.I3Arr
import proofs.«138879_j15556371546814_2_alg».proof.Proof.KSame
import proofs.«138879_j15556371546814_2_alg».proof.Proof.KRound0

set_option maxRecDepth 16384

noncomputable section

namespace Cert.Proof.Slic.KRound

open Cert.KernelIdeal Cert.KernelIdeal.Gen Cert.KernelIdeal.Slic
open Idealize.ShloMosaic Idealize.ShloMosaic.TcCoe Idealize.ShloMosaic.ValueIdx
open Idealize.SL Idealize.SL.Sem
open Cert.Proof.Slic

/-- The second grid coordinate of point t is t mod 4 (the tile). -/
theorem coords1_val3 : ∀ t : Fin grid3.N, (grid3.coords t 1).val = t.val % 4 := by decide +kernel

/-- This round's update of the accumulators is the first round's. -/
theorem upd3_eq (x0 : Vec Ideal S1x4096x200 .bf16) (x1 : Vec Ideal S1x256x200 .f32) (x2 : Vec Ideal S1x256x2 .f32)
    (i : grid3.Coords) (a : R3.Acc Ideal) : R3.upd x0 x1 x2 i a = R0.upd x0 x1 x2 i a := rfl

/-- This round's zero splats are the first round's. -/
theorem acc03_eq : (R3.acc0 : R3.Acc Ideal) = R0.acc0 := rfl

variable (W : Dev nD → Valuation τ sig (Elt Ideal)) (c : Dev nD)

/-- The centers the round reads. -/
def CSof3 : Spec.CS := fun b k ch => W c (Proc.devRef .tc main_v41_0) (ix3 b k ch)
/-- The center coordinates the round reads. -/
def CPof3 : Spec.CP := fun b k j => W c (Proc.devRef .tc main_v41_1) (ix3 b k j)

/-- Point 4 b + a stages tile a of batch b of the specification's data. -/
theorem isTile3 (b a : Fin 4) :
    KPay.IsTile (R3.iblk3 W c 0 (R3.pt b a)) (R3.iblk3 W c 1 (R3.pt b a)) (R3.iblk3 W c 2 (R3.pt b a))
      (grid3.coords (R3.pt b a)) (Xof W c) pixSpec (CSof3 W c) (CPof3 W c) b a where
  hx r ch :=
    (R3.iblk3_0_apply W c (R3.pt b a) r ch).trans (congrArg (R3.WV W c main_v25)
      (ix3_congr (by show (4 * b.val + a.val) / 4 = b.val; omega)
        (by show (4 * b.val + a.val) % 4 * 4096 + r.val = a.val * 4096 + r.val; omega) rfl))
  hcs k ch :=
    (R3.iblk3_1_apply W c (R3.pt b a) k ch).trans (congrArg (R3.WV W c main_v41_0)
      (ix3_congr (by show (4 * b.val + a.val) / 4 = b.val; omega) rfl rfl))
  hcp k j :=
    (R3.iblk3_2_apply W c (R3.pt b a) k j).trans (congrArg (R3.WV W c main_v41_1)
      (ix3_congr (by show (4 * b.val + a.val) / 4 = b.val; omega) rfl rfl))
  hpy r :=
    (k0_pay12_apply (grid3.coords (R3.pt b a)) r).trans (congrArg (fun n => pixSpec n 0) (Fin.ext (by
      show (grid3.coords (R3.pt b a) 1).val * 4096 + r.val = a.val * 4096 + r.val
      rw [coords1_val3]
      show (4 * b.val + a.val) % 4 * 4096 + r.val = a.val * 4096 + r.val
      omega)))
  hpx r :=
    (k0_pay13_apply (grid3.coords (R3.pt b a)) r).trans (congrArg (fun n => pixSpec n 1) (Fin.ext (by
      show (grid3.coords (R3.pt b a) 1).val * 4096 + r.val = a.val * 4096 + r.val
      rw [coords1_val3]
      show (4 * b.val + a.val) % 4 * 4096 + r.val = a.val * 4096 + r.val
      omega)))

theorem pt3_ne3 (b : Fin 4) : ¬(R3.pt b 3).val % 4 = 0 := by
  show ¬(4 * b.val + (3 : Fin 4).val) % 4 = 0
  have : ((3 : Fin 4) : ℕ) = 3 := rfl
  omega

theorem pt3_eq3 (b : Fin 4) : (R3.pt b 3).val % 4 = 3 := by
  show (4 * b.val + (3 : Fin 4).val) % 4 = 3
  have : ((3 : Fin 4) : ℕ) = 3 := rfl
  omega

/-- After the round the spectral-center output holds the specification's new centers. -/
theorem round3_cs (b : Fin 4) (k : Fin 256) (ch : Fin 200) :
    (R3.dat3 W c).arrAt 3 cfg3.N (ix3 b k ch)
      = Spec.csK Spec.wordsI (Xof W c) (Spec.qK Spec.wordsI (Xof W c) pixSpec (CSof3 W c) (CPof3 W c)) b k ch := by
  rw [R3.final3]
  show (R3.outsAt3 W c (R3.pt b 3).val (R3.pt b 3).isLt).1 (ix3 (0 : Fin 1) k ch) = _
  rw [R3.out3_last W c (R3.pt b 3) (pt3_ne3 b) (pt3_eq3 b), ← R3.accAt_next W c (R3.pt b 3) (pt3_ne3 b),
    R3.accAt_batch W c b]
  unfold R3.updAt
  rw [upd3_eq, upd3_eq, upd3_eq, upd3_eq, acc03_eq, KPay.k3_pay4_eq]
  exact KPay.batch_cs (x0 := fun a => R3.iblk3 W c 0 (R3.pt b a)) (x1 := fun a => R3.iblk3 W c 1 (R3.pt b a))
    (x2 := fun a => R3.iblk3 W c 2 (R3.pt b a)) (i := fun a => grid3.coords (R3.pt b a)) (isTile3 W c b) k ch

/-- After the round the spatial-center output holds the specification's new center coordinates. -/
theorem round3_cp (b : Fin 4) (k : Fin 256) (j : Fin 2) :
    (R3.dat3 W c).arrAt 4 cfg3.N (ix3 b k j)
      = Spec.cpK Spec.wordsI pixSpec (Spec.qK Spec.wordsI (Xof W c) pixSpec (CSof3 W c) (CPof3 W c)) b k j := by
  rw [R3.final4]
  show (R3.outsAt3 W c (R3.pt b 3).val (R3.pt b 3).isLt).2.1 (ix3 (0 : Fin 1) k j) = _
  rw [R3.out4_last W c (R3.pt b 3) (pt3_ne3 b) (pt3_eq3 b), ← R3.accAt_next W c (R3.pt b 3) (pt3_ne3 b),
    R3.accAt_batch W c b]
  unfold R3.updAt
  rw [upd3_eq, upd3_eq, upd3_eq, upd3_eq, acc03_eq, KPay.k3_pay5_eq]
  exact KPay.batch_cp (x0 := fun a => R3.iblk3 W c 0 (R3.pt b a)) (x1 := fun a => R3.iblk3 W c 1 (R3.pt b a))
    (x2 := fun a => R3.iblk3 W c 2 (R3.pt b a)) (i := fun a => grid3.coords (R3.pt b a)) (isTile3 W c b) k j

end Cert.Proof.Slic.KRound

end
-- ==== Proof.I4Pieces.lean ====
/-
  Round five of the idealized kernel: what each case of the body leaves, as the payloads' own terms.

  As in the earlier rounds one tile updates the three accumulators by one function of the tile's blocks and
  coordinate, from the zero splats at the first tile of a batch, and the last tile stores the two numerators over
  the mass plus 1e-6. This round also stores, at every tile, the tile's block of the assignment weights.
-/
import proofs.«138879_j15556371546814_2_alg».proof.Proof.I4Dat
import Idealize.ShloMosaic.Lib.Pipeline.Value

set_option maxRecDepth 16384

noncomputable section

namespace Cert.KernelIdeal.Slic.R4

open Cert.KernelIdeal Cert.KernelIdeal.Gen Cert.KernelIdeal.Slic
open Idealize.ShloMosaic Idealize.ShloMosaic.TcCoe Idealize.ShloMosaic.Tactic
open Idealize.SL Idealize.SL.Sem

variable {F : FTy → Type} [FloatOps F]
variable (W : Dev nD → Valuation τ sig (Elt F))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole buffer holding the raw contents of `X` reads back `X`. -/
theorem read_unread_whole (b : Ref sig .tc) (X : b.ty.shape.Idx → Elt F b.ty.elt) :
    View.read (Elt F) (View.whole b) ((Memref.isWhole_whole b).unread X) = X :=
  (Memref.isWhole_whole b).read_unread X

/-- The three accumulators. -/
abbrev Acc (F : FTy → Type) [FloatOps F] : Type := Vec F S256x200 .f32 × Vec F S256x2 .f32 × Vec F S256x1 .f32

/-- The accumulators among what a point leaves. -/
def accOf (p : Outs4 F) : Acc F := (p.2.2.1, p.2.2.2.1, p.2.2.2.2.1)

/-- One tile's update of the accumulators, from the tile's blocks and coordinate. -/
def upd (x0 : Vec F S1x4096x200 .bf16) (x1 : Vec F S1x256x200 .f32) (x2 : Vec F S1x256x2 .f32) (i : grid4.Coords) (a : Acc F) : Acc F :=
  (k4_pay1 (k4_pay20 (k4_pay10 x0) (k4_pay11 x2) (k4_pay12 x0 x1) (k4_pay13 i) k4_pay14 a.1),
   k4_pay2 (k4_pay17 (k4_pay11 x2) (k4_pay12 x0 x1) (k4_pay13 i) k4_pay14) a.2.1,
   k4_pay3 (k4_pay18 (k4_pay11 x2) (k4_pay12 x0 x1) (k4_pay13 i) k4_pay14) a.2.2)

/-- The tile's block of the assignment weights. -/
def qblk (x0 : Vec F S1x4096x200 .bf16) (x1 : Vec F S1x256x200 .f32) (x2 : Vec F S1x256x2 .f32) (i : grid4.Coords) : Vec F S1x4096x256 .f32 :=
  k4_pay19 (k4_pay11 x2) (k4_pay12 x0 x1) (k4_pay13 i) k4_pay14

/-- The zero splats the reset stores. -/
def acc0 : Acc F := (k4_pay7, k4_pay8, k4_pay9)

theorem accA_7 (c : Dev nD) (t : Fin cfg4.N) (h0 : t.val % 4 = 0) : (stepA W c t h0).2.2.1 = (upd (iblk4 W c 0 t) (iblk4 W c 1 t) (iblk4 W c 2 t) (grid4.coords t) acc0).1 := by
  unfold stepA; dsimp only
  rw [View.read_writes_eq_canon _ _ _ (coverA_7 W c t h0)]
  unfold runA kernelRun4_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals first
    | exact congrArg (fun z => k4_pay1 (k4_pay20 _ _ _ _ _ z)) (View.readCov_unit_zero (View.whole cc4_scratch0) hz2 _ _)
    | rfl
theorem accA_8 (c : Dev nD) (t : Fin cfg4.N) (h0 : t.val % 4 = 0) : (stepA W c t h0).2.2.2.1 = (upd (iblk4 W c 0 t) (iblk4 W c 1 t) (iblk4 W c 2 t) (grid4.coords t) acc0).2.1 := by
  unfold stepA; dsimp only
  rw [View.read_writes_eq_canon _ _ _ (coverA_8 W c t h0)]
  unfold runA kernelRun4_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals first
    | exact congrArg (k4_pay2 _) (View.readCov_unit_zero (View.whole cc4_scratch1) hz2 _ _)
    | rfl
theorem accA_9 (c : Dev nD) (t : Fin cfg4.N) (h0 : t.val % 4 = 0) : (stepA W c t h0).2.2.2.2.1 = (upd (iblk4 W c 0 t) (iblk4 W c 1 t) (iblk4 W c 2 t) (grid4.coords t) acc0).2.2 := by
  unfold stepA; dsimp only
  rw [View.read_writes_eq_canon _ _ _ (coverA_9 W c t h0)]
  unfold runA kernelRun4_A; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals first
    | exact congrArg (k4_pay3 _) (View.readCov_unit_zero (View.whole cc4_scratch2) hz2 _ _)
    | rfl
theorem qA (c : Dev nD) (t : Fin cfg4.N) (h0 : t.val % 4 = 0) : (stepA W c t h0).2.2.2.2.2 = qblk (iblk4 W c 0 t) (iblk4 W c 1 t) (iblk4 W c 2 t) (grid4.coords t) := by
  unfold stepA; dsimp only
  rw [View.read_writes_eq_canon _ _ _ (coverA_Q W c t h0)]
  unfold runA kernelRun4_A; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold qblk
  (try unfold acc0)
  (try unfold accOf)
  (try dsimp only)
  all_goals rfl

theorem accB_7 (c : Dev nD) (t : Fin cfg4.N) (h0 : ¬t.val % 4 = 0) (h1 : ¬t.val % 4 = 3) (p : Outs4 F) : (stepB W c t h0 h1 p).2.2.1 = (upd (iblk4 W c 0 t) (iblk4 W c 1 t) (iblk4 W c 2 t) (grid4.coords t) (accOf p)).1 := by
  unfold stepB; dsimp only
  rw [View.read_writes_eq_canon _ _ _ (coverB_7 W c t h0 h1 p)]
  unfold runB kernelRun4_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem accB_8 (c : Dev nD) (t : Fin cfg4.N) (h0 : ¬t.val % 4 = 0) (h1 : ¬t.val % 4 = 3) (p : Outs4 F) : (stepB W c t h0 h1 p).2.2.2.1 = (upd (iblk4 W c 0 t) (iblk4 W c 1 t) (iblk4 W c 2 t) (grid4.coords t) (accOf p)).2.1 := by
  unfold stepB; dsimp only
  rw [View.read_writes_eq_canon _ _ _ (coverB_8 W c t h0 h1 p)]
  unfold runB kernelRun4_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem accB_9 (c : Dev nD) (t : Fin cfg4.N) (h0 : ¬t.val % 4 = 0) (h1 : ¬t.val % 4 = 3) (p : Outs4 F) : (stepB W c t h0 h1 p).2.2.2.2.1 = (upd (iblk4 W c 0 t) (iblk4 W c 1 t) (iblk4 W c 2 t) (grid4.coords t) (accOf p)).2.2 := by
  unfold stepB; dsimp only
  rw [View.read_writes_eq_canon _ _ _ (coverB_9 W c t h0 h1 p)]
  unfold runB kernelRun4_B; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem qB (c : Dev nD) (t : Fin cfg4.N) (h0 : ¬t.val % 4 = 0) (h1 : ¬t.val % 4 = 3) (p : Outs4 F) : (stepB W c t h0 h1 p).2.2.2.2.2 = qblk (iblk4 W c 0 t) (iblk4 W c 1 t) (iblk4 W c 2 t) (grid4.coords t) := by
  unfold stepB; dsimp only
  rw [View.read_writes_eq_canon _ _ _ (coverB_Q W c t h0 h1 p)]
  unfold runB kernelRun4_B; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold qblk
  (try unfold acc0)
  (try unfold accOf)
  (try dsimp only)
  all_goals rfl

theorem accC_7 (c : Dev nD) (t : Fin cfg4.N) (h0 : ¬t.val % 4 = 0) (h1 : t.val % 4 = 3) (p : Outs4 F) : (stepC W c t h0 h1 p).2.2.1 = (upd (iblk4 W c 0 t) (iblk4 W c 1 t) (iblk4 W c 2 t) (grid4.coords t) (accOf p)).1 := by
  unfold stepC; dsimp only
  rw [View.read_writes_eq_canon _ _ _ (coverC_7 W c t h0 h1 p)]
  unfold runC kernelRun4_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem accC_8 (c : Dev nD) (t : Fin cfg4.N) (h0 : ¬t.val % 4 = 0) (h1 : t.val % 4 = 3) (p : Outs4 F) : (stepC W c t h0 h1 p).2.2.2.1 = (upd (iblk4 W c 0 t) (iblk4 W c 1 t) (iblk4 W c 2 t) (grid4.coords t) (accOf p)).2.1 := by
  unfold stepC; dsimp only
  rw [View.read_writes_eq_canon _ _ _ (coverC_8 W c t h0 h1 p)]
  unfold runC kernelRun4_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem accC_9 (c : Dev nD) (t : Fin cfg4.N) (h0 : ¬t.val % 4 = 0) (h1 : t.val % 4 = 3) (p : Outs4 F) : (stepC W c t h0 h1 p).2.2.2.2.1 = (upd (iblk4 W c 0 t) (iblk4 W c 1 t) (iblk4 W c 2 t) (grid4.coords t) (accOf p)).2.2 := by
  unfold stepC; dsimp only
  rw [View.read_writes_eq_canon _ _ _ (coverC_9 W c t h0 h1 p)]
  unfold runC kernelRun4_C; dsimp only
  sl_unfold_run_names
  rw [View.canon_cons_unit_zero hz2]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals rfl
theorem qC (c : Dev nD) (t : Fin cfg4.N) (h0 : ¬t.val % 4 = 0) (h1 : t.val % 4 = 3) (p : Outs4 F) : (stepC W c t h0 h1 p).2.2.2.2.2 = qblk (iblk4 W c 0 t) (iblk4 W c 1 t) (iblk4 W c 2 t) (grid4.coords t) := by
  unfold stepC; dsimp only
  rw [View.read_writes_eq_canon _ _ _ (coverC_Q W c t h0 h1 p)]
  unfold runC kernelRun4_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold qblk
  (try unfold acc0)
  (try unfold accOf)
  (try dsimp only)
  all_goals rfl

set_option maxHeartbeats 2000000 in
/-- At the last tile the spectral-center output is the updated spectral numerator over the updated mass plus 1e-6. -/
theorem outC_5 (c : Dev nD) (t : Fin cfg4.N) (h0 : ¬t.val % 4 = 0) (h1 : t.val % 4 = 3) (p : Outs4 F) :
    (stepC W c t h0 h1 p).1 = k4_pay5 (upd (iblk4 W c 0 t) (iblk4 W c 1 t) (iblk4 W c 2 t) (grid4.coords t) (accOf p)).2.2 (upd (iblk4 W c 0 t) (iblk4 W c 1 t) (iblk4 W c 2 t) (grid4.coords t) (accOf p)).1 := by
  unfold stepC; dsimp only
  rw [View.read_writes_eq_canon _ _ _ (coverC_5 W c t h0 h1 p)]
  unfold runC kernelRun4_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals first
    | exact congrArg₂ k4_pay5 (View.readCov_unit_zero (View.whole cc4_scratch2) hz2 _ _) (View.readCov_unit_zero (View.whole cc4_scratch0) hz2 _ _)
    | rfl
set_option maxHeartbeats 2000000 in
/-- and the spatial-center output the updated spatial numerator over the same. -/
theorem outC_6 (c : Dev nD) (t : Fin cfg4.N) (h0 : ¬t.val % 4 = 0) (h1 : t.val % 4 = 3) (p : Outs4 F) :
    (stepC W c t h0 h1 p).2.1 = k4_pay6 (upd (iblk4 W c 0 t) (iblk4 W c 1 t) (iblk4 W c 2 t) (grid4.coords t) (accOf p)).2.2 (upd (iblk4 W c 0 t) (iblk4 W c 1 t) (iblk4 W c 2 t) (grid4.coords t) (accOf p)).2.1 := by
  unfold stepC; dsimp only
  rw [View.read_writes_eq_canon _ _ _ (coverC_6 W c t h0 h1 p)]
  unfold runC kernelRun4_C; dsimp only
  sl_unfold_run_names
  rw [View.canon_cons_unit_zero hz3]
  simp only [Memref.IsWhole.read_unread, View.readAt_eq_ld,
    View.ld_unit_zero (S := S1x4096x200) hz3, View.ld_unit_zero (S := S1x256x200) hz3, View.ld_unit_zero (S := S1x256x2) hz3, View.ld_unit_zero (S := S1x4096x256) hz3,
    View.ld_unit_zero (S := S256x200) hz2, View.ld_unit_zero (S := S256x2) hz2, View.ld_unit_zero (S := S256x1) hz2, read_unread_whole]
  unfold upd
  (try unfold acc0)
  (try unfold accOf)
  (try dsimp only)
  all_goals first
    | exact congrArg₂ k4_pay6 (View.readCov_unit_zero (View.whole cc4_scratch2) hz2 _ _) (View.readCov_unit_zero (View.whole cc4_scratch1) hz2 _ _)
    | rfl

end Cert.KernelIdeal.Slic.R4

end
-- ==== Proof.I4Batch.lean ====
/-
  Round five of the idealized kernel: the accumulation over a batch in closed form.

  After the first tile of a batch the accumulators are one update of the zero splats; after every later tile,
  one update of what the tile before left; at the last tile the two center outputs are the two numerators over
  the mass plus 1e-6, all three taken after that tile's update.
-/
import proofs.«138879_j15556371546814_2_alg».proof.Proof.I4Pieces

set_option maxRecDepth 16384

noncomputable section

namespace Cert.KernelIdeal.Slic.R4

open Cert.KernelIdeal Cert.KernelIdeal.Gen Cert.KernelIdeal.Slic
open Idealize.ShloMosaic Idealize.ShloMosaic.TcCoe
open Idealize.SL Idealize.SL.Sem

variable {F : FTy → Type} [FloatOps F]
variable (W : Dev nD → Valuation τ sig (Elt F))

/-- The accumulators after the body at position `n`. -/
def accAt (c : Dev nD) (n : ℕ) (hn : n < cfg4.N) : Acc F := accOf (outsAt4 W c n hn)

/-- One tile's update at point `t`: the update of its three input blocks and its coordinates. -/
def updAt (c : Dev nD) (t : Fin cfg4.N) (a : Acc F) : Acc F :=
  upd (iblk4 W c 0 t) (iblk4 W c 1 t) (iblk4 W c 2 t) (grid4.coords t) a

theorem accAt_congr (c : Dev nD) {n n' : ℕ} (h : n = n') (hn : n < cfg4.N) (hn' : n' < cfg4.N) :
    accAt W c n hn = accAt W c n' hn' := by subst h; rfl

/-- At the first tile of a batch the accumulators restart from zero. -/
theorem accAt_first (c : Dev nD) (t : Fin cfg4.N) (h0 : t.val % 4 = 0) :
    accAt W c t.val t.isLt = updAt W c t acc0 := by
  unfold accAt updAt; rw [outsAt4_A W c t h0]; unfold accOf
  rw [accA_7 W c t h0, accA_8 W c t h0, accA_9 W c t h0]
  all_goals exact Prod.ext rfl (Prod.ext rfl rfl)

/-- At every later tile they are updated from what the tile before left. -/
theorem accAt_next (c : Dev nD) (t : Fin cfg4.N) (h0 : ¬t.val % 4 = 0) :
    accAt W c t.val t.isLt = updAt W c t (accAt W c (t.val - 1) (Nat.lt_of_le_of_lt (Nat.sub_le _ _) t.isLt)) := by
  unfold accAt updAt
  by_cases h1 : t.val % 4 = 3
  · rw [outsAt4_C W c t h0 h1]; unfold accOf
    rw [accC_7 W c t h0 h1 _, accC_8 W c t h0 h1 _, accC_9 W c t h0 h1 _]
    all_goals exact Prod.ext rfl (Prod.ext rfl rfl)
  · rw [outsAt4_B W c t h0 h1]; unfold accOf
    rw [accB_7 W c t h0 h1 _, accB_8 W c t h0 h1 _, accB_9 W c t h0 h1 _]
    all_goals exact Prod.ext rfl (Prod.ext rfl rfl)

/-- At the last tile the spectral-center output is the spectral numerator over the mass plus 1e-6, both after this
    tile's update. -/
theorem out3_last (c : Dev nD) (t : Fin cfg4.N) (h0 : ¬t.val % 4 = 0) (h1 : t.val % 4 = 3) :
    (outsAt4 W c t.val t.isLt).1
      = k4_pay5 (updAt W c t (accAt W c (t.val - 1) (Nat.lt_of_le_of_lt (Nat.sub_le _ _) t.isLt))).2.2
          (updAt W c t (accAt W c (t.val - 1) (Nat.lt_of_le_of_lt (Nat.sub_le _ _) t.isLt))).1 := by
  unfold accAt updAt; rw [outsAt4_C W c t h0 h1]; exact outC_5 W c t h0 h1 _

/-- and the spatial-center output the spatial numerator over the same. -/
theorem out4_last (c : Dev nD) (t : Fin cfg4.N) (h0 : ¬t.val % 4 = 0) (h1 : t.val % 4 = 3) :
    (outsAt4 W c t.val t.isLt).2.1
      = k4_pay6 (updAt W c t (accAt W c (t.val - 1) (Nat.lt_of_le_of_lt (Nat.sub_le _ _) t.isLt))).2.2
          (updAt W c t (accAt W c (t.val - 1) (Nat.lt_of_le_of_lt (Nat.sub_le _ _) t.isLt))).2.1 := by
  unfold accAt updAt; rw [outsAt4_C W c t h0 h1]; exact outC_6 W c t h0 h1 _

/-- Tile `j` of batch `b` as a grid point. -/
def pt (b j : Fin 4) : Fin cfg4.N := ⟨4 * b.val + j.val, by have : cfg4.N = 16 := N_4; omega⟩

/-- After the last tile of batch `b`: four updates from zero, one per tile, in order. -/
theorem accAt_batch (c : Dev nD) (b : Fin 4) :
    accAt W c (pt b 3).val (pt b 3).isLt
      = updAt W c (pt b 3) (updAt W c (pt b 2) (updAt W c (pt b 1) (updAt W c (pt b 0) acc0))) := by
  have e3 : accAt W c (pt b 3).val (pt b 3).isLt = updAt W c (pt b 3) (accAt W c (pt b 2).val (pt b 2).isLt) :=
    (accAt_next W c (pt b 3) (by show ¬(4 * b.val + (3 : Fin 4).val) % 4 = 0; simp)).trans
      (congrArg (updAt W c (pt b 3)) (accAt_congr W c (by show 4 * b.val + (3 : Fin 4).val - 1 = 4 * b.val + (2 : Fin 4).val; simp) _ _))
  have e2 : accAt W c (pt b 2).val (pt b 2).isLt = updAt W c (pt b 2) (accAt W c (pt b 1).val (pt b 1).isLt) :=
    (accAt_next W c (pt b 2) (by show ¬(4 * b.val + (2 : Fin 4).val) % 4 = 0; simp)).trans
      (congrArg (updAt W c (pt b 2)) (accAt_congr W c (by show 4 * b.val + (2 : Fin 4).val - 1 = 4 * b.val + (1 : Fin 4).val; simp) _ _))
  have e1 : accAt W c (pt b 1).val (pt b 1).isLt = updAt W c (pt b 1) (accAt W c (pt b 0).val (pt b 0).isLt) :=
    (accAt_next W c (pt b 1) (by show ¬(4 * b.val + (1 : Fin 4).val) % 4 = 0; simp)).trans
      (congrArg (updAt W c (pt b 1)) (accAt_congr W c (by show 4 * b.val + (1 : Fin 4).val - 1 = 4 * b.val + (0 : Fin 4).val; simp) _ _))
  have e0 : accAt W c (pt b 0).val (pt b 0).isLt = updAt W c (pt b 0) acc0 :=
    accAt_first W c (pt b 0) (by show (4 * b.val + (0 : Fin 4).val) % 4 = 0; simp)
  rw [e3, e2, e1, e0]

/-- At every point the assignment output's buffer holds the point's block of the weights. -/
theorem q_at (c : Dev nD) (t : Fin cfg4.N) :
    (outsAt4 W c t.val t.isLt).2.2.2.2.2 = qblk (iblk4 W c 0 t) (iblk4 W c 1 t) (iblk4 W c 2 t) (grid4.coords t) := by
  by_cases h0 : t.val % 4 = 0
  · rw [outsAt4_A W c t h0]; exact qA W c t h0
  · by_cases h1 : t.val % 4 = 3
    · rw [outsAt4_C W c t h0 h1]; exact qC W c t h0 h1 _
    · rw [outsAt4_B W c t h0 h1]; exact qB W c t h0 h1 _

end Cert.KernelIdeal.Slic.R4

end
-- ==== Proof.I4Arr.lean ====
/-
  Round five of the idealized kernel: the arrays.

  Point t = 4 b + n stages tile n of batch b: rows n x 4096 .. n x 4096 + 4095 of the pixels of image b, and
  the 256 centers of image b with their coordinates. The two center outputs are written back at the last tile of
  each batch, one block of 256 rows per batch, so after the round batch b's rows of each output are what the last
  tile of batch b stored; the four blocks cover the array.
-/
import proofs.«138879_j15556371546814_2_alg».proof.Proof.I4Batch
import Idealize.ShloMosaic.Lib.ValueIdx

set_option maxRecDepth 16384

noncomputable section

namespace Cert.KernelIdeal.Slic.R4

open Cert.KernelIdeal Cert.KernelIdeal.Gen Cert.KernelIdeal.Slic
open Idealize.ShloMosaic Idealize.ShloMosaic.TcCoe Idealize.ShloMosaic.ValueIdx
open Idealize.SL Idealize.SL.Sem
open Idealize.ShloMosaic.Pipeline (Dat)

variable {F : FTy → Type} [FloatOps F]
variable (W : Dev nD → Valuation τ sig (Elt F))

/-- The printed index maps over the grid: every window's block index is (batch, tile or 0, 0) with batch = t / 4 and
    tile = t mod 4. -/
theorem idx_facts : ∀ t : Fin cfg4.N,
    win4_0.index t (0 : Fin 3) = t.val / 4 ∧ win4_0.index t (1 : Fin 3) = t.val % 4 ∧ win4_0.index t (2 : Fin 3) = 0
    ∧ win4_1.index t (0 : Fin 3) = t.val / 4 ∧ win4_1.index t (1 : Fin 3) = 0 ∧ win4_1.index t (2 : Fin 3) = 0
    ∧ win4_2.index t (0 : Fin 3) = t.val / 4 ∧ win4_2.index t (1 : Fin 3) = 0 ∧ win4_2.index t (2 : Fin 3) = 0
    ∧ win4_3.index t (0 : Fin 3) = t.val / 4 ∧ win4_3.index t (1 : Fin 3) = 0 ∧ win4_3.index t (2 : Fin 3) = 0
    ∧ win4_4.index t (0 : Fin 3) = t.val / 4 ∧ win4_4.index t (1 : Fin 3) = 0 ∧ win4_4.index t (2 : Fin 3) = 0 :=
  (by decide +kernel : ∀ t : Fin grid4.N, _)

theorem outsAt4_congr (c : Dev nD) {n n' : ℕ} (h : n = n') (hn : n < cfg4.N) (hn' : n' < cfg4.N) :
    outsAt4 W c n hn = outsAt4 W c n' hn' := by subst h; rfl

/-! ## The inputs' blocks -/

/-- A tile's pixel block is the pixel array at (batch, tile x 4096 + row, channel). -/
theorem iblk4_0_apply (c : Dev nD) (t : Fin cfg4.N) (r : Fin 4096) (ch : Fin 200) :
    iblk4 W c 0 t (ix3 (0 : Fin 1) r ch)
      = WV W c main_v25 (ix3 (⟨t.val / 4, by have := t.isLt; have : cfg4.N = 16 := N_4; omega⟩ : Fin 4)
          (⟨t.val % 4 * 4096 + r.val, by have := r.isLt; omega⟩ : Fin 16384) ch) := by
  unfold iblk4
  show WV W c main_v25 (((cfg4.win 0).blk t).view.emb (ix3 (0 : Fin 1) r ch)) = _
  congr 1
  funext a; apply Fin.ext
  obtain ⟨e0, e1, e2, -⟩ := idx_facts t
  match a with
  | ⟨0, _⟩ => show win4_0.index t (0 : Fin 3) * 1 + 1 * (0 : Fin 1).val = t.val / 4; rw [e0]; simp
  | ⟨1, _⟩ => show win4_0.index t (1 : Fin 3) * 4096 + 1 * r.val = t.val % 4 * 4096 + r.val; rw [e1]; omega
  | ⟨2, _⟩ => show win4_0.index t (2 : Fin 3) * 200 + 1 * ch.val = ch.val; rw [e2]; omega

/-- A point's block of the spectral centers is the batch's rows of the center array. -/
theorem iblk4_1_apply (c : Dev nD) (t : Fin cfg4.N) (k : Fin 256) (ch : Fin 200) :
    iblk4 W c 1 t (ix3 (0 : Fin 1) k ch)
      = WV W c main_v42_0 (ix3 (⟨t.val / 4, by have := t.isLt; have : cfg4.N = 16 := N_4; omega⟩ : Fin 4) k ch) := by
  unfold iblk4
  show WV W c main_v42_0 (((cfg4.win 1).blk t).view.emb (ix3 (0 : Fin 1) k ch)) = _
  congr 1
  funext a; apply Fin.ext
  obtain ⟨-, -, -, e0, e1, e2, -⟩ := idx_facts t
  match a with
  | ⟨0, _⟩ => show win4_1.index t (0 : Fin 3) * 1 + 1 * (0 : Fin 1).val = t.val / 4; rw [e0]; simp
  | ⟨1, _⟩ => show win4_1.index t (1 : Fin 3) * 256 + 1 * k.val = k.val; rw [e1]; omega
  | ⟨2, _⟩ => show win4_1.index t (2 : Fin 3) * 200 + 1 * ch.val = ch.val; rw [e2]; omega

/-- A point's block of the spatial centers is the batch's rows of the center array. -/
theorem iblk4_2_apply (c : Dev nD) (t : Fin cfg4.N) (k : Fin 256) (ch : Fin 2) :
    iblk4 W c 2 t (ix3 (0 : Fin 1) k ch)
      = WV W c main_v42_1 (ix3 (⟨t.val / 4, by have := t.isLt; have : cfg4.N = 16 := N_4; omega⟩ : Fin 4) k ch) := by
  unfold iblk4
  show WV W c main_v42_1 (((cfg4.win 2).blk t).view.emb (ix3 (0 : Fin 1) k ch)) = _
  congr 1
  funext a; apply Fin.ext
  obtain ⟨-, -, -, -, -, -, e0, e1, e2, -⟩ := idx_facts t
  match a with
  | ⟨0, _⟩ => show win4_2.index t (0 : Fin 3) * 1 + 1 * (0 : Fin 1).val = t.val / 4; rw [e0]; simp
  | ⟨1, _⟩ => show win4_2.index t (1 : Fin 3) * 256 + 1 * k.val = k.val; rw [e1]; omega
  | ⟨2, _⟩ => show win4_2.index t (2 : Fin 3) * 2 + 1 * ch.val = ch.val; rw [e2]; omega

/-! ## The spectral-center output: its array after the round -/

/-- What the spectral-center array holds after the round: batch `b`'s block is what the last tile of batch `b` stored. -/
def G3 (c : Dev nD) : Buf (Elt F) ((c : Thread nD τ).loc main_v43_0) := fun i =>
  (outsAt4 W c (pt (i 0) 3).val (pt (i 0) 3).isLt).1 (ix3 (0 : Fin 1) (i 1) (i 2))

/-- Where a last-tile point's block of the spectral-center array sits. -/
theorem emb3 (t : Fin cfg4.N) (j : S1x256x200.Idx) :
    ((cfg4.win 3).blk t).view.emb j
      = ix3 (⟨t.val / 4, by have := t.isLt; have : cfg4.N = 16 := N_4; omega⟩ : Fin 4) (j 1) (j 2) := by
  funext a; apply Fin.ext
  obtain ⟨-, -, -, -, -, -, -, -, -, e0, e1, e2, -⟩ := idx_facts t
  have hj0 : (j 0).val < 1 := (j 0).isLt
  match a with
  | ⟨0, _⟩ => show win4_3.index t (0 : Fin 3) * 1 + 1 * (j 0).val = t.val / 4; rw [e0]; omega
  | ⟨1, _⟩ => show win4_3.index t (1 : Fin 3) * 256 + 1 * (j 1).val = (j 1).val; rw [e1]; omega
  | ⟨2, _⟩ => show win4_3.index t (2 : Fin 3) * 200 + 1 * (j 2).val = (j 2).val; rw [e2]; omega

/-- What a last-tile point writes back is its block of that function. -/
theorem flushed3 (c : Dev nD) (t : Fin cfg4.N) (hf : (cfg4.win 3).flush t = true) :
    (dat4 W c).flushed 3 t = ((cfg4.win 3).blk t).view.read (Elt F) (G3 W c) := by
  have h3 : t.val % 4 = 3 := (flush4_3 t).mp hf
  show (cfg4.win 3).cut (grid4.coords t) ((dat4 W c).after 3 t) = _
  rw [after4_3]
  funext j
  show (outsAt4 W c t.val t.isLt).1 j = G3 W c (((cfg4.win 3).blk t).view.emb j)
  rw [emb3 t j]
  unfold G3
  have hb : t.val / 4 < 4 := by have := t.isLt; have : cfg4.N = 16 := N_4; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg4.N = 16 := N_4; omega⟩ : Fin 4) 3).val = t.val := by
    show 4 * (t.val / 4) + (3 : Fin 4).val = t.val
    have : ((3 : Fin 4) : ℕ) = 3 := rfl
    omega
  show _ = (outsAt4 W c (pt (⟨t.val / 4, hb⟩ : Fin 4) 3).val (pt (⟨t.val / 4, hb⟩ : Fin 4) 3).isLt).1 (ix3 (0 : Fin 1) (j 1) (j 2))
  rw [outsAt4_congr W c hn _ t.isLt]
  exact congrArg _ hj

/-- An index of the array is in a point's block iff each coordinate is in the block's range on its axis. -/
theorem mem_blk3 (t : Fin cfg4.N) (i : S4x256x200.Idx) :
    i ∈ ((cfg4.win 3).blk t).view.set ↔ ∀ a : Fin 3, win4_3.index t a * S1x256x200.size a ≤ (i a).val ∧ (i a).val < win4_3.index t a * S1x256x200.size a + S1x256x200.size a := by
  show i ∈ ((View.whole main_v43_0).slice (win4_3.rect t)).set ↔ _
  rw [View.set_slice_whole, Rect.mem_set_unit]
  exact Iff.rfl

/-- Every index of the array is in the block of its batch's last tile. -/
theorem cover3 (i : S4x256x200.Idx) :
    ∃ t : Fin cfg4.N, (cfg4.win 3).flush t = true ∧ i ∈ ((cfg4.win 3).blk t).view.set := by
  have hi0 : (i 0).val < 4 := (i 0).isLt
  have hi1 : (i 1).val < 256 := (i 1).isLt
  have hi2 : (i 2).val < 200 := (i 2).isLt
  refine ⟨⟨4 * (i 0).val + 3, by have : cfg4.N = 16 := N_4; omega⟩, (flush4_3 _).mpr (by show (4 * (i 0).val + 3) % 4 = 3; omega), ?_⟩
  rw [mem_blk3]
  obtain ⟨-, -, -, -, -, -, -, -, -, e0, e1, e2, -⟩ := idx_facts ⟨4 * (i 0).val + 3, by have : cfg4.N = 16 := N_4; omega⟩
  intro a
  match a with
  | ⟨0, _⟩ => show win4_3.index _ (0 : Fin 3) * 1 ≤ (i 0).val ∧ (i 0).val < win4_3.index _ (0 : Fin 3) * 1 + 1; rw [e0]; show (4 * (i 0).val + 3) / 4 * 1 ≤ (i 0).val ∧ (i 0).val < (4 * (i 0).val + 3) / 4 * 1 + 1; omega
  | ⟨1, _⟩ => show win4_3.index _ (1 : Fin 3) * 256 ≤ (i 1).val ∧ (i 1).val < win4_3.index _ (1 : Fin 3) * 256 + 256; rw [e1]; omega
  | ⟨2, _⟩ => show win4_3.index _ (2 : Fin 3) * 200 ≤ (i 2).val ∧ (i 2).val < win4_3.index _ (2 : Fin 3) * 200 + 200; rw [e2]; omega

/-- The spectral-center array after the round. -/
theorem final3 (c : Dev nD) : (dat4 W c).arrAt 3 cfg4.N = G3 W c :=
  (dat4 W c).arrAt_eq_of_cover 3 (G3 W c) (fun t hf => flushed3 W c t hf) (cover3)

/-! ## The spatial-center output: its array after the round -/

/-- What the spatial-center array holds after the round: batch `b`'s block is what the last tile of batch `b` stored. -/
def G4 (c : Dev nD) : Buf (Elt F) ((c : Thread nD τ).loc main_v43_1) := fun i =>
  (outsAt4 W c (pt (i 0) 3).val (pt (i 0) 3).isLt).2.1 (ix3 (0 : Fin 1) (i 1) (i 2))

/-- Where a last-tile point's block of the spatial-center array sits. -/
theorem emb4 (t : Fin cfg4.N) (j : S1x256x2.Idx) :
    ((cfg4.win 4).blk t).view.emb j
      = ix3 (⟨t.val / 4, by have := t.isLt; have : cfg4.N = 16 := N_4; omega⟩ : Fin 4) (j 1) (j 2) := by
  funext a; apply Fin.ext
  obtain ⟨-, -, -, -, -, -, -, -, -, -, -, -, e0, e1, e2⟩ := idx_facts t
  have hj0 : (j 0).val < 1 := (j 0).isLt
  match a with
  | ⟨0, _⟩ => show win4_4.index t (0 : Fin 3) * 1 + 1 * (j 0).val = t.val / 4; rw [e0]; omega
  | ⟨1, _⟩ => show win4_4.index t (1 : Fin 3) * 256 + 1 * (j 1).val = (j 1).val; rw [e1]; omega
  | ⟨2, _⟩ => show win4_4.index t (2 : Fin 3) * 2 + 1 * (j 2).val = (j 2).val; rw [e2]; omega

/-- What a last-tile point writes back is its block of that function. -/
theorem flushed4 (c : Dev nD) (t : Fin cfg4.N) (hf : (cfg4.win 4).flush t = true) :
    (dat4 W c).flushed 4 t = ((cfg4.win 4).blk t).view.read (Elt F) (G4 W c) := by
  have h3 : t.val % 4 = 3 := (flush4_4 t).mp hf
  show (cfg4.win 4).cut (grid4.coords t) ((dat4 W c).after 4 t) = _
  rw [after4_4]
  funext j
  show (outsAt4 W c t.val t.isLt).2.1 j = G4 W c (((cfg4.win 4).blk t).view.emb j)
  rw [emb4 t j]
  unfold G4
  have hb : t.val / 4 < 4 := by have := t.isLt; have : cfg4.N = 16 := N_4; omega
  have hj0 : (j 0).val < 1 := (j 0).isLt
  have hj : j = ix3 (0 : Fin 1) (j 1) (j 2) := by
    funext a
    match a with
    | ⟨0, _⟩ => exact Fin.ext (show (j 0).val = 0 by omega)
    | ⟨1, _⟩ => rfl
    | ⟨2, _⟩ => rfl
  have hn : (pt (⟨t.val / 4, by have := t.isLt; have : cfg4.N = 16 := N_4; omega⟩ : Fin 4) 3).val = t.val := by
    show 4 * (t.val / 4) + (3 : Fin 4).val = t.val
    have : ((3 : Fin 4) : ℕ) = 3 := rfl
    omega
  show _ = (outsAt4 W c (pt (⟨t.val / 4, hb⟩ : Fin 4) 3).val (pt (⟨t.val / 4, hb⟩ : Fin 4) 3).isLt).2.1 (ix3 (0 : Fin 1) (j 1) (j 2))
  rw [outsAt4_congr W c hn _ t.isLt]
  exact congrArg _ hj

/-- An index of the array is in a point's block iff each coordinate is in the block's range on its axis. -/
theorem mem_blk4 (t : Fin cfg4.N) (i : S4x256x2.Idx) :
    i ∈ ((cfg4.win 4).blk t).view.set ↔ ∀ a : Fin 3, win4_4.index t a * S1x256x2.size a ≤ (i a).val ∧ (i a).val < win4_4.index t a * S1x256x2.size a + S1x256x2.size a := by
  show i ∈ ((View.whole main_v43_1).slice (win4_4.rect t)).set ↔ _
  rw [View.set_slice_whole, Rect.mem_set_unit]
  exact Iff.rfl

/-- Every index of the array is in the block of its batch's last tile. -/
theorem cover4 (i : S4x256x2.Idx) :
    ∃ t : Fin cfg4.N, (cfg4.win 4).flush t = true ∧ i ∈ ((cfg4.win 4).blk t).view.set := by
  have hi0 : (i 0).val < 4 := (i 0).isLt
  have hi1 : (i 1).val < 256 := (i 1).isLt
  have hi2 : (i 2).val < 2 := (i 2).isLt
  refine ⟨⟨4 * (i 0).val + 3, by have : cfg4.N = 16 := N_4; omega⟩, (flush4_4 _).mpr (by show (4 * (i 0).val + 3) % 4 = 3; omega), ?_⟩
  rw [mem_blk4]
  obtain ⟨-, -, -, -, -, -, -, -, -, -, -, -, e0, e1, e2⟩ := idx_facts ⟨4 * (i 0).val + 3, by have : cfg4.N = 16 := N_4; omega⟩
  intro a
  match a with
  | ⟨0, _⟩ => show win4_4.index _ (0 : Fin 3) * 1 ≤ (i 0).val ∧ (i 0).val < win4_4.index _ (0 : Fin 3) * 1 + 1; rw [e0]; show (4 * (i 0).val + 3) / 4 * 1 ≤ (i 0).val ∧ (i 0).val < (4 * (i 0).val + 3) / 4 * 1 + 1; omega
  | ⟨1, _⟩ => show win4_4.index _ (1 : Fin 3) * 256 ≤ (i 1).val ∧ (i 1).val < win4_4.index _ (1 : Fin 3) * 256 + 256; rw [e1]; omega
  | ⟨2, _⟩ => show win4_4.index _ (2 : Fin 3) * 2 ≤ (i 2).val ∧ (i 2).val < win4_4.index _ (2 : Fin 3) * 2 + 2; rw [e2]; omega

/-- The spatial-center array after the round. -/
theorem final4 (c : Dev nD) : (dat4 W c).arrAt 4 cfg4.N = G4 W c :=
  (dat4 W c).arrAt_eq_of_cover 4 (G4 W c) (fun t hf => flushed4 W c t hf) (cover4)

/-! ## The assignment output: its array after the round -/

/-- The sixth window's index map: (batch, tile, 0). -/
theorem idx_facts5 : ∀ t : Fin cfg4.N,
    win4_5.index t (0 : Fin 3) = t.val / 4 ∧ win4_5.index t (1 : Fin 3) = t.val % 4 ∧ win4_5.index t (2 : Fin 3) = 0 :=
  (by decide +kernel : ∀ t : Fin grid4.N, _)

/-- What the assignment array holds after the round: rows n x 4096 .. of image b are what tile n of batch b stored. -/
def G5 (c : Dev nD) : Buf (Elt F) ((c : Thread nD τ).loc main_v43_2) := fun i =>
  (outsAt4 W c (4 * (i 0).val + (i 1).val / 4096) (by have h0 : (i 0).val < 4 := (i 0).isLt; have h1 : (i 1).val < 16384 := (i 1).isLt; have : cfg4.N = 16 := N_4; omega)).2.2.2.2.2
    (ix3 (0 : Fin 1) (⟨(i 1).val % 4096, Nat.mod_lt _ (by norm_num)⟩ : Fin 4096) (i 2))

theorem emb5 (t : Fin cfg4.N) (j : S1x4096x256.Idx) :
    ((cfg4.win 5).blk t).view.emb j
      = ix3 (⟨t.val / 4, by have := t.isLt; have : cfg4.N = 16 := N_4; omega⟩ : Fin 4)
          (⟨t.val % 4 * 4096 + (j 1).val, by have : (j 1).val < 4096 := (j 1).isLt; omega⟩ : Fin 16384) (j 2) := by
  funext a; apply Fin.ext
  obtain ⟨e0, e1, e2⟩ := idx_facts5 t
  have hj0 : (j 0).val < 1 := (j 0).isLt
  match a with
  | ⟨0, _⟩ => show win4_5.index t (0 : Fin 3) * 1 + 1 * (j 0).val = t.val / 4; rw [e0]; omega
  | ⟨1, _⟩ => show win4_5.index t (1 : Fin 3) * 4096 + 1 * (j 1).val = t.val % 4 * 4096 + (j 1).val; rw [e1]; omega
  | ⟨2, _⟩ => show win4_5.index t (2 : Fin 3) * 256 + 1 * (j 2).val = (j 2).val; rw [e2]; omega

/-- What every point writes back is its block of that function. -/
theorem flushed5 (c : Dev nD) (t : Fin cfg4.N) (hf : (cfg4.win 5).flush t = true) :
    (dat4 W c).flushed 5 t = ((cfg4.win 5).blk t).view.read (Elt F) (G5 W c) := by
  show (cfg4.win 5).cut (grid4.coords t) ((dat4 W c).after 5 t) = _
  rw [after4_5]
  funext j
  show (outsAt4 W c t.val t.isLt).2.2.2.2.2 j = G5 W c (((cfg4.win 5).blk t).view.emb j)
  rw [emb5 t j]
  unfold G5
  have hj0 : (j 0).val < 1 := (j 0).isLt
  have hj1 : (j 1).val < 4096 := (j 1).isLt
  have hj : j = ix3 (0 : Fin 1) (⟨(t.val % 4 * 4096 + (j 1).val) % 4096, Nat.mod_lt _ (by norm_num)⟩ : Fin 4096) (j 2) := by
    funext a
    match a with
    | ⟨0, _⟩ => exact Fin.ext (show (j 0).val = 0 by omega)
    | ⟨1, _⟩ => exact Fin.ext (show (j 1).val = (t.val % 4 * 4096 + (j 1).val) % 4096 by omega)
    | ⟨2, _⟩ => rfl
  have hn : 4 * (t.val / 4) + (t.val % 4 * 4096 + (j 1).val) / 4096 = t.val := by omega
  show _ = (outsAt4 W c (4 * (t.val / 4) + (t.val % 4 * 4096 + (j 1).val) / 4096) _).2.2.2.2.2
      (ix3 (0 : Fin 1) (⟨(t.val % 4 * 4096 + (j 1).val) % 4096, Nat.mod_lt _ (by norm_num)⟩ : Fin 4096) (j 2))
  exact congrArg₂ (fun (o : Outs4 F) (y : S1x4096x256.Idx) => o.2.2.2.2.2 y) (outsAt4_congr W c hn _ t.isLt).symm hj

theorem mem_blk5 (t : Fin cfg4.N) (i : S4x16384x256.Idx) :
    i ∈ ((cfg4.win 5).blk t).view.set ↔ ∀ a : Fin 3, win4_5.index t a * S1x4096x256.size a ≤ (i a).val ∧ (i a).val < win4_5.index t a * S1x4096x256.size a + S1x4096x256.size a := by
  show i ∈ ((View.whole main_v43_2).slice (win4_5.rect t)).set ↔ _
  rw [View.set_slice_whole, Rect.mem_set_unit]
  exact Iff.rfl

/-- Every index of the array is in the block of its batch's tile. -/
theorem cover5 (i : S4x16384x256.Idx) :
    ∃ t : Fin cfg4.N, (cfg4.win 5).flush t = true ∧ i ∈ ((cfg4.win 5).blk t).view.set := by
  have hi0 : (i 0).val < 4 := (i 0).isLt
  have hi1 : (i 1).val < 16384 := (i 1).isLt
  have hi2 : (i 2).val < 256 := (i 2).isLt
  refine ⟨⟨4 * (i 0).val + (i 1).val / 4096, by have : cfg4.N = 16 := N_4; omega⟩, flush4_5 _, ?_⟩
  rw [mem_blk5]
  obtain ⟨e0, e1, e2⟩ := idx_facts5 ⟨4 * (i 0).val + (i 1).val / 4096, by have : cfg4.N = 16 := N_4; omega⟩
  intro a
  match a with
  | ⟨0, _⟩ => show win4_5.index _ (0 : Fin 3) * 1 ≤ (i 0).val ∧ (i 0).val < win4_5.index _ (0 : Fin 3) * 1 + 1; rw [e0]; show (4 * (i 0).val + (i 1).val / 4096) / 4 * 1 ≤ (i 0).val ∧ (i 0).val < (4 * (i 0).val + (i 1).val / 4096) / 4 * 1 + 1; omega
  | ⟨1, _⟩ => show win4_5.index _ (1 : Fin 3) * 4096 ≤ (i 1).val ∧ (i 1).val < win4_5.index _ (1 : Fin 3) * 4096 + 4096; rw [e1]; show (4 * (i 0).val + (i 1).val / 4096) % 4 * 4096 ≤ (i 1).val ∧ (i 1).val < (4 * (i 0).val + (i 1).val / 4096) % 4 * 4096 + 4096; omega
  | ⟨2, _⟩ => show win4_5.index _ (2 : Fin 3) * 256 ≤ (i 2).val ∧ (i 2).val < win4_5.index _ (2 : Fin 3) * 256 + 256; rw [e2]; omega

/-- The assignment array after the round. -/
theorem final5 (c : Dev nD) : (dat4 W c).arrAt 5 cfg4.N = G5 W c :=
  (dat4 W c).arrAt_eq_of_cover 5 (G5 W c) (fun t hf => flushed5 W c t hf) (cover5)

end Cert.KernelIdeal.Slic.R4

end
-- ==== Proof.K4Same.lean ====
/-
  Round five runs the first round's arithmetic again under other names, with one more output: the weights
  themselves. Value by value its pure values are the first round's; the three accumulator stores, composed
  with the partial products they take, are the first round's accumulator updates.
-/
import proofs.«138879_j15556371546814_2_alg».proof.Proof.Gen.KernelIdeal.Skeleton

noncomputable section

namespace Cert.Proof.Slic.KPay

open Cert.KernelIdeal Cert.KernelIdeal.Gen
open Idealize.ShloMosaic

variable {F : FTy → Type} [FloatOps F]

/-! ## The values that are the first round's -/

theorem k4_pay3_eq : k4_pay3 (F := F) = k0_pay2 (F := F) := rfl
theorem k4_pay4_eq : k4_pay4 (F := F) = k0_pay3 (F := F) := rfl
theorem k4_pay5_eq : k4_pay5 (F := F) = k0_pay4 (F := F) := rfl
theorem k4_pay6_eq : k4_pay6 (F := F) = k0_pay5 (F := F) := rfl
theorem k4_pay7_eq : k4_pay7 (F := F) = k0_pay6 (F := F) := rfl
theorem k4_pay8_eq : k4_pay8 (F := F) = k0_pay7 (F := F) := rfl
theorem k4_pay9_eq : k4_pay9 (F := F) = k0_pay8 (F := F) := rfl
theorem k4_pay10_eq : k4_pay10 (F := F) = k0_pay9 (F := F) := rfl
theorem k4_pay11_eq : k4_pay11 (F := F) = k0_pay10 (F := F) := rfl
theorem k4_pay12_eq : k4_pay12 (F := F) = k0_pay11 (F := F) := rfl
theorem k4_pay13_eq (i : grid4.Coords) : k4_pay13 (F := F) i = k0_pay12 (F := F) i := rfl
theorem k4_pay14_eq : k4_pay14 (F := F) = k0_pay13 (F := F) := rfl
theorem k4_pay16_eq : k4_pay16 (F := F) = k0_pay14 (F := F) := rfl
theorem k4_pay18_eq : k4_pay18 (F := F) = k0_pay15 (F := F) := rfl

/-! ## The three accumulator stores -/

/-- The spectra accumulator's store is the first round's update of it. -/
theorem k4_acc_spectra (v4 : FVec F S4096x200 .bf16) (v8 : FVec F S256x2 .f32) (d : FVec F S4096x256 .f32)
    (py px : FVec F S4096x1 .f32) (a : Vec F S256x200 .f32) :
    k4_pay1 (k4_pay20 v4 v8 d py px a) = k0_pay16 v4 v8 d py px a := rfl

/-- The coordinate accumulator's store is the first round's update of it. -/
theorem k4_acc_coords (v8 : FVec F S256x2 .f32) (d : FVec F S4096x256 .f32) (py px : FVec F S4096x1 .f32)
    (a : Vec F S256x2 .f32) :
    k4_pay2 (k4_pay17 v8 d py px) a = k0_pay1 (k0_pay17 v8 d py px a) := rfl

/-- The mass accumulator's store is the first round's update of it. -/
theorem k4_acc_mass (v8 : FVec F S256x2 .f32) (d : FVec F S4096x256 .f32) (py px : FVec F S4096x1 .f32)
    (a : Vec F S256x1 .f32) :
    k4_pay3 (k4_pay18 v8 d py px) a = k0_pay2 (k0_pay15 v8 d py px) a := rfl

end Cert.Proof.Slic.KPay

end
-- ==== Proof.K4Pay.lean ====
/-
  Round five's extra values, read at an index: the weights before they are narrowed and the weights block
  the round writes out are the first round's weights, entry by entry; the spatial partial product alone is the
  sum over the tile's rows of the weights times the pixel coordinates.
-/
import proofs.«138879_j15556371546814_2_alg».proof.Proof.KPay3
import proofs.«138879_j15556371546814_2_alg».proof.Proof.KPay4
import proofs.«138879_j15556371546814_2_alg».proof.Proof.K4Same

noncomputable section

namespace Cert.Proof.Slic.KPay

open Cert.KernelIdeal Cert.KernelIdeal.Gen
open Idealize.ShloMosaic Idealize.ShloMosaic.ValueIdx
open scoped BigOperators

/-- The weights before narrowing are the narrowed weights, the narrowing being the identity at the ideal values. -/
theorem k4_pay15_apply (v8 : FVec Ideal S256x2 .f32) (d : FVec Ideal S4096x256 .f32) (py px : FVec Ideal S4096x1 .f32)
    (j : S4096x256.Idx) : k4_pay15 (F := Ideal) v8 d py px j = k0_pay14 (F := Ideal) v8 d py px j := rfl

/-- The weights block the round writes out, entry by entry. -/
theorem k4_pay19_apply (v8 : FVec Ideal S256x2 .f32) (d : FVec Ideal S4096x256 .f32) (py px : FVec Ideal S4096x1 .f32)
    (u : Fin 1) (r : Fin 4096) (k : Fin 256) :
    k4_pay19 (F := Ideal) v8 d py px (ix3 u r k) = k0_pay14 (F := Ideal) v8 d py px (ix2 r k) := by
  unfold k4_pay19
  exact (shapeCast_ab_1ab_apply _ _ u r k).trans (k4_pay15_apply v8 d py px _)

/-- The weights before narrowing at pixel row `r` and center `k`. -/
theorem k4_pay15_weights (v8 : FVec Ideal S256x2 .f32) (d : FVec Ideal S4096x256 .f32) (py px : FVec Ideal S4096x1 .f32)
    (r : Fin 4096) (k : Fin 256) :
    k4_pay15 (F := Ideal) v8 d py px (ix2 r k)
      = Ideal.div
          (Ideal.exp (zK v8 d py px r k - (Finset.univ : Finset (Fin 256)).fold max ⊥ (fun k' => zK v8 d py px r k')))
          (∑ k' : Fin 256, Ideal.exp (zK v8 d py px r k'
            - (Finset.univ : Finset (Fin 256)).fold max ⊥ (fun k'' => zK v8 d py px r k''))) :=
  (k4_pay15_apply v8 d py px _).trans (pay14_apply v8 d py px r k)

/-- The weights block the round writes out at pixel row `r` and center `k`. -/
theorem k4_pay19_weights (v8 : FVec Ideal S256x2 .f32) (d : FVec Ideal S4096x256 .f32) (py px : FVec Ideal S4096x1 .f32)
    (u : Fin 1) (r : Fin 4096) (k : Fin 256) :
    k4_pay19 (F := Ideal) v8 d py px (ix3 u r k)
      = Ideal.div
          (Ideal.exp (zK v8 d py px r k - (Finset.univ : Finset (Fin 256)).fold max ⊥ (fun k' => zK v8 d py px r k')))
          (∑ k' : Fin 256, Ideal.exp (zK v8 d py px r k'
            - (Finset.univ : Finset (Fin 256)).fold max ⊥ (fun k'' => zK v8 d py px r k''))) :=
  (k4_pay19_apply v8 d py px u r k).trans (pay14_apply v8 d py px r k)

/-- The spatial partial product alone: the tile's weighted pixel coordinates, the row coordinate in column 0
    and the column coordinate in column 1. -/
theorem k4_pay17_apply (v8 : FVec Ideal S256x2 .f32) (d : FVec Ideal S4096x256 .f32) (py px : FVec Ideal S4096x1 .f32)
    (k : Fin 256) (j : Fin 2) :
    k4_pay17 (F := Ideal) v8 d py px (ix2 k j)
      = ∑ r : Fin 4096, k0_pay14 (F := Ideal) v8 d py px (ix2 r k)
          * (if j = 0 then py (ix2 r (0 : Fin 1)) else px (ix2 r (0 : Fin 1))) := by
  unfold k4_pay17
  refine (matmul_tn_apply _ none _ _ k j).trans ?_
  refine Finset.sum_congr rfl fun r _ => ?_
  refine congrArg (fun t : EReal => k0_pay14 (F := Ideal) v8 d py px (ix2 r k) * t) ?_
  match j with
  | ⟨0, _⟩ => exact (concat_cols_apply0 py px concatenates_S4096x1_S4096x1_S4096x2_d1 r).trans (if_pos rfl).symm
  | ⟨1, _⟩ =>
    exact (concat_cols_apply1 py px concatenates_S4096x1_S4096x1_S4096x2_d1 r).trans
      (if_neg (fun e => absurd (congrArg Fin.val e) Nat.one_ne_zero)).symm

end Cert.Proof.Slic.KPay

end
-- ==== Proof.K4Tile.lean ====
/-
  Round five against the round's specification, under its own names. A tile's weights, its weights block and
  its update of the three accumulators, and a batch's accumulators and the two quotients written after its last
  tile, are the specification's: round five's values are the first round's, so each statement is the first
  round's, read through the equalities of the values.
-/
import proofs.«138879_j15556371546814_2_alg».proof.Proof.KBatch
import proofs.«138879_j15556371546814_2_alg».proof.Proof.K4Pay

noncomputable section

namespace Cert.Proof.Slic.KPay

open Cert.KernelIdeal Cert.KernelIdeal.Gen Cert.KernelIdeal.Slic
open Idealize.ShloMosaic Idealize.ShloMosaic.ValueIdx
open scoped BigOperators

section Update
variable {F : FTy → Type} [FloatOps F]

/-- One tile's update of the accumulators in round five, from the tile's blocks and coordinate. -/
def upd4 (x0 : Vec F S1x4096x200 .bf16) (x1 : Vec F S1x256x200 .f32) (x2 : Vec F S1x256x2 .f32) (i : grid4.Coords)
    (a : R0.Acc F) : R0.Acc F :=
  (k4_pay1 (k4_pay20 (k4_pay10 x0) (k4_pay11 x2) (k4_pay12 x0 x1) (k4_pay13 i) k4_pay14 a.1),
   k4_pay2 (k4_pay17 (k4_pay11 x2) (k4_pay12 x0 x1) (k4_pay13 i) k4_pay14) a.2.1,
   k4_pay3 (k4_pay18 (k4_pay11 x2) (k4_pay12 x0 x1) (k4_pay13 i) k4_pay14) a.2.2)

/-- The zero splats round five's reset stores. -/
def acc04 : R0.Acc F := (k4_pay7, k4_pay8, k4_pay9)

/-- Round five's update is the first round's. -/
theorem upd4_eq (x0 : Vec F S1x4096x200 .bf16) (x1 : Vec F S1x256x200 .f32) (x2 : Vec F S1x256x2 .f32) (i : grid4.Coords)
    (a : R0.Acc F) : upd4 x0 x1 x2 i a = R0.upd x0 x1 x2 i a := rfl

/-- Round five's reset is the first round's. -/
theorem acc04_eq : acc04 (F := F) = R0.acc0 := rfl

end Update

/-- The tile's blocks and coordinates are those of tile `a` of batch `b` of the arrays, under round five's names. -/
structure IsTile4 (x0 : Vec Ideal S1x4096x200 .bf16) (x1 : Vec Ideal S1x256x200 .f32) (x2 : Vec Ideal S1x256x2 .f32)
    (i : grid4.Coords) (X : Spec.XT) (P : Spec.PT) (CS : Spec.CS) (CP : Spec.CP) (b a : Fin 4) : Prop where
  hx : ∀ (r : Fin 4096) (c : Fin 200), x0 (ix3 0 r c) = X b ⟨a.val * 4096 + r.val, by omega⟩ c
  hcs : ∀ (k : Fin 256) (c : Fin 200), x1 (ix3 0 k c) = CS b k c
  hcp : ∀ (k : Fin 256) (j : Fin 2), x2 (ix3 0 k j) = CP b k j
  hpy : ∀ r : Fin 4096, k4_pay13 (F := Ideal) i (ix2 r 0) = P ⟨a.val * 4096 + r.val, by omega⟩ 0
  hpx : ∀ r : Fin 4096, k4_pay14 (F := Ideal) (ix2 r 0) = P ⟨a.val * 4096 + r.val, by omega⟩ 1

section Tile
variable {x0 : Vec Ideal S1x4096x200 .bf16} {x1 : Vec Ideal S1x256x200 .f32} {x2 : Vec Ideal S1x256x2 .f32}
  {i : grid4.Coords} {X : Spec.XT} {P : Spec.PT} {CS : Spec.CS} {CP : Spec.CP} {b a : Fin 4}

/-- A tile under round five's names is a tile under the first round's. -/
theorem IsTile4.toIsTile (h : IsTile4 x0 x1 x2 i X P CS CP b a) : IsTile x0 x1 x2 i X P CS CP b a :=
  ⟨h.hx, h.hcs, h.hcp, h.hpy, h.hpx⟩

/-- Round five's narrowed weights on the tile are the specification's weights. -/
theorem tile_q4 (h : IsTile4 x0 x1 x2 i X P CS CP b a) (r : Fin 4096) (k : Fin 256) :
    k4_pay16 (F := Ideal) (k4_pay11 (F := Ideal) x2) (k4_pay12 (F := Ideal) x0 x1) (k4_pay13 (F := Ideal) i)
        (k4_pay14 (F := Ideal)) (ix2 r k)
      = Spec.qK Spec.wordsI X P CS CP b (tileRow a r) k := by
  rw [k4_pay16_eq, k4_pay11_eq, k4_pay12_eq, k4_pay13_eq, k4_pay14_eq]
  exact tile_q h.toIsTile r k

/-- The weights block round five writes out for the tile holds the specification's weights. -/
theorem tile_Q (h : IsTile4 x0 x1 x2 i X P CS CP b a) (u : Fin 1) (r : Fin 4096) (k : Fin 256) :
    k4_pay19 (F := Ideal) (k4_pay11 (F := Ideal) x2) (k4_pay12 (F := Ideal) x0 x1) (k4_pay13 (F := Ideal) i)
        (k4_pay14 (F := Ideal)) (ix3 u r k)
      = Spec.qK Spec.wordsI X P CS CP b (tileRow a r) k := by
  rw [k4_pay19_apply, k4_pay11_eq, k4_pay12_eq, k4_pay13_eq, k4_pay14_eq]
  exact tile_q h.toIsTile r k

/-- The tile's update of the three accumulators in round five, for any previous accumulators. -/
theorem tile_upd4' (h : IsTile4 x0 x1 x2 i X P CS CP b a) (a1 : Vec Ideal S256x200 .f32) (a2 : Vec Ideal S256x2 .f32)
    (a3 : Vec Ideal S256x1 .f32) (k : Fin 256) :
    (∀ c : Fin 200,
        k4_pay1 (F := Ideal) (k4_pay20 (F := Ideal) (k4_pay10 (F := Ideal) x0) (k4_pay11 (F := Ideal) x2)
            (k4_pay12 (F := Ideal) x0 x1) (k4_pay13 (F := Ideal) i) (k4_pay14 (F := Ideal)) a1) (ix2 k c)
          = a1 (ix2 k c) + ∑ r : Fin 4096, Spec.qK Spec.wordsI X P CS CP b (tileRow a r) k * X b (tileRow a r) c)
    ∧ (∀ j : Fin 2,
        k4_pay2 (F := Ideal) (k4_pay17 (F := Ideal) (k4_pay11 (F := Ideal) x2) (k4_pay12 (F := Ideal) x0 x1)
            (k4_pay13 (F := Ideal) i) (k4_pay14 (F := Ideal))) a2 (ix2 k j)
          = a2 (ix2 k j) + ∑ r : Fin 4096, Spec.qK Spec.wordsI X P CS CP b (tileRow a r) k * P (tileRow a r) j)
    ∧ (k4_pay3 (F := Ideal) (k4_pay18 (F := Ideal) (k4_pay11 (F := Ideal) x2) (k4_pay12 (F := Ideal) x0 x1)
            (k4_pay13 (F := Ideal) i) (k4_pay14 (F := Ideal))) a3 (ix2 k 0)
          = a3 (ix2 k 0) + ∑ r : Fin 4096, Spec.qK Spec.wordsI X P CS CP b (tileRow a r) k * Spec.wordsI.one) := by
  rw [k4_acc_spectra, k4_acc_coords, k4_acc_mass, k4_pay10_eq, k4_pay11_eq, k4_pay12_eq, k4_pay13_eq, k4_pay14_eq]
  exact tile_upd' h.toIsTile a1 a2 a3 k

/-- The same, as one function of the accumulators. -/
theorem tile_upd4 (h : IsTile4 x0 x1 x2 i X P CS CP b a) (acc : R0.Acc Ideal) (k : Fin 256) :
    (∀ c : Fin 200, (upd4 x0 x1 x2 i acc).1 (ix2 k c)
        = acc.1 (ix2 k c) + ∑ r : Fin 4096, Spec.qK Spec.wordsI X P CS CP b (tileRow a r) k * X b (tileRow a r) c)
    ∧ (∀ j : Fin 2, (upd4 x0 x1 x2 i acc).2.1 (ix2 k j)
        = acc.2.1 (ix2 k j) + ∑ r : Fin 4096, Spec.qK Spec.wordsI X P CS CP b (tileRow a r) k * P (tileRow a r) j)
    ∧ ((upd4 x0 x1 x2 i acc).2.2 (ix2 k 0)
        = acc.2.2 (ix2 k 0) + ∑ r : Fin 4096, Spec.qK Spec.wordsI X P CS CP b (tileRow a r) k * Spec.wordsI.one) :=
  tile_upd4' h acc.1 acc.2.1 acc.2.2 k

end Tile

section Batch
variable {X : Spec.XT} {P : Spec.PT} {CS : Spec.CS} {CP : Spec.CP} {b : Fin 4}
variable (x0 : Fin 4 → Vec Ideal S1x4096x200 .bf16) (x1 : Fin 4 → Vec Ideal S1x256x200 .f32)
  (x2 : Fin 4 → Vec Ideal S1x256x2 .f32) (i : Fin 4 → grid4.Coords)

/-- The accumulators after a batch's four tiles in round five, in order, from the zero splats. -/
def accB4 : R0.Acc Ideal :=
  upd4 (x0 3) (x1 3) (x2 3) (i 3) (upd4 (x0 2) (x1 2) (x2 2) (i 2)
    (upd4 (x0 1) (x1 1) (x2 1) (i 1) (upd4 (x0 0) (x1 0) (x2 0) (i 0) acc04)))

/-- They are the first round's. -/
theorem accB4_eq : accB4 x0 x1 x2 i = accB x0 x1 x2 i := by
  unfold accB4 accB
  simp only [upd4_eq, acc04_eq]

variable {x0 x1 x2 i}

/-- After the four tiles each accumulator holds the specification's sum over the 16384 pixels, taken tile by
    tile from the zero word. -/
theorem batch_acc4 (h : ∀ a : Fin 4, IsTile4 (x0 a) (x1 a) (x2 a) (i a) X P CS CP b a) :
    (∀ (k : Fin 256) (c : Fin 200), (accB4 x0 x1 x2 i).1 (ix2 k c)
        = Spec.sumTiles Spec.wordsI.zero (fun n => Spec.qK Spec.wordsI X P CS CP b n k * X b n c))
    ∧ (∀ (k : Fin 256) (j : Fin 2), (accB4 x0 x1 x2 i).2.1 (ix2 k j)
        = Spec.sumTiles Spec.wordsI.zero (fun n => Spec.qK Spec.wordsI X P CS CP b n k * P n j))
    ∧ (∀ k : Fin 256, (accB4 x0 x1 x2 i).2.2 (ix2 k 0)
        = Spec.sumTiles Spec.wordsI.zero (fun n => Spec.qK Spec.wordsI X P CS CP b n k * Spec.wordsI.one)) := by
  rw [accB4_eq]
  exact batch_acc fun a => (h a).toIsTile

/-- The new centers round five writes after the batch's last tile are the specification's. -/
theorem batch_cs4 (h : ∀ a : Fin 4, IsTile4 (x0 a) (x1 a) (x2 a) (i a) X P CS CP b a) (k : Fin 256) (c : Fin 200) :
    k4_pay5 (F := Ideal) (accB4 x0 x1 x2 i).2.2 (accB4 x0 x1 x2 i).1 (ix3 0 k c)
      = Spec.csK Spec.wordsI X (Spec.qK Spec.wordsI X P CS CP) b k c := by
  rw [accB4_eq, k4_pay5_eq]
  exact batch_cs (fun a => (h a).toIsTile) k c

/-- The new center coordinates round five writes after the batch's last tile are the specification's. -/
theorem batch_cp4 (h : ∀ a : Fin 4, IsTile4 (x0 a) (x1 a) (x2 a) (i a) X P CS CP b a) (k : Fin 256) (j : Fin 2) :
    k4_pay6 (F := Ideal) (accB4 x0 x1 x2 i).2.2 (accB4 x0 x1 x2 i).2.1 (ix3 0 k j)
      = Spec.cpK Spec.wordsI P (Spec.qK Spec.wordsI X P CS CP) b k j := by
  rw [accB4_eq, k4_pay6_eq]
  exact batch_cp (fun a => (h a).toIsTile) k j

end Batch

end Cert.Proof.Slic.KPay

end
-- ==== Proof.K4Round.lean ====
/-
  Round five against the round's specification, over the round's own pieces: one tile's update of the
  accumulators, the zero splats, and the tile's block of the weights. The update and the splats are the first
  round's, so a tile's update, a batch's accumulators and the two quotients written after its last tile are the
  specification's as in the first round; the weights block holds the specification's weights.
-/
import proofs.«138879_j15556371546814_2_alg».proof.Proof.K4Tile
import proofs.«138879_j15556371546814_2_alg».proof.Proof.I4Pieces

noncomputable section

namespace Cert.Proof.Slic.KPay

open Cert.KernelIdeal Cert.KernelIdeal.Gen Cert.KernelIdeal.Slic
open Idealize.ShloMosaic Idealize.ShloMosaic.ValueIdx
open scoped BigOperators

section Update
variable {F : FTy → Type} [FloatOps F]

/-- Round five's update of the accumulators is the first round's. -/
theorem r4_upd_eq (x0 : Vec F S1x4096x200 .bf16) (x1 : Vec F S1x256x200 .f32) (x2 : Vec F S1x256x2 .f32) (i : grid4.Coords)
    (a : R4.Acc F) : R4.upd x0 x1 x2 i a = R0.upd x0 x1 x2 i a := rfl

/-- Round five's zero splats are the first round's. -/
theorem r4_acc0_eq : R4.acc0 (F := F) = R0.acc0 := rfl

end Update

section Tile
variable {x0 : Vec Ideal S1x4096x200 .bf16} {x1 : Vec Ideal S1x256x200 .f32} {x2 : Vec Ideal S1x256x2 .f32}
  {i : grid4.Coords} {X : Spec.XT} {P : Spec.PT} {CS : Spec.CS} {CP : Spec.CP} {b a : Fin 4}

/-- A tile under the first round's names is a tile under round five's. -/
theorem IsTile.toIsTile4 (h : IsTile x0 x1 x2 i X P CS CP b a) : IsTile4 x0 x1 x2 i X P CS CP b a :=
  ⟨h.hx, h.hcs, h.hcp, h.hpy, h.hpx⟩

/-- The tile's block of the weights holds the specification's weights. -/
theorem r4_tile_Q (h : IsTile x0 x1 x2 i X P CS CP b a) (u : Fin 1) (r : Fin 4096) (k : Fin 256) :
    R4.qblk (F := Ideal) x0 x1 x2 i (ix3 u r k) = Spec.qK Spec.wordsI X P CS CP b (tileRow a r) k := by
  unfold R4.qblk
  exact tile_Q h.toIsTile4 u r k

/-- The tile's update of the three accumulators in round five. -/
theorem r4_tile_upd (h : IsTile x0 x1 x2 i X P CS CP b a) (acc : R4.Acc Ideal) (k : Fin 256) :
    (∀ c : Fin 200, (R4.upd x0 x1 x2 i acc).1 (ix2 k c)
        = acc.1 (ix2 k c) + ∑ r : Fin 4096, Spec.qK Spec.wordsI X P CS CP b (tileRow a r) k * X b (tileRow a r) c)
    ∧ (∀ j : Fin 2, (R4.upd x0 x1 x2 i acc).2.1 (ix2 k j)
        = acc.2.1 (ix2 k j) + ∑ r : Fin 4096, Spec.qK Spec.wordsI X P CS CP b (tileRow a r) k * P (tileRow a r) j)
    ∧ ((R4.upd x0 x1 x2 i acc).2.2 (ix2 k 0)
        = acc.2.2 (ix2 k 0) + ∑ r : Fin 4096, Spec.qK Spec.wordsI X P CS CP b (tileRow a r) k * Spec.wordsI.one) := by
  rw [r4_upd_eq]
  exact tile_upd h acc k

end Tile

section Batch
variable {X : Spec.XT} {P : Spec.PT} {CS : Spec.CS} {CP : Spec.CP} {b : Fin 4}
variable (x0 : Fin 4 → Vec Ideal S1x4096x200 .bf16) (x1 : Fin 4 → Vec Ideal S1x256x200 .f32)
  (x2 : Fin 4 → Vec Ideal S1x256x2 .f32) (i : Fin 4 → grid4.Coords)

/-- The accumulators after a batch's four tiles in round five, in order, from the zero splats. -/
def r4_accB : R4.Acc Ideal :=
  R4.upd (x0 3) (x1 3) (x2 3) (i 3) (R4.upd (x0 2) (x1 2) (x2 2) (i 2)
    (R4.upd (x0 1) (x1 1) (x2 1) (i 1) (R4.upd (x0 0) (x1 0) (x2 0) (i 0) R4.acc0)))

/-- They are the first round's. -/
theorem r4_accB_eq : r4_accB x0 x1 x2 i = accB x0 x1 x2 i := by
  unfold r4_accB accB
  simp only [r4_upd_eq, r4_acc0_eq]

variable {x0 x1 x2 i}

/-- After the four tiles each accumulator holds the specification's sum over the 16384 pixels, taken tile by
    tile from the zero word. -/
theorem r4_batch_acc (h : ∀ a : Fin 4, IsTile (x0 a) (x1 a) (x2 a) (i a) X P CS CP b a) :
    (∀ (k : Fin 256) (c : Fin 200), (r4_accB x0 x1 x2 i).1 (ix2 k c)
        = Spec.sumTiles Spec.wordsI.zero (fun n => Spec.qK Spec.wordsI X P CS CP b n k * X b n c))
    ∧ (∀ (k : Fin 256) (j : Fin 2), (r4_accB x0 x1 x2 i).2.1 (ix2 k j)
        = Spec.sumTiles Spec.wordsI.zero (fun n => Spec.qK Spec.wordsI X P CS CP b n k * P n j))
    ∧ (∀ k : Fin 256, (r4_accB x0 x1 x2 i).2.2 (ix2 k 0)
        = Spec.sumTiles Spec.wordsI.zero (fun n => Spec.qK Spec.wordsI X P CS CP b n k * Spec.wordsI.one)) := by
  rw [r4_accB_eq]
  exact batch_acc h

/-- The new centers round five writes after the batch's last tile are the specification's. -/
theorem r4_batch_cs (h : ∀ a : Fin 4, IsTile (x0 a) (x1 a) (x2 a) (i a) X P CS CP b a) (k : Fin 256) (c : Fin 200) :
    k4_pay5 (F := Ideal) (r4_accB x0 x1 x2 i).2.2 (r4_accB x0 x1 x2 i).1 (ix3 0 k c)
      = Spec.csK Spec.wordsI X (Spec.qK Spec.wordsI X P CS CP) b k c := by
  rw [r4_accB_eq, k4_pay5_eq]
  exact batch_cs h k c

/-- The new center coordinates round five writes after the batch's last tile are the specification's. -/
theorem r4_batch_cp (h : ∀ a : Fin 4, IsTile (x0 a) (x1 a) (x2 a) (i a) X P CS CP b a) (k : Fin 256) (j : Fin 2) :
    k4_pay6 (F := Ideal) (r4_accB x0 x1 x2 i).2.2 (r4_accB x0 x1 x2 i).2.1 (ix3 0 k j)
      = Spec.cpK Spec.wordsI P (Spec.qK Spec.wordsI X P CS CP) b k j := by
  rw [r4_accB_eq, k4_pay6_eq]
  exact batch_cp h k j

end Batch

end Cert.Proof.Slic.KPay

end
-- ==== Proof.KRound4.lean ====
/-
  Round five of the kernel in the specification's terms. Point t = 4 b + a of the 4 x 4 grid stages tile a of
  batch b: its pixel block is rows 4096 a .. 4096 a + 4095 of the pixels of image b, its two center blocks are the
  centers of image b and their coordinates as the fourth round left them, and its row and column numbers are the
  coordinates of those pixels. So each tile is a tile of the specification's data; the four tiles of a batch
  accumulate the specification's tile-by-tile sums, and what the last tile of batch b writes back are the
  specification's new centers and new center coordinates; and the block of weights every tile writes out holds
  the specification's weights of its pixels.
-/
import proofs.«138879_j15556371546814_2_alg».proof.Proof.I4Arr
import proofs.«138879_j15556371546814_2_alg».proof.Proof.KRound0
import proofs.«138879_j15556371546814_2_alg».proof.Proof.K4Round
import proofs.«138879_j15556371546814_2_alg».proof.Proof.Pix

set_option maxRecDepth 16384

noncomputable section

namespace Cert.Proof.Slic.KRound

open Cert.KernelIdeal Cert.KernelIdeal.Gen Cert.KernelIdeal.Slic
open Idealize.ShloMosaic Idealize.ShloMosaic.TcCoe Idealize.ShloMosaic.ValueIdx
open Idealize.SL Idealize.SL.Sem
open Cert.Proof.Slic

variable (W : Dev nD → Valuation τ sig (Elt Ideal)) (c : Dev nD)

/-- The centers round five reads. -/
def CSof4 : Spec.CS := fun b k ch => W c (Proc.devRef .tc main_v42_0) (ix3 b k ch)
/-- The center coordinates round five reads. -/
def CPof4 : Spec.CP := fun b k j => W c (Proc.devRef .tc main_v42_1) (ix3 b k j)

/-- Point 4 b + a stages tile a of batch b of the specification's data. -/
theorem isTile4 (b a : Fin 4) :
    KPay.IsTile4 (R4.iblk4 W c 0 (R4.pt b a)) (R4.iblk4 W c 1 (R4.pt b a)) (R4.iblk4 W c 2 (R4.pt b a))
      (grid4.coords (R4.pt b a)) (Xof W c) pixSpec (CSof4 W c) (CPof4 W c) b a where
  hx r ch :=
    (R4.iblk4_0_apply W c (R4.pt b a) r ch).trans (congrArg (R4.WV W c main_v25)
      (ix3_congr (by show (4 * b.val + a.val) / 4 = b.val; omega)
        (by show (4 * b.val + a.val) % 4 * 4096 + r.val = a.val * 4096 + r.val; omega) rfl))
  hcs k ch :=
    (R4.iblk4_1_apply W c (R4.pt b a) k ch).trans (congrArg (R4.WV W c main_v42_0)
      (ix3_congr (by show (4 * b.val + a.val) / 4 = b.val; omega) rfl rfl))
  hcp k j :=
    (R4.iblk4_2_apply W c (R4.pt b a) k j).trans (congrArg (R4.WV W c main_v42_1)
      (ix3_congr (by show (4 * b.val + a.val) / 4 = b.val; omega) rfl rfl))
  hpy r :=
    (KPay.k4_pay13_eq (F := Ideal) (grid4.coords (R4.pt b a)) ▸ rfl :
        k4_pay13 (F := Ideal) (grid4.coords (R4.pt b a)) (ix2 r (0 : Fin 1))
          = k0_pay12 (F := Ideal) (grid4.coords (R4.pt b a)) (ix2 r (0 : Fin 1))).trans
    ((k0_pay12_apply (grid4.coords (R4.pt b a)) r).trans (congrArg (fun n => pixSpec n 0) (Fin.ext (by
      show (grid4.coords (R4.pt b a) 1).val * 4096 + r.val = a.val * 4096 + r.val
      rw [coords1_val]
      show (4 * b.val + a.val) % 4 * 4096 + r.val = a.val * 4096 + r.val
      omega))))
  hpx r :=
    (congrFun (KPay.k4_pay14_eq (F := Ideal)) (ix2 r (0 : Fin 1))).trans
    ((k0_pay13_apply (grid4.coords (R4.pt b a)) r).trans (congrArg (fun n => pixSpec n 1) (Fin.ext (by
      show (grid4.coords (R4.pt b a) 1).val * 4096 + r.val = a.val * 4096 + r.val
      rw [coords1_val]
      show (4 * b.val + a.val) % 4 * 4096 + r.val = a.val * 4096 + r.val
      omega))))

theorem pt3_ne4 (b : Fin 4) : ¬(R4.pt b 3).val % 4 = 0 := by
  show ¬(4 * b.val + (3 : Fin 4).val) % 4 = 0
  have : ((3 : Fin 4) : ℕ) = 3 := rfl
  omega

theorem pt3_eq4 (b : Fin 4) : (R4.pt b 3).val % 4 = 3 := by
  show (4 * b.val + (3 : Fin 4).val) % 4 = 3
  have : ((3 : Fin 4) : ℕ) = 3 := rfl
  omega

/-- After round five the assignment output holds the specification's weights. -/
theorem round4_q (b : Fin 4) (n : Fin 16384) (k : Fin 256) :
    (R4.dat4 W c).arrAt 5 cfg4.N (ix3 b n k)
      = Spec.qK Spec.wordsI (Xof W c) pixSpec (CSof4 W c) (CPof4 W c) b n k := by
  have ha : n.val / 4096 < 4 := by have := n.isLt; omega
  rw [R4.final5]
  show (R4.outsAt4 W c (R4.pt b ⟨n.val / 4096, ha⟩).val (R4.pt b ⟨n.val / 4096, ha⟩).isLt).2.2.2.2.2
      (ix3 (0 : Fin 1) (⟨n.val % 4096, Nat.mod_lt _ (by norm_num)⟩ : Fin 4096) k) = _
  refine (congrFun (R4.q_at W c (R4.pt b ⟨n.val / 4096, ha⟩)) _).trans ?_
  refine (KPay.r4_tile_Q (isTile4 W c b ⟨n.val / 4096, ha⟩).toIsTile (0 : Fin 1)
    (⟨n.val % 4096, Nat.mod_lt _ (by norm_num)⟩ : Fin 4096) k).trans ?_
  exact congrArg (fun m => Spec.qK Spec.wordsI (Xof W c) pixSpec (CSof4 W c) (CPof4 W c) b m k)
    (Fin.ext (Nat.div_add_mod' n.val 4096))

/-- After round five the spectral-center output holds the specification's new centers. -/
theorem round4_cs (b : Fin 4) (k : Fin 256) (ch : Fin 200) :
    (R4.dat4 W c).arrAt 3 cfg4.N (ix3 b k ch)
      = Spec.csK Spec.wordsI (Xof W c) (Spec.qK Spec.wordsI (Xof W c) pixSpec (CSof4 W c) (CPof4 W c)) b k ch := by
  rw [R4.final3]
  show (R4.outsAt4 W c (R4.pt b 3).val (R4.pt b 3).isLt).1 (ix3 (0 : Fin 1) k ch) = _
  rw [R4.out3_last W c (R4.pt b 3) (pt3_ne4 b) (pt3_eq4 b), ← R4.accAt_next W c (R4.pt b 3) (pt3_ne4 b),
    R4.accAt_batch W c b]
  exact KPay.r4_batch_cs (x0 := fun a => R4.iblk4 W c 0 (R4.pt b a)) (x1 := fun a => R4.iblk4 W c 1 (R4.pt b a))
    (x2 := fun a => R4.iblk4 W c 2 (R4.pt b a)) (i := fun a => grid4.coords (R4.pt b a))
    (fun a => (isTile4 W c b a).toIsTile) k ch

/-- After round five the spatial-center output holds the specification's new center coordinates. -/
theorem round4_cp (b : Fin 4) (k : Fin 256) (j : Fin 2) :
    (R4.dat4 W c).arrAt 4 cfg4.N (ix3 b k j)
      = Spec.cpK Spec.wordsI pixSpec (Spec.qK Spec.wordsI (Xof W c) pixSpec (CSof4 W c) (CPof4 W c)) b k j := by
  rw [R4.final4]
  show (R4.outsAt4 W c (R4.pt b 3).val (R4.pt b 3).isLt).2.1 (ix3 (0 : Fin 1) k j) = _
  rw [R4.out4_last W c (R4.pt b 3) (pt3_ne4 b) (pt3_eq4 b), ← R4.accAt_next W c (R4.pt b 3) (pt3_ne4 b),
    R4.accAt_batch W c b]
  exact KPay.r4_batch_cp (x0 := fun a => R4.iblk4 W c 0 (R4.pt b a)) (x1 := fun a => R4.iblk4 W c 1 (R4.pt b a))
    (x2 := fun a => R4.iblk4 W c 2 (R4.pt b a)) (i := fun a => grid4.coords (R4.pt b a))
    (fun a => (isTile4 W c b a).toIsTile) k j

end Cert.Proof.Slic.KRound

end
-- ==== Proof.IChain.lean ====
/-
  The five rounds of the idealized kernel chained: at every boundary of the run the pixel array is the one the host
  stretch prepared, and the two center arrays the next round reads are the centers after that many rounds of the
  kernel's arrangement from the seed centers. So the run's two results are the fifth round's assignment weights
  computed from the centers after four rounds, and the spectral centers after five.
-/
import proofs.«138879_j15556371546814_2_alg».proof.Proof.IRun
import proofs.«138879_j15556371546814_2_alg».proof.Proof.KRound0
import proofs.«138879_j15556371546814_2_alg».proof.Proof.KRound1
import proofs.«138879_j15556371546814_2_alg».proof.Proof.KRound2
import proofs.«138879_j15556371546814_2_alg».proof.Proof.KRound3
import proofs.«138879_j15556371546814_2_alg».proof.Proof.KRound4
import proofs.«138879_j15556371546814_2_alg».proof.Proof.SpecLaw

set_option maxRecDepth 16384

noncomputable section

namespace Cert.Proof.Slic.Chain

open Cert.KernelIdeal Cert.KernelIdeal.Gen Cert.KernelIdeal.Slic Cert.KernelIdeal.Slic.Run
open Idealize.ShloMosaic Idealize.ShloMosaic.TcCoe Idealize.ShloMosaic.ValueIdx
open Idealize.SL Idealize.SL.Sem
open Cert.Proof.Slic Cert.Proof.Slic.KRound

variable (m : (ℓ : Loc nD τ sig) → Buf (Elt Ideal) ℓ) (c : Dev nD)

/-- The pixels, the seed spectral centers and the seed coordinates, as the host stretch leaves them. -/
abbrev X : Spec.XT := Xof (Wh m) c
abbrev CS0 : Spec.CS := CSof0 (Wh m) c
abbrev CP0 : Spec.CP := CPof0 (Wh m) c
/-- The centers after `r` rounds of the kernel's arrangement. -/
abbrev It (r : ℕ) : Spec.CS × Spec.CP := Spec.iterK Spec.wordsI (X m c) pixSpec (CS0 m c) (CP0 m c) r

theorem inv0 : Xof (Wh m) c = X m c ∧ CSof0 (Wh m) c = (It m c 0).1 ∧ CPof0 (Wh m) c = (It m c 0).2 := ⟨rfl, rfl, rfl⟩

theorem inv1 : Xof (W1 m) c = X m c ∧ CSof1 (W1 m) c = (It m c (0 + 1)).1 ∧ CPof1 (W1 m) c = (It m c (0 + 1)).2 := by
  obtain ⟨hx, hcs, hcp⟩ := inv0 m c
  have hx' : Xof (W1 m) c = X m c := by
    refine Eq.trans ?_ hx
    funext b n ch
    exact congrFun ((W1_arr m c 0).trans (((R0.dat0 (Wh m) c).arrAt_in 0 rfl _).trans (R0.A_eq (Wh m) c 0))) (ix3 b n ch)
  refine ⟨hx', ?_, ?_⟩
  · show _ = (Spec.iterK Spec.wordsI (X m c) pixSpec (CS0 m c) (CP0 m c) (0 + 1)).1
    rw [Spec.iterK_succ]; dsimp only
    funext b k ch
    refine (congrFun (W1_arr m c 3) (ix3 b k ch)).trans ?_
    rw [round0_cs (Wh m) c b k ch, hx, hcs, hcp]
  · show _ = (Spec.iterK Spec.wordsI (X m c) pixSpec (CS0 m c) (CP0 m c) (0 + 1)).2
    rw [Spec.iterK_succ]; dsimp only
    funext b k j
    refine (congrFun (W1_arr m c 4) (ix3 b k j)).trans ?_
    rw [round0_cp (Wh m) c b k j, hx, hcs, hcp]

theorem inv2 : Xof (W2 m) c = X m c ∧ CSof2 (W2 m) c = (It m c (0 + 1 + 1)).1 ∧ CPof2 (W2 m) c = (It m c (0 + 1 + 1)).2 := by
  obtain ⟨hx, hcs, hcp⟩ := inv1 m c
  have hx' : Xof (W2 m) c = X m c := by
    refine Eq.trans ?_ hx
    funext b n ch
    exact congrFun ((W2_arr m c 0).trans (((R1.dat1 (W1 m) c).arrAt_in 0 rfl _).trans (R1.A_eq (W1 m) c 0))) (ix3 b n ch)
  refine ⟨hx', ?_, ?_⟩
  · show _ = (Spec.iterK Spec.wordsI (X m c) pixSpec (CS0 m c) (CP0 m c) (0 + 1 + 1)).1
    rw [Spec.iterK_succ]; dsimp only
    funext b k ch
    refine (congrFun (W2_arr m c 3) (ix3 b k ch)).trans ?_
    rw [round1_cs (W1 m) c b k ch, hx, hcs, hcp]
  · show _ = (Spec.iterK Spec.wordsI (X m c) pixSpec (CS0 m c) (CP0 m c) (0 + 1 + 1)).2
    rw [Spec.iterK_succ]; dsimp only
    funext b k j
    refine (congrFun (W2_arr m c 4) (ix3 b k j)).trans ?_
    rw [round1_cp (W1 m) c b k j, hx, hcs, hcp]

theorem inv3 : Xof (W3 m) c = X m c ∧ CSof3 (W3 m) c = (It m c (0 + 1 + 1 + 1)).1 ∧ CPof3 (W3 m) c = (It m c (0 + 1 + 1 + 1)).2 := by
  obtain ⟨hx, hcs, hcp⟩ := inv2 m c
  have hx' : Xof (W3 m) c = X m c := by
    refine Eq.trans ?_ hx
    funext b n ch
    exact congrFun ((W3_arr m c 0).trans (((R2.dat2 (W2 m) c).arrAt_in 0 rfl _).trans (R2.A_eq (W2 m) c 0))) (ix3 b n ch)
  refine ⟨hx', ?_, ?_⟩
  · show _ = (Spec.iterK Spec.wordsI (X m c) pixSpec (CS0 m c) (CP0 m c) (0 + 1 + 1 + 1)).1
    rw [Spec.iterK_succ]; dsimp only
    funext b k ch
    refine (congrFun (W3_arr m c 3) (ix3 b k ch)).trans ?_
    rw [round2_cs (W2 m) c b k ch, hx, hcs, hcp]
  · show _ = (Spec.iterK Spec.wordsI (X m c) pixSpec (CS0 m c) (CP0 m c) (0 + 1 + 1 + 1)).2
    rw [Spec.iterK_succ]; dsimp only
    funext b k j
    refine (congrFun (W3_arr m c 4) (ix3 b k j)).trans ?_
    rw [round2_cp (W2 m) c b k j, hx, hcs, hcp]

theorem inv4 : Xof (W4 m) c = X m c ∧ CSof4 (W4 m) c = (It m c (0 + 1 + 1 + 1 + 1)).1 ∧ CPof4 (W4 m) c = (It m c (0 + 1 + 1 + 1 + 1)).2 := by
  obtain ⟨hx, hcs, hcp⟩ := inv3 m c
  have hx' : Xof (W4 m) c = X m c := by
    refine Eq.trans ?_ hx
    funext b n ch
    exact congrFun ((W4_arr m c 0).trans (((R3.dat3 (W3 m) c).arrAt_in 0 rfl _).trans (R3.A_eq (W3 m) c 0))) (ix3 b n ch)
  refine ⟨hx', ?_, ?_⟩
  · show _ = (Spec.iterK Spec.wordsI (X m c) pixSpec (CS0 m c) (CP0 m c) (0 + 1 + 1 + 1 + 1)).1
    rw [Spec.iterK_succ]; dsimp only
    funext b k ch
    refine (congrFun (W4_arr m c 3) (ix3 b k ch)).trans ?_
    rw [round3_cs (W3 m) c b k ch, hx, hcs, hcp]
  · show _ = (Spec.iterK Spec.wordsI (X m c) pixSpec (CS0 m c) (CP0 m c) (0 + 1 + 1 + 1 + 1)).2
    rw [Spec.iterK_succ]; dsimp only
    funext b k j
    refine (congrFun (W4_arr m c 4) (ix3 b k j)).trans ?_
    rw [round3_cp (W3 m) c b k j, hx, hcs, hcp]

/-- The assignments the run ends with: the weights of the fifth round, from the centers after four rounds. -/
theorem kq (b : Fin 4) (n : Fin 16384) (k : Fin 256) :
    W5 m c (Proc.devRef .tc main_v43_2) (ix3 b n k)
      = Spec.qK Spec.wordsI (X m c) pixSpec (It m c (0 + 1 + 1 + 1 + 1)).1 (It m c (0 + 1 + 1 + 1 + 1)).2 b n k := by
  obtain ⟨hx, hcs, hcp⟩ := inv4 m c
  refine (congrFun (W5_arr m c 5) (ix3 b n k)).trans ?_
  rw [round4_q (W4 m) c b n k, hx, hcs, hcp]

/-- The spectral centers the run ends with: the centers after five rounds. -/
theorem kcs (b : Fin 4) (k : Fin 256) (ch : Fin 200) :
    W5 m c (Proc.devRef .tc main_v43_0) (ix3 b k ch) = (It m c (0 + 1 + 1 + 1 + 1 + 1)).1 b k ch := by
  obtain ⟨hx, hcs, hcp⟩ := inv4 m c
  show _ = (Spec.iterK Spec.wordsI (X m c) pixSpec (CS0 m c) (CP0 m c) (0 + 1 + 1 + 1 + 1 + 1)).1 b k ch
  rw [Spec.iterK_succ]; dsimp only
  refine (congrFun (W5_arr m c 3) (ix3 b k ch)).trans ?_
  rw [round4_cs (W4 m) c b k ch, hx, hcs, hcp]

end Cert.Proof.Slic.Chain

end
-- ==== Proof.RefOpsA.lean ====
/-
  The reference program's host operations read at an index, at the shapes this program uses: a sum over one axis of
  a rank-3 array as a sum over that axis's coordinate, and the broadcasts between per-pixel, per-center and
  pixel-by-center arrays as the operand at the matching coordinates.
-/
import proofs.«138879_j15556371546814_2_alg».proof.Proof.Gen.ReferenceIdeal
import proofs.«138879_j15556371546814_2_alg».proof.Proof.Spec
import Idealize.ShloMosaic.Lib.IdealHost
import Idealize.ShloMosaic.Lib.Pipeline.Value
import Idealize.ShloMosaic.PureOps.Reduce

noncomputable section

namespace Cert.Proof.Slic.Ref

open Cert.ReferenceIdeal Cert.ReferenceIdeal.Gen Idealize.ShloMosaic Idealize.ShloMosaic.ValueIdx
open scoped BigOperators

/-- An f32 array of the given shape at the ideal values. -/
abbrev Arr (s : Shape) : Type := (⟨s, .f32⟩ : BufTy).Contents (Elt Ideal)

example : Arr S4x16384x200 = (S4x16384x200.Idx → EReal) := rfl

/-- The sum over the last axis of a rank-3 array, read at an index. -/
theorem reduceAdd_last {a n m : Nat} (x : FVec Ideal ⟨3, ![a, n, m]⟩ .f32)
    (h' : (⟨3, ![a, n, m]⟩ : Shape).ReducesTo [2] ⟨2, ![a, n]⟩) (h : (⟨3, ![a, n, m]⟩ : Shape).Reduces [2] ⟨2, ![a, n]⟩)
    (hu : 0 < S_.numel) (i : Fin a) (j : Fin n) :
    Host.reduceAdd x (constant (F := Ideal) S_ .f32 0x00000000#32) h' hu (ix2 i j) = ∑ c : Fin m, x (ix3 i j c) := by
  rw [hostReduceAdd_apply, Ideal.hostReduceAdd_single h' h]
  show Ideal.ofBits .f32 0x00000000#32 + _ = _
  rw [Ideal.ofBits_zero_f32, zero_add]
  refine Finset.sum_congr rfl fun c _ => congrArg x (funext fun d => Fin.ext ?_)
  match d with
  | ⟨0, _⟩ => rfl
  | ⟨1, _⟩ => rfl
  | ⟨2, _⟩ => rfl

/-- The sum over the middle axis of a rank-3 array, read at an index. -/
theorem reduceAdd_mid {a n m : Nat} (x : FVec Ideal ⟨3, ![a, n, m]⟩ .f32)
    (h' : (⟨3, ![a, n, m]⟩ : Shape).ReducesTo [1] ⟨2, ![a, m]⟩) (h : (⟨3, ![a, n, m]⟩ : Shape).Reduces [1] ⟨2, ![a, m]⟩)
    (hu : 0 < S_.numel) (i : Fin a) (k : Fin m) :
    Host.reduceAdd x (constant (F := Ideal) S_ .f32 0x00000000#32) h' hu (ix2 i k) = ∑ j : Fin n, x (ix3 i j k) := by
  rw [hostReduceAdd_apply, Ideal.hostReduceAdd_single h' h]
  show Ideal.ofBits .f32 0x00000000#32 + _ = _
  rw [Ideal.ofBits_zero_f32, zero_add]
  refine Finset.sum_congr rfl fun c _ => congrArg x (funext fun d => Fin.ext ?_)
  match d with
  | ⟨0, _⟩ => rfl
  | ⟨1, _⟩ => rfl
  | ⟨2, _⟩ => rfl

/-! ## The sums of this program, at their shapes -/

theorem sum_x200 (x : FVec Ideal S4x16384x200 .f32) (b : Fin 4) (n : Fin 16384) :
    Host.reduceAdd x (constant (F := Ideal) S_ .f32 0x00000000#32) reducesTo_S4x16384x200_S4x16384_d2 h_S_ (ix2 b n)
      = ∑ c : Fin 200, x (ix3 b n c) :=
  reduceAdd_last x _ (by decide) _ b n

theorem sum_x2 (x : FVec Ideal S4x16384x2 .f32) (b : Fin 4) (n : Fin 16384) :
    Host.reduceAdd x (constant (F := Ideal) S_ .f32 0x00000000#32) reducesTo_S4x16384x2_S4x16384_d2 h_S_ (ix2 b n)
      = ∑ j : Fin 2, x (ix3 b n j) :=
  reduceAdd_last x _ (by decide) _ b n

theorem sum_c200 (x : FVec Ideal S4x256x200 .f32) (b : Fin 4) (k : Fin 256) :
    Host.reduceAdd x (constant (F := Ideal) S_ .f32 0x00000000#32) reducesTo_S4x256x200_S4x256_d2 h_S_ (ix2 b k)
      = ∑ c : Fin 200, x (ix3 b k c) :=
  reduceAdd_last x _ (by decide) _ b k

theorem sum_c2 (x : FVec Ideal S4x256x2 .f32) (b : Fin 4) (k : Fin 256) :
    Host.reduceAdd x (constant (F := Ideal) S_ .f32 0x00000000#32) reducesTo_S4x256x2_S4x256_d2 h_S_ (ix2 b k)
      = ∑ j : Fin 2, x (ix3 b k j) :=
  reduceAdd_last x _ (by decide) _ b k

theorem sum_row (x : FVec Ideal S4x16384x256 .f32) (b : Fin 4) (n : Fin 16384) :
    Host.reduceAdd x (constant (F := Ideal) S_ .f32 0x00000000#32) reducesTo_S4x16384x256_S4x16384_d2 h_S_ (ix2 b n)
      = ∑ k : Fin 256, x (ix3 b n k) :=
  reduceAdd_last x _ (by decide) _ b n

theorem sum_pix (x : FVec Ideal S4x16384x256 .f32) (b : Fin 4) (k : Fin 256) :
    Host.reduceAdd x (constant (F := Ideal) S_ .f32 0x00000000#32) reducesTo_S4x16384x256_S4x256_d1 h_S_ (ix2 b k)
      = ∑ n : Fin 16384, x (ix3 b n k) :=
  reduceAdd_mid x _ (by decide) _ b k

/-! ## Broadcasts read at an index -/

/-- A scalar word broadcast to any shape reads the word's value. -/
theorem bcast_const {T : Shape} (h : S_.BroadcastsInDim T ![]) (w : BitVec 32) (j : T.Idx) :
    broadcastInDim T ![] h (constant (F := Ideal) S_ .f32 w) j = Ideal.ofBits .f32 w :=
  broadcastInDim_scalar_apply h _ j

/-- A per-pixel quantity [4,16384] broadcast over the centers. -/
theorem bcast_pix {α : Type} (f : S4x16384.Idx → α) (b : Fin 4) (n : Fin 16384) (k : Fin 256) :
    broadcastInDim S4x16384x256 ![0, 1, 2] bcast_S4x16384x1_S4x16384x256_0_1_2
      (broadcastInDim S4x16384x1 ![0, 1] bcast_S4x16384_S4x16384x1_0_1 f) (ix3 b n k) = f (ix2 b n) := by
  refine (broadcastInDim_apply _ _ _ (ix3 b n k) (ix3 b n (0 : Fin 1)) (fun a => ?_)).trans ?_
  · match a with
    | ⟨0, _⟩ => rfl
    | ⟨1, _⟩ => rfl
    | ⟨2, _⟩ => rfl
  · refine broadcastInDim_apply _ _ _ _ (ix2 b n) (fun a => ?_)
    match a with
    | ⟨0, _⟩ => rfl
    | ⟨1, _⟩ => rfl

/-- A per-center quantity [4,256] broadcast over the pixels. -/
theorem bcast_ctr {α : Type} (g : S4x256.Idx → α) (b : Fin 4) (n : Fin 16384) (k : Fin 256) :
    broadcastInDim S4x16384x256 ![0, 1, 2] bcast_S4x1x256_S4x16384x256_0_1_2
      (broadcastInDim S4x1x256 ![0, 2] bcast_S4x256_S4x1x256_0_2 g) (ix3 b n k) = g (ix2 b k) := by
  refine (broadcastInDim_apply _ _ _ (ix3 b n k) (ix3 b (0 : Fin 1) k) (fun a => ?_)).trans ?_
  · match a with
    | ⟨0, _⟩ => rfl
    | ⟨1, _⟩ => rfl
    | ⟨2, _⟩ => rfl
  · refine broadcastInDim_apply _ _ _ _ (ix2 b k) (fun a => ?_)
    match a with
    | ⟨0, _⟩ => rfl
    | ⟨1, _⟩ => rfl

/-- A per-center column [4,256,1] broadcast over the 200 channels. -/
theorem bcast_col200 {α : Type} (g : S4x256x1.Idx → α) (b : Fin 4) (k : Fin 256) (c : Fin 200) :
    broadcastInDim S4x256x200 ![0, 1, 2] bcast_S4x256x1_S4x256x200_0_1_2 g (ix3 b k c) = g (ix3 b k (0 : Fin 1)) := by
  refine broadcastInDim_apply _ _ _ _ (ix3 b k (0 : Fin 1)) (fun a => ?_)
  match a with
  | ⟨0, _⟩ => rfl
  | ⟨1, _⟩ => rfl
  | ⟨2, _⟩ => rfl

/-- A per-center column [4,256,1] broadcast over the 2 coordinates. -/
theorem bcast_col2 {α : Type} (g : S4x256x1.Idx → α) (b : Fin 4) (k : Fin 256) (j : Fin 2) :
    broadcastInDim S4x256x2 ![0, 1, 2] bcast_S4x256x1_S4x256x2_0_1_2 g (ix3 b k j) = g (ix3 b k (0 : Fin 1)) := by
  refine broadcastInDim_apply _ _ _ _ (ix3 b k (0 : Fin 1)) (fun a => ?_)
  match a with
  | ⟨0, _⟩ => rfl
  | ⟨1, _⟩ => rfl
  | ⟨2, _⟩ => rfl

/-- A per-center quantity [4,256] as a column [4,256,1]. -/
theorem bcast_tocol {α : Type} (f : S4x256.Idx → α) (b : Fin 4) (k : Fin 256) :
    broadcastInDim S4x256x1 ![0, 1] bcast_S4x256_S4x256x1_0_1 f (ix3 b k (0 : Fin 1)) = f (ix2 b k) := by
  refine broadcastInDim_apply _ _ _ _ (ix2 b k) (fun a => ?_)
  match a with
  | ⟨0, _⟩ => rfl
  | ⟨1, _⟩ => rfl

end Cert.Proof.Slic.Ref

end
-- ==== Proof.RefOpsB.lean ====
/-
  The reference program's four matrix products read at an index: each is the sum, over its one contracted axis's
  coordinate, of the products of the operands at the matching coordinates, the batch axis shared.
-/
import proofs.«138879_j15556371546814_2_alg».proof.Proof.RefOpsA

noncomputable section

namespace Cert.Proof.Slic.Ref

open Cert.ReferenceIdeal Cert.ReferenceIdeal.Gen Idealize.ShloMosaic Idealize.ShloMosaic.ValueIdx
open scoped BigOperators

/-! ## The matrix products read at an index -/

/-- The products contracting the last axes, batched over the first: pixels against centers. -/
theorem dot_last200 (x : FVec Ideal S4x16384x200 .f32) (y : FVec Ideal S4x256x200 .f32) (b : Fin 4) (n : Fin 16384) (k : Fin 256) :
    Host.dotGeneral dot_S4x16384x200_S4x256x200_S4x16384x256_2_2_1_1_0_0 none x y (ix3 b n k)
      = ∑ c : Fin 200, x (ix3 b n c) * y (ix3 b k c) := by
  refine (Ideal.dotGeneral_apply _ _ _ x y _).trans ?_
  have hr : (dot_S4x16384x200_S4x256x200_S4x16384x256_2_2_1_1_0_0).contr.rank = 1 := rfl
  have hs : (dot_S4x16384x200_S4x256x200_S4x16384x256_2_2_1_1_0_0).contr.size ⟨0, by omega⟩ = 200 := rfl
  rw [← Equiv.sum_comp (contrEquiv1 dot_S4x16384x200_S4x256x200_S4x16384x256_2_2_1_1_0_0 200 hr hs).symm]
  refine Finset.sum_congr rfl fun c _ => ?_
  congr 1
  · refine congrArg x (funext fun a => Fin.ext ?_)
    match a with
    | ⟨0, _⟩ => rfl
    | ⟨1, _⟩ => rfl
    | ⟨2, _⟩ => exact (DotDims.lhsIdx_val_of_single _ rfl _ _).trans (contrEquiv1_symm_val _ 200 hr hs c)
  · refine congrArg y (funext fun a => Fin.ext ?_)
    match a with
    | ⟨0, _⟩ => rfl
    | ⟨1, _⟩ => rfl
    | ⟨2, _⟩ => exact (DotDims.rhsIdx_val_of_single _ rfl _ _).trans (contrEquiv1_symm_val _ 200 hr hs c)

theorem dot_last2 (x : FVec Ideal S4x16384x2 .f32) (y : FVec Ideal S4x256x2 .f32) (b : Fin 4) (n : Fin 16384) (k : Fin 256) :
    Host.dotGeneral dot_S4x16384x2_S4x256x2_S4x16384x256_2_2_1_1_0_0 none x y (ix3 b n k)
      = ∑ c : Fin 2, x (ix3 b n c) * y (ix3 b k c) := by
  refine (Ideal.dotGeneral_apply _ _ _ x y _).trans ?_
  have hr : (dot_S4x16384x2_S4x256x2_S4x16384x256_2_2_1_1_0_0).contr.rank = 1 := rfl
  have hs : (dot_S4x16384x2_S4x256x2_S4x16384x256_2_2_1_1_0_0).contr.size ⟨0, by omega⟩ = 2 := rfl
  rw [← Equiv.sum_comp (contrEquiv1 dot_S4x16384x2_S4x256x2_S4x16384x256_2_2_1_1_0_0 2 hr hs).symm]
  refine Finset.sum_congr rfl fun c _ => ?_
  congr 1
  · refine congrArg x (funext fun a => Fin.ext ?_)
    match a with
    | ⟨0, _⟩ => rfl
    | ⟨1, _⟩ => rfl
    | ⟨2, _⟩ => exact (DotDims.lhsIdx_val_of_single _ rfl _ _).trans (contrEquiv1_symm_val _ 2 hr hs c)
  · refine congrArg y (funext fun a => Fin.ext ?_)
    match a with
    | ⟨0, _⟩ => rfl
    | ⟨1, _⟩ => rfl
    | ⟨2, _⟩ => exact (DotDims.rhsIdx_val_of_single _ rfl _ _).trans (contrEquiv1_symm_val _ 2 hr hs c)

/-- The products contracting the pixel axis, batched over the first: weights against pixels. -/
theorem dot_mid200 (q : FVec Ideal S4x16384x256 .f32) (y : FVec Ideal S4x16384x200 .f32) (b : Fin 4) (k : Fin 256) (c : Fin 200) :
    Host.dotGeneral dot_S4x16384x256_S4x16384x200_S4x256x200_1_1_2_2_0_0 none q y (ix3 b k c)
      = ∑ n : Fin 16384, q (ix3 b n k) * y (ix3 b n c) := by
  refine (Ideal.dotGeneral_apply _ _ _ q y _).trans ?_
  have hr : (dot_S4x16384x256_S4x16384x200_S4x256x200_1_1_2_2_0_0).contr.rank = 1 := rfl
  have hs : (dot_S4x16384x256_S4x16384x200_S4x256x200_1_1_2_2_0_0).contr.size ⟨0, by omega⟩ = 16384 := rfl
  rw [← Equiv.sum_comp (contrEquiv1 dot_S4x16384x256_S4x16384x200_S4x256x200_1_1_2_2_0_0 16384 hr hs).symm]
  refine Finset.sum_congr rfl fun n _ => ?_
  congr 1
  · refine congrArg q (funext fun a => Fin.ext ?_)
    match a with
    | ⟨0, _⟩ => rfl
    | ⟨1, _⟩ => exact (DotDims.lhsIdx_val_of_single _ rfl _ _).trans (contrEquiv1_symm_val _ 16384 hr hs n)
    | ⟨2, _⟩ => rfl
  · refine congrArg y (funext fun a => Fin.ext ?_)
    match a with
    | ⟨0, _⟩ => rfl
    | ⟨1, _⟩ => exact (DotDims.rhsIdx_val_of_single _ rfl _ _).trans (contrEquiv1_symm_val _ 16384 hr hs n)
    | ⟨2, _⟩ => rfl

theorem dot_mid2 (q : FVec Ideal S4x16384x256 .f32) (y : FVec Ideal S4x16384x2 .f32) (b : Fin 4) (k : Fin 256) (j : Fin 2) :
    Host.dotGeneral dot_S4x16384x256_S4x16384x2_S4x256x2_1_1_2_2_0_0 none q y (ix3 b k j)
      = ∑ n : Fin 16384, q (ix3 b n k) * y (ix3 b n j) := by
  refine (Ideal.dotGeneral_apply _ _ _ q y _).trans ?_
  have hr : (dot_S4x16384x256_S4x16384x2_S4x256x2_1_1_2_2_0_0).contr.rank = 1 := rfl
  have hs : (dot_S4x16384x256_S4x16384x2_S4x256x2_1_1_2_2_0_0).contr.size ⟨0, by omega⟩ = 16384 := rfl
  rw [← Equiv.sum_comp (contrEquiv1 dot_S4x16384x256_S4x16384x2_S4x256x2_1_1_2_2_0_0 16384 hr hs).symm]
  refine Finset.sum_congr rfl fun n _ => ?_
  congr 1
  · refine congrArg q (funext fun a => Fin.ext ?_)
    match a with
    | ⟨0, _⟩ => rfl
    | ⟨1, _⟩ => exact (DotDims.lhsIdx_val_of_single _ rfl _ _).trans (contrEquiv1_symm_val _ 16384 hr hs n)
    | ⟨2, _⟩ => rfl
  · refine congrArg y (funext fun a => Fin.ext ?_)
    match a with
    | ⟨0, _⟩ => rfl
    | ⟨1, _⟩ => exact (DotDims.rhsIdx_val_of_single _ rfl _ _).trans (contrEquiv1_symm_val _ 16384 hr hs n)
    | ⟨2, _⟩ => rfl

end Cert.Proof.Slic.Ref

end
-- ==== Proof.RefOpsC.lean ====
/-
  The reference program's maximum over the centers read at an index: the fold of max from minus infinity over the
  center coordinate; the outer maximum against the minus-infinity word changes nothing.
-/
import proofs.«138879_j15556371546814_2_alg».proof.Proof.RefOpsA

noncomputable section

namespace Cert.Proof.Slic.Ref

open Cert.ReferenceIdeal Cert.ReferenceIdeal.Gen Idealize.ShloMosaic Idealize.ShloMosaic.ValueIdx
open scoped BigOperators

/-! ## The row maximum read at an index -/

/-- The f32 word of minus infinity. -/
theorem ofBits_neg_inf : Ideal.ofBits .f32 0xFF800000#32 = ⊥ := by simp [Ideal.ofBits, Ideal.ieee]

/-- The maximum over the last axis of a rank-3 array from minus infinity, read at an index. -/
theorem reduceMax_last {a n m : Nat} (z : FVec Ideal ⟨3, ![a, n, m]⟩ .f32)
    (h' : (⟨3, ![a, n, m]⟩ : Shape).ReducesTo [2] ⟨2, ![a, n]⟩) (h : (⟨3, ![a, n, m]⟩ : Shape).Reduces [2] ⟨2, ![a, n]⟩)
    (hu : 0 < S_.numel) (i : Fin a) (j : Fin n) :
    Host.reduce FloatOps.maximumf z (constant (F := Ideal) S_ .f32 0xFF800000#32) h' hu (ix2 i j)
      = (Finset.univ : Finset (Fin m)).fold max (⊥ : EReal) (fun c => z (ix3 i j c)) := by
  refine (Host.reduce_eq_fold_single FloatOps.maximumf z _ h' h hu (ix2 i j)).trans ?_
  have e1 : constant (F := Ideal) S_ .f32 0xFF800000#32 (Shape.Idx.first hu) = (⊥ : EReal) := ofBits_neg_inf
  have e2 : (z ∘ h.lift (ix2 i j)) = fun c : Fin m => z (ix3 i j c) :=
    funext fun c => congrArg z (funext fun d => Fin.ext (by
      match d with
      | ⟨0, _⟩ => rfl
      | ⟨1, _⟩ => rfl
      | ⟨2, _⟩ => rfl))
  rw [e1, e2]
  rfl

/-- The maximum over the centers from minus infinity, the outer maximum against minus infinity absorbed. -/
theorem rowmax_apply (z : FVec Ideal S4x16384x256 .f32) (b : Fin 4) (n : Fin 16384) :
    maximumf (broadcastInDim S4x16384 ![] bcast_S_S4x16384 (constant (F := Ideal) S_ .f32 0xFF800000#32))
      (Host.reduce FloatOps.maximumf z (constant (F := Ideal) S_ .f32 0xFF800000#32) reducesTo_S4x16384x256_S4x16384_d2 h_S_) (ix2 b n)
    = (Finset.univ : Finset (Fin 256)).fold max (⊥ : EReal) (fun k => z (ix3 b n k)) := by
  refine (maximumf_apply _ _ _).trans ?_
  refine (congrArg₂ max ((bcast_const _ _ _).trans ofBits_neg_inf) (reduceMax_last z _ (by decide) _ b n)).trans ?_
  exact max_eq_right bot_le

end Cert.Proof.Slic.Ref

end
-- ==== Proof.RefRound.lean ====
/-
  One round of the reference program as functions of its four input arrays (pixel spectra, pixel coordinates,
  spectral centers, spatial centers), each stage the reference's own term, and each stage read at an index as the
  corresponding quantity of the index-by-index specification in the reference's arrangement.
-/
import proofs.«138879_j15556371546814_2_alg».proof.Proof.RefOpsA
import proofs.«138879_j15556371546814_2_alg».proof.Proof.RefOpsB
import proofs.«138879_j15556371546814_2_alg».proof.Proof.RefOpsC
import proofs.«138879_j15556371546814_2_alg».proof.Proof.Words

noncomputable section

namespace Cert.Proof.Slic.Ref

open Cert.ReferenceIdeal Cert.ReferenceIdeal.Gen Idealize.ShloMosaic Idealize.ShloMosaic.ValueIdx
open scoped BigOperators

/-- An f32 array of the given shape at the ideal values. -/
abbrev Vec (s : Shape) : Type := FVec Ideal s .f32

/-! ## The stages -/

/-- The spectral distance in expanded form: sqrt (max ((|x|^2 + |c|^2) - 2 <x, c>, floor)). -/
def refDspec (xa : Vec S4x16384x200) (csa : Vec S4x256x200) : Vec S4x16384x256 :=
  Host.sqrt (F := Ideal) (maximumf (subf (addf (broadcastInDim S4x16384x256 ![0, 1, 2] bcast_S4x16384x1_S4x16384x256_0_1_2 (broadcastInDim S4x16384x1 ![0, 1] bcast_S4x16384_S4x16384x1_0_1 (Host.reduceAdd (mulf xa xa) (constant S_ .f32 0x00000000#32) reducesTo_S4x16384x200_S4x16384_d2 h_S_))) (broadcastInDim S4x16384x256 ![0, 1, 2] bcast_S4x1x256_S4x16384x256_0_1_2 (broadcastInDim S4x1x256 ![0, 2] bcast_S4x256_S4x1x256_0_2 (Host.reduceAdd (mulf csa csa) (constant S_ .f32 0x00000000#32) reducesTo_S4x256x200_S4x256_d2 h_S_)))) (mulf (broadcastInDim S4x16384x256 ![] bcast_S_S4x16384x256 (constant S_ .f32 0x40000000#32)) (Host.dotGeneral dot_S4x16384x200_S4x256x200_S4x16384x256_2_2_1_1_0_0 none xa csa))) (broadcastInDim S4x16384x256 ![] bcast_S_S4x16384x256 (constant S_ .f32 0x2B8CBCCC#32)))

/-- The spatial distance in expanded form. -/
def refDspat (pa : Vec S4x16384x2) (cpa : Vec S4x256x2) : Vec S4x16384x256 :=
  Host.sqrt (F := Ideal) (maximumf (subf (addf (broadcastInDim S4x16384x256 ![0, 1, 2] bcast_S4x16384x1_S4x16384x256_0_1_2 (broadcastInDim S4x16384x1 ![0, 1] bcast_S4x16384_S4x16384x1_0_1 (Host.reduceAdd (mulf pa pa) (constant S_ .f32 0x00000000#32) reducesTo_S4x16384x2_S4x16384_d2 h_S_))) (broadcastInDim S4x16384x256 ![0, 1, 2] bcast_S4x1x256_S4x16384x256_0_1_2 (broadcastInDim S4x1x256 ![0, 2] bcast_S4x256_S4x1x256_0_2 (Host.reduceAdd (mulf cpa cpa) (constant S_ .f32 0x00000000#32) reducesTo_S4x256x2_S4x256_d2 h_S_)))) (mulf (broadcastInDim S4x16384x256 ![] bcast_S_S4x16384x256 (constant S_ .f32 0x40000000#32)) (Host.dotGeneral dot_S4x16384x2_S4x256x2_S4x16384x256_2_2_1_1_0_0 none pa cpa))) (broadcastInDim S4x16384x256 ![] bcast_S_S4x16384x256 (constant S_ .f32 0x2B8CBCCC#32)))

/-- The score: minus (spectral distance + 1.25 x spatial distance). -/
def refScore (xa : Vec S4x16384x200) (pa : Vec S4x16384x2) (csa : Vec S4x256x200) (cpa : Vec S4x256x2) : Vec S4x16384x256 :=
  Host.negf (F := Ideal) (addf (refDspec xa csa) (mulf (broadcastInDim S4x16384x256 ![] bcast_S_S4x16384x256 (constant S_ .f32 0x3FA00000#32)) (refDspat pa cpa)))
/-- exp (score - row maximum), of a score array. -/
def refExpOf (z : Vec S4x16384x256) : Vec S4x16384x256 :=
  Host.exp (F := Ideal) (subf z (broadcastInDim S4x16384x256 ![0, 1, 2] bcast_S4x16384x1_S4x16384x256_0_1_2 (broadcastInDim S4x16384x1 ![0, 1] bcast_S4x16384_S4x16384x1_0_1 (maximumf (broadcastInDim S4x16384 ![] bcast_S_S4x16384 (constant S_ .f32 0xFF800000#32)) (Host.reduce FloatOps.maximumf z (constant S_ .f32 0xFF800000#32) reducesTo_S4x16384x256_S4x16384_d2 h_S_)))))

/-- The weights: an array over its row sums. -/
def refQOf (e : Vec S4x16384x256) : Vec S4x16384x256 :=
  Host.divf (F := Ideal) e (broadcastInDim S4x16384x256 ![0, 1, 2] bcast_S4x16384x1_S4x16384x256_0_1_2 (broadcastInDim S4x16384x1 ![0, 1] bcast_S4x16384_S4x16384x1_0_1 (Host.reduceAdd e (constant S_ .f32 0x00000000#32) reducesTo_S4x16384x256_S4x16384_d2 h_S_)))

/-- The mass of each center plus the floor, as a column. -/
def refMassOf (q : Vec S4x16384x256) : Vec S4x256x1 :=
  addf (F := Ideal) (broadcastInDim S4x256x1 ![0, 1] bcast_S4x256_S4x256x1_0_1 (Host.reduceAdd q (constant S_ .f32 0x00000000#32) reducesTo_S4x16384x256_S4x256_d1 h_S_)) (broadcastInDim S4x256x1 ![] bcast_S_S4x256x1 (constant S_ .f32 0x358637BD#32))

/-- The new spectral centers from weights, pixels and mass. -/
def refCsOf (q : Vec S4x16384x256) (xa : Vec S4x16384x200) (ms : Vec S4x256x1) : Vec S4x256x200 :=
  Host.divf (F := Ideal) (Host.dotGeneral dot_S4x16384x256_S4x16384x200_S4x256x200_1_1_2_2_0_0 none q xa) (broadcastInDim S4x256x200 ![0, 1, 2] bcast_S4x256x1_S4x256x200_0_1_2 ms)

/-- The new spatial centers from weights, coordinates and mass. -/
def refCpOf (q : Vec S4x16384x256) (pa : Vec S4x16384x2) (ms : Vec S4x256x1) : Vec S4x256x2 :=
  Host.divf (F := Ideal) (Host.dotGeneral dot_S4x16384x256_S4x16384x2_S4x256x2_1_1_2_2_0_0 none q pa) (broadcastInDim S4x256x2 ![0, 1, 2] bcast_S4x256x1_S4x256x2_0_1_2 ms)

section Round
variable (xa : Vec S4x16384x200) (pa : Vec S4x16384x2) (csa : Vec S4x256x200) (cpa : Vec S4x256x2)

def refExp : Vec S4x16384x256 := refExpOf (refScore xa pa csa cpa)
def refQ : Vec S4x16384x256 := refQOf (refExp xa pa csa cpa)
def refMass : Vec S4x256x1 := refMassOf (refQ xa pa csa cpa)
def refCs : Vec S4x256x200 := refCsOf (refQ xa pa csa cpa) xa (refMass xa pa csa cpa)
def refCp : Vec S4x256x2 := refCpOf (refQ xa pa csa cpa) pa (refMass xa pa csa cpa)

end Round

/-! ## The arrays as functions of their coordinates -/

/-- The pixel spectra by batch, pixel, channel. -/
abbrev Xf (xa : Vec S4x16384x200) : Spec.XT := fun b n c => xa (ix3 b n c)
/-- The pixel coordinates by pixel, axis: the first batch's copy. -/
abbrev Pf (pa : Vec S4x16384x2) : Spec.PT := fun n j => pa (ix3 (0 : Fin 4) n j)
/-- The spectral centers by batch, center, channel. -/
abbrev CSf (csa : Vec S4x256x200) : Spec.CS := fun b k c => csa (ix3 b k c)
/-- The spatial centers by batch, center, axis. -/
abbrev CPf (cpa : Vec S4x256x2) : Spec.CP := fun b k j => cpa (ix3 b k j)
/-- A pixel-by-center array by batch, pixel, center. -/
abbrev Qf (q : Vec S4x16384x256) : Spec.QT := fun b n k => q (ix3 b n k)

/-! ## The host's pointwise operations at an index -/

theorem hostNegf_apply {s : Shape} {φ : FTy} (a : FVec Ideal s φ) (i : s.Idx) : Host.negf a i = -(a i) := rfl
theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl

/-- sqrt (max ((A + B) - C * D, E)) of arrays at an index, from its five parts at that index. -/
theorem sqdist_at {s : Shape} (A B C D E : FVec Ideal s .f32) (i : s.Idx) {a b c d e : EReal}
    (hA : A i = a) (hB : B i = b) (hC : C i = c) (hD : D i = d) (hE : E i = e) :
    Host.sqrt (maximumf (subf (addf A B) (mulf C D)) E) i = Ideal.sqrt (max ((a + b) - c * d) e) := by
  refine (hostSqrt_apply _ i).trans (congrArg Ideal.sqrt ?_)
  refine (maximumf_apply _ _ i).trans ?_
  rw [hE]
  refine congrArg (fun u : EReal => max u e) ?_
  refine (subf_apply _ _ i).trans ?_
  rw [addf_apply, mulf_apply, hA, hB, hC, hD]

/-! ## The stages at an index -/

section Apply
variable (xa : Vec S4x16384x200) (pa : Vec S4x16384x2) (csa : Vec S4x256x200) (cpa : Vec S4x256x2)

/-- The spectral distance at (b, n, k) is the specification's. -/
theorem refDspec_apply (b : Fin 4) (n : Fin 16384) (k : Fin 256) :
    refDspec xa csa (ix3 b n k) = Spec.dspec Spec.wordsI (Xf xa) (CSf csa) b n k := by
  unfold refDspec
  have hA : _ = ∑ c : Fin 200, xa (ix3 b n c) * xa (ix3 b n c) := (bcast_pix _ b n k).trans (sum_x200 (mulf xa xa) b n)
  have hB : _ = ∑ c : Fin 200, csa (ix3 b k c) * csa (ix3 b k c) := (bcast_ctr _ b n k).trans (sum_c200 (mulf csa csa) b k)
  exact (sqdist_at _ _ _ _ _ (ix3 b n k) hA hB (bcast_const _ _ _) (dot_last200 xa csa b n k) (bcast_const _ _ _)).trans rfl

/-- The spatial distance at (b, n, k) is the specification's, the coordinates the same in every batch. -/
theorem refDspat_apply (hP : ∀ b n j, pa (ix3 b n j) = pa (ix3 (0 : Fin 4) n j)) (b : Fin 4) (n : Fin 16384) (k : Fin 256) :
    refDspat pa cpa (ix3 b n k) = Spec.dspatR Spec.wordsI (Pf pa) (CPf cpa) b n k := by
  unfold refDspat
  have hA : _ = ∑ j : Fin 2, Pf pa n j * Pf pa n j :=
    ((bcast_pix _ b n k).trans (sum_x2 (mulf pa pa) b n)).trans (Finset.sum_congr rfl fun j _ => by
      show pa (ix3 b n j) * pa (ix3 b n j) = _
      rw [hP b n j])
  have hB : _ = ∑ j : Fin 2, cpa (ix3 b k j) * cpa (ix3 b k j) := (bcast_ctr _ b n k).trans (sum_c2 (mulf cpa cpa) b k)
  have hD : _ = ∑ j : Fin 2, Pf pa n j * CPf cpa b k j :=
    (dot_last2 pa cpa b n k).trans (Finset.sum_congr rfl fun j _ => by rw [hP b n j])
  exact (sqdist_at _ _ _ _ _ (ix3 b n k) hA hB (bcast_const _ _ _) hD (bcast_const _ _ _)).trans rfl

/-- The score at (b, n, k) is the specification's score. -/
theorem refScore_apply (hP : ∀ b n j, pa (ix3 b n j) = pa (ix3 (0 : Fin 4) n j)) (b : Fin 4) (n : Fin 16384) (k : Fin 256) :
    refScore xa pa csa cpa (ix3 b n k) = Spec.scoreR Spec.wordsI (Xf xa) (Pf pa) (CSf csa) (CPf cpa) b n k := by
  unfold refScore
  change -(_ + _ * _) = _
  rw [bcast_const, refDspec_apply, refDspat_apply pa cpa hP]
  rfl

/-- exp (score - row maximum) at an index. -/
theorem refExpOf_apply (z : Vec S4x16384x256) (b : Fin 4) (n : Fin 16384) (k : Fin 256) :
    refExpOf z (ix3 b n k) = Ideal.exp (z (ix3 b n k) - Spec.rowMax (Qf z) b n) := by
  unfold refExpOf
  change Ideal.exp (_ - _) = _
  rw [bcast_pix, rowmax_apply]
  rfl

/-- An array over its row sums at an index. -/
theorem refQOf_apply (e : Vec S4x16384x256) (b : Fin 4) (n : Fin 16384) (k : Fin 256) :
    refQOf e (ix3 b n k) = Ideal.div (e (ix3 b n k)) (∑ k' : Fin 256, e (ix3 b n k')) := by
  unfold refQOf
  exact (hostDivf_apply _ _ _).trans (congrArg (Ideal.div (e (ix3 b n k))) ((bcast_pix _ b n k).trans (sum_row e b n)))

/-- The weights of a score array are the specification's softmax weights. -/
theorem refQ_of_score (z : Vec S4x16384x256) (b : Fin 4) (n : Fin 16384) (k : Fin 256) :
    refQOf (refExpOf z) (ix3 b n k) = Spec.weights (Qf z) b n k := by
  rw [refQOf_apply]
  simp only [refExpOf_apply]
  rfl

/-- The round's weights at (b, n, k) are the specification's. -/
theorem refQ_apply (hP : ∀ b n j, pa (ix3 b n j) = pa (ix3 (0 : Fin 4) n j)) (b : Fin 4) (n : Fin 16384) (k : Fin 256) :
    refQ xa pa csa cpa (ix3 b n k) = Spec.qR Spec.wordsI (Xf xa) (Pf pa) (CSf csa) (CPf cpa) b n k := by
  unfold refQ refExp
  rw [refQ_of_score]
  exact congrArg (fun Z : Spec.QT => Spec.weights Z b n k)
    (funext fun b => funext fun n => funext fun k => refScore_apply xa pa csa cpa hP b n k)

/-- The round's weights as a function of coordinates. -/
theorem Qf_refQ (hP : ∀ b n j, pa (ix3 b n j) = pa (ix3 (0 : Fin 4) n j)) :
    Qf (refQ xa pa csa cpa) = Spec.qR Spec.wordsI (Xf xa) (Pf pa) (CSf csa) (CPf cpa) :=
  funext fun b => funext fun n => funext fun k => refQ_apply xa pa csa cpa hP b n k

/-- The mass column at (b, k). -/
theorem refMassOf_apply (q : Vec S4x16384x256) (b : Fin 4) (k : Fin 256) :
    refMassOf q (ix3 b k (0 : Fin 1)) = Spec.massR Spec.wordsI (Qf q) b k := by
  unfold refMassOf
  change _ + _ = _
  rw [bcast_tocol, bcast_const, sum_pix]
  rfl

/-- The new spectral centers at (b, k, c), of any weights and mass column. -/
theorem refCsOf_apply (q : Vec S4x16384x256) (xa : Vec S4x16384x200) (ms : Vec S4x256x1) (b : Fin 4) (k : Fin 256) (c : Fin 200) :
    refCsOf q xa ms (ix3 b k c) = Ideal.div (∑ n : Fin 16384, q (ix3 b n k) * xa (ix3 b n c)) (ms (ix3 b k (0 : Fin 1))) := by
  unfold refCsOf
  change Ideal.div _ _ = _
  rw [dot_mid200, bcast_col200]

/-- The new spatial centers at (b, k, j), of any weights and mass column. -/
theorem refCpOf_apply (q : Vec S4x16384x256) (pa : Vec S4x16384x2) (ms : Vec S4x256x1) (b : Fin 4) (k : Fin 256) (j : Fin 2) :
    refCpOf q pa ms (ix3 b k j) = Ideal.div (∑ n : Fin 16384, q (ix3 b n k) * pa (ix3 b n j)) (ms (ix3 b k (0 : Fin 1))) := by
  unfold refCpOf
  change Ideal.div _ _ = _
  rw [dot_mid2, bcast_col2]

/-- The round's new spectral centers are the specification's. -/
theorem refCs_apply (hP : ∀ b n j, pa (ix3 b n j) = pa (ix3 (0 : Fin 4) n j)) (b : Fin 4) (k : Fin 256) (c : Fin 200) :
    refCs xa pa csa cpa (ix3 b k c)
      = Spec.csR Spec.wordsI (Xf xa) (Spec.qR Spec.wordsI (Xf xa) (Pf pa) (CSf csa) (CPf cpa)) b k c := by
  unfold refCs refMass
  rw [refCsOf_apply, refMassOf_apply, ← Qf_refQ xa pa csa cpa hP]
  rfl

/-- The round's new spatial centers are the specification's. -/
theorem refCp_apply (hP : ∀ b n j, pa (ix3 b n j) = pa (ix3 (0 : Fin 4) n j)) (b : Fin 4) (k : Fin 256) (j : Fin 2) :
    refCp xa pa csa cpa (ix3 b k j)
      = Spec.cpR Spec.wordsI (Pf pa) (Spec.qR Spec.wordsI (Xf xa) (Pf pa) (CSf csa) (CPf cpa)) b k j := by
  unfold refCp refMass
  rw [refCpOf_apply, refMassOf_apply, ← Qf_refQ xa pa csa cpa hP]
  simp only [hP b]
  rfl

end Apply

end Cert.Proof.Slic.Ref

end
-- ==== Proof.RefIter.lean ====
/-
  The reference program's five rounds. Each named stage of its run is the round's stage of the pixels, the pixel
  coordinates and the previous round's centers; the pixel coordinates are one array broadcast over the batch; so the
  final weights and the final spectral centers, read at an index, are the specification's fifth-round weights of
  the centers after four rounds and its centers after five.
-/
import proofs.«138879_j15556371546814_2_alg».proof.Proof.RefRound
import proofs.«138879_j15556371546814_2_alg».proof.Proof.Gen.ReferenceIdeal.Run

noncomputable section

namespace Cert.Proof.Slic.Ref

open Cert.ReferenceIdeal Cert.ReferenceIdeal.Gen Cert.ReferenceIdeal.Value Idealize.ShloMosaic Idealize.ShloMosaic.TcCoe Idealize.SL.Sem Idealize.ShloMosaic.ValueIdx
open scoped BigOperators

variable (V0 : Valuation τ sig (Elt Ideal))

/-! ## The named stages are the round's stages -/

/-- The pixels, the pixel coordinates, and the seed centers of the run. -/
abbrev xs : Vec S4x16384x200 := res_main_v36 V0
abbrev ps : Vec S4x16384x2 := res_main_v34 V0

/-! Round 1. -/
theorem v85_eq : res_main_v85 V0 = refScore (xs V0) (ps V0) (res_main_v47 V0) (res_main_v49 V0) := rfl
theorem v92_eq : res_main_v92 V0 = refExp (xs V0) (ps V0) (res_main_v47 V0) (res_main_v49 V0) :=
  (show res_main_v92 V0 = refExpOf (res_main_v85 V0) from rfl).trans (congrArg refExpOf (v85_eq V0))
theorem v96_eq : res_main_v96 V0 = refQ (xs V0) (ps V0) (res_main_v47 V0) (res_main_v49 V0) :=
  (show res_main_v96 V0 = refQOf (res_main_v92 V0) from rfl).trans (congrArg refQOf (v92_eq V0))
theorem v100_eq : res_main_v100 V0 = refMass (xs V0) (ps V0) (res_main_v47 V0) (res_main_v49 V0) :=
  (show res_main_v100 V0 = refMassOf (res_main_v96 V0) from rfl).trans (congrArg refMassOf (v96_eq V0))
theorem v103_eq : res_main_v103 V0 = refCs (xs V0) (ps V0) (res_main_v47 V0) (res_main_v49 V0) :=
  (show res_main_v103 V0 = refCsOf (res_main_v96 V0) (xs V0) (res_main_v100 V0) from rfl).trans
    (by rw [v96_eq, v100_eq]; rfl)
theorem v106_eq : res_main_v106 V0 = refCp (xs V0) (ps V0) (res_main_v47 V0) (res_main_v49 V0) :=
  (show res_main_v106 V0 = refCpOf (res_main_v96 V0) (ps V0) (res_main_v100 V0) from rfl).trans
    (by rw [v96_eq, v100_eq]; rfl)

/-! Round 2. -/
theorem v142_eq : res_main_v142 V0 = refScore (xs V0) (ps V0) (res_main_v103 V0) (res_main_v106 V0) := rfl
theorem v149_eq : res_main_v149 V0 = refExp (xs V0) (ps V0) (res_main_v103 V0) (res_main_v106 V0) :=
  (show res_main_v149 V0 = refExpOf (res_main_v142 V0) from rfl).trans (congrArg refExpOf (v142_eq V0))
theorem v153_eq : res_main_v153 V0 = refQ (xs V0) (ps V0) (res_main_v103 V0) (res_main_v106 V0) :=
  (show res_main_v153 V0 = refQOf (res_main_v149 V0) from rfl).trans (congrArg refQOf (v149_eq V0))
theorem v157_eq : res_main_v157 V0 = refMass (xs V0) (ps V0) (res_main_v103 V0) (res_main_v106 V0) :=
  (show res_main_v157 V0 = refMassOf (res_main_v153 V0) from rfl).trans (congrArg refMassOf (v153_eq V0))
theorem v160_eq : res_main_v160 V0 = refCs (xs V0) (ps V0) (res_main_v103 V0) (res_main_v106 V0) :=
  (show res_main_v160 V0 = refCsOf (res_main_v153 V0) (xs V0) (res_main_v157 V0) from rfl).trans
    (by rw [v153_eq, v157_eq]; rfl)
theorem v163_eq : res_main_v163 V0 = refCp (xs V0) (ps V0) (res_main_v103 V0) (res_main_v106 V0) :=
  (show res_main_v163 V0 = refCpOf (res_main_v153 V0) (ps V0) (res_main_v157 V0) from rfl).trans
    (by rw [v153_eq, v157_eq]; rfl)

/-! Round 3. -/
theorem v199_eq : res_main_v199 V0 = refScore (xs V0) (ps V0) (res_main_v160 V0) (res_main_v163 V0) := rfl
theorem v206_eq : res_main_v206 V0 = refExp (xs V0) (ps V0) (res_main_v160 V0) (res_main_v163 V0) :=
  (show res_main_v206 V0 = refExpOf (res_main_v199 V0) from rfl).trans (congrArg refExpOf (v199_eq V0))
theorem v210_eq : res_main_v210 V0 = refQ (xs V0) (ps V0) (res_main_v160 V0) (res_main_v163 V0) :=
  (show res_main_v210 V0 = refQOf (res_main_v206 V0) from rfl).trans (congrArg refQOf (v206_eq V0))
theorem v214_eq : res_main_v214 V0 = refMass (xs V0) (ps V0) (res_main_v160 V0) (res_main_v163 V0) :=
  (show res_main_v214 V0 = refMassOf (res_main_v210 V0) from rfl).trans (congrArg refMassOf (v210_eq V0))
theorem v217_eq : res_main_v217 V0 = refCs (xs V0) (ps V0) (res_main_v160 V0) (res_main_v163 V0) :=
  (show res_main_v217 V0 = refCsOf (res_main_v210 V0) (xs V0) (res_main_v214 V0) from rfl).trans
    (by rw [v210_eq, v214_eq]; rfl)
theorem v220_eq : res_main_v220 V0 = refCp (xs V0) (ps V0) (res_main_v160 V0) (res_main_v163 V0) :=
  (show res_main_v220 V0 = refCpOf (res_main_v210 V0) (ps V0) (res_main_v214 V0) from rfl).trans
    (by rw [v210_eq, v214_eq]; rfl)

/-! Round 4. -/
theorem v256_eq : res_main_v256 V0 = refScore (xs V0) (ps V0) (res_main_v217 V0) (res_main_v220 V0) := rfl
theorem v263_eq : res_main_v263 V0 = refExp (xs V0) (ps V0) (res_main_v217 V0) (res_main_v220 V0) :=
  (show res_main_v263 V0 = refExpOf (res_main_v256 V0) from rfl).trans (congrArg refExpOf (v256_eq V0))
theorem v267_eq : res_main_v267 V0 = refQ (xs V0) (ps V0) (res_main_v217 V0) (res_main_v220 V0) :=
  (show res_main_v267 V0 = refQOf (res_main_v263 V0) from rfl).trans (congrArg refQOf (v263_eq V0))
theorem v271_eq : res_main_v271 V0 = refMass (xs V0) (ps V0) (res_main_v217 V0) (res_main_v220 V0) :=
  (show res_main_v271 V0 = refMassOf (res_main_v267 V0) from rfl).trans (congrArg refMassOf (v267_eq V0))
theorem v274_eq : res_main_v274 V0 = refCs (xs V0) (ps V0) (res_main_v217 V0) (res_main_v220 V0) :=
  (show res_main_v274 V0 = refCsOf (res_main_v267 V0) (xs V0) (res_main_v271 V0) from rfl).trans
    (by rw [v267_eq, v271_eq]; rfl)
theorem v277_eq : res_main_v277 V0 = refCp (xs V0) (ps V0) (res_main_v217 V0) (res_main_v220 V0) :=
  (show res_main_v277 V0 = refCpOf (res_main_v267 V0) (ps V0) (res_main_v271 V0) from rfl).trans
    (by rw [v267_eq, v271_eq]; rfl)

/-! Round 5. -/
theorem v313_eq : res_main_v313 V0 = refScore (xs V0) (ps V0) (res_main_v274 V0) (res_main_v277 V0) := rfl
theorem v320_eq : res_main_v320 V0 = refExp (xs V0) (ps V0) (res_main_v274 V0) (res_main_v277 V0) :=
  (show res_main_v320 V0 = refExpOf (res_main_v313 V0) from rfl).trans (congrArg refExpOf (v313_eq V0))
theorem v324_eq : res_main_v324 V0 = refQ (xs V0) (ps V0) (res_main_v274 V0) (res_main_v277 V0) :=
  (show res_main_v324 V0 = refQOf (res_main_v320 V0) from rfl).trans (congrArg refQOf (v320_eq V0))
theorem v328_eq : res_main_v328 V0 = refMass (xs V0) (ps V0) (res_main_v274 V0) (res_main_v277 V0) :=
  (show res_main_v328 V0 = refMassOf (res_main_v324 V0) from rfl).trans (congrArg refMassOf (v324_eq V0))

/-! ## The pixel coordinates are one array broadcast over the batch -/

/-- A [1,16384,2] array broadcast over the four batches reads its one copy. -/
theorem bcast_batch2 {α : Type} (g : S1x16384x2.Idx → α) (b : Fin 4) (n : Fin 16384) (j : Fin 2) :
    broadcastInDim S4x16384x2 ![0, 1, 2] bcast_S1x16384x2_S4x16384x2_0_1_2 g (ix3 b n j) = g (ix3 (0 : Fin 1) n j) := by
  refine broadcastInDim_apply _ _ _ _ (ix3 (0 : Fin 1) n j) (fun a => ?_)
  match a with
  | ⟨0, _⟩ => rfl
  | ⟨1, _⟩ => rfl
  | ⟨2, _⟩ => rfl

/-- The pixel coordinates do not depend on the batch. -/
theorem ps_batch (b : Fin 4) (n : Fin 16384) (j : Fin 2) : ps V0 (ix3 b n j) = ps V0 (ix3 (0 : Fin 4) n j) := by
  show res_main_v34 V0 (ix3 b n j) = res_main_v34 V0 (ix3 (0 : Fin 4) n j)
  unfold res_main_v34
  exact (bcast_batch2 _ b n j).trans (bcast_batch2 _ 0 n j).symm

/-! ## Five rounds -/

/-- The data of the specification read off the run. -/
abbrev X : Spec.XT := Xf (xs V0)
abbrev P : Spec.PT := Pf (ps V0)
abbrev CS0 : Spec.CS := CSf (res_main_v47 V0)
abbrev CP0 : Spec.CP := CPf (res_main_v49 V0)

/-- One round of the reference takes centers that are the specification's after r rounds to the specification's
    after r + 1. -/
theorem round_step (r : ℕ) (csa : Vec S4x256x200) (cpa : Vec S4x256x2)
    (h : (CSf csa, CPf cpa) = Spec.iterR Spec.wordsI (X V0) (P V0) (CS0 V0) (CP0 V0) r) :
    (CSf (refCs (xs V0) (ps V0) csa cpa), CPf (refCp (xs V0) (ps V0) csa cpa))
      = Spec.iterR Spec.wordsI (X V0) (P V0) (CS0 V0) (CP0 V0) (r + 1) := by
  have e1 : CSf (refCs (xs V0) (ps V0) csa cpa)
      = Spec.csR Spec.wordsI (X V0) (Spec.qR Spec.wordsI (X V0) (P V0) (CSf csa) (CPf cpa)) :=
    funext fun b => funext fun k => funext fun c => refCs_apply (xs V0) (ps V0) csa cpa (ps_batch V0) b k c
  have e2 : CPf (refCp (xs V0) (ps V0) csa cpa)
      = Spec.cpR Spec.wordsI (P V0) (Spec.qR Spec.wordsI (X V0) (P V0) (CSf csa) (CPf cpa)) :=
    funext fun b => funext fun k => funext fun j => refCp_apply (xs V0) (ps V0) csa cpa (ps_batch V0) b k j
  rw [e1, e2]
  show _ = (Spec.csR Spec.wordsI (X V0) (Spec.qR Spec.wordsI (X V0) (P V0)
      (Spec.iterR Spec.wordsI (X V0) (P V0) (CS0 V0) (CP0 V0) r).1 (Spec.iterR Spec.wordsI (X V0) (P V0) (CS0 V0) (CP0 V0) r).2),
    Spec.cpR Spec.wordsI (P V0) (Spec.qR Spec.wordsI (X V0) (P V0)
      (Spec.iterR Spec.wordsI (X V0) (P V0) (CS0 V0) (CP0 V0) r).1 (Spec.iterR Spec.wordsI (X V0) (P V0) (CS0 V0) (CP0 V0) r).2))
  rw [← h]

/-- The centers after each of the first four rounds. -/
theorem centers0 : (CSf (res_main_v47 V0), CPf (res_main_v49 V0)) = Spec.iterR Spec.wordsI (X V0) (P V0) (CS0 V0) (CP0 V0) 0 := rfl
theorem centers1 : (CSf (res_main_v103 V0), CPf (res_main_v106 V0)) = Spec.iterR Spec.wordsI (X V0) (P V0) (CS0 V0) (CP0 V0) 1 := by
  rw [v103_eq, v106_eq]; exact round_step V0 0 _ _ (centers0 V0)
theorem centers2 : (CSf (res_main_v160 V0), CPf (res_main_v163 V0)) = Spec.iterR Spec.wordsI (X V0) (P V0) (CS0 V0) (CP0 V0) 2 := by
  rw [v160_eq, v163_eq]; exact round_step V0 1 _ _ (centers1 V0)
theorem centers3 : (CSf (res_main_v217 V0), CPf (res_main_v220 V0)) = Spec.iterR Spec.wordsI (X V0) (P V0) (CS0 V0) (CP0 V0) 3 := by
  rw [v217_eq, v220_eq]; exact round_step V0 2 _ _ (centers2 V0)
theorem centers4 : (CSf (res_main_v274 V0), CPf (res_main_v277 V0)) = Spec.iterR Spec.wordsI (X V0) (P V0) (CS0 V0) (CP0 V0) 4 := by
  rw [v274_eq, v277_eq]; exact round_step V0 3 _ _ (centers3 V0)

/-- The first result: the fifth round's weights, of the centers after four rounds. -/
theorem q_final (b : Fin 4) (n : Fin 16384) (k : Fin 256) :
    res_main_v324 V0 (ix3 b n k)
      = Spec.qR Spec.wordsI (X V0) (P V0) (Spec.iterR Spec.wordsI (X V0) (P V0) (CS0 V0) (CP0 V0) 4).1
          (Spec.iterR Spec.wordsI (X V0) (P V0) (CS0 V0) (CP0 V0) 4).2 b n k := by
  rw [v324_eq, refQ_apply (xs V0) (ps V0) _ _ (ps_batch V0), ← centers4 V0]

/-- The second result: the spectral centers after five rounds. -/
theorem cs_final (b : Fin 4) (k : Fin 256) (c : Fin 200) :
    (Host.divf (F := Ideal) (Host.dotGeneral (φ₁ := .f32) (φ₂ := .f32) dot_S4x16384x256_S4x16384x200_S4x256x200_1_1_2_2_0_0 none (res_main_v324 V0 : Vec S4x16384x256) (res_main_v36 V0 : Vec S4x16384x200))
        (broadcastInDim S4x256x200 ![0, 1, 2] bcast_S4x256x1_S4x256x200_0_1_2 (res_main_v328 V0 : Vec S4x256x1))) (ix3 b k c)
      = (Spec.iterR Spec.wordsI (X V0) (P V0) (CS0 V0) (CP0 V0) 5).1 b k c := by
  have e : Host.divf (F := Ideal) (Host.dotGeneral (φ₁ := .f32) (φ₂ := .f32) dot_S4x16384x256_S4x16384x200_S4x256x200_1_1_2_2_0_0 none (res_main_v324 V0 : Vec S4x16384x256) (res_main_v36 V0 : Vec S4x16384x200))
        (broadcastInDim S4x256x200 ![0, 1, 2] bcast_S4x256x1_S4x256x200_0_1_2 (res_main_v328 V0 : Vec S4x256x1))
      = refCs (xs V0) (ps V0) (res_main_v274 V0) (res_main_v277 V0) := by
    show refCsOf (res_main_v324 V0) (xs V0) (res_main_v328 V0) = _
    rw [v324_eq, v328_eq]; rfl
  rw [e]
  exact congrFun (congrFun (congrFun (congrArg Prod.fst (round_step V0 4 _ _ (centers4 V0))) b) k) c

end Cert.Proof.Slic.Ref

end
-- ==== Proof.KSeeds.lean ====
/-
  The data and the seeds are the same on both sides. Before its five rounds the kernel program prepares, by host
  operations, the pixel block in channel-last layout (the argument transposed and reshaped to 4 x 16384 x 200,
  then rounded to the narrower float format, which over the extended reals is the identity), the seed spectral
  centers (256 pixels of the first image, on a 16 x 16 grid of rows 4 + 8 a and columns 4 + 8 b, gathered and
  repeated over the batch) and the seed coordinates (those rows and columns as floats). The reference computes
  the same three arrays by the same operations in the same order. So when the two arguments hold the same
  contents, the three arrays agree: the two terms are the same operations applied to the same argument, each
  program spelling the shapes and the side conditions with its own names.
-/
import proofs.«138879_j15556371546814_2_alg».proof.Proof.IRun
import proofs.«138879_j15556371546814_2_alg».proof.Proof.Gen.ReferenceIdeal.Run
import Idealize.ShloMosaic.PureOps.Ideal
import Idealize.ShloMosaic.Lib.ValueIdx

set_option maxRecDepth 16384

noncomputable section

namespace Cert.Proof.Slic

open Idealize.ShloMosaic Idealize.ShloMosaic.TcCoe Idealize.SL.Sem Idealize.ShloMosaic.StableHlo
open Cert.KernelIdeal.Slic.Run (Wh W0)
open Cert.ReferenceIdeal.Value (res_main_v10 res_main_v11 res_main_v22 res_main_v36 res_main_v47 res_main_v49)

/-- The pixel block the five rounds read is the reference's pixel array. -/
theorem seeds_x (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hV : V0 (Proc.devRef .tc Cert.ReferenceIdeal.main_arg0)
      = m ((c : Thread Cert.KernelIdeal.nD Cert.KernelIdeal.τ).loc Cert.KernelIdeal.main_arg0)) :
    Wh m c (Proc.devRef .tc Cert.KernelIdeal.main_v25) = res_main_v36 V0 := by
  unfold Wh res_main_v36
  simp only [Cert.KernelIdeal.Gen.hostOps0]
  after_results_simp
  funext i
  refine (ValueIdx.truncf_apply (φ := .f32) (ψ := .bf16) _ Cert.KernelIdeal.Gen.bitsLt_bf16_f32 i).trans ?_
  rw [hV]
  rfl

/-- The seed spectral centers agree. -/
theorem seeds_cs (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hV : V0 (Proc.devRef .tc Cert.ReferenceIdeal.main_arg0)
      = m ((c : Thread Cert.KernelIdeal.nD Cert.KernelIdeal.τ).loc Cert.KernelIdeal.main_arg0)) :
    Wh m c (Proc.devRef .tc Cert.KernelIdeal.main_v36) = res_main_v47 V0 := by
  unfold Wh res_main_v47 res_main_v36 res_main_v22 res_main_v10 res_main_v11
  simp only [Cert.KernelIdeal.Gen.hostOps0]
  after_results_simp
  rw [hV]
  rfl

/-- The seed coordinates agree (they do not depend on the argument). -/
theorem seeds_cp (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal)) :
    Wh m c (Proc.devRef .tc Cert.KernelIdeal.main_v38) = res_main_v49 V0 := by
  unfold Wh res_main_v49 res_main_v10 res_main_v11
  simp only [Cert.KernelIdeal.Gen.hostOps0]
  after_results_simp
  repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.Proof.Slic

end
-- ==== Proof.Finite.lean ====
/-
  The data are real. The precondition says that every entry of the argument has absolute value below plus
  infinity; over the extended reals that excludes the two infinities, so every entry is the coercion of a real.
  The pixel block and the seed spectral centers are made from the argument by layout operations only (a transpose,
  reshapes, a slice, a gather, broadcasts, and a change of float format that is the identity here): every entry of
  the result of such an operation is an entry of its operand, so they are real too. The seed coordinates are
  integers converted to floats, which are real whatever the integers are.
-/
import proofs.«138879_j15556371546814_2_alg».proof.Defs
import proofs.«138879_j15556371546814_2_alg».proof.Proof.SpecLaw
import proofs.«138879_j15556371546814_2_alg».proof.Proof.IRun
import Idealize.ShloMosaic.PureOps.Ideal
import Idealize.ShloMosaic.Lib.ValueIdx
import Idealize.ShloMosaic.Lib.ReduceAll

set_option maxRecDepth 16384

noncomputable section

namespace Cert.Proof.Slic

open Idealize.ShloMosaic Idealize.ShloMosaic.TcCoe Idealize.SL.Sem Idealize.ShloMosaic.StableHlo
open Idealize.ShloMosaic.ValueIdx
open Cert.KernelIdeal.Slic.Run (Wh W0)

/-! ## Layout operations keep every entry real -/

section Layout

variable {s t : Shape}

theorem allReal_transpose {perm : List (Fin s.rank)} {x : s.Idx → EReal} {h : s.Transposes perm t}
    (hx : ∀ i, IsReal (x i)) : ∀ j, IsReal (transpose t perm x h j) := fun _ => hx _

theorem allReal_shapeCast {x : s.Idx → EReal} {h : s.ShapeCasts t}
    (hx : ∀ i, IsReal (x i)) : ∀ j, IsReal (shapeCast t x h j) := fun _ => hx _

theorem allReal_extractStridedSlice {off : Fin s.rank → Nat} {x : s.Idx → EReal} {h : s.Slices off t}
    (hx : ∀ i, IsReal (x i)) : ∀ j, IsReal (extractStridedSlice t off x h j) := fun _ => hx _

theorem allReal_broadcastInDim {dims : Fin s.rank → Fin t.rank} {h : s.BroadcastsInDim t dims} {x : s.Idx → EReal}
    (hx : ∀ i, IsReal (x i)) : ∀ j, IsReal (broadcastInDim t dims h x j) := fun _ => hx _

theorem allReal_gather {si : Shape} {w : Nat} {d : GatherDims s si t} {x : s.Idx → EReal} {idx : IVec si w}
    (hx : ∀ i, IsReal (x i)) : ∀ j, IsReal (Host.gather d x idx j) := fun _ => hx _

/-- An integer converted to a float is real. -/
theorem allReal_sitofp {w : Nat} (x : IVec s w) : ∀ j, IsReal ((sitofp .f32 x : FVec Ideal s .f32) j) :=
  fun _ => ⟨_, rfl⟩

end Layout

/-! ## The argument -/

/-- An extended real whose absolute value compares below plus infinity is real. -/
theorem isReal_of_abs_lt_top (x : EReal)
    (h : FloatOps.cmpf (F := Ideal) (φ := .f32) .olt (FloatOps.hostAbsf (F := Ideal) (φ := .f32) x)
      (Ideal.ofBits .f32 0x7F800000#32) = 1#1) : IsReal x := by
  have htop : Ideal.ofBits .f32 0x7F800000#32 = ⊤ := by simp [Ideal.ofBits, Ideal.ieee]
  rw [htop] at h
  induction x using EReal.rec with
  | bot =>
    exfalso
    have : (max (⊥ : EReal) (-⊥)) = ⊤ := by simp
    revert h
    show Ideal.cmp .olt (max (⊥ : EReal) (-⊥)) ⊤ = 1#1 → False
    rw [this]
    simp [Ideal.cmp]
  | coe r => exact ⟨r, rfl⟩
  | top =>
    exfalso
    have : (max (⊤ : EReal) (-⊤)) = ⊤ := by simp
    revert h
    show Ideal.cmp .olt (max (⊤ : EReal) (-⊤)) ⊤ = 1#1 → False
    rw [this]
    simp [Ideal.cmp]

instance : Subsingleton Cert.Pre_finite_inputs.S_.Idx := ⟨fun _ _ => funext fun d => d.elim0⟩

/-- Under the precondition every entry of the argument is real. -/
theorem finite_arg [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal (m ((c : Thread Cert.KernelIdeal.nD Cert.KernelIdeal.τ).loc Cert.KernelIdeal.main_arg0) i) := by
  intro i
  have h0 := congrFun (hpre c) ValueIdx.ix0
  dsimp only [Cert.Pre_finite_inputs.fn] at h0
  have hi := Host.reduce_andi_all _ _ _ _ _ h0 i
  exact isReal_of_abs_lt_top _ hi

/-! ## The pixel block and the seeds -/

/-- The pixel block the rounds read, as a spectrum array. -/
def Xk (m : (ℓ : Loc Cert.KernelIdeal.nD Cert.KernelIdeal.τ Cert.KernelIdeal.sig) → Buf (Elt Ideal) ℓ)
    (c : Dev Cert.KernelIdeal.nD) : Spec.XT :=
  fun b n ch => Wh m c (Proc.devRef .tc Cert.KernelIdeal.main_v25) (ix3 b n ch)

/-- The seed spectral centers. -/
def CS0k (m : (ℓ : Loc Cert.KernelIdeal.nD Cert.KernelIdeal.τ Cert.KernelIdeal.sig) → Buf (Elt Ideal) ℓ)
    (c : Dev Cert.KernelIdeal.nD) : Spec.CS :=
  fun b k ch => Wh m c (Proc.devRef .tc Cert.KernelIdeal.main_v36) (ix3 b k ch)

/-- The seed coordinates. -/
def CP0k (m : (ℓ : Loc Cert.KernelIdeal.nD Cert.KernelIdeal.τ Cert.KernelIdeal.sig) → Buf (Elt Ideal) ℓ)
    (c : Dev Cert.KernelIdeal.nD) : Spec.CP :=
  fun b k j => Wh m c (Proc.devRef .tc Cert.KernelIdeal.main_v38) (ix3 b k j)

/-- Every entry of the pixel block is an entry of the argument, hence real. -/
theorem wh_x_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j, IsReal (Wh m c (Proc.devRef .tc Cert.KernelIdeal.main_v25) j) := by
  unfold Wh
  simp only [Cert.KernelIdeal.Gen.hostOps0]
  after_results_simp
  intro j
  refine (ValueIdx.truncf_apply (φ := .f32) (ψ := .bf16) _ Cert.KernelIdeal.Gen.bitsLt_bf16_f32 j) ▸ ?_
  exact allReal_shapeCast (allReal_transpose (finite_arg m hpre c)) j

/-- Every entry of the seed spectral centers is an entry of the argument, hence real. -/
theorem wh_cs_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j, IsReal (Wh m c (Proc.devRef .tc Cert.KernelIdeal.main_v36) j) := by
  unfold Wh
  simp only [Cert.KernelIdeal.Gen.hostOps0]
  after_results_simp
  exact allReal_broadcastInDim (allReal_broadcastInDim (allReal_gather (allReal_shapeCast
    (allReal_extractStridedSlice (allReal_shapeCast (allReal_transpose (finite_arg m hpre c)))))))

/-- The seed coordinates are integers converted to floats, hence real. -/
theorem wh_cp_real
    (m : (ℓ : Loc Cert.KernelIdeal.nD Cert.KernelIdeal.τ Cert.KernelIdeal.sig) → Buf (Elt Ideal) ℓ)
    (c : Dev Cert.KernelIdeal.nD) :
    ∀ j, IsReal (Wh m c (Proc.devRef .tc Cert.KernelIdeal.main_v38) j) := by
  unfold Wh
  simp only [Cert.KernelIdeal.Gen.hostOps0]
  after_results_simp
  exact allReal_broadcastInDim (allReal_broadcastInDim (allReal_sitofp _))

theorem real_X [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Spec.RealX (Xk m c) :=
  fun b n ch => wh_x_real m hpre c (ix3 b n ch)

theorem real_CS0 [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Spec.RealCS (CS0k m c) :=
  fun b k ch => wh_cs_real m hpre c (ix3 b k ch)

theorem real_CP0
    (m : (ℓ : Loc Cert.KernelIdeal.nD Cert.KernelIdeal.τ Cert.KernelIdeal.sig) → Buf (Elt Ideal) ℓ)
    (c : Dev Cert.KernelIdeal.nD) : Spec.RealCP (CP0k m c) :=
  fun b k j => wh_cp_real m c (ix3 b k j)

end Cert.Proof.Slic

end
-- ==== Proof.lean ====
/-
  The certificate of a five-round soft clustering kernel against its whole-array reference.

  Both programs start from the same seed centers (a 16 x 16 grid of pixels of the first image, with their
  coordinates) and run five rounds of: distances from every pixel to every center (spectral plus 1.25 times
  spatial, each the square root of a squared distance floored at 1e-12), a softmax of the negated distances over
  the centers, and new centers as the softmax-weighted means of the pixels and of their coordinates, the mass
  offset by 1e-6. The kernel runs each round as one pallas_call over a 4 x 4 grid (batch, tile of 4096 pixels)
  with three accumulators carried across the tiles of a batch; the reference sums over all 16384 pixels at once.

  Proved here: each of the three programs terminates on every weakly fair execution, faults nowhere and leaves
  the argument array as launched (the two kernel programs by composing the five rounds' segments, the reference
  by its run); the idealization rewrote no operation, so that conjunct is trivial; and at the ideal instance the
  two programs end with equal results. For the last: the kernel's run ends with every buffer at the contents the
  fifth round leaves, which are, index by index, the assignment weights of the fifth round and the spectral
  centers after five rounds in the kernel's arrangement (tile sums, direct spatial distance) from the seed
  centers; the reference's run ends at the same in its own arrangement; the pixels, their coordinates and the
  seeds are the same arrays on both sides; and on real data the two arrangements agree round by round, the
  centers staying real (the precondition makes the pixels real).
-/
import proofs.«138879_j15556371546814_2_alg».proof.Defs
import proofs.«138879_j15556371546814_2_alg».proof.Proof.Gen.Kernel
import proofs.«138879_j15556371546814_2_alg».proof.Proof.Gen.KernelIdeal
import proofs.«138879_j15556371546814_2_alg».proof.Proof.Gen.ReferenceIdeal
import proofs.«138879_j15556371546814_2_alg».proof.Proof.Gen.Pre_finite_inputs
import proofs.«138879_j15556371546814_2_alg».proof.Proof.RefFrame
import proofs.«138879_j15556371546814_2_alg».proof.Proof.IRun
import proofs.«138879_j15556371546814_2_alg».proof.Proof.KRun
import proofs.«138879_j15556371546814_2_alg».proof.Proof.IChain
import proofs.«138879_j15556371546814_2_alg».proof.Proof.RefIter
import proofs.«138879_j15556371546814_2_alg».proof.Proof.KSeeds
import proofs.«138879_j15556371546814_2_alg».proof.Proof.Pix
import proofs.«138879_j15556371546814_2_alg».proof.Proof.Finite
import proofs.«138879_j15556371546814_2_alg».proof.Proof.SpecLaw
import Idealize.ShloMosaic.Adequacy
import Idealize.ShloMosaic.Init

noncomputable section

namespace Cert.Proof

open Idealize.ShloMosaic Idealize.ShloMosaic.TcCoe Idealize.ShloMosaic.ValueIdx Idealize.SL.Sem
open Cert.Proof.Slic

/-- The kernel as printed runs and leaves its argument as launched. -/
theorem frame_k : Cert.frame_Kernel (hKernel := Cert.Kernel.Gen.facts) (hPre_finite_inputs := Cert.Pre_finite_inputs.Gen.facts) :=
  fun m ρ _ => Cert.Kernel.Slic.Run.frame (F := Bits) m ρ

/-- The idealized kernel runs and leaves its argument as launched. -/
theorem frame_ki : Cert.frame_KernelIdeal (hKernelIdeal := Cert.KernelIdeal.Gen.facts) (hPre_finite_inputs := Cert.Pre_finite_inputs.Gen.facts) :=
  fun m ρ _ => Cert.KernelIdeal.Slic.Run.frame (F := Ideal) m ρ

/-- The data and the seeds are the same arrays on both sides, given that the memories agree on the argument. -/
theorem same_data
    (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hV : V0 (Proc.devRef .tc Cert.ReferenceIdeal.main_arg0) = m ((c : Thread Cert.KernelIdeal.nD Cert.KernelIdeal.τ).loc Cert.KernelIdeal.main_arg0)) :
    Ref.X V0 = Chain.X m c ∧ Ref.P V0 = pixSpec ∧ Ref.CS0 V0 = Chain.CS0 m c ∧ Ref.CP0 V0 = Chain.CP0 m c :=
  ⟨funext fun b => funext fun n => funext fun ch => (congrFun (seeds_x m c V0 hV) (ix3 b n ch)).symm,
   funext fun n => funext fun j => ref_pix V0 0 n j,
   funext fun b => funext fun k => funext fun ch => (congrFun (seeds_cs m c V0 hV) (ix3 b k ch)).symm,
   funext fun b => funext fun k => funext fun j => (congrFun (seeds_cp m c V0) (ix3 b k j)).symm⟩

/-- Equal data on the two sides carry the rounds' agreement across: the reference's weights at its own data are the
    kernel's weights at the kernel's data. -/
theorem q_transfer (w : Spec.Words) {x x' : Spec.XT} {p p' : Spec.PT} {cs cs' : Spec.CS} {cp cp' : Spec.CP}
    (hx : x' = x) (hp : p' = p) (hcs : cs' = cs) (hcp : cp' = cp) (r : ℕ)
    (law : Spec.qK w x p (Spec.iterK w x p cs cp r).1 (Spec.iterK w x p cs cp r).2
      = Spec.qR w x p (Spec.iterR w x p cs cp r).1 (Spec.iterR w x p cs cp r).2) :
    Spec.qR w x' p' (Spec.iterR w x' p' cs' cp' r).1 (Spec.iterR w x' p' cs' cp' r).2
      = Spec.qK w x p (Spec.iterK w x p cs cp r).1 (Spec.iterK w x p cs cp r).2 := by
  subst hx hp hcs hcp; exact law.symm

/-- Likewise for the spectral centers after `r` rounds. -/
theorem cs_transfer (w : Spec.Words) {x x' : Spec.XT} {p p' : Spec.PT} {cs cs' : Spec.CS} {cp cp' : Spec.CP}
    (hx : x' = x) (hp : p' = p) (hcs : cs' = cs) (hcp : cp' = cp) (r : ℕ)
    (law : (Spec.iterK w x p cs cp r).1 = (Spec.iterR w x p cs cp r).1) :
    (Spec.iterR w x' p' cs' cp' r).1 = (Spec.iterK w x p cs cp r).1 := by
  subst hx hp hcs hcp; exact law.symm

set_option maxHeartbeats 2000000 in
/-- At the ideal instance the two programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Slic.Run.W5 (F := Ideal) m c (Proc.devRef .tc Cert.KernelIdeal.main_v43_2),
    fun c => Cert.KernelIdeal.Slic.Run.W5 (F := Ideal) m c (Proc.devRef .tc Cert.KernelIdeal.main_v43_0),
    Cert.KernelIdeal.Slic.Run.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨eX, eP, eCS, eCP⟩ := same_data m c (StableHlo.launchContents m' c) (hagree c)
    funext i
    obtain ⟨b, n, k, rfl⟩ : ∃ (b : Fin 4) (n : Fin 16384) (k : Fin 256), i = ix3 b n k := ⟨i 0, i 1, i 2, eq_ix3 i⟩
    have hk : Cert.KernelIdeal.Slic.Run.W5 (F := Ideal) m c (Proc.devRef .tc Cert.KernelIdeal.main_v43_2) (ix3 b n k)
        = Spec.qK Spec.wordsI (Chain.X m c) pixSpec (Spec.iterK Spec.wordsI (Chain.X m c) pixSpec (Chain.CS0 m c) (Chain.CP0 m c) 4).1
            (Spec.iterK Spec.wordsI (Chain.X m c) pixSpec (Chain.CS0 m c) (Chain.CP0 m c) 4).2 b n k := Chain.kq m c b n k
    refine (Ref.q_final (StableHlo.launchContents m' c) b n k).trans ?_
    refine Eq.trans ?_ hk.symm
    exact congrFun (congrFun (congrFun (q_transfer Spec.wordsI eX eP eCS eCP 4
      (Spec.final_q_eq Spec.wordsI_good (real_X m hpre c) pixSpec_real (real_CS0 m hpre c) (real_CP0 m c))) b) n) k
  · obtain ⟨eX, eP, eCS, eCP⟩ := same_data m c (StableHlo.launchContents m' c) (hagree c)
    funext i
    obtain ⟨b, k, ch, rfl⟩ : ∃ (b : Fin 4) (k : Fin 256) (ch : Fin 200), i = ix3 b k ch := ⟨i 0, i 1, i 2, eq_ix3 i⟩
    have hk : Cert.KernelIdeal.Slic.Run.W5 (F := Ideal) m c (Proc.devRef .tc Cert.KernelIdeal.main_v43_0) (ix3 b k ch)
        = (Spec.iterK Spec.wordsI (Chain.X m c) pixSpec (Chain.CS0 m c) (Chain.CP0 m c) 5).1 b k ch := Chain.kcs m c b k ch
    refine (Ref.cs_final (StableHlo.launchContents m' c) b k ch).trans ?_
    refine Eq.trans ?_ hk.symm
    exact congrFun (congrFun (congrFun (cs_transfer Spec.wordsI eX eP eCS eCP 5
      (Spec.final_cs_eq Spec.wordsI_good (real_X m hpre c) pixSpec_real (real_CS0 m hpre c) (real_CP0 m c))) b) k) ch

theorem claim : Cert.Claim := ⟨Cert.Kernel.Gen.facts, Cert.KernelIdeal.Gen.facts, Cert.ReferenceIdeal.Gen.facts, Cert.Pre_finite_inputs.Gen.facts,
  frame_k, frame_ki, Cert.Proof.Slic.frame_reference, trivial, algebraic⟩

end Cert.Proof

end
